-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v60)) (v2 : (c : Dev Cert.KernelIdeal.nD) → Buf (Elt Ideal) ((c.tc : Thread Cert.KernelIdeal.nD Cert.KernelIdeal.τ).loc Cert.KernelIdeal.main_v135)) (v3 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_v135) = v2 c
          ∧ r.2.mem ((c.tc : Thread Cert.KernelIdeal.nD Cert.KernelIdeal.τ).loc Cert.KernelIdeal.main_v120) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S262144x128 : Shape := ⟨2, ![262144, 128]⟩
abbrev S256x128 : Shape := ⟨2, ![256, 128]⟩
abbrev S768x128 : Shape := ⟨2, ![768, 128]⟩
abbrev S128 : Shape := ⟨1, ![128]⟩
abbrev S512x128 : Shape := ⟨2, ![512, 128]⟩
abbrev S2x262144 : Shape := ⟨2, ![2, 262144]⟩
abbrev S131072 : Shape := ⟨1, ![131072]⟩
abbrev S262144 : Shape := ⟨1, ![262144]⟩
abbrev S256 : Shape := ⟨1, ![256]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S256x128 : S_.BroadcastsInDim S256x128 (![] : Fin 0 → Fin S256x128.rank)
  reducesTo_S256x128_S_d0_1 : S256x128.ReducesTo [0, 1] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_arg11 : FVec F S128 .f32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S512x128 .f32) (main_arg9 : FVec F S128 .f32) (main_arg10 : FVec F S512x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S512x128 .f32 := Host.absf main_arg10
  let main_cst_18 : FVec F S_ .f32 := constant S_ .f32 0x7F800000#32
  let main_v50 : FVec F S512x128 .f32 := broadcastInDim S512x128 ![] bcast_S_S512x128 main_cst_18
  fn_part3 (F := F) main_arg11 main_v48 main_v49 main_v50

def fn_part1 {F : FTy → Type} [FloatOps F] (main_arg4 : FVec F S768x128 .f32) (main_arg5 : FVec F S128 .f32) (main_arg6 : FVec F S512x128 .f32) (main_arg7 : FVec F S128 .f32) (main_arg8 : FVec F S512x128 .f32) (main_arg9 : FVec F S128 .f32) (main_arg10 : FVec F S512x128 .f32) (main_arg11 : FVec F S128 .f32) (main_v13 : IVec S_ 1) (main_v16 : IVec S131072x128 1) : IVec S_ 1 :=
  let main_c_5 : IVec S_ 1 := constantI S_ 1 1#1
  let main_v17 : IVec S_ 1 := (fun x v => Host.reduce IntOp.andi x v reducesTo_S131072x128_S_d0_1 h_S_) main_v16 main_c_5
  let main_v18 : IVec S_ 1 := andi main_v13 main_v17
  let main_v19 : FVec F S768x128 .f32 := Host.absf main_arg4
  let main_cst_6 : FVec F S_ .f32 := constant S_ .f32 0x7F800000#32
  let main_v20 : FVec F S768x128 .f32 := broadcastInDim S768x128 ![] bcast_S_S768x128 main_cst_6
  let main_v21 : IVec S768x128 1 := cmpf .olt main_v19 main_v20
  let main_c_7 : IVec S_ 1 := constantI S_ 1 1#1
  let main_v22 : IVec S_ 1 := (fun x v => Host.reduce IntOp.andi x v reducesTo_S768x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x128 .f32) (main_arg1 : FVec F S262144x128 .f32) (main_arg2 : FVec F S256x128 .f32) (main_arg3 : FVec F S131072x128 .f32) (main_arg4 : FVec F S768x128 .f32) (main_arg5 : FVec F S128 .f32) (main_arg6 : FVec F S512x128 .f32) (main_arg7 : FVec F S128 .f32) (main_arg8 : FVec F S512x128 .f32) (main_arg9 : FVec F S128 .f32) (main_arg10 : FVec F S512x128 .f32) (main_arg11 : FVec F S128 .f32) (main_arg12 : IVec S2x262144 32) (main_arg13 : IVec S2x262144 32) (main_arg14 : IVec S131072 32) (main_arg15 : IVec S262144 32) (main_arg16 : IVec S131072 32) (main_arg17 : IVec S131072 1) (main_arg18 : IVec S256 32) (main_arg19 : IVec S256 32) (main_arg20 : IVec S256 32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S131072x128 .f32 := Host.absf main_arg3
  let main_cst_4 : FVec F S_ .f32 := constant S_ .f32 0x7F800000#32
  let main_v15 : FVec F S131072x128 .f32 := broadcastInDim S131072x128 ![] bcast_S_S131072x128 main_cst_4
  let main_v16 : IVec S131072x128 1 := cmpf .olt main_v14 main_v15
  fn_part1 (F := F) main_arg4 main_arg5 main_arg6 main_arg7 main_arg8 main_arg9 main_arg10 main_arg11 main_v13 main_v16
-- ==== Kernel.lean ====
abbrev S131072x128 : Shape := ⟨2, ![131072, 128]⟩
abbrev S262144x128 : Shape := ⟨2, ![262144, 128]⟩
abbrev S256x128 : Shape := ⟨2, ![256, 128]⟩
abbrev S768x128 : Shape := ⟨2, ![768, 128]⟩
abbrev S128 : Shape := ⟨1, ![128]⟩
abbrev S512x128 : Shape := ⟨2, ![512, 128]⟩
abbrev S2x262144 : Shape := ⟨2, ![2, 262144]⟩
abbrev S131072 : Shape := ⟨1, ![131072]⟩
abbrev S262144 : Shape := ⟨1, ![262144]⟩
abbrev S256 : Shape := ⟨1, ![256]⟩
abbrev S1x262144 : Shape := ⟨2, ![1, 262144]⟩
abbrev S_ : Shape := ⟨0, ![]⟩
abbrev S262144x1 : Shape := ⟨2, ![262144, 1]⟩
abbrev S1 : Shape := ⟨1, ![1]⟩
abbrev S255 : Shape := ⟨1, ![255]⟩
abbrev S256x1 : Shape := ⟨2, ![256, 1]⟩
abbrev S1x1 : Shape := ⟨2, ![1, 1]⟩
abbrev S128x128 : Shape := ⟨2, ![128, 128]⟩
abbrev S1x128 : Shape := ⟨2, ![1, 128]⟩
abbrev S2048x128 : Shape := ⟨2, ![2048, 128]⟩
abbrev S131072x1 : Shape := ⟨2, ![131072, 1]⟩

abbrev nBuf : Space → Nat
  | .hbm => 280
  | .vmem => 61
  | .smem => 0
  | _ => 0

abbrev hbmTy0_0 (i : Nat) : BufTy := match i % 128 with
  | 0 => ⟨S131072x128, .f32⟩
  | 1 => ⟨S262144x128, .f32⟩
  | 2 => ⟨S256x128, .f32⟩
  | 3 => ⟨S131072x128, .f32⟩
  | 4 => ⟨S768x128, .f32⟩
  | 5 => ⟨S128, .f32⟩
  | 6 => ⟨S512x128, .f32⟩
  | 7 => ⟨S128, .f32⟩
  | 8 => ⟨S512x128, .f32⟩
  | 9 => ⟨S128, .f32⟩
  | 10 => ⟨S512x128, .f32⟩
  | 11 => ⟨S128, .f32⟩
  | 12 => ⟨S2x262144, .i32⟩
  | 13 => ⟨S2x262144, .i32⟩
  | 14 => ⟨S131072, .i32⟩
  | 15 => ⟨S262144, .i32⟩
  | 16 => ⟨S131072, .i32⟩
  | 17 => ⟨S131072, .i1⟩
  | 18 => ⟨S256, .i32⟩
  | 19 => ⟨S256, .i32⟩
  | 20 => ⟨S256, .i32⟩
  | 21 => ⟨S1x262144, .i32⟩
  | 22 => ⟨S262144, .i32⟩
  | 23 => ⟨S1x262144, .i32⟩
  | 24 => ⟨S262144, .i32⟩
  | 25 => ⟨S1x262144, .i32⟩
  | 26 => ⟨S262144, .i32⟩
  | 27 => ⟨S1x262144, .i32⟩
  | 28 => ⟨S262144, .i32⟩
  | 29 => ⟨S_, .i32⟩
  | 30 => ⟨S262144, .i32⟩
  | 31 => ⟨S262144, .i1⟩
  | 32 => ⟨S_, .i32⟩
  | 33 => ⟨S262144, .i32⟩
  | 34 => ⟨S262144, .i32⟩
  | 35 => ⟨S262144, .i32⟩
  | 36 => ⟨S262144x1, .i32⟩
  | 37 => ⟨S262144x128, .f32⟩
  | 38 => ⟨S_, .i32⟩
  | 39 => ⟨S262144, .i32⟩
  | 40 => ⟨S262144, .i1⟩
  | 41 => ⟨S_, .i32⟩
  | 42 => ⟨S262144, .i32⟩
  | 43 => ⟨S262144, .i32⟩
  | 44 => ⟨S262144, .i32⟩
  | 45 => ⟨S262144x1, .i32⟩
  | 46 => ⟨S262144x128, .f32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S262144x128, .f32⟩
  | 56 => ⟨S_, .i32⟩
  | 57 => ⟨S262144, .i32⟩
  | 58 => ⟨S262144, .i1⟩
  | 59 => ⟨S_, .i32⟩
  | 60 => ⟨S262144, .i32⟩
  | 61 => ⟨S262144, .i32⟩
  | 62 => ⟨S262144, .i32⟩
  | 63 => ⟨S262144x1, .i32⟩
  | 64 => ⟨S262144x128, .f32⟩
  | 65 => ⟨S1, .i32⟩
  | 66 => ⟨S255, .i32⟩
  | 67 => ⟨S256, .i32⟩
  | 68 => ⟨S_, .i32⟩
  | 69 => ⟨S1, .i32⟩
  | 70 => ⟨S_, .i32⟩
  | 71 => ⟨S256, .i32⟩
  | 72 => ⟨S_, .i32⟩
  | 73 => ⟨S_, .i32⟩
  | 74 => ⟨S256, .i32⟩
  | 75 => ⟨S_, .i32⟩
  | 76 => ⟨S262144, .i32⟩
  | 77 => ⟨S_, .i32⟩
  | 78 => ⟨S256, .i32⟩
  | 79 => ⟨S256, .i1⟩
  | 80 => ⟨S_, .i32⟩
  | 81 => ⟨S256, .i32⟩
  | 82 => ⟨S256, .i32⟩
  | 83 => ⟨S256, .i32⟩
  | 84 => ⟨S256x1, .i32⟩
  | 85 => ⟨S_, .i32⟩
  | 86 => ⟨S256, .i32⟩
  | 87 => ⟨S262144, .i32⟩
  | 88 => ⟨S_, .i32⟩
  | 89 => ⟨S_, .i32⟩
  | 90 => ⟨S262144, .i32⟩
  | 91 => ⟨S_, .i32⟩
  | 92 => ⟨S262144, .i32⟩
  | 93 => ⟨S262144, .i32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S1, .i32⟩
  | 103 => ⟨S_, .i32⟩
  | 104 => ⟨S262144x1, .i32⟩
  | 105 => ⟨S262144x1, .i1⟩
  | 106 => ⟨S1x1, .i32⟩
  | 107 => ⟨S262144x1, .i32⟩
  | 108 => ⟨S262144x1, .i1⟩
  | 109 => ⟨S262144x1, .i1⟩
  | 110 => ⟨S_, .i1⟩
  | 111 => ⟨S262144, .i1⟩
  | 112 => ⟨S262144x128, .f32⟩
  | 113 => ⟨S262144x128, .i1⟩
  | 114 => ⟨S_, .f32⟩
  | 115 => ⟨S262144x128, .f32⟩
  | 116 => ⟨S262144x128, .f32⟩
  | 117 => ⟨S128x128, .f32⟩
  | 118 => ⟨S128x128, .f32⟩
  | 119 => ⟨S128x128, .f32⟩
  | 120 => ⟨S128x128, .f32⟩
  | 121 => ⟨S128x128, .f32⟩
  | 122 => ⟨S128x128, .f32⟩
  | 123 => ⟨S1x128, .f32⟩
  | 124 => ⟨S262144x128, .f32⟩
  | 125 => ⟨S_, .f32⟩
  | 126 => ⟨S131072x128, .f32⟩
  | 127 => ⟨S262144x1, .i32⟩
  | _ => ⟨S131072x128, .f32⟩

abbrev hbmTy0_1 (i : Nat) : BufTy := match i % 128 with
  | 0 => ⟨S131072x128, .f32⟩
  | 1 => ⟨S_, .f32⟩
  | 2 => ⟨S131072x128, .f32⟩
  | 3 => ⟨S262144x1, .i32⟩
  | 4 => ⟨S131072x128, .f32⟩
  | 5 => ⟨S1, .i32⟩
  | 6 => ⟨S255, .i32⟩
  | 7 => ⟨S256, .i32⟩
  | 8 => ⟨S_, .i32⟩
  | 9 => ⟨S1, .i32⟩
  | 10 => ⟨S_, .i32⟩
  | 11 => ⟨S256, .i32⟩
  | 12 => ⟨S_, .i32⟩
  | 13 => ⟨S_, .i32⟩
  | 14 => ⟨S256, .i32⟩
  | 15 => ⟨S_, .i32⟩
  | 16 => ⟨S131072, .i32⟩
  | 17 => ⟨S_, .i32⟩
  | 18 => ⟨S256, .i32⟩
  | 19 => ⟨S256, .i1⟩
  | 20 => ⟨S_, .i32⟩
  | 21 => ⟨S256, .i32⟩
  | 22 => ⟨S256, .i32⟩
  | 23 => ⟨S256, .i32⟩
  | 24 => ⟨S256x1, .i32⟩
  | 25 => ⟨S_, .i32⟩
  | 26 => ⟨S256, .i32⟩
  | 27 => ⟨S131072, .i32⟩
  | 28 => ⟨S_, .i32⟩
  | 29 => ⟨S_, .i32⟩
  | 30 => ⟨S131072, .i32⟩
  | 31 => ⟨S_, .i32⟩
  | 32 => ⟨S131072, .i32⟩
  | 33 => ⟨S131072, .i32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S1, .i32⟩
  | 43 => ⟨S_, .i32⟩
  | 44 => ⟨S131072x1, .i32⟩
  | 45 => ⟨S131072x1, .i1⟩
  | 46 => ⟨S1x1, .i32⟩
  | 47 => ⟨S131072x1, .i32⟩
  | 48 => ⟨S131072x1, .i1⟩
  | 49 => ⟨S131072x1, .i1⟩
  | 50 => ⟨S_, .i1⟩
  | 51 => ⟨S131072, .i1⟩
  | 52 => ⟨S131072x128, .f32⟩
  | 53 => ⟨S131072x128, .i1⟩
  | 54 => ⟨S_, .f32⟩
  | 55 => ⟨S131072x128, .f32⟩
  | 56 => ⟨S131072x128, .f32⟩
  | 57 => ⟨S128x128, .f32⟩
  | 58 => ⟨S128x128, .f32⟩
  | 59 => ⟨S128x128, .f32⟩
  | 60 => ⟨S128x128, .f32⟩
  | 61 => ⟨S1x128, .f32⟩
  | 62 => ⟨S131072x128, .f32⟩
  | 63 => ⟨S_, .f32⟩
  | 64 => ⟨S131072x128, .f32⟩
  | 65 => ⟨S262144x1, .i32⟩
  | 66 => ⟨S131072x128, .f32⟩
  | 67 => ⟨S_, .f32⟩
  | 68 => ⟨S131072x128, .f32⟩
  | 69 => ⟨S262144x1, .i32⟩
  | 70 => ⟨S131072x128, .f32⟩
  | 71 => ⟨S1, .i32⟩
  | 72 => ⟨S255, .i32⟩
  | 73 => ⟨S256, .i32⟩
  | 74 => ⟨S_, .i32⟩
  | 75 => ⟨S1, .i32⟩
  | 76 => ⟨S_, .i32⟩
  | 77 => ⟨S256, .i32⟩
  | 78 => ⟨S_, .i32⟩
  | 79 => ⟨S_, .i32⟩
  | 80 => ⟨S256, .i32⟩
  | 81 => ⟨S_, .i32⟩
  | 82 => ⟨S131072, .i32⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S256x1, .i32⟩
  | 91 => ⟨S_, .i32⟩
  | 92 => ⟨S256, .i32⟩
  | 93 => ⟨S131072, .i32⟩
  | 94 => ⟨S_, .i32⟩
  | 95 => ⟨S_, .i32⟩
  | 96 => ⟨S131072, .i32⟩
  | 97 => ⟨S_, .i32⟩
  | 98 => ⟨S131072, .i32⟩
  | 99 => ⟨S131072, .i32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S131072x1, .i32⟩
  | 108 => ⟨S1, .i32⟩
  | 109 => ⟨S_, .i32⟩
  | 110 => ⟨S131072x1, .i32⟩
  | 111 => ⟨S131072x1, .i1⟩
  | 112 => ⟨S1x1, .i32⟩
  | 113 => ⟨S131072x1, .i32⟩
  | 114 => ⟨S131072x1, .i1⟩
  | 115 => ⟨S131072x1, .i1⟩
  | 116 => ⟨S_, .i1⟩
  | 117 => ⟨S131072, .i1⟩
  | 118 => ⟨S131072x128, .f32⟩
  | 119 => ⟨S131072x128, .i1⟩
  | 120 => ⟨S_, .f32⟩
  | 121 => ⟨S131072x128, .f32⟩
  | 122 => ⟨S131072x128, .f32⟩
  | 123 => ⟨S128x128, .f32⟩
  | 124 => ⟨S128x128, .f32⟩
  | 125 => ⟨S128x128, .f32⟩
  | 126 => ⟨S128x128, .f32⟩
  | 127 => ⟨S1x128, .f32⟩
  | _ => ⟨S131072x128, .f32⟩

abbrev hbmTy0_2 (i : Nat) : BufTy := match i % 128 with
  | 0 => ⟨S131072x128, .f32⟩
  | 1 => ⟨S131072x1, .i1⟩
  | 2 => ⟨S_, .f32⟩
  | 3 => ⟨S131072x128, .i1⟩
  | 4 => ⟨S131072x128, .f32⟩
  | 5 => ⟨S131072x128, .f32⟩
  | 6 => ⟨S_, .f32⟩
  | 7 => ⟨S256x128, .f32⟩
  | 8 => ⟨S131072x1, .i32⟩
  | 9 => ⟨S256x128, .f32⟩
  | 10 => ⟨S_, .f32⟩
  | 11 => ⟨S256x128, .f32⟩
  | 12 => ⟨S262144x1, .i32⟩
  | 13 => ⟨S256x128, .f32⟩
  | 14 => ⟨S_, .f32⟩
  | 15 => ⟨S256x128, .f32⟩
  | 16 => ⟨S131072x1, .i32⟩
  | 17 => ⟨S256x128, .f32⟩
  | 18 => ⟨S128x128, .f32⟩
  | 19 => ⟨S128x128, .f32⟩
  | 20 => ⟨S128x128, .f32⟩
  | 21 => ⟨S128x128, .f32⟩
  | 22 => ⟨S1x128, .f32⟩
  | 23 => ⟨S256x128, .f32⟩
  | _ => ⟨S131072x128, .f32⟩

abbrev hbmTy (i : Nat) : BufTy := match i / 128 with
  | 0 => hbmTy0_0 i
  | 1 => hbmTy0_1 i
  | 2 => hbmTy0_2 i
  | _ => ⟨S131072x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | .local _ .vmem, ⟨44, _⟩ => ⟨S128x128, .f32⟩
  | .local _ .vmem, ⟨45, _⟩ => ⟨S128x128, .f32⟩
  | .local _ .vmem, ⟨46, _⟩ => ⟨S128x128, .f32⟩
  | .local _ .vmem, ⟨47, _⟩ => ⟨S128x128, .f32⟩
  | .local _ .vmem, ⟨48, _⟩ => ⟨S1x128, .f32⟩
  | .local _ .vmem, ⟨49, _⟩ => ⟨S2048x128, .f32⟩
  | .local _ .vmem, ⟨50, _⟩ => ⟨S2048x128, .f32⟩
  | .local _ .vmem, ⟨51, _⟩ => ⟨S256x128, .f32⟩
  | .local _ .vmem, ⟨52, _⟩ => ⟨S256x128, .f32⟩
  | .local _ .vmem, ⟨53, _⟩ => ⟨S256x128, .f32⟩
  | .local _ .vmem, ⟨54, _⟩ => ⟨S256x128, .f32⟩
  | .local _ .vmem, ⟨55, _⟩ => ⟨S128x128, .f32⟩
  | .local _ .vmem, ⟨56, _⟩ => ⟨S128x128, .f32⟩
  | .local _ .vmem, ⟨57, _⟩ => ⟨S128x128, .f32⟩
  | .local _ .vmem, ⟨58, _⟩ => ⟨S128x128, .f32⟩
  | .local _ .vmem, ⟨59, _⟩ => ⟨S1x128, .f32⟩
  | .local _ .vmem, ⟨60, _⟩ => ⟨S256x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call0_v0 : Ref sig .tc := ⟨.hbm, 65, rfl⟩
abbrev main_call0_v1 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_call1_call0_c : Ref sig .tc := ⟨.hbm, 72, rfl⟩
abbrev main_call1_call0_v0 : Ref sig .tc := ⟨.hbm, 73, rfl⟩
abbrev main_v39 : Ref sig .tc := ⟨.hbm, 74, rfl⟩
abbrev main_c_9 : Ref sig .tc := ⟨.hbm, 75, rfl⟩
abbrev main_v40 : Ref sig .tc := ⟨.hbm, 76, rfl⟩
abbrev main_c_10 : Ref sig .tc := ⟨.hbm, 77, rfl⟩
abbrev main_v41 : Ref sig .tc := ⟨.hbm, 78, rfl⟩
abbrev main_v42 : Ref sig .tc := ⟨.hbm, 79, rfl⟩
abbrev main_c_11 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_c_12 : Ref sig .tc := ⟨.hbm, 85, rfl⟩
abbrev main_v47 : Ref sig .tc := ⟨.hbm, 86, rfl⟩
abbrev main_v48 : Ref sig .tc := ⟨.hbm, 87, rfl⟩
abbrev main_call2_call0_c : Ref sig .tc := ⟨.hbm, 88, rfl⟩
abbrev main_call2_call0_v0 : Ref sig .tc := ⟨.hbm, 89, rfl⟩
abbrev main_v49 : Ref sig .tc := ⟨.hbm, 90, rfl⟩
abbrev main_c_13 : Ref sig .tc := ⟨.hbm, 91, rfl⟩
abbrev main_v50 : Ref sig .tc := ⟨.hbm, 92, rfl⟩
abbrev main_v51 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_cst : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_cst_14 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_call4_v0 : Ref sig .tc := ⟨.hbm, 133, rfl⟩
abbrev main_call4_v1 : Ref sig .tc := ⟨.hbm, 134, rfl⟩
abbrev main_v67 : Ref sig .tc := ⟨.hbm, 135, rfl⟩
abbrev main_c_15 : Ref sig .tc := ⟨.hbm, 136, rfl⟩
abbrev main_v68 : Ref sig .tc := ⟨.hbm, 137, rfl⟩
abbrev main_c_16 : Ref sig .tc := ⟨.hbm, 138, rfl⟩
abbrev main_v69 : Ref sig .tc := ⟨.hbm, 139, rfl⟩
abbrev main_call5_call0_c : Ref sig .tc := ⟨.hbm, 140, rfl⟩
abbrev main_call5_call0_v0 : Ref sig .tc := ⟨.hbm, 141, rfl⟩
abbrev main_v70 : Ref sig .tc := ⟨.hbm, 142, rfl⟩
abbrev main_c_17 : Ref sig .tc := ⟨.hbm, 143, rfl⟩
abbrev main_v71 : Ref sig .tc := ⟨.hbm, 144, rfl⟩
abbrev main_c_18 : Ref sig .tc := ⟨.hbm, 145, rfl⟩
abbrev main_v72 : Ref sig .tc := ⟨.hbm, 146, rfl⟩
abbrev main_v73 : Ref sig .tc := ⟨.hbm, 147, rfl⟩
abbrev main_c_19 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_c_20 : Ref sig .tc := ⟨.hbm, 153, rfl⟩
abbrev main_v78 : Ref sig .tc := ⟨.hbm, 154, rfl⟩
abbrev main_v79 : Ref sig .tc := ⟨.hbm, 155, rfl⟩
abbrev main_call6_call0_c : Ref sig .tc := ⟨.hbm, 156, rfl⟩
abbrev main_call6_call0_v0 : Ref sig .tc := ⟨.hbm, 157, rfl⟩
abbrev main_v80 : Ref sig .tc := ⟨.hbm, 158, rfl⟩
abbrev main_c_21 : Ref sig .tc := ⟨.hbm, 159, rfl⟩
abbrev main_v81 : Ref sig .tc := ⟨.hbm, 160, rfl⟩
abbrev main_v82 : Ref sig .tc := ⟨.hbm, 161, rfl⟩
abbrev main_call7_c : Ref sig .tc := ⟨.hbm, 162, rfl⟩
abbrev main_call7_v0 : Ref sig .tc := ⟨.hbm, 163, rfl⟩
abbrev main_call7_v1 : Ref sig .tc := ⟨.hbm, 164, rfl⟩
abbrev main_call7_c_0 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_call7_v5 : Ref sig .tc := ⟨.hbm, 169, rfl⟩
abbrev main_call7_c_1 : Ref sig .tc := ⟨.hbm, 170, rfl⟩
abbrev main_call7_c_2 : Ref sig .tc := ⟨.hbm, 171, rfl⟩
abbrev main_call7_v6 : Ref sig .tc := ⟨.hbm, 172, rfl⟩
abbrev main_call7_v7 : Ref sig .tc := ⟨.hbm, 173, rfl⟩
abbrev main_call7_v8 : Ref sig .tc := ⟨.hbm, 174, rfl⟩
abbrev main_call7_v9 : Ref sig .tc := ⟨.hbm, 175, rfl⟩
abbrev main_call7_v10 : Ref sig .tc := ⟨.hbm, 176, rfl⟩
abbrev main_call7_v11 : Ref sig .tc := ⟨.hbm, 177, rfl⟩
abbrev main_call7_c_3 : Ref sig .tc := ⟨.hbm, 178, rfl⟩
abbrev main_call7_v12 : Ref sig .tc := ⟨.hbm, 179, rfl⟩
abbrev main_call7_v13 : Ref sig .tc := ⟨.hbm, 180, rfl⟩
abbrev main_call7_v14 : Ref sig .tc := ⟨.hbm, 181, rfl⟩
abbrev main_call7_cst : Ref sig .tc := ⟨.hbm, 182, rfl⟩
abbrev main_call7_v15 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_cst_22 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_cst_23 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_call8_v0 : Ref sig .tc := ⟨.hbm, 199, rfl⟩
abbrev main_call8_v1 : Ref sig .tc := ⟨.hbm, 200, rfl⟩
abbrev main_v96 : Ref sig .tc := ⟨.hbm, 201, rfl⟩
abbrev main_c_24 : Ref sig .tc := ⟨.hbm, 202, rfl⟩
abbrev main_v97 : Ref sig .tc := ⟨.hbm, 203, rfl⟩
abbrev main_c_25 : Ref sig .tc := ⟨.hbm, 204, rfl⟩
abbrev main_v98 : Ref sig .tc := ⟨.hbm, 205, rfl⟩
abbrev main_call9_call0_c : Ref sig .tc := ⟨.hbm, 206, rfl⟩
abbrev main_call9_call0_v0 : Ref sig .tc := ⟨.hbm, 207, rfl⟩
abbrev main_v99 : Ref sig .tc := ⟨.hbm, 208, rfl⟩
abbrev main_c_26 : Ref sig .tc := ⟨.hbm, 209, rfl⟩
abbrev main_v100 : Ref sig .tc := ⟨.hbm, 210, rfl⟩
abbrev main_c_27 : Ref sig .tc := ⟨.hbm, 211, rfl⟩
abbrev main_v101 : Ref sig .tc := ⟨.hbm, 212, rfl⟩
abbrev main_v102 : Ref sig .tc := ⟨.hbm, 213, rfl⟩
abbrev main_c_28 : Ref sig .tc := ⟨.hbm, 214, rfl⟩
abbrev main_v103 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_c_29 : Ref sig .tc := ⟨.hbm, 219, rfl⟩
abbrev main_v107 : Ref sig .tc := ⟨.hbm, 220, rfl⟩
abbrev main_v108 : Ref sig .tc := ⟨.hbm, 221, rfl⟩
abbrev main_call10_call0_c : Ref sig .tc := ⟨.hbm, 222, rfl⟩
abbrev main_call10_call0_v0 : Ref sig .tc := ⟨.hbm, 223, rfl⟩
abbrev main_v109 : Ref sig .tc := ⟨.hbm, 224, rfl⟩
abbrev main_c_30 : Ref sig .tc := ⟨.hbm, 225, rfl⟩
abbrev main_v110 : Ref sig .tc := ⟨.hbm, 226, rfl⟩
abbrev main_v111 : Ref sig .tc := ⟨.hbm, 227, rfl⟩
abbrev main_call11_c : Ref sig .tc := ⟨.hbm, 228, rfl⟩
abbrev main_call11_v0 : Ref sig .tc := ⟨.hbm, 229, rfl⟩
abbrev main_call11_v1 : Ref sig .tc := ⟨.hbm, 230, rfl⟩
abbrev main_call11_c_0 : Ref sig .tc := ⟨.hbm, 231, rfl⟩
abbrev main_call11_v2 : Ref sig .tc := ⟨.hbm, 232, rfl⟩
abbrev main_call11_v3 : Ref sig .tc := ⟨.hbm, 233, rfl⟩
abbrev main_call11_v4 : Ref sig .tc := ⟨.hbm, 234, rfl⟩
abbrev main_call11_v5 : Ref sig .tc := ⟨.hbm, 235, rfl⟩
abbrev main_call11_c_1 : Ref sig .tc := ⟨.hbm, 236, rfl⟩
abbrev main_call11_c_2 : Ref sig .tc := ⟨.hbm, 237, rfl⟩
abbrev main_call11_v6 : Ref sig .tc := ⟨.hbm, 238, rfl⟩
abbrev main_call11_v7 : Ref sig .tc := ⟨.hbm, 239, rfl⟩
abbrev main_call11_v8 : Ref sig .tc := ⟨.hbm, 240, rfl⟩
abbrev main_call11_v9 : Ref sig .tc := ⟨.hbm, 241, rfl⟩
abbrev main_call11_v10 : Ref sig .tc := ⟨.hbm, 242, rfl⟩
abbrev main_call11_v11 : Ref sig .tc := ⟨.hbm, 243, rfl⟩
abbrev main_call11_c_3 : Ref sig .tc := ⟨.hbm, 244, rfl⟩
abbrev main_call11_v12 : Ref sig .tc := ⟨.hbm, 245, rfl⟩
abbrev main_call11_v13 : Ref sig .tc := ⟨.hbm, 246, rfl⟩
abbrev main_call11_v14 : Ref sig .tc := ⟨.hbm, 247, rfl⟩
abbrev main_call11_cst : Ref sig .tc := ⟨.hbm, 248, rfl⟩
abbrev main_call11_v15 : Ref sig .tc := ⟨.hbm, 249, rfl⟩
abbrev main_v112 : Ref sig .tc := ⟨.hbm, 250, rfl⟩
abbrev main_v113 : Ref sig .tc := ⟨.hbm, 251, rfl⟩
abbrev main_v114 : Ref sig .tc := ⟨.hbm, 252, rfl⟩
abbrev main_v115 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩
abbrev main_cst_31 : Ref sig .tc := ⟨.hbm, 258, rfl⟩
abbrev main_call12_v0 : Ref sig .tc := ⟨.hbm, 259, rfl⟩
abbrev main_call12_v1 : Ref sig .tc := ⟨.hbm, 260, rfl⟩
abbrev main_v120 : Ref sig .tc := ⟨.hbm, 261, rfl⟩
abbrev main_cst_32 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_cst_33 : Ref sig .tc := ⟨.hbm, 266, rfl⟩
abbrev main_v124 : Ref sig .tc := ⟨.hbm, 267, rfl⟩
abbrev main_v125 : Ref sig .tc := ⟨.hbm, 268, rfl⟩
abbrev main_v126 : Ref sig .tc := ⟨.hbm, 269, rfl⟩
abbrev main_cst_34 : Ref sig .tc := ⟨.hbm, 270, rfl⟩
abbrev main_v127 : Ref sig .tc := ⟨.hbm, 271, rfl⟩
abbrev main_v128 : Ref sig .tc := ⟨.hbm, 272, rfl⟩
abbrev main_v129 : Ref sig .tc := ⟨.hbm, 273, rfl⟩
abbrev main_v130 : Ref sig .tc := ⟨.hbm, 274, rfl⟩
abbrev main_v131 : Ref sig .tc := ⟨.hbm, 275, rfl⟩
abbrev main_v132 : Ref sig .tc := ⟨.hbm, 276, rfl⟩
abbrev main_v133 : Ref sig .tc := ⟨.hbm, 277, rfl⟩
abbrev main_v134 : Ref sig .tc := ⟨.hbm, 278, rfl⟩
abbrev main_v135 : Ref sig .tc := ⟨.hbm, 279, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg6_0 : Ref sig .tc := ⟨.vmem, 46, rfl⟩
abbrev cc2_stg7_0 : Ref sig .tc := ⟨.vmem, 47, rfl⟩
abbrev cc2_stg8_0 : Ref sig .tc := ⟨.vmem, 48, rfl⟩
abbrev cc2_stg9_0 : Ref sig .tc := ⟨.vmem, 49, rfl⟩
abbrev cc2_stg9_1 : Ref sig .tc := ⟨.vmem, 50, rfl⟩
abbrev cc3_stg0_0 : Ref sig .tc := ⟨.vmem, 51, rfl⟩
abbrev cc3_stg1_0 : Ref sig .tc := ⟨.vmem, 52, rfl⟩
abbrev cc3_stg2_0 : Ref sig .tc := ⟨.vmem, 53, rfl⟩
abbrev cc3_stg3_0 : Ref sig .tc := ⟨.vmem, 54, rfl⟩
abbrev cc3_stg4_0 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg8_0 : Ref sig .tc := ⟨.vmem, 59, rfl⟩
abbrev cc3_stg9_0 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem9_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem5_0 : DmaSem sig := 45
abbrev cc2_sem6_0 : DmaSem sig := 46
abbrev cc2_sem7_0 : DmaSem sig := 47
abbrev cc2_sem8_0 : DmaSem sig := 48
abbrev cc2_sem9_0 : DmaSem sig := 49
abbrev cc2_sem9_1 : DmaSem sig := 50
abbrev cc3_sem0_0 : DmaSem sig := 51
abbrev cc3_sem1_0 : DmaSem sig := 52
abbrev cc3_sem2_0 : DmaSem sig := 53
abbrev cc3_sem3_0 : DmaSem sig := 54
abbrev cc3_sem4_0 : DmaSem sig := 55
abbrev cc3_sem5_0 : DmaSem sig := 56
abbrev cc3_sem6_0 : DmaSem sig := 57
abbrev cc3_sem7_0 : DmaSem sig := 58
abbrev cc3_sem8_0 : DmaSem sig := 59
abbrev cc3_sem9_0 : DmaSem sig := 60

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  slices_S256_S1_255 : S256.Slices ![255] S1
  slices_S256_S255_0 : S256.Slices ![0] S255
  concatenates_S1_S255_S256_d0 : Shape.Concatenates [S1, S255] S256 0
  bcast_S_S1 : S_.BroadcastsInDim S1 (![] : Fin 0 → Fin S1.rank)
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  reduceWindows_S262144_S262144_w262144s1p262143_0 : S262144.ReduceWindows (![262144] : Fin 1 → Nat) ![1] ![262143] ![0] S262144
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  bcast_S262144_S262144x128_0 : S262144.BroadcastsInDim S262144x128 (![0] : Fin 1 → Fin S262144x128.rank)
  bcast_S_S262144x128 : S_.BroadcastsInDim S262144x128 (![] : Fin 0 → Fin S262144x128.rank)
  slices_S768x128_S128x128_0_0 : S768x128.Slices ![0, 0] S128x128
  slices_S768x128_S128x128_128_0 : S768x128.Slices ![128, 0] S128x128
  slices_S768x128_S128x128_256_0 : S768x128.Slices ![256, 0] S128x128
  slices_S768x128_S128x128_384_0 : S768x128.Slices ![384, 0] S128x128
  slices_S768x128_S128x128_512_0 : S768x128.Slices ![512, 0] S128x128
  slices_S768x128_S128x128_640_0 : S768x128.Slices ![640, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  bcast_S_S131072x128 : S_.BroadcastsInDim S131072x128 (![] : Fin 0 → Fin S131072x128.rank)
  bcast_S_S131072 : S_.BroadcastsInDim S131072 (![] : Fin 0 → Fin S131072.rank)
  reduceWindows_S131072_S131072_w131072s1p131071_0 : S131072.ReduceWindows (![131072] : Fin 1 → Nat) ![1] ![131071] ![0] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1x1_S131072x1_0_1 : S1x1.BroadcastsInDim S131072x1 (![0, 1] : Fin 2 → Fin S131072x1.rank)
  reducesTo_S131072x1_S131072_d1 : S131072x1.ReducesTo [1] S131072
  bcast_S131072_S131072x128_0 : S131072.BroadcastsInDim S131072x128 (![0] : Fin 1 → Fin S131072x128.rank)
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  bcast_S131072x1_S131072x128_0_1 : S131072x1.BroadcastsInDim S131072x128 (![0, 1] : Fin 2 → Fin S131072x128.rank)
  bcast_S_S256x128 : S_.BroadcastsInDim S256x128 (![] : Fin 0 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  gather_S131072x128_S262144x1_S262144x128_1_0_n_n_0_1_1128_wf : GatherDims.WF S131072x128 S262144x1 S262144x128 [1] [0] [] [0] [] 1 ![1, 128]
  scatter_S256_S1_S__n_0_0_0_wf : ScatterDims.WF S256 S1 S_ [] [0] [0] 0
  scatter_S262144_S256x1_S256_n_0_0_1_wf : ScatterDims.WF S262144 S256x1 S256 [] [0] [0] 1
  gather_S256x128_S262144x1_S262144x128_1_0_n_n_0_1_1128_wf : GatherDims.WF S256x128 S262144x1 S262144x128 [1] [0] [] [0] [] 1 ![1, 128]
  dot_S2048x128_S128x128_S2048x128_1_0_0_1_n_n_wf : DotDims.WF S2048x128 S128x128 S2048x128 [1] [0] [0] [1] [] []
  scatter_S131072x128_S262144x1_S262144x128_1_0_0_1_wf : ScatterDims.WF S131072x128 S262144x1 S262144x128 [1] [0] [0] 1
  scatter_S131072_S256x1_S256_n_0_0_1_wf : ScatterDims.WF S131072 S256x1 S256 [] [0] [0] 1
  gather_S256x128_S131072x1_S131072x128_1_0_n_n_0_1_1128_wf : GatherDims.WF S256x128 S131072x1 S131072x128 [1] [0] [] [0] [] 1 ![1, 128]
  scatter_S256x128_S131072x1_S131072x128_1_0_0_1_wf : ScatterDims.WF S256x128 S131072x1 S131072x128 [1] [0] [0] 1
  scatter_S256x128_S262144x1_S262144x128_1_0_0_1_wf : ScatterDims.WF S256x128 S262144x1 S262144x128 [1] [0] [0] 1
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S262144x128.size a
  hwx0_3 : ∀ i : grid0.Coords, EltTy.bits .f32 = 32 ∨ (Rect.block (s := S262144x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S262144x128.size a
  hwx0_4 : ∀ i : grid0.Coords, EltTy.bits .f32 = 32 ∨ (Rect.block (s := S262144x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S262144x128.size a
  hwx0_5 : ∀ i : grid0.Coords, EltTy.bits .f32 = 32 ∨ (Rect.block (s := S262144x128) S2048x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S262144x128.size a
  hwx0_13 : ∀ i : grid0.Coords, EltTy.bits .f32 = 32 ∨ (Rect.block (s := S262144x128) S2048x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S131072x128.size a
  hwx1_0 : ∀ i : grid1.Coords, EltTy.bits .f32 = 32 ∨ (Rect.block (s := S131072x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S131072x128.size a
  hwx1_1 : ∀ i : grid1.Coords, EltTy.bits .f32 = 32 ∨ (Rect.block (s := S131072x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S131072x128.size a
  hwx1_2 : ∀ i : grid1.Coords, EltTy.bits .f32 = 32 ∨ (Rect.block (s := S131072x128) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S131072x128.size a
  hwx1_3 : ∀ i : grid1.Coords, EltTy.bits .f32 = 32 ∨ (Rect.block (s := S131072x128) S2048x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x128.size a ≤ S131072x128.size a
  hwx1_9 : ∀ i : grid1.Coords, EltTy.bits .f32 = 32 ∨ (Rect.block (s := S131072x128) S2048x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S131072x128.size a
  hwx2_0 : ∀ i : grid2.Coords, EltTy.bits .f32 = 32 ∨ (Rect.block (s := S131072x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S131072x128.size a
  hwx2_1 : ∀ i : grid2.Coords, EltTy.bits .f32 = 32 ∨ (Rect.block (s := S131072x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S131072x128.size a
  hwx2_2 : ∀ i : grid2.Coords, EltTy.bits .f32 = 32 ∨ (Rect.block (s := S131072x128) S2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S131072x128.size a
  hwx2_3 : ∀ i : grid2.Coords, EltTy.bits .f32 = 32 ∨ (Rect.block (s := S131072x128) S2048x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x128.size a ≤ S131072x128.size a
  hwx2_9 : ∀ i : grid2.Coords, EltTy.bits .f32 = 32 ∨ (Rect.block (s := S131072x128) S2048x128.size (cc2_transform_9 i) (hinb2_9 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 1
  hreads3_9 : ∀ i i' : grid3.Coords, (∀ a, reads3_9 a = true → i a = i' a) → cc3_transform_9 i = cc3_transform_9 i'
  hinb3_9 : ∀ (i : grid3.Coords) a, (cc3_transform_9 i a + 1) * S256x128.size a ≤ S256x128.size a
  hwx3_9 : ∀ i : grid3.Coords, EltTy.bits .f32 = 32 ∨ (Rect.block (s := S256x128) S256x128.size (cc3_transform_9 i) (hinb3_9 i)).WholeWords (EltTy.packing .f32)

variable [Facts₀]

def gather_S131072x128_S262144x1_S262144x128_1_0_n_n_0_1_1128 : GatherDims S131072x128 S262144x1 S262144x128 where
  offsetDims := [1]
  collapsedSliceDims := [0]
  operandBatchingDims := []
  startIndicesBatchingDims := []
  startIndexMap := [0]
  indexVectorDim := 1
  sliceSizes := ![1, 128]
  wf := gather_S131072x128_S262144x1_S262144x128_1_0_n_n_0_1_1128_wf
def scatter_S256_S1_S__n_0_0_0 : ScatterDims S256 S1 S_ where
  updateWindowDims := []
  insertedWindowDims := [0]
  scatterDimsToOperandDims := [0]
  indexVectorDim := 0
  wf := scatter_S256_S1_S__n_0_0_0_wf
def scatter_S262144_S256x1_S256_n_0_0_1 : ScatterDims S262144 S256x1 S256 where
  updateWindowDims := []
  insertedWindowDims := [0]
  scatterDimsToOperandDims := [0]
  indexVectorDim := 1
  wf := scatter_S262144_S256x1_S256_n_0_0_1_wf
def gather_S256x128_S262144x1_S262144x128_1_0_n_n_0_1_1128 : GatherDims S256x128 S262144x1 S262144x128 where
  offsetDims := [1]
  collapsedSliceDims := [0]
  operandBatchingDims := []
  startIndicesBatchingDims := []
  startIndexMap := [0]
  indexVectorDim := 1
  sliceSizes := ![1, 128]
  wf := gather_S256x128_S262144x1_S262144x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S131072x128_S262144x1_S262144x128_1_0_0_1 : ScatterDims S131072x128 S262144x1 S262144x128 where
  updateWindowDims := [1]
  insertedWindowDims := [0]
  scatterDimsToOperandDims := [0]
  indexVectorDim := 1
  wf := scatter_S131072x128_S262144x1_S262144x128_1_0_0_1_wf
def scatter_S131072_S256x1_S256_n_0_0_1 : ScatterDims S131072 S256x1 S256 where
  updateWindowDims := []
  insertedWindowDims := [0]
  scatterDimsToOperandDims := [0]
  indexVectorDim := 1
  wf := scatter_S131072_S256x1_S256_n_0_0_1_wf
def gather_S256x128_S131072x1_S131072x128_1_0_n_n_0_1_1128 : GatherDims S256x128 S131072x1 S131072x128 where
  offsetDims := [1]
  collapsedSliceDims := [0]
  operandBatchingDims := []
  startIndicesBatchingDims := []
  startIndexMap := [0]
  indexVectorDim := 1
  sliceSizes := ![1, 128]
  wf := gather_S256x128_S131072x1_S131072x128_1_0_n_n_0_1_1128_wf
def scatter_S256x128_S131072x1_S131072x128_1_0_0_1 : ScatterDims S256x128 S131072x1 S131072x128 where
  updateWindowDims := [1]
  insertedWindowDims := [0]
  scatterDimsToOperandDims := [0]
  indexVectorDim := 1
  wf := scatter_S256x128_S131072x1_S131072x128_1_0_0_1_wf
def scatter_S256x128_S262144x1_S262144x128_1_0_0_1 : ScatterDims S256x128 S262144x1 S262144x128 where
  updateWindowDims := [1]
  insertedWindowDims := [0]
  scatterDimsToOperandDims := [0]
  indexVectorDim := 1
  wf := scatter_S256x128_S262144x1_S262144x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v53) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v54) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v55) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v56) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v57) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v58) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v59) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v60) S2048x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v83) S2048x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v84) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v85) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v86) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v87) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v88) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v89) S2048x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg3) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v92) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v95) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v112) S2048x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v113) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v114) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v115) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v116) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v117) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v118) S2048x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_arg2) S256x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v123) S256x128.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v126) S256x128.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v129) S256x128.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v130) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v131) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v132) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v133) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v134) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v135) S256x128.size cc3_transform_9 reads3_9 true false 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S131072x128 : Shape := ⟨2, ![131072, 128]⟩
abbrev S262144x128 : Shape := ⟨2, ![262144, 128]⟩
abbrev S256x128 : Shape := ⟨2, ![256, 128]⟩
abbrev S768x128 : Shape := ⟨2, ![768, 128]⟩
abbrev S128 : Shape := ⟨1, ![128]⟩
abbrev S512x128 : Shape := ⟨2, ![512, 128]⟩
abbrev S2x262144 : Shape := ⟨2, ![2, 262144]⟩
abbrev S131072 : Shape := ⟨1, ![131072]⟩
abbrev S262144 : Shape := ⟨1, ![262144]⟩
abbrev S256 : Shape := ⟨1, ![256]⟩
abbrev S1x262144 : Shape := ⟨2, ![1, 262144]⟩
abbrev S1 : Shape := ⟨1, ![1]⟩
abbrev S255 : Shape := ⟨1, ![255]⟩
abbrev S_ : Shape := ⟨0, ![]⟩
abbrev S256x1 : Shape := ⟨2, ![256, 1]⟩
abbrev S262144x1 : Shape := ⟨2, ![262144, 1]⟩
abbrev S1x1 : Shape := ⟨2, ![1, 1]⟩
abbrev S262144x768 : Shape := ⟨2, ![262144, 768]⟩
abbrev S1x128 : Shape := ⟨2, ![1, 128]⟩
abbrev S131072x1 : Shape := ⟨2, ![131072, 1]⟩
abbrev S131072x512 : Shape := ⟨2, ![131072, 512]⟩
abbrev S256x512 : Shape := ⟨2, ![256, 512]⟩

abbrev nBuf : Space → Nat
  | .hbm => 290
  | .vmem => 0
  | .smem => 0
  | _ => 0

abbrev hbmTy0_0 (i : Nat) : BufTy := match i % 128 with
  | 0 => ⟨S131072x128, .f32⟩
  | 1 => ⟨S262144x128, .f32⟩
  | 2 => ⟨S256x128, .f32⟩
  | 3 => ⟨S131072x128, .f32⟩
  | 4 => ⟨S768x128, .f32⟩
  | 5 => ⟨S128, .f32⟩
  | 6 => ⟨S512x128, .f32⟩
  | 7 => ⟨S128, .f32⟩
  | 8 => ⟨S512x128, .f32⟩
  | 9 => ⟨S128, .f32⟩
  | 10 => ⟨S512x128, .f32⟩
  | 11 => ⟨S128, .f32⟩
  | 12 => ⟨S2x262144, .i32⟩
  | 13 => ⟨S2x262144, .i32⟩
  | 14 => ⟨S131072, .i32⟩
  | 15 => ⟨S262144, .i32⟩
  | 16 => ⟨S131072, .i32⟩
  | 17 => ⟨S131072, .i1⟩
  | 18 => ⟨S256, .i32⟩
  | 19 => ⟨S256, .i32⟩
  | 20 => ⟨S256, .i32⟩
  | 21 => ⟨S1x262144, .i32⟩
  | 22 => ⟨S262144, .i32⟩
  | 23 => ⟨S1x262144, .i32⟩
  | 24 => ⟨S262144, .i32⟩
  | 25 => ⟨S1, .i32⟩
  | 26 => ⟨S255, .i32⟩
  | 27 => ⟨S256, .i32⟩
  | 28 => ⟨S_, .i32⟩
  | 29 => ⟨S1, .i32⟩
  | 30 => ⟨S_, .i32⟩
  | 31 => ⟨S256, .i32⟩
  | 32 => ⟨S_, .i32⟩
  | 33 => ⟨S_, .i32⟩
  | 34 => ⟨S256, .i32⟩
  | 35 => ⟨S_, .i32⟩
  | 36 => ⟨S262144, .i32⟩
  | 37 => ⟨S_, .i32⟩
  | 38 => ⟨S256, .i32⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S_, .i32⟩
  | 46 => ⟨S256, .i32⟩
  | 47 => ⟨S262144, .i32⟩
  | 48 => ⟨S_, .i32⟩
  | 49 => ⟨S_, .i32⟩
  | 50 => ⟨S262144, .i32⟩
  | 51 => ⟨S_, .i32⟩
  | 52 => ⟨S262144, .i32⟩
  | 53 => ⟨S262144, .i32⟩
  | 54 => ⟨S_, .i32⟩
  | 55 => ⟨S262144, .i32⟩
  | 56 => ⟨S262144, .i1⟩
  | 57 => ⟨S_, .i32⟩
  | 58 => ⟨S262144, .i32⟩
  | 59 => ⟨S262144, .i32⟩
  | 60 => ⟨S262144, .i32⟩
  | 61 => ⟨S262144x1, .i32⟩
  | 62 => ⟨S1, .i32⟩
  | 63 => ⟨S_, .i32⟩
  | 64 => ⟨S262144x1, .i32⟩
  | 65 => ⟨S262144x1, .i1⟩
  | 66 => ⟨S1x1, .i32⟩
  | 67 => ⟨S262144x1, .i32⟩
  | 68 => ⟨S262144x1, .i1⟩
  | 69 => ⟨S262144x1, .i1⟩
  | 70 => ⟨S_, .i1⟩
  | 71 => ⟨S262144, .i1⟩
  | 72 => ⟨S262144x128, .f32⟩
  | 73 => ⟨S262144x128, .i1⟩
  | 74 => ⟨S_, .f32⟩
  | 75 => ⟨S262144x128, .f32⟩
  | 76 => ⟨S262144x128, .f32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S262144x1, .i32⟩
  | 85 => ⟨S262144x128, .f32⟩
  | 86 => ⟨S_, .i32⟩
  | 87 => ⟨S262144, .i32⟩
  | 88 => ⟨S262144, .i1⟩
  | 89 => ⟨S_, .i32⟩
  | 90 => ⟨S262144, .i32⟩
  | 91 => ⟨S262144, .i32⟩
  | 92 => ⟨S262144, .i32⟩
  | 93 => ⟨S262144x1, .i32⟩
  | 94 => ⟨S262144x128, .f32⟩
  | 95 => ⟨S1x262144, .i32⟩
  | 96 => ⟨S262144, .i32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S262144x1, .i32⟩
  | 105 => ⟨S262144x128, .f32⟩
  | 106 => ⟨S1x262144, .i32⟩
  | 107 => ⟨S262144, .i32⟩
  | 108 => ⟨S_, .i32⟩
  | 109 => ⟨S262144, .i32⟩
  | 110 => ⟨S262144, .i1⟩
  | 111 => ⟨S_, .i32⟩
  | 112 => ⟨S262144, .i32⟩
  | 113 => ⟨S262144, .i32⟩
  | 114 => ⟨S262144, .i32⟩
  | 115 => ⟨S262144x1, .i32⟩
  | 116 => ⟨S262144x128, .f32⟩
  | 117 => ⟨S262144x768, .f32⟩
  | 118 => ⟨S262144x128, .f32⟩
  | 119 => ⟨S1x128, .f32⟩
  | 120 => ⟨S262144x128, .f32⟩
  | 121 => ⟨S262144x128, .f32⟩
  | 122 => ⟨S_, .f32⟩
  | 123 => ⟨S262144x128, .f32⟩
  | 124 => ⟨S262144x128, .f32⟩
  | 125 => ⟨S_, .f32⟩
  | 126 => ⟨S131072x128, .f32⟩
  | 127 => ⟨S262144x1, .i32⟩
  | _ => ⟨S131072x128, .f32⟩

abbrev hbmTy0_1 (i : Nat) : BufTy := match i % 128 with
  | 0 => ⟨S131072x128, .f32⟩
  | 1 => ⟨S_, .f32⟩
  | 2 => ⟨S131072x128, .f32⟩
  | 3 => ⟨S262144x1, .i32⟩
  | 4 => ⟨S131072x128, .f32⟩
  | 5 => ⟨S1, .i32⟩
  | 6 => ⟨S255, .i32⟩
  | 7 => ⟨S256, .i32⟩
  | 8 => ⟨S_, .i32⟩
  | 9 => ⟨S1, .i32⟩
  | 10 => ⟨S_, .i32⟩
  | 11 => ⟨S256, .i32⟩
  | 12 => ⟨S_, .i32⟩
  | 13 => ⟨S_, .i32⟩
  | 14 => ⟨S256, .i32⟩
  | 15 => ⟨S_, .i32⟩
  | 16 => ⟨S131072, .i32⟩
  | 17 => ⟨S_, .i32⟩
  | 18 => ⟨S256, .i32⟩
  | 19 => ⟨S256, .i1⟩
  | 20 => ⟨S_, .i32⟩
  | 21 => ⟨S256, .i32⟩
  | 22 => ⟨S256, .i32⟩
  | 23 => ⟨S256, .i32⟩
  | 24 => ⟨S256x1, .i32⟩
  | 25 => ⟨S_, .i32⟩
  | 26 => ⟨S256, .i32⟩
  | 27 => ⟨S131072, .i32⟩
  | 28 => ⟨S_, .i32⟩
  | 29 => ⟨S_, .i32⟩
  | 30 => ⟨S131072, .i32⟩
  | 31 => ⟨S_, .i32⟩
  | 32 => ⟨S131072, .i32⟩
  | 33 => ⟨S131072, .i32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S1, .i32⟩
  | 43 => ⟨S_, .i32⟩
  | 44 => ⟨S131072x1, .i32⟩
  | 45 => ⟨S131072x1, .i1⟩
  | 46 => ⟨S1x1, .i32⟩
  | 47 => ⟨S131072x1, .i32⟩
  | 48 => ⟨S131072x1, .i1⟩
  | 49 => ⟨S131072x1, .i1⟩
  | 50 => ⟨S_, .i1⟩
  | 51 => ⟨S131072, .i1⟩
  | 52 => ⟨S131072x128, .f32⟩
  | 53 => ⟨S131072x128, .i1⟩
  | 54 => ⟨S_, .f32⟩
  | 55 => ⟨S131072x128, .f32⟩
  | 56 => ⟨S131072x128, .f32⟩
  | 57 => ⟨S131072x512, .f32⟩
  | 58 => ⟨S131072x128, .f32⟩
  | 59 => ⟨S1x128, .f32⟩
  | 60 => ⟨S131072x128, .f32⟩
  | 61 => ⟨S131072x128, .f32⟩
  | 62 => ⟨S_, .f32⟩
  | 63 => ⟨S131072x128, .f32⟩
  | 64 => ⟨S131072x128, .f32⟩
  | 65 => ⟨S1x262144, .i32⟩
  | 66 => ⟨S262144, .i32⟩
  | 67 => ⟨S_, .f32⟩
  | 68 => ⟨S131072x128, .f32⟩
  | 69 => ⟨S262144x1, .i32⟩
  | 70 => ⟨S131072x128, .f32⟩
  | 71 => ⟨S1x262144, .i32⟩
  | 72 => ⟨S262144, .i32⟩
  | 73 => ⟨S_, .f32⟩
  | 74 => ⟨S131072x128, .f32⟩
  | 75 => ⟨S262144x1, .i32⟩
  | 76 => ⟨S131072x128, .f32⟩
  | 77 => ⟨S1, .i32⟩
  | 78 => ⟨S255, .i32⟩
  | 79 => ⟨S256, .i32⟩
  | 80 => ⟨S_, .i32⟩
  | 81 => ⟨S1, .i32⟩
  | 82 => ⟨S_, .i32⟩
  | 83 => ⟨S256, .i32⟩
  | 84 => ⟨S_, .i32⟩
  | 85 => ⟨S_, .i32⟩
  | 86 => ⟨S256, .i32⟩
  | 87 => ⟨S_, .i32⟩
  | 88 => ⟨S131072, .i32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S256x1, .i32⟩
  | 97 => ⟨S_, .i32⟩
  | 98 => ⟨S256, .i32⟩
  | 99 => ⟨S131072, .i32⟩
  | 100 => ⟨S_, .i32⟩
  | 101 => ⟨S_, .i32⟩
  | 102 => ⟨S131072, .i32⟩
  | 103 => ⟨S_, .i32⟩
  | 104 => ⟨S131072, .i32⟩
  | 105 => ⟨S131072, .i32⟩
  | 106 => ⟨S_, .i32⟩
  | 107 => ⟨S131072, .i32⟩
  | 108 => ⟨S131072, .i1⟩
  | 109 => ⟨S_, .i32⟩
  | 110 => ⟨S131072, .i32⟩
  | 111 => ⟨S131072, .i32⟩
  | 112 => ⟨S131072, .i32⟩
  | 113 => ⟨S131072x1, .i32⟩
  | 114 => ⟨S1, .i32⟩
  | 115 => ⟨S_, .i32⟩
  | 116 => ⟨S131072x1, .i32⟩
  | 117 => ⟨S131072x1, .i1⟩
  | 118 => ⟨S1x1, .i32⟩
  | 119 => ⟨S131072x1, .i32⟩
  | 120 => ⟨S131072x1, .i1⟩
  | 121 => ⟨S131072x1, .i1⟩
  | 122 => ⟨S_, .i1⟩
  | 123 => ⟨S131072, .i1⟩
  | 124 => ⟨S131072x128, .f32⟩
  | 125 => ⟨S131072x128, .i1⟩
  | 126 => ⟨S_, .f32⟩
  | 127 => ⟨S131072x128, .f32⟩
  | _ => ⟨S131072x128, .f32⟩

abbrev hbmTy0_2 (i : Nat) : BufTy := match i % 128 with
  | 0 => ⟨S131072x128, .f32⟩
  | 1 => ⟨S131072x512, .f32⟩
  | 2 => ⟨S131072x128, .f32⟩
  | 3 => ⟨S1x128, .f32⟩
  | 4 => ⟨S131072x128, .f32⟩
  | 5 => ⟨S131072x128, .f32⟩
  | 6 => ⟨S_, .f32⟩
  | 7 => ⟨S131072x128, .f32⟩
  | 8 => ⟨S131072x128, .f32⟩
  | 9 => ⟨S131072x1, .i1⟩
  | 10 => ⟨S_, .f32⟩
  | 11 => ⟨S131072x128, .i1⟩
  | 12 => ⟨S131072x128, .f32⟩
  | 13 => ⟨S131072x128, .f32⟩
  | 14 => ⟨S_, .f32⟩
  | 15 => ⟨S256x128, .f32⟩
  | 16 => ⟨S131072x1, .i32⟩
  | 17 => ⟨S256x128, .f32⟩
  | 18 => ⟨S_, .f32⟩
  | 19 => ⟨S256x128, .f32⟩
  | 20 => ⟨S262144x1, .i32⟩
  | 21 => ⟨S256x128, .f32⟩
  | 22 => ⟨S_, .f32⟩
  | 23 => ⟨S256x128, .f32⟩
  | 24 => ⟨S131072x1, .i32⟩
  | 25 => ⟨S256x128, .f32⟩
  | 26 => ⟨S256x512, .f32⟩
  | 27 => ⟨S256x128, .f32⟩
  | 28 => ⟨S1x128, .f32⟩
  | 29 => ⟨S256x128, .f32⟩
  | 30 => ⟨S256x128, .f32⟩
  | 31 => ⟨S_, .f32⟩
  | 32 => ⟨S256x128, .f32⟩
  | 33 => ⟨S256x128, .f32⟩
  | _ => ⟨S131072x128, .f32⟩

abbrev hbmTy (i : Nat) : BufTy := match i / 128 with
  | 0 => hbmTy0_0 i
  | 1 => hbmTy0_1 i
  | 2 => hbmTy0_2 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_v0 : Ref sig .tc := ⟨.hbm, 25, rfl⟩
abbrev main_call0_v1 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_c_1 : Ref sig .tc := ⟨.hbm, 35, rfl⟩
abbrev main_v8 : Ref sig .tc := ⟨.hbm, 36, rfl⟩
abbrev main_c_2 : Ref sig .tc := ⟨.hbm, 37, rfl⟩
abbrev main_v9 : Ref sig .tc := ⟨.hbm, 38, rfl⟩
abbrev main_v10 : Ref sig .tc := ⟨.hbm, 39, rfl⟩
abbrev main_c_3 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_4 : Ref sig .tc := ⟨.hbm, 45, rfl⟩
abbrev main_v15 : Ref sig .tc := ⟨.hbm, 46, rfl⟩
abbrev main_v16 : Ref sig .tc := ⟨.hbm, 47, rfl⟩
abbrev main_call2_call0_c : Ref sig .tc := ⟨.hbm, 48, rfl⟩
abbrev main_call2_call0_v0 : Ref sig .tc := ⟨.hbm, 49, rfl⟩
abbrev main_v17 : Ref sig .tc := ⟨.hbm, 50, rfl⟩
abbrev main_c_5 : Ref sig .tc := ⟨.hbm, 51, rfl⟩
abbrev main_v18 : Ref sig .tc := ⟨.hbm, 52, rfl⟩
abbrev main_v19 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_c_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_c_1 : Ref sig .tc := ⟨.hbm, 62, rfl⟩
abbrev main_call3_c_2 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_c_3 : Ref sig .tc := ⟨.hbm, 70, rfl⟩
abbrev main_call3_v12 : Ref sig .tc := ⟨.hbm, 71, rfl⟩
abbrev main_call3_v13 : Ref sig .tc := ⟨.hbm, 72, rfl⟩
abbrev main_call3_v14 : Ref sig .tc := ⟨.hbm, 73, rfl⟩
abbrev main_call3_cst : Ref sig .tc := ⟨.hbm, 74, rfl⟩
abbrev main_call3_v15 : Ref sig .tc := ⟨.hbm, 75, rfl⟩
abbrev main_v20 : Ref sig .tc := ⟨.hbm, 76, rfl⟩
abbrev main_c_6 : Ref sig .tc := ⟨.hbm, 77, rfl⟩
abbrev main_v21 : Ref sig .tc := ⟨.hbm, 78, rfl⟩
abbrev main_v22 : Ref sig .tc := ⟨.hbm, 79, rfl⟩
abbrev main_c_7 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_c_8 : Ref sig .tc := ⟨.hbm, 86, rfl⟩
abbrev main_v28 : Ref sig .tc := ⟨.hbm, 87, rfl⟩
abbrev main_v29 : Ref sig .tc := ⟨.hbm, 88, rfl⟩
abbrev main_c_9 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_c_10 : Ref sig .tc := ⟨.hbm, 97, rfl⟩
abbrev main_v37 : Ref sig .tc := ⟨.hbm, 98, rfl⟩
abbrev main_v38 : Ref sig .tc := ⟨.hbm, 99, rfl⟩
abbrev main_c_11 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_c_12 : Ref sig .tc := ⟨.hbm, 108, rfl⟩
abbrev main_v46 : Ref sig .tc := ⟨.hbm, 109, rfl⟩
abbrev main_v47 : Ref sig .tc := ⟨.hbm, 110, rfl⟩
abbrev main_c_13 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_call4_cst : Ref sig .tc := ⟨.hbm, 122, rfl⟩
abbrev main_call4_v0 : Ref sig .tc := ⟨.hbm, 123, rfl⟩
abbrev main_v58 : Ref sig .tc := ⟨.hbm, 124, rfl⟩
abbrev main_cst : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_cst_14 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_call5_v0 : Ref sig .tc := ⟨.hbm, 133, rfl⟩
abbrev main_call5_v1 : Ref sig .tc := ⟨.hbm, 134, rfl⟩
abbrev main_v65 : Ref sig .tc := ⟨.hbm, 135, rfl⟩
abbrev main_c_15 : Ref sig .tc := ⟨.hbm, 136, rfl⟩
abbrev main_v66 : Ref sig .tc := ⟨.hbm, 137, rfl⟩
abbrev main_c_16 : Ref sig .tc := ⟨.hbm, 138, rfl⟩
abbrev main_v67 : Ref sig .tc := ⟨.hbm, 139, rfl⟩
abbrev main_call6_call0_c : Ref sig .tc := ⟨.hbm, 140, rfl⟩
abbrev main_call6_call0_v0 : Ref sig .tc := ⟨.hbm, 141, rfl⟩
abbrev main_v68 : Ref sig .tc := ⟨.hbm, 142, rfl⟩
abbrev main_c_17 : Ref sig .tc := ⟨.hbm, 143, rfl⟩
abbrev main_v69 : Ref sig .tc := ⟨.hbm, 144, rfl⟩
abbrev main_c_18 : Ref sig .tc := ⟨.hbm, 145, rfl⟩
abbrev main_v70 : Ref sig .tc := ⟨.hbm, 146, rfl⟩
abbrev main_v71 : Ref sig .tc := ⟨.hbm, 147, rfl⟩
abbrev main_c_19 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_c_20 : Ref sig .tc := ⟨.hbm, 153, rfl⟩
abbrev main_v76 : Ref sig .tc := ⟨.hbm, 154, rfl⟩
abbrev main_v77 : Ref sig .tc := ⟨.hbm, 155, rfl⟩
abbrev main_call7_call0_c : Ref sig .tc := ⟨.hbm, 156, rfl⟩
abbrev main_call7_call0_v0 : Ref sig .tc := ⟨.hbm, 157, rfl⟩
abbrev main_v78 : Ref sig .tc := ⟨.hbm, 158, rfl⟩
abbrev main_c_21 : Ref sig .tc := ⟨.hbm, 159, rfl⟩
abbrev main_v79 : Ref sig .tc := ⟨.hbm, 160, rfl⟩
abbrev main_v80 : Ref sig .tc := ⟨.hbm, 161, rfl⟩
abbrev main_call8_c : Ref sig .tc := ⟨.hbm, 162, rfl⟩
abbrev main_call8_v0 : Ref sig .tc := ⟨.hbm, 163, rfl⟩
abbrev main_call8_v1 : Ref sig .tc := ⟨.hbm, 164, rfl⟩
abbrev main_call8_c_0 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_call8_v5 : Ref sig .tc := ⟨.hbm, 169, rfl⟩
abbrev main_call8_c_1 : Ref sig .tc := ⟨.hbm, 170, rfl⟩
abbrev main_call8_c_2 : Ref sig .tc := ⟨.hbm, 171, rfl⟩
abbrev main_call8_v6 : Ref sig .tc := ⟨.hbm, 172, rfl⟩
abbrev main_call8_v7 : Ref sig .tc := ⟨.hbm, 173, rfl⟩
abbrev main_call8_v8 : Ref sig .tc := ⟨.hbm, 174, rfl⟩
abbrev main_call8_v9 : Ref sig .tc := ⟨.hbm, 175, rfl⟩
abbrev main_call8_v10 : Ref sig .tc := ⟨.hbm, 176, rfl⟩
abbrev main_call8_v11 : Ref sig .tc := ⟨.hbm, 177, rfl⟩
abbrev main_call8_c_3 : Ref sig .tc := ⟨.hbm, 178, rfl⟩
abbrev main_call8_v12 : Ref sig .tc := ⟨.hbm, 179, rfl⟩
abbrev main_call8_v13 : Ref sig .tc := ⟨.hbm, 180, rfl⟩
abbrev main_call8_v14 : Ref sig .tc := ⟨.hbm, 181, rfl⟩
abbrev main_call8_cst : Ref sig .tc := ⟨.hbm, 182, rfl⟩
abbrev main_call8_v15 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_call9_cst : Ref sig .tc := ⟨.hbm, 190, rfl⟩
abbrev main_call9_v0 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_cst_22 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_cst_23 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_call10_v0 : Ref sig .tc := ⟨.hbm, 205, rfl⟩
abbrev main_call10_v1 : Ref sig .tc := ⟨.hbm, 206, rfl⟩
abbrev main_v98 : Ref sig .tc := ⟨.hbm, 207, rfl⟩
abbrev main_c_24 : Ref sig .tc := ⟨.hbm, 208, rfl⟩
abbrev main_v99 : Ref sig .tc := ⟨.hbm, 209, rfl⟩
abbrev main_c_25 : Ref sig .tc := ⟨.hbm, 210, rfl⟩
abbrev main_v100 : Ref sig .tc := ⟨.hbm, 211, rfl⟩
abbrev main_call11_call0_c : Ref sig .tc := ⟨.hbm, 212, rfl⟩
abbrev main_call11_call0_v0 : Ref sig .tc := ⟨.hbm, 213, rfl⟩
abbrev main_v101 : Ref sig .tc := ⟨.hbm, 214, rfl⟩
abbrev main_c_26 : Ref sig .tc := ⟨.hbm, 215, rfl⟩
abbrev main_v102 : Ref sig .tc := ⟨.hbm, 216, rfl⟩
abbrev main_c_27 : Ref sig .tc := ⟨.hbm, 217, rfl⟩
abbrev main_v103 : Ref sig .tc := ⟨.hbm, 218, rfl⟩
abbrev main_v104 : Ref sig .tc := ⟨.hbm, 219, rfl⟩
abbrev main_c_28 : Ref sig .tc := ⟨.hbm, 220, rfl⟩
abbrev main_v105 : Ref sig .tc := ⟨.hbm, 221, rfl⟩
abbrev main_v106 : Ref sig .tc := ⟨.hbm, 222, rfl⟩
abbrev main_v107 : Ref sig .tc := ⟨.hbm, 223, rfl⟩
abbrev main_v108 : Ref sig .tc := ⟨.hbm, 224, rfl⟩
abbrev main_c_29 : Ref sig .tc := ⟨.hbm, 225, rfl⟩
abbrev main_v109 : Ref sig .tc := ⟨.hbm, 226, rfl⟩
abbrev main_v110 : Ref sig .tc := ⟨.hbm, 227, rfl⟩
abbrev main_call12_call0_c : Ref sig .tc := ⟨.hbm, 228, rfl⟩
abbrev main_call12_call0_v0 : Ref sig .tc := ⟨.hbm, 229, rfl⟩
abbrev main_v111 : Ref sig .tc := ⟨.hbm, 230, rfl⟩
abbrev main_c_30 : Ref sig .tc := ⟨.hbm, 231, rfl⟩
abbrev main_v112 : Ref sig .tc := ⟨.hbm, 232, rfl⟩
abbrev main_v113 : Ref sig .tc := ⟨.hbm, 233, rfl⟩
abbrev main_call13_c : Ref sig .tc := ⟨.hbm, 234, rfl⟩
abbrev main_call13_v0 : Ref sig .tc := ⟨.hbm, 235, rfl⟩
abbrev main_call13_v1 : Ref sig .tc := ⟨.hbm, 236, rfl⟩
abbrev main_call13_c_0 : Ref sig .tc := ⟨.hbm, 237, rfl⟩
abbrev main_call13_v2 : Ref sig .tc := ⟨.hbm, 238, rfl⟩
abbrev main_call13_v3 : Ref sig .tc := ⟨.hbm, 239, rfl⟩
abbrev main_call13_v4 : Ref sig .tc := ⟨.hbm, 240, rfl⟩
abbrev main_call13_v5 : Ref sig .tc := ⟨.hbm, 241, rfl⟩
abbrev main_call13_c_1 : Ref sig .tc := ⟨.hbm, 242, rfl⟩
abbrev main_call13_c_2 : Ref sig .tc := ⟨.hbm, 243, rfl⟩
abbrev main_call13_v6 : Ref sig .tc := ⟨.hbm, 244, rfl⟩
abbrev main_call13_v7 : Ref sig .tc := ⟨.hbm, 245, rfl⟩
abbrev main_call13_v8 : Ref sig .tc := ⟨.hbm, 246, rfl⟩
abbrev main_call13_v9 : Ref sig .tc := ⟨.hbm, 247, rfl⟩
abbrev main_call13_v10 : Ref sig .tc := ⟨.hbm, 248, rfl⟩
abbrev main_call13_v11 : Ref sig .tc := ⟨.hbm, 249, rfl⟩
abbrev main_call13_c_3 : Ref sig .tc := ⟨.hbm, 250, rfl⟩
abbrev main_call13_v12 : Ref sig .tc := ⟨.hbm, 251, rfl⟩
abbrev main_call13_v13 : Ref sig .tc := ⟨.hbm, 252, rfl⟩
abbrev main_call13_v14 : Ref sig .tc := ⟨.hbm, 253, rfl⟩
abbrev main_call13_cst : Ref sig .tc := ⟨.hbm, 254, rfl⟩
abbrev main_call13_v15 : Ref sig .tc := ⟨.hbm, 255, rfl⟩
abbrev main_v114 : Ref sig .tc := ⟨.hbm, 256, rfl⟩
abbrev main_v115 : Ref sig .tc := ⟨.hbm, 257, rfl⟩
abbrev main_v116 : Ref sig .tc := ⟨.hbm, 258, rfl⟩
abbrev main_v117 : Ref sig .tc := ⟨.hbm, 259, rfl⟩
abbrev main_v118 : Ref sig .tc := ⟨.hbm, 260, rfl⟩
abbrev main_v119 : Ref sig .tc := ⟨.hbm, 261, rfl⟩
abbrev main_call14_cst : Ref sig .tc := ⟨.hbm, 262, rfl⟩
abbrev main_call14_v0 : Ref sig .tc := ⟨.hbm, 263, rfl⟩
abbrev main_v120 : Ref sig .tc := ⟨.hbm, 264, rfl⟩
abbrev main_v121 : Ref sig .tc := ⟨.hbm, 265, rfl⟩
abbrev main_cst_31 : Ref sig .tc := ⟨.hbm, 266, rfl⟩
abbrev main_call15_v0 : Ref sig .tc := ⟨.hbm, 267, rfl⟩
abbrev main_call15_v1 : Ref sig .tc := ⟨.hbm, 268, rfl⟩
abbrev main_v122 : Ref sig .tc := ⟨.hbm, 269, rfl⟩
abbrev main_cst_32 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_cst_33 : Ref sig .tc := ⟨.hbm, 274, rfl⟩
abbrev main_v126 : Ref sig .tc := ⟨.hbm, 275, rfl⟩
abbrev main_v127 : Ref sig .tc := ⟨.hbm, 276, rfl⟩
abbrev main_v128 : Ref sig .tc := ⟨.hbm, 277, rfl⟩
abbrev main_cst_34 : Ref sig .tc := ⟨.hbm, 278, rfl⟩
abbrev main_v129 : Ref sig .tc := ⟨.hbm, 279, rfl⟩
abbrev main_v130 : Ref sig .tc := ⟨.hbm, 280, rfl⟩
abbrev main_v131 : Ref sig .tc := ⟨.hbm, 281, rfl⟩
abbrev main_v132 : Ref sig .tc := ⟨.hbm, 282, rfl⟩
abbrev main_v133 : Ref sig .tc := ⟨.hbm, 283, rfl⟩
abbrev main_v134 : Ref sig .tc := ⟨.hbm, 284, rfl⟩
abbrev main_v135 : Ref sig .tc := ⟨.hbm, 285, rfl⟩
abbrev main_v136 : Ref sig .tc := ⟨.hbm, 286, rfl⟩
abbrev main_call16_cst : Ref sig .tc := ⟨.hbm, 287, rfl⟩
abbrev main_call16_v0 : Ref sig .tc := ⟨.hbm, 288, rfl⟩
abbrev main_v137 : Ref sig .tc := ⟨.hbm, 289, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  slices_S256_S1_255 : S256.Slices ![255] S1
  slices_S256_S255_0 : S256.Slices ![0] S255
  concatenates_S1_S255_S256_d0 : Shape.Concatenates [S1, S255] S256 0
  bcast_S_S1 : S_.BroadcastsInDim S1 (![] : Fin 0 → Fin S1.rank)
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  bcast_S_S262144 : S_.BroadcastsInDim S262144 (![] : Fin 0 → Fin S262144.rank)
  bcast_S_S256 : S_.BroadcastsInDim S256 (![] : Fin 0 → Fin S256.rank)
  bcast_S256_S256x1_0 : S256.BroadcastsInDim S256x1 (![0] : Fin 1 → Fin S256x1.rank)
  reduceWindows_S262144_S262144_w262144s1p262143_0 : S262144.ReduceWindows (![262144] : Fin 1 → Nat) ![1] ![262143] ![0] S262144
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  bcast_S262144_S262144x128_0 : S262144.BroadcastsInDim S262144x128 (![0] : Fin 1 → Fin S262144x128.rank)
  bcast_S_S262144x128 : S_.BroadcastsInDim S262144x128 (![] : Fin 0 → Fin S262144x128.rank)
  concatenates_S262144x128_S262144x128_S262144x128_S262144x128_S262144x128_S262144x128_S262144x768_d1 : Shape.Concatenates [S262144x128, S262144x128, S262144x128, S262144x128, S262144x128, S262144x128] S262144x768 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S131072x128 : S_.BroadcastsInDim S131072x128 (![] : Fin 0 → Fin S131072x128.rank)
  bcast_S_S131072 : S_.BroadcastsInDim S131072 (![] : Fin 0 → Fin S131072.rank)
  reduceWindows_S131072_S131072_w131072s1p131071_0 : S131072.ReduceWindows (![131072] : Fin 1 → Nat) ![1] ![131071] ![0] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1x1_S131072x1_0_1 : S1x1.BroadcastsInDim S131072x1 (![0, 1] : Fin 2 → Fin S131072x1.rank)
  reducesTo_S131072x1_S131072_d1 : S131072x1.ReducesTo [1] S131072
  bcast_S131072_S131072x128_0 : S131072.BroadcastsInDim S131072x128 (![0] : Fin 1 → Fin S131072x128.rank)
  concatenates_S131072x128_S131072x128_S131072x128_S131072x128_S131072x512_d1 : Shape.Concatenates [S131072x128, S131072x128, S131072x128, S131072x128] S131072x512 1
  bcast_S1x128_S131072x128_0_1 : S1x128.BroadcastsInDim S131072x128 (![0, 1] : Fin 2 → Fin S131072x128.rank)
  bcast_S131072x1_S131072x128_0_1 : S131072x1.BroadcastsInDim S131072x128 (![0, 1] : Fin 2 → Fin S131072x128.rank)
  bcast_S_S256x128 : S_.BroadcastsInDim S256x128 (![] : Fin 0 → Fin S256x128.rank)
  concatenates_S256x128_S256x128_S256x128_S256x128_S256x512_d1 : Shape.Concatenates [S256x128, S256x128, S256x128, S256x128] S256x512 1
  bcast_S1x128_S256x128_0_1 : S1x128.BroadcastsInDim S256x128 (![0, 1] : Fin 2 → Fin S256x128.rank)
  scatter_S256_S1_S__n_0_0_0_wf : ScatterDims.WF S256 S1 S_ [] [0] [0] 0
  scatter_S262144_S256x1_S256_n_0_0_1_wf : ScatterDims.WF S262144 S256x1 S256 [] [0] [0] 1
  gather_S256x128_S262144x1_S262144x128_1_0_n_n_0_1_1128_wf : GatherDims.WF S256x128 S262144x1 S262144x128 [1] [0] [] [0] [] 1 ![1, 128]
  gather_S131072x128_S262144x1_S262144x128_1_0_n_n_0_1_1128_wf : GatherDims.WF S131072x128 S262144x1 S262144x128 [1] [0] [] [0] [] 1 ![1, 128]
  dot_S262144x768_S768x128_S262144x128_1_0_0_1_n_n_wf : DotDims.WF S262144x768 S768x128 S262144x128 [1] [0] [0] [1] [] []
  scatter_S131072x128_S262144x1_S262144x128_1_0_0_1_wf : ScatterDims.WF S131072x128 S262144x1 S262144x128 [1] [0] [0] 1
  scatter_S131072_S256x1_S256_n_0_0_1_wf : ScatterDims.WF S131072 S256x1 S256 [] [0] [0] 1
  gather_S256x128_S131072x1_S131072x128_1_0_n_n_0_1_1128_wf : GatherDims.WF S256x128 S131072x1 S131072x128 [1] [0] [] [0] [] 1 ![1, 128]
  dot_S131072x512_S512x128_S131072x128_1_0_0_1_n_n_wf : DotDims.WF S131072x512 S512x128 S131072x128 [1] [0] [0] [1] [] []
  scatter_S256x128_S131072x1_S131072x128_1_0_0_1_wf : ScatterDims.WF S256x128 S131072x1 S131072x128 [1] [0] [0] 1
  scatter_S256x128_S262144x1_S262144x128_1_0_0_1_wf : ScatterDims.WF S256x128 S262144x1 S262144x128 [1] [0] [0] 1
  dot_S256x512_S512x128_S256x128_1_0_0_1_n_n_wf : DotDims.WF S256x512 S512x128 S256x128 [1] [0] [0] [1] [] []

variable [Facts₀]

def scatter_S256_S1_S__n_0_0_0 : ScatterDims S256 S1 S_ where
  updateWindowDims := []
  insertedWindowDims := [0]
  scatterDimsToOperandDims := [0]
  indexVectorDim := 0
  wf := scatter_S256_S1_S__n_0_0_0_wf
def scatter_S262144_S256x1_S256_n_0_0_1 : ScatterDims S262144 S256x1 S256 where
  updateWindowDims := []
  insertedWindowDims := [0]
  scatterDimsToOperandDims := [0]
  indexVectorDim := 1
  wf := scatter_S262144_S256x1_S256_n_0_0_1_wf
def gather_S256x128_S262144x1_S262144x128_1_0_n_n_0_1_1128 : GatherDims S256x128 S262144x1 S262144x128 where
  offsetDims := [1]
  collapsedSliceDims := [0]
  operandBatchingDims := []
  startIndicesBatchingDims := []
  startIndexMap := [0]
  indexVectorDim := 1
  sliceSizes := ![1, 128]
  wf := gather_S256x128_S262144x1_S262144x128_1_0_n_n_0_1_1128_wf
def gather_S131072x128_S262144x1_S262144x128_1_0_n_n_0_1_1128 : GatherDims S131072x128 S262144x1 S262144x128 where
  offsetDims := [1]
  collapsedSliceDims := [0]
  operandBatchingDims := []
  startIndicesBatchingDims := []
  startIndexMap := [0]
  indexVectorDim := 1
  sliceSizes := ![1, 128]
  wf := gather_S131072x128_S262144x1_S262144x128_1_0_n_n_0_1_1128_wf
def dot_S262144x768_S768x128_S262144x128_1_0_0_1_n_n : DotDims S262144x768 S768x128 S262144x128 where
  lhsContracting := [1]
  rhsContracting := [0]
  lhsNonContracting := [0]
  rhsNonContracting := [1]
  lhsBatch := []
  rhsBatch := []
  wf := dot_S262144x768_S768x128_S262144x128_1_0_0_1_n_n_wf
def scatter_S131072x128_S262144x1_S262144x128_1_0_0_1 : ScatterDims S131072x128 S262144x1 S262144x128 where
  updateWindowDims := [1]
  insertedWindowDims := [0]
  scatterDimsToOperandDims := [0]
  indexVectorDim := 1
  wf := scatter_S131072x128_S262144x1_S262144x128_1_0_0_1_wf
def scatter_S131072_S256x1_S256_n_0_0_1 : ScatterDims S131072 S256x1 S256 where
  updateWindowDims := []
  insertedWindowDims := [0]
  scatterDimsToOperandDims := [0]
  indexVectorDim := 1
  wf := scatter_S131072_S256x1_S256_n_0_0_1_wf
def gather_S256x128_S131072x1_S131072x128_1_0_n_n_0_1_1128 : GatherDims S256x128 S131072x1 S131072x128 where
  offsetDims := [1]
  collapsedSliceDims := [0]
  operandBatchingDims := []
  startIndicesBatchingDims := []
  startIndexMap := [0]
  indexVectorDim := 1
  sliceSizes := ![1, 128]
  wf := gather_S256x128_S131072x1_S131072x128_1_0_n_n_0_1_1128_wf
def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf
def scatter_S256x128_S131072x1_S131072x128_1_0_0_1 : ScatterDims S256x128 S131072x1 S131072x128 where
  updateWindowDims := [1]
  insertedWindowDims := [0]
  scatterDimsToOperandDims := [0]
  indexVectorDim := 1
  wf := scatter_S256x128_S131072x1_S131072x128_1_0_0_1_wf
def scatter_S256x128_S262144x1_S262144x128_1_0_0_1 : ScatterDims S256x128 S262144x1 S262144x128 where
  updateWindowDims := [1]
  insertedWindowDims := [0]
  scatterDimsToOperandDims := [0]
  indexVectorDim := 1
  wf := scatter_S256x128_S262144x1_S262144x128_1_0_0_1_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

class Facts : Prop extends Facts₀ where

variable [Facts]
-- ==== Proof.KRun.lean ====
/-
  The idealized kernel's run with its four results named.

  The program is thirty host stretches around four pipelined regions. Its buffer contents at each boundary are a
  fold from the launch memory: a stretch applies its operations, a region replaces its output array by what its
  write-backs leave and keeps every other buffer. Every weakly fair execution from a memory with zero counters
  terminates without a fault, and in the final state every buffer that outlives the run holds the last fold. Stated
  here for the four result buffers (node, edge, global and face features) beside the twenty-one arguments, which end
  as launched.
-/
import proofs.«134187_j30227979829536_1_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting; each result buffer ends at the last boundary's contents
    and each argument as launched. -/
theorem run_results : θ_run defs (onTc (τ := τ) (main (F := F))) ⟨m, fun _ => 0, ρ⟩ (fun r => ∀ c : Dev nD,
      r.2.mem ((c.tc : Thread nD τ).loc main_v89) = W34 m ρ c (Proc.devRef .tc main_v89)
      ∧ r.2.mem ((c.tc : Thread nD τ).loc main_v60) = W34 m ρ c (Proc.devRef .tc main_v60)
      ∧ r.2.mem ((c.tc : Thread nD τ).loc main_v135) = W34 m ρ c (Proc.devRef .tc main_v135)
      ∧ r.2.mem ((c.tc : Thread nD τ).loc main_v120) = W34 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v89 (by decide)),
       h c _ (mem_uc main_v60 (by decide)),
       h c _ (mem_uc main_v135 (by decide)),
       h c _ (mem_uc main_v120 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c),
       (h c _ (mem_uc main_arg8 (by decide))).trans (W34_main_arg8 m ρ c),
       (h c _ (mem_uc main_arg9 (by decide))).trans (W34_main_arg9 m ρ c),
       (h c _ (mem_uc main_arg10 (by decide))).trans (W34_main_arg10 m ρ c),
       (h c _ (mem_uc main_arg11 (by decide))).trans (W34_main_arg11 m ρ c),
       (h c _ (mem_uc main_arg12 (by decide))).trans (W34_main_arg12 m ρ c),
       (h c _ (mem_uc main_arg13 (by decide))).trans (W34_main_arg13 m ρ c),
       (h c _ (mem_uc main_arg14 (by decide))).trans (W34_main_arg14 m ρ c),
       (h c _ (mem_uc main_arg15 (by decide))).trans (W34_main_arg15 m ρ c),
       (h c _ (mem_uc main_arg16 (by decide))).trans (W34_main_arg16 m ρ c),
       (h c _ (mem_uc main_arg17 (by decide))).trans (W34_main_arg17 m ρ c),
       (h c _ (mem_uc main_arg18 (by decide))).trans (W34_main_arg18 m ρ c),
       (h c _ (mem_uc main_arg19 (by decide))).trans (W34_main_arg19 m ρ c),
       (h c _ (mem_uc main_arg20 (by decide))).trans (W34_main_arg20 m ρ c)⟩)

end Cert.KernelIdeal.HandRun

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.LibHostSsa.lean ====
/-
  A line of host operations in which every buffer is written once, read as a system of equations.

  When each operation of a line writes one buffer of its own and no later operation writes that buffer again, what the
  buffer holds after the WHOLE line is the operation's function of what its operand buffers hold after the WHOLE line:
  an operand is written, if at all, before the operation, so the line's later operations leave it alone.  Each lemma
  below states this for one kind of operation, the k-th of the line; the side conditions are that the result buffer is
  not among the buffers written after place k, and that no operand is among the buffers written from place k on.
-/
import proofs.«134187_j30227979829536_1_alg».proof.Proof.LibHostRead

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}

/-- A constant: after the line the buffer holds it. -/
theorem nullary_at (h : Outs l ys) (V : Valuation τ sig Val) (k : Nat) (y : Ref sig .tc) (v : y.ty.Contents Val) (hy)
    (hk : l[k]? = some (nullary y v hy)) (hy' : y ∉ ys.drop (k + 1)) :
    after l V (Proc.devRef .tc y) = v := by
  rw [after_at h k _ y hk hy' V, nullary_result]

/-- A one-operand operation. -/
theorem unary_at (h : Outs l ys) (V : Valuation τ sig Val) (k : Nat) (x y : Ref sig .tc)
    (f : x.ty.Contents Val → y.ty.Contents Val) (hx hy)
    (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- A reshape. -/
theorem reshape_at (h : Outs l ys) (V : Valuation τ sig Val) (k : Nat) (x y : Ref sig .tc) (he hn hx hy)
    (hk : l[k]? = some (reshape (Val := Val) x y he hn hx hy)) (hy' : y ∉ ys.drop (k + 1)) (hx' : x ∉ ys.drop k) :
    after l V (Proc.devRef .tc y) = fun i => he ▸ shapeCast y.ty.shape (after l V (Proc.devRef .tc x)) hn i := by
  rw [after_at h k _ y hk hy' V, reshape_result, after_take h k x hx' V]

/-- A two-operand operation. -/
theorem binary_at (h : Outs l ys) (V : Valuation τ sig Val) (k : Nat) (a b y : Ref sig .tc)
    (f : a.ty.Contents Val → b.ty.Contents Val → y.ty.Contents Val) (ha hb hy)
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- A three-operand operation. -/
theorem ternary_at (h : Outs l ys) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ ys.drop (k + 1))
    (hc' : c ∉ ys.drop k) (ha' : a ∉ ys.drop k) (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

end HostRead
-- ==== Proof.LibHostOnce.lean ====
/-
  A line of host operations in which every buffer is written once: the side conditions, from the list of written
  buffers having no repetition.

  When the buffers a line writes are all different, the buffer written at place k is not written after place k, and a
  buffer written at an earlier place j < k is not written from place k on; a buffer the line never writes is not written
  from any place on. Also here: an operation of any number of operands read as an equation between the buffers' contents
  after the whole line, and the written-buffer lists of two lines run one after the other.
-/
import proofs.«134187_j30227979829536_1_alg».proof.Proof.LibHostSsa
import Mathlib.Data.List.Nodup

namespace HostRead

open Idealize.ShloMosaic Idealize.ShloMosaic.StableHlo Idealize.ShloMosaic.TcCoe

/-- In a list without repetition, the entry at place j does not occur from a later place k on. -/
theorem not_mem_drop_of_lt {α : Type*} {ys : List α} (h : ys.Nodup) {j k : Nat} {x : α} (hj : ys[j]? = some x) (hjk : j < k) :
    x ∉ ys.drop k := by
  intro hx
  obtain ⟨i, hi⟩ := List.mem_iff_getElem?.mp hx
  rw [List.getElem?_drop] at hi
  have hlt : k + i < ys.length := by
    by_contra hge
    rw [List.getElem?_eq_none (Nat.le_of_not_lt hge)] at hi
    cases hi
  exact (List.nodup_iff_getElem?_ne_getElem?.mp h) j (k + i) (by omega) hlt (hj.trans hi.symm)

variable {sig : RefSig} {τ : Topo} {Val : EltTy → Type}

/-- Two lines, each writing its listed buffers, run one after the other write the two lists in turn. -/
theorem outs_append {l₁ l₂ : List (HloOp τ sig Val)} {y₁ y₂ : List (Ref sig .tc)} (h₁ : Outs l₁ y₁) (h₂ : Outs l₂ y₂) :
    Outs (l₁ ++ l₂) (y₁ ++ y₂) := by
  induction h₁ with
  | nil => exact h₂
  | cons hw _ ih => exact List.Forall₂.cons hw ih

variable {l : List (HloOp τ sig Val)} {ys : List (Ref sig .tc)}

/-- An operation of any number of operands. -/
theorem nary_at (h : Outs l ys) (V : Valuation τ sig Val) (k : Nat) {n : Nat} (xs : Fin n → Ref sig .tc) (y : Ref sig .tc)
    (f : ((i : Fin n) → (xs i).ty.Contents Val) → y.ty.Contents Val) (hxs hy)
    (hk : l[k]? = some (nary xs y f hxs hy)) (hy' : y ∉ ys.drop (k + 1)) (hx' : ∀ i, xs i ∉ ys.drop k) :
    after l V (Proc.devRef .tc y) = f (fun i => after l V (Proc.devRef .tc (xs i))) := by
  rw [after_at h k _ y hk hy' V, nary_result]
  exact congrArg f (funext fun i => (after_take h k (xs i) (hx' i) V).symm)

end HostRead
-- ==== Proof.RefRun.lean ====
/-
  The reference program's @main as ONE line of host operations, and its run.

  @main is printed in three windows, each a chain of host operations and of calls of module-local functions; a call
  executes the callee's body on the caller's buffers. Writing every callee's operations at its call site, over the call's
  own buffer record, turns each window into a plain list of operations (ops0, ops1, ops2); the windows run in order, so
  @main is the line ops = ops0 ++ (ops1 ++ ops2) of 269 operations. Each operation writes one buffer of its own
  (outs, in the same order), and no buffer is written twice: the buffers' indices in the signature increase along the line.

  From this the run: every weakly fair execution of @main terminates, and every buffer ends at the fold of the line's
  operations over the launch contents.
-/
import proofs.«134187_j30227979829536_1_alg».proof.ReferenceIdeal
import proofs.«134187_j30227979829536_1_alg».proof.Proof.Gen.ReferenceIdeal
import proofs.«134187_j30227979829536_1_alg».proof.Proof.LibHostOnce
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The three windows as lists of operations -/

/-- The first window's 88 operations in program order, callee bodies at their call sites. -/
abbrev ops0 : List (HloOp τ sig (Elt F)) :=
  [
    unary main_arg12 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg12 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    TRef.unary (.of main_arg19 : TRef sig ⟨S256, .i32⟩) main_call0.v0 (extractStridedSlice S1 ![255] · slices_S256_S1_255),
    TRef.unary (.of main_arg19 : TRef sig ⟨S256, .i32⟩) main_call0.v1 (extractStridedSlice S255 ![0] · slices_S256_S255_0),
    TRef.binary main_call0.v0 main_call0.v1 main_call0.v2 (fun a b => concatenate S256 0 [⟨S1, a⟩, ⟨S255, b⟩] concatenates_S1_S255_S256_d0),
    nullary main_c (constantI S_ 32 0#32),
    unary main_c main_v5 (broadcastInDim S1 ![] bcast_S_S1 : (⟨S_, .i32⟩ : BufTy).Contents (Elt F) → (⟨S1, .i32⟩ : BufTy).Contents (Elt F)),
    nullary main_c_0 (constantI S_ 32 0#32),
    ternary main_v4 main_v5 main_c_0 main_v6 ((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F)),
    TRef.nullary main_call1.call0.c (constantI S_ 32 0#32),
    TRef.unary main_call1.call0.c main_call1.call0.v0 (broadcastInDim S_ ![] bcast_S_S_),
    TRef.binary (.of main_v6 : TRef sig ⟨S256, .i32⟩) main_call1.call0.v0 main_call1.call0.v1 (fun x v => Host.reduceWindow IntOp.addi ![256] ![1] ![255] ![0] x v reduceWindows_S256_S256_w256s1p255_0 h_S_),
    nullary main_c_1 (constantI S_ 32 0#32),
    unary main_c_1 main_v8 (broadcastInDim S262144 ![] bcast_S_S262144 : (⟨S_, .i32⟩ : BufTy).Contents (Elt F) → (⟨S262144, .i32⟩ : BufTy).Contents (Elt F)),
    nullary main_c_2 (constantI S_ 32 0#32),
    unary main_c_2 main_v9 (broadcastInDim S256 ![] bcast_S_S256 : (⟨S_, .i32⟩ : BufTy).Contents (Elt F) → (⟨S256, .i32⟩ : BufTy).Contents (Elt F)),
    binary main_v7 main_v9 main_v10 (cmpi .slt : (⟨S256, .i32⟩ : BufTy).Contents (Elt F) → (⟨S256, .i32⟩ : BufTy).Contents (Elt F) → (⟨S256, .i1⟩ : BufTy).Contents (Elt F)),
    nullary main_c_3 (constantI S_ 32 262144#32),
    unary main_c_3 main_v11 (broadcastInDim S256 ![] bcast_S_S256 : (⟨S_, .i32⟩ : BufTy).Contents (Elt F) → (⟨S256, .i32⟩ : BufTy).Contents (Elt F)),
    binary main_v7 main_v11 main_v12 (addi : (⟨S256, .i32⟩ : BufTy).Contents (Elt F) → (⟨S256, .i32⟩ : BufTy).Contents (Elt F) → (⟨S256, .i32⟩ : BufTy).Contents (Elt F)),
    ternary main_v10 main_v12 main_v7 main_v13 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v13 main_v14 (broadcastInDim S256x1 ![0] bcast_S256_S256x1_0 : (⟨S256, .i32⟩ : BufTy).Contents (Elt F) → (⟨S256x1, .i32⟩ : BufTy).Contents (Elt F)),
    nullary main_c_4 (constantI S_ 32 1#32),
    unary main_c_4 main_v15 (broadcastInDim S256 ![] bcast_S_S256 : (⟨S_, .i32⟩ : BufTy).Contents (Elt F) → (⟨S256, .i32⟩ : BufTy).Contents (Elt F)),
    ternary main_v8 main_v14 main_v15 main_v16 ((fun x i u => Host.scatter scatter_S262144_S256x1_S256_n_0_0_1 IntOp.addi x i u) : (⟨S262144, .i32⟩ : BufTy).Contents (Elt F) → (⟨S256x1, .i32⟩ : BufTy).Contents (Elt F) → (⟨S256, .i32⟩ : BufTy).Contents (Elt F) → (⟨S262144, .i32⟩ : BufTy).Contents (Elt F)),
    TRef.nullary main_call2.call0.c (constantI S_ 32 0#32),
    TRef.unary main_call2.call0.c main_call2.call0.v0 (broadcastInDim S_ ![] bcast_S_S_),
    TRef.binary (.of main_v16 : TRef sig ⟨S262144, .i32⟩) main_call2.call0.v0 main_call2.call0.v1 (fun x v => Host.reduceWindow IntOp.addi ![262144] ![1] ![262143] ![0] x v reduceWindows_S262144_S262144_w262144s1p262143_0 h_S_),
    nullary main_c_5 (constantI S_ 32 1#32),
    unary main_c_5 main_v18 (broadcastInDim S262144 ![] bcast_S_S262144 : (⟨S_, .i32⟩ : BufTy).Contents (Elt F) → (⟨S262144, .i32⟩ : BufTy).Contents (Elt F)),
    binary main_v17 main_v18 main_v19 (subi : (⟨S262144, .i32⟩ : BufTy).Contents (Elt F) → (⟨S262144, .i32⟩ : BufTy).Contents (Elt F) → (⟨S262144, .i32⟩ : BufTy).Contents (Elt F)),
    TRef.nullary main_call3.c (constantI S_ 32 0#32),
    TRef.unary main_call3.c main_call3.v0 (broadcastInDim S262144 ![] bcast_S_S262144),
    TRef.binary (.of main_v19 : TRef sig ⟨S262144, .i32⟩) main_call3.v0 main_call3.v1 (cmpi .slt),
    TRef.nullary main_call3.c_0 (constantI S_ 32 256#32),
    TRef.unary main_call3.c_0 main_call3.v2 (broadcastInDim S262144 ![] bcast_S_S262144),
    TRef.binary (.of main_v19 : TRef sig ⟨S262144, .i32⟩) main_call3.v2 main_call3.v3 addi,
    TRef.ternary main_call3.v1 main_call3.v3 (.of main_v19 : TRef sig ⟨S262144, .i32⟩) main_call3.call0.v0 select,
    TRef.unary main_call3.call0.v0 main_call3.v5 (broadcastInDim S262144x1 ![0] bcast_S262144_S262144x1_0),
    TRef.nullary main_call3.c_1 (constantI S1 32 255#32),
    TRef.nullary main_call3.c_2 (constantI S_ 32 0#32),
    TRef.unary main_call3.c_2 main_call3.v6 (broadcastInDim S262144x1 ![] bcast_S_S262144x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S262144x1 ![0, 1] bcast_S1x1_S262144x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S262144x1_S262144_d1 h_S_),
    TRef.binary (.of main_arg2 : TRef sig ⟨S256x128, .f32⟩) main_call3.v5 main_call3.v13 (fun x i => Host.gather gather_S256x128_S262144x1_S262144x128_1_0_n_n_0_1_1128 x i),
    TRef.unary main_call3.v12 main_call3.v14 (broadcastInDim S262144x128 ![0] bcast_S262144_S262144x128_0),
    TRef.nullary main_call3.cst (constant S_ .f32 0x7FC00000#32),
    TRef.unary main_call3.cst main_call3.v15 (broadcastInDim S262144x128 ![] bcast_S_S262144x128),
    TRef.ternary main_call3.v14 main_call3.v13 main_call3.v15 main_call3.v16 select,
    nullary main_c_6 (constantI S_ 32 0#32),
    unary main_c_6 main_v21 (broadcastInDim S262144 ![] bcast_S_S262144 : (⟨S_, .i32⟩ : BufTy).Contents (Elt F) → (⟨S262144, .i32⟩ : BufTy).Contents (Elt F)),
    binary main_v1 main_v21 main_v22 (cmpi .slt : (⟨S262144, .i32⟩ : BufTy).Contents (Elt F) → (⟨S262144, .i32⟩ : BufTy).Contents (Elt F) → (⟨S262144, .i1⟩ : BufTy).Contents (Elt F)),
    nullary main_c_7 (constantI S_ 32 131072#32),
    unary main_c_7 main_v23 (broadcastInDim S262144 ![] bcast_S_S262144 : (⟨S_, .i32⟩ : BufTy).Contents (Elt F) → (⟨S262144, .i32⟩ : BufTy).Contents (Elt F)),
    binary main_v1 main_v23 main_v24 (addi : (⟨S262144, .i32⟩ : BufTy).Contents (Elt F) → (⟨S262144, .i32⟩ : BufTy).Contents (Elt F) → (⟨S262144, .i32⟩ : BufTy).Contents (Elt F)),
    ternary main_v22 main_v24 main_v1 main_v25 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v25 main_v26 (broadcastInDim S262144x1 ![0] bcast_S262144_S262144x1_0 : (⟨S262144, .i32⟩ : BufTy).Contents (Elt F) → (⟨S262144x1, .i32⟩ : BufTy).Contents (Elt F)),
    binary main_arg0 main_v26 main_v27 ((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F)),
    nullary main_c_8 (constantI S_ 32 0#32),
    unary main_c_8 main_v28 (broadcastInDim S262144 ![] bcast_S_S262144 : (⟨S_, .i32⟩ : BufTy).Contents (Elt F) → (⟨S262144, .i32⟩ : BufTy).Contents (Elt F)),
    binary main_v3 main_v28 main_v29 (cmpi .slt : (⟨S262144, .i32⟩ : BufTy).Contents (Elt F) → (⟨S262144, .i32⟩ : BufTy).Contents (Elt F) → (⟨S262144, .i1⟩ : BufTy).Contents (Elt F)),
    nullary main_c_9 (constantI S_ 32 131072#32),
    unary main_c_9 main_v30 (broadcastInDim S262144 ![] bcast_S_S262144 : (⟨S_, .i32⟩ : BufTy).Contents (Elt F) → (⟨S262144, .i32⟩ : BufTy).Contents (Elt F)),
    binary main_v3 main_v30 main_v31 (addi : (⟨S262144, .i32⟩ : BufTy).Contents (Elt F) → (⟨S262144, .i32⟩ : BufTy).Contents (Elt F) → (⟨S262144, .i32⟩ : BufTy).Contents (Elt F)),
    ternary main_v29 main_v31 main_v3 main_v32 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v32 main_v33 (broadcastInDim S262144x1 ![0] bcast_S262144_S262144x1_0 : (⟨S262144, .i32⟩ : BufTy).Contents (Elt F) → (⟨S262144x1, .i32⟩ : BufTy).Contents (Elt F)),
    binary main_arg0 main_v33 main_v34 ((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F)),
    unary main_arg13 main_v35 ((extractStridedSlice S1x262144 ![0, 0] · slices_S2x262144_S1x262144_0_0) : (⟨S2x262144, .i32⟩ : BufTy).Contents (Elt F) → (⟨S1x262144, .i32⟩ : BufTy).Contents (Elt F)),
    reshape main_v35 main_v36 rfl shapeCasts_S1x262144_S262144,
    nullary main_c_10 (constantI S_ 32 0#32),
    unary main_c_10 main_v37 (broadcastInDim S262144 ![] bcast_S_S262144 : (⟨S_, .i32⟩ : BufTy).Contents (Elt F) → (⟨S262144, .i32⟩ : BufTy).Contents (Elt F)),
    binary main_v36 main_v37 main_v38 (cmpi .slt : (⟨S262144, .i32⟩ : BufTy).Contents (Elt F) → (⟨S262144, .i32⟩ : BufTy).Contents (Elt F) → (⟨S262144, .i1⟩ : BufTy).Contents (Elt F)),
    nullary main_c_11 (constantI S_ 32 131072#32),
    unary main_c_11 main_v39 (broadcastInDim S262144 ![] bcast_S_S262144 : (⟨S_, .i32⟩ : BufTy).Contents (Elt F) → (⟨S262144, .i32⟩ : BufTy).Contents (Elt F)),
    binary main_v36 main_v39 main_v40 (addi : (⟨S262144, .i32⟩ : BufTy).Contents (Elt F) → (⟨S262144, .i32⟩ : BufTy).Contents (Elt F) → (⟨S262144, .i32⟩ : BufTy).Contents (Elt F)),
    ternary main_v38 main_v40 main_v36 main_v41 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v41 main_v42 (broadcastInDim S262144x1 ![0] bcast_S262144_S262144x1_0 : (⟨S262144, .i32⟩ : BufTy).Contents (Elt F) → (⟨S262144x1, .i32⟩ : BufTy).Contents (Elt F)),
    binary main_arg3 main_v42 main_v43 ((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F)),
    unary main_arg13 main_v44 ((extractStridedSlice S1x262144 ![1, 0] · slices_S2x262144_S1x262144_1_0) : (⟨S2x262144, .i32⟩ : BufTy).Contents (Elt F) → (⟨S1x262144, .i32⟩ : BufTy).Contents (Elt F)),
    reshape main_v44 main_v45 rfl shapeCasts_S1x262144_S262144,
    nullary main_c_12 (constantI S_ 32 0#32) ]

/-- The second window's 92 operations. -/
abbrev ops1 : List (HloOp τ sig (Elt F)) :=
  [
    unary main_c_12 main_v46 (broadcastInDim S262144 ![] bcast_S_S262144 : (⟨S_, .i32⟩ : BufTy).Contents (Elt F) → (⟨S262144, .i32⟩ : BufTy).Contents (Elt F)),
    binary main_v45 main_v46 main_v47 (cmpi .slt : (⟨S262144, .i32⟩ : BufTy).Contents (Elt F) → (⟨S262144, .i32⟩ : BufTy).Contents (Elt F) → (⟨S262144, .i1⟩ : BufTy).Contents (Elt F)),
    nullary main_c_13 (constantI S_ 32 131072#32),
    unary main_c_13 main_v48 (broadcastInDim S262144 ![] bcast_S_S262144 : (⟨S_, .i32⟩ : BufTy).Contents (Elt F) → (⟨S262144, .i32⟩ : BufTy).Contents (Elt F)),
    binary main_v45 main_v48 main_v49 (addi : (⟨S262144, .i32⟩ : BufTy).Contents (Elt F) → (⟨S262144, .i32⟩ : BufTy).Contents (Elt F) → (⟨S262144, .i32⟩ : BufTy).Contents (Elt F)),
    ternary main_v47 main_v49 main_v45 main_v50 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v50 main_v51 (broadcastInDim S262144x1 ![0] bcast_S262144_S262144x1_0 : (⟨S262144, .i32⟩ : BufTy).Contents (Elt F) → (⟨S262144x1, .i32⟩ : BufTy).Contents (Elt F)),
    binary main_arg3 main_v51 main_v52 ((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F)),
    nary ![main_arg1, main_v27, main_v34, main_v20, main_v43, main_v52] main_v53 (fun u => concatenate S262144x768 1 [⟨S262144x128, u 0⟩, ⟨S262144x128, u 1⟩, ⟨S262144x128, u 2⟩, ⟨S262144x128, u 3⟩, ⟨S262144x128, u 4⟩, ⟨S262144x128, u 5⟩] concatenates_S262144x128_S262144x128_S262144x128_S262144x128_S262144x128_S262144x128_S262144x768_d1),
    binary main_v53 main_arg4 main_v54 ((fun l r => Host.dotGeneral dot_S262144x768_S768x128_S262144x128_1_0_0_1_n_n none l r) : (⟨S262144x768, .f32⟩ : BufTy).Contents (Elt F) → (⟨S768x128, .f32⟩ : BufTy).Contents (Elt F) → (⟨S262144x128, .f32⟩ : BufTy).Contents (Elt F)),
    unary main_arg5 main_v55 (broadcastInDim S1x128 ![1] bcast_S128_S1x128_1 : (⟨S128, .f32⟩ : BufTy).Contents (Elt F) → (⟨S1x128, .f32⟩ : BufTy).Contents (Elt F)),
    unary main_v55 main_v56 (broadcastInDim S262144x128 ![0, 1] bcast_S1x128_S262144x128_0_1 : (⟨S1x128, .f32⟩ : BufTy).Contents (Elt F) → (⟨S262144x128, .f32⟩ : BufTy).Contents (Elt F)),
    binary main_v54 main_v56 main_v57 (addf : (⟨S262144x128, .f32⟩ : BufTy).Contents (Elt F) → (⟨S262144x128, .f32⟩ : BufTy).Contents (Elt F) → (⟨S262144x128, .f32⟩ : BufTy).Contents (Elt F)),
    TRef.nullary main_call4.cst (constant S_ .f32 0x00000000#32),
    TRef.unary main_call4.cst main_call4.v0 (broadcastInDim S262144x128 ![] bcast_S_S262144x128),
    TRef.binary (.of main_v57 : TRef sig ⟨S262144x128, .f32⟩) main_call4.v0 main_call4.v1 maximumf,
    nullary main_cst (constant S_ .f32 0x00000000#32),
    unary main_cst main_v59 (broadcastInDim S131072x128 ![] bcast_S_S131072x128 : (⟨S_, .f32⟩ : BufTy).Contents (Elt F) → (⟨S131072x128, .f32⟩ : BufTy).Contents (Elt F)),
    unary main_v1 main_v60 (broadcastInDim S262144x1 ![0] bcast_S262144_S262144x1_0 : (⟨S262144, .i32⟩ : BufTy).Contents (Elt F) → (⟨S262144x1, .i32⟩ : BufTy).Contents (Elt F)),
    ternary main_v59 main_v60 main_v58 main_v61 ((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F)),
    nullary main_cst_14 (constant S_ .f32 0x00000000#32),
    unary main_cst_14 main_v62 (broadcastInDim S131072x128 ![] bcast_S_S131072x128 : (⟨S_, .f32⟩ : BufTy).Contents (Elt F) → (⟨S131072x128, .f32⟩ : BufTy).Contents (Elt F)),
    unary main_v3 main_v63 (broadcastInDim S262144x1 ![0] bcast_S262144_S262144x1_0 : (⟨S262144, .i32⟩ : BufTy).Contents (Elt F) → (⟨S262144x1, .i32⟩ : BufTy).Contents (Elt F)),
    ternary main_v62 main_v63 main_v58 main_v64 ((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F)),
    TRef.unary (.of main_arg18 : TRef sig ⟨S256, .i32⟩) main_call5.v0 (extractStridedSlice S1 ![255] · slices_S256_S1_255),
    TRef.unary (.of main_arg18 : TRef sig ⟨S256, .i32⟩) main_call5.v1 (extractStridedSlice S255 ![0] · slices_S256_S255_0),
    TRef.binary main_call5.v0 main_call5.v1 main_call5.v2 (fun a b => concatenate S256 0 [⟨S1, a⟩, ⟨S255, b⟩] concatenates_S1_S255_S256_d0),
    nullary main_c_15 (constantI S_ 32 0#32),
    unary main_c_15 main_v66 (broadcastInDim S1 ![] bcast_S_S1 : (⟨S_, .i32⟩ : BufTy).Contents (Elt F) → (⟨S1, .i32⟩ : BufTy).Contents (Elt F)),
    nullary main_c_16 (constantI S_ 32 0#32),
    ternary main_v65 main_v66 main_c_16 main_v67 ((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F)),
    TRef.nullary main_call6.call0.c (constantI S_ 32 0#32),
    TRef.unary main_call6.call0.c main_call6.call0.v0 (broadcastInDim S_ ![] bcast_S_S_),
    TRef.binary (.of main_v67 : TRef sig ⟨S256, .i32⟩) main_call6.call0.v0 main_call6.call0.v1 (fun x v => Host.reduceWindow IntOp.addi ![256] ![1] ![255] ![0] x v reduceWindows_S256_S256_w256s1p255_0 h_S_),
    nullary main_c_17 (constantI S_ 32 0#32),
    unary main_c_17 main_v69 (broadcastInDim S131072 ![] bcast_S_S131072 : (⟨S_, .i32⟩ : BufTy).Contents (Elt F) → (⟨S131072, .i32⟩ : BufTy).Contents (Elt F)),
    nullary main_c_18 (constantI S_ 32 0#32),
    unary main_c_18 main_v70 (broadcastInDim S256 ![] bcast_S_S256 : (⟨S_, .i32⟩ : BufTy).Contents (Elt F) → (⟨S256, .i32⟩ : BufTy).Contents (Elt F)),
    binary main_v68 main_v70 main_v71 (cmpi .slt : (⟨S256, .i32⟩ : BufTy).Contents (Elt F) → (⟨S256, .i32⟩ : BufTy).Contents (Elt F) → (⟨S256, .i1⟩ : BufTy).Contents (Elt F)),
    nullary main_c_19 (constantI S_ 32 131072#32),
    unary main_c_19 main_v72 (broadcastInDim S256 ![] bcast_S_S256 : (⟨S_, .i32⟩ : BufTy).Contents (Elt F) → (⟨S256, .i32⟩ : BufTy).Contents (Elt F)),
    binary main_v68 main_v72 main_v73 (addi : (⟨S256, .i32⟩ : BufTy).Contents (Elt F) → (⟨S256, .i32⟩ : BufTy).Contents (Elt F) → (⟨S256, .i32⟩ : BufTy).Contents (Elt F)),
    ternary main_v71 main_v73 main_v68 main_v74 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v74 main_v75 (broadcastInDim S256x1 ![0] bcast_S256_S256x1_0 : (⟨S256, .i32⟩ : BufTy).Contents (Elt F) → (⟨S256x1, .i32⟩ : BufTy).Contents (Elt F)),
    nullary main_c_20 (constantI S_ 32 1#32),
    unary main_c_20 main_v76 (broadcastInDim S256 ![] bcast_S_S256 : (⟨S_, .i32⟩ : BufTy).Contents (Elt F) → (⟨S256, .i32⟩ : BufTy).Contents (Elt F)),
    ternary main_v69 main_v75 main_v76 main_v77 ((fun x i u => Host.scatter scatter_S131072_S256x1_S256_n_0_0_1 IntOp.addi x i u) : (⟨S131072, .i32⟩ : BufTy).Contents (Elt F) → (⟨S256x1, .i32⟩ : BufTy).Contents (Elt F) → (⟨S256, .i32⟩ : BufTy).Contents (Elt F) → (⟨S131072, .i32⟩ : BufTy).Contents (Elt F)),
    TRef.nullary main_call7.call0.c (constantI S_ 32 0#32),
    TRef.unary main_call7.call0.c main_call7.call0.v0 (broadcastInDim S_ ![] bcast_S_S_),
    TRef.binary (.of main_v77 : TRef sig ⟨S131072, .i32⟩) main_call7.call0.v0 main_call7.call0.v1 (fun x v => Host.reduceWindow IntOp.addi ![131072] ![1] ![131071] ![0] x v reduceWindows_S131072_S131072_w131072s1p131071_0 h_S_),
    nullary main_c_21 (constantI S_ 32 1#32),
    unary main_c_21 main_v79 (broadcastInDim S131072 ![] bcast_S_S131072 : (⟨S_, .i32⟩ : BufTy).Contents (Elt F) → (⟨S131072, .i32⟩ : BufTy).Contents (Elt F)),
    binary main_v78 main_v79 main_v80 (subi : (⟨S131072, .i32⟩ : BufTy).Contents (Elt F) → (⟨S131072, .i32⟩ : BufTy).Contents (Elt F) → (⟨S131072, .i32⟩ : BufTy).Contents (Elt F)),
    TRef.nullary main_call8.c (constantI S_ 32 0#32),
    TRef.unary main_call8.c main_call8.v0 (broadcastInDim S131072 ![] bcast_S_S131072),
    TRef.binary (.of main_v80 : TRef sig ⟨S131072, .i32⟩) main_call8.v0 main_call8.v1 (cmpi .slt),
    TRef.nullary main_call8.c_0 (constantI S_ 32 256#32),
    TRef.unary main_call8.c_0 main_call8.v2 (broadcastInDim S131072 ![] bcast_S_S131072),
    TRef.binary (.of main_v80 : TRef sig ⟨S131072, .i32⟩) main_call8.v2 main_call8.v3 addi,
    TRef.ternary main_call8.v1 main_call8.v3 (.of main_v80 : TRef sig ⟨S131072, .i32⟩) main_call8.call0.v0 select,
    TRef.unary main_call8.call0.v0 main_call8.v5 (broadcastInDim S131072x1 ![0] bcast_S131072_S131072x1_0),
    TRef.nullary main_call8.c_1 (constantI S1 32 255#32),
    TRef.nullary main_call8.c_2 (constantI S_ 32 0#32),
    TRef.unary main_call8.c_2 main_call8.v6 (broadcastInDim S131072x1 ![] bcast_S_S131072x1),
    TRef.binary main_call8.v5 main_call8.v6 main_call8.v7 (cmpi .sge),
    TRef.unary main_call8.c_1 main_call8.v8 (broadcastInDim S1x1 ![1] bcast_S1_S1x1_1),
    TRef.unary main_call8.v8 main_call8.v9 (broadcastInDim S131072x1 ![0, 1] bcast_S1x1_S131072x1_0_1),
    TRef.binary main_call8.v5 main_call8.v9 main_call8.v10 (cmpi .sle),
    TRef.binary main_call8.v7 main_call8.v10 main_call8.v11 andi,
    TRef.nullary main_call8.c_3 (constantI S_ 1 1#1),
    TRef.binary main_call8.v11 main_call8.c_3 main_call8.v12 (fun x v => Host.reduce IntOp.andi x v reducesTo_S131072x1_S131072_d1 h_S_),
    TRef.binary (.of main_arg2 : TRef sig ⟨S256x128, .f32⟩) main_call8.v5 main_call8.v13 (fun x i => Host.gather gather_S256x128_S131072x1_S131072x128_1_0_n_n_0_1_1128 x i),
    TRef.unary main_call8.v12 main_call8.v14 (broadcastInDim S131072x128 ![0] bcast_S131072_S131072x128_0),
    TRef.nullary main_call8.cst (constant S_ .f32 0x7FC00000#32),
    TRef.unary main_call8.cst main_call8.v15 (broadcastInDim S131072x128 ![] bcast_S_S131072x128),
    TRef.ternary main_call8.v14 main_call8.v13 main_call8.v15 main_call8.v16 select,
    nary ![main_arg0, main_v61, main_v64, main_v81] main_v82 (fun u => concatenate S131072x512 1 [⟨S131072x128, u 0⟩, ⟨S131072x128, u 1⟩, ⟨S131072x128, u 2⟩, ⟨S131072x128, u 3⟩] concatenates_S131072x128_S131072x128_S131072x128_S131072x128_S131072x512_d1),
    binary main_v82 main_arg6 main_v83 ((fun l r => Host.dotGeneral dot_S131072x512_S512x128_S131072x128_1_0_0_1_n_n none l r) : (⟨S131072x512, .f32⟩ : BufTy).Contents (Elt F) → (⟨S512x128, .f32⟩ : BufTy).Contents (Elt F) → (⟨S131072x128, .f32⟩ : BufTy).Contents (Elt F)),
    unary main_arg7 main_v84 (broadcastInDim S1x128 ![1] bcast_S128_S1x128_1 : (⟨S128, .f32⟩ : BufTy).Contents (Elt F) → (⟨S1x128, .f32⟩ : BufTy).Contents (Elt F)),
    unary main_v84 main_v85 (broadcastInDim S131072x128 ![0, 1] bcast_S1x128_S131072x128_0_1 : (⟨S1x128, .f32⟩ : BufTy).Contents (Elt F) → (⟨S131072x128, .f32⟩ : BufTy).Contents (Elt F)),
    binary main_v83 main_v85 main_v86 (addf : (⟨S131072x128, .f32⟩ : BufTy).Contents (Elt F) → (⟨S131072x128, .f32⟩ : BufTy).Contents (Elt F) → (⟨S131072x128, .f32⟩ : BufTy).Contents (Elt F)),
    TRef.nullary main_call9.cst (constant S_ .f32 0x00000000#32),
    TRef.unary main_call9.cst main_call9.v0 (broadcastInDim S131072x128 ![] bcast_S_S131072x128),
    TRef.binary (.of main_v86 : TRef sig ⟨S131072x128, .f32⟩) main_call9.v0 main_call9.v1 maximumf,
    unary main_arg13 main_v88 ((extractStridedSlice S1x262144 ![0, 0] · slices_S2x262144_S1x262144_0_0) : (⟨S2x262144, .i32⟩ : BufTy).Contents (Elt F) → (⟨S1x262144, .i32⟩ : BufTy).Contents (Elt F)),
    reshape main_v88 main_v89 rfl shapeCasts_S1x262144_S262144,
    nullary main_cst_22 (constant S_ .f32 0x00000000#32),
    unary main_cst_22 main_v90 (broadcastInDim S131072x128 ![] bcast_S_S131072x128 : (⟨S_, .f32⟩ : BufTy).Contents (Elt F) → (⟨S131072x128, .f32⟩ : BufTy).Contents (Elt F)),
    unary main_v89 main_v91 (broadcastInDim S262144x1 ![0] bcast_S262144_S262144x1_0 : (⟨S262144, .i32⟩ : BufTy).Contents (Elt F) → (⟨S262144x1, .i32⟩ : BufTy).Contents (Elt F)),
    ternary main_v90 main_v91 main_v58 main_v92 ((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F)),
    unary main_arg13 main_v93 ((extractStridedSlice S1x262144 ![1, 0] · slices_S2x262144_S1x262144_1_0) : (⟨S2x262144, .i32⟩ : BufTy).Contents (Elt F) → (⟨S1x262144, .i32⟩ : BufTy).Contents (Elt F)),
    reshape main_v93 main_v94 rfl shapeCasts_S1x262144_S262144 ]

/-- The third window's 89 operations. -/
abbrev ops2 : List (HloOp τ sig (Elt F)) :=
  [
    nullary main_cst_23 (constant S_ .f32 0x00000000#32),
    unary main_cst_23 main_v95 (broadcastInDim S131072x128 ![] bcast_S_S131072x128 : (⟨S_, .f32⟩ : BufTy).Contents (Elt F) → (⟨S131072x128, .f32⟩ : BufTy).Contents (Elt F)),
    unary main_v94 main_v96 (broadcastInDim S262144x1 ![0] bcast_S262144_S262144x1_0 : (⟨S262144, .i32⟩ : BufTy).Contents (Elt F) → (⟨S262144x1, .i32⟩ : BufTy).Contents (Elt F)),
    ternary main_v95 main_v96 main_v58 main_v97 ((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F)),
    TRef.unary (.of main_arg20 : TRef sig ⟨S256, .i32⟩) main_call10.v0 (extractStridedSlice S1 ![255] · slices_S256_S1_255),
    TRef.unary (.of main_arg20 : TRef sig ⟨S256, .i32⟩) main_call10.v1 (extractStridedSlice S255 ![0] · slices_S256_S255_0),
    TRef.binary main_call10.v0 main_call10.v1 main_call10.v2 (fun a b => concatenate S256 0 [⟨S1, a⟩, ⟨S255, b⟩] concatenates_S1_S255_S256_d0),
    nullary main_c_24 (constantI S_ 32 0#32),
    unary main_c_24 main_v99 (broadcastInDim S1 ![] bcast_S_S1 : (⟨S_, .i32⟩ : BufTy).Contents (Elt F) → (⟨S1, .i32⟩ : BufTy).Contents (Elt F)),
    nullary main_c_25 (constantI S_ 32 0#32),
    ternary main_v98 main_v99 main_c_25 main_v100 ((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F)),
    TRef.nullary main_call11.call0.c (constantI S_ 32 0#32),
    TRef.unary main_call11.call0.c main_call11.call0.v0 (broadcastInDim S_ ![] bcast_S_S_),
    TRef.binary (.of main_v100 : TRef sig ⟨S256, .i32⟩) main_call11.call0.v0 main_call11.call0.v1 (fun x v => Host.reduceWindow IntOp.addi ![256] ![1] ![255] ![0] x v reduceWindows_S256_S256_w256s1p255_0 h_S_),
    nullary main_c_26 (constantI S_ 32 0#32),
    unary main_c_26 main_v102 (broadcastInDim S131072 ![] bcast_S_S131072 : (⟨S_, .i32⟩ : BufTy).Contents (Elt F) → (⟨S131072, .i32⟩ : BufTy).Contents (Elt F)),
    nullary main_c_27 (constantI S_ 32 0#32),
    unary main_c_27 main_v103 (broadcastInDim S256 ![] bcast_S_S256 : (⟨S_, .i32⟩ : BufTy).Contents (Elt F) → (⟨S256, .i32⟩ : BufTy).Contents (Elt F)),
    binary main_v101 main_v103 main_v104 (cmpi .slt : (⟨S256, .i32⟩ : BufTy).Contents (Elt F) → (⟨S256, .i32⟩ : BufTy).Contents (Elt F) → (⟨S256, .i1⟩ : BufTy).Contents (Elt F)),
    nullary main_c_28 (constantI S_ 32 131072#32),
    unary main_c_28 main_v105 (broadcastInDim S256 ![] bcast_S_S256 : (⟨S_, .i32⟩ : BufTy).Contents (Elt F) → (⟨S256, .i32⟩ : BufTy).Contents (Elt F)),
    binary main_v101 main_v105 main_v106 (addi : (⟨S256, .i32⟩ : BufTy).Contents (Elt F) → (⟨S256, .i32⟩ : BufTy).Contents (Elt F) → (⟨S256, .i32⟩ : BufTy).Contents (Elt F)),
    ternary main_v104 main_v106 main_v101 main_v107 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v107 main_v108 (broadcastInDim S256x1 ![0] bcast_S256_S256x1_0 : (⟨S256, .i32⟩ : BufTy).Contents (Elt F) → (⟨S256x1, .i32⟩ : BufTy).Contents (Elt F)),
    nullary main_c_29 (constantI S_ 32 1#32),
    unary main_c_29 main_v109 (broadcastInDim S256 ![] bcast_S_S256 : (⟨S_, .i32⟩ : BufTy).Contents (Elt F) → (⟨S256, .i32⟩ : BufTy).Contents (Elt F)),
    ternary main_v102 main_v108 main_v109 main_v110 ((fun x i u => Host.scatter scatter_S131072_S256x1_S256_n_0_0_1 IntOp.addi x i u) : (⟨S131072, .i32⟩ : BufTy).Contents (Elt F) → (⟨S256x1, .i32⟩ : BufTy).Contents (Elt F) → (⟨S256, .i32⟩ : BufTy).Contents (Elt F) → (⟨S131072, .i32⟩ : BufTy).Contents (Elt F)),
    TRef.nullary main_call12.call0.c (constantI S_ 32 0#32),
    TRef.unary main_call12.call0.c main_call12.call0.v0 (broadcastInDim S_ ![] bcast_S_S_),
    TRef.binary (.of main_v110 : TRef sig ⟨S131072, .i32⟩) main_call12.call0.v0 main_call12.call0.v1 (fun x v => Host.reduceWindow IntOp.addi ![131072] ![1] ![131071] ![0] x v reduceWindows_S131072_S131072_w131072s1p131071_0 h_S_),
    nullary main_c_30 (constantI S_ 32 1#32),
    unary main_c_30 main_v112 (broadcastInDim S131072 ![] bcast_S_S131072 : (⟨S_, .i32⟩ : BufTy).Contents (Elt F) → (⟨S131072, .i32⟩ : BufTy).Contents (Elt F)),
    binary main_v111 main_v112 main_v113 (subi : (⟨S131072, .i32⟩ : BufTy).Contents (Elt F) → (⟨S131072, .i32⟩ : BufTy).Contents (Elt F) → (⟨S131072, .i32⟩ : BufTy).Contents (Elt F)),
    TRef.nullary main_call13.c (constantI S_ 32 0#32),
    TRef.unary main_call13.c main_call13.v0 (broadcastInDim S131072 ![] bcast_S_S131072),
    TRef.binary (.of main_v113 : TRef sig ⟨S131072, .i32⟩) main_call13.v0 main_call13.v1 (cmpi .slt),
    TRef.nullary main_call13.c_0 (constantI S_ 32 256#32),
    TRef.unary main_call13.c_0 main_call13.v2 (broadcastInDim S131072 ![] bcast_S_S131072),
    TRef.binary (.of main_v113 : TRef sig ⟨S131072, .i32⟩) main_call13.v2 main_call13.v3 addi,
    TRef.ternary main_call13.v1 main_call13.v3 (.of main_v113 : TRef sig ⟨S131072, .i32⟩) main_call13.call0.v0 select,
    TRef.unary main_call13.call0.v0 main_call13.v5 (broadcastInDim S131072x1 ![0] bcast_S131072_S131072x1_0),
    TRef.nullary main_call13.c_1 (constantI S1 32 255#32),
    TRef.nullary main_call13.c_2 (constantI S_ 32 0#32),
    TRef.unary main_call13.c_2 main_call13.v6 (broadcastInDim S131072x1 ![] bcast_S_S131072x1),
    TRef.binary main_call13.v5 main_call13.v6 main_call13.v7 (cmpi .sge),
    TRef.unary main_call13.c_1 main_call13.v8 (broadcastInDim S1x1 ![1] bcast_S1_S1x1_1),
    TRef.unary main_call13.v8 main_call13.v9 (broadcastInDim S131072x1 ![0, 1] bcast_S1x1_S131072x1_0_1),
    TRef.binary main_call13.v5 main_call13.v9 main_call13.v10 (cmpi .sle),
    TRef.binary main_call13.v7 main_call13.v10 main_call13.v11 andi,
    TRef.nullary main_call13.c_3 (constantI S_ 1 1#1),
    TRef.binary main_call13.v11 main_call13.c_3 main_call13.v12 (fun x v => Host.reduce IntOp.andi x v reducesTo_S131072x1_S131072_d1 h_S_),
    TRef.binary (.of main_arg2 : TRef sig ⟨S256x128, .f32⟩) main_call13.v5 main_call13.v13 (fun x i => Host.gather gather_S256x128_S131072x1_S131072x128_1_0_n_n_0_1_1128 x i),
    TRef.unary main_call13.v12 main_call13.v14 (broadcastInDim S131072x128 ![0] bcast_S131072_S131072x128_0),
    TRef.nullary main_call13.cst (constant S_ .f32 0x7FC00000#32),
    TRef.unary main_call13.cst main_call13.v15 (broadcastInDim S131072x128 ![] bcast_S_S131072x128),
    TRef.ternary main_call13.v14 main_call13.v13 main_call13.v15 main_call13.v16 select,
    nary ![main_arg3, main_v92, main_v97, main_v114] main_v115 (fun u => concatenate S131072x512 1 [⟨S131072x128, u 0⟩, ⟨S131072x128, u 1⟩, ⟨S131072x128, u 2⟩, ⟨S131072x128, u 3⟩] concatenates_S131072x128_S131072x128_S131072x128_S131072x128_S131072x512_d1),
    binary main_v115 main_arg8 main_v116 ((fun l r => Host.dotGeneral dot_S131072x512_S512x128_S131072x128_1_0_0_1_n_n none l r) : (⟨S131072x512, .f32⟩ : BufTy).Contents (Elt F) → (⟨S512x128, .f32⟩ : BufTy).Contents (Elt F) → (⟨S131072x128, .f32⟩ : BufTy).Contents (Elt F)),
    unary main_arg9 main_v117 (broadcastInDim S1x128 ![1] bcast_S128_S1x128_1 : (⟨S128, .f32⟩ : BufTy).Contents (Elt F) → (⟨S1x128, .f32⟩ : BufTy).Contents (Elt F)),
    unary main_v117 main_v118 (broadcastInDim S131072x128 ![0, 1] bcast_S1x128_S131072x128_0_1 : (⟨S1x128, .f32⟩ : BufTy).Contents (Elt F) → (⟨S131072x128, .f32⟩ : BufTy).Contents (Elt F)),
    binary main_v116 main_v118 main_v119 (addf : (⟨S131072x128, .f32⟩ : BufTy).Contents (Elt F) → (⟨S131072x128, .f32⟩ : BufTy).Contents (Elt F) → (⟨S131072x128, .f32⟩ : BufTy).Contents (Elt F)),
    TRef.nullary main_call14.cst (constant S_ .f32 0x00000000#32),
    TRef.unary main_call14.cst main_call14.v0 (broadcastInDim S131072x128 ![] bcast_S_S131072x128),
    TRef.binary (.of main_v119 : TRef sig ⟨S131072x128, .f32⟩) main_call14.v0 main_call14.v1 maximumf,
    unary main_arg17 main_v121 (broadcastInDim S131072x1 ![0] bcast_S131072_S131072x1_0 : (⟨S131072, .i1⟩ : BufTy).Contents (Elt F) → (⟨S131072x1, .i1⟩ : BufTy).Contents (Elt F)),
    nullary main_cst_31 (constant S_ .f32 0x00000000#32),
    TRef.unary (.of main_v121 : TRef sig ⟨S131072x1, .i1⟩) main_call15.v0 (broadcastInDim S131072x128 ![0, 1] bcast_S131072x1_S131072x128_0_1),
    TRef.unary (.of main_cst_31 : TRef sig ⟨S_, .f32⟩) main_call15.v1 (broadcastInDim S131072x128 ![] bcast_S_S131072x128),
    TRef.ternary main_call15.v0 main_call15.v1 (.of main_v120 : TRef sig ⟨S131072x128, .f32⟩) main_call15.v2 select,
    nullary main_cst_32 (constant S_ .f32 0x00000000#32),
    unary main_cst_32 main_v123 (broadcastInDim S256x128 ![] bcast_S_S256x128 : (⟨S_, .f32⟩ : BufTy).Contents (Elt F) → (⟨S256x128, .f32⟩ : BufTy).Contents (Elt F)),
    unary main_arg14 main_v124 (broadcastInDim S131072x1 ![0] bcast_S131072_S131072x1_0 : (⟨S131072, .i32⟩ : BufTy).Contents (Elt F) → (⟨S131072x1, .i32⟩ : BufTy).Contents (Elt F)),
    ternary main_v123 main_v124 main_v87 main_v125 ((fun x i u => Host.scatterAdd scatter_S256x128_S131072x1_S131072x128_1_0_0_1 x i u) : (⟨S256x128, .f32⟩ : BufTy).Contents (Elt F) → (⟨S131072x1, .i32⟩ : BufTy).Contents (Elt F) → (⟨S131072x128, .f32⟩ : BufTy).Contents (Elt F) → (⟨S256x128, .f32⟩ : BufTy).Contents (Elt F)),
    nullary main_cst_33 (constant S_ .f32 0x00000000#32),
    unary main_cst_33 main_v126 (broadcastInDim S256x128 ![] bcast_S_S256x128 : (⟨S_, .f32⟩ : BufTy).Contents (Elt F) → (⟨S256x128, .f32⟩ : BufTy).Contents (Elt F)),
    unary main_arg15 main_v127 (broadcastInDim S262144x1 ![0] bcast_S262144_S262144x1_0 : (⟨S262144, .i32⟩ : BufTy).Contents (Elt F) → (⟨S262144x1, .i32⟩ : BufTy).Contents (Elt F)),
    ternary main_v126 main_v127 main_v58 main_v128 ((fun x i u => Host.scatterAdd scatter_S256x128_S262144x1_S262144x128_1_0_0_1 x i u) : (⟨S256x128, .f32⟩ : BufTy).Contents (Elt F) → (⟨S262144x1, .i32⟩ : BufTy).Contents (Elt F) → (⟨S262144x128, .f32⟩ : BufTy).Contents (Elt F) → (⟨S256x128, .f32⟩ : BufTy).Contents (Elt F)),
    nullary main_cst_34 (constant S_ .f32 0x00000000#32),
    unary main_cst_34 main_v129 (broadcastInDim S256x128 ![] bcast_S_S256x128 : (⟨S_, .f32⟩ : BufTy).Contents (Elt F) → (⟨S256x128, .f32⟩ : BufTy).Contents (Elt F)),
    unary main_arg16 main_v130 (broadcastInDim S131072x1 ![0] bcast_S131072_S131072x1_0 : (⟨S131072, .i32⟩ : BufTy).Contents (Elt F) → (⟨S131072x1, .i32⟩ : BufTy).Contents (Elt F)),
    ternary main_v129 main_v130 main_v122 main_v131 ((fun x i u => Host.scatterAdd scatter_S256x128_S131072x1_S131072x128_1_0_0_1 x i u) : (⟨S256x128, .f32⟩ : BufTy).Contents (Elt F) → (⟨S131072x1, .i32⟩ : BufTy).Contents (Elt F) → (⟨S131072x128, .f32⟩ : BufTy).Contents (Elt F) → (⟨S256x128, .f32⟩ : BufTy).Contents (Elt F)),
    nary ![main_arg2, main_v125, main_v128, main_v131] main_v132 (fun u => concatenate S256x512 1 [⟨S256x128, u 0⟩, ⟨S256x128, u 1⟩, ⟨S256x128, u 2⟩, ⟨S256x128, u 3⟩] concatenates_S256x128_S256x128_S256x128_S256x128_S256x512_d1),
    binary main_v132 main_arg10 main_v133 ((fun l r => Host.dotGeneral dot_S256x512_S512x128_S256x128_1_0_0_1_n_n none l r) : (⟨S256x512, .f32⟩ : BufTy).Contents (Elt F) → (⟨S512x128, .f32⟩ : BufTy).Contents (Elt F) → (⟨S256x128, .f32⟩ : BufTy).Contents (Elt F)),
    unary main_arg11 main_v134 (broadcastInDim S1x128 ![1] bcast_S128_S1x128_1 : (⟨S128, .f32⟩ : BufTy).Contents (Elt F) → (⟨S1x128, .f32⟩ : BufTy).Contents (Elt F)),
    unary main_v134 main_v135 (broadcastInDim S256x128 ![0, 1] bcast_S1x128_S256x128_0_1 : (⟨S1x128, .f32⟩ : BufTy).Contents (Elt F) → (⟨S256x128, .f32⟩ : BufTy).Contents (Elt F)),
    binary main_v133 main_v135 main_v136 (addf : (⟨S256x128, .f32⟩ : BufTy).Contents (Elt F) → (⟨S256x128, .f32⟩ : BufTy).Contents (Elt F) → (⟨S256x128, .f32⟩ : BufTy).Contents (Elt F)),
    TRef.nullary main_call16.cst (constant S_ .f32 0x00000000#32),
    TRef.unary main_call16.cst main_call16.v0 (broadcastInDim S256x128 ![] bcast_S_S256x128),
    TRef.binary (.of main_v136 : TRef sig ⟨S256x128, .f32⟩) main_call16.v0 main_call16.v1 maximumf ]

/-- All of @main, in program order. -/
abbrev ops : List (HloOp τ sig (Elt F)) := ops0 ++ (ops1 ++ ops2)

/-! ## Each window is its list

A call is the callee's definition applied, so unfolding the callees' bodies and reassociating the sequencing
(bind_assoc, pure_bind) leaves on both sides one chain of the same steps. -/

set_option maxRecDepth 4096 in
theorem part0_eq (c : Dev nD) : main_part0 (F := F) c = seq ops0 := by
  simp only [main_part0, fn_roll_static.body, fn_cumsum.body, fn_cumsum_0.body, fn_cumsum_1.body, fn_cumsum_2.body,
    fn_take.body, fn_where.body, seq, bind_assoc, pure_bind]
  rfl

set_option maxRecDepth 4096 in
theorem part1_eq (c : Dev nD) : main_part1 (F := F) c = seq ops1 := by
  simp only [main_part1, fn_relu.body, fn_roll_static.body, fn_cumsum.body, fn_cumsum_0.body, fn_cumsum_3.body, fn_cumsum_4.body,
    fn_take_5.body, fn_where_6.body, fn_relu_7.body, seq, bind_assoc, pure_bind]
  rfl

set_option maxRecDepth 4096 in
theorem part2_eq (c : Dev nD) : main_part2 (F := F) c = seq ops2 := by
  simp only [main_part2, fn_roll_static.body, fn_cumsum.body, fn_cumsum_0.body, fn_cumsum_3.body, fn_cumsum_4.body,
    fn_take_5.body, fn_where_6.body, fn_relu_7.body, fn_where_8.body, fn_relu_9.body, seq, bind_assoc, pure_bind]

/-- @main runs its windows in order, and lines run in order are their concatenation run as one. -/
theorem main_eq (c : Dev nD) : main (F := F) c = seq ops := by
  have e : main (F := F) c = (main_part0 c >>= fun _ => main_part1 c >>= fun _ => main_part2 c) := rfl
  rw [e, part0_eq, part1_eq, part2_eq, ← seq_append, ← seq_append]

/-! ## What the operations touch -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub ..⟩
theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., unary_bufs_sub .., ternary_bufs_sub .., unary_bufs_sub .., reshape_bufs_sub ..⟩
theorem ops2_sub : (ops2 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., binary_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nary_bufs_sub .., binary_bufs_sub .., unary_bufs_sub .., unary_bufs_sub .., binary_bufs_sub .., nullary_bufs_sub .., unary_bufs_sub .., binary_bufs_sub ..⟩

/-- Every operation touches TensorCore references only. -/
theorem ops_sub : (ops : List (HloOp τ sig (Elt F))).Forall fun op => op.bufs ⊆ tcRefs τ sig :=
  List.forall_append.mpr ⟨ops0_sub, List.forall_append.mpr ⟨ops1_sub, ops2_sub⟩⟩

/-- Every operation determines what it writes. -/
theorem ops_fresh : ∀ op ∈ (ops : List (HloOp τ sig (Elt F))), op.fresh = ∅ := by
  have h0 : (ops0 : List (HloOp τ sig (Elt F))).Forall fun op => op.fresh = ∅ := by
    repeat' (first | exact trivial | refine ⟨rfl, ?_⟩ | exact rfl)
  have h1 : (ops1 : List (HloOp τ sig (Elt F))).Forall fun op => op.fresh = ∅ := by
    repeat' (first | exact trivial | refine ⟨rfl, ?_⟩ | exact rfl)
  have h2 : (ops2 : List (HloOp τ sig (Elt F))).Forall fun op => op.fresh = ∅ := by
    repeat' (first | exact trivial | refine ⟨rfl, ?_⟩ | exact rfl)
  exact List.forall_iff_forall_mem.mp (List.forall_append.mpr ⟨h0, List.forall_append.mpr ⟨h1, h2⟩⟩)

/-! ## The run -/

/-- At the compiled mesh, for any float values, from any memory with zero counters: every weakly fair execution of @main on
    the TensorCore terminates, and every final state has each buffer at the fold of the line's operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The buffers written, once each -/

abbrev outs0 : List (Ref sig .tc) := [main_v0, main_v1, main_v2, main_v3, main_call0_v0, main_call0_v1, main_v4, main_c, main_v5, main_c_0, main_v6, main_call1_call0_c, main_call1_call0_v0, main_v7, main_c_1, main_v8, main_c_2, main_v9, main_v10, main_c_3, main_v11, main_v12, main_v13, main_v14, main_c_4, main_v15, main_v16, main_call2_call0_c, main_call2_call0_v0, main_v17, main_c_5, main_v18, main_v19, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v20, main_c_6, main_v21, main_v22, main_c_7, main_v23, main_v24, main_v25, main_v26, main_v27, main_c_8, main_v28, main_v29, main_c_9, main_v30, main_v31, main_v32, main_v33, main_v34, main_v35, main_v36, main_c_10, main_v37, main_v38, main_c_11, main_v39, main_v40, main_v41, main_v42, main_v43, main_v44, main_v45, main_c_12]
abbrev outs1 : List (Ref sig .tc) := [main_v46, main_v47, main_c_13, main_v48, main_v49, main_v50, main_v51, main_v52, main_v53, main_v54, main_v55, main_v56, main_v57, main_call4_cst, main_call4_v0, main_v58, main_cst, main_v59, main_v60, main_v61, main_cst_14, main_v62, main_v63, main_v64, main_call5_v0, main_call5_v1, main_v65, main_c_15, main_v66, main_c_16, main_v67, main_call6_call0_c, main_call6_call0_v0, main_v68, main_c_17, main_v69, main_c_18, main_v70, main_v71, main_c_19, main_v72, main_v73, main_v74, main_v75, main_c_20, main_v76, main_v77, main_call7_call0_c, main_call7_call0_v0, main_v78, main_c_21, main_v79, main_v80, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v81, main_v82, main_v83, main_v84, main_v85, main_v86, main_call9_cst, main_call9_v0, main_v87, main_v88, main_v89, main_cst_22, main_v90, main_v91, main_v92, main_v93, main_v94]
abbrev outs2 : List (Ref sig .tc) := [main_cst_23, main_v95, main_v96, main_v97, main_call10_v0, main_call10_v1, main_v98, main_c_24, main_v99, main_c_25, main_v100, main_call11_call0_c, main_call11_call0_v0, main_v101, main_c_26, main_v102, main_c_27, main_v103, main_v104, main_c_28, main_v105, main_v106, main_v107, main_v108, main_c_29, main_v109, main_v110, main_call12_call0_c, main_call12_call0_v0, main_v111, main_c_30, main_v112, main_v113, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v114, main_v115, main_v116, main_v117, main_v118, main_v119, main_call14_cst, main_call14_v0, main_v120, main_v121, main_cst_31, main_call15_v0, main_call15_v1, main_v122, main_cst_32, main_v123, main_v124, main_v125, main_cst_33, main_v126, main_v127, main_v128, main_cst_34, main_v129, main_v130, main_v131, main_v132, main_v133, main_v134, main_v135, main_v136, main_call16_cst, main_call16_v0, main_v137]

/-- The buffer each operation writes, in program order. -/
abbrev outs : List (Ref sig .tc) := outs0 ++ (outs1 ++ outs2)

theorem ops0_outs : HostRead.Outs (τ := τ) (ops0 (F := F)) outs0 := by
  repeat' (first | exact List.Forall₂.nil | refine List.Forall₂.cons rfl ?_)
theorem ops1_outs : HostRead.Outs (τ := τ) (ops1 (F := F)) outs1 := by
  repeat' (first | exact List.Forall₂.nil | refine List.Forall₂.cons rfl ?_)
theorem ops2_outs : HostRead.Outs (τ := τ) (ops2 (F := F)) outs2 := by
  repeat' (first | exact List.Forall₂.nil | refine List.Forall₂.cons rfl ?_)

theorem ops_outs : HostRead.Outs (τ := τ) (ops (F := F)) outs :=
  HostRead.outs_append ops0_outs (HostRead.outs_append ops1_outs ops2_outs)

/-- The written buffers' indices in the signature are 21, 22, …, in the line's order. -/
theorem outs_idx : outs.map (fun r => r.idx.val) = List.range' 21 269 := by decide

/-- No buffer is written twice: the indices are all different. -/
theorem outs_nodup : outs.Nodup :=
  List.Nodup.of_map _ (outs_idx ▸ List.nodup_range' (s := 21) (n := 269))

end Cert.ReferenceIdeal.HandRun

end
-- ==== Proof.RefSsa.lean ====
/-
  The reference's line of host operations read as a system of equations.

  Every operation of the line writes a buffer of its own and no buffer is written twice, so after the WHOLE line each
  written buffer holds its operation's function of what the operand buffers hold after the WHOLE line: an operand is
  written before the operation that reads it, or never (an argument of @main), and nothing later touches it. One
  equation per written buffer, in program order, and one per argument (it holds what it held at launch). The
  operations of the module-local functions name their buffers through typed references at literal buffers, where the
  transports between a buffer's type and the value's type are identities.
-/
import proofs.«134187_j30227979829536_1_alg».proof.Proof.RefRun

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## Side conditions from the written buffers being all different -/

/-- The buffer written at place k is not written after place k. -/
theorem later {k : Nat} {y : Ref sig .tc} (hk : outs[k]? = some y) : y ∉ outs.drop (k + 1) :=
  HostRead.not_mem_drop_of_lt outs_nodup hk (Nat.lt_succ_self k)

/-- A buffer written at an earlier place j is not written from place k on. -/
theorem earlier {j k : Nat} {x : Ref sig .tc} (hj : outs[j]? = some x) (hjk : j < k) : x ∉ outs.drop k :=
  HostRead.not_mem_drop_of_lt outs_nodup hj hjk

/-- A buffer the line never writes is not written from any place on. -/
theorem input {x : Ref sig .tc} (hx : x ∉ outs) (k : Nat) : x ∉ outs.drop k := fun h => hx (List.mem_of_mem_drop h)

/-- A buffer whose index is below every written buffer's is never written. -/
theorem not_written {x : Ref sig .tc} (hx : x.idx.val < 21) : x ∉ outs := fun h => by
  have hm : x.idx.val ∈ outs.map (fun r => r.idx.val) := List.mem_map_of_mem h
  rw [outs_idx, List.mem_range'_1] at hm
  omega

theorem arg0_input : main_arg0 ∉ outs := not_written (by decide)
theorem arg1_input : main_arg1 ∉ outs := not_written (by decide)
theorem arg2_input : main_arg2 ∉ outs := not_written (by decide)
theorem arg3_input : main_arg3 ∉ outs := not_written (by decide)
theorem arg4_input : main_arg4 ∉ outs := not_written (by decide)
theorem arg5_input : main_arg5 ∉ outs := not_written (by decide)
theorem arg6_input : main_arg6 ∉ outs := not_written (by decide)
theorem arg7_input : main_arg7 ∉ outs := not_written (by decide)
theorem arg8_input : main_arg8 ∉ outs := not_written (by decide)
theorem arg9_input : main_arg9 ∉ outs := not_written (by decide)
theorem arg10_input : main_arg10 ∉ outs := not_written (by decide)
theorem arg11_input : main_arg11 ∉ outs := not_written (by decide)
theorem arg12_input : main_arg12 ∉ outs := not_written (by decide)
theorem arg13_input : main_arg13 ∉ outs := not_written (by decide)
theorem arg14_input : main_arg14 ∉ outs := not_written (by decide)
theorem arg15_input : main_arg15 ∉ outs := not_written (by decide)
theorem arg16_input : main_arg16 ∉ outs := not_written (by decide)
theorem arg17_input : main_arg17 ∉ outs := not_written (by decide)
theorem arg18_input : main_arg18 ∉ outs := not_written (by decide)
theorem arg19_input : main_arg19 ∉ outs := not_written (by decide)
theorem arg20_input : main_arg20 ∉ outs := not_written (by decide)

/-! ## Transports along an equation of a type with itself are identities -/

theorem cast_elim {α : Sort _} (h : α = α) (v : α) : cast h v = v := rfl

theorem ap1 {α β : Sort _} (f : α → β) {a a' : α} (ha : a = a') : f a = f a' := congrArg f ha
theorem ap2 {α β γ : Sort _} (f : α → β → γ) {a a' : α} {b b' : β} (ha : a = a') (hb : b = b') : f a b = f a' b' := by
  subst ha; subst hb; rfl
theorem ap3 {α β γ δ : Sort _} (f : α → β → γ → δ) {a a' : α} {b b' : β} {c c' : γ} (ha : a = a') (hb : b = b') (hc : c = c') :
    f a b c = f a' b' c' := by
  subst ha; subst hb; subst hc; rfl

variable {F : FTy → Type} [FloatOps F] (V : Valuation τ sig (Elt F))

/-! ## The arguments: never written -/

theorem at_main_arg0 : after ops V (Proc.devRef .tc main_arg0) = V (Proc.devRef .tc main_arg0) :=
  (HostRead.after_take ops_outs 0 main_arg0 (input arg0_input 0) V).trans rfl
theorem at_main_arg1 : after ops V (Proc.devRef .tc main_arg1) = V (Proc.devRef .tc main_arg1) :=
  (HostRead.after_take ops_outs 0 main_arg1 (input arg1_input 0) V).trans rfl
theorem at_main_arg2 : after ops V (Proc.devRef .tc main_arg2) = V (Proc.devRef .tc main_arg2) :=
  (HostRead.after_take ops_outs 0 main_arg2 (input arg2_input 0) V).trans rfl
theorem at_main_arg3 : after ops V (Proc.devRef .tc main_arg3) = V (Proc.devRef .tc main_arg3) :=
  (HostRead.after_take ops_outs 0 main_arg3 (input arg3_input 0) V).trans rfl
theorem at_main_arg4 : after ops V (Proc.devRef .tc main_arg4) = V (Proc.devRef .tc main_arg4) :=
  (HostRead.after_take ops_outs 0 main_arg4 (input arg4_input 0) V).trans rfl
theorem at_main_arg5 : after ops V (Proc.devRef .tc main_arg5) = V (Proc.devRef .tc main_arg5) :=
  (HostRead.after_take ops_outs 0 main_arg5 (input arg5_input 0) V).trans rfl
theorem at_main_arg6 : after ops V (Proc.devRef .tc main_arg6) = V (Proc.devRef .tc main_arg6) :=
  (HostRead.after_take ops_outs 0 main_arg6 (input arg6_input 0) V).trans rfl
theorem at_main_arg7 : after ops V (Proc.devRef .tc main_arg7) = V (Proc.devRef .tc main_arg7) :=
  (HostRead.after_take ops_outs 0 main_arg7 (input arg7_input 0) V).trans rfl
theorem at_main_arg8 : after ops V (Proc.devRef .tc main_arg8) = V (Proc.devRef .tc main_arg8) :=
  (HostRead.after_take ops_outs 0 main_arg8 (input arg8_input 0) V).trans rfl
theorem at_main_arg9 : after ops V (Proc.devRef .tc main_arg9) = V (Proc.devRef .tc main_arg9) :=
  (HostRead.after_take ops_outs 0 main_arg9 (input arg9_input 0) V).trans rfl
theorem at_main_arg10 : after ops V (Proc.devRef .tc main_arg10) = V (Proc.devRef .tc main_arg10) :=
  (HostRead.after_take ops_outs 0 main_arg10 (input arg10_input 0) V).trans rfl
theorem at_main_arg11 : after ops V (Proc.devRef .tc main_arg11) = V (Proc.devRef .tc main_arg11) :=
  (HostRead.after_take ops_outs 0 main_arg11 (input arg11_input 0) V).trans rfl
theorem at_main_arg12 : after ops V (Proc.devRef .tc main_arg12) = V (Proc.devRef .tc main_arg12) :=
  (HostRead.after_take ops_outs 0 main_arg12 (input arg12_input 0) V).trans rfl
theorem at_main_arg13 : after ops V (Proc.devRef .tc main_arg13) = V (Proc.devRef .tc main_arg13) :=
  (HostRead.after_take ops_outs 0 main_arg13 (input arg13_input 0) V).trans rfl
theorem at_main_arg14 : after ops V (Proc.devRef .tc main_arg14) = V (Proc.devRef .tc main_arg14) :=
  (HostRead.after_take ops_outs 0 main_arg14 (input arg14_input 0) V).trans rfl
theorem at_main_arg15 : after ops V (Proc.devRef .tc main_arg15) = V (Proc.devRef .tc main_arg15) :=
  (HostRead.after_take ops_outs 0 main_arg15 (input arg15_input 0) V).trans rfl
theorem at_main_arg16 : after ops V (Proc.devRef .tc main_arg16) = V (Proc.devRef .tc main_arg16) :=
  (HostRead.after_take ops_outs 0 main_arg16 (input arg16_input 0) V).trans rfl
theorem at_main_arg17 : after ops V (Proc.devRef .tc main_arg17) = V (Proc.devRef .tc main_arg17) :=
  (HostRead.after_take ops_outs 0 main_arg17 (input arg17_input 0) V).trans rfl
theorem at_main_arg18 : after ops V (Proc.devRef .tc main_arg18) = V (Proc.devRef .tc main_arg18) :=
  (HostRead.after_take ops_outs 0 main_arg18 (input arg18_input 0) V).trans rfl
theorem at_main_arg19 : after ops V (Proc.devRef .tc main_arg19) = V (Proc.devRef .tc main_arg19) :=
  (HostRead.after_take ops_outs 0 main_arg19 (input arg19_input 0) V).trans rfl
theorem at_main_arg20 : after ops V (Proc.devRef .tc main_arg20) = V (Proc.devRef .tc main_arg20) :=
  (HostRead.after_take ops_outs 0 main_arg20 (input arg20_input 0) V).trans rfl

/-! ## One equation per operation, in program order (269) -/

theorem at_main_v0 : after ops V (Proc.devRef .tc main_v0) = extractStridedSlice S1x262144 ![0, 0] (after ops V (Proc.devRef .tc main_arg12)) slices_S2x262144_S1x262144_0_0 :=
  HostRead.unary_at ops_outs V 0 main_arg12 main_v0 _ _ _ rfl (later (k := 0) rfl) (input arg12_input 0)

theorem at_main_v1 : after ops V (Proc.devRef .tc main_v1) = shapeCast S262144 (after ops V (Proc.devRef .tc main_v0)) shapeCasts_S1x262144_S262144 :=
  (HostRead.reshape_at ops_outs V 1 main_v0 main_v1 _ _ _ _ rfl (later (k := 1) rfl) (earlier (j := 0) rfl (by decide))).trans rfl

theorem at_main_v2 : after ops V (Proc.devRef .tc main_v2) = extractStridedSlice S1x262144 ![1, 0] (after ops V (Proc.devRef .tc main_arg12)) slices_S2x262144_S1x262144_1_0 :=
  HostRead.unary_at ops_outs V 2 main_arg12 main_v2 _ _ _ rfl (later (k := 2) rfl) (input arg12_input 2)

theorem at_main_v3 : after ops V (Proc.devRef .tc main_v3) = shapeCast S262144 (after ops V (Proc.devRef .tc main_v2)) shapeCasts_S1x262144_S262144 :=
  (HostRead.reshape_at ops_outs V 3 main_v2 main_v3 _ _ _ _ rfl (later (k := 3) rfl) (earlier (j := 2) rfl (by decide))).trans rfl

theorem at_main_call0_v0 : after ops V (Proc.devRef .tc main_call0_v0) = extractStridedSlice S1 ![255] (after ops V (Proc.devRef .tc main_arg19)) slices_S256_S1_255 := by
  have h := (HostRead.unary_at ops_outs V 4 main_arg19 main_call0_v0 _ _ _ rfl (later (k := 4) rfl) (input arg19_input 4)).trans (cast_elim _ _)
  rw [show ((TRef.of main_arg19 : TRef sig ⟨S256, .i32⟩)).ofBuf (after ops V (Proc.devRef .tc main_arg19)) = (after ops V (Proc.devRef .tc main_arg19)) from cast_elim _ _] at h
  exact h

theorem at_main_call0_v1 : after ops V (Proc.devRef .tc main_call0_v1) = extractStridedSlice S255 ![0] (after ops V (Proc.devRef .tc main_arg19)) slices_S256_S255_0 := by
  have h := (HostRead.unary_at ops_outs V 5 main_arg19 main_call0_v1 _ _ _ rfl (later (k := 5) rfl) (input arg19_input 5)).trans (cast_elim _ _)
  rw [show ((TRef.of main_arg19 : TRef sig ⟨S256, .i32⟩)).ofBuf (after ops V (Proc.devRef .tc main_arg19)) = (after ops V (Proc.devRef .tc main_arg19)) from cast_elim _ _] at h
  exact h

theorem at_main_v4 : after ops V (Proc.devRef .tc main_v4) = concatenate S256 0 [⟨S1, (after ops V (Proc.devRef .tc main_call0_v0))⟩, ⟨S255, (after ops V (Proc.devRef .tc main_call0_v1))⟩] concatenates_S1_S255_S256_d0 := by
  have h := (HostRead.binary_at ops_outs V 6 main_call0_v0 main_call0_v1 main_v4 _ _ _ _ rfl (later (k := 6) rfl) (earlier (j := 4) rfl (by decide)) (earlier (j := 5) rfl (by decide))).trans (cast_elim _ _)
  rw [show (main_call0.v0).ofBuf (after ops V (Proc.devRef .tc main_call0_v0)) = (after ops V (Proc.devRef .tc main_call0_v0)) from cast_elim _ _,
    show (main_call0.v1).ofBuf (after ops V (Proc.devRef .tc main_call0_v1)) = (after ops V (Proc.devRef .tc main_call0_v1)) from cast_elim _ _] at h
  exact h

theorem at_main_c : after ops V (Proc.devRef .tc main_c) = constantI S_ 32 0#32 :=
  HostRead.nullary_at ops_outs V 7 main_c _ _ rfl (later (k := 7) rfl)

theorem at_main_v5 : after ops V (Proc.devRef .tc main_v5) = broadcastInDim S1 ![] bcast_S_S1 (after ops V (Proc.devRef .tc main_c)) :=
  HostRead.unary_at ops_outs V 8 main_c main_v5 _ _ _ rfl (later (k := 8) rfl) (earlier (j := 7) rfl (by decide))

theorem at_main_c_0 : after ops V (Proc.devRef .tc main_c_0) = constantI S_ 32 0#32 :=
  HostRead.nullary_at ops_outs V 9 main_c_0 _ _ rfl (later (k := 9) rfl)

theorem at_main_v6 : after ops V (Proc.devRef .tc main_v6) = Host.scatter scatter_S256_S1_S__n_0_0_0 (fun _ b => b) (after ops V (Proc.devRef .tc main_v4)) (after ops V (Proc.devRef .tc main_v5)) (after ops V (Proc.devRef .tc main_c_0)) :=
  HostRead.ternary_at ops_outs V 10 main_v4 main_v5 main_c_0 main_v6 _ _ _ _ _ rfl (later (k := 10) rfl) (earlier (j := 6) rfl (by decide)) (earlier (j := 8) rfl (by decide)) (earlier (j := 9) rfl (by decide))

theorem at_main_call1_call0_c : after ops V (Proc.devRef .tc main_call1_call0_c) = constantI S_ 32 0#32 :=
  (HostRead.nullary_at ops_outs V 11 main_call1_call0_c _ _ rfl (later (k := 11) rfl)).trans (cast_elim _ _)

theorem at_main_call1_call0_v0 : after ops V (Proc.devRef .tc main_call1_call0_v0) = broadcastInDim S_ ![] bcast_S_S_ (after ops V (Proc.devRef .tc main_call1_call0_c)) := by
  have h := (HostRead.unary_at ops_outs V 12 main_call1_call0_c main_call1_call0_v0 _ _ _ rfl (later (k := 12) rfl) (earlier (j := 11) rfl (by decide))).trans (cast_elim _ _)
  rw [show (main_call1.call0.c).ofBuf (after ops V (Proc.devRef .tc main_call1_call0_c)) = (after ops V (Proc.devRef .tc main_call1_call0_c)) from cast_elim _ _] at h
  exact h

theorem at_main_v7 : after ops V (Proc.devRef .tc main_v7) = Host.reduceWindow IntOp.addi ![256] ![1] ![255] ![0] (after ops V (Proc.devRef .tc main_v6)) (after ops V (Proc.devRef .tc main_call1_call0_v0)) reduceWindows_S256_S256_w256s1p255_0 h_S_ := by
  have h := (HostRead.binary_at ops_outs V 13 main_v6 main_call1_call0_v0 main_v7 _ _ _ _ rfl (later (k := 13) rfl) (earlier (j := 10) rfl (by decide)) (earlier (j := 12) rfl (by decide))).trans (cast_elim _ _)
  rw [show ((TRef.of main_v6 : TRef sig ⟨S256, .i32⟩)).ofBuf (after ops V (Proc.devRef .tc main_v6)) = (after ops V (Proc.devRef .tc main_v6)) from cast_elim _ _,
    show (main_call1.call0.v0).ofBuf (after ops V (Proc.devRef .tc main_call1_call0_v0)) = (after ops V (Proc.devRef .tc main_call1_call0_v0)) from cast_elim _ _] at h
  exact h

theorem at_main_c_1 : after ops V (Proc.devRef .tc main_c_1) = constantI S_ 32 0#32 :=
  HostRead.nullary_at ops_outs V 14 main_c_1 _ _ rfl (later (k := 14) rfl)

theorem at_main_v8 : after ops V (Proc.devRef .tc main_v8) = broadcastInDim S262144 ![] bcast_S_S262144 (after ops V (Proc.devRef .tc main_c_1)) :=
  HostRead.unary_at ops_outs V 15 main_c_1 main_v8 _ _ _ rfl (later (k := 15) rfl) (earlier (j := 14) rfl (by decide))

theorem at_main_c_2 : after ops V (Proc.devRef .tc main_c_2) = constantI S_ 32 0#32 :=
  HostRead.nullary_at ops_outs V 16 main_c_2 _ _ rfl (later (k := 16) rfl)

theorem at_main_v9 : after ops V (Proc.devRef .tc main_v9) = broadcastInDim S256 ![] bcast_S_S256 (after ops V (Proc.devRef .tc main_c_2)) :=
  HostRead.unary_at ops_outs V 17 main_c_2 main_v9 _ _ _ rfl (later (k := 17) rfl) (earlier (j := 16) rfl (by decide))

theorem at_main_v10 : after ops V (Proc.devRef .tc main_v10) = cmpi .slt (after ops V (Proc.devRef .tc main_v7)) (after ops V (Proc.devRef .tc main_v9)) :=
  HostRead.binary_at ops_outs V 18 main_v7 main_v9 main_v10 _ _ _ _ rfl (later (k := 18) rfl) (earlier (j := 13) rfl (by decide)) (earlier (j := 17) rfl (by decide))

theorem at_main_c_3 : after ops V (Proc.devRef .tc main_c_3) = constantI S_ 32 262144#32 :=
  HostRead.nullary_at ops_outs V 19 main_c_3 _ _ rfl (later (k := 19) rfl)

theorem at_main_v11 : after ops V (Proc.devRef .tc main_v11) = broadcastInDim S256 ![] bcast_S_S256 (after ops V (Proc.devRef .tc main_c_3)) :=
  HostRead.unary_at ops_outs V 20 main_c_3 main_v11 _ _ _ rfl (later (k := 20) rfl) (earlier (j := 19) rfl (by decide))

theorem at_main_v12 : after ops V (Proc.devRef .tc main_v12) = addi (after ops V (Proc.devRef .tc main_v7)) (after ops V (Proc.devRef .tc main_v11)) :=
  HostRead.binary_at ops_outs V 21 main_v7 main_v11 main_v12 _ _ _ _ rfl (later (k := 21) rfl) (earlier (j := 13) rfl (by decide)) (earlier (j := 20) rfl (by decide))

theorem at_main_v13 : after ops V (Proc.devRef .tc main_v13) = select (after ops V (Proc.devRef .tc main_v10)) (after ops V (Proc.devRef .tc main_v12)) (after ops V (Proc.devRef .tc main_v7)) :=
  HostRead.ternary_at ops_outs V 22 main_v10 main_v12 main_v7 main_v13 _ _ _ _ _ rfl (later (k := 22) rfl) (earlier (j := 18) rfl (by decide)) (earlier (j := 21) rfl (by decide)) (earlier (j := 13) rfl (by decide))

theorem at_main_v14 : after ops V (Proc.devRef .tc main_v14) = broadcastInDim S256x1 ![0] bcast_S256_S256x1_0 (after ops V (Proc.devRef .tc main_v13)) :=
  HostRead.unary_at ops_outs V 23 main_v13 main_v14 _ _ _ rfl (later (k := 23) rfl) (earlier (j := 22) rfl (by decide))

theorem at_main_c_4 : after ops V (Proc.devRef .tc main_c_4) = constantI S_ 32 1#32 :=
  HostRead.nullary_at ops_outs V 24 main_c_4 _ _ rfl (later (k := 24) rfl)

theorem at_main_v15 : after ops V (Proc.devRef .tc main_v15) = broadcastInDim S256 ![] bcast_S_S256 (after ops V (Proc.devRef .tc main_c_4)) :=
  HostRead.unary_at ops_outs V 25 main_c_4 main_v15 _ _ _ rfl (later (k := 25) rfl) (earlier (j := 24) rfl (by decide))

theorem at_main_v16 : after ops V (Proc.devRef .tc main_v16) = Host.scatter scatter_S262144_S256x1_S256_n_0_0_1 IntOp.addi (after ops V (Proc.devRef .tc main_v8)) (after ops V (Proc.devRef .tc main_v14)) (after ops V (Proc.devRef .tc main_v15)) :=
  HostRead.ternary_at ops_outs V 26 main_v8 main_v14 main_v15 main_v16 _ _ _ _ _ rfl (later (k := 26) rfl) (earlier (j := 15) rfl (by decide)) (earlier (j := 23) rfl (by decide)) (earlier (j := 25) rfl (by decide))

theorem at_main_call2_call0_c : after ops V (Proc.devRef .tc main_call2_call0_c) = constantI S_ 32 0#32 :=
  (HostRead.nullary_at ops_outs V 27 main_call2_call0_c _ _ rfl (later (k := 27) rfl)).trans (cast_elim _ _)

theorem at_main_call2_call0_v0 : after ops V (Proc.devRef .tc main_call2_call0_v0) = broadcastInDim S_ ![] bcast_S_S_ (after ops V (Proc.devRef .tc main_call2_call0_c)) := by
  have h := (HostRead.unary_at ops_outs V 28 main_call2_call0_c main_call2_call0_v0 _ _ _ rfl (later (k := 28) rfl) (earlier (j := 27) rfl (by decide))).trans (cast_elim _ _)
  rw [show (main_call2.call0.c).ofBuf (after ops V (Proc.devRef .tc main_call2_call0_c)) = (after ops V (Proc.devRef .tc main_call2_call0_c)) from cast_elim _ _] at h
  exact h

theorem at_main_v17 : after ops V (Proc.devRef .tc main_v17) = Host.reduceWindow IntOp.addi ![262144] ![1] ![262143] ![0] (after ops V (Proc.devRef .tc main_v16)) (after ops V (Proc.devRef .tc main_call2_call0_v0)) reduceWindows_S262144_S262144_w262144s1p262143_0 h_S_ := by
  have h := (HostRead.binary_at ops_outs V 29 main_v16 main_call2_call0_v0 main_v17 _ _ _ _ rfl (later (k := 29) rfl) (earlier (j := 26) rfl (by decide)) (earlier (j := 28) rfl (by decide))).trans (cast_elim _ _)
  rw [show ((TRef.of main_v16 : TRef sig ⟨S262144, .i32⟩)).ofBuf (after ops V (Proc.devRef .tc main_v16)) = (after ops V (Proc.devRef .tc main_v16)) from cast_elim _ _,
    show (main_call2.call0.v0).ofBuf (after ops V (Proc.devRef .tc main_call2_call0_v0)) = (after ops V (Proc.devRef .tc main_call2_call0_v0)) from cast_elim _ _] at h
  exact h

theorem at_main_c_5 : after ops V (Proc.devRef .tc main_c_5) = constantI S_ 32 1#32 :=
  HostRead.nullary_at ops_outs V 30 main_c_5 _ _ rfl (later (k := 30) rfl)

theorem at_main_v18 : after ops V (Proc.devRef .tc main_v18) = broadcastInDim S262144 ![] bcast_S_S262144 (after ops V (Proc.devRef .tc main_c_5)) :=
  HostRead.unary_at ops_outs V 31 main_c_5 main_v18 _ _ _ rfl (later (k := 31) rfl) (earlier (j := 30) rfl (by decide))

theorem at_main_v19 : after ops V (Proc.devRef .tc main_v19) = subi (after ops V (Proc.devRef .tc main_v17)) (after ops V (Proc.devRef .tc main_v18)) :=
  HostRead.binary_at ops_outs V 32 main_v17 main_v18 main_v19 _ _ _ _ rfl (later (k := 32) rfl) (earlier (j := 29) rfl (by decide)) (earlier (j := 31) rfl (by decide))

theorem at_main_call3_c : after ops V (Proc.devRef .tc main_call3_c) = constantI S_ 32 0#32 :=
  (HostRead.nullary_at ops_outs V 33 main_call3_c _ _ rfl (later (k := 33) rfl)).trans (cast_elim _ _)

theorem at_main_call3_v0 : after ops V (Proc.devRef .tc main_call3_v0) = broadcastInDim S262144 ![] bcast_S_S262144 (after ops V (Proc.devRef .tc main_call3_c)) := by
  have h := (HostRead.unary_at ops_outs V 34 main_call3_c main_call3_v0 _ _ _ rfl (later (k := 34) rfl) (earlier (j := 33) rfl (by decide))).trans (cast_elim _ _)
  rw [show (main_call3.c).ofBuf (after ops V (Proc.devRef .tc main_call3_c)) = (after ops V (Proc.devRef .tc main_call3_c)) from cast_elim _ _] at h
  exact h

theorem at_main_call3_v1 : after ops V (Proc.devRef .tc main_call3_v1) = cmpi .slt (after ops V (Proc.devRef .tc main_v19)) (after ops V (Proc.devRef .tc main_call3_v0)) := by
  have h := (HostRead.binary_at ops_outs V 35 main_v19 main_call3_v0 main_call3_v1 _ _ _ _ rfl (later (k := 35) rfl) (earlier (j := 32) rfl (by decide)) (earlier (j := 34) rfl (by decide))).trans (cast_elim _ _)
  rw [show ((TRef.of main_v19 : TRef sig ⟨S262144, .i32⟩)).ofBuf (after ops V (Proc.devRef .tc main_v19)) = (after ops V (Proc.devRef .tc main_v19)) from cast_elim _ _,
    show (main_call3.v0).ofBuf (after ops V (Proc.devRef .tc main_call3_v0)) = (after ops V (Proc.devRef .tc main_call3_v0)) from cast_elim _ _] at h
  exact h

theorem at_main_call3_c_0 : after ops V (Proc.devRef .tc main_call3_c_0) = constantI S_ 32 256#32 :=
  (HostRead.nullary_at ops_outs V 36 main_call3_c_0 _ _ rfl (later (k := 36) rfl)).trans (cast_elim _ _)

theorem at_main_call3_v2 : after ops V (Proc.devRef .tc main_call3_v2) = broadcastInDim S262144 ![] bcast_S_S262144 (after ops V (Proc.devRef .tc main_call3_c_0)) := by
  have h := (HostRead.unary_at ops_outs V 37 main_call3_c_0 main_call3_v2 _ _ _ rfl (later (k := 37) rfl) (earlier (j := 36) rfl (by decide))).trans (cast_elim _ _)
  rw [show (main_call3.c_0).ofBuf (after ops V (Proc.devRef .tc main_call3_c_0)) = (after ops V (Proc.devRef .tc main_call3_c_0)) from cast_elim _ _] at h
  exact h

theorem at_main_call3_v3 : after ops V (Proc.devRef .tc main_call3_v3) = addi (after ops V (Proc.devRef .tc main_v19)) (after ops V (Proc.devRef .tc main_call3_v2)) := by
  have h := (HostRead.binary_at ops_outs V 38 main_v19 main_call3_v2 main_call3_v3 _ _ _ _ rfl (later (k := 38) rfl) (earlier (j := 32) rfl (by decide)) (earlier (j := 37) rfl (by decide))).trans (cast_elim _ _)
  rw [show ((TRef.of main_v19 : TRef sig ⟨S262144, .i32⟩)).ofBuf (after ops V (Proc.devRef .tc main_v19)) = (after ops V (Proc.devRef .tc main_v19)) from cast_elim _ _,
    show (main_call3.v2).ofBuf (after ops V (Proc.devRef .tc main_call3_v2)) = (after ops V (Proc.devRef .tc main_call3_v2)) from cast_elim _ _] at h
  exact h

theorem at_main_call3_v4 : after ops V (Proc.devRef .tc main_call3_v4) = select (after ops V (Proc.devRef .tc main_call3_v1)) (after ops V (Proc.devRef .tc main_call3_v3)) (after ops V (Proc.devRef .tc main_v19)) := by
  have h := (HostRead.ternary_at ops_outs V 39 main_call3_v1 main_call3_v3 main_v19 main_call3_v4 _ _ _ _ _ rfl (later (k := 39) rfl) (earlier (j := 35) rfl (by decide)) (earlier (j := 38) rfl (by decide)) (earlier (j := 32) rfl (by decide))).trans (cast_elim _ _)
  rw [show (main_call3.v1).ofBuf (after ops V (Proc.devRef .tc main_call3_v1)) = (after ops V (Proc.devRef .tc main_call3_v1)) from cast_elim _ _,
    show (main_call3.v3).ofBuf (after ops V (Proc.devRef .tc main_call3_v3)) = (after ops V (Proc.devRef .tc main_call3_v3)) from cast_elim _ _,
    show ((TRef.of main_v19 : TRef sig ⟨S262144, .i32⟩)).ofBuf (after ops V (Proc.devRef .tc main_v19)) = (after ops V (Proc.devRef .tc main_v19)) from cast_elim _ _] at h
  exact h

theorem at_main_call3_v5 : after ops V (Proc.devRef .tc main_call3_v5) = broadcastInDim S262144x1 ![0] bcast_S262144_S262144x1_0 (after ops V (Proc.devRef .tc main_call3_v4)) := by
  have h := (HostRead.unary_at ops_outs V 40 main_call3_v4 main_call3_v5 _ _ _ rfl (later (k := 40) rfl) (earlier (j := 39) rfl (by decide))).trans (cast_elim _ _)
  rw [show (main_call3.call0.v0).ofBuf (after ops V (Proc.devRef .tc main_call3_v4)) = (after ops V (Proc.devRef .tc main_call3_v4)) from cast_elim _ _] at h
  exact h

theorem at_main_call3_c_1 : after ops V (Proc.devRef .tc main_call3_c_1) = constantI S1 32 255#32 :=
  (HostRead.nullary_at ops_outs V 41 main_call3_c_1 _ _ rfl (later (k := 41) rfl)).trans (cast_elim _ _)

theorem at_main_call3_c_2 : after ops V (Proc.devRef .tc main_call3_c_2) = constantI S_ 32 0#32 :=
  (HostRead.nullary_at ops_outs V 42 main_call3_c_2 _ _ rfl (later (k := 42) rfl)).trans (cast_elim _ _)

theorem at_main_call3_v6 : after ops V (Proc.devRef .tc main_call3_v6) = broadcastInDim S262144x1 ![] bcast_S_S262144x1 (after ops V (Proc.devRef .tc main_call3_c_2)) := by
  have h := (HostRead.unary_at ops_outs V 43 main_call3_c_2 main_call3_v6 _ _ _ rfl (later (k := 43) rfl) (earlier (j := 42) rfl (by decide))).trans (cast_elim _ _)
  rw [show (main_call3.c_2).ofBuf (after ops V (Proc.devRef .tc main_call3_c_2)) = (after ops V (Proc.devRef .tc main_call3_c_2)) from cast_elim _ _] at h
  exact h

theorem at_main_call3_v7 : after ops V (Proc.devRef .tc main_call3_v7) = cmpi .sge (after ops V (Proc.devRef .tc main_call3_v5)) (after ops V (Proc.devRef .tc main_call3_v6)) := by
  have h := (HostRead.binary_at ops_outs V 44 main_call3_v5 main_call3_v6 main_call3_v7 _ _ _ _ rfl (later (k := 44) rfl) (earlier (j := 40) rfl (by decide)) (earlier (j := 43) rfl (by decide))).trans (cast_elim _ _)
  rw [show (main_call3.v5).ofBuf (after ops V (Proc.devRef .tc main_call3_v5)) = (after ops V (Proc.devRef .tc main_call3_v5)) from cast_elim _ _,
    show (main_call3.v6).ofBuf (after ops V (Proc.devRef .tc main_call3_v6)) = (after ops V (Proc.devRef .tc main_call3_v6)) from cast_elim _ _] at h
  exact h

theorem at_main_call3_v8 : after ops V (Proc.devRef .tc main_call3_v8) = broadcastInDim S1x1 ![1] bcast_S1_S1x1_1 (after ops V (Proc.devRef .tc main_call3_c_1)) := by
  have h := (HostRead.unary_at ops_outs V 45 main_call3_c_1 main_call3_v8 _ _ _ rfl (later (k := 45) rfl) (earlier (j := 41) rfl (by decide))).trans (cast_elim _ _)
  rw [show (main_call3.c_1).ofBuf (after ops V (Proc.devRef .tc main_call3_c_1)) = (after ops V (Proc.devRef .tc main_call3_c_1)) from cast_elim _ _] at h
  exact h

theorem at_main_call3_v9 : after ops V (Proc.devRef .tc main_call3_v9) = broadcastInDim S262144x1 ![0, 1] bcast_S1x1_S262144x1_0_1 (after ops V (Proc.devRef .tc main_call3_v8)) := by
  have h := (HostRead.unary_at ops_outs V 46 main_call3_v8 main_call3_v9 _ _ _ rfl (later (k := 46) rfl) (earlier (j := 45) rfl (by decide))).trans (cast_elim _ _)
  rw [show (main_call3.v8).ofBuf (after ops V (Proc.devRef .tc main_call3_v8)) = (after ops V (Proc.devRef .tc main_call3_v8)) from cast_elim _ _] at h
  exact h

theorem at_main_call3_v10 : after ops V (Proc.devRef .tc main_call3_v10) = cmpi .sle (after ops V (Proc.devRef .tc main_call3_v5)) (after ops V (Proc.devRef .tc main_call3_v9)) := by
  have h := (HostRead.binary_at ops_outs V 47 main_call3_v5 main_call3_v9 main_call3_v10 _ _ _ _ rfl (later (k := 47) rfl) (earlier (j := 40) rfl (by decide)) (earlier (j := 46) rfl (by decide))).trans (cast_elim _ _)
  rw [show (main_call3.v5).ofBuf (after ops V (Proc.devRef .tc main_call3_v5)) = (after ops V (Proc.devRef .tc main_call3_v5)) from cast_elim _ _,
    show (main_call3.v9).ofBuf (after ops V (Proc.devRef .tc main_call3_v9)) = (after ops V (Proc.devRef .tc main_call3_v9)) from cast_elim _ _] at h
  exact h

theorem at_main_call3_v11 : after ops V (Proc.devRef .tc main_call3_v11) = andi (after ops V (Proc.devRef .tc main_call3_v7)) (after ops V (Proc.devRef .tc main_call3_v10)) := by
  have h := (HostRead.binary_at ops_outs V 48 main_call3_v7 main_call3_v10 main_call3_v11 _ _ _ _ rfl (later (k := 48) rfl) (earlier (j := 44) rfl (by decide)) (earlier (j := 47) rfl (by decide))).trans (cast_elim _ _)
  rw [show (main_call3.v7).ofBuf (after ops V (Proc.devRef .tc main_call3_v7)) = (after ops V (Proc.devRef .tc main_call3_v7)) from cast_elim _ _,
    show (main_call3.v10).ofBuf (after ops V (Proc.devRef .tc main_call3_v10)) = (after ops V (Proc.devRef .tc main_call3_v10)) from cast_elim _ _] at h
  exact h

theorem at_main_call3_c_3 : after ops V (Proc.devRef .tc main_call3_c_3) = constantI S_ 1 1#1 :=
  (HostRead.nullary_at ops_outs V 49 main_call3_c_3 _ _ rfl (later (k := 49) rfl)).trans (cast_elim _ _)

theorem at_main_call3_v12 : after ops V (Proc.devRef .tc main_call3_v12) = Host.reduce IntOp.andi (after ops V (Proc.devRef .tc main_call3_v11)) (after ops V (Proc.devRef .tc main_call3_c_3)) reducesTo_S262144x1_S262144_d1 h_S_ := by
  have h := (HostRead.binary_at ops_outs V 50 main_call3_v11 main_call3_c_3 main_call3_v12 _ _ _ _ rfl (later (k := 50) rfl) (earlier (j := 48) rfl (by decide)) (earlier (j := 49) rfl (by decide))).trans (cast_elim _ _)
  rw [show (main_call3.v11).ofBuf (after ops V (Proc.devRef .tc main_call3_v11)) = (after ops V (Proc.devRef .tc main_call3_v11)) from cast_elim _ _,
    show (main_call3.c_3).ofBuf (after ops V (Proc.devRef .tc main_call3_c_3)) = (after ops V (Proc.devRef .tc main_call3_c_3)) from cast_elim _ _] at h
  exact h

theorem at_main_call3_v13 : after ops V (Proc.devRef .tc main_call3_v13) = Host.gather gather_S256x128_S262144x1_S262144x128_1_0_n_n_0_1_1128 (after ops V (Proc.devRef .tc main_arg2)) (after ops V (Proc.devRef .tc main_call3_v5)) := by
  have h := (HostRead.binary_at ops_outs V 51 main_arg2 main_call3_v5 main_call3_v13 _ _ _ _ rfl (later (k := 51) rfl) (input arg2_input 51) (earlier (j := 40) rfl (by decide))).trans (cast_elim _ _)
  rw [show ((TRef.of main_arg2 : TRef sig ⟨S256x128, .f32⟩)).ofBuf (after ops V (Proc.devRef .tc main_arg2)) = (after ops V (Proc.devRef .tc main_arg2)) from cast_elim _ _,
    show (main_call3.v5).ofBuf (after ops V (Proc.devRef .tc main_call3_v5)) = (after ops V (Proc.devRef .tc main_call3_v5)) from cast_elim _ _] at h
  exact h

theorem at_main_call3_v14 : after ops V (Proc.devRef .tc main_call3_v14) = broadcastInDim S262144x128 ![0] bcast_S262144_S262144x128_0 (after ops V (Proc.devRef .tc main_call3_v12)) := by
  have h := (HostRead.unary_at ops_outs V 52 main_call3_v12 main_call3_v14 _ _ _ rfl (later (k := 52) rfl) (earlier (j := 50) rfl (by decide))).trans (cast_elim _ _)
  rw [show (main_call3.v12).ofBuf (after ops V (Proc.devRef .tc main_call3_v12)) = (after ops V (Proc.devRef .tc main_call3_v12)) from cast_elim _ _] at h
  exact h

theorem at_main_call3_cst : after ops V (Proc.devRef .tc main_call3_cst) = constant S_ .f32 0x7FC00000#32 :=
  (HostRead.nullary_at ops_outs V 53 main_call3_cst _ _ rfl (later (k := 53) rfl)).trans (cast_elim _ _)

theorem at_main_call3_v15 : after ops V (Proc.devRef .tc main_call3_v15) = broadcastInDim S262144x128 ![] bcast_S_S262144x128 (after ops V (Proc.devRef .tc main_call3_cst)) := by
  have h := (HostRead.unary_at ops_outs V 54 main_call3_cst main_call3_v15 _ _ _ rfl (later (k := 54) rfl) (earlier (j := 53) rfl (by decide))).trans (cast_elim _ _)
  rw [show (main_call3.cst).ofBuf (after ops V (Proc.devRef .tc main_call3_cst)) = (after ops V (Proc.devRef .tc main_call3_cst)) from cast_elim _ _] at h
  exact h

theorem at_main_v20 : after ops V (Proc.devRef .tc main_v20) = select (after ops V (Proc.devRef .tc main_call3_v14)) (after ops V (Proc.devRef .tc main_call3_v13)) (after ops V (Proc.devRef .tc main_call3_v15)) := by
  have h := (HostRead.ternary_at ops_outs V 55 main_call3_v14 main_call3_v13 main_call3_v15 main_v20 _ _ _ _ _ rfl (later (k := 55) rfl) (earlier (j := 52) rfl (by decide)) (earlier (j := 51) rfl (by decide)) (earlier (j := 54) rfl (by decide))).trans (cast_elim _ _)
  rw [show (main_call3.v14).ofBuf (after ops V (Proc.devRef .tc main_call3_v14)) = (after ops V (Proc.devRef .tc main_call3_v14)) from cast_elim _ _,
    show (main_call3.v13).ofBuf (after ops V (Proc.devRef .tc main_call3_v13)) = (after ops V (Proc.devRef .tc main_call3_v13)) from cast_elim _ _,
    show (main_call3.v15).ofBuf (after ops V (Proc.devRef .tc main_call3_v15)) = (after ops V (Proc.devRef .tc main_call3_v15)) from cast_elim _ _] at h
  exact h

theorem at_main_c_6 : after ops V (Proc.devRef .tc main_c_6) = constantI S_ 32 0#32 :=
  HostRead.nullary_at ops_outs V 56 main_c_6 _ _ rfl (later (k := 56) rfl)

theorem at_main_v21 : after ops V (Proc.devRef .tc main_v21) = broadcastInDim S262144 ![] bcast_S_S262144 (after ops V (Proc.devRef .tc main_c_6)) :=
  HostRead.unary_at ops_outs V 57 main_c_6 main_v21 _ _ _ rfl (later (k := 57) rfl) (earlier (j := 56) rfl (by decide))

theorem at_main_v22 : after ops V (Proc.devRef .tc main_v22) = cmpi .slt (after ops V (Proc.devRef .tc main_v1)) (after ops V (Proc.devRef .tc main_v21)) :=
  HostRead.binary_at ops_outs V 58 main_v1 main_v21 main_v22 _ _ _ _ rfl (later (k := 58) rfl) (earlier (j := 1) rfl (by decide)) (earlier (j := 57) rfl (by decide))

theorem at_main_c_7 : after ops V (Proc.devRef .tc main_c_7) = constantI S_ 32 131072#32 :=
  HostRead.nullary_at ops_outs V 59 main_c_7 _ _ rfl (later (k := 59) rfl)

theorem at_main_v23 : after ops V (Proc.devRef .tc main_v23) = broadcastInDim S262144 ![] bcast_S_S262144 (after ops V (Proc.devRef .tc main_c_7)) :=
  HostRead.unary_at ops_outs V 60 main_c_7 main_v23 _ _ _ rfl (later (k := 60) rfl) (earlier (j := 59) rfl (by decide))

theorem at_main_v24 : after ops V (Proc.devRef .tc main_v24) = addi (after ops V (Proc.devRef .tc main_v1)) (after ops V (Proc.devRef .tc main_v23)) :=
  HostRead.binary_at ops_outs V 61 main_v1 main_v23 main_v24 _ _ _ _ rfl (later (k := 61) rfl) (earlier (j := 1) rfl (by decide)) (earlier (j := 60) rfl (by decide))

theorem at_main_v25 : after ops V (Proc.devRef .tc main_v25) = select (after ops V (Proc.devRef .tc main_v22)) (after ops V (Proc.devRef .tc main_v24)) (after ops V (Proc.devRef .tc main_v1)) :=
  HostRead.ternary_at ops_outs V 62 main_v22 main_v24 main_v1 main_v25 _ _ _ _ _ rfl (later (k := 62) rfl) (earlier (j := 58) rfl (by decide)) (earlier (j := 61) rfl (by decide)) (earlier (j := 1) rfl (by decide))

theorem at_main_v26 : after ops V (Proc.devRef .tc main_v26) = broadcastInDim S262144x1 ![0] bcast_S262144_S262144x1_0 (after ops V (Proc.devRef .tc main_v25)) :=
  HostRead.unary_at ops_outs V 63 main_v25 main_v26 _ _ _ rfl (later (k := 63) rfl) (earlier (j := 62) rfl (by decide))

theorem at_main_v27 : after ops V (Proc.devRef .tc main_v27) = Host.gather gather_S131072x128_S262144x1_S262144x128_1_0_n_n_0_1_1128 (after ops V (Proc.devRef .tc main_arg0)) (after ops V (Proc.devRef .tc main_v26)) :=
  HostRead.binary_at ops_outs V 64 main_arg0 main_v26 main_v27 _ _ _ _ rfl (later (k := 64) rfl) (input arg0_input 64) (earlier (j := 63) rfl (by decide))

theorem at_main_c_8 : after ops V (Proc.devRef .tc main_c_8) = constantI S_ 32 0#32 :=
  HostRead.nullary_at ops_outs V 65 main_c_8 _ _ rfl (later (k := 65) rfl)

theorem at_main_v28 : after ops V (Proc.devRef .tc main_v28) = broadcastInDim S262144 ![] bcast_S_S262144 (after ops V (Proc.devRef .tc main_c_8)) :=
  HostRead.unary_at ops_outs V 66 main_c_8 main_v28 _ _ _ rfl (later (k := 66) rfl) (earlier (j := 65) rfl (by decide))

theorem at_main_v29 : after ops V (Proc.devRef .tc main_v29) = cmpi .slt (after ops V (Proc.devRef .tc main_v3)) (after ops V (Proc.devRef .tc main_v28)) :=
  HostRead.binary_at ops_outs V 67 main_v3 main_v28 main_v29 _ _ _ _ rfl (later (k := 67) rfl) (earlier (j := 3) rfl (by decide)) (earlier (j := 66) rfl (by decide))

theorem at_main_c_9 : after ops V (Proc.devRef .tc main_c_9) = constantI S_ 32 131072#32 :=
  HostRead.nullary_at ops_outs V 68 main_c_9 _ _ rfl (later (k := 68) rfl)

theorem at_main_v30 : after ops V (Proc.devRef .tc main_v30) = broadcastInDim S262144 ![] bcast_S_S262144 (after ops V (Proc.devRef .tc main_c_9)) :=
  HostRead.unary_at ops_outs V 69 main_c_9 main_v30 _ _ _ rfl (later (k := 69) rfl) (earlier (j := 68) rfl (by decide))

theorem at_main_v31 : after ops V (Proc.devRef .tc main_v31) = addi (after ops V (Proc.devRef .tc main_v3)) (after ops V (Proc.devRef .tc main_v30)) :=
  HostRead.binary_at ops_outs V 70 main_v3 main_v30 main_v31 _ _ _ _ rfl (later (k := 70) rfl) (earlier (j := 3) rfl (by decide)) (earlier (j := 69) rfl (by decide))

theorem at_main_v32 : after ops V (Proc.devRef .tc main_v32) = select (after ops V (Proc.devRef .tc main_v29)) (after ops V (Proc.devRef .tc main_v31)) (after ops V (Proc.devRef .tc main_v3)) :=
  HostRead.ternary_at ops_outs V 71 main_v29 main_v31 main_v3 main_v32 _ _ _ _ _ rfl (later (k := 71) rfl) (earlier (j := 67) rfl (by decide)) (earlier (j := 70) rfl (by decide)) (earlier (j := 3) rfl (by decide))

theorem at_main_v33 : after ops V (Proc.devRef .tc main_v33) = broadcastInDim S262144x1 ![0] bcast_S262144_S262144x1_0 (after ops V (Proc.devRef .tc main_v32)) :=
  HostRead.unary_at ops_outs V 72 main_v32 main_v33 _ _ _ rfl (later (k := 72) rfl) (earlier (j := 71) rfl (by decide))

theorem at_main_v34 : after ops V (Proc.devRef .tc main_v34) = Host.gather gather_S131072x128_S262144x1_S262144x128_1_0_n_n_0_1_1128 (after ops V (Proc.devRef .tc main_arg0)) (after ops V (Proc.devRef .tc main_v33)) :=
  HostRead.binary_at ops_outs V 73 main_arg0 main_v33 main_v34 _ _ _ _ rfl (later (k := 73) rfl) (input arg0_input 73) (earlier (j := 72) rfl (by decide))

theorem at_main_v35 : after ops V (Proc.devRef .tc main_v35) = extractStridedSlice S1x262144 ![0, 0] (after ops V (Proc.devRef .tc main_arg13)) slices_S2x262144_S1x262144_0_0 :=
  HostRead.unary_at ops_outs V 74 main_arg13 main_v35 _ _ _ rfl (later (k := 74) rfl) (input arg13_input 74)

theorem at_main_v36 : after ops V (Proc.devRef .tc main_v36) = shapeCast S262144 (after ops V (Proc.devRef .tc main_v35)) shapeCasts_S1x262144_S262144 :=
  (HostRead.reshape_at ops_outs V 75 main_v35 main_v36 _ _ _ _ rfl (later (k := 75) rfl) (earlier (j := 74) rfl (by decide))).trans rfl

theorem at_main_c_10 : after ops V (Proc.devRef .tc main_c_10) = constantI S_ 32 0#32 :=
  HostRead.nullary_at ops_outs V 76 main_c_10 _ _ rfl (later (k := 76) rfl)

theorem at_main_v37 : after ops V (Proc.devRef .tc main_v37) = broadcastInDim S262144 ![] bcast_S_S262144 (after ops V (Proc.devRef .tc main_c_10)) :=
  HostRead.unary_at ops_outs V 77 main_c_10 main_v37 _ _ _ rfl (later (k := 77) rfl) (earlier (j := 76) rfl (by decide))

theorem at_main_v38 : after ops V (Proc.devRef .tc main_v38) = cmpi .slt (after ops V (Proc.devRef .tc main_v36)) (after ops V (Proc.devRef .tc main_v37)) :=
  HostRead.binary_at ops_outs V 78 main_v36 main_v37 main_v38 _ _ _ _ rfl (later (k := 78) rfl) (earlier (j := 75) rfl (by decide)) (earlier (j := 77) rfl (by decide))

theorem at_main_c_11 : after ops V (Proc.devRef .tc main_c_11) = constantI S_ 32 131072#32 :=
  HostRead.nullary_at ops_outs V 79 main_c_11 _ _ rfl (later (k := 79) rfl)

theorem at_main_v39 : after ops V (Proc.devRef .tc main_v39) = broadcastInDim S262144 ![] bcast_S_S262144 (after ops V (Proc.devRef .tc main_c_11)) :=
  HostRead.unary_at ops_outs V 80 main_c_11 main_v39 _ _ _ rfl (later (k := 80) rfl) (earlier (j := 79) rfl (by decide))

theorem at_main_v40 : after ops V (Proc.devRef .tc main_v40) = addi (after ops V (Proc.devRef .tc main_v36)) (after ops V (Proc.devRef .tc main_v39)) :=
  HostRead.binary_at ops_outs V 81 main_v36 main_v39 main_v40 _ _ _ _ rfl (later (k := 81) rfl) (earlier (j := 75) rfl (by decide)) (earlier (j := 80) rfl (by decide))

theorem at_main_v41 : after ops V (Proc.devRef .tc main_v41) = select (after ops V (Proc.devRef .tc main_v38)) (after ops V (Proc.devRef .tc main_v40)) (after ops V (Proc.devRef .tc main_v36)) :=
  HostRead.ternary_at ops_outs V 82 main_v38 main_v40 main_v36 main_v41 _ _ _ _ _ rfl (later (k := 82) rfl) (earlier (j := 78) rfl (by decide)) (earlier (j := 81) rfl (by decide)) (earlier (j := 75) rfl (by decide))

theorem at_main_v42 : after ops V (Proc.devRef .tc main_v42) = broadcastInDim S262144x1 ![0] bcast_S262144_S262144x1_0 (after ops V (Proc.devRef .tc main_v41)) :=
  HostRead.unary_at ops_outs V 83 main_v41 main_v42 _ _ _ rfl (later (k := 83) rfl) (earlier (j := 82) rfl (by decide))

theorem at_main_v43 : after ops V (Proc.devRef .tc main_v43) = Host.gather gather_S131072x128_S262144x1_S262144x128_1_0_n_n_0_1_1128 (after ops V (Proc.devRef .tc main_arg3)) (after ops V (Proc.devRef .tc main_v42)) :=
  HostRead.binary_at ops_outs V 84 main_arg3 main_v42 main_v43 _ _ _ _ rfl (later (k := 84) rfl) (input arg3_input 84) (earlier (j := 83) rfl (by decide))

theorem at_main_v44 : after ops V (Proc.devRef .tc main_v44) = extractStridedSlice S1x262144 ![1, 0] (after ops V (Proc.devRef .tc main_arg13)) slices_S2x262144_S1x262144_1_0 :=
  HostRead.unary_at ops_outs V 85 main_arg13 main_v44 _ _ _ rfl (later (k := 85) rfl) (input arg13_input 85)

theorem at_main_v45 : after ops V (Proc.devRef .tc main_v45) = shapeCast S262144 (after ops V (Proc.devRef .tc main_v44)) shapeCasts_S1x262144_S262144 :=
  (HostRead.reshape_at ops_outs V 86 main_v44 main_v45 _ _ _ _ rfl (later (k := 86) rfl) (earlier (j := 85) rfl (by decide))).trans rfl

theorem at_main_c_12 : after ops V (Proc.devRef .tc main_c_12) = constantI S_ 32 0#32 :=
  HostRead.nullary_at ops_outs V 87 main_c_12 _ _ rfl (later (k := 87) rfl)

theorem at_main_v46 : after ops V (Proc.devRef .tc main_v46) = broadcastInDim S262144 ![] bcast_S_S262144 (after ops V (Proc.devRef .tc main_c_12)) :=
  HostRead.unary_at ops_outs V 88 main_c_12 main_v46 _ _ _ rfl (later (k := 88) rfl) (earlier (j := 87) rfl (by decide))

theorem at_main_v47 : after ops V (Proc.devRef .tc main_v47) = cmpi .slt (after ops V (Proc.devRef .tc main_v45)) (after ops V (Proc.devRef .tc main_v46)) :=
  HostRead.binary_at ops_outs V 89 main_v45 main_v46 main_v47 _ _ _ _ rfl (later (k := 89) rfl) (earlier (j := 86) rfl (by decide)) (earlier (j := 88) rfl (by decide))

theorem at_main_c_13 : after ops V (Proc.devRef .tc main_c_13) = constantI S_ 32 131072#32 :=
  HostRead.nullary_at ops_outs V 90 main_c_13 _ _ rfl (later (k := 90) rfl)

theorem at_main_v48 : after ops V (Proc.devRef .tc main_v48) = broadcastInDim S262144 ![] bcast_S_S262144 (after ops V (Proc.devRef .tc main_c_13)) :=
  HostRead.unary_at ops_outs V 91 main_c_13 main_v48 _ _ _ rfl (later (k := 91) rfl) (earlier (j := 90) rfl (by decide))

theorem at_main_v49 : after ops V (Proc.devRef .tc main_v49) = addi (after ops V (Proc.devRef .tc main_v45)) (after ops V (Proc.devRef .tc main_v48)) :=
  HostRead.binary_at ops_outs V 92 main_v45 main_v48 main_v49 _ _ _ _ rfl (later (k := 92) rfl) (earlier (j := 86) rfl (by decide)) (earlier (j := 91) rfl (by decide))

theorem at_main_v50 : after ops V (Proc.devRef .tc main_v50) = select (after ops V (Proc.devRef .tc main_v47)) (after ops V (Proc.devRef .tc main_v49)) (after ops V (Proc.devRef .tc main_v45)) :=
  HostRead.ternary_at ops_outs V 93 main_v47 main_v49 main_v45 main_v50 _ _ _ _ _ rfl (later (k := 93) rfl) (earlier (j := 89) rfl (by decide)) (earlier (j := 92) rfl (by decide)) (earlier (j := 86) rfl (by decide))

theorem at_main_v51 : after ops V (Proc.devRef .tc main_v51) = broadcastInDim S262144x1 ![0] bcast_S262144_S262144x1_0 (after ops V (Proc.devRef .tc main_v50)) :=
  HostRead.unary_at ops_outs V 94 main_v50 main_v51 _ _ _ rfl (later (k := 94) rfl) (earlier (j := 93) rfl (by decide))

theorem at_main_v52 : after ops V (Proc.devRef .tc main_v52) = Host.gather gather_S131072x128_S262144x1_S262144x128_1_0_n_n_0_1_1128 (after ops V (Proc.devRef .tc main_arg3)) (after ops V (Proc.devRef .tc main_v51)) :=
  HostRead.binary_at ops_outs V 95 main_arg3 main_v51 main_v52 _ _ _ _ rfl (later (k := 95) rfl) (input arg3_input 95) (earlier (j := 94) rfl (by decide))

theorem at_main_v53 : after ops V (Proc.devRef .tc main_v53) = concatenate S262144x768 1 [⟨S262144x128, (after ops V (Proc.devRef .tc main_arg1))⟩, ⟨S262144x128, (after ops V (Proc.devRef .tc main_v27))⟩, ⟨S262144x128, (after ops V (Proc.devRef .tc main_v34))⟩, ⟨S262144x128, (after ops V (Proc.devRef .tc main_v20))⟩, ⟨S262144x128, (after ops V (Proc.devRef .tc main_v43))⟩, ⟨S262144x128, (after ops V (Proc.devRef .tc main_v52))⟩] concatenates_S262144x128_S262144x128_S262144x128_S262144x128_S262144x128_S262144x128_S262144x768_d1 :=
  HostRead.nary_at ops_outs V 96 ![main_arg1, main_v27, main_v34, main_v20, main_v43, main_v52] main_v53 _ _ _ rfl (later (k := 96) rfl)
    (by intro i; fin_cases i; exacts [input arg1_input 96, earlier (j := 64) rfl (by decide), earlier (j := 73) rfl (by decide), earlier (j := 55) rfl (by decide), earlier (j := 84) rfl (by decide), earlier (j := 95) rfl (by decide)])

theorem at_main_v54 : after ops V (Proc.devRef .tc main_v54) = Host.dotGeneral dot_S262144x768_S768x128_S262144x128_1_0_0_1_n_n none (after ops V (Proc.devRef .tc main_v53)) (after ops V (Proc.devRef .tc main_arg4)) :=
  HostRead.binary_at ops_outs V 97 main_v53 main_arg4 main_v54 _ _ _ _ rfl (later (k := 97) rfl) (earlier (j := 96) rfl (by decide)) (input arg4_input 97)

theorem at_main_v55 : after ops V (Proc.devRef .tc main_v55) = broadcastInDim S1x128 ![1] bcast_S128_S1x128_1 (after ops V (Proc.devRef .tc main_arg5)) :=
  HostRead.unary_at ops_outs V 98 main_arg5 main_v55 _ _ _ rfl (later (k := 98) rfl) (input arg5_input 98)

theorem at_main_v56 : after ops V (Proc.devRef .tc main_v56) = broadcastInDim S262144x128 ![0, 1] bcast_S1x128_S262144x128_0_1 (after ops V (Proc.devRef .tc main_v55)) :=
  HostRead.unary_at ops_outs V 99 main_v55 main_v56 _ _ _ rfl (later (k := 99) rfl) (earlier (j := 98) rfl (by decide))

theorem at_main_v57 : after ops V (Proc.devRef .tc main_v57) = addf (after ops V (Proc.devRef .tc main_v54)) (after ops V (Proc.devRef .tc main_v56)) :=
  HostRead.binary_at ops_outs V 100 main_v54 main_v56 main_v57 _ _ _ _ rfl (later (k := 100) rfl) (earlier (j := 97) rfl (by decide)) (earlier (j := 99) rfl (by decide))

theorem at_main_call4_cst : after ops V (Proc.devRef .tc main_call4_cst) = constant S_ .f32 0x00000000#32 :=
  (HostRead.nullary_at ops_outs V 101 main_call4_cst _ _ rfl (later (k := 101) rfl)).trans (cast_elim _ _)

theorem at_main_call4_v0 : after ops V (Proc.devRef .tc main_call4_v0) = broadcastInDim S262144x128 ![] bcast_S_S262144x128 (after ops V (Proc.devRef .tc main_call4_cst)) := by
  have h := (HostRead.unary_at ops_outs V 102 main_call4_cst main_call4_v0 _ _ _ rfl (later (k := 102) rfl) (earlier (j := 101) rfl (by decide))).trans (cast_elim _ _)
  rw [show (main_call4.cst).ofBuf (after ops V (Proc.devRef .tc main_call4_cst)) = (after ops V (Proc.devRef .tc main_call4_cst)) from cast_elim _ _] at h
  exact h

theorem at_main_v58 : after ops V (Proc.devRef .tc main_v58) = maximumf (after ops V (Proc.devRef .tc main_v57)) (after ops V (Proc.devRef .tc main_call4_v0)) := by
  have h := (HostRead.binary_at ops_outs V 103 main_v57 main_call4_v0 main_v58 _ _ _ _ rfl (later (k := 103) rfl) (earlier (j := 100) rfl (by decide)) (earlier (j := 102) rfl (by decide))).trans (cast_elim _ _)
  rw [show ((TRef.of main_v57 : TRef sig ⟨S262144x128, .f32⟩)).ofBuf (after ops V (Proc.devRef .tc main_v57)) = (after ops V (Proc.devRef .tc main_v57)) from cast_elim _ _,
    show (main_call4.v0).ofBuf (after ops V (Proc.devRef .tc main_call4_v0)) = (after ops V (Proc.devRef .tc main_call4_v0)) from cast_elim _ _] at h
  exact h

theorem at_main_cst : after ops V (Proc.devRef .tc main_cst) = constant S_ .f32 0x00000000#32 :=
  HostRead.nullary_at ops_outs V 104 main_cst _ _ rfl (later (k := 104) rfl)

theorem at_main_v59 : after ops V (Proc.devRef .tc main_v59) = broadcastInDim S131072x128 ![] bcast_S_S131072x128 (after ops V (Proc.devRef .tc main_cst)) :=
  HostRead.unary_at ops_outs V 105 main_cst main_v59 _ _ _ rfl (later (k := 105) rfl) (earlier (j := 104) rfl (by decide))

theorem at_main_v60 : after ops V (Proc.devRef .tc main_v60) = broadcastInDim S262144x1 ![0] bcast_S262144_S262144x1_0 (after ops V (Proc.devRef .tc main_v1)) :=
  HostRead.unary_at ops_outs V 106 main_v1 main_v60 _ _ _ rfl (later (k := 106) rfl) (earlier (j := 1) rfl (by decide))

theorem at_main_v61 : after ops V (Proc.devRef .tc main_v61) = Host.scatterAdd scatter_S131072x128_S262144x1_S262144x128_1_0_0_1 (after ops V (Proc.devRef .tc main_v59)) (after ops V (Proc.devRef .tc main_v60)) (after ops V (Proc.devRef .tc main_v58)) :=
  HostRead.ternary_at ops_outs V 107 main_v59 main_v60 main_v58 main_v61 _ _ _ _ _ rfl (later (k := 107) rfl) (earlier (j := 105) rfl (by decide)) (earlier (j := 106) rfl (by decide)) (earlier (j := 103) rfl (by decide))

theorem at_main_cst_14 : after ops V (Proc.devRef .tc main_cst_14) = constant S_ .f32 0x00000000#32 :=
  HostRead.nullary_at ops_outs V 108 main_cst_14 _ _ rfl (later (k := 108) rfl)

theorem at_main_v62 : after ops V (Proc.devRef .tc main_v62) = broadcastInDim S131072x128 ![] bcast_S_S131072x128 (after ops V (Proc.devRef .tc main_cst_14)) :=
  HostRead.unary_at ops_outs V 109 main_cst_14 main_v62 _ _ _ rfl (later (k := 109) rfl) (earlier (j := 108) rfl (by decide))

theorem at_main_v63 : after ops V (Proc.devRef .tc main_v63) = broadcastInDim S262144x1 ![0] bcast_S262144_S262144x1_0 (after ops V (Proc.devRef .tc main_v3)) :=
  HostRead.unary_at ops_outs V 110 main_v3 main_v63 _ _ _ rfl (later (k := 110) rfl) (earlier (j := 3) rfl (by decide))

theorem at_main_v64 : after ops V (Proc.devRef .tc main_v64) = Host.scatterAdd scatter_S131072x128_S262144x1_S262144x128_1_0_0_1 (after ops V (Proc.devRef .tc main_v62)) (after ops V (Proc.devRef .tc main_v63)) (after ops V (Proc.devRef .tc main_v58)) :=
  HostRead.ternary_at ops_outs V 111 main_v62 main_v63 main_v58 main_v64 _ _ _ _ _ rfl (later (k := 111) rfl) (earlier (j := 109) rfl (by decide)) (earlier (j := 110) rfl (by decide)) (earlier (j := 103) rfl (by decide))

theorem at_main_call5_v0 : after ops V (Proc.devRef .tc main_call5_v0) = extractStridedSlice S1 ![255] (after ops V (Proc.devRef .tc main_arg18)) slices_S256_S1_255 := by
  have h := (HostRead.unary_at ops_outs V 112 main_arg18 main_call5_v0 _ _ _ rfl (later (k := 112) rfl) (input arg18_input 112)).trans (cast_elim _ _)
  rw [show ((TRef.of main_arg18 : TRef sig ⟨S256, .i32⟩)).ofBuf (after ops V (Proc.devRef .tc main_arg18)) = (after ops V (Proc.devRef .tc main_arg18)) from cast_elim _ _] at h
  exact h

theorem at_main_call5_v1 : after ops V (Proc.devRef .tc main_call5_v1) = extractStridedSlice S255 ![0] (after ops V (Proc.devRef .tc main_arg18)) slices_S256_S255_0 := by
  have h := (HostRead.unary_at ops_outs V 113 main_arg18 main_call5_v1 _ _ _ rfl (later (k := 113) rfl) (input arg18_input 113)).trans (cast_elim _ _)
  rw [show ((TRef.of main_arg18 : TRef sig ⟨S256, .i32⟩)).ofBuf (after ops V (Proc.devRef .tc main_arg18)) = (after ops V (Proc.devRef .tc main_arg18)) from cast_elim _ _] at h
  exact h

theorem at_main_v65 : after ops V (Proc.devRef .tc main_v65) = concatenate S256 0 [⟨S1, (after ops V (Proc.devRef .tc main_call5_v0))⟩, ⟨S255, (after ops V (Proc.devRef .tc main_call5_v1))⟩] concatenates_S1_S255_S256_d0 := by
  have h := (HostRead.binary_at ops_outs V 114 main_call5_v0 main_call5_v1 main_v65 _ _ _ _ rfl (later (k := 114) rfl) (earlier (j := 112) rfl (by decide)) (earlier (j := 113) rfl (by decide))).trans (cast_elim _ _)
  rw [show (main_call5.v0).ofBuf (after ops V (Proc.devRef .tc main_call5_v0)) = (after ops V (Proc.devRef .tc main_call5_v0)) from cast_elim _ _,
    show (main_call5.v1).ofBuf (after ops V (Proc.devRef .tc main_call5_v1)) = (after ops V (Proc.devRef .tc main_call5_v1)) from cast_elim _ _] at h
  exact h

theorem at_main_c_15 : after ops V (Proc.devRef .tc main_c_15) = constantI S_ 32 0#32 :=
  HostRead.nullary_at ops_outs V 115 main_c_15 _ _ rfl (later (k := 115) rfl)

theorem at_main_v66 : after ops V (Proc.devRef .tc main_v66) = broadcastInDim S1 ![] bcast_S_S1 (after ops V (Proc.devRef .tc main_c_15)) :=
  HostRead.unary_at ops_outs V 116 main_c_15 main_v66 _ _ _ rfl (later (k := 116) rfl) (earlier (j := 115) rfl (by decide))

theorem at_main_c_16 : after ops V (Proc.devRef .tc main_c_16) = constantI S_ 32 0#32 :=
  HostRead.nullary_at ops_outs V 117 main_c_16 _ _ rfl (later (k := 117) rfl)

theorem at_main_v67 : after ops V (Proc.devRef .tc main_v67) = Host.scatter scatter_S256_S1_S__n_0_0_0 (fun _ b => b) (after ops V (Proc.devRef .tc main_v65)) (after ops V (Proc.devRef .tc main_v66)) (after ops V (Proc.devRef .tc main_c_16)) :=
  HostRead.ternary_at ops_outs V 118 main_v65 main_v66 main_c_16 main_v67 _ _ _ _ _ rfl (later (k := 118) rfl) (earlier (j := 114) rfl (by decide)) (earlier (j := 116) rfl (by decide)) (earlier (j := 117) rfl (by decide))

theorem at_main_call6_call0_c : after ops V (Proc.devRef .tc main_call6_call0_c) = constantI S_ 32 0#32 :=
  (HostRead.nullary_at ops_outs V 119 main_call6_call0_c _ _ rfl (later (k := 119) rfl)).trans (cast_elim _ _)

theorem at_main_call6_call0_v0 : after ops V (Proc.devRef .tc main_call6_call0_v0) = broadcastInDim S_ ![] bcast_S_S_ (after ops V (Proc.devRef .tc main_call6_call0_c)) := by
  have h := (HostRead.unary_at ops_outs V 120 main_call6_call0_c main_call6_call0_v0 _ _ _ rfl (later (k := 120) rfl) (earlier (j := 119) rfl (by decide))).trans (cast_elim _ _)
  rw [show (main_call6.call0.c).ofBuf (after ops V (Proc.devRef .tc main_call6_call0_c)) = (after ops V (Proc.devRef .tc main_call6_call0_c)) from cast_elim _ _] at h
  exact h

theorem at_main_v68 : after ops V (Proc.devRef .tc main_v68) = Host.reduceWindow IntOp.addi ![256] ![1] ![255] ![0] (after ops V (Proc.devRef .tc main_v67)) (after ops V (Proc.devRef .tc main_call6_call0_v0)) reduceWindows_S256_S256_w256s1p255_0 h_S_ := by
  have h := (HostRead.binary_at ops_outs V 121 main_v67 main_call6_call0_v0 main_v68 _ _ _ _ rfl (later (k := 121) rfl) (earlier (j := 118) rfl (by decide)) (earlier (j := 120) rfl (by decide))).trans (cast_elim _ _)
  rw [show ((TRef.of main_v67 : TRef sig ⟨S256, .i32⟩)).ofBuf (after ops V (Proc.devRef .tc main_v67)) = (after ops V (Proc.devRef .tc main_v67)) from cast_elim _ _,
    show (main_call6.call0.v0).ofBuf (after ops V (Proc.devRef .tc main_call6_call0_v0)) = (after ops V (Proc.devRef .tc main_call6_call0_v0)) from cast_elim _ _] at h
  exact h

theorem at_main_c_17 : after ops V (Proc.devRef .tc main_c_17) = constantI S_ 32 0#32 :=
  HostRead.nullary_at ops_outs V 122 main_c_17 _ _ rfl (later (k := 122) rfl)

theorem at_main_v69 : after ops V (Proc.devRef .tc main_v69) = broadcastInDim S131072 ![] bcast_S_S131072 (after ops V (Proc.devRef .tc main_c_17)) :=
  HostRead.unary_at ops_outs V 123 main_c_17 main_v69 _ _ _ rfl (later (k := 123) rfl) (earlier (j := 122) rfl (by decide))

theorem at_main_c_18 : after ops V (Proc.devRef .tc main_c_18) = constantI S_ 32 0#32 :=
  HostRead.nullary_at ops_outs V 124 main_c_18 _ _ rfl (later (k := 124) rfl)

theorem at_main_v70 : after ops V (Proc.devRef .tc main_v70) = broadcastInDim S256 ![] bcast_S_S256 (after ops V (Proc.devRef .tc main_c_18)) :=
  HostRead.unary_at ops_outs V 125 main_c_18 main_v70 _ _ _ rfl (later (k := 125) rfl) (earlier (j := 124) rfl (by decide))

theorem at_main_v71 : after ops V (Proc.devRef .tc main_v71) = cmpi .slt (after ops V (Proc.devRef .tc main_v68)) (after ops V (Proc.devRef .tc main_v70)) :=
  HostRead.binary_at ops_outs V 126 main_v68 main_v70 main_v71 _ _ _ _ rfl (later (k := 126) rfl) (earlier (j := 121) rfl (by decide)) (earlier (j := 125) rfl (by decide))

theorem at_main_c_19 : after ops V (Proc.devRef .tc main_c_19) = constantI S_ 32 131072#32 :=
  HostRead.nullary_at ops_outs V 127 main_c_19 _ _ rfl (later (k := 127) rfl)

theorem at_main_v72 : after ops V (Proc.devRef .tc main_v72) = broadcastInDim S256 ![] bcast_S_S256 (after ops V (Proc.devRef .tc main_c_19)) :=
  HostRead.unary_at ops_outs V 128 main_c_19 main_v72 _ _ _ rfl (later (k := 128) rfl) (earlier (j := 127) rfl (by decide))

theorem at_main_v73 : after ops V (Proc.devRef .tc main_v73) = addi (after ops V (Proc.devRef .tc main_v68)) (after ops V (Proc.devRef .tc main_v72)) :=
  HostRead.binary_at ops_outs V 129 main_v68 main_v72 main_v73 _ _ _ _ rfl (later (k := 129) rfl) (earlier (j := 121) rfl (by decide)) (earlier (j := 128) rfl (by decide))

theorem at_main_v74 : after ops V (Proc.devRef .tc main_v74) = select (after ops V (Proc.devRef .tc main_v71)) (after ops V (Proc.devRef .tc main_v73)) (after ops V (Proc.devRef .tc main_v68)) :=
  HostRead.ternary_at ops_outs V 130 main_v71 main_v73 main_v68 main_v74 _ _ _ _ _ rfl (later (k := 130) rfl) (earlier (j := 126) rfl (by decide)) (earlier (j := 129) rfl (by decide)) (earlier (j := 121) rfl (by decide))

theorem at_main_v75 : after ops V (Proc.devRef .tc main_v75) = broadcastInDim S256x1 ![0] bcast_S256_S256x1_0 (after ops V (Proc.devRef .tc main_v74)) :=
  HostRead.unary_at ops_outs V 131 main_v74 main_v75 _ _ _ rfl (later (k := 131) rfl) (earlier (j := 130) rfl (by decide))

theorem at_main_c_20 : after ops V (Proc.devRef .tc main_c_20) = constantI S_ 32 1#32 :=
  HostRead.nullary_at ops_outs V 132 main_c_20 _ _ rfl (later (k := 132) rfl)

theorem at_main_v76 : after ops V (Proc.devRef .tc main_v76) = broadcastInDim S256 ![] bcast_S_S256 (after ops V (Proc.devRef .tc main_c_20)) :=
  HostRead.unary_at ops_outs V 133 main_c_20 main_v76 _ _ _ rfl (later (k := 133) rfl) (earlier (j := 132) rfl (by decide))

theorem at_main_v77 : after ops V (Proc.devRef .tc main_v77) = Host.scatter scatter_S131072_S256x1_S256_n_0_0_1 IntOp.addi (after ops V (Proc.devRef .tc main_v69)) (after ops V (Proc.devRef .tc main_v75)) (after ops V (Proc.devRef .tc main_v76)) :=
  HostRead.ternary_at ops_outs V 134 main_v69 main_v75 main_v76 main_v77 _ _ _ _ _ rfl (later (k := 134) rfl) (earlier (j := 123) rfl (by decide)) (earlier (j := 131) rfl (by decide)) (earlier (j := 133) rfl (by decide))

theorem at_main_call7_call0_c : after ops V (Proc.devRef .tc main_call7_call0_c) = constantI S_ 32 0#32 :=
  (HostRead.nullary_at ops_outs V 135 main_call7_call0_c _ _ rfl (later (k := 135) rfl)).trans (cast_elim _ _)

theorem at_main_call7_call0_v0 : after ops V (Proc.devRef .tc main_call7_call0_v0) = broadcastInDim S_ ![] bcast_S_S_ (after ops V (Proc.devRef .tc main_call7_call0_c)) := by
  have h := (HostRead.unary_at ops_outs V 136 main_call7_call0_c main_call7_call0_v0 _ _ _ rfl (later (k := 136) rfl) (earlier (j := 135) rfl (by decide))).trans (cast_elim _ _)
  rw [show (main_call7.call0.c).ofBuf (after ops V (Proc.devRef .tc main_call7_call0_c)) = (after ops V (Proc.devRef .tc main_call7_call0_c)) from cast_elim _ _] at h
  exact h

theorem at_main_v78 : after ops V (Proc.devRef .tc main_v78) = Host.reduceWindow IntOp.addi ![131072] ![1] ![131071] ![0] (after ops V (Proc.devRef .tc main_v77)) (after ops V (Proc.devRef .tc main_call7_call0_v0)) reduceWindows_S131072_S131072_w131072s1p131071_0 h_S_ := by
  have h := (HostRead.binary_at ops_outs V 137 main_v77 main_call7_call0_v0 main_v78 _ _ _ _ rfl (later (k := 137) rfl) (earlier (j := 134) rfl (by decide)) (earlier (j := 136) rfl (by decide))).trans (cast_elim _ _)
  rw [show ((TRef.of main_v77 : TRef sig ⟨S131072, .i32⟩)).ofBuf (after ops V (Proc.devRef .tc main_v77)) = (after ops V (Proc.devRef .tc main_v77)) from cast_elim _ _,
    show (main_call7.call0.v0).ofBuf (after ops V (Proc.devRef .tc main_call7_call0_v0)) = (after ops V (Proc.devRef .tc main_call7_call0_v0)) from cast_elim _ _] at h
  exact h

theorem at_main_c_21 : after ops V (Proc.devRef .tc main_c_21) = constantI S_ 32 1#32 :=
  HostRead.nullary_at ops_outs V 138 main_c_21 _ _ rfl (later (k := 138) rfl)

theorem at_main_v79 : after ops V (Proc.devRef .tc main_v79) = broadcastInDim S131072 ![] bcast_S_S131072 (after ops V (Proc.devRef .tc main_c_21)) :=
  HostRead.unary_at ops_outs V 139 main_c_21 main_v79 _ _ _ rfl (later (k := 139) rfl) (earlier (j := 138) rfl (by decide))

theorem at_main_v80 : after ops V (Proc.devRef .tc main_v80) = subi (after ops V (Proc.devRef .tc main_v78)) (after ops V (Proc.devRef .tc main_v79)) :=
  HostRead.binary_at ops_outs V 140 main_v78 main_v79 main_v80 _ _ _ _ rfl (later (k := 140) rfl) (earlier (j := 137) rfl (by decide)) (earlier (j := 139) rfl (by decide))

theorem at_main_call8_c : after ops V (Proc.devRef .tc main_call8_c) = constantI S_ 32 0#32 :=
  (HostRead.nullary_at ops_outs V 141 main_call8_c _ _ rfl (later (k := 141) rfl)).trans (cast_elim _ _)

theorem at_main_call8_v0 : after ops V (Proc.devRef .tc main_call8_v0) = broadcastInDim S131072 ![] bcast_S_S131072 (after ops V (Proc.devRef .tc main_call8_c)) := by
  have h := (HostRead.unary_at ops_outs V 142 main_call8_c main_call8_v0 _ _ _ rfl (later (k := 142) rfl) (earlier (j := 141) rfl (by decide))).trans (cast_elim _ _)
  rw [show (main_call8.c).ofBuf (after ops V (Proc.devRef .tc main_call8_c)) = (after ops V (Proc.devRef .tc main_call8_c)) from cast_elim _ _] at h
  exact h

theorem at_main_call8_v1 : after ops V (Proc.devRef .tc main_call8_v1) = cmpi .slt (after ops V (Proc.devRef .tc main_v80)) (after ops V (Proc.devRef .tc main_call8_v0)) := by
  have h := (HostRead.binary_at ops_outs V 143 main_v80 main_call8_v0 main_call8_v1 _ _ _ _ rfl (later (k := 143) rfl) (earlier (j := 140) rfl (by decide)) (earlier (j := 142) rfl (by decide))).trans (cast_elim _ _)
  rw [show ((TRef.of main_v80 : TRef sig ⟨S131072, .i32⟩)).ofBuf (after ops V (Proc.devRef .tc main_v80)) = (after ops V (Proc.devRef .tc main_v80)) from cast_elim _ _,
    show (main_call8.v0).ofBuf (after ops V (Proc.devRef .tc main_call8_v0)) = (after ops V (Proc.devRef .tc main_call8_v0)) from cast_elim _ _] at h
  exact h

theorem at_main_call8_c_0 : after ops V (Proc.devRef .tc main_call8_c_0) = constantI S_ 32 256#32 :=
  (HostRead.nullary_at ops_outs V 144 main_call8_c_0 _ _ rfl (later (k := 144) rfl)).trans (cast_elim _ _)

theorem at_main_call8_v2 : after ops V (Proc.devRef .tc main_call8_v2) = broadcastInDim S131072 ![] bcast_S_S131072 (after ops V (Proc.devRef .tc main_call8_c_0)) := by
  have h := (HostRead.unary_at ops_outs V 145 main_call8_c_0 main_call8_v2 _ _ _ rfl (later (k := 145) rfl) (earlier (j := 144) rfl (by decide))).trans (cast_elim _ _)
  rw [show (main_call8.c_0).ofBuf (after ops V (Proc.devRef .tc main_call8_c_0)) = (after ops V (Proc.devRef .tc main_call8_c_0)) from cast_elim _ _] at h
  exact h

theorem at_main_call8_v3 : after ops V (Proc.devRef .tc main_call8_v3) = addi (after ops V (Proc.devRef .tc main_v80)) (after ops V (Proc.devRef .tc main_call8_v2)) := by
  have h := (HostRead.binary_at ops_outs V 146 main_v80 main_call8_v2 main_call8_v3 _ _ _ _ rfl (later (k := 146) rfl) (earlier (j := 140) rfl (by decide)) (earlier (j := 145) rfl (by decide))).trans (cast_elim _ _)
  rw [show ((TRef.of main_v80 : TRef sig ⟨S131072, .i32⟩)).ofBuf (after ops V (Proc.devRef .tc main_v80)) = (after ops V (Proc.devRef .tc main_v80)) from cast_elim _ _,
    show (main_call8.v2).ofBuf (after ops V (Proc.devRef .tc main_call8_v2)) = (after ops V (Proc.devRef .tc main_call8_v2)) from cast_elim _ _] at h
  exact h

theorem at_main_call8_v4 : after ops V (Proc.devRef .tc main_call8_v4) = select (after ops V (Proc.devRef .tc main_call8_v1)) (after ops V (Proc.devRef .tc main_call8_v3)) (after ops V (Proc.devRef .tc main_v80)) := by
  have h := (HostRead.ternary_at ops_outs V 147 main_call8_v1 main_call8_v3 main_v80 main_call8_v4 _ _ _ _ _ rfl (later (k := 147) rfl) (earlier (j := 143) rfl (by decide)) (earlier (j := 146) rfl (by decide)) (earlier (j := 140) rfl (by decide))).trans (cast_elim _ _)
  rw [show (main_call8.v1).ofBuf (after ops V (Proc.devRef .tc main_call8_v1)) = (after ops V (Proc.devRef .tc main_call8_v1)) from cast_elim _ _,
    show (main_call8.v3).ofBuf (after ops V (Proc.devRef .tc main_call8_v3)) = (after ops V (Proc.devRef .tc main_call8_v3)) from cast_elim _ _,
    show ((TRef.of main_v80 : TRef sig ⟨S131072, .i32⟩)).ofBuf (after ops V (Proc.devRef .tc main_v80)) = (after ops V (Proc.devRef .tc main_v80)) from cast_elim _ _] at h
  exact h

theorem at_main_call8_v5 : after ops V (Proc.devRef .tc main_call8_v5) = broadcastInDim S131072x1 ![0] bcast_S131072_S131072x1_0 (after ops V (Proc.devRef .tc main_call8_v4)) := by
  have h := (HostRead.unary_at ops_outs V 148 main_call8_v4 main_call8_v5 _ _ _ rfl (later (k := 148) rfl) (earlier (j := 147) rfl (by decide))).trans (cast_elim _ _)
  rw [show (main_call8.call0.v0).ofBuf (after ops V (Proc.devRef .tc main_call8_v4)) = (after ops V (Proc.devRef .tc main_call8_v4)) from cast_elim _ _] at h
  exact h

theorem at_main_call8_c_1 : after ops V (Proc.devRef .tc main_call8_c_1) = constantI S1 32 255#32 :=
  (HostRead.nullary_at ops_outs V 149 main_call8_c_1 _ _ rfl (later (k := 149) rfl)).trans (cast_elim _ _)

theorem at_main_call8_c_2 : after ops V (Proc.devRef .tc main_call8_c_2) = constantI S_ 32 0#32 :=
  (HostRead.nullary_at ops_outs V 150 main_call8_c_2 _ _ rfl (later (k := 150) rfl)).trans (cast_elim _ _)

theorem at_main_call8_v6 : after ops V (Proc.devRef .tc main_call8_v6) = broadcastInDim S131072x1 ![] bcast_S_S131072x1 (after ops V (Proc.devRef .tc main_call8_c_2)) := by
  have h := (HostRead.unary_at ops_outs V 151 main_call8_c_2 main_call8_v6 _ _ _ rfl (later (k := 151) rfl) (earlier (j := 150) rfl (by decide))).trans (cast_elim _ _)
  rw [show (main_call8.c_2).ofBuf (after ops V (Proc.devRef .tc main_call8_c_2)) = (after ops V (Proc.devRef .tc main_call8_c_2)) from cast_elim _ _] at h
  exact h

theorem at_main_call8_v7 : after ops V (Proc.devRef .tc main_call8_v7) = cmpi .sge (after ops V (Proc.devRef .tc main_call8_v5)) (after ops V (Proc.devRef .tc main_call8_v6)) := by
  have h := (HostRead.binary_at ops_outs V 152 main_call8_v5 main_call8_v6 main_call8_v7 _ _ _ _ rfl (later (k := 152) rfl) (earlier (j := 148) rfl (by decide)) (earlier (j := 151) rfl (by decide))).trans (cast_elim _ _)
  rw [show (main_call8.v5).ofBuf (after ops V (Proc.devRef .tc main_call8_v5)) = (after ops V (Proc.devRef .tc main_call8_v5)) from cast_elim _ _,
    show (main_call8.v6).ofBuf (after ops V (Proc.devRef .tc main_call8_v6)) = (after ops V (Proc.devRef .tc main_call8_v6)) from cast_elim _ _] at h
  exact h

theorem at_main_call8_v8 : after ops V (Proc.devRef .tc main_call8_v8) = broadcastInDim S1x1 ![1] bcast_S1_S1x1_1 (after ops V (Proc.devRef .tc main_call8_c_1)) := by
  have h := (HostRead.unary_at ops_outs V 153 main_call8_c_1 main_call8_v8 _ _ _ rfl (later (k := 153) rfl) (earlier (j := 149) rfl (by decide))).trans (cast_elim _ _)
  rw [show (main_call8.c_1).ofBuf (after ops V (Proc.devRef .tc main_call8_c_1)) = (after ops V (Proc.devRef .tc main_call8_c_1)) from cast_elim _ _] at h
  exact h

theorem at_main_call8_v9 : after ops V (Proc.devRef .tc main_call8_v9) = broadcastInDim S131072x1 ![0, 1] bcast_S1x1_S131072x1_0_1 (after ops V (Proc.devRef .tc main_call8_v8)) := by
  have h := (HostRead.unary_at ops_outs V 154 main_call8_v8 main_call8_v9 _ _ _ rfl (later (k := 154) rfl) (earlier (j := 153) rfl (by decide))).trans (cast_elim _ _)
  rw [show (main_call8.v8).ofBuf (after ops V (Proc.devRef .tc main_call8_v8)) = (after ops V (Proc.devRef .tc main_call8_v8)) from cast_elim _ _] at h
  exact h

theorem at_main_call8_v10 : after ops V (Proc.devRef .tc main_call8_v10) = cmpi .sle (after ops V (Proc.devRef .tc main_call8_v5)) (after ops V (Proc.devRef .tc main_call8_v9)) := by
  have h := (HostRead.binary_at ops_outs V 155 main_call8_v5 main_call8_v9 main_call8_v10 _ _ _ _ rfl (later (k := 155) rfl) (earlier (j := 148) rfl (by decide)) (earlier (j := 154) rfl (by decide))).trans (cast_elim _ _)
  rw [show (main_call8.v5).ofBuf (after ops V (Proc.devRef .tc main_call8_v5)) = (after ops V (Proc.devRef .tc main_call8_v5)) from cast_elim _ _,
    show (main_call8.v9).ofBuf (after ops V (Proc.devRef .tc main_call8_v9)) = (after ops V (Proc.devRef .tc main_call8_v9)) from cast_elim _ _] at h
  exact h

theorem at_main_call8_v11 : after ops V (Proc.devRef .tc main_call8_v11) = andi (after ops V (Proc.devRef .tc main_call8_v7)) (after ops V (Proc.devRef .tc main_call8_v10)) := by
  have h := (HostRead.binary_at ops_outs V 156 main_call8_v7 main_call8_v10 main_call8_v11 _ _ _ _ rfl (later (k := 156) rfl) (earlier (j := 152) rfl (by decide)) (earlier (j := 155) rfl (by decide))).trans (cast_elim _ _)
  rw [show (main_call8.v7).ofBuf (after ops V (Proc.devRef .tc main_call8_v7)) = (after ops V (Proc.devRef .tc main_call8_v7)) from cast_elim _ _,
    show (main_call8.v10).ofBuf (after ops V (Proc.devRef .tc main_call8_v10)) = (after ops V (Proc.devRef .tc main_call8_v10)) from cast_elim _ _] at h
  exact h

theorem at_main_call8_c_3 : after ops V (Proc.devRef .tc main_call8_c_3) = constantI S_ 1 1#1 :=
  (HostRead.nullary_at ops_outs V 157 main_call8_c_3 _ _ rfl (later (k := 157) rfl)).trans (cast_elim _ _)

theorem at_main_call8_v12 : after ops V (Proc.devRef .tc main_call8_v12) = Host.reduce IntOp.andi (after ops V (Proc.devRef .tc main_call8_v11)) (after ops V (Proc.devRef .tc main_call8_c_3)) reducesTo_S131072x1_S131072_d1 h_S_ := by
  have h := (HostRead.binary_at ops_outs V 158 main_call8_v11 main_call8_c_3 main_call8_v12 _ _ _ _ rfl (later (k := 158) rfl) (earlier (j := 156) rfl (by decide)) (earlier (j := 157) rfl (by decide))).trans (cast_elim _ _)
  rw [show (main_call8.v11).ofBuf (after ops V (Proc.devRef .tc main_call8_v11)) = (after ops V (Proc.devRef .tc main_call8_v11)) from cast_elim _ _,
    show (main_call8.c_3).ofBuf (after ops V (Proc.devRef .tc main_call8_c_3)) = (after ops V (Proc.devRef .tc main_call8_c_3)) from cast_elim _ _] at h
  exact h

theorem at_main_call8_v13 : after ops V (Proc.devRef .tc main_call8_v13) = Host.gather gather_S256x128_S131072x1_S131072x128_1_0_n_n_0_1_1128 (after ops V (Proc.devRef .tc main_arg2)) (after ops V (Proc.devRef .tc main_call8_v5)) := by
  have h := (HostRead.binary_at ops_outs V 159 main_arg2 main_call8_v5 main_call8_v13 _ _ _ _ rfl (later (k := 159) rfl) (input arg2_input 159) (earlier (j := 148) rfl (by decide))).trans (cast_elim _ _)
  rw [show ((TRef.of main_arg2 : TRef sig ⟨S256x128, .f32⟩)).ofBuf (after ops V (Proc.devRef .tc main_arg2)) = (after ops V (Proc.devRef .tc main_arg2)) from cast_elim _ _,
    show (main_call8.v5).ofBuf (after ops V (Proc.devRef .tc main_call8_v5)) = (after ops V (Proc.devRef .tc main_call8_v5)) from cast_elim _ _] at h
  exact h

theorem at_main_call8_v14 : after ops V (Proc.devRef .tc main_call8_v14) = broadcastInDim S131072x128 ![0] bcast_S131072_S131072x128_0 (after ops V (Proc.devRef .tc main_call8_v12)) := by
  have h := (HostRead.unary_at ops_outs V 160 main_call8_v12 main_call8_v14 _ _ _ rfl (later (k := 160) rfl) (earlier (j := 158) rfl (by decide))).trans (cast_elim _ _)
  rw [show (main_call8.v12).ofBuf (after ops V (Proc.devRef .tc main_call8_v12)) = (after ops V (Proc.devRef .tc main_call8_v12)) from cast_elim _ _] at h
  exact h

theorem at_main_call8_cst : after ops V (Proc.devRef .tc main_call8_cst) = constant S_ .f32 0x7FC00000#32 :=
  (HostRead.nullary_at ops_outs V 161 main_call8_cst _ _ rfl (later (k := 161) rfl)).trans (cast_elim _ _)

theorem at_main_call8_v15 : after ops V (Proc.devRef .tc main_call8_v15) = broadcastInDim S131072x128 ![] bcast_S_S131072x128 (after ops V (Proc.devRef .tc main_call8_cst)) := by
  have h := (HostRead.unary_at ops_outs V 162 main_call8_cst main_call8_v15 _ _ _ rfl (later (k := 162) rfl) (earlier (j := 161) rfl (by decide))).trans (cast_elim _ _)
  rw [show (main_call8.cst).ofBuf (after ops V (Proc.devRef .tc main_call8_cst)) = (after ops V (Proc.devRef .tc main_call8_cst)) from cast_elim _ _] at h
  exact h

theorem at_main_v81 : after ops V (Proc.devRef .tc main_v81) = select (after ops V (Proc.devRef .tc main_call8_v14)) (after ops V (Proc.devRef .tc main_call8_v13)) (after ops V (Proc.devRef .tc main_call8_v15)) := by
  have h := (HostRead.ternary_at ops_outs V 163 main_call8_v14 main_call8_v13 main_call8_v15 main_v81 _ _ _ _ _ rfl (later (k := 163) rfl) (earlier (j := 160) rfl (by decide)) (earlier (j := 159) rfl (by decide)) (earlier (j := 162) rfl (by decide))).trans (cast_elim _ _)
  rw [show (main_call8.v14).ofBuf (after ops V (Proc.devRef .tc main_call8_v14)) = (after ops V (Proc.devRef .tc main_call8_v14)) from cast_elim _ _,
    show (main_call8.v13).ofBuf (after ops V (Proc.devRef .tc main_call8_v13)) = (after ops V (Proc.devRef .tc main_call8_v13)) from cast_elim _ _,
    show (main_call8.v15).ofBuf (after ops V (Proc.devRef .tc main_call8_v15)) = (after ops V (Proc.devRef .tc main_call8_v15)) from cast_elim _ _] at h
  exact h

theorem at_main_v82 : after ops V (Proc.devRef .tc main_v82) = concatenate S131072x512 1 [⟨S131072x128, (after ops V (Proc.devRef .tc main_arg0))⟩, ⟨S131072x128, (after ops V (Proc.devRef .tc main_v61))⟩, ⟨S131072x128, (after ops V (Proc.devRef .tc main_v64))⟩, ⟨S131072x128, (after ops V (Proc.devRef .tc main_v81))⟩] concatenates_S131072x128_S131072x128_S131072x128_S131072x128_S131072x512_d1 :=
  HostRead.nary_at ops_outs V 164 ![main_arg0, main_v61, main_v64, main_v81] main_v82 _ _ _ rfl (later (k := 164) rfl)
    (by intro i; fin_cases i; exacts [input arg0_input 164, earlier (j := 107) rfl (by decide), earlier (j := 111) rfl (by decide), earlier (j := 163) rfl (by decide)])

theorem at_main_v83 : after ops V (Proc.devRef .tc main_v83) = Host.dotGeneral dot_S131072x512_S512x128_S131072x128_1_0_0_1_n_n none (after ops V (Proc.devRef .tc main_v82)) (after ops V (Proc.devRef .tc main_arg6)) :=
  HostRead.binary_at ops_outs V 165 main_v82 main_arg6 main_v83 _ _ _ _ rfl (later (k := 165) rfl) (earlier (j := 164) rfl (by decide)) (input arg6_input 165)

theorem at_main_v84 : after ops V (Proc.devRef .tc main_v84) = broadcastInDim S1x128 ![1] bcast_S128_S1x128_1 (after ops V (Proc.devRef .tc main_arg7)) :=
  HostRead.unary_at ops_outs V 166 main_arg7 main_v84 _ _ _ rfl (later (k := 166) rfl) (input arg7_input 166)

theorem at_main_v85 : after ops V (Proc.devRef .tc main_v85) = broadcastInDim S131072x128 ![0, 1] bcast_S1x128_S131072x128_0_1 (after ops V (Proc.devRef .tc main_v84)) :=
  HostRead.unary_at ops_outs V 167 main_v84 main_v85 _ _ _ rfl (later (k := 167) rfl) (earlier (j := 166) rfl (by decide))

theorem at_main_v86 : after ops V (Proc.devRef .tc main_v86) = addf (after ops V (Proc.devRef .tc main_v83)) (after ops V (Proc.devRef .tc main_v85)) :=
  HostRead.binary_at ops_outs V 168 main_v83 main_v85 main_v86 _ _ _ _ rfl (later (k := 168) rfl) (earlier (j := 165) rfl (by decide)) (earlier (j := 167) rfl (by decide))

theorem at_main_call9_cst : after ops V (Proc.devRef .tc main_call9_cst) = constant S_ .f32 0x00000000#32 :=
  (HostRead.nullary_at ops_outs V 169 main_call9_cst _ _ rfl (later (k := 169) rfl)).trans (cast_elim _ _)

theorem at_main_call9_v0 : after ops V (Proc.devRef .tc main_call9_v0) = broadcastInDim S131072x128 ![] bcast_S_S131072x128 (after ops V (Proc.devRef .tc main_call9_cst)) := by
  have h := (HostRead.unary_at ops_outs V 170 main_call9_cst main_call9_v0 _ _ _ rfl (later (k := 170) rfl) (earlier (j := 169) rfl (by decide))).trans (cast_elim _ _)
  rw [show (main_call9.cst).ofBuf (after ops V (Proc.devRef .tc main_call9_cst)) = (after ops V (Proc.devRef .tc main_call9_cst)) from cast_elim _ _] at h
  exact h

theorem at_main_v87 : after ops V (Proc.devRef .tc main_v87) = maximumf (after ops V (Proc.devRef .tc main_v86)) (after ops V (Proc.devRef .tc main_call9_v0)) := by
  have h := (HostRead.binary_at ops_outs V 171 main_v86 main_call9_v0 main_v87 _ _ _ _ rfl (later (k := 171) rfl) (earlier (j := 168) rfl (by decide)) (earlier (j := 170) rfl (by decide))).trans (cast_elim _ _)
  rw [show ((TRef.of main_v86 : TRef sig ⟨S131072x128, .f32⟩)).ofBuf (after ops V (Proc.devRef .tc main_v86)) = (after ops V (Proc.devRef .tc main_v86)) from cast_elim _ _,
    show (main_call9.v0).ofBuf (after ops V (Proc.devRef .tc main_call9_v0)) = (after ops V (Proc.devRef .tc main_call9_v0)) from cast_elim _ _] at h
  exact h

theorem at_main_v88 : after ops V (Proc.devRef .tc main_v88) = extractStridedSlice S1x262144 ![0, 0] (after ops V (Proc.devRef .tc main_arg13)) slices_S2x262144_S1x262144_0_0 :=
  HostRead.unary_at ops_outs V 172 main_arg13 main_v88 _ _ _ rfl (later (k := 172) rfl) (input arg13_input 172)

theorem at_main_v89 : after ops V (Proc.devRef .tc main_v89) = shapeCast S262144 (after ops V (Proc.devRef .tc main_v88)) shapeCasts_S1x262144_S262144 :=
  (HostRead.reshape_at ops_outs V 173 main_v88 main_v89 _ _ _ _ rfl (later (k := 173) rfl) (earlier (j := 172) rfl (by decide))).trans rfl

theorem at_main_cst_22 : after ops V (Proc.devRef .tc main_cst_22) = constant S_ .f32 0x00000000#32 :=
  HostRead.nullary_at ops_outs V 174 main_cst_22 _ _ rfl (later (k := 174) rfl)

theorem at_main_v90 : after ops V (Proc.devRef .tc main_v90) = broadcastInDim S131072x128 ![] bcast_S_S131072x128 (after ops V (Proc.devRef .tc main_cst_22)) :=
  HostRead.unary_at ops_outs V 175 main_cst_22 main_v90 _ _ _ rfl (later (k := 175) rfl) (earlier (j := 174) rfl (by decide))

theorem at_main_v91 : after ops V (Proc.devRef .tc main_v91) = broadcastInDim S262144x1 ![0] bcast_S262144_S262144x1_0 (after ops V (Proc.devRef .tc main_v89)) :=
  HostRead.unary_at ops_outs V 176 main_v89 main_v91 _ _ _ rfl (later (k := 176) rfl) (earlier (j := 173) rfl (by decide))

theorem at_main_v92 : after ops V (Proc.devRef .tc main_v92) = Host.scatterAdd scatter_S131072x128_S262144x1_S262144x128_1_0_0_1 (after ops V (Proc.devRef .tc main_v90)) (after ops V (Proc.devRef .tc main_v91)) (after ops V (Proc.devRef .tc main_v58)) :=
  HostRead.ternary_at ops_outs V 177 main_v90 main_v91 main_v58 main_v92 _ _ _ _ _ rfl (later (k := 177) rfl) (earlier (j := 175) rfl (by decide)) (earlier (j := 176) rfl (by decide)) (earlier (j := 103) rfl (by decide))

theorem at_main_v93 : after ops V (Proc.devRef .tc main_v93) = extractStridedSlice S1x262144 ![1, 0] (after ops V (Proc.devRef .tc main_arg13)) slices_S2x262144_S1x262144_1_0 :=
  HostRead.unary_at ops_outs V 178 main_arg13 main_v93 _ _ _ rfl (later (k := 178) rfl) (input arg13_input 178)

theorem at_main_v94 : after ops V (Proc.devRef .tc main_v94) = shapeCast S262144 (after ops V (Proc.devRef .tc main_v93)) shapeCasts_S1x262144_S262144 :=
  (HostRead.reshape_at ops_outs V 179 main_v93 main_v94 _ _ _ _ rfl (later (k := 179) rfl) (earlier (j := 178) rfl (by decide))).trans rfl

theorem at_main_cst_23 : after ops V (Proc.devRef .tc main_cst_23) = constant S_ .f32 0x00000000#32 :=
  HostRead.nullary_at ops_outs V 180 main_cst_23 _ _ rfl (later (k := 180) rfl)

theorem at_main_v95 : after ops V (Proc.devRef .tc main_v95) = broadcastInDim S131072x128 ![] bcast_S_S131072x128 (after ops V (Proc.devRef .tc main_cst_23)) :=
  HostRead.unary_at ops_outs V 181 main_cst_23 main_v95 _ _ _ rfl (later (k := 181) rfl) (earlier (j := 180) rfl (by decide))

theorem at_main_v96 : after ops V (Proc.devRef .tc main_v96) = broadcastInDim S262144x1 ![0] bcast_S262144_S262144x1_0 (after ops V (Proc.devRef .tc main_v94)) :=
  HostRead.unary_at ops_outs V 182 main_v94 main_v96 _ _ _ rfl (later (k := 182) rfl) (earlier (j := 179) rfl (by decide))

theorem at_main_v97 : after ops V (Proc.devRef .tc main_v97) = Host.scatterAdd scatter_S131072x128_S262144x1_S262144x128_1_0_0_1 (after ops V (Proc.devRef .tc main_v95)) (after ops V (Proc.devRef .tc main_v96)) (after ops V (Proc.devRef .tc main_v58)) :=
  HostRead.ternary_at ops_outs V 183 main_v95 main_v96 main_v58 main_v97 _ _ _ _ _ rfl (later (k := 183) rfl) (earlier (j := 181) rfl (by decide)) (earlier (j := 182) rfl (by decide)) (earlier (j := 103) rfl (by decide))

theorem at_main_call10_v0 : after ops V (Proc.devRef .tc main_call10_v0) = extractStridedSlice S1 ![255] (after ops V (Proc.devRef .tc main_arg20)) slices_S256_S1_255 := by
  have h := (HostRead.unary_at ops_outs V 184 main_arg20 main_call10_v0 _ _ _ rfl (later (k := 184) rfl) (input arg20_input 184)).trans (cast_elim _ _)
  rw [show ((TRef.of main_arg20 : TRef sig ⟨S256, .i32⟩)).ofBuf (after ops V (Proc.devRef .tc main_arg20)) = (after ops V (Proc.devRef .tc main_arg20)) from cast_elim _ _] at h
  exact h

theorem at_main_call10_v1 : after ops V (Proc.devRef .tc main_call10_v1) = extractStridedSlice S255 ![0] (after ops V (Proc.devRef .tc main_arg20)) slices_S256_S255_0 := by
  have h := (HostRead.unary_at ops_outs V 185 main_arg20 main_call10_v1 _ _ _ rfl (later (k := 185) rfl) (input arg20_input 185)).trans (cast_elim _ _)
  rw [show ((TRef.of main_arg20 : TRef sig ⟨S256, .i32⟩)).ofBuf (after ops V (Proc.devRef .tc main_arg20)) = (after ops V (Proc.devRef .tc main_arg20)) from cast_elim _ _] at h
  exact h

theorem at_main_v98 : after ops V (Proc.devRef .tc main_v98) = concatenate S256 0 [⟨S1, (after ops V (Proc.devRef .tc main_call10_v0))⟩, ⟨S255, (after ops V (Proc.devRef .tc main_call10_v1))⟩] concatenates_S1_S255_S256_d0 := by
  have h := (HostRead.binary_at ops_outs V 186 main_call10_v0 main_call10_v1 main_v98 _ _ _ _ rfl (later (k := 186) rfl) (earlier (j := 184) rfl (by decide)) (earlier (j := 185) rfl (by decide))).trans (cast_elim _ _)
  rw [show (main_call10.v0).ofBuf (after ops V (Proc.devRef .tc main_call10_v0)) = (after ops V (Proc.devRef .tc main_call10_v0)) from cast_elim _ _,
    show (main_call10.v1).ofBuf (after ops V (Proc.devRef .tc main_call10_v1)) = (after ops V (Proc.devRef .tc main_call10_v1)) from cast_elim _ _] at h
  exact h

theorem at_main_c_24 : after ops V (Proc.devRef .tc main_c_24) = constantI S_ 32 0#32 :=
  HostRead.nullary_at ops_outs V 187 main_c_24 _ _ rfl (later (k := 187) rfl)

theorem at_main_v99 : after ops V (Proc.devRef .tc main_v99) = broadcastInDim S1 ![] bcast_S_S1 (after ops V (Proc.devRef .tc main_c_24)) :=
  HostRead.unary_at ops_outs V 188 main_c_24 main_v99 _ _ _ rfl (later (k := 188) rfl) (earlier (j := 187) rfl (by decide))

theorem at_main_c_25 : after ops V (Proc.devRef .tc main_c_25) = constantI S_ 32 0#32 :=
  HostRead.nullary_at ops_outs V 189 main_c_25 _ _ rfl (later (k := 189) rfl)

theorem at_main_v100 : after ops V (Proc.devRef .tc main_v100) = Host.scatter scatter_S256_S1_S__n_0_0_0 (fun _ b => b) (after ops V (Proc.devRef .tc main_v98)) (after ops V (Proc.devRef .tc main_v99)) (after ops V (Proc.devRef .tc main_c_25)) :=
  HostRead.ternary_at ops_outs V 190 main_v98 main_v99 main_c_25 main_v100 _ _ _ _ _ rfl (later (k := 190) rfl) (earlier (j := 186) rfl (by decide)) (earlier (j := 188) rfl (by decide)) (earlier (j := 189) rfl (by decide))

theorem at_main_call11_call0_c : after ops V (Proc.devRef .tc main_call11_call0_c) = constantI S_ 32 0#32 :=
  (HostRead.nullary_at ops_outs V 191 main_call11_call0_c _ _ rfl (later (k := 191) rfl)).trans (cast_elim _ _)

theorem at_main_call11_call0_v0 : after ops V (Proc.devRef .tc main_call11_call0_v0) = broadcastInDim S_ ![] bcast_S_S_ (after ops V (Proc.devRef .tc main_call11_call0_c)) := by
  have h := (HostRead.unary_at ops_outs V 192 main_call11_call0_c main_call11_call0_v0 _ _ _ rfl (later (k := 192) rfl) (earlier (j := 191) rfl (by decide))).trans (cast_elim _ _)
  rw [show (main_call11.call0.c).ofBuf (after ops V (Proc.devRef .tc main_call11_call0_c)) = (after ops V (Proc.devRef .tc main_call11_call0_c)) from cast_elim _ _] at h
  exact h

theorem at_main_v101 : after ops V (Proc.devRef .tc main_v101) = Host.reduceWindow IntOp.addi ![256] ![1] ![255] ![0] (after ops V (Proc.devRef .tc main_v100)) (after ops V (Proc.devRef .tc main_call11_call0_v0)) reduceWindows_S256_S256_w256s1p255_0 h_S_ := by
  have h := (HostRead.binary_at ops_outs V 193 main_v100 main_call11_call0_v0 main_v101 _ _ _ _ rfl (later (k := 193) rfl) (earlier (j := 190) rfl (by decide)) (earlier (j := 192) rfl (by decide))).trans (cast_elim _ _)
  rw [show ((TRef.of main_v100 : TRef sig ⟨S256, .i32⟩)).ofBuf (after ops V (Proc.devRef .tc main_v100)) = (after ops V (Proc.devRef .tc main_v100)) from cast_elim _ _,
    show (main_call11.call0.v0).ofBuf (after ops V (Proc.devRef .tc main_call11_call0_v0)) = (after ops V (Proc.devRef .tc main_call11_call0_v0)) from cast_elim _ _] at h
  exact h

theorem at_main_c_26 : after ops V (Proc.devRef .tc main_c_26) = constantI S_ 32 0#32 :=
  HostRead.nullary_at ops_outs V 194 main_c_26 _ _ rfl (later (k := 194) rfl)

theorem at_main_v102 : after ops V (Proc.devRef .tc main_v102) = broadcastInDim S131072 ![] bcast_S_S131072 (after ops V (Proc.devRef .tc main_c_26)) :=
  HostRead.unary_at ops_outs V 195 main_c_26 main_v102 _ _ _ rfl (later (k := 195) rfl) (earlier (j := 194) rfl (by decide))

theorem at_main_c_27 : after ops V (Proc.devRef .tc main_c_27) = constantI S_ 32 0#32 :=
  HostRead.nullary_at ops_outs V 196 main_c_27 _ _ rfl (later (k := 196) rfl)

theorem at_main_v103 : after ops V (Proc.devRef .tc main_v103) = broadcastInDim S256 ![] bcast_S_S256 (after ops V (Proc.devRef .tc main_c_27)) :=
  HostRead.unary_at ops_outs V 197 main_c_27 main_v103 _ _ _ rfl (later (k := 197) rfl) (earlier (j := 196) rfl (by decide))

theorem at_main_v104 : after ops V (Proc.devRef .tc main_v104) = cmpi .slt (after ops V (Proc.devRef .tc main_v101)) (after ops V (Proc.devRef .tc main_v103)) :=
  HostRead.binary_at ops_outs V 198 main_v101 main_v103 main_v104 _ _ _ _ rfl (later (k := 198) rfl) (earlier (j := 193) rfl (by decide)) (earlier (j := 197) rfl (by decide))

theorem at_main_c_28 : after ops V (Proc.devRef .tc main_c_28) = constantI S_ 32 131072#32 :=
  HostRead.nullary_at ops_outs V 199 main_c_28 _ _ rfl (later (k := 199) rfl)

theorem at_main_v105 : after ops V (Proc.devRef .tc main_v105) = broadcastInDim S256 ![] bcast_S_S256 (after ops V (Proc.devRef .tc main_c_28)) :=
  HostRead.unary_at ops_outs V 200 main_c_28 main_v105 _ _ _ rfl (later (k := 200) rfl) (earlier (j := 199) rfl (by decide))

theorem at_main_v106 : after ops V (Proc.devRef .tc main_v106) = addi (after ops V (Proc.devRef .tc main_v101)) (after ops V (Proc.devRef .tc main_v105)) :=
  HostRead.binary_at ops_outs V 201 main_v101 main_v105 main_v106 _ _ _ _ rfl (later (k := 201) rfl) (earlier (j := 193) rfl (by decide)) (earlier (j := 200) rfl (by decide))

theorem at_main_v107 : after ops V (Proc.devRef .tc main_v107) = select (after ops V (Proc.devRef .tc main_v104)) (after ops V (Proc.devRef .tc main_v106)) (after ops V (Proc.devRef .tc main_v101)) :=
  HostRead.ternary_at ops_outs V 202 main_v104 main_v106 main_v101 main_v107 _ _ _ _ _ rfl (later (k := 202) rfl) (earlier (j := 198) rfl (by decide)) (earlier (j := 201) rfl (by decide)) (earlier (j := 193) rfl (by decide))

theorem at_main_v108 : after ops V (Proc.devRef .tc main_v108) = broadcastInDim S256x1 ![0] bcast_S256_S256x1_0 (after ops V (Proc.devRef .tc main_v107)) :=
  HostRead.unary_at ops_outs V 203 main_v107 main_v108 _ _ _ rfl (later (k := 203) rfl) (earlier (j := 202) rfl (by decide))

theorem at_main_c_29 : after ops V (Proc.devRef .tc main_c_29) = constantI S_ 32 1#32 :=
  HostRead.nullary_at ops_outs V 204 main_c_29 _ _ rfl (later (k := 204) rfl)

theorem at_main_v109 : after ops V (Proc.devRef .tc main_v109) = broadcastInDim S256 ![] bcast_S_S256 (after ops V (Proc.devRef .tc main_c_29)) :=
  HostRead.unary_at ops_outs V 205 main_c_29 main_v109 _ _ _ rfl (later (k := 205) rfl) (earlier (j := 204) rfl (by decide))

theorem at_main_v110 : after ops V (Proc.devRef .tc main_v110) = Host.scatter scatter_S131072_S256x1_S256_n_0_0_1 IntOp.addi (after ops V (Proc.devRef .tc main_v102)) (after ops V (Proc.devRef .tc main_v108)) (after ops V (Proc.devRef .tc main_v109)) :=
  HostRead.ternary_at ops_outs V 206 main_v102 main_v108 main_v109 main_v110 _ _ _ _ _ rfl (later (k := 206) rfl) (earlier (j := 195) rfl (by decide)) (earlier (j := 203) rfl (by decide)) (earlier (j := 205) rfl (by decide))

theorem at_main_call12_call0_c : after ops V (Proc.devRef .tc main_call12_call0_c) = constantI S_ 32 0#32 :=
  (HostRead.nullary_at ops_outs V 207 main_call12_call0_c _ _ rfl (later (k := 207) rfl)).trans (cast_elim _ _)

theorem at_main_call12_call0_v0 : after ops V (Proc.devRef .tc main_call12_call0_v0) = broadcastInDim S_ ![] bcast_S_S_ (after ops V (Proc.devRef .tc main_call12_call0_c)) := by
  have h := (HostRead.unary_at ops_outs V 208 main_call12_call0_c main_call12_call0_v0 _ _ _ rfl (later (k := 208) rfl) (earlier (j := 207) rfl (by decide))).trans (cast_elim _ _)
  rw [show (main_call12.call0.c).ofBuf (after ops V (Proc.devRef .tc main_call12_call0_c)) = (after ops V (Proc.devRef .tc main_call12_call0_c)) from cast_elim _ _] at h
  exact h

theorem at_main_v111 : after ops V (Proc.devRef .tc main_v111) = Host.reduceWindow IntOp.addi ![131072] ![1] ![131071] ![0] (after ops V (Proc.devRef .tc main_v110)) (after ops V (Proc.devRef .tc main_call12_call0_v0)) reduceWindows_S131072_S131072_w131072s1p131071_0 h_S_ := by
  have h := (HostRead.binary_at ops_outs V 209 main_v110 main_call12_call0_v0 main_v111 _ _ _ _ rfl (later (k := 209) rfl) (earlier (j := 206) rfl (by decide)) (earlier (j := 208) rfl (by decide))).trans (cast_elim _ _)
  rw [show ((TRef.of main_v110 : TRef sig ⟨S131072, .i32⟩)).ofBuf (after ops V (Proc.devRef .tc main_v110)) = (after ops V (Proc.devRef .tc main_v110)) from cast_elim _ _,
    show (main_call12.call0.v0).ofBuf (after ops V (Proc.devRef .tc main_call12_call0_v0)) = (after ops V (Proc.devRef .tc main_call12_call0_v0)) from cast_elim _ _] at h
  exact h

theorem at_main_c_30 : after ops V (Proc.devRef .tc main_c_30) = constantI S_ 32 1#32 :=
  HostRead.nullary_at ops_outs V 210 main_c_30 _ _ rfl (later (k := 210) rfl)

theorem at_main_v112 : after ops V (Proc.devRef .tc main_v112) = broadcastInDim S131072 ![] bcast_S_S131072 (after ops V (Proc.devRef .tc main_c_30)) :=
  HostRead.unary_at ops_outs V 211 main_c_30 main_v112 _ _ _ rfl (later (k := 211) rfl) (earlier (j := 210) rfl (by decide))

theorem at_main_v113 : after ops V (Proc.devRef .tc main_v113) = subi (after ops V (Proc.devRef .tc main_v111)) (after ops V (Proc.devRef .tc main_v112)) :=
  HostRead.binary_at ops_outs V 212 main_v111 main_v112 main_v113 _ _ _ _ rfl (later (k := 212) rfl) (earlier (j := 209) rfl (by decide)) (earlier (j := 211) rfl (by decide))

theorem at_main_call13_c : after ops V (Proc.devRef .tc main_call13_c) = constantI S_ 32 0#32 :=
  (HostRead.nullary_at ops_outs V 213 main_call13_c _ _ rfl (later (k := 213) rfl)).trans (cast_elim _ _)

theorem at_main_call13_v0 : after ops V (Proc.devRef .tc main_call13_v0) = broadcastInDim S131072 ![] bcast_S_S131072 (after ops V (Proc.devRef .tc main_call13_c)) := by
  have h := (HostRead.unary_at ops_outs V 214 main_call13_c main_call13_v0 _ _ _ rfl (later (k := 214) rfl) (earlier (j := 213) rfl (by decide))).trans (cast_elim _ _)
  rw [show (main_call13.c).ofBuf (after ops V (Proc.devRef .tc main_call13_c)) = (after ops V (Proc.devRef .tc main_call13_c)) from cast_elim _ _] at h
  exact h

theorem at_main_call13_v1 : after ops V (Proc.devRef .tc main_call13_v1) = cmpi .slt (after ops V (Proc.devRef .tc main_v113)) (after ops V (Proc.devRef .tc main_call13_v0)) := by
  have h := (HostRead.binary_at ops_outs V 215 main_v113 main_call13_v0 main_call13_v1 _ _ _ _ rfl (later (k := 215) rfl) (earlier (j := 212) rfl (by decide)) (earlier (j := 214) rfl (by decide))).trans (cast_elim _ _)
  rw [show ((TRef.of main_v113 : TRef sig ⟨S131072, .i32⟩)).ofBuf (after ops V (Proc.devRef .tc main_v113)) = (after ops V (Proc.devRef .tc main_v113)) from cast_elim _ _,
    show (main_call13.v0).ofBuf (after ops V (Proc.devRef .tc main_call13_v0)) = (after ops V (Proc.devRef .tc main_call13_v0)) from cast_elim _ _] at h
  exact h

theorem at_main_call13_c_0 : after ops V (Proc.devRef .tc main_call13_c_0) = constantI S_ 32 256#32 :=
  (HostRead.nullary_at ops_outs V 216 main_call13_c_0 _ _ rfl (later (k := 216) rfl)).trans (cast_elim _ _)

theorem at_main_call13_v2 : after ops V (Proc.devRef .tc main_call13_v2) = broadcastInDim S131072 ![] bcast_S_S131072 (after ops V (Proc.devRef .tc main_call13_c_0)) := by
  have h := (HostRead.unary_at ops_outs V 217 main_call13_c_0 main_call13_v2 _ _ _ rfl (later (k := 217) rfl) (earlier (j := 216) rfl (by decide))).trans (cast_elim _ _)
  rw [show (main_call13.c_0).ofBuf (after ops V (Proc.devRef .tc main_call13_c_0)) = (after ops V (Proc.devRef .tc main_call13_c_0)) from cast_elim _ _] at h
  exact h

theorem at_main_call13_v3 : after ops V (Proc.devRef .tc main_call13_v3) = addi (after ops V (Proc.devRef .tc main_v113)) (after ops V (Proc.devRef .tc main_call13_v2)) := by
  have h := (HostRead.binary_at ops_outs V 218 main_v113 main_call13_v2 main_call13_v3 _ _ _ _ rfl (later (k := 218) rfl) (earlier (j := 212) rfl (by decide)) (earlier (j := 217) rfl (by decide))).trans (cast_elim _ _)
  rw [show ((TRef.of main_v113 : TRef sig ⟨S131072, .i32⟩)).ofBuf (after ops V (Proc.devRef .tc main_v113)) = (after ops V (Proc.devRef .tc main_v113)) from cast_elim _ _,
    show (main_call13.v2).ofBuf (after ops V (Proc.devRef .tc main_call13_v2)) = (after ops V (Proc.devRef .tc main_call13_v2)) from cast_elim _ _] at h
  exact h

theorem at_main_call13_v4 : after ops V (Proc.devRef .tc main_call13_v4) = select (after ops V (Proc.devRef .tc main_call13_v1)) (after ops V (Proc.devRef .tc main_call13_v3)) (after ops V (Proc.devRef .tc main_v113)) := by
  have h := (HostRead.ternary_at ops_outs V 219 main_call13_v1 main_call13_v3 main_v113 main_call13_v4 _ _ _ _ _ rfl (later (k := 219) rfl) (earlier (j := 215) rfl (by decide)) (earlier (j := 218) rfl (by decide)) (earlier (j := 212) rfl (by decide))).trans (cast_elim _ _)
  rw [show (main_call13.v1).ofBuf (after ops V (Proc.devRef .tc main_call13_v1)) = (after ops V (Proc.devRef .tc main_call13_v1)) from cast_elim _ _,
    show (main_call13.v3).ofBuf (after ops V (Proc.devRef .tc main_call13_v3)) = (after ops V (Proc.devRef .tc main_call13_v3)) from cast_elim _ _,
    show ((TRef.of main_v113 : TRef sig ⟨S131072, .i32⟩)).ofBuf (after ops V (Proc.devRef .tc main_v113)) = (after ops V (Proc.devRef .tc main_v113)) from cast_elim _ _] at h
  exact h

theorem at_main_call13_v5 : after ops V (Proc.devRef .tc main_call13_v5) = broadcastInDim S131072x1 ![0] bcast_S131072_S131072x1_0 (after ops V (Proc.devRef .tc main_call13_v4)) := by
  have h := (HostRead.unary_at ops_outs V 220 main_call13_v4 main_call13_v5 _ _ _ rfl (later (k := 220) rfl) (earlier (j := 219) rfl (by decide))).trans (cast_elim _ _)
  rw [show (main_call13.call0.v0).ofBuf (after ops V (Proc.devRef .tc main_call13_v4)) = (after ops V (Proc.devRef .tc main_call13_v4)) from cast_elim _ _] at h
  exact h

theorem at_main_call13_c_1 : after ops V (Proc.devRef .tc main_call13_c_1) = constantI S1 32 255#32 :=
  (HostRead.nullary_at ops_outs V 221 main_call13_c_1 _ _ rfl (later (k := 221) rfl)).trans (cast_elim _ _)

theorem at_main_call13_c_2 : after ops V (Proc.devRef .tc main_call13_c_2) = constantI S_ 32 0#32 :=
  (HostRead.nullary_at ops_outs V 222 main_call13_c_2 _ _ rfl (later (k := 222) rfl)).trans (cast_elim _ _)

theorem at_main_call13_v6 : after ops V (Proc.devRef .tc main_call13_v6) = broadcastInDim S131072x1 ![] bcast_S_S131072x1 (after ops V (Proc.devRef .tc main_call13_c_2)) := by
  have h := (HostRead.unary_at ops_outs V 223 main_call13_c_2 main_call13_v6 _ _ _ rfl (later (k := 223) rfl) (earlier (j := 222) rfl (by decide))).trans (cast_elim _ _)
  rw [show (main_call13.c_2).ofBuf (after ops V (Proc.devRef .tc main_call13_c_2)) = (after ops V (Proc.devRef .tc main_call13_c_2)) from cast_elim _ _] at h
  exact h

theorem at_main_call13_v7 : after ops V (Proc.devRef .tc main_call13_v7) = cmpi .sge (after ops V (Proc.devRef .tc main_call13_v5)) (after ops V (Proc.devRef .tc main_call13_v6)) := by
  have h := (HostRead.binary_at ops_outs V 224 main_call13_v5 main_call13_v6 main_call13_v7 _ _ _ _ rfl (later (k := 224) rfl) (earlier (j := 220) rfl (by decide)) (earlier (j := 223) rfl (by decide))).trans (cast_elim _ _)
  rw [show (main_call13.v5).ofBuf (after ops V (Proc.devRef .tc main_call13_v5)) = (after ops V (Proc.devRef .tc main_call13_v5)) from cast_elim _ _,
    show (main_call13.v6).ofBuf (after ops V (Proc.devRef .tc main_call13_v6)) = (after ops V (Proc.devRef .tc main_call13_v6)) from cast_elim _ _] at h
  exact h

theorem at_main_call13_v8 : after ops V (Proc.devRef .tc main_call13_v8) = broadcastInDim S1x1 ![1] bcast_S1_S1x1_1 (after ops V (Proc.devRef .tc main_call13_c_1)) := by
  have h := (HostRead.unary_at ops_outs V 225 main_call13_c_1 main_call13_v8 _ _ _ rfl (later (k := 225) rfl) (earlier (j := 221) rfl (by decide))).trans (cast_elim _ _)
  rw [show (main_call13.c_1).ofBuf (after ops V (Proc.devRef .tc main_call13_c_1)) = (after ops V (Proc.devRef .tc main_call13_c_1)) from cast_elim _ _] at h
  exact h

theorem at_main_call13_v9 : after ops V (Proc.devRef .tc main_call13_v9) = broadcastInDim S131072x1 ![0, 1] bcast_S1x1_S131072x1_0_1 (after ops V (Proc.devRef .tc main_call13_v8)) := by
  have h := (HostRead.unary_at ops_outs V 226 main_call13_v8 main_call13_v9 _ _ _ rfl (later (k := 226) rfl) (earlier (j := 225) rfl (by decide))).trans (cast_elim _ _)
  rw [show (main_call13.v8).ofBuf (after ops V (Proc.devRef .tc main_call13_v8)) = (after ops V (Proc.devRef .tc main_call13_v8)) from cast_elim _ _] at h
  exact h

theorem at_main_call13_v10 : after ops V (Proc.devRef .tc main_call13_v10) = cmpi .sle (after ops V (Proc.devRef .tc main_call13_v5)) (after ops V (Proc.devRef .tc main_call13_v9)) := by
  have h := (HostRead.binary_at ops_outs V 227 main_call13_v5 main_call13_v9 main_call13_v10 _ _ _ _ rfl (later (k := 227) rfl) (earlier (j := 220) rfl (by decide)) (earlier (j := 226) rfl (by decide))).trans (cast_elim _ _)
  rw [show (main_call13.v5).ofBuf (after ops V (Proc.devRef .tc main_call13_v5)) = (after ops V (Proc.devRef .tc main_call13_v5)) from cast_elim _ _,
    show (main_call13.v9).ofBuf (after ops V (Proc.devRef .tc main_call13_v9)) = (after ops V (Proc.devRef .tc main_call13_v9)) from cast_elim _ _] at h
  exact h

theorem at_main_call13_v11 : after ops V (Proc.devRef .tc main_call13_v11) = andi (after ops V (Proc.devRef .tc main_call13_v7)) (after ops V (Proc.devRef .tc main_call13_v10)) := by
  have h := (HostRead.binary_at ops_outs V 228 main_call13_v7 main_call13_v10 main_call13_v11 _ _ _ _ rfl (later (k := 228) rfl) (earlier (j := 224) rfl (by decide)) (earlier (j := 227) rfl (by decide))).trans (cast_elim _ _)
  rw [show (main_call13.v7).ofBuf (after ops V (Proc.devRef .tc main_call13_v7)) = (after ops V (Proc.devRef .tc main_call13_v7)) from cast_elim _ _,
    show (main_call13.v10).ofBuf (after ops V (Proc.devRef .tc main_call13_v10)) = (after ops V (Proc.devRef .tc main_call13_v10)) from cast_elim _ _] at h
  exact h

theorem at_main_call13_c_3 : after ops V (Proc.devRef .tc main_call13_c_3) = constantI S_ 1 1#1 :=
  (HostRead.nullary_at ops_outs V 229 main_call13_c_3 _ _ rfl (later (k := 229) rfl)).trans (cast_elim _ _)

theorem at_main_call13_v12 : after ops V (Proc.devRef .tc main_call13_v12) = Host.reduce IntOp.andi (after ops V (Proc.devRef .tc main_call13_v11)) (after ops V (Proc.devRef .tc main_call13_c_3)) reducesTo_S131072x1_S131072_d1 h_S_ := by
  have h := (HostRead.binary_at ops_outs V 230 main_call13_v11 main_call13_c_3 main_call13_v12 _ _ _ _ rfl (later (k := 230) rfl) (earlier (j := 228) rfl (by decide)) (earlier (j := 229) rfl (by decide))).trans (cast_elim _ _)
  rw [show (main_call13.v11).ofBuf (after ops V (Proc.devRef .tc main_call13_v11)) = (after ops V (Proc.devRef .tc main_call13_v11)) from cast_elim _ _,
    show (main_call13.c_3).ofBuf (after ops V (Proc.devRef .tc main_call13_c_3)) = (after ops V (Proc.devRef .tc main_call13_c_3)) from cast_elim _ _] at h
  exact h

theorem at_main_call13_v13 : after ops V (Proc.devRef .tc main_call13_v13) = Host.gather gather_S256x128_S131072x1_S131072x128_1_0_n_n_0_1_1128 (after ops V (Proc.devRef .tc main_arg2)) (after ops V (Proc.devRef .tc main_call13_v5)) := by
  have h := (HostRead.binary_at ops_outs V 231 main_arg2 main_call13_v5 main_call13_v13 _ _ _ _ rfl (later (k := 231) rfl) (input arg2_input 231) (earlier (j := 220) rfl (by decide))).trans (cast_elim _ _)
  rw [show ((TRef.of main_arg2 : TRef sig ⟨S256x128, .f32⟩)).ofBuf (after ops V (Proc.devRef .tc main_arg2)) = (after ops V (Proc.devRef .tc main_arg2)) from cast_elim _ _,
    show (main_call13.v5).ofBuf (after ops V (Proc.devRef .tc main_call13_v5)) = (after ops V (Proc.devRef .tc main_call13_v5)) from cast_elim _ _] at h
  exact h

theorem at_main_call13_v14 : after ops V (Proc.devRef .tc main_call13_v14) = broadcastInDim S131072x128 ![0] bcast_S131072_S131072x128_0 (after ops V (Proc.devRef .tc main_call13_v12)) := by
  have h := (HostRead.unary_at ops_outs V 232 main_call13_v12 main_call13_v14 _ _ _ rfl (later (k := 232) rfl) (earlier (j := 230) rfl (by decide))).trans (cast_elim _ _)
  rw [show (main_call13.v12).ofBuf (after ops V (Proc.devRef .tc main_call13_v12)) = (after ops V (Proc.devRef .tc main_call13_v12)) from cast_elim _ _] at h
  exact h

theorem at_main_call13_cst : after ops V (Proc.devRef .tc main_call13_cst) = constant S_ .f32 0x7FC00000#32 :=
  (HostRead.nullary_at ops_outs V 233 main_call13_cst _ _ rfl (later (k := 233) rfl)).trans (cast_elim _ _)

theorem at_main_call13_v15 : after ops V (Proc.devRef .tc main_call13_v15) = broadcastInDim S131072x128 ![] bcast_S_S131072x128 (after ops V (Proc.devRef .tc main_call13_cst)) := by
  have h := (HostRead.unary_at ops_outs V 234 main_call13_cst main_call13_v15 _ _ _ rfl (later (k := 234) rfl) (earlier (j := 233) rfl (by decide))).trans (cast_elim _ _)
  rw [show (main_call13.cst).ofBuf (after ops V (Proc.devRef .tc main_call13_cst)) = (after ops V (Proc.devRef .tc main_call13_cst)) from cast_elim _ _] at h
  exact h

theorem at_main_v114 : after ops V (Proc.devRef .tc main_v114) = select (after ops V (Proc.devRef .tc main_call13_v14)) (after ops V (Proc.devRef .tc main_call13_v13)) (after ops V (Proc.devRef .tc main_call13_v15)) := by
  have h := (HostRead.ternary_at ops_outs V 235 main_call13_v14 main_call13_v13 main_call13_v15 main_v114 _ _ _ _ _ rfl (later (k := 235) rfl) (earlier (j := 232) rfl (by decide)) (earlier (j := 231) rfl (by decide)) (earlier (j := 234) rfl (by decide))).trans (cast_elim _ _)
  rw [show (main_call13.v14).ofBuf (after ops V (Proc.devRef .tc main_call13_v14)) = (after ops V (Proc.devRef .tc main_call13_v14)) from cast_elim _ _,
    show (main_call13.v13).ofBuf (after ops V (Proc.devRef .tc main_call13_v13)) = (after ops V (Proc.devRef .tc main_call13_v13)) from cast_elim _ _,
    show (main_call13.v15).ofBuf (after ops V (Proc.devRef .tc main_call13_v15)) = (after ops V (Proc.devRef .tc main_call13_v15)) from cast_elim _ _] at h
  exact h

theorem at_main_v115 : after ops V (Proc.devRef .tc main_v115) = concatenate S131072x512 1 [⟨S131072x128, (after ops V (Proc.devRef .tc main_arg3))⟩, ⟨S131072x128, (after ops V (Proc.devRef .tc main_v92))⟩, ⟨S131072x128, (after ops V (Proc.devRef .tc main_v97))⟩, ⟨S131072x128, (after ops V (Proc.devRef .tc main_v114))⟩] concatenates_S131072x128_S131072x128_S131072x128_S131072x128_S131072x512_d1 :=
  HostRead.nary_at ops_outs V 236 ![main_arg3, main_v92, main_v97, main_v114] main_v115 _ _ _ rfl (later (k := 236) rfl)
    (by intro i; fin_cases i; exacts [input arg3_input 236, earlier (j := 177) rfl (by decide), earlier (j := 183) rfl (by decide), earlier (j := 235) rfl (by decide)])

theorem at_main_v116 : after ops V (Proc.devRef .tc main_v116) = Host.dotGeneral dot_S131072x512_S512x128_S131072x128_1_0_0_1_n_n none (after ops V (Proc.devRef .tc main_v115)) (after ops V (Proc.devRef .tc main_arg8)) :=
  HostRead.binary_at ops_outs V 237 main_v115 main_arg8 main_v116 _ _ _ _ rfl (later (k := 237) rfl) (earlier (j := 236) rfl (by decide)) (input arg8_input 237)

theorem at_main_v117 : after ops V (Proc.devRef .tc main_v117) = broadcastInDim S1x128 ![1] bcast_S128_S1x128_1 (after ops V (Proc.devRef .tc main_arg9)) :=
  HostRead.unary_at ops_outs V 238 main_arg9 main_v117 _ _ _ rfl (later (k := 238) rfl) (input arg9_input 238)

theorem at_main_v118 : after ops V (Proc.devRef .tc main_v118) = broadcastInDim S131072x128 ![0, 1] bcast_S1x128_S131072x128_0_1 (after ops V (Proc.devRef .tc main_v117)) :=
  HostRead.unary_at ops_outs V 239 main_v117 main_v118 _ _ _ rfl (later (k := 239) rfl) (earlier (j := 238) rfl (by decide))

theorem at_main_v119 : after ops V (Proc.devRef .tc main_v119) = addf (after ops V (Proc.devRef .tc main_v116)) (after ops V (Proc.devRef .tc main_v118)) :=
  HostRead.binary_at ops_outs V 240 main_v116 main_v118 main_v119 _ _ _ _ rfl (later (k := 240) rfl) (earlier (j := 237) rfl (by decide)) (earlier (j := 239) rfl (by decide))

theorem at_main_call14_cst : after ops V (Proc.devRef .tc main_call14_cst) = constant S_ .f32 0x00000000#32 :=
  (HostRead.nullary_at ops_outs V 241 main_call14_cst _ _ rfl (later (k := 241) rfl)).trans (cast_elim _ _)

theorem at_main_call14_v0 : after ops V (Proc.devRef .tc main_call14_v0) = broadcastInDim S131072x128 ![] bcast_S_S131072x128 (after ops V (Proc.devRef .tc main_call14_cst)) := by
  have h := (HostRead.unary_at ops_outs V 242 main_call14_cst main_call14_v0 _ _ _ rfl (later (k := 242) rfl) (earlier (j := 241) rfl (by decide))).trans (cast_elim _ _)
  rw [show (main_call14.cst).ofBuf (after ops V (Proc.devRef .tc main_call14_cst)) = (after ops V (Proc.devRef .tc main_call14_cst)) from cast_elim _ _] at h
  exact h

theorem at_main_v120 : after ops V (Proc.devRef .tc main_v120) = maximumf (after ops V (Proc.devRef .tc main_v119)) (after ops V (Proc.devRef .tc main_call14_v0)) := by
  have h := (HostRead.binary_at ops_outs V 243 main_v119 main_call14_v0 main_v120 _ _ _ _ rfl (later (k := 243) rfl) (earlier (j := 240) rfl (by decide)) (earlier (j := 242) rfl (by decide))).trans (cast_elim _ _)
  rw [show ((TRef.of main_v119 : TRef sig ⟨S131072x128, .f32⟩)).ofBuf (after ops V (Proc.devRef .tc main_v119)) = (after ops V (Proc.devRef .tc main_v119)) from cast_elim _ _,
    show (main_call14.v0).ofBuf (after ops V (Proc.devRef .tc main_call14_v0)) = (after ops V (Proc.devRef .tc main_call14_v0)) from cast_elim _ _] at h
  exact h

theorem at_main_v121 : after ops V (Proc.devRef .tc main_v121) = broadcastInDim S131072x1 ![0] bcast_S131072_S131072x1_0 (after ops V (Proc.devRef .tc main_arg17)) :=
  HostRead.unary_at ops_outs V 244 main_arg17 main_v121 _ _ _ rfl (later (k := 244) rfl) (input arg17_input 244)

theorem at_main_cst_31 : after ops V (Proc.devRef .tc main_cst_31) = constant S_ .f32 0x00000000#32 :=
  HostRead.nullary_at ops_outs V 245 main_cst_31 _ _ rfl (later (k := 245) rfl)

theorem at_main_call15_v0 : after ops V (Proc.devRef .tc main_call15_v0) = broadcastInDim S131072x128 ![0, 1] bcast_S131072x1_S131072x128_0_1 (after ops V (Proc.devRef .tc main_v121)) := by
  have h := (HostRead.unary_at ops_outs V 246 main_v121 main_call15_v0 _ _ _ rfl (later (k := 246) rfl) (earlier (j := 244) rfl (by decide))).trans (cast_elim _ _)
  rw [show ((TRef.of main_v121 : TRef sig ⟨S131072x1, .i1⟩)).ofBuf (after ops V (Proc.devRef .tc main_v121)) = (after ops V (Proc.devRef .tc main_v121)) from cast_elim _ _] at h
  exact h

theorem at_main_call15_v1 : after ops V (Proc.devRef .tc main_call15_v1) = broadcastInDim S131072x128 ![] bcast_S_S131072x128 (after ops V (Proc.devRef .tc main_cst_31)) := by
  have h := (HostRead.unary_at ops_outs V 247 main_cst_31 main_call15_v1 _ _ _ rfl (later (k := 247) rfl) (earlier (j := 245) rfl (by decide))).trans (cast_elim _ _)
  rw [show ((TRef.of main_cst_31 : TRef sig ⟨S_, .f32⟩)).ofBuf (after ops V (Proc.devRef .tc main_cst_31)) = (after ops V (Proc.devRef .tc main_cst_31)) from cast_elim _ _] at h
  exact h

theorem at_main_v122 : after ops V (Proc.devRef .tc main_v122) = select (after ops V (Proc.devRef .tc main_call15_v0)) (after ops V (Proc.devRef .tc main_call15_v1)) (after ops V (Proc.devRef .tc main_v120)) := by
  have h := (HostRead.ternary_at ops_outs V 248 main_call15_v0 main_call15_v1 main_v120 main_v122 _ _ _ _ _ rfl (later (k := 248) rfl) (earlier (j := 246) rfl (by decide)) (earlier (j := 247) rfl (by decide)) (earlier (j := 243) rfl (by decide))).trans (cast_elim _ _)
  rw [show (main_call15.v0).ofBuf (after ops V (Proc.devRef .tc main_call15_v0)) = (after ops V (Proc.devRef .tc main_call15_v0)) from cast_elim _ _,
    show (main_call15.v1).ofBuf (after ops V (Proc.devRef .tc main_call15_v1)) = (after ops V (Proc.devRef .tc main_call15_v1)) from cast_elim _ _,
    show ((TRef.of main_v120 : TRef sig ⟨S131072x128, .f32⟩)).ofBuf (after ops V (Proc.devRef .tc main_v120)) = (after ops V (Proc.devRef .tc main_v120)) from cast_elim _ _] at h
  exact h

theorem at_main_cst_32 : after ops V (Proc.devRef .tc main_cst_32) = constant S_ .f32 0x00000000#32 :=
  HostRead.nullary_at ops_outs V 249 main_cst_32 _ _ rfl (later (k := 249) rfl)

theorem at_main_v123 : after ops V (Proc.devRef .tc main_v123) = broadcastInDim S256x128 ![] bcast_S_S256x128 (after ops V (Proc.devRef .tc main_cst_32)) :=
  HostRead.unary_at ops_outs V 250 main_cst_32 main_v123 _ _ _ rfl (later (k := 250) rfl) (earlier (j := 249) rfl (by decide))

theorem at_main_v124 : after ops V (Proc.devRef .tc main_v124) = broadcastInDim S131072x1 ![0] bcast_S131072_S131072x1_0 (after ops V (Proc.devRef .tc main_arg14)) :=
  HostRead.unary_at ops_outs V 251 main_arg14 main_v124 _ _ _ rfl (later (k := 251) rfl) (input arg14_input 251)

theorem at_main_v125 : after ops V (Proc.devRef .tc main_v125) = Host.scatterAdd scatter_S256x128_S131072x1_S131072x128_1_0_0_1 (after ops V (Proc.devRef .tc main_v123)) (after ops V (Proc.devRef .tc main_v124)) (after ops V (Proc.devRef .tc main_v87)) :=
  HostRead.ternary_at ops_outs V 252 main_v123 main_v124 main_v87 main_v125 _ _ _ _ _ rfl (later (k := 252) rfl) (earlier (j := 250) rfl (by decide)) (earlier (j := 251) rfl (by decide)) (earlier (j := 171) rfl (by decide))

theorem at_main_cst_33 : after ops V (Proc.devRef .tc main_cst_33) = constant S_ .f32 0x00000000#32 :=
  HostRead.nullary_at ops_outs V 253 main_cst_33 _ _ rfl (later (k := 253) rfl)

theorem at_main_v126 : after ops V (Proc.devRef .tc main_v126) = broadcastInDim S256x128 ![] bcast_S_S256x128 (after ops V (Proc.devRef .tc main_cst_33)) :=
  HostRead.unary_at ops_outs V 254 main_cst_33 main_v126 _ _ _ rfl (later (k := 254) rfl) (earlier (j := 253) rfl (by decide))

theorem at_main_v127 : after ops V (Proc.devRef .tc main_v127) = broadcastInDim S262144x1 ![0] bcast_S262144_S262144x1_0 (after ops V (Proc.devRef .tc main_arg15)) :=
  HostRead.unary_at ops_outs V 255 main_arg15 main_v127 _ _ _ rfl (later (k := 255) rfl) (input arg15_input 255)

theorem at_main_v128 : after ops V (Proc.devRef .tc main_v128) = Host.scatterAdd scatter_S256x128_S262144x1_S262144x128_1_0_0_1 (after ops V (Proc.devRef .tc main_v126)) (after ops V (Proc.devRef .tc main_v127)) (after ops V (Proc.devRef .tc main_v58)) :=
  HostRead.ternary_at ops_outs V 256 main_v126 main_v127 main_v58 main_v128 _ _ _ _ _ rfl (later (k := 256) rfl) (earlier (j := 254) rfl (by decide)) (earlier (j := 255) rfl (by decide)) (earlier (j := 103) rfl (by decide))

theorem at_main_cst_34 : after ops V (Proc.devRef .tc main_cst_34) = constant S_ .f32 0x00000000#32 :=
  HostRead.nullary_at ops_outs V 257 main_cst_34 _ _ rfl (later (k := 257) rfl)

theorem at_main_v129 : after ops V (Proc.devRef .tc main_v129) = broadcastInDim S256x128 ![] bcast_S_S256x128 (after ops V (Proc.devRef .tc main_cst_34)) :=
  HostRead.unary_at ops_outs V 258 main_cst_34 main_v129 _ _ _ rfl (later (k := 258) rfl) (earlier (j := 257) rfl (by decide))

theorem at_main_v130 : after ops V (Proc.devRef .tc main_v130) = broadcastInDim S131072x1 ![0] bcast_S131072_S131072x1_0 (after ops V (Proc.devRef .tc main_arg16)) :=
  HostRead.unary_at ops_outs V 259 main_arg16 main_v130 _ _ _ rfl (later (k := 259) rfl) (input arg16_input 259)

theorem at_main_v131 : after ops V (Proc.devRef .tc main_v131) = Host.scatterAdd scatter_S256x128_S131072x1_S131072x128_1_0_0_1 (after ops V (Proc.devRef .tc main_v129)) (after ops V (Proc.devRef .tc main_v130)) (after ops V (Proc.devRef .tc main_v122)) :=
  HostRead.ternary_at ops_outs V 260 main_v129 main_v130 main_v122 main_v131 _ _ _ _ _ rfl (later (k := 260) rfl) (earlier (j := 258) rfl (by decide)) (earlier (j := 259) rfl (by decide)) (earlier (j := 248) rfl (by decide))

theorem at_main_v132 : after ops V (Proc.devRef .tc main_v132) = concatenate S256x512 1 [⟨S256x128, (after ops V (Proc.devRef .tc main_arg2))⟩, ⟨S256x128, (after ops V (Proc.devRef .tc main_v125))⟩, ⟨S256x128, (after ops V (Proc.devRef .tc main_v128))⟩, ⟨S256x128, (after ops V (Proc.devRef .tc main_v131))⟩] concatenates_S256x128_S256x128_S256x128_S256x128_S256x512_d1 :=
  HostRead.nary_at ops_outs V 261 ![main_arg2, main_v125, main_v128, main_v131] main_v132 _ _ _ rfl (later (k := 261) rfl)
    (by intro i; fin_cases i; exacts [input arg2_input 261, earlier (j := 252) rfl (by decide), earlier (j := 256) rfl (by decide), earlier (j := 260) rfl (by decide)])

theorem at_main_v133 : after ops V (Proc.devRef .tc main_v133) = Host.dotGeneral dot_S256x512_S512x128_S256x128_1_0_0_1_n_n none (after ops V (Proc.devRef .tc main_v132)) (after ops V (Proc.devRef .tc main_arg10)) :=
  HostRead.binary_at ops_outs V 262 main_v132 main_arg10 main_v133 _ _ _ _ rfl (later (k := 262) rfl) (earlier (j := 261) rfl (by decide)) (input arg10_input 262)

theorem at_main_v134 : after ops V (Proc.devRef .tc main_v134) = broadcastInDim S1x128 ![1] bcast_S128_S1x128_1 (after ops V (Proc.devRef .tc main_arg11)) :=
  HostRead.unary_at ops_outs V 263 main_arg11 main_v134 _ _ _ rfl (later (k := 263) rfl) (input arg11_input 263)

theorem at_main_v135 : after ops V (Proc.devRef .tc main_v135) = broadcastInDim S256x128 ![0, 1] bcast_S1x128_S256x128_0_1 (after ops V (Proc.devRef .tc main_v134)) :=
  HostRead.unary_at ops_outs V 264 main_v134 main_v135 _ _ _ rfl (later (k := 264) rfl) (earlier (j := 263) rfl (by decide))

theorem at_main_v136 : after ops V (Proc.devRef .tc main_v136) = addf (after ops V (Proc.devRef .tc main_v133)) (after ops V (Proc.devRef .tc main_v135)) :=
  HostRead.binary_at ops_outs V 265 main_v133 main_v135 main_v136 _ _ _ _ rfl (later (k := 265) rfl) (earlier (j := 262) rfl (by decide)) (earlier (j := 264) rfl (by decide))

theorem at_main_call16_cst : after ops V (Proc.devRef .tc main_call16_cst) = constant S_ .f32 0x00000000#32 :=
  (HostRead.nullary_at ops_outs V 266 main_call16_cst _ _ rfl (later (k := 266) rfl)).trans (cast_elim _ _)

theorem at_main_call16_v0 : after ops V (Proc.devRef .tc main_call16_v0) = broadcastInDim S256x128 ![] bcast_S_S256x128 (after ops V (Proc.devRef .tc main_call16_cst)) := by
  have h := (HostRead.unary_at ops_outs V 267 main_call16_cst main_call16_v0 _ _ _ rfl (later (k := 267) rfl) (earlier (j := 266) rfl (by decide))).trans (cast_elim _ _)
  rw [show (main_call16.cst).ofBuf (after ops V (Proc.devRef .tc main_call16_cst)) = (after ops V (Proc.devRef .tc main_call16_cst)) from cast_elim _ _] at h
  exact h

theorem at_main_v137 : after ops V (Proc.devRef .tc main_v137) = maximumf (after ops V (Proc.devRef .tc main_v136)) (after ops V (Proc.devRef .tc main_call16_v0)) := by
  have h := (HostRead.binary_at ops_outs V 268 main_v136 main_call16_v0 main_v137 _ _ _ _ rfl (later (k := 268) rfl) (earlier (j := 265) rfl (by decide)) (earlier (j := 267) rfl (by decide))).trans (cast_elim _ _)
  rw [show ((TRef.of main_v136 : TRef sig ⟨S256x128, .f32⟩)).ofBuf (after ops V (Proc.devRef .tc main_v136)) = (after ops V (Proc.devRef .tc main_v136)) from cast_elim _ _,
    show (main_call16.v0).ofBuf (after ops V (Proc.devRef .tc main_call16_v0)) = (after ops V (Proc.devRef .tc main_call16_v0)) from cast_elim _ _] at h
  exact h

end Cert.ReferenceIdeal.HandRun

end
-- ==== Proof.KCross.lean ====
/-
  What a pipelined region leaves alone.

  Each of the four regions reads its input arrays block by block and writes only its output array, so every other
  buffer — the region's own inputs included — holds after the region what it held before.
-/
import proofs.«134187_j30227979829536_1_alg».proof.Proof.Gen.KernelIdeal.Frame

set_option maxRecDepth 16384

noncomputable section

namespace Cert.KernelIdeal.Cross

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

set_option maxHeartbeats 4000000 in
/-- Region 0 keeps every buffer but its output array: an input window's array is only read, and no other buffer is
    touched. -/
theorem cross0 (c : Dev nD) (b : Ref sig .tc) (hb : b ≠ main_v60) :
    W10 m ρ c (Proc.devRef .tc b) = W9 m ρ c (Proc.devRef .tc b) := by
  by_cases h : ∀ w, Pipeline.arrRef spec0 w ≠ b
  · exact W10_of_ne m ρ c b h
  · push_neg at h
    obtain ⟨w, rfl⟩ := h
    match w with
    | ⟨0, _⟩ => exact (W10_arr m ρ c 0).trans (((dat0 (V9 m ρ) c).arrAt_in 0 rfl _).trans (A_eq0 (V9 m ρ) c 0))
    | ⟨1, _⟩ => exact (W10_arr m ρ c 1).trans (((dat0 (V9 m ρ) c).arrAt_in 1 rfl _).trans (A_eq0 (V9 m ρ) c 1))
    | ⟨2, _⟩ => exact (W10_arr m ρ c 2).trans (((dat0 (V9 m ρ) c).arrAt_in 2 rfl _).trans (A_eq0 (V9 m ρ) c 2))
    | ⟨3, _⟩ => exact (W10_arr m ρ c 3).trans (((dat0 (V9 m ρ) c).arrAt_in 3 rfl _).trans (A_eq0 (V9 m ρ) c 3))
    | ⟨4, _⟩ => exact (W10_arr m ρ c 4).trans (((dat0 (V9 m ρ) c).arrAt_in 4 rfl _).trans (A_eq0 (V9 m ρ) c 4))
    | ⟨5, _⟩ => exact (W10_arr m ρ c 5).trans (((dat0 (V9 m ρ) c).arrAt_in 5 rfl _).trans (A_eq0 (V9 m ρ) c 5))
    | ⟨6, _⟩ => exact (W10_arr m ρ c 6).trans (((dat0 (V9 m ρ) c).arrAt_in 6 rfl _).trans (A_eq0 (V9 m ρ) c 6))
    | ⟨7, _⟩ => exact (W10_arr m ρ c 7).trans (((dat0 (V9 m ρ) c).arrAt_in 7 rfl _).trans (A_eq0 (V9 m ρ) c 7))
    | ⟨8, _⟩ => exact (W10_arr m ρ c 8).trans (((dat0 (V9 m ρ) c).arrAt_in 8 rfl _).trans (A_eq0 (V9 m ρ) c 8))
    | ⟨9, _⟩ => exact (W10_arr m ρ c 9).trans (((dat0 (V9 m ρ) c).arrAt_in 9 rfl _).trans (A_eq0 (V9 m ρ) c 9))
    | ⟨10, _⟩ => exact (W10_arr m ρ c 10).trans (((dat0 (V9 m ρ) c).arrAt_in 10 rfl _).trans (A_eq0 (V9 m ρ) c 10))
    | ⟨11, _⟩ => exact (W10_arr m ρ c 11).trans (((dat0 (V9 m ρ) c).arrAt_in 11 rfl _).trans (A_eq0 (V9 m ρ) c 11))
    | ⟨12, _⟩ => exact (W10_arr m ρ c 12).trans (((dat0 (V9 m ρ) c).arrAt_in 12 rfl _).trans (A_eq0 (V9 m ρ) c 12))
    | ⟨13, _⟩ => exact absurd rfl hb
    | ⟨n + 14, hn⟩ => exact absurd hn (by omega)

set_option maxHeartbeats 4000000 in
/-- Region 1 keeps every buffer but its output array: an input window's array is only read, and no other buffer is
    touched. -/
theorem cross1 (c : Dev nD) (b : Ref sig .tc) (hb : b ≠ main_v89) :
    W20 m ρ c (Proc.devRef .tc b) = W19 m ρ c (Proc.devRef .tc b) := by
  by_cases h : ∀ w, Pipeline.arrRef spec1 w ≠ b
  · exact W20_of_ne m ρ c b h
  · push_neg at h
    obtain ⟨w, rfl⟩ := h
    match w with
    | ⟨0, _⟩ => exact (W20_arr m ρ c 0).trans (((dat1 (V19 m ρ) c).arrAt_in 0 rfl _).trans (A_eq1 (V19 m ρ) c 0))
    | ⟨1, _⟩ => exact (W20_arr m ρ c 1).trans (((dat1 (V19 m ρ) c).arrAt_in 1 rfl _).trans (A_eq1 (V19 m ρ) c 1))
    | ⟨2, _⟩ => exact (W20_arr m ρ c 2).trans (((dat1 (V19 m ρ) c).arrAt_in 2 rfl _).trans (A_eq1 (V19 m ρ) c 2))
    | ⟨3, _⟩ => exact (W20_arr m ρ c 3).trans (((dat1 (V19 m ρ) c).arrAt_in 3 rfl _).trans (A_eq1 (V19 m ρ) c 3))
    | ⟨4, _⟩ => exact (W20_arr m ρ c 4).trans (((dat1 (V19 m ρ) c).arrAt_in 4 rfl _).trans (A_eq1 (V19 m ρ) c 4))
    | ⟨5, _⟩ => exact (W20_arr m ρ c 5).trans (((dat1 (V19 m ρ) c).arrAt_in 5 rfl _).trans (A_eq1 (V19 m ρ) c 5))
    | ⟨6, _⟩ => exact (W20_arr m ρ c 6).trans (((dat1 (V19 m ρ) c).arrAt_in 6 rfl _).trans (A_eq1 (V19 m ρ) c 6))
    | ⟨7, _⟩ => exact (W20_arr m ρ c 7).trans (((dat1 (V19 m ρ) c).arrAt_in 7 rfl _).trans (A_eq1 (V19 m ρ) c 7))
    | ⟨8, _⟩ => exact (W20_arr m ρ c 8).trans (((dat1 (V19 m ρ) c).arrAt_in 8 rfl _).trans (A_eq1 (V19 m ρ) c 8))
    | ⟨9, _⟩ => exact absurd rfl hb
    | ⟨n + 10, hn⟩ => exact absurd hn (by omega)

set_option maxHeartbeats 4000000 in
/-- Region 2 keeps every buffer but its output array: an input window's array is only read, and no other buffer is
    touched. -/
theorem cross2 (c : Dev nD) (b : Ref sig .tc) (hb : b ≠ main_v118) :
    W30 m ρ c (Proc.devRef .tc b) = W29 m ρ c (Proc.devRef .tc b) := by
  by_cases h : ∀ w, Pipeline.arrRef spec2 w ≠ b
  · exact W30_of_ne m ρ c b h
  · push_neg at h
    obtain ⟨w, rfl⟩ := h
    match w with
    | ⟨0, _⟩ => exact (W30_arr m ρ c 0).trans (((dat2 (V29 m ρ) c).arrAt_in 0 rfl _).trans (A_eq2 (V29 m ρ) c 0))
    | ⟨1, _⟩ => exact (W30_arr m ρ c 1).trans (((dat2 (V29 m ρ) c).arrAt_in 1 rfl _).trans (A_eq2 (V29 m ρ) c 1))
    | ⟨2, _⟩ => exact (W30_arr m ρ c 2).trans (((dat2 (V29 m ρ) c).arrAt_in 2 rfl _).trans (A_eq2 (V29 m ρ) c 2))
    | ⟨3, _⟩ => exact (W30_arr m ρ c 3).trans (((dat2 (V29 m ρ) c).arrAt_in 3 rfl _).trans (A_eq2 (V29 m ρ) c 3))
    | ⟨4, _⟩ => exact (W30_arr m ρ c 4).trans (((dat2 (V29 m ρ) c).arrAt_in 4 rfl _).trans (A_eq2 (V29 m ρ) c 4))
    | ⟨5, _⟩ => exact (W30_arr m ρ c 5).trans (((dat2 (V29 m ρ) c).arrAt_in 5 rfl _).trans (A_eq2 (V29 m ρ) c 5))
    | ⟨6, _⟩ => exact (W30_arr m ρ c 6).trans (((dat2 (V29 m ρ) c).arrAt_in 6 rfl _).trans (A_eq2 (V29 m ρ) c 6))
    | ⟨7, _⟩ => exact (W30_arr m ρ c 7).trans (((dat2 (V29 m ρ) c).arrAt_in 7 rfl _).trans (A_eq2 (V29 m ρ) c 7))
    | ⟨8, _⟩ => exact (W30_arr m ρ c 8).trans (((dat2 (V29 m ρ) c).arrAt_in 8 rfl _).trans (A_eq2 (V29 m ρ) c 8))
    | ⟨9, _⟩ => exact absurd rfl hb
    | ⟨n + 10, hn⟩ => exact absurd hn (by omega)

set_option maxHeartbeats 4000000 in
/-- Region 3 keeps every buffer but its output array: an input window's array is only read, and no other buffer is
    touched. -/
theorem cross3 (c : Dev nD) (b : Ref sig .tc) (hb : b ≠ main_v135) :
    W34 m ρ c (Proc.devRef .tc b) = W33 m ρ c (Proc.devRef .tc b) := by
  by_cases h : ∀ w, Pipeline.arrRef spec3 w ≠ b
  · exact W34_of_ne m ρ c b h
  · push_neg at h
    obtain ⟨w, rfl⟩ := h
    match w with
    | ⟨0, _⟩ => exact (W34_arr m ρ c 0).trans (((dat3 (V33 m ρ) c).arrAt_in 0 rfl _).trans (A_eq3 (V33 m ρ) c 0))
    | ⟨1, _⟩ => exact (W34_arr m ρ c 1).trans (((dat3 (V33 m ρ) c).arrAt_in 1 rfl _).trans (A_eq3 (V33 m ρ) c 1))
    | ⟨2, _⟩ => exact (W34_arr m ρ c 2).trans (((dat3 (V33 m ρ) c).arrAt_in 2 rfl _).trans (A_eq3 (V33 m ρ) c 2))
    | ⟨3, _⟩ => exact (W34_arr m ρ c 3).trans (((dat3 (V33 m ρ) c).arrAt_in 3 rfl _).trans (A_eq3 (V33 m ρ) c 3))
    | ⟨4, _⟩ => exact (W34_arr m ρ c 4).trans (((dat3 (V33 m ρ) c).arrAt_in 4 rfl _).trans (A_eq3 (V33 m ρ) c 4))
    | ⟨5, _⟩ => exact (W34_arr m ρ c 5).trans (((dat3 (V33 m ρ) c).arrAt_in 5 rfl _).trans (A_eq3 (V33 m ρ) c 5))
    | ⟨6, _⟩ => exact (W34_arr m ρ c 6).trans (((dat3 (V33 m ρ) c).arrAt_in 6 rfl _).trans (A_eq3 (V33 m ρ) c 6))
    | ⟨7, _⟩ => exact (W34_arr m ρ c 7).trans (((dat3 (V33 m ρ) c).arrAt_in 7 rfl _).trans (A_eq3 (V33 m ρ) c 7))
    | ⟨8, _⟩ => exact (W34_arr m ρ c 8).trans (((dat3 (V33 m ρ) c).arrAt_in 8 rfl _).trans (A_eq3 (V33 m ρ) c 8))
    | ⟨9, _⟩ => exact absurd rfl hb
    | ⟨n + 10, hn⟩ => exact absurd hn (by omega)

end Cert.KernelIdeal.Cross

end
-- ==== Proof.LibHostTyped.lean ====
/-
  A line of host operations in which every buffer is written once: the operations of a module-local function.

  Such an operation names its buffers through typed references and moves contents between a buffer's own type and the
  value's type along the equation of the two. Read at the valuation after the whole line, the result buffer holds the
  operation's function of what its operand buffers hold — stated with heterogeneous equality, so that at literal
  references, where the two types coincide by computation, the transports never have to be opened.
-/
import proofs.«134187_j30227979829536_1_alg».proof.Proof.LibHostOnce

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}
variable {Tx Ta Tb Tc Ty : BufTy}

/-- A constant into a typed reference's buffer. -/
theorem tnullary_at (h : Outs l ys) (V : Valuation τ sig Val) (k : Nat) (y : TRef sig Ty) (v : Ty.Contents Val)
    (hk : l[k]? = some (TRef.nullary y v)) (hy' : y.ref ∉ ys.drop (k + 1)) :
    HEq (after l V (Proc.devRef .tc y.ref)) v := by
  rw [after_at h k _ y.ref hk hy' V]
  exact tnullary_heq y v _

/-- A one-operand operation over typed references. -/
theorem tunary_at (h : Outs l ys) (V : Valuation τ sig Val) (k : Nat) (x : TRef sig Tx) (y : TRef sig Ty)
    (f : Tx.Contents Val → Ty.Contents Val)
    (hk : l[k]? = some (TRef.unary x y f)) (hy' : y.ref ∉ ys.drop (k + 1)) (hx' : x.ref ∉ ys.drop k)
    (vx : Tx.Contents Val) (hx : HEq (after l V (Proc.devRef .tc x.ref)) vx) :
    HEq (after l V (Proc.devRef .tc y.ref)) (f vx) := by
  rw [after_at h k _ y.ref hk hy' V]
  exact tunary_heq x y f _ vx (by rw [← after_take h k x.ref hx' V]; exact hx)

/-- A two-operand operation over typed references. -/
theorem tbinary_at (h : Outs l ys) (V : Valuation τ sig Val) (k : Nat) (a : TRef sig Ta) (b : TRef sig Tb) (y : TRef sig Ty)
    (f : Ta.Contents Val → Tb.Contents Val → Ty.Contents Val)
    (hk : l[k]? = some (TRef.binary a b y f)) (hy' : y.ref ∉ ys.drop (k + 1)) (ha' : a.ref ∉ ys.drop k) (hb' : b.ref ∉ ys.drop k)
    (va : Ta.Contents Val) (vb : Tb.Contents Val)
    (ha : HEq (after l V (Proc.devRef .tc a.ref)) va) (hb : HEq (after l V (Proc.devRef .tc b.ref)) vb) :
    HEq (after l V (Proc.devRef .tc y.ref)) (f va vb) := by
  rw [after_at h k _ y.ref hk hy' V]
  exact tbinary_heq a b y f _ va vb (by rw [← after_take h k a.ref ha' V]; exact ha) (by rw [← after_take h k b.ref hb' V]; exact hb)

/-- A three-operand operation over typed references. -/
theorem tternary_at (h : Outs l ys) (V : Valuation τ sig Val) (k : Nat) (c : TRef sig Tc) (a : TRef sig Ta) (b : TRef sig Tb)
    (y : TRef sig Ty) (f : Tc.Contents Val → Ta.Contents Val → Tb.Contents Val → Ty.Contents Val)
    (hk : l[k]? = some (TRef.ternary c a b y f)) (hy' : y.ref ∉ ys.drop (k + 1))
    (hc' : c.ref ∉ ys.drop k) (ha' : a.ref ∉ ys.drop k) (hb' : b.ref ∉ ys.drop k)
    (vc : Tc.Contents Val) (va : Ta.Contents Val) (vb : Tb.Contents Val)
    (hc : HEq (after l V (Proc.devRef .tc c.ref)) vc) (ha : HEq (after l V (Proc.devRef .tc a.ref)) va)
    (hb : HEq (after l V (Proc.devRef .tc b.ref)) vb) :
    HEq (after l V (Proc.devRef .tc y.ref)) (f vc va vb) := by
  rw [after_at h k _ y.ref hk hy' V]
  exact tternary_heq c a b y f _ vc va vb (by rw [← after_take h k c.ref hc' V]; exact hc)
    (by rw [← after_take h k a.ref ha' V]; exact ha) (by rw [← after_take h k b.ref hb' V]; exact hb)

end HostRead
-- ==== Proof.KHost0.lean ====
/-
  Host stage 0 of the idealized kernel read as a system of equations.

  The operations between two pipelined regions (or before the first) form one line in which every buffer is written
  once. After the whole line each written buffer holds its operation's function of what the operand buffers hold after
  the whole line, and a buffer the line does not write holds what it held before.
-/
import proofs.«134187_j30227979829536_1_alg».proof.Proof.Gen.KernelIdeal.Launch
import proofs.«134187_j30227979829536_1_alg».proof.Proof.LibHostTyped

set_option maxRecDepth 16384

noncomputable section

namespace Cert.KernelIdeal.HostStage0

open Idealize.ShloMosaic Idealize.ShloMosaic.StableHlo Idealize.ShloMosaic.TcCoe Cert.KernelIdeal Cert.KernelIdeal.Gen

variable {F : FTy → Type} [FloatOps F]

/-- The stage's operations, in program order. -/
abbrev line : List (HloOp τ sig (Elt F)) := hostOps0 ++ (hostOps0_1 ++ (hostOps0_2 ++ (hostOps0_3 ++ (hostOps0_4 ++ (hostOps0_5 ++ (hostOps0_6 ++ (hostOps0_7 ++ (hostOps0_8))))))))

/-- The buffer each operation writes, in the same order. -/
abbrev outs : List (Ref sig .tc) :=
  [main_v0, main_v1, main_v2, main_v3, main_v4, main_v5, main_v6, main_v7, main_c, main_v8, main_v9, main_c_0, main_v10, main_v11, main_v12, main_v13, main_v14, main_c_1, main_v15, main_v16, main_c_2, main_v17, main_v18, main_v19, main_v20, main_v21, main_c_3, main_v22, main_v23, main_c_4, main_v24, main_v25, main_v26, main_v27, main_v28, main_c_5, main_v29, main_v30, main_c_6, main_v31, main_v32, main_v33, main_v34, main_v35, main_call0_v0, main_call0_v1, main_v36, main_c_7, main_v37, main_c_8, main_v38, main_call1_call0_c, main_call1_call0_v0, main_v39, main_c_9, main_v40, main_c_10, main_v41, main_v42, main_c_11, main_v43, main_v44, main_v45, main_v46, main_c_12, main_v47, main_v48, main_call2_call0_c, main_call2_call0_v0, main_v49, main_c_13, main_v50, main_v51, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v52, main_v53, main_v54, main_v55, main_v56, main_v57, main_v58, main_v59]

theorem outs_nodup : outs.Nodup := by decide

theorem line_outs : HostRead.Outs (τ := τ) (line (F := F)) outs :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

-- the window sums, reductions, gathers and scatters are folds over an operand's elements; no equation below looks inside one
attribute [local irreducible] Host.reduceWindow Host.reduce Host.gather Host.scatter Host.scatterAdd

variable (V : Valuation τ sig (Elt F))

theorem at_main_v0 : after line V (Proc.devRef .tc main_v0) = (((extractStridedSlice S1x262144 ![0, 0] · slices_S2x262144_S1x262144_0_0) : (⟨S2x262144, .i32⟩ : BufTy).Contents (Elt F) → (⟨S1x262144, .i32⟩ : BufTy).Contents (Elt F))) (after line V (Proc.devRef .tc main_arg12)) :=
  HostRead.unary_at line_outs V 0 main_arg12 main_v0 _ _ _ rfl (HostRead.not_mem_drop_of_lt outs_nodup (j := 0) (k := 1) (x := main_v0) rfl (by omega)) (fun h => absurd (List.mem_of_mem_drop h) (by decide))

theorem at_main_v1 : after line V (Proc.devRef .tc main_v1) = fun i => shapeCast main_v1.ty.shape (after line V (Proc.devRef .tc main_v0)) shapeCasts_S1x262144_S262144 i :=
  HostRead.reshape_at line_outs V 1 main_v0 main_v1 rfl shapeCasts_S1x262144_S262144 _ _ rfl (HostRead.not_mem_drop_of_lt outs_nodup (j := 1) (k := 2) (x := main_v1) rfl (by omega)) (HostRead.not_mem_drop_of_lt outs_nodup (j := 0) (k := 1) (x := main_v0) rfl (by omega))

theorem at_main_v2 : after line V (Proc.devRef .tc main_v2) = (((extractStridedSlice S1x262144 ![1, 0] · slices_S2x262144_S1x262144_1_0) : (⟨S2x262144, .i32⟩ : BufTy).Contents (Elt F) → (⟨S1x262144, .i32⟩ : BufTy).Contents (Elt F))) (after line V (Proc.devRef .tc main_arg12)) :=
  HostRead.unary_at line_outs V 2 main_arg12 main_v2 _ _ _ rfl (HostRead.not_mem_drop_of_lt outs_nodup (j := 2) (k := 3) (x := main_v2) rfl (by omega)) (fun h => absurd (List.mem_of_mem_drop h) (by decide))

theorem at_main_v3 : after line V (Proc.devRef .tc main_v3) = fun i => shapeCast main_v3.ty.shape (after line V (Proc.devRef .tc main_v2)) shapeCasts_S1x262144_S262144 i :=
  HostRead.reshape_at line_outs V 3 main_v2 main_v3 rfl shapeCasts_S1x262144_S262144 _ _ rfl (HostRead.not_mem_drop_of_lt outs_nodup (j := 3) (k := 4) (x := main_v3) rfl (by omega)) (HostRead.not_mem_drop_of_lt outs_nodup (j := 2) (k := 3) (x := main_v2) rfl (by omega))

theorem at_main_v4 : after line V (Proc.devRef .tc main_v4) = (((extractStridedSlice S1x262144 ![0, 0] · slices_S2x262144_S1x262144_0_0) : (⟨S2x262144, .i32⟩ : BufTy).Contents (Elt F) → (⟨S1x262144, .i32⟩ : BufTy).Contents (Elt F))) (after line V (Proc.devRef .tc main_arg13)) :=
  HostRead.unary_at line_outs V 4 main_arg13 main_v4 _ _ _ rfl (HostRead.not_mem_drop_of_lt outs_nodup (j := 4) (k := 5) (x := main_v4) rfl (by omega)) (fun h => absurd (List.mem_of_mem_drop h) (by decide))

theorem at_main_v5 : after line V (Proc.devRef .tc main_v5) = fun i => shapeCast main_v5.ty.shape (after line V (Proc.devRef .tc main_v4)) shapeCasts_S1x262144_S262144 i :=
  HostRead.reshape_at line_outs V 5 main_v4 main_v5 rfl shapeCasts_S1x262144_S262144 _ _ rfl (HostRead.not_mem_drop_of_lt outs_nodup (j := 5) (k := 6) (x := main_v5) rfl (by omega)) (HostRead.not_mem_drop_of_lt outs_nodup (j := 4) (k := 5) (x := main_v4) rfl (by omega))

theorem at_main_v6 : after line V (Proc.devRef .tc main_v6) = (((extractStridedSlice S1x262144 ![1, 0] · slices_S2x262144_S1x262144_1_0) : (⟨S2x262144, .i32⟩ : BufTy).Contents (Elt F) → (⟨S1x262144, .i32⟩ : BufTy).Contents (Elt F))) (after line V (Proc.devRef .tc main_arg13)) :=
  HostRead.unary_at line_outs V 6 main_arg13 main_v6 _ _ _ rfl (HostRead.not_mem_drop_of_lt outs_nodup (j := 6) (k := 7) (x := main_v6) rfl (by omega)) (fun h => absurd (List.mem_of_mem_drop h) (by decide))

theorem at_main_v7 : after line V (Proc.devRef .tc main_v7) = fun i => shapeCast main_v7.ty.shape (after line V (Proc.devRef .tc main_v6)) shapeCasts_S1x262144_S262144 i :=
  HostRead.reshape_at line_outs V 7 main_v6 main_v7 rfl shapeCasts_S1x262144_S262144 _ _ rfl (HostRead.not_mem_drop_of_lt outs_nodup (j := 7) (k := 8) (x := main_v7) rfl (by omega)) (HostRead.not_mem_drop_of_lt outs_nodup (j := 6) (k := 7) (x := main_v6) rfl (by omega))

theorem at_main_c : after line V (Proc.devRef .tc main_c) = (constantI S_ 32 0#32) :=
  HostRead.nullary_at line_outs V 8 main_c _ _ rfl (HostRead.not_mem_drop_of_lt outs_nodup (j := 8) (k := 9) (x := main_c) rfl (by omega))

theorem at_main_v8 : after line V (Proc.devRef .tc main_v8) = ((broadcastInDim S262144 ![] bcast_S_S262144 : (⟨S_, .i32⟩ : BufTy).Contents (Elt F) → (⟨S262144, .i32⟩ : BufTy).Contents (Elt F))) (after line V (Proc.devRef .tc main_c)) :=
  HostRead.unary_at line_outs V 9 main_c main_v8 _ _ _ rfl (HostRead.not_mem_drop_of_lt outs_nodup (j := 9) (k := 10) (x := main_v8) rfl (by omega)) (HostRead.not_mem_drop_of_lt outs_nodup (j := 8) (k := 9) (x := main_c) rfl (by omega))

theorem at_main_v9 : after line V (Proc.devRef .tc main_v9) = ((cmpi .slt : (⟨S262144, .i32⟩ : BufTy).Contents (Elt F) → (⟨S262144, .i32⟩ : BufTy).Contents (Elt F) → (⟨S262144, .i1⟩ : BufTy).Contents (Elt F))) (after line V (Proc.devRef .tc main_v1)) (after line V (Proc.devRef .tc main_v8)) :=
  HostRead.binary_at line_outs V 10 main_v1 main_v8 main_v9 _ _ _ _ rfl (HostRead.not_mem_drop_of_lt outs_nodup (j := 10) (k := 11) (x := main_v9) rfl (by omega)) (HostRead.not_mem_drop_of_lt outs_nodup (j := 1) (k := 10) (x := main_v1) rfl (by omega)) (HostRead.not_mem_drop_of_lt outs_nodup (j := 9) (k := 10) (x := main_v8) rfl (by omega))

theorem at_main_c_0 : after line V (Proc.devRef .tc main_c_0) = (constantI S_ 32 131072#32) :=
  HostRead.nullary_at line_outs V 11 main_c_0 _ _ rfl (HostRead.not_mem_drop_of_lt outs_nodup (j := 11) (k := 12) (x := main_c_0) rfl (by omega))

theorem at_main_v10 : after line V (Proc.devRef .tc main_v10) = ((broadcastInDim S262144 ![] bcast_S_S262144 : (⟨S_, .i32⟩ : BufTy).Contents (Elt F) → (⟨S262144, .i32⟩ : BufTy).Contents (Elt F))) (after line V (Proc.devRef .tc main_c_0)) :=
  HostRead.unary_at line_outs V 12 main_c_0 main_v10 _ _ _ rfl (HostRead.not_mem_drop_of_lt outs_nodup (j := 12) (k := 13) (x := main_v10) rfl (by omega)) (HostRead.not_mem_drop_of_lt outs_nodup (j := 11) (k := 12) (x := main_c_0) rfl (by omega))

theorem at_main_v11 : after line V (Proc.devRef .tc main_v11) = ((addi : (⟨S262144, .i32⟩ : BufTy).Contents (Elt F) → (⟨S262144, .i32⟩ : BufTy).Contents (Elt F) → (⟨S262144, .i32⟩ : BufTy).Contents (Elt F))) (after line V (Proc.devRef .tc main_v1)) (after line V (Proc.devRef .tc main_v10)) :=
  HostRead.binary_at line_outs V 13 main_v1 main_v10 main_v11 _ _ _ _ rfl (HostRead.not_mem_drop_of_lt outs_nodup (j := 13) (k := 14) (x := main_v11) rfl (by omega)) (HostRead.not_mem_drop_of_lt outs_nodup (j := 1) (k := 13) (x := main_v1) rfl (by omega)) (HostRead.not_mem_drop_of_lt outs_nodup (j := 12) (k := 13) (x := main_v10) rfl (by omega))

theorem at_main_v12 : after line V (Proc.devRef .tc main_v12) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (after line V (Proc.devRef .tc main_v9)) (after line V (Proc.devRef .tc main_v11)) (after line V (Proc.devRef .tc main_v1)) :=
  HostRead.ternary_at line_outs V 14 main_v9 main_v11 main_v1 main_v12 _ _ _ _ _ rfl (HostRead.not_mem_drop_of_lt outs_nodup (j := 14) (k := 15) (x := main_v12) rfl (by omega)) (HostRead.not_mem_drop_of_lt outs_nodup (j := 10) (k := 14) (x := main_v9) rfl (by omega)) (HostRead.not_mem_drop_of_lt outs_nodup (j := 13) (k := 14) (x := main_v11) rfl (by omega)) (HostRead.not_mem_drop_of_lt outs_nodup (j := 1) (k := 14) (x := main_v1) rfl (by omega))

theorem at_main_v13 : after line V (Proc.devRef .tc main_v13) = ((broadcastInDim S262144x1 ![0] bcast_S262144_S262144x1_0 : (⟨S262144, .i32⟩ : BufTy).Contents (Elt F) → (⟨S262144x1, .i32⟩ : BufTy).Contents (Elt F))) (after line V (Proc.devRef .tc main_v12)) :=
  HostRead.unary_at line_outs V 15 main_v12 main_v13 _ _ _ rfl (HostRead.not_mem_drop_of_lt outs_nodup (j := 15) (k := 16) (x := main_v13) rfl (by omega)) (HostRead.not_mem_drop_of_lt outs_nodup (j := 14) (k := 15) (x := main_v12) rfl (by omega))

theorem at_main_v14 : after line V (Proc.devRef .tc main_v14) = (((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F))) (after line V (Proc.devRef .tc main_arg0)) (after line V (Proc.devRef .tc main_v13)) :=
  HostRead.binary_at line_outs V 16 main_arg0 main_v13 main_v14 _ _ _ _ rfl (HostRead.not_mem_drop_of_lt outs_nodup (j := 16) (k := 17) (x := main_v14) rfl (by omega)) (fun h => absurd (List.mem_of_mem_drop h) (by decide)) (HostRead.not_mem_drop_of_lt outs_nodup (j := 15) (k := 16) (x := main_v13) rfl (by omega))

theorem at_main_c_1 : after line V (Proc.devRef .tc main_c_1) = (constantI S_ 32 0#32) :=
  HostRead.nullary_at line_outs V 17 main_c_1 _ _ rfl (HostRead.not_mem_drop_of_lt outs_nodup (j := 17) (k := 18) (x := main_c_1) rfl (by omega))

theorem at_main_v15 : after line V (Proc.devRef .tc main_v15) = ((broadcastInDim S262144 ![] bcast_S_S262144 : (⟨S_, .i32⟩ : BufTy).Contents (Elt F) → (⟨S262144, .i32⟩ : BufTy).Contents (Elt F))) (after line V (Proc.devRef .tc main_c_1)) :=
  HostRead.unary_at line_outs V 18 main_c_1 main_v15 _ _ _ rfl (HostRead.not_mem_drop_of_lt outs_nodup (j := 18) (k := 19) (x := main_v15) rfl (by omega)) (HostRead.not_mem_drop_of_lt outs_nodup (j := 17) (k := 18) (x := main_c_1) rfl (by omega))

theorem at_main_v16 : after line V (Proc.devRef .tc main_v16) = ((cmpi .slt : (⟨S262144, .i32⟩ : BufTy).Contents (Elt F) → (⟨S262144, .i32⟩ : BufTy).Contents (Elt F) → (⟨S262144, .i1⟩ : BufTy).Contents (Elt F))) (after line V (Proc.devRef .tc main_v3)) (after line V (Proc.devRef .tc main_v15)) :=
  HostRead.binary_at line_outs V 19 main_v3 main_v15 main_v16 _ _ _ _ rfl (HostRead.not_mem_drop_of_lt outs_nodup (j := 19) (k := 20) (x := main_v16) rfl (by omega)) (HostRead.not_mem_drop_of_lt outs_nodup (j := 3) (k := 19) (x := main_v3) rfl (by omega)) (HostRead.not_mem_drop_of_lt outs_nodup (j := 18) (k := 19) (x := main_v15) rfl (by omega))

theorem at_main_c_2 : after line V (Proc.devRef .tc main_c_2) = (constantI S_ 32 131072#32) :=
  HostRead.nullary_at line_outs V 20 main_c_2 _ _ rfl (HostRead.not_mem_drop_of_lt outs_nodup (j := 20) (k := 21) (x := main_c_2) rfl (by omega))

theorem at_main_v17 : after line V (Proc.devRef .tc main_v17) = ((broadcastInDim S262144 ![] bcast_S_S262144 : (⟨S_, .i32⟩ : BufTy).Contents (Elt F) → (⟨S262144, .i32⟩ : BufTy).Contents (Elt F))) (after line V (Proc.devRef .tc main_c_2)) :=
  HostRead.unary_at line_outs V 21 main_c_2 main_v17 _ _ _ rfl (HostRead.not_mem_drop_of_lt outs_nodup (j := 21) (k := 22) (x := main_v17) rfl (by omega)) (HostRead.not_mem_drop_of_lt outs_nodup (j := 20) (k := 21) (x := main_c_2) rfl (by omega))

theorem at_main_v18 : after line V (Proc.devRef .tc main_v18) = ((addi : (⟨S262144, .i32⟩ : BufTy).Contents (Elt F) → (⟨S262144, .i32⟩ : BufTy).Contents (Elt F) → (⟨S262144, .i32⟩ : BufTy).Contents (Elt F))) (after line V (Proc.devRef .tc main_v3)) (after line V (Proc.devRef .tc main_v17)) :=
  HostRead.binary_at line_outs V 22 main_v3 main_v17 main_v18 _ _ _ _ rfl (HostRead.not_mem_drop_of_lt outs_nodup (j := 22) (k := 23) (x := main_v18) rfl (by omega)) (HostRead.not_mem_drop_of_lt outs_nodup (j := 3) (k := 22) (x := main_v3) rfl (by omega)) (HostRead.not_mem_drop_of_lt outs_nodup (j := 21) (k := 22) (x := main_v17) rfl (by omega))

theorem at_main_v19 : after line V (Proc.devRef .tc main_v19) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (after line V (Proc.devRef .tc main_v16)) (after line V (Proc.devRef .tc main_v18)) (after line V (Proc.devRef .tc main_v3)) :=
  HostRead.ternary_at line_outs V 23 main_v16 main_v18 main_v3 main_v19 _ _ _ _ _ rfl (HostRead.not_mem_drop_of_lt outs_nodup (j := 23) (k := 24) (x := main_v19) rfl (by omega)) (HostRead.not_mem_drop_of_lt outs_nodup (j := 19) (k := 23) (x := main_v16) rfl (by omega)) (HostRead.not_mem_drop_of_lt outs_nodup (j := 22) (k := 23) (x := main_v18) rfl (by omega)) (HostRead.not_mem_drop_of_lt outs_nodup (j := 3) (k := 23) (x := main_v3) rfl (by omega))

theorem at_main_v20 : after line V (Proc.devRef .tc main_v20) = ((broadcastInDim S262144x1 ![0] bcast_S262144_S262144x1_0 : (⟨S262144, .i32⟩ : BufTy).Contents (Elt F) → (⟨S262144x1, .i32⟩ : BufTy).Contents (Elt F))) (after line V (Proc.devRef .tc main_v19)) :=
  HostRead.unary_at line_outs V 24 main_v19 main_v20 _ _ _ rfl (HostRead.not_mem_drop_of_lt outs_nodup (j := 24) (k := 25) (x := main_v20) rfl (by omega)) (HostRead.not_mem_drop_of_lt outs_nodup (j := 23) (k := 24) (x := main_v19) rfl (by omega))

theorem at_main_v21 : after line V (Proc.devRef .tc main_v21) = (((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F))) (after line V (Proc.devRef .tc main_arg0)) (after line V (Proc.devRef .tc main_v20)) :=
  HostRead.binary_at line_outs V 25 main_arg0 main_v20 main_v21 _ _ _ _ rfl (HostRead.not_mem_drop_of_lt outs_nodup (j := 25) (k := 26) (x := main_v21) rfl (by omega)) (fun h => absurd (List.mem_of_mem_drop h) (by decide)) (HostRead.not_mem_drop_of_lt outs_nodup (j := 24) (k := 25) (x := main_v20) rfl (by omega))

theorem at_main_c_3 : after line V (Proc.devRef .tc main_c_3) = (constantI S_ 32 0#32) :=
  HostRead.nullary_at line_outs V 26 main_c_3 _ _ rfl (HostRead.not_mem_drop_of_lt outs_nodup (j := 26) (k := 27) (x := main_c_3) rfl (by omega))

theorem at_main_v22 : after line V (Proc.devRef .tc main_v22) = ((broadcastInDim S262144 ![] bcast_S_S262144 : (⟨S_, .i32⟩ : BufTy).Contents (Elt F) → (⟨S262144, .i32⟩ : BufTy).Contents (Elt F))) (after line V (Proc.devRef .tc main_c_3)) :=
  HostRead.unary_at line_outs V 27 main_c_3 main_v22 _ _ _ rfl (HostRead.not_mem_drop_of_lt outs_nodup (j := 27) (k := 28) (x := main_v22) rfl (by omega)) (HostRead.not_mem_drop_of_lt outs_nodup (j := 26) (k := 27) (x := main_c_3) rfl (by omega))

theorem at_main_v23 : after line V (Proc.devRef .tc main_v23) = ((cmpi .slt : (⟨S262144, .i32⟩ : BufTy).Contents (Elt F) → (⟨S262144, .i32⟩ : BufTy).Contents (Elt F) → (⟨S262144, .i1⟩ : BufTy).Contents (Elt F))) (after line V (Proc.devRef .tc main_v5)) (after line V (Proc.devRef .tc main_v22)) :=
  HostRead.binary_at line_outs V 28 main_v5 main_v22 main_v23 _ _ _ _ rfl (HostRead.not_mem_drop_of_lt outs_nodup (j := 28) (k := 29) (x := main_v23) rfl (by omega)) (HostRead.not_mem_drop_of_lt outs_nodup (j := 5) (k := 28) (x := main_v5) rfl (by omega)) (HostRead.not_mem_drop_of_lt outs_nodup (j := 27) (k := 28) (x := main_v22) rfl (by omega))

theorem at_main_c_4 : after line V (Proc.devRef .tc main_c_4) = (constantI S_ 32 131072#32) :=
  HostRead.nullary_at line_outs V 29 main_c_4 _ _ rfl (HostRead.not_mem_drop_of_lt outs_nodup (j := 29) (k := 30) (x := main_c_4) rfl (by omega))

theorem at_main_v24 : after line V (Proc.devRef .tc main_v24) = ((broadcastInDim S262144 ![] bcast_S_S262144 : (⟨S_, .i32⟩ : BufTy).Contents (Elt F) → (⟨S262144, .i32⟩ : BufTy).Contents (Elt F))) (after line V (Proc.devRef .tc main_c_4)) :=
  HostRead.unary_at line_outs V 30 main_c_4 main_v24 _ _ _ rfl (HostRead.not_mem_drop_of_lt outs_nodup (j := 30) (k := 31) (x := main_v24) rfl (by omega)) (HostRead.not_mem_drop_of_lt outs_nodup (j := 29) (k := 30) (x := main_c_4) rfl (by omega))

theorem at_main_v25 : after line V (Proc.devRef .tc main_v25) = ((addi : (⟨S262144, .i32⟩ : BufTy).Contents (Elt F) → (⟨S262144, .i32⟩ : BufTy).Contents (Elt F) → (⟨S262144, .i32⟩ : BufTy).Contents (Elt F))) (after line V (Proc.devRef .tc main_v5)) (after line V (Proc.devRef .tc main_v24)) :=
  HostRead.binary_at line_outs V 31 main_v5 main_v24 main_v25 _ _ _ _ rfl (HostRead.not_mem_drop_of_lt outs_nodup (j := 31) (k := 32) (x := main_v25) rfl (by omega)) (HostRead.not_mem_drop_of_lt outs_nodup (j := 5) (k := 31) (x := main_v5) rfl (by omega)) (HostRead.not_mem_drop_of_lt outs_nodup (j := 30) (k := 31) (x := main_v24) rfl (by omega))

theorem at_main_v26 : after line V (Proc.devRef .tc main_v26) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (after line V (Proc.devRef .tc main_v23)) (after line V (Proc.devRef .tc main_v25)) (after line V (Proc.devRef .tc main_v5)) :=
  HostRead.ternary_at line_outs V 32 main_v23 main_v25 main_v5 main_v26 _ _ _ _ _ rfl (HostRead.not_mem_drop_of_lt outs_nodup (j := 32) (k := 33) (x := main_v26) rfl (by omega)) (HostRead.not_mem_drop_of_lt outs_nodup (j := 28) (k := 32) (x := main_v23) rfl (by omega)) (HostRead.not_mem_drop_of_lt outs_nodup (j := 31) (k := 32) (x := main_v25) rfl (by omega)) (HostRead.not_mem_drop_of_lt outs_nodup (j := 5) (k := 32) (x := main_v5) rfl (by omega))

theorem at_main_v27 : after line V (Proc.devRef .tc main_v27) = ((broadcastInDim S262144x1 ![0] bcast_S262144_S262144x1_0 : (⟨S262144, .i32⟩ : BufTy).Contents (Elt F) → (⟨S262144x1, .i32⟩ : BufTy).Contents (Elt F))) (after line V (Proc.devRef .tc main_v26)) :=
  HostRead.unary_at line_outs V 33 main_v26 main_v27 _ _ _ rfl (HostRead.not_mem_drop_of_lt outs_nodup (j := 33) (k := 34) (x := main_v27) rfl (by omega)) (HostRead.not_mem_drop_of_lt outs_nodup (j := 32) (k := 33) (x := main_v26) rfl (by omega))

theorem at_main_v28 : after line V (Proc.devRef .tc main_v28) = (((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F))) (after line V (Proc.devRef .tc main_arg3)) (after line V (Proc.devRef .tc main_v27)) :=
  HostRead.binary_at line_outs V 34 main_arg3 main_v27 main_v28 _ _ _ _ rfl (HostRead.not_mem_drop_of_lt outs_nodup (j := 34) (k := 35) (x := main_v28) rfl (by omega)) (fun h => absurd (List.mem_of_mem_drop h) (by decide)) (HostRead.not_mem_drop_of_lt outs_nodup (j := 33) (k := 34) (x := main_v27) rfl (by omega))

theorem at_main_c_5 : after line V (Proc.devRef .tc main_c_5) = (constantI S_ 32 0#32) :=
  HostRead.nullary_at line_outs V 35 main_c_5 _ _ rfl (HostRead.not_mem_drop_of_lt outs_nodup (j := 35) (k := 36) (x := main_c_5) rfl (by omega))

theorem at_main_v29 : after line V (Proc.devRef .tc main_v29) = ((broadcastInDim S262144 ![] bcast_S_S262144 : (⟨S_, .i32⟩ : BufTy).Contents (Elt F) → (⟨S262144, .i32⟩ : BufTy).Contents (Elt F))) (after line V (Proc.devRef .tc main_c_5)) :=
  HostRead.unary_at line_outs V 36 main_c_5 main_v29 _ _ _ rfl (HostRead.not_mem_drop_of_lt outs_nodup (j := 36) (k := 37) (x := main_v29) rfl (by omega)) (HostRead.not_mem_drop_of_lt outs_nodup (j := 35) (k := 36) (x := main_c_5) rfl (by omega))

theorem at_main_v30 : after line V (Proc.devRef .tc main_v30) = ((cmpi .slt : (⟨S262144, .i32⟩ : BufTy).Contents (Elt F) → (⟨S262144, .i32⟩ : BufTy).Contents (Elt F) → (⟨S262144, .i1⟩ : BufTy).Contents (Elt F))) (after line V (Proc.devRef .tc main_v7)) (after line V (Proc.devRef .tc main_v29)) :=
  HostRead.binary_at line_outs V 37 main_v7 main_v29 main_v30 _ _ _ _ rfl (HostRead.not_mem_drop_of_lt outs_nodup (j := 37) (k := 38) (x := main_v30) rfl (by omega)) (HostRead.not_mem_drop_of_lt outs_nodup (j := 7) (k := 37) (x := main_v7) rfl (by omega)) (HostRead.not_mem_drop_of_lt outs_nodup (j := 36) (k := 37) (x := main_v29) rfl (by omega))

theorem at_main_c_6 : after line V (Proc.devRef .tc main_c_6) = (constantI S_ 32 131072#32) :=
  HostRead.nullary_at line_outs V 38 main_c_6 _ _ rfl (HostRead.not_mem_drop_of_lt outs_nodup (j := 38) (k := 39) (x := main_c_6) rfl (by omega))

theorem at_main_v31 : after line V (Proc.devRef .tc main_v31) = ((broadcastInDim S262144 ![] bcast_S_S262144 : (⟨S_, .i32⟩ : BufTy).Contents (Elt F) → (⟨S262144, .i32⟩ : BufTy).Contents (Elt F))) (after line V (Proc.devRef .tc main_c_6)) :=
  HostRead.unary_at line_outs V 39 main_c_6 main_v31 _ _ _ rfl (HostRead.not_mem_drop_of_lt outs_nodup (j := 39) (k := 40) (x := main_v31) rfl (by omega)) (HostRead.not_mem_drop_of_lt outs_nodup (j := 38) (k := 39) (x := main_c_6) rfl (by omega))

theorem at_main_v32 : after line V (Proc.devRef .tc main_v32) = ((addi : (⟨S262144, .i32⟩ : BufTy).Contents (Elt F) → (⟨S262144, .i32⟩ : BufTy).Contents (Elt F) → (⟨S262144, .i32⟩ : BufTy).Contents (Elt F))) (after line V (Proc.devRef .tc main_v7)) (after line V (Proc.devRef .tc main_v31)) :=
  HostRead.binary_at line_outs V 40 main_v7 main_v31 main_v32 _ _ _ _ rfl (HostRead.not_mem_drop_of_lt outs_nodup (j := 40) (k := 41) (x := main_v32) rfl (by omega)) (HostRead.not_mem_drop_of_lt outs_nodup (j := 7) (k := 40) (x := main_v7) rfl (by omega)) (HostRead.not_mem_drop_of_lt outs_nodup (j := 39) (k := 40) (x := main_v31) rfl (by omega))

theorem at_main_v33 : after line V (Proc.devRef .tc main_v33) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (after line V (Proc.devRef .tc main_v30)) (after line V (Proc.devRef .tc main_v32)) (after line V (Proc.devRef .tc main_v7)) :=
  HostRead.ternary_at line_outs V 41 main_v30 main_v32 main_v7 main_v33 _ _ _ _ _ rfl (HostRead.not_mem_drop_of_lt outs_nodup (j := 41) (k := 42) (x := main_v33) rfl (by omega)) (HostRead.not_mem_drop_of_lt outs_nodup (j := 37) (k := 41) (x := main_v30) rfl (by omega)) (HostRead.not_mem_drop_of_lt outs_nodup (j := 40) (k := 41) (x := main_v32) rfl (by omega)) (HostRead.not_mem_drop_of_lt outs_nodup (j := 7) (k := 41) (x := main_v7) rfl (by omega))

theorem at_main_v34 : after line V (Proc.devRef .tc main_v34) = ((broadcastInDim S262144x1 ![0] bcast_S262144_S262144x1_0 : (⟨S262144, .i32⟩ : BufTy).Contents (Elt F) → (⟨S262144x1, .i32⟩ : BufTy).Contents (Elt F))) (after line V (Proc.devRef .tc main_v33)) :=
  HostRead.unary_at line_outs V 42 main_v33 main_v34 _ _ _ rfl (HostRead.not_mem_drop_of_lt outs_nodup (j := 42) (k := 43) (x := main_v34) rfl (by omega)) (HostRead.not_mem_drop_of_lt outs_nodup (j := 41) (k := 42) (x := main_v33) rfl (by omega))

theorem at_main_v35 : after line V (Proc.devRef .tc main_v35) = (((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F))) (after line V (Proc.devRef .tc main_arg3)) (after line V (Proc.devRef .tc main_v34)) :=
  HostRead.binary_at line_outs V 43 main_arg3 main_v34 main_v35 _ _ _ _ rfl (HostRead.not_mem_drop_of_lt outs_nodup (j := 43) (k := 44) (x := main_v35) rfl (by omega)) (fun h => absurd (List.mem_of_mem_drop h) (by decide)) (HostRead.not_mem_drop_of_lt outs_nodup (j := 42) (k := 43) (x := main_v34) rfl (by omega))

theorem at_main_call0_v0 : after line V (Proc.devRef .tc main_call0_v0) = ((extractStridedSlice S1 ![255] · slices_S256_S1_255)) (after line V (Proc.devRef .tc main_arg19)) :=
  eq_of_heq (HostRead.tunary_at line_outs V 44 (.of main_arg19 : StableHlo.TRef sig ⟨S256, .i32⟩) (.of main_call0_v0 : StableHlo.TRef sig ⟨S1, .i32⟩) ((extractStridedSlice S1 ![255] · slices_S256_S1_255)) rfl (HostRead.not_mem_drop_of_lt outs_nodup (j := 44) (k := 45) (x := main_call0_v0) rfl (by omega)) (fun h => absurd (List.mem_of_mem_drop h) (by decide)) (after line V (Proc.devRef .tc main_arg19)) HEq.rfl)

theorem at_main_call0_v1 : after line V (Proc.devRef .tc main_call0_v1) = ((extractStridedSlice S255 ![0] · slices_S256_S255_0)) (after line V (Proc.devRef .tc main_arg19)) :=
  eq_of_heq (HostRead.tunary_at line_outs V 45 (.of main_arg19 : StableHlo.TRef sig ⟨S256, .i32⟩) (.of main_call0_v1 : StableHlo.TRef sig ⟨S255, .i32⟩) ((extractStridedSlice S255 ![0] · slices_S256_S255_0)) rfl (HostRead.not_mem_drop_of_lt outs_nodup (j := 45) (k := 46) (x := main_call0_v1) rfl (by omega)) (fun h => absurd (List.mem_of_mem_drop h) (by decide)) (after line V (Proc.devRef .tc main_arg19)) HEq.rfl)

theorem at_main_v36 : after line V (Proc.devRef .tc main_v36) = ((fun a b => concatenate S256 0 [⟨S1, a⟩, ⟨S255, b⟩] concatenates_S1_S255_S256_d0)) (after line V (Proc.devRef .tc main_call0_v0)) (after line V (Proc.devRef .tc main_call0_v1)) :=
  eq_of_heq (HostRead.tbinary_at line_outs V 46 (.of main_call0_v0 : StableHlo.TRef sig ⟨S1, .i32⟩) (.of main_call0_v1 : StableHlo.TRef sig ⟨S255, .i32⟩) (.of main_v36 : StableHlo.TRef sig ⟨S256, .i32⟩) ((fun a b => concatenate S256 0 [⟨S1, a⟩, ⟨S255, b⟩] concatenates_S1_S255_S256_d0)) rfl (HostRead.not_mem_drop_of_lt outs_nodup (j := 46) (k := 47) (x := main_v36) rfl (by omega)) (HostRead.not_mem_drop_of_lt outs_nodup (j := 44) (k := 46) (x := main_call0_v0) rfl (by omega)) (HostRead.not_mem_drop_of_lt outs_nodup (j := 45) (k := 46) (x := main_call0_v1) rfl (by omega)) (after line V (Proc.devRef .tc main_call0_v0)) (after line V (Proc.devRef .tc main_call0_v1)) HEq.rfl HEq.rfl)

theorem at_main_c_7 : after line V (Proc.devRef .tc main_c_7) = (constantI S_ 32 0#32) :=
  HostRead.nullary_at line_outs V 47 main_c_7 _ _ rfl (HostRead.not_mem_drop_of_lt outs_nodup (j := 47) (k := 48) (x := main_c_7) rfl (by omega))

theorem at_main_v37 : after line V (Proc.devRef .tc main_v37) = ((broadcastInDim S1 ![] bcast_S_S1 : (⟨S_, .i32⟩ : BufTy).Contents (Elt F) → (⟨S1, .i32⟩ : BufTy).Contents (Elt F))) (after line V (Proc.devRef .tc main_c_7)) :=
  HostRead.unary_at line_outs V 48 main_c_7 main_v37 _ _ _ rfl (HostRead.not_mem_drop_of_lt outs_nodup (j := 48) (k := 49) (x := main_v37) rfl (by omega)) (HostRead.not_mem_drop_of_lt outs_nodup (j := 47) (k := 48) (x := main_c_7) rfl (by omega))

theorem at_main_c_8 : after line V (Proc.devRef .tc main_c_8) = (constantI S_ 32 0#32) :=
  HostRead.nullary_at line_outs V 49 main_c_8 _ _ rfl (HostRead.not_mem_drop_of_lt outs_nodup (j := 49) (k := 50) (x := main_c_8) rfl (by omega))

theorem at_main_v38 : after line V (Proc.devRef .tc main_v38) = (((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F))) (after line V (Proc.devRef .tc main_v36)) (after line V (Proc.devRef .tc main_v37)) (after line V (Proc.devRef .tc main_c_8)) :=
  HostRead.ternary_at line_outs V 50 main_v36 main_v37 main_c_8 main_v38 _ _ _ _ _ rfl (HostRead.not_mem_drop_of_lt outs_nodup (j := 50) (k := 51) (x := main_v38) rfl (by omega)) (HostRead.not_mem_drop_of_lt outs_nodup (j := 46) (k := 50) (x := main_v36) rfl (by omega)) (HostRead.not_mem_drop_of_lt outs_nodup (j := 48) (k := 50) (x := main_v37) rfl (by omega)) (HostRead.not_mem_drop_of_lt outs_nodup (j := 49) (k := 50) (x := main_c_8) rfl (by omega))

theorem at_main_call1_call0_c : after line V (Proc.devRef .tc main_call1_call0_c) = (constantI S_ 32 0#32) :=
  eq_of_heq (HostRead.tnullary_at line_outs V 51 (.of main_call1_call0_c : StableHlo.TRef sig ⟨S_, .i32⟩) ((constantI S_ 32 0#32)) rfl (HostRead.not_mem_drop_of_lt outs_nodup (j := 51) (k := 52) (x := main_call1_call0_c) rfl (by omega)))

theorem at_main_call1_call0_v0 : after line V (Proc.devRef .tc main_call1_call0_v0) = ((broadcastInDim S_ ![] bcast_S_S_)) (after line V (Proc.devRef .tc main_call1_call0_c)) :=
  eq_of_heq (HostRead.tunary_at line_outs V 52 (.of main_call1_call0_c : StableHlo.TRef sig ⟨S_, .i32⟩) (.of main_call1_call0_v0 : StableHlo.TRef sig ⟨S_, .i32⟩) ((broadcastInDim S_ ![] bcast_S_S_)) rfl (HostRead.not_mem_drop_of_lt outs_nodup (j := 52) (k := 53) (x := main_call1_call0_v0) rfl (by omega)) (HostRead.not_mem_drop_of_lt outs_nodup (j := 51) (k := 52) (x := main_call1_call0_c) rfl (by omega)) (after line V (Proc.devRef .tc main_call1_call0_c)) HEq.rfl)

theorem at_main_v39 : after line V (Proc.devRef .tc main_v39) = ((fun x v => Host.reduceWindow IntOp.addi ![256] ![1] ![255] ![0] x v reduceWindows_S256_S256_w256s1p255_0 h_S_)) (after line V (Proc.devRef .tc main_v38)) (after line V (Proc.devRef .tc main_call1_call0_v0)) :=
  eq_of_heq (HostRead.tbinary_at line_outs V 53 (.of main_v38 : StableHlo.TRef sig ⟨S256, .i32⟩) (.of main_call1_call0_v0 : StableHlo.TRef sig ⟨S_, .i32⟩) (.of main_v39 : StableHlo.TRef sig ⟨S256, .i32⟩) ((fun x v => Host.reduceWindow IntOp.addi ![256] ![1] ![255] ![0] x v reduceWindows_S256_S256_w256s1p255_0 h_S_)) rfl (HostRead.not_mem_drop_of_lt outs_nodup (j := 53) (k := 54) (x := main_v39) rfl (by omega)) (HostRead.not_mem_drop_of_lt outs_nodup (j := 50) (k := 53) (x := main_v38) rfl (by omega)) (HostRead.not_mem_drop_of_lt outs_nodup (j := 52) (k := 53) (x := main_call1_call0_v0) rfl (by omega)) (after line V (Proc.devRef .tc main_v38)) (after line V (Proc.devRef .tc main_call1_call0_v0)) HEq.rfl HEq.rfl)

theorem at_main_c_9 : after line V (Proc.devRef .tc main_c_9) = (constantI S_ 32 0#32) :=
  HostRead.nullary_at line_outs V 54 main_c_9 _ _ rfl (HostRead.not_mem_drop_of_lt outs_nodup (j := 54) (k := 55) (x := main_c_9) rfl (by omega))

theorem at_main_v40 : after line V (Proc.devRef .tc main_v40) = ((broadcastInDim S262144 ![] bcast_S_S262144 : (⟨S_, .i32⟩ : BufTy).Contents (Elt F) → (⟨S262144, .i32⟩ : BufTy).Contents (Elt F))) (after line V (Proc.devRef .tc main_c_9)) :=
  HostRead.unary_at line_outs V 55 main_c_9 main_v40 _ _ _ rfl (HostRead.not_mem_drop_of_lt outs_nodup (j := 55) (k := 56) (x := main_v40) rfl (by omega)) (HostRead.not_mem_drop_of_lt outs_nodup (j := 54) (k := 55) (x := main_c_9) rfl (by omega))

theorem at_main_c_10 : after line V (Proc.devRef .tc main_c_10) = (constantI S_ 32 0#32) :=
  HostRead.nullary_at line_outs V 56 main_c_10 _ _ rfl (HostRead.not_mem_drop_of_lt outs_nodup (j := 56) (k := 57) (x := main_c_10) rfl (by omega))

theorem at_main_v41 : after line V (Proc.devRef .tc main_v41) = ((broadcastInDim S256 ![] bcast_S_S256 : (⟨S_, .i32⟩ : BufTy).Contents (Elt F) → (⟨S256, .i32⟩ : BufTy).Contents (Elt F))) (after line V (Proc.devRef .tc main_c_10)) :=
  HostRead.unary_at line_outs V 57 main_c_10 main_v41 _ _ _ rfl (HostRead.not_mem_drop_of_lt outs_nodup (j := 57) (k := 58) (x := main_v41) rfl (by omega)) (HostRead.not_mem_drop_of_lt outs_nodup (j := 56) (k := 57) (x := main_c_10) rfl (by omega))

theorem at_main_v42 : after line V (Proc.devRef .tc main_v42) = ((cmpi .slt : (⟨S256, .i32⟩ : BufTy).Contents (Elt F) → (⟨S256, .i32⟩ : BufTy).Contents (Elt F) → (⟨S256, .i1⟩ : BufTy).Contents (Elt F))) (after line V (Proc.devRef .tc main_v39)) (after line V (Proc.devRef .tc main_v41)) :=
  HostRead.binary_at line_outs V 58 main_v39 main_v41 main_v42 _ _ _ _ rfl (HostRead.not_mem_drop_of_lt outs_nodup (j := 58) (k := 59) (x := main_v42) rfl (by omega)) (HostRead.not_mem_drop_of_lt outs_nodup (j := 53) (k := 58) (x := main_v39) rfl (by omega)) (HostRead.not_mem_drop_of_lt outs_nodup (j := 57) (k := 58) (x := main_v41) rfl (by omega))

theorem at_main_c_11 : after line V (Proc.devRef .tc main_c_11) = (constantI S_ 32 262144#32) :=
  HostRead.nullary_at line_outs V 59 main_c_11 _ _ rfl (HostRead.not_mem_drop_of_lt outs_nodup (j := 59) (k := 60) (x := main_c_11) rfl (by omega))

theorem at_main_v43 : after line V (Proc.devRef .tc main_v43) = ((broadcastInDim S256 ![] bcast_S_S256 : (⟨S_, .i32⟩ : BufTy).Contents (Elt F) → (⟨S256, .i32⟩ : BufTy).Contents (Elt F))) (after line V (Proc.devRef .tc main_c_11)) :=
  HostRead.unary_at line_outs V 60 main_c_11 main_v43 _ _ _ rfl (HostRead.not_mem_drop_of_lt outs_nodup (j := 60) (k := 61) (x := main_v43) rfl (by omega)) (HostRead.not_mem_drop_of_lt outs_nodup (j := 59) (k := 60) (x := main_c_11) rfl (by omega))

theorem at_main_v44 : after line V (Proc.devRef .tc main_v44) = ((addi : (⟨S256, .i32⟩ : BufTy).Contents (Elt F) → (⟨S256, .i32⟩ : BufTy).Contents (Elt F) → (⟨S256, .i32⟩ : BufTy).Contents (Elt F))) (after line V (Proc.devRef .tc main_v39)) (after line V (Proc.devRef .tc main_v43)) :=
  HostRead.binary_at line_outs V 61 main_v39 main_v43 main_v44 _ _ _ _ rfl (HostRead.not_mem_drop_of_lt outs_nodup (j := 61) (k := 62) (x := main_v44) rfl (by omega)) (HostRead.not_mem_drop_of_lt outs_nodup (j := 53) (k := 61) (x := main_v39) rfl (by omega)) (HostRead.not_mem_drop_of_lt outs_nodup (j := 60) (k := 61) (x := main_v43) rfl (by omega))

theorem at_main_v45 : after line V (Proc.devRef .tc main_v45) = ((select : (⟨S256, .i1⟩ : BufTy).Contents (Elt F) → (⟨S256, .i32⟩ : BufTy).Contents (Elt F) → (⟨S256, .i32⟩ : BufTy).Contents (Elt F) → (⟨S256, .i32⟩ : BufTy).Contents (Elt F))) (after line V (Proc.devRef .tc main_v42)) (after line V (Proc.devRef .tc main_v44)) (after line V (Proc.devRef .tc main_v39)) :=
  HostRead.ternary_at line_outs V 62 main_v42 main_v44 main_v39 main_v45 _ _ _ _ _ rfl (HostRead.not_mem_drop_of_lt outs_nodup (j := 62) (k := 63) (x := main_v45) rfl (by omega)) (HostRead.not_mem_drop_of_lt outs_nodup (j := 58) (k := 62) (x := main_v42) rfl (by omega)) (HostRead.not_mem_drop_of_lt outs_nodup (j := 61) (k := 62) (x := main_v44) rfl (by omega)) (HostRead.not_mem_drop_of_lt outs_nodup (j := 53) (k := 62) (x := main_v39) rfl (by omega))

theorem at_main_v46 : after line V (Proc.devRef .tc main_v46) = ((broadcastInDim S256x1 ![0] bcast_S256_S256x1_0 : (⟨S256, .i32⟩ : BufTy).Contents (Elt F) → (⟨S256x1, .i32⟩ : BufTy).Contents (Elt F))) (after line V (Proc.devRef .tc main_v45)) :=
  HostRead.unary_at line_outs V 63 main_v45 main_v46 _ _ _ rfl (HostRead.not_mem_drop_of_lt outs_nodup (j := 63) (k := 64) (x := main_v46) rfl (by omega)) (HostRead.not_mem_drop_of_lt outs_nodup (j := 62) (k := 63) (x := main_v45) rfl (by omega))

theorem at_main_c_12 : after line V (Proc.devRef .tc main_c_12) = (constantI S_ 32 1#32) :=
  HostRead.nullary_at line_outs V 64 main_c_12 _ _ rfl (HostRead.not_mem_drop_of_lt outs_nodup (j := 64) (k := 65) (x := main_c_12) rfl (by omega))

theorem at_main_v47 : after line V (Proc.devRef .tc main_v47) = ((broadcastInDim S256 ![] bcast_S_S256 : (⟨S_, .i32⟩ : BufTy).Contents (Elt F) → (⟨S256, .i32⟩ : BufTy).Contents (Elt F))) (after line V (Proc.devRef .tc main_c_12)) :=
  HostRead.unary_at line_outs V 65 main_c_12 main_v47 _ _ _ rfl (HostRead.not_mem_drop_of_lt outs_nodup (j := 65) (k := 66) (x := main_v47) rfl (by omega)) (HostRead.not_mem_drop_of_lt outs_nodup (j := 64) (k := 65) (x := main_c_12) rfl (by omega))

theorem at_main_v48 : after line V (Proc.devRef .tc main_v48) = (((fun x i u => Host.scatter scatter_S262144_S256x1_S256_n_0_0_1 IntOp.addi x i u) : (⟨S262144, .i32⟩ : BufTy).Contents (Elt F) → (⟨S256x1, .i32⟩ : BufTy).Contents (Elt F) → (⟨S256, .i32⟩ : BufTy).Contents (Elt F) → (⟨S262144, .i32⟩ : BufTy).Contents (Elt F))) (after line V (Proc.devRef .tc main_v40)) (after line V (Proc.devRef .tc main_v46)) (after line V (Proc.devRef .tc main_v47)) :=
  HostRead.ternary_at line_outs V 66 main_v40 main_v46 main_v47 main_v48 _ _ _ _ _ rfl (HostRead.not_mem_drop_of_lt outs_nodup (j := 66) (k := 67) (x := main_v48) rfl (by omega)) (HostRead.not_mem_drop_of_lt outs_nodup (j := 55) (k := 66) (x := main_v40) rfl (by omega)) (HostRead.not_mem_drop_of_lt outs_nodup (j := 63) (k := 66) (x := main_v46) rfl (by omega)) (HostRead.not_mem_drop_of_lt outs_nodup (j := 65) (k := 66) (x := main_v47) rfl (by omega))

theorem at_main_call2_call0_c : after line V (Proc.devRef .tc main_call2_call0_c) = (constantI S_ 32 0#32) :=
  eq_of_heq (HostRead.tnullary_at line_outs V 67 (.of main_call2_call0_c : StableHlo.TRef sig ⟨S_, .i32⟩) ((constantI S_ 32 0#32)) rfl (HostRead.not_mem_drop_of_lt outs_nodup (j := 67) (k := 68) (x := main_call2_call0_c) rfl (by omega)))

theorem at_main_call2_call0_v0 : after line V (Proc.devRef .tc main_call2_call0_v0) = ((broadcastInDim S_ ![] bcast_S_S_)) (after line V (Proc.devRef .tc main_call2_call0_c)) :=
  eq_of_heq (HostRead.tunary_at line_outs V 68 (.of main_call2_call0_c : StableHlo.TRef sig ⟨S_, .i32⟩) (.of main_call2_call0_v0 : StableHlo.TRef sig ⟨S_, .i32⟩) ((broadcastInDim S_ ![] bcast_S_S_)) rfl (HostRead.not_mem_drop_of_lt outs_nodup (j := 68) (k := 69) (x := main_call2_call0_v0) rfl (by omega)) (HostRead.not_mem_drop_of_lt outs_nodup (j := 67) (k := 68) (x := main_call2_call0_c) rfl (by omega)) (after line V (Proc.devRef .tc main_call2_call0_c)) HEq.rfl)

theorem at_main_v49 : after line V (Proc.devRef .tc main_v49) = ((fun x v => Host.reduceWindow IntOp.addi ![262144] ![1] ![262143] ![0] x v reduceWindows_S262144_S262144_w262144s1p262143_0 h_S_)) (after line V (Proc.devRef .tc main_v48)) (after line V (Proc.devRef .tc main_call2_call0_v0)) :=
  eq_of_heq (HostRead.tbinary_at line_outs V 69 (.of main_v48 : StableHlo.TRef sig ⟨S262144, .i32⟩) (.of main_call2_call0_v0 : StableHlo.TRef sig ⟨S_, .i32⟩) (.of main_v49 : StableHlo.TRef sig ⟨S262144, .i32⟩) ((fun x v => Host.reduceWindow IntOp.addi ![262144] ![1] ![262143] ![0] x v reduceWindows_S262144_S262144_w262144s1p262143_0 h_S_)) rfl (HostRead.not_mem_drop_of_lt outs_nodup (j := 69) (k := 70) (x := main_v49) rfl (by omega)) (HostRead.not_mem_drop_of_lt outs_nodup (j := 66) (k := 69) (x := main_v48) rfl (by omega)) (HostRead.not_mem_drop_of_lt outs_nodup (j := 68) (k := 69) (x := main_call2_call0_v0) rfl (by omega)) (after line V (Proc.devRef .tc main_v48)) (after line V (Proc.devRef .tc main_call2_call0_v0)) HEq.rfl HEq.rfl)

theorem at_main_c_13 : after line V (Proc.devRef .tc main_c_13) = (constantI S_ 32 1#32) :=
  HostRead.nullary_at line_outs V 70 main_c_13 _ _ rfl (HostRead.not_mem_drop_of_lt outs_nodup (j := 70) (k := 71) (x := main_c_13) rfl (by omega))

theorem at_main_v50 : after line V (Proc.devRef .tc main_v50) = ((broadcastInDim S262144 ![] bcast_S_S262144 : (⟨S_, .i32⟩ : BufTy).Contents (Elt F) → (⟨S262144, .i32⟩ : BufTy).Contents (Elt F))) (after line V (Proc.devRef .tc main_c_13)) :=
  HostRead.unary_at line_outs V 71 main_c_13 main_v50 _ _ _ rfl (HostRead.not_mem_drop_of_lt outs_nodup (j := 71) (k := 72) (x := main_v50) rfl (by omega)) (HostRead.not_mem_drop_of_lt outs_nodup (j := 70) (k := 71) (x := main_c_13) rfl (by omega))

theorem at_main_v51 : after line V (Proc.devRef .tc main_v51) = ((subi : (⟨S262144, .i32⟩ : BufTy).Contents (Elt F) → (⟨S262144, .i32⟩ : BufTy).Contents (Elt F) → (⟨S262144, .i32⟩ : BufTy).Contents (Elt F))) (after line V (Proc.devRef .tc main_v49)) (after line V (Proc.devRef .tc main_v50)) :=
  HostRead.binary_at line_outs V 72 main_v49 main_v50 main_v51 _ _ _ _ rfl (HostRead.not_mem_drop_of_lt outs_nodup (j := 72) (k := 73) (x := main_v51) rfl (by omega)) (HostRead.not_mem_drop_of_lt outs_nodup (j := 69) (k := 72) (x := main_v49) rfl (by omega)) (HostRead.not_mem_drop_of_lt outs_nodup (j := 71) (k := 72) (x := main_v50) rfl (by omega))

theorem at_main_call3_c : after line V (Proc.devRef .tc main_call3_c) = (constantI S_ 32 0#32) :=
  eq_of_heq (HostRead.tnullary_at line_outs V 73 (.of main_call3_c : StableHlo.TRef sig ⟨S_, .i32⟩) ((constantI S_ 32 0#32)) rfl (HostRead.not_mem_drop_of_lt outs_nodup (j := 73) (k := 74) (x := main_call3_c) rfl (by omega)))

theorem at_main_call3_v0 : after line V (Proc.devRef .tc main_call3_v0) = ((broadcastInDim S262144 ![] bcast_S_S262144)) (after line V (Proc.devRef .tc main_call3_c)) :=
  eq_of_heq (HostRead.tunary_at line_outs V 74 (.of main_call3_c : StableHlo.TRef sig ⟨S_, .i32⟩) (.of main_call3_v0 : StableHlo.TRef sig ⟨S262144, .i32⟩) ((broadcastInDim S262144 ![] bcast_S_S262144)) rfl (HostRead.not_mem_drop_of_lt outs_nodup (j := 74) (k := 75) (x := main_call3_v0) rfl (by omega)) (HostRead.not_mem_drop_of_lt outs_nodup (j := 73) (k := 74) (x := main_call3_c) rfl (by omega)) (after line V (Proc.devRef .tc main_call3_c)) HEq.rfl)

theorem at_main_call3_v1 : after line V (Proc.devRef .tc main_call3_v1) = ((cmpi .slt)) (after line V (Proc.devRef .tc main_v51)) (after line V (Proc.devRef .tc main_call3_v0)) :=
  eq_of_heq (HostRead.tbinary_at line_outs V 75 (.of main_v51 : StableHlo.TRef sig ⟨S262144, .i32⟩) (.of main_call3_v0 : StableHlo.TRef sig ⟨S262144, .i32⟩) (.of main_call3_v1 : StableHlo.TRef sig ⟨S262144, .i1⟩) ((cmpi .slt)) rfl (HostRead.not_mem_drop_of_lt outs_nodup (j := 75) (k := 76) (x := main_call3_v1) rfl (by omega)) (HostRead.not_mem_drop_of_lt outs_nodup (j := 72) (k := 75) (x := main_v51) rfl (by omega)) (HostRead.not_mem_drop_of_lt outs_nodup (j := 74) (k := 75) (x := main_call3_v0) rfl (by omega)) (after line V (Proc.devRef .tc main_v51)) (after line V (Proc.devRef .tc main_call3_v0)) HEq.rfl HEq.rfl)

theorem at_main_call3_c_0 : after line V (Proc.devRef .tc main_call3_c_0) = (constantI S_ 32 256#32) :=
  eq_of_heq (HostRead.tnullary_at line_outs V 76 (.of main_call3_c_0 : StableHlo.TRef sig ⟨S_, .i32⟩) ((constantI S_ 32 256#32)) rfl (HostRead.not_mem_drop_of_lt outs_nodup (j := 76) (k := 77) (x := main_call3_c_0) rfl (by omega)))

theorem at_main_call3_v2 : after line V (Proc.devRef .tc main_call3_v2) = ((broadcastInDim S262144 ![] bcast_S_S262144)) (after line V (Proc.devRef .tc main_call3_c_0)) :=
  eq_of_heq (HostRead.tunary_at line_outs V 77 (.of main_call3_c_0 : StableHlo.TRef sig ⟨S_, .i32⟩) (.of main_call3_v2 : StableHlo.TRef sig ⟨S262144, .i32⟩) ((broadcastInDim S262144 ![] bcast_S_S262144)) rfl (HostRead.not_mem_drop_of_lt outs_nodup (j := 77) (k := 78) (x := main_call3_v2) rfl (by omega)) (HostRead.not_mem_drop_of_lt outs_nodup (j := 76) (k := 77) (x := main_call3_c_0) rfl (by omega)) (after line V (Proc.devRef .tc main_call3_c_0)) HEq.rfl)

theorem at_main_call3_v3 : after line V (Proc.devRef .tc main_call3_v3) = (addi) (after line V (Proc.devRef .tc main_v51)) (after line V (Proc.devRef .tc main_call3_v2)) :=
  eq_of_heq (HostRead.tbinary_at line_outs V 78 (.of main_v51 : StableHlo.TRef sig ⟨S262144, .i32⟩) (.of main_call3_v2 : StableHlo.TRef sig ⟨S262144, .i32⟩) (.of main_call3_v3 : StableHlo.TRef sig ⟨S262144, .i32⟩) (addi) rfl (HostRead.not_mem_drop_of_lt outs_nodup (j := 78) (k := 79) (x := main_call3_v3) rfl (by omega)) (HostRead.not_mem_drop_of_lt outs_nodup (j := 72) (k := 78) (x := main_v51) rfl (by omega)) (HostRead.not_mem_drop_of_lt outs_nodup (j := 77) (k := 78) (x := main_call3_v2) rfl (by omega)) (after line V (Proc.devRef .tc main_v51)) (after line V (Proc.devRef .tc main_call3_v2)) HEq.rfl HEq.rfl)

theorem at_main_call3_v4 : after line V (Proc.devRef .tc main_call3_v4) = (select) (after line V (Proc.devRef .tc main_call3_v1)) (after line V (Proc.devRef .tc main_call3_v3)) (after line V (Proc.devRef .tc main_v51)) :=
  eq_of_heq (HostRead.tternary_at line_outs V 79 (.of main_call3_v1 : StableHlo.TRef sig ⟨S262144, .i1⟩) (.of main_call3_v3 : StableHlo.TRef sig ⟨S262144, .i32⟩) (.of main_v51 : StableHlo.TRef sig ⟨S262144, .i32⟩) (.of main_call3_v4 : StableHlo.TRef sig ⟨S262144, .i32⟩) (select) rfl (HostRead.not_mem_drop_of_lt outs_nodup (j := 79) (k := 80) (x := main_call3_v4) rfl (by omega)) (HostRead.not_mem_drop_of_lt outs_nodup (j := 75) (k := 79) (x := main_call3_v1) rfl (by omega)) (HostRead.not_mem_drop_of_lt outs_nodup (j := 78) (k := 79) (x := main_call3_v3) rfl (by omega)) (HostRead.not_mem_drop_of_lt outs_nodup (j := 72) (k := 79) (x := main_v51) rfl (by omega)) (after line V (Proc.devRef .tc main_call3_v1)) (after line V (Proc.devRef .tc main_call3_v3)) (after line V (Proc.devRef .tc main_v51)) HEq.rfl HEq.rfl HEq.rfl)

theorem at_main_call3_v5 : after line V (Proc.devRef .tc main_call3_v5) = ((broadcastInDim S262144x1 ![0] bcast_S262144_S262144x1_0)) (after line V (Proc.devRef .tc main_call3_v4)) :=
  eq_of_heq (HostRead.tunary_at line_outs V 80 main_call3_call0.v0 (.of main_call3_v5 : StableHlo.TRef sig ⟨S262144x1, .i32⟩) ((broadcastInDim S262144x1 ![0] bcast_S262144_S262144x1_0)) rfl (HostRead.not_mem_drop_of_lt outs_nodup (j := 80) (k := 81) (x := main_call3_v5) rfl (by omega)) (HostRead.not_mem_drop_of_lt outs_nodup (j := 79) (k := 80) (x := main_call3_v4) rfl (by omega)) (after line V (Proc.devRef .tc main_call3_v4)) HEq.rfl)

theorem at_main_call3_c_1 : after line V (Proc.devRef .tc main_call3_c_1) = (constantI S1 32 255#32) :=
  eq_of_heq (HostRead.tnullary_at line_outs V 81 (.of main_call3_c_1 : StableHlo.TRef sig ⟨S1, .i32⟩) ((constantI S1 32 255#32)) rfl (HostRead.not_mem_drop_of_lt outs_nodup (j := 81) (k := 82) (x := main_call3_c_1) rfl (by omega)))

theorem at_main_call3_c_2 : after line V (Proc.devRef .tc main_call3_c_2) = (constantI S_ 32 0#32) :=
  eq_of_heq (HostRead.tnullary_at line_outs V 82 (.of main_call3_c_2 : StableHlo.TRef sig ⟨S_, .i32⟩) ((constantI S_ 32 0#32)) rfl (HostRead.not_mem_drop_of_lt outs_nodup (j := 82) (k := 83) (x := main_call3_c_2) rfl (by omega)))

theorem at_main_call3_v6 : after line V (Proc.devRef .tc main_call3_v6) = ((broadcastInDim S262144x1 ![] bcast_S_S262144x1)) (after line V (Proc.devRef .tc main_call3_c_2)) :=
  eq_of_heq (HostRead.tunary_at line_outs V 83 (.of main_call3_c_2 : StableHlo.TRef sig ⟨S_, .i32⟩) (.of main_call3_v6 : StableHlo.TRef sig ⟨S262144x1, .i32⟩) ((broadcastInDim S262144x1 ![] bcast_S_S262144x1)) rfl (HostRead.not_mem_drop_of_lt outs_nodup (j := 83) (k := 84) (x := main_call3_v6) rfl (by omega)) (HostRead.not_mem_drop_of_lt outs_nodup (j := 82) (k := 83) (x := main_call3_c_2) rfl (by omega)) (after line V (Proc.devRef .tc main_call3_c_2)) HEq.rfl)

theorem at_main_call3_v7 : after line V (Proc.devRef .tc main_call3_v7) = ((cmpi .sge)) (after line V (Proc.devRef .tc main_call3_v5)) (after line V (Proc.devRef .tc main_call3_v6)) :=
  eq_of_heq (HostRead.tbinary_at line_outs V 84 (.of main_call3_v5 : StableHlo.TRef sig ⟨S262144x1, .i32⟩) (.of main_call3_v6 : StableHlo.TRef sig ⟨S262144x1, .i32⟩) (.of main_call3_v7 : StableHlo.TRef sig ⟨S262144x1, .i1⟩) ((cmpi .sge)) rfl (HostRead.not_mem_drop_of_lt outs_nodup (j := 84) (k := 85) (x := main_call3_v7) rfl (by omega)) (HostRead.not_mem_drop_of_lt outs_nodup (j := 80) (k := 84) (x := main_call3_v5) rfl (by omega)) (HostRead.not_mem_drop_of_lt outs_nodup (j := 83) (k := 84) (x := main_call3_v6) rfl (by omega)) (after line V (Proc.devRef .tc main_call3_v5)) (after line V (Proc.devRef .tc main_call3_v6)) HEq.rfl HEq.rfl)

theorem at_main_call3_v8 : after line V (Proc.devRef .tc main_call3_v8) = ((broadcastInDim S1x1 ![1] bcast_S1_S1x1_1)) (after line V (Proc.devRef .tc main_call3_c_1)) :=
  eq_of_heq (HostRead.tunary_at line_outs V 85 (.of main_call3_c_1 : StableHlo.TRef sig ⟨S1, .i32⟩) (.of main_call3_v8 : StableHlo.TRef sig ⟨S1x1, .i32⟩) ((broadcastInDim S1x1 ![1] bcast_S1_S1x1_1)) rfl (HostRead.not_mem_drop_of_lt outs_nodup (j := 85) (k := 86) (x := main_call3_v8) rfl (by omega)) (HostRead.not_mem_drop_of_lt outs_nodup (j := 81) (k := 85) (x := main_call3_c_1) rfl (by omega)) (after line V (Proc.devRef .tc main_call3_c_1)) HEq.rfl)

theorem at_main_call3_v9 : after line V (Proc.devRef .tc main_call3_v9) = ((broadcastInDim S262144x1 ![0, 1] bcast_S1x1_S262144x1_0_1)) (after line V (Proc.devRef .tc main_call3_v8)) :=
  eq_of_heq (HostRead.tunary_at line_outs V 86 (.of main_call3_v8 : StableHlo.TRef sig ⟨S1x1, .i32⟩) (.of main_call3_v9 : StableHlo.TRef sig ⟨S262144x1, .i32⟩) ((broadcastInDim S262144x1 ![0, 1] bcast_S1x1_S262144x1_0_1)) rfl (HostRead.not_mem_drop_of_lt outs_nodup (j := 86) (k := 87) (x := main_call3_v9) rfl (by omega)) (HostRead.not_mem_drop_of_lt outs_nodup (j := 85) (k := 86) (x := main_call3_v8) rfl (by omega)) (after line V (Proc.devRef .tc main_call3_v8)) HEq.rfl)

theorem at_main_call3_v10 : after line V (Proc.devRef .tc main_call3_v10) = ((cmpi .sle)) (after line V (Proc.devRef .tc main_call3_v5)) (after line V (Proc.devRef .tc main_call3_v9)) :=
  eq_of_heq (HostRead.tbinary_at line_outs V 87 (.of main_call3_v5 : StableHlo.TRef sig ⟨S262144x1, .i32⟩) (.of main_call3_v9 : StableHlo.TRef sig ⟨S262144x1, .i32⟩) (.of main_call3_v10 : StableHlo.TRef sig ⟨S262144x1, .i1⟩) ((cmpi .sle)) rfl (HostRead.not_mem_drop_of_lt outs_nodup (j := 87) (k := 88) (x := main_call3_v10) rfl (by omega)) (HostRead.not_mem_drop_of_lt outs_nodup (j := 80) (k := 87) (x := main_call3_v5) rfl (by omega)) (HostRead.not_mem_drop_of_lt outs_nodup (j := 86) (k := 87) (x := main_call3_v9) rfl (by omega)) (after line V (Proc.devRef .tc main_call3_v5)) (after line V (Proc.devRef .tc main_call3_v9)) HEq.rfl HEq.rfl)

theorem at_main_call3_v11 : after line V (Proc.devRef .tc main_call3_v11) = (andi) (after line V (Proc.devRef .tc main_call3_v7)) (after line V (Proc.devRef .tc main_call3_v10)) :=
  eq_of_heq (HostRead.tbinary_at line_outs V 88 (.of main_call3_v7 : StableHlo.TRef sig ⟨S262144x1, .i1⟩) (.of main_call3_v10 : StableHlo.TRef sig ⟨S262144x1, .i1⟩) (.of main_call3_v11 : StableHlo.TRef sig ⟨S262144x1, .i1⟩) (andi) rfl (HostRead.not_mem_drop_of_lt outs_nodup (j := 88) (k := 89) (x := main_call3_v11) rfl (by omega)) (HostRead.not_mem_drop_of_lt outs_nodup (j := 84) (k := 88) (x := main_call3_v7) rfl (by omega)) (HostRead.not_mem_drop_of_lt outs_nodup (j := 87) (k := 88) (x := main_call3_v10) rfl (by omega)) (after line V (Proc.devRef .tc main_call3_v7)) (after line V (Proc.devRef .tc main_call3_v10)) HEq.rfl HEq.rfl)

theorem at_main_call3_c_3 : after line V (Proc.devRef .tc main_call3_c_3) = (constantI S_ 1 1#1) :=
  eq_of_heq (HostRead.tnullary_at line_outs V 89 (.of main_call3_c_3 : StableHlo.TRef sig ⟨S_, .i1⟩) ((constantI S_ 1 1#1)) rfl (HostRead.not_mem_drop_of_lt outs_nodup (j := 89) (k := 90) (x := main_call3_c_3) rfl (by omega)))

theorem at_main_call3_v12 : after line V (Proc.devRef .tc main_call3_v12) = ((fun x v => Host.reduce IntOp.andi x v reducesTo_S262144x1_S262144_d1 h_S_)) (after line V (Proc.devRef .tc main_call3_v11)) (after line V (Proc.devRef .tc main_call3_c_3)) :=
  eq_of_heq (HostRead.tbinary_at line_outs V 90 (.of main_call3_v11 : StableHlo.TRef sig ⟨S262144x1, .i1⟩) (.of main_call3_c_3 : StableHlo.TRef sig ⟨S_, .i1⟩) (.of main_call3_v12 : StableHlo.TRef sig ⟨S262144, .i1⟩) ((fun x v => Host.reduce IntOp.andi x v reducesTo_S262144x1_S262144_d1 h_S_)) rfl (HostRead.not_mem_drop_of_lt outs_nodup (j := 90) (k := 91) (x := main_call3_v12) rfl (by omega)) (HostRead.not_mem_drop_of_lt outs_nodup (j := 88) (k := 90) (x := main_call3_v11) rfl (by omega)) (HostRead.not_mem_drop_of_lt outs_nodup (j := 89) (k := 90) (x := main_call3_c_3) rfl (by omega)) (after line V (Proc.devRef .tc main_call3_v11)) (after line V (Proc.devRef .tc main_call3_c_3)) HEq.rfl HEq.rfl)

theorem at_main_call3_v13 : after line V (Proc.devRef .tc main_call3_v13) = ((fun x i => Host.gather gather_S256x128_S262144x1_S262144x128_1_0_n_n_0_1_1128 x i)) (after line V (Proc.devRef .tc main_arg2)) (after line V (Proc.devRef .tc main_call3_v5)) :=
  eq_of_heq (HostRead.tbinary_at line_outs V 91 (.of main_arg2 : StableHlo.TRef sig ⟨S256x128, .f32⟩) (.of main_call3_v5 : StableHlo.TRef sig ⟨S262144x1, .i32⟩) (.of main_call3_v13 : StableHlo.TRef sig ⟨S262144x128, .f32⟩) ((fun x i => Host.gather gather_S256x128_S262144x1_S262144x128_1_0_n_n_0_1_1128 x i)) rfl (HostRead.not_mem_drop_of_lt outs_nodup (j := 91) (k := 92) (x := main_call3_v13) rfl (by omega)) (fun h => absurd (List.mem_of_mem_drop h) (by decide)) (HostRead.not_mem_drop_of_lt outs_nodup (j := 80) (k := 91) (x := main_call3_v5) rfl (by omega)) (after line V (Proc.devRef .tc main_arg2)) (after line V (Proc.devRef .tc main_call3_v5)) HEq.rfl HEq.rfl)

theorem at_main_call3_v14 : after line V (Proc.devRef .tc main_call3_v14) = ((broadcastInDim S262144x128 ![0] bcast_S262144_S262144x128_0)) (after line V (Proc.devRef .tc main_call3_v12)) :=
  eq_of_heq (HostRead.tunary_at line_outs V 92 (.of main_call3_v12 : StableHlo.TRef sig ⟨S262144, .i1⟩) (.of main_call3_v14 : StableHlo.TRef sig ⟨S262144x128, .i1⟩) ((broadcastInDim S262144x128 ![0] bcast_S262144_S262144x128_0)) rfl (HostRead.not_mem_drop_of_lt outs_nodup (j := 92) (k := 93) (x := main_call3_v14) rfl (by omega)) (HostRead.not_mem_drop_of_lt outs_nodup (j := 90) (k := 92) (x := main_call3_v12) rfl (by omega)) (after line V (Proc.devRef .tc main_call3_v12)) HEq.rfl)

theorem at_main_call3_cst : after line V (Proc.devRef .tc main_call3_cst) = (constant S_ .f32 0x7FC00000#32) :=
  eq_of_heq (HostRead.tnullary_at line_outs V 93 (.of main_call3_cst : StableHlo.TRef sig ⟨S_, .f32⟩) ((constant S_ .f32 0x7FC00000#32)) rfl (HostRead.not_mem_drop_of_lt outs_nodup (j := 93) (k := 94) (x := main_call3_cst) rfl (by omega)))

theorem at_main_call3_v15 : after line V (Proc.devRef .tc main_call3_v15) = ((broadcastInDim S262144x128 ![] bcast_S_S262144x128)) (after line V (Proc.devRef .tc main_call3_cst)) :=
  eq_of_heq (HostRead.tunary_at line_outs V 94 (.of main_call3_cst : StableHlo.TRef sig ⟨S_, .f32⟩) (.of main_call3_v15 : StableHlo.TRef sig ⟨S262144x128, .f32⟩) ((broadcastInDim S262144x128 ![] bcast_S_S262144x128)) rfl (HostRead.not_mem_drop_of_lt outs_nodup (j := 94) (k := 95) (x := main_call3_v15) rfl (by omega)) (HostRead.not_mem_drop_of_lt outs_nodup (j := 93) (k := 94) (x := main_call3_cst) rfl (by omega)) (after line V (Proc.devRef .tc main_call3_cst)) HEq.rfl)

theorem at_main_v52 : after line V (Proc.devRef .tc main_v52) = (select) (after line V (Proc.devRef .tc main_call3_v14)) (after line V (Proc.devRef .tc main_call3_v13)) (after line V (Proc.devRef .tc main_call3_v15)) :=
  eq_of_heq (HostRead.tternary_at line_outs V 95 (.of main_call3_v14 : StableHlo.TRef sig ⟨S262144x128, .i1⟩) (.of main_call3_v13 : StableHlo.TRef sig ⟨S262144x128, .f32⟩) (.of main_call3_v15 : StableHlo.TRef sig ⟨S262144x128, .f32⟩) (.of main_v52 : StableHlo.TRef sig ⟨S262144x128, .f32⟩) (select) rfl (HostRead.not_mem_drop_of_lt outs_nodup (j := 95) (k := 96) (x := main_v52) rfl (by omega)) (HostRead.not_mem_drop_of_lt outs_nodup (j := 92) (k := 95) (x := main_call3_v14) rfl (by omega)) (HostRead.not_mem_drop_of_lt outs_nodup (j := 91) (k := 95) (x := main_call3_v13) rfl (by omega)) (HostRead.not_mem_drop_of_lt outs_nodup (j := 94) (k := 95) (x := main_call3_v15) rfl (by omega)) (after line V (Proc.devRef .tc main_call3_v14)) (after line V (Proc.devRef .tc main_call3_v13)) (after line V (Proc.devRef .tc main_call3_v15)) HEq.rfl HEq.rfl HEq.rfl)

theorem at_main_v53 : after line V (Proc.devRef .tc main_v53) = (((extractStridedSlice S128x128 ![0, 0] · slices_S768x128_S128x128_0_0) : (⟨S768x128, .f32⟩ : BufTy).Contents (Elt F) → (⟨S128x128, .f32⟩ : BufTy).Contents (Elt F))) (after line V (Proc.devRef .tc main_arg4)) :=
  HostRead.unary_at line_outs V 96 main_arg4 main_v53 _ _ _ rfl (HostRead.not_mem_drop_of_lt outs_nodup (j := 96) (k := 97) (x := main_v53) rfl (by omega)) (fun h => absurd (List.mem_of_mem_drop h) (by decide))

theorem at_main_v54 : after line V (Proc.devRef .tc main_v54) = (((extractStridedSlice S128x128 ![128, 0] · slices_S768x128_S128x128_128_0) : (⟨S768x128, .f32⟩ : BufTy).Contents (Elt F) → (⟨S128x128, .f32⟩ : BufTy).Contents (Elt F))) (after line V (Proc.devRef .tc main_arg4)) :=
  HostRead.unary_at line_outs V 97 main_arg4 main_v54 _ _ _ rfl (HostRead.not_mem_drop_of_lt outs_nodup (j := 97) (k := 98) (x := main_v54) rfl (by omega)) (fun h => absurd (List.mem_of_mem_drop h) (by decide))

theorem at_main_v55 : after line V (Proc.devRef .tc main_v55) = (((extractStridedSlice S128x128 ![256, 0] · slices_S768x128_S128x128_256_0) : (⟨S768x128, .f32⟩ : BufTy).Contents (Elt F) → (⟨S128x128, .f32⟩ : BufTy).Contents (Elt F))) (after line V (Proc.devRef .tc main_arg4)) :=
  HostRead.unary_at line_outs V 98 main_arg4 main_v55 _ _ _ rfl (HostRead.not_mem_drop_of_lt outs_nodup (j := 98) (k := 99) (x := main_v55) rfl (by omega)) (fun h => absurd (List.mem_of_mem_drop h) (by decide))

theorem at_main_v56 : after line V (Proc.devRef .tc main_v56) = (((extractStridedSlice S128x128 ![384, 0] · slices_S768x128_S128x128_384_0) : (⟨S768x128, .f32⟩ : BufTy).Contents (Elt F) → (⟨S128x128, .f32⟩ : BufTy).Contents (Elt F))) (after line V (Proc.devRef .tc main_arg4)) :=
  HostRead.unary_at line_outs V 99 main_arg4 main_v56 _ _ _ rfl (HostRead.not_mem_drop_of_lt outs_nodup (j := 99) (k := 100) (x := main_v56) rfl (by omega)) (fun h => absurd (List.mem_of_mem_drop h) (by decide))

theorem at_main_v57 : after line V (Proc.devRef .tc main_v57) = (((extractStridedSlice S128x128 ![512, 0] · slices_S768x128_S128x128_512_0) : (⟨S768x128, .f32⟩ : BufTy).Contents (Elt F) → (⟨S128x128, .f32⟩ : BufTy).Contents (Elt F))) (after line V (Proc.devRef .tc main_arg4)) :=
  HostRead.unary_at line_outs V 100 main_arg4 main_v57 _ _ _ rfl (HostRead.not_mem_drop_of_lt outs_nodup (j := 100) (k := 101) (x := main_v57) rfl (by omega)) (fun h => absurd (List.mem_of_mem_drop h) (by decide))

theorem at_main_v58 : after line V (Proc.devRef .tc main_v58) = (((extractStridedSlice S128x128 ![640, 0] · slices_S768x128_S128x128_640_0) : (⟨S768x128, .f32⟩ : BufTy).Contents (Elt F) → (⟨S128x128, .f32⟩ : BufTy).Contents (Elt F))) (after line V (Proc.devRef .tc main_arg4)) :=
  HostRead.unary_at line_outs V 101 main_arg4 main_v58 _ _ _ rfl (HostRead.not_mem_drop_of_lt outs_nodup (j := 101) (k := 102) (x := main_v58) rfl (by omega)) (fun h => absurd (List.mem_of_mem_drop h) (by decide))

theorem at_main_v59 : after line V (Proc.devRef .tc main_v59) = fun i => shapeCast main_v59.ty.shape (after line V (Proc.devRef .tc main_arg5)) shapeCasts_S128_S1x128 i :=
  HostRead.reshape_at line_outs V 102 main_arg5 main_v59 rfl shapeCasts_S128_S1x128 _ _ rfl (HostRead.not_mem_drop_of_lt outs_nodup (j := 102) (k := 103) (x := main_v59) rfl (by omega)) (fun h => absurd (List.mem_of_mem_drop h) (by decide))

/-- A buffer the stage does not write keeps its contents. -/
theorem kept (r : Ref sig .tc) (hr : r ∉ outs) : after line V (Proc.devRef .tc r) = V (Proc.devRef .tc r) :=
  HostRead.after_take line_outs 0 r hr V

end Cert.KernelIdeal.HostStage0

end
-- ==== Proof.KHost1.lean ====
/-
  Host stage 1 of the idealized kernel read as a system of equations.

  The operations between two pipelined regions (or before the first) form one line in which every buffer is written
  once. After the whole line each written buffer holds its operation's function of what the operand buffers hold after
  the whole line, and a buffer the line does not write holds what it held before.
-/
import proofs.«134187_j30227979829536_1_alg».proof.Proof.Gen.KernelIdeal.Launch
import proofs.«134187_j30227979829536_1_alg».proof.Proof.LibHostTyped

set_option maxRecDepth 16384

noncomputable section

namespace Cert.KernelIdeal.HostStage1

open Idealize.ShloMosaic Idealize.ShloMosaic.StableHlo Idealize.ShloMosaic.TcCoe Cert.KernelIdeal Cert.KernelIdeal.Gen

variable {F : FTy → Type} [FloatOps F]

/-- The stage's operations, in program order. -/
abbrev line : List (HloOp τ sig (Elt F)) := hostOps1 ++ (hostOps1_1 ++ (hostOps1_2 ++ (hostOps1_3 ++ (hostOps1_4 ++ (hostOps1_5 ++ (hostOps1_6 ++ (hostOps1_7 ++ (hostOps1_8))))))))

/-- The buffer each operation writes, in the same order. -/
abbrev outs : List (Ref sig .tc) :=
  [main_cst, main_v61, main_v62, main_v63, main_cst_14, main_v64, main_v65, main_v66, main_call4_v0, main_call4_v1, main_v67, main_c_15, main_v68, main_c_16, main_v69, main_call5_call0_c, main_call5_call0_v0, main_v70, main_c_17, main_v71, main_c_18, main_v72, main_v73, main_c_19, main_v74, main_v75, main_v76, main_v77, main_c_20, main_v78, main_v79, main_call6_call0_c, main_call6_call0_v0, main_v80, main_c_21, main_v81, main_v82, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v83, main_v84, main_v85, main_v86, main_v87, main_v88]

theorem outs_nodup : outs.Nodup := by decide

theorem line_outs : HostRead.Outs (τ := τ) (line (F := F)) outs :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

-- the window sums, reductions, gathers and scatters are folds over an operand's elements; no equation below looks inside one
attribute [local irreducible] Host.reduceWindow Host.reduce Host.gather Host.scatter Host.scatterAdd

variable (V : Valuation τ sig (Elt F))

theorem at_main_cst : after line V (Proc.devRef .tc main_cst) = (constant S_ .f32 0x00000000#32) :=
  HostRead.nullary_at line_outs V 0 main_cst _ _ rfl (HostRead.not_mem_drop_of_lt outs_nodup (j := 0) (k := 1) (x := main_cst) rfl (by omega))

theorem at_main_v61 : after line V (Proc.devRef .tc main_v61) = ((broadcastInDim S131072x128 ![] bcast_S_S131072x128 : (⟨S_, .f32⟩ : BufTy).Contents (Elt F) → (⟨S131072x128, .f32⟩ : BufTy).Contents (Elt F))) (after line V (Proc.devRef .tc main_cst)) :=
  HostRead.unary_at line_outs V 1 main_cst main_v61 _ _ _ rfl (HostRead.not_mem_drop_of_lt outs_nodup (j := 1) (k := 2) (x := main_v61) rfl (by omega)) (HostRead.not_mem_drop_of_lt outs_nodup (j := 0) (k := 1) (x := main_cst) rfl (by omega))

theorem at_main_v62 : after line V (Proc.devRef .tc main_v62) = ((broadcastInDim S262144x1 ![0] bcast_S262144_S262144x1_0 : (⟨S262144, .i32⟩ : BufTy).Contents (Elt F) → (⟨S262144x1, .i32⟩ : BufTy).Contents (Elt F))) (after line V (Proc.devRef .tc main_v1)) :=
  HostRead.unary_at line_outs V 2 main_v1 main_v62 _ _ _ rfl (HostRead.not_mem_drop_of_lt outs_nodup (j := 2) (k := 3) (x := main_v62) rfl (by omega)) (fun h => absurd (List.mem_of_mem_drop h) (by decide))

theorem at_main_v63 : after line V (Proc.devRef .tc main_v63) = (((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F))) (after line V (Proc.devRef .tc main_v61)) (after line V (Proc.devRef .tc main_v62)) (after line V (Proc.devRef .tc main_v60)) :=
  HostRead.ternary_at line_outs V 3 main_v61 main_v62 main_v60 main_v63 _ _ _ _ _ rfl (HostRead.not_mem_drop_of_lt outs_nodup (j := 3) (k := 4) (x := main_v63) rfl (by omega)) (HostRead.not_mem_drop_of_lt outs_nodup (j := 1) (k := 3) (x := main_v61) rfl (by omega)) (HostRead.not_mem_drop_of_lt outs_nodup (j := 2) (k := 3) (x := main_v62) rfl (by omega)) (fun h => absurd (List.mem_of_mem_drop h) (by decide))

theorem at_main_cst_14 : after line V (Proc.devRef .tc main_cst_14) = (constant S_ .f32 0x00000000#32) :=
  HostRead.nullary_at line_outs V 4 main_cst_14 _ _ rfl (HostRead.not_mem_drop_of_lt outs_nodup (j := 4) (k := 5) (x := main_cst_14) rfl (by omega))

theorem at_main_v64 : after line V (Proc.devRef .tc main_v64) = ((broadcastInDim S131072x128 ![] bcast_S_S131072x128 : (⟨S_, .f32⟩ : BufTy).Contents (Elt F) → (⟨S131072x128, .f32⟩ : BufTy).Contents (Elt F))) (after line V (Proc.devRef .tc main_cst_14)) :=
  HostRead.unary_at line_outs V 5 main_cst_14 main_v64 _ _ _ rfl (HostRead.not_mem_drop_of_lt outs_nodup (j := 5) (k := 6) (x := main_v64) rfl (by omega)) (HostRead.not_mem_drop_of_lt outs_nodup (j := 4) (k := 5) (x := main_cst_14) rfl (by omega))

theorem at_main_v65 : after line V (Proc.devRef .tc main_v65) = ((broadcastInDim S262144x1 ![0] bcast_S262144_S262144x1_0 : (⟨S262144, .i32⟩ : BufTy).Contents (Elt F) → (⟨S262144x1, .i32⟩ : BufTy).Contents (Elt F))) (after line V (Proc.devRef .tc main_v3)) :=
  HostRead.unary_at line_outs V 6 main_v3 main_v65 _ _ _ rfl (HostRead.not_mem_drop_of_lt outs_nodup (j := 6) (k := 7) (x := main_v65) rfl (by omega)) (fun h => absurd (List.mem_of_mem_drop h) (by decide))

theorem at_main_v66 : after line V (Proc.devRef .tc main_v66) = (((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F))) (after line V (Proc.devRef .tc main_v64)) (after line V (Proc.devRef .tc main_v65)) (after line V (Proc.devRef .tc main_v60)) :=
  HostRead.ternary_at line_outs V 7 main_v64 main_v65 main_v60 main_v66 _ _ _ _ _ rfl (HostRead.not_mem_drop_of_lt outs_nodup (j := 7) (k := 8) (x := main_v66) rfl (by omega)) (HostRead.not_mem_drop_of_lt outs_nodup (j := 5) (k := 7) (x := main_v64) rfl (by omega)) (HostRead.not_mem_drop_of_lt outs_nodup (j := 6) (k := 7) (x := main_v65) rfl (by omega)) (fun h => absurd (List.mem_of_mem_drop h) (by decide))

theorem at_main_call4_v0 : after line V (Proc.devRef .tc main_call4_v0) = ((extractStridedSlice S1 ![255] · slices_S256_S1_255)) (after line V (Proc.devRef .tc main_arg18)) :=
  eq_of_heq (HostRead.tunary_at line_outs V 8 (.of main_arg18 : StableHlo.TRef sig ⟨S256, .i32⟩) (.of main_call4_v0 : StableHlo.TRef sig ⟨S1, .i32⟩) ((extractStridedSlice S1 ![255] · slices_S256_S1_255)) rfl (HostRead.not_mem_drop_of_lt outs_nodup (j := 8) (k := 9) (x := main_call4_v0) rfl (by omega)) (fun h => absurd (List.mem_of_mem_drop h) (by decide)) (after line V (Proc.devRef .tc main_arg18)) HEq.rfl)

theorem at_main_call4_v1 : after line V (Proc.devRef .tc main_call4_v1) = ((extractStridedSlice S255 ![0] · slices_S256_S255_0)) (after line V (Proc.devRef .tc main_arg18)) :=
  eq_of_heq (HostRead.tunary_at line_outs V 9 (.of main_arg18 : StableHlo.TRef sig ⟨S256, .i32⟩) (.of main_call4_v1 : StableHlo.TRef sig ⟨S255, .i32⟩) ((extractStridedSlice S255 ![0] · slices_S256_S255_0)) rfl (HostRead.not_mem_drop_of_lt outs_nodup (j := 9) (k := 10) (x := main_call4_v1) rfl (by omega)) (fun h => absurd (List.mem_of_mem_drop h) (by decide)) (after line V (Proc.devRef .tc main_arg18)) HEq.rfl)

theorem at_main_v67 : after line V (Proc.devRef .tc main_v67) = ((fun a b => concatenate S256 0 [⟨S1, a⟩, ⟨S255, b⟩] concatenates_S1_S255_S256_d0)) (after line V (Proc.devRef .tc main_call4_v0)) (after line V (Proc.devRef .tc main_call4_v1)) :=
  eq_of_heq (HostRead.tbinary_at line_outs V 10 (.of main_call4_v0 : StableHlo.TRef sig ⟨S1, .i32⟩) (.of main_call4_v1 : StableHlo.TRef sig ⟨S255, .i32⟩) (.of main_v67 : StableHlo.TRef sig ⟨S256, .i32⟩) ((fun a b => concatenate S256 0 [⟨S1, a⟩, ⟨S255, b⟩] concatenates_S1_S255_S256_d0)) rfl (HostRead.not_mem_drop_of_lt outs_nodup (j := 10) (k := 11) (x := main_v67) rfl (by omega)) (HostRead.not_mem_drop_of_lt outs_nodup (j := 8) (k := 10) (x := main_call4_v0) rfl (by omega)) (HostRead.not_mem_drop_of_lt outs_nodup (j := 9) (k := 10) (x := main_call4_v1) rfl (by omega)) (after line V (Proc.devRef .tc main_call4_v0)) (after line V (Proc.devRef .tc main_call4_v1)) HEq.rfl HEq.rfl)

theorem at_main_c_15 : after line V (Proc.devRef .tc main_c_15) = (constantI S_ 32 0#32) :=
  HostRead.nullary_at line_outs V 11 main_c_15 _ _ rfl (HostRead.not_mem_drop_of_lt outs_nodup (j := 11) (k := 12) (x := main_c_15) rfl (by omega))

theorem at_main_v68 : after line V (Proc.devRef .tc main_v68) = ((broadcastInDim S1 ![] bcast_S_S1 : (⟨S_, .i32⟩ : BufTy).Contents (Elt F) → (⟨S1, .i32⟩ : BufTy).Contents (Elt F))) (after line V (Proc.devRef .tc main_c_15)) :=
  HostRead.unary_at line_outs V 12 main_c_15 main_v68 _ _ _ rfl (HostRead.not_mem_drop_of_lt outs_nodup (j := 12) (k := 13) (x := main_v68) rfl (by omega)) (HostRead.not_mem_drop_of_lt outs_nodup (j := 11) (k := 12) (x := main_c_15) rfl (by omega))

theorem at_main_c_16 : after line V (Proc.devRef .tc main_c_16) = (constantI S_ 32 0#32) :=
  HostRead.nullary_at line_outs V 13 main_c_16 _ _ rfl (HostRead.not_mem_drop_of_lt outs_nodup (j := 13) (k := 14) (x := main_c_16) rfl (by omega))

theorem at_main_v69 : after line V (Proc.devRef .tc main_v69) = (((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F))) (after line V (Proc.devRef .tc main_v67)) (after line V (Proc.devRef .tc main_v68)) (after line V (Proc.devRef .tc main_c_16)) :=
  HostRead.ternary_at line_outs V 14 main_v67 main_v68 main_c_16 main_v69 _ _ _ _ _ rfl (HostRead.not_mem_drop_of_lt outs_nodup (j := 14) (k := 15) (x := main_v69) rfl (by omega)) (HostRead.not_mem_drop_of_lt outs_nodup (j := 10) (k := 14) (x := main_v67) rfl (by omega)) (HostRead.not_mem_drop_of_lt outs_nodup (j := 12) (k := 14) (x := main_v68) rfl (by omega)) (HostRead.not_mem_drop_of_lt outs_nodup (j := 13) (k := 14) (x := main_c_16) rfl (by omega))

theorem at_main_call5_call0_c : after line V (Proc.devRef .tc main_call5_call0_c) = (constantI S_ 32 0#32) :=
  eq_of_heq (HostRead.tnullary_at line_outs V 15 (.of main_call5_call0_c : StableHlo.TRef sig ⟨S_, .i32⟩) ((constantI S_ 32 0#32)) rfl (HostRead.not_mem_drop_of_lt outs_nodup (j := 15) (k := 16) (x := main_call5_call0_c) rfl (by omega)))

theorem at_main_call5_call0_v0 : after line V (Proc.devRef .tc main_call5_call0_v0) = ((broadcastInDim S_ ![] bcast_S_S_)) (after line V (Proc.devRef .tc main_call5_call0_c)) :=
  eq_of_heq (HostRead.tunary_at line_outs V 16 (.of main_call5_call0_c : StableHlo.TRef sig ⟨S_, .i32⟩) (.of main_call5_call0_v0 : StableHlo.TRef sig ⟨S_, .i32⟩) ((broadcastInDim S_ ![] bcast_S_S_)) rfl (HostRead.not_mem_drop_of_lt outs_nodup (j := 16) (k := 17) (x := main_call5_call0_v0) rfl (by omega)) (HostRead.not_mem_drop_of_lt outs_nodup (j := 15) (k := 16) (x := main_call5_call0_c) rfl (by omega)) (after line V (Proc.devRef .tc main_call5_call0_c)) HEq.rfl)

theorem at_main_v70 : after line V (Proc.devRef .tc main_v70) = ((fun x v => Host.reduceWindow IntOp.addi ![256] ![1] ![255] ![0] x v reduceWindows_S256_S256_w256s1p255_0 h_S_)) (after line V (Proc.devRef .tc main_v69)) (after line V (Proc.devRef .tc main_call5_call0_v0)) :=
  eq_of_heq (HostRead.tbinary_at line_outs V 17 (.of main_v69 : StableHlo.TRef sig ⟨S256, .i32⟩) (.of main_call5_call0_v0 : StableHlo.TRef sig ⟨S_, .i32⟩) (.of main_v70 : StableHlo.TRef sig ⟨S256, .i32⟩) ((fun x v => Host.reduceWindow IntOp.addi ![256] ![1] ![255] ![0] x v reduceWindows_S256_S256_w256s1p255_0 h_S_)) rfl (HostRead.not_mem_drop_of_lt outs_nodup (j := 17) (k := 18) (x := main_v70) rfl (by omega)) (HostRead.not_mem_drop_of_lt outs_nodup (j := 14) (k := 17) (x := main_v69) rfl (by omega)) (HostRead.not_mem_drop_of_lt outs_nodup (j := 16) (k := 17) (x := main_call5_call0_v0) rfl (by omega)) (after line V (Proc.devRef .tc main_v69)) (after line V (Proc.devRef .tc main_call5_call0_v0)) HEq.rfl HEq.rfl)

theorem at_main_c_17 : after line V (Proc.devRef .tc main_c_17) = (constantI S_ 32 0#32) :=
  HostRead.nullary_at line_outs V 18 main_c_17 _ _ rfl (HostRead.not_mem_drop_of_lt outs_nodup (j := 18) (k := 19) (x := main_c_17) rfl (by omega))

theorem at_main_v71 : after line V (Proc.devRef .tc main_v71) = ((broadcastInDim S131072 ![] bcast_S_S131072 : (⟨S_, .i32⟩ : BufTy).Contents (Elt F) → (⟨S131072, .i32⟩ : BufTy).Contents (Elt F))) (after line V (Proc.devRef .tc main_c_17)) :=
  HostRead.unary_at line_outs V 19 main_c_17 main_v71 _ _ _ rfl (HostRead.not_mem_drop_of_lt outs_nodup (j := 19) (k := 20) (x := main_v71) rfl (by omega)) (HostRead.not_mem_drop_of_lt outs_nodup (j := 18) (k := 19) (x := main_c_17) rfl (by omega))

theorem at_main_c_18 : after line V (Proc.devRef .tc main_c_18) = (constantI S_ 32 0#32) :=
  HostRead.nullary_at line_outs V 20 main_c_18 _ _ rfl (HostRead.not_mem_drop_of_lt outs_nodup (j := 20) (k := 21) (x := main_c_18) rfl (by omega))

theorem at_main_v72 : after line V (Proc.devRef .tc main_v72) = ((broadcastInDim S256 ![] bcast_S_S256 : (⟨S_, .i32⟩ : BufTy).Contents (Elt F) → (⟨S256, .i32⟩ : BufTy).Contents (Elt F))) (after line V (Proc.devRef .tc main_c_18)) :=
  HostRead.unary_at line_outs V 21 main_c_18 main_v72 _ _ _ rfl (HostRead.not_mem_drop_of_lt outs_nodup (j := 21) (k := 22) (x := main_v72) rfl (by omega)) (HostRead.not_mem_drop_of_lt outs_nodup (j := 20) (k := 21) (x := main_c_18) rfl (by omega))

theorem at_main_v73 : after line V (Proc.devRef .tc main_v73) = ((cmpi .slt : (⟨S256, .i32⟩ : BufTy).Contents (Elt F) → (⟨S256, .i32⟩ : BufTy).Contents (Elt F) → (⟨S256, .i1⟩ : BufTy).Contents (Elt F))) (after line V (Proc.devRef .tc main_v70)) (after line V (Proc.devRef .tc main_v72)) :=
  HostRead.binary_at line_outs V 22 main_v70 main_v72 main_v73 _ _ _ _ rfl (HostRead.not_mem_drop_of_lt outs_nodup (j := 22) (k := 23) (x := main_v73) rfl (by omega)) (HostRead.not_mem_drop_of_lt outs_nodup (j := 17) (k := 22) (x := main_v70) rfl (by omega)) (HostRead.not_mem_drop_of_lt outs_nodup (j := 21) (k := 22) (x := main_v72) rfl (by omega))

theorem at_main_c_19 : after line V (Proc.devRef .tc main_c_19) = (constantI S_ 32 131072#32) :=
  HostRead.nullary_at line_outs V 23 main_c_19 _ _ rfl (HostRead.not_mem_drop_of_lt outs_nodup (j := 23) (k := 24) (x := main_c_19) rfl (by omega))

theorem at_main_v74 : after line V (Proc.devRef .tc main_v74) = ((broadcastInDim S256 ![] bcast_S_S256 : (⟨S_, .i32⟩ : BufTy).Contents (Elt F) → (⟨S256, .i32⟩ : BufTy).Contents (Elt F))) (after line V (Proc.devRef .tc main_c_19)) :=
  HostRead.unary_at line_outs V 24 main_c_19 main_v74 _ _ _ rfl (HostRead.not_mem_drop_of_lt outs_nodup (j := 24) (k := 25) (x := main_v74) rfl (by omega)) (HostRead.not_mem_drop_of_lt outs_nodup (j := 23) (k := 24) (x := main_c_19) rfl (by omega))

theorem at_main_v75 : after line V (Proc.devRef .tc main_v75) = ((addi : (⟨S256, .i32⟩ : BufTy).Contents (Elt F) → (⟨S256, .i32⟩ : BufTy).Contents (Elt F) → (⟨S256, .i32⟩ : BufTy).Contents (Elt F))) (after line V (Proc.devRef .tc main_v70)) (after line V (Proc.devRef .tc main_v74)) :=
  HostRead.binary_at line_outs V 25 main_v70 main_v74 main_v75 _ _ _ _ rfl (HostRead.not_mem_drop_of_lt outs_nodup (j := 25) (k := 26) (x := main_v75) rfl (by omega)) (HostRead.not_mem_drop_of_lt outs_nodup (j := 17) (k := 25) (x := main_v70) rfl (by omega)) (HostRead.not_mem_drop_of_lt outs_nodup (j := 24) (k := 25) (x := main_v74) rfl (by omega))

theorem at_main_v76 : after line V (Proc.devRef .tc main_v76) = ((select : (⟨S256, .i1⟩ : BufTy).Contents (Elt F) → (⟨S256, .i32⟩ : BufTy).Contents (Elt F) → (⟨S256, .i32⟩ : BufTy).Contents (Elt F) → (⟨S256, .i32⟩ : BufTy).Contents (Elt F))) (after line V (Proc.devRef .tc main_v73)) (after line V (Proc.devRef .tc main_v75)) (after line V (Proc.devRef .tc main_v70)) :=
  HostRead.ternary_at line_outs V 26 main_v73 main_v75 main_v70 main_v76 _ _ _ _ _ rfl (HostRead.not_mem_drop_of_lt outs_nodup (j := 26) (k := 27) (x := main_v76) rfl (by omega)) (HostRead.not_mem_drop_of_lt outs_nodup (j := 22) (k := 26) (x := main_v73) rfl (by omega)) (HostRead.not_mem_drop_of_lt outs_nodup (j := 25) (k := 26) (x := main_v75) rfl (by omega)) (HostRead.not_mem_drop_of_lt outs_nodup (j := 17) (k := 26) (x := main_v70) rfl (by omega))

theorem at_main_v77 : after line V (Proc.devRef .tc main_v77) = ((broadcastInDim S256x1 ![0] bcast_S256_S256x1_0 : (⟨S256, .i32⟩ : BufTy).Contents (Elt F) → (⟨S256x1, .i32⟩ : BufTy).Contents (Elt F))) (after line V (Proc.devRef .tc main_v76)) :=
  HostRead.unary_at line_outs V 27 main_v76 main_v77 _ _ _ rfl (HostRead.not_mem_drop_of_lt outs_nodup (j := 27) (k := 28) (x := main_v77) rfl (by omega)) (HostRead.not_mem_drop_of_lt outs_nodup (j := 26) (k := 27) (x := main_v76) rfl (by omega))

theorem at_main_c_20 : after line V (Proc.devRef .tc main_c_20) = (constantI S_ 32 1#32) :=
  HostRead.nullary_at line_outs V 28 main_c_20 _ _ rfl (HostRead.not_mem_drop_of_lt outs_nodup (j := 28) (k := 29) (x := main_c_20) rfl (by omega))

theorem at_main_v78 : after line V (Proc.devRef .tc main_v78) = ((broadcastInDim S256 ![] bcast_S_S256 : (⟨S_, .i32⟩ : BufTy).Contents (Elt F) → (⟨S256, .i32⟩ : BufTy).Contents (Elt F))) (after line V (Proc.devRef .tc main_c_20)) :=
  HostRead.unary_at line_outs V 29 main_c_20 main_v78 _ _ _ rfl (HostRead.not_mem_drop_of_lt outs_nodup (j := 29) (k := 30) (x := main_v78) rfl (by omega)) (HostRead.not_mem_drop_of_lt outs_nodup (j := 28) (k := 29) (x := main_c_20) rfl (by omega))

theorem at_main_v79 : after line V (Proc.devRef .tc main_v79) = (((fun x i u => Host.scatter scatter_S131072_S256x1_S256_n_0_0_1 IntOp.addi x i u) : (⟨S131072, .i32⟩ : BufTy).Contents (Elt F) → (⟨S256x1, .i32⟩ : BufTy).Contents (Elt F) → (⟨S256, .i32⟩ : BufTy).Contents (Elt F) → (⟨S131072, .i32⟩ : BufTy).Contents (Elt F))) (after line V (Proc.devRef .tc main_v71)) (after line V (Proc.devRef .tc main_v77)) (after line V (Proc.devRef .tc main_v78)) :=
  HostRead.ternary_at line_outs V 30 main_v71 main_v77 main_v78 main_v79 _ _ _ _ _ rfl (HostRead.not_mem_drop_of_lt outs_nodup (j := 30) (k := 31) (x := main_v79) rfl (by omega)) (HostRead.not_mem_drop_of_lt outs_nodup (j := 19) (k := 30) (x := main_v71) rfl (by omega)) (HostRead.not_mem_drop_of_lt outs_nodup (j := 27) (k := 30) (x := main_v77) rfl (by omega)) (HostRead.not_mem_drop_of_lt outs_nodup (j := 29) (k := 30) (x := main_v78) rfl (by omega))

theorem at_main_call6_call0_c : after line V (Proc.devRef .tc main_call6_call0_c) = (constantI S_ 32 0#32) :=
  eq_of_heq (HostRead.tnullary_at line_outs V 31 (.of main_call6_call0_c : StableHlo.TRef sig ⟨S_, .i32⟩) ((constantI S_ 32 0#32)) rfl (HostRead.not_mem_drop_of_lt outs_nodup (j := 31) (k := 32) (x := main_call6_call0_c) rfl (by omega)))

theorem at_main_call6_call0_v0 : after line V (Proc.devRef .tc main_call6_call0_v0) = ((broadcastInDim S_ ![] bcast_S_S_)) (after line V (Proc.devRef .tc main_call6_call0_c)) :=
  eq_of_heq (HostRead.tunary_at line_outs V 32 (.of main_call6_call0_c : StableHlo.TRef sig ⟨S_, .i32⟩) (.of main_call6_call0_v0 : StableHlo.TRef sig ⟨S_, .i32⟩) ((broadcastInDim S_ ![] bcast_S_S_)) rfl (HostRead.not_mem_drop_of_lt outs_nodup (j := 32) (k := 33) (x := main_call6_call0_v0) rfl (by omega)) (HostRead.not_mem_drop_of_lt outs_nodup (j := 31) (k := 32) (x := main_call6_call0_c) rfl (by omega)) (after line V (Proc.devRef .tc main_call6_call0_c)) HEq.rfl)

theorem at_main_v80 : after line V (Proc.devRef .tc main_v80) = ((fun x v => Host.reduceWindow IntOp.addi ![131072] ![1] ![131071] ![0] x v reduceWindows_S131072_S131072_w131072s1p131071_0 h_S_)) (after line V (Proc.devRef .tc main_v79)) (after line V (Proc.devRef .tc main_call6_call0_v0)) :=
  eq_of_heq (HostRead.tbinary_at line_outs V 33 (.of main_v79 : StableHlo.TRef sig ⟨S131072, .i32⟩) (.of main_call6_call0_v0 : StableHlo.TRef sig ⟨S_, .i32⟩) (.of main_v80 : StableHlo.TRef sig ⟨S131072, .i32⟩) ((fun x v => Host.reduceWindow IntOp.addi ![131072] ![1] ![131071] ![0] x v reduceWindows_S131072_S131072_w131072s1p131071_0 h_S_)) rfl (HostRead.not_mem_drop_of_lt outs_nodup (j := 33) (k := 34) (x := main_v80) rfl (by omega)) (HostRead.not_mem_drop_of_lt outs_nodup (j := 30) (k := 33) (x := main_v79) rfl (by omega)) (HostRead.not_mem_drop_of_lt outs_nodup (j := 32) (k := 33) (x := main_call6_call0_v0) rfl (by omega)) (after line V (Proc.devRef .tc main_v79)) (after line V (Proc.devRef .tc main_call6_call0_v0)) HEq.rfl HEq.rfl)

theorem at_main_c_21 : after line V (Proc.devRef .tc main_c_21) = (constantI S_ 32 1#32) :=
  HostRead.nullary_at line_outs V 34 main_c_21 _ _ rfl (HostRead.not_mem_drop_of_lt outs_nodup (j := 34) (k := 35) (x := main_c_21) rfl (by omega))

theorem at_main_v81 : after line V (Proc.devRef .tc main_v81) = ((broadcastInDim S131072 ![] bcast_S_S131072 : (⟨S_, .i32⟩ : BufTy).Contents (Elt F) → (⟨S131072, .i32⟩ : BufTy).Contents (Elt F))) (after line V (Proc.devRef .tc main_c_21)) :=
  HostRead.unary_at line_outs V 35 main_c_21 main_v81 _ _ _ rfl (HostRead.not_mem_drop_of_lt outs_nodup (j := 35) (k := 36) (x := main_v81) rfl (by omega)) (HostRead.not_mem_drop_of_lt outs_nodup (j := 34) (k := 35) (x := main_c_21) rfl (by omega))

theorem at_main_v82 : after line V (Proc.devRef .tc main_v82) = ((subi : (⟨S131072, .i32⟩ : BufTy).Contents (Elt F) → (⟨S131072, .i32⟩ : BufTy).Contents (Elt F) → (⟨S131072, .i32⟩ : BufTy).Contents (Elt F))) (after line V (Proc.devRef .tc main_v80)) (after line V (Proc.devRef .tc main_v81)) :=
  HostRead.binary_at line_outs V 36 main_v80 main_v81 main_v82 _ _ _ _ rfl (HostRead.not_mem_drop_of_lt outs_nodup (j := 36) (k := 37) (x := main_v82) rfl (by omega)) (HostRead.not_mem_drop_of_lt outs_nodup (j := 33) (k := 36) (x := main_v80) rfl (by omega)) (HostRead.not_mem_drop_of_lt outs_nodup (j := 35) (k := 36) (x := main_v81) rfl (by omega))

theorem at_main_call7_c : after line V (Proc.devRef .tc main_call7_c) = (constantI S_ 32 0#32) :=
  eq_of_heq (HostRead.tnullary_at line_outs V 37 (.of main_call7_c : StableHlo.TRef sig ⟨S_, .i32⟩) ((constantI S_ 32 0#32)) rfl (HostRead.not_mem_drop_of_lt outs_nodup (j := 37) (k := 38) (x := main_call7_c) rfl (by omega)))

theorem at_main_call7_v0 : after line V (Proc.devRef .tc main_call7_v0) = ((broadcastInDim S131072 ![] bcast_S_S131072)) (after line V (Proc.devRef .tc main_call7_c)) :=
  eq_of_heq (HostRead.tunary_at line_outs V 38 (.of main_call7_c : StableHlo.TRef sig ⟨S_, .i32⟩) (.of main_call7_v0 : StableHlo.TRef sig ⟨S131072, .i32⟩) ((broadcastInDim S131072 ![] bcast_S_S131072)) rfl (HostRead.not_mem_drop_of_lt outs_nodup (j := 38) (k := 39) (x := main_call7_v0) rfl (by omega)) (HostRead.not_mem_drop_of_lt outs_nodup (j := 37) (k := 38) (x := main_call7_c) rfl (by omega)) (after line V (Proc.devRef .tc main_call7_c)) HEq.rfl)

theorem at_main_call7_v1 : after line V (Proc.devRef .tc main_call7_v1) = ((cmpi .slt)) (after line V (Proc.devRef .tc main_v82)) (after line V (Proc.devRef .tc main_call7_v0)) :=
  eq_of_heq (HostRead.tbinary_at line_outs V 39 (.of main_v82 : StableHlo.TRef sig ⟨S131072, .i32⟩) (.of main_call7_v0 : StableHlo.TRef sig ⟨S131072, .i32⟩) (.of main_call7_v1 : StableHlo.TRef sig ⟨S131072, .i1⟩) ((cmpi .slt)) rfl (HostRead.not_mem_drop_of_lt outs_nodup (j := 39) (k := 40) (x := main_call7_v1) rfl (by omega)) (HostRead.not_mem_drop_of_lt outs_nodup (j := 36) (k := 39) (x := main_v82) rfl (by omega)) (HostRead.not_mem_drop_of_lt outs_nodup (j := 38) (k := 39) (x := main_call7_v0) rfl (by omega)) (after line V (Proc.devRef .tc main_v82)) (after line V (Proc.devRef .tc main_call7_v0)) HEq.rfl HEq.rfl)

theorem at_main_call7_c_0 : after line V (Proc.devRef .tc main_call7_c_0) = (constantI S_ 32 256#32) :=
  eq_of_heq (HostRead.tnullary_at line_outs V 40 (.of main_call7_c_0 : StableHlo.TRef sig ⟨S_, .i32⟩) ((constantI S_ 32 256#32)) rfl (HostRead.not_mem_drop_of_lt outs_nodup (j := 40) (k := 41) (x := main_call7_c_0) rfl (by omega)))

theorem at_main_call7_v2 : after line V (Proc.devRef .tc main_call7_v2) = ((broadcastInDim S131072 ![] bcast_S_S131072)) (after line V (Proc.devRef .tc main_call7_c_0)) :=
  eq_of_heq (HostRead.tunary_at line_outs V 41 (.of main_call7_c_0 : StableHlo.TRef sig ⟨S_, .i32⟩) (.of main_call7_v2 : StableHlo.TRef sig ⟨S131072, .i32⟩) ((broadcastInDim S131072 ![] bcast_S_S131072)) rfl (HostRead.not_mem_drop_of_lt outs_nodup (j := 41) (k := 42) (x := main_call7_v2) rfl (by omega)) (HostRead.not_mem_drop_of_lt outs_nodup (j := 40) (k := 41) (x := main_call7_c_0) rfl (by omega)) (after line V (Proc.devRef .tc main_call7_c_0)) HEq.rfl)

theorem at_main_call7_v3 : after line V (Proc.devRef .tc main_call7_v3) = (addi) (after line V (Proc.devRef .tc main_v82)) (after line V (Proc.devRef .tc main_call7_v2)) :=
  eq_of_heq (HostRead.tbinary_at line_outs V 42 (.of main_v82 : StableHlo.TRef sig ⟨S131072, .i32⟩) (.of main_call7_v2 : StableHlo.TRef sig ⟨S131072, .i32⟩) (.of main_call7_v3 : StableHlo.TRef sig ⟨S131072, .i32⟩) (addi) rfl (HostRead.not_mem_drop_of_lt outs_nodup (j := 42) (k := 43) (x := main_call7_v3) rfl (by omega)) (HostRead.not_mem_drop_of_lt outs_nodup (j := 36) (k := 42) (x := main_v82) rfl (by omega)) (HostRead.not_mem_drop_of_lt outs_nodup (j := 41) (k := 42) (x := main_call7_v2) rfl (by omega)) (after line V (Proc.devRef .tc main_v82)) (after line V (Proc.devRef .tc main_call7_v2)) HEq.rfl HEq.rfl)

theorem at_main_call7_v4 : after line V (Proc.devRef .tc main_call7_v4) = (select) (after line V (Proc.devRef .tc main_call7_v1)) (after line V (Proc.devRef .tc main_call7_v3)) (after line V (Proc.devRef .tc main_v82)) :=
  eq_of_heq (HostRead.tternary_at line_outs V 43 (.of main_call7_v1 : StableHlo.TRef sig ⟨S131072, .i1⟩) (.of main_call7_v3 : StableHlo.TRef sig ⟨S131072, .i32⟩) (.of main_v82 : StableHlo.TRef sig ⟨S131072, .i32⟩) (.of main_call7_v4 : StableHlo.TRef sig ⟨S131072, .i32⟩) (select) rfl (HostRead.not_mem_drop_of_lt outs_nodup (j := 43) (k := 44) (x := main_call7_v4) rfl (by omega)) (HostRead.not_mem_drop_of_lt outs_nodup (j := 39) (k := 43) (x := main_call7_v1) rfl (by omega)) (HostRead.not_mem_drop_of_lt outs_nodup (j := 42) (k := 43) (x := main_call7_v3) rfl (by omega)) (HostRead.not_mem_drop_of_lt outs_nodup (j := 36) (k := 43) (x := main_v82) rfl (by omega)) (after line V (Proc.devRef .tc main_call7_v1)) (after line V (Proc.devRef .tc main_call7_v3)) (after line V (Proc.devRef .tc main_v82)) HEq.rfl HEq.rfl HEq.rfl)

theorem at_main_call7_v5 : after line V (Proc.devRef .tc main_call7_v5) = ((broadcastInDim S131072x1 ![0] bcast_S131072_S131072x1_0)) (after line V (Proc.devRef .tc main_call7_v4)) :=
  eq_of_heq (HostRead.tunary_at line_outs V 44 main_call7_call0.v0 (.of main_call7_v5 : StableHlo.TRef sig ⟨S131072x1, .i32⟩) ((broadcastInDim S131072x1 ![0] bcast_S131072_S131072x1_0)) rfl (HostRead.not_mem_drop_of_lt outs_nodup (j := 44) (k := 45) (x := main_call7_v5) rfl (by omega)) (HostRead.not_mem_drop_of_lt outs_nodup (j := 43) (k := 44) (x := main_call7_v4) rfl (by omega)) (after line V (Proc.devRef .tc main_call7_v4)) HEq.rfl)

theorem at_main_call7_c_1 : after line V (Proc.devRef .tc main_call7_c_1) = (constantI S1 32 255#32) :=
  eq_of_heq (HostRead.tnullary_at line_outs V 45 (.of main_call7_c_1 : StableHlo.TRef sig ⟨S1, .i32⟩) ((constantI S1 32 255#32)) rfl (HostRead.not_mem_drop_of_lt outs_nodup (j := 45) (k := 46) (x := main_call7_c_1) rfl (by omega)))

theorem at_main_call7_c_2 : after line V (Proc.devRef .tc main_call7_c_2) = (constantI S_ 32 0#32) :=
  eq_of_heq (HostRead.tnullary_at line_outs V 46 (.of main_call7_c_2 : StableHlo.TRef sig ⟨S_, .i32⟩) ((constantI S_ 32 0#32)) rfl (HostRead.not_mem_drop_of_lt outs_nodup (j := 46) (k := 47) (x := main_call7_c_2) rfl (by omega)))

theorem at_main_call7_v6 : after line V (Proc.devRef .tc main_call7_v6) = ((broadcastInDim S131072x1 ![] bcast_S_S131072x1)) (after line V (Proc.devRef .tc main_call7_c_2)) :=
  eq_of_heq (HostRead.tunary_at line_outs V 47 (.of main_call7_c_2 : StableHlo.TRef sig ⟨S_, .i32⟩) (.of main_call7_v6 : StableHlo.TRef sig ⟨S131072x1, .i32⟩) ((broadcastInDim S131072x1 ![] bcast_S_S131072x1)) rfl (HostRead.not_mem_drop_of_lt outs_nodup (j := 47) (k := 48) (x := main_call7_v6) rfl (by omega)) (HostRead.not_mem_drop_of_lt outs_nodup (j := 46) (k := 47) (x := main_call7_c_2) rfl (by omega)) (after line V (Proc.devRef .tc main_call7_c_2)) HEq.rfl)

theorem at_main_call7_v7 : after line V (Proc.devRef .tc main_call7_v7) = ((cmpi .sge)) (after line V (Proc.devRef .tc main_call7_v5)) (after line V (Proc.devRef .tc main_call7_v6)) :=
  eq_of_heq (HostRead.tbinary_at line_outs V 48 (.of main_call7_v5 : StableHlo.TRef sig ⟨S131072x1, .i32⟩) (.of main_call7_v6 : StableHlo.TRef sig ⟨S131072x1, .i32⟩) (.of main_call7_v7 : StableHlo.TRef sig ⟨S131072x1, .i1⟩) ((cmpi .sge)) rfl (HostRead.not_mem_drop_of_lt outs_nodup (j := 48) (k := 49) (x := main_call7_v7) rfl (by omega)) (HostRead.not_mem_drop_of_lt outs_nodup (j := 44) (k := 48) (x := main_call7_v5) rfl (by omega)) (HostRead.not_mem_drop_of_lt outs_nodup (j := 47) (k := 48) (x := main_call7_v6) rfl (by omega)) (after line V (Proc.devRef .tc main_call7_v5)) (after line V (Proc.devRef .tc main_call7_v6)) HEq.rfl HEq.rfl)

theorem at_main_call7_v8 : after line V (Proc.devRef .tc main_call7_v8) = ((broadcastInDim S1x1 ![1] bcast_S1_S1x1_1)) (after line V (Proc.devRef .tc main_call7_c_1)) :=
  eq_of_heq (HostRead.tunary_at line_outs V 49 (.of main_call7_c_1 : StableHlo.TRef sig ⟨S1, .i32⟩) (.of main_call7_v8 : StableHlo.TRef sig ⟨S1x1, .i32⟩) ((broadcastInDim S1x1 ![1] bcast_S1_S1x1_1)) rfl (HostRead.not_mem_drop_of_lt outs_nodup (j := 49) (k := 50) (x := main_call7_v8) rfl (by omega)) (HostRead.not_mem_drop_of_lt outs_nodup (j := 45) (k := 49) (x := main_call7_c_1) rfl (by omega)) (after line V (Proc.devRef .tc main_call7_c_1)) HEq.rfl)

theorem at_main_call7_v9 : after line V (Proc.devRef .tc main_call7_v9) = ((broadcastInDim S131072x1 ![0, 1] bcast_S1x1_S131072x1_0_1)) (after line V (Proc.devRef .tc main_call7_v8)) :=
  eq_of_heq (HostRead.tunary_at line_outs V 50 (.of main_call7_v8 : StableHlo.TRef sig ⟨S1x1, .i32⟩) (.of main_call7_v9 : StableHlo.TRef sig ⟨S131072x1, .i32⟩) ((broadcastInDim S131072x1 ![0, 1] bcast_S1x1_S131072x1_0_1)) rfl (HostRead.not_mem_drop_of_lt outs_nodup (j := 50) (k := 51) (x := main_call7_v9) rfl (by omega)) (HostRead.not_mem_drop_of_lt outs_nodup (j := 49) (k := 50) (x := main_call7_v8) rfl (by omega)) (after line V (Proc.devRef .tc main_call7_v8)) HEq.rfl)

theorem at_main_call7_v10 : after line V (Proc.devRef .tc main_call7_v10) = ((cmpi .sle)) (after line V (Proc.devRef .tc main_call7_v5)) (after line V (Proc.devRef .tc main_call7_v9)) :=
  eq_of_heq (HostRead.tbinary_at line_outs V 51 (.of main_call7_v5 : StableHlo.TRef sig ⟨S131072x1, .i32⟩) (.of main_call7_v9 : StableHlo.TRef sig ⟨S131072x1, .i32⟩) (.of main_call7_v10 : StableHlo.TRef sig ⟨S131072x1, .i1⟩) ((cmpi .sle)) rfl (HostRead.not_mem_drop_of_lt outs_nodup (j := 51) (k := 52) (x := main_call7_v10) rfl (by omega)) (HostRead.not_mem_drop_of_lt outs_nodup (j := 44) (k := 51) (x := main_call7_v5) rfl (by omega)) (HostRead.not_mem_drop_of_lt outs_nodup (j := 50) (k := 51) (x := main_call7_v9) rfl (by omega)) (after line V (Proc.devRef .tc main_call7_v5)) (after line V (Proc.devRef .tc main_call7_v9)) HEq.rfl HEq.rfl)

theorem at_main_call7_v11 : after line V (Proc.devRef .tc main_call7_v11) = (andi) (after line V (Proc.devRef .tc main_call7_v7)) (after line V (Proc.devRef .tc main_call7_v10)) :=
  eq_of_heq (HostRead.tbinary_at line_outs V 52 (.of main_call7_v7 : StableHlo.TRef sig ⟨S131072x1, .i1⟩) (.of main_call7_v10 : StableHlo.TRef sig ⟨S131072x1, .i1⟩) (.of main_call7_v11 : StableHlo.TRef sig ⟨S131072x1, .i1⟩) (andi) rfl (HostRead.not_mem_drop_of_lt outs_nodup (j := 52) (k := 53) (x := main_call7_v11) rfl (by omega)) (HostRead.not_mem_drop_of_lt outs_nodup (j := 48) (k := 52) (x := main_call7_v7) rfl (by omega)) (HostRead.not_mem_drop_of_lt outs_nodup (j := 51) (k := 52) (x := main_call7_v10) rfl (by omega)) (after line V (Proc.devRef .tc main_call7_v7)) (after line V (Proc.devRef .tc main_call7_v10)) HEq.rfl HEq.rfl)

theorem at_main_call7_c_3 : after line V (Proc.devRef .tc main_call7_c_3) = (constantI S_ 1 1#1) :=
  eq_of_heq (HostRead.tnullary_at line_outs V 53 (.of main_call7_c_3 : StableHlo.TRef sig ⟨S_, .i1⟩) ((constantI S_ 1 1#1)) rfl (HostRead.not_mem_drop_of_lt outs_nodup (j := 53) (k := 54) (x := main_call7_c_3) rfl (by omega)))

theorem at_main_call7_v12 : after line V (Proc.devRef .tc main_call7_v12) = ((fun x v => Host.reduce IntOp.andi x v reducesTo_S131072x1_S131072_d1 h_S_)) (after line V (Proc.devRef .tc main_call7_v11)) (after line V (Proc.devRef .tc main_call7_c_3)) :=
  eq_of_heq (HostRead.tbinary_at line_outs V 54 (.of main_call7_v11 : StableHlo.TRef sig ⟨S131072x1, .i1⟩) (.of main_call7_c_3 : StableHlo.TRef sig ⟨S_, .i1⟩) (.of main_call7_v12 : StableHlo.TRef sig ⟨S131072, .i1⟩) ((fun x v => Host.reduce IntOp.andi x v reducesTo_S131072x1_S131072_d1 h_S_)) rfl (HostRead.not_mem_drop_of_lt outs_nodup (j := 54) (k := 55) (x := main_call7_v12) rfl (by omega)) (HostRead.not_mem_drop_of_lt outs_nodup (j := 52) (k := 54) (x := main_call7_v11) rfl (by omega)) (HostRead.not_mem_drop_of_lt outs_nodup (j := 53) (k := 54) (x := main_call7_c_3) rfl (by omega)) (after line V (Proc.devRef .tc main_call7_v11)) (after line V (Proc.devRef .tc main_call7_c_3)) HEq.rfl HEq.rfl)

theorem at_main_call7_v13 : after line V (Proc.devRef .tc main_call7_v13) = ((fun x i => Host.gather gather_S256x128_S131072x1_S131072x128_1_0_n_n_0_1_1128 x i)) (after line V (Proc.devRef .tc main_arg2)) (after line V (Proc.devRef .tc main_call7_v5)) :=
  eq_of_heq (HostRead.tbinary_at line_outs V 55 (.of main_arg2 : StableHlo.TRef sig ⟨S256x128, .f32⟩) (.of main_call7_v5 : StableHlo.TRef sig ⟨S131072x1, .i32⟩) (.of main_call7_v13 : StableHlo.TRef sig ⟨S131072x128, .f32⟩) ((fun x i => Host.gather gather_S256x128_S131072x1_S131072x128_1_0_n_n_0_1_1128 x i)) rfl (HostRead.not_mem_drop_of_lt outs_nodup (j := 55) (k := 56) (x := main_call7_v13) rfl (by omega)) (fun h => absurd (List.mem_of_mem_drop h) (by decide)) (HostRead.not_mem_drop_of_lt outs_nodup (j := 44) (k := 55) (x := main_call7_v5) rfl (by omega)) (after line V (Proc.devRef .tc main_arg2)) (after line V (Proc.devRef .tc main_call7_v5)) HEq.rfl HEq.rfl)

theorem at_main_call7_v14 : after line V (Proc.devRef .tc main_call7_v14) = ((broadcastInDim S131072x128 ![0] bcast_S131072_S131072x128_0)) (after line V (Proc.devRef .tc main_call7_v12)) :=
  eq_of_heq (HostRead.tunary_at line_outs V 56 (.of main_call7_v12 : StableHlo.TRef sig ⟨S131072, .i1⟩) (.of main_call7_v14 : StableHlo.TRef sig ⟨S131072x128, .i1⟩) ((broadcastInDim S131072x128 ![0] bcast_S131072_S131072x128_0)) rfl (HostRead.not_mem_drop_of_lt outs_nodup (j := 56) (k := 57) (x := main_call7_v14) rfl (by omega)) (HostRead.not_mem_drop_of_lt outs_nodup (j := 54) (k := 56) (x := main_call7_v12) rfl (by omega)) (after line V (Proc.devRef .tc main_call7_v12)) HEq.rfl)

theorem at_main_call7_cst : after line V (Proc.devRef .tc main_call7_cst) = (constant S_ .f32 0x7FC00000#32) :=
  eq_of_heq (HostRead.tnullary_at line_outs V 57 (.of main_call7_cst : StableHlo.TRef sig ⟨S_, .f32⟩) ((constant S_ .f32 0x7FC00000#32)) rfl (HostRead.not_mem_drop_of_lt outs_nodup (j := 57) (k := 58) (x := main_call7_cst) rfl (by omega)))

theorem at_main_call7_v15 : after line V (Proc.devRef .tc main_call7_v15) = ((broadcastInDim S131072x128 ![] bcast_S_S131072x128)) (after line V (Proc.devRef .tc main_call7_cst)) :=
  eq_of_heq (HostRead.tunary_at line_outs V 58 (.of main_call7_cst : StableHlo.TRef sig ⟨S_, .f32⟩) (.of main_call7_v15 : StableHlo.TRef sig ⟨S131072x128, .f32⟩) ((broadcastInDim S131072x128 ![] bcast_S_S131072x128)) rfl (HostRead.not_mem_drop_of_lt outs_nodup (j := 58) (k := 59) (x := main_call7_v15) rfl (by omega)) (HostRead.not_mem_drop_of_lt outs_nodup (j := 57) (k := 58) (x := main_call7_cst) rfl (by omega)) (after line V (Proc.devRef .tc main_call7_cst)) HEq.rfl)

theorem at_main_v83 : after line V (Proc.devRef .tc main_v83) = (select) (after line V (Proc.devRef .tc main_call7_v14)) (after line V (Proc.devRef .tc main_call7_v13)) (after line V (Proc.devRef .tc main_call7_v15)) :=
  eq_of_heq (HostRead.tternary_at line_outs V 59 (.of main_call7_v14 : StableHlo.TRef sig ⟨S131072x128, .i1⟩) (.of main_call7_v13 : StableHlo.TRef sig ⟨S131072x128, .f32⟩) (.of main_call7_v15 : StableHlo.TRef sig ⟨S131072x128, .f32⟩) (.of main_v83 : StableHlo.TRef sig ⟨S131072x128, .f32⟩) (select) rfl (HostRead.not_mem_drop_of_lt outs_nodup (j := 59) (k := 60) (x := main_v83) rfl (by omega)) (HostRead.not_mem_drop_of_lt outs_nodup (j := 56) (k := 59) (x := main_call7_v14) rfl (by omega)) (HostRead.not_mem_drop_of_lt outs_nodup (j := 55) (k := 59) (x := main_call7_v13) rfl (by omega)) (HostRead.not_mem_drop_of_lt outs_nodup (j := 58) (k := 59) (x := main_call7_v15) rfl (by omega)) (after line V (Proc.devRef .tc main_call7_v14)) (after line V (Proc.devRef .tc main_call7_v13)) (after line V (Proc.devRef .tc main_call7_v15)) HEq.rfl HEq.rfl HEq.rfl)

theorem at_main_v84 : after line V (Proc.devRef .tc main_v84) = (((extractStridedSlice S128x128 ![0, 0] · slices_S512x128_S128x128_0_0) : (⟨S512x128, .f32⟩ : BufTy).Contents (Elt F) → (⟨S128x128, .f32⟩ : BufTy).Contents (Elt F))) (after line V (Proc.devRef .tc main_arg6)) :=
  HostRead.unary_at line_outs V 60 main_arg6 main_v84 _ _ _ rfl (HostRead.not_mem_drop_of_lt outs_nodup (j := 60) (k := 61) (x := main_v84) rfl (by omega)) (fun h => absurd (List.mem_of_mem_drop h) (by decide))

theorem at_main_v85 : after line V (Proc.devRef .tc main_v85) = (((extractStridedSlice S128x128 ![128, 0] · slices_S512x128_S128x128_128_0) : (⟨S512x128, .f32⟩ : BufTy).Contents (Elt F) → (⟨S128x128, .f32⟩ : BufTy).Contents (Elt F))) (after line V (Proc.devRef .tc main_arg6)) :=
  HostRead.unary_at line_outs V 61 main_arg6 main_v85 _ _ _ rfl (HostRead.not_mem_drop_of_lt outs_nodup (j := 61) (k := 62) (x := main_v85) rfl (by omega)) (fun h => absurd (List.mem_of_mem_drop h) (by decide))

theorem at_main_v86 : after line V (Proc.devRef .tc main_v86) = (((extractStridedSlice S128x128 ![256, 0] · slices_S512x128_S128x128_256_0) : (⟨S512x128, .f32⟩ : BufTy).Contents (Elt F) → (⟨S128x128, .f32⟩ : BufTy).Contents (Elt F))) (after line V (Proc.devRef .tc main_arg6)) :=
  HostRead.unary_at line_outs V 62 main_arg6 main_v86 _ _ _ rfl (HostRead.not_mem_drop_of_lt outs_nodup (j := 62) (k := 63) (x := main_v86) rfl (by omega)) (fun h => absurd (List.mem_of_mem_drop h) (by decide))

theorem at_main_v87 : after line V (Proc.devRef .tc main_v87) = (((extractStridedSlice S128x128 ![384, 0] · slices_S512x128_S128x128_384_0) : (⟨S512x128, .f32⟩ : BufTy).Contents (Elt F) → (⟨S128x128, .f32⟩ : BufTy).Contents (Elt F))) (after line V (Proc.devRef .tc main_arg6)) :=
  HostRead.unary_at line_outs V 63 main_arg6 main_v87 _ _ _ rfl (HostRead.not_mem_drop_of_lt outs_nodup (j := 63) (k := 64) (x := main_v87) rfl (by omega)) (fun h => absurd (List.mem_of_mem_drop h) (by decide))

theorem at_main_v88 : after line V (Proc.devRef .tc main_v88) = fun i => shapeCast main_v88.ty.shape (after line V (Proc.devRef .tc main_arg7)) shapeCasts_S128_S1x128 i :=
  HostRead.reshape_at line_outs V 64 main_arg7 main_v88 rfl shapeCasts_S128_S1x128 _ _ rfl (HostRead.not_mem_drop_of_lt outs_nodup (j := 64) (k := 65) (x := main_v88) rfl (by omega)) (fun h => absurd (List.mem_of_mem_drop h) (by decide))

/-- A buffer the stage does not write keeps its contents. -/
theorem kept (r : Ref sig .tc) (hr : r ∉ outs) : after line V (Proc.devRef .tc r) = V (Proc.devRef .tc r) :=
  HostRead.after_take line_outs 0 r hr V

end Cert.KernelIdeal.HostStage1

end
-- ==== Proof.KHost2.lean ====
/-
  Host stage 2 of the idealized kernel read as a system of equations.

  The operations between two pipelined regions (or before the first) form one line in which every buffer is written
  once. After the whole line each written buffer holds its operation's function of what the operand buffers hold after
  the whole line, and a buffer the line does not write holds what it held before.
-/
import proofs.«134187_j30227979829536_1_alg».proof.Proof.Gen.KernelIdeal.Launch
import proofs.«134187_j30227979829536_1_alg».proof.Proof.LibHostTyped

set_option maxRecDepth 16384

noncomputable section

namespace Cert.KernelIdeal.HostStage2

open Idealize.ShloMosaic Idealize.ShloMosaic.StableHlo Idealize.ShloMosaic.TcCoe Cert.KernelIdeal Cert.KernelIdeal.Gen

variable {F : FTy → Type} [FloatOps F]

/-- The stage's operations, in program order. -/
abbrev line : List (HloOp τ sig (Elt F)) := hostOps2 ++ (hostOps2_1 ++ (hostOps2_2 ++ (hostOps2_3 ++ (hostOps2_4 ++ (hostOps2_5 ++ (hostOps2_6 ++ (hostOps2_7 ++ (hostOps2_8))))))))

/-- The buffer each operation writes, in the same order. -/
abbrev outs : List (Ref sig .tc) :=
  [main_cst_22, main_v90, main_v91, main_v92, main_cst_23, main_v93, main_v94, main_v95, main_call8_v0, main_call8_v1, main_v96, main_c_24, main_v97, main_c_25, main_v98, main_call9_call0_c, main_call9_call0_v0, main_v99, main_c_26, main_v100, main_c_27, main_v101, main_v102, main_c_28, main_v103, main_v104, main_v105, main_v106, main_c_29, main_v107, main_v108, main_call10_call0_c, main_call10_call0_v0, main_v109, main_c_30, main_v110, main_v111, main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v112, main_v113, main_v114, main_v115, main_v116, main_v117]

theorem outs_nodup : outs.Nodup := by decide

theorem line_outs : HostRead.Outs (τ := τ) (line (F := F)) outs :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

-- the window sums, reductions, gathers and scatters are folds over an operand's elements; no equation below looks inside one
attribute [local irreducible] Host.reduceWindow Host.reduce Host.gather Host.scatter Host.scatterAdd

variable (V : Valuation τ sig (Elt F))

theorem at_main_cst_22 : after line V (Proc.devRef .tc main_cst_22) = (constant S_ .f32 0x00000000#32) :=
  HostRead.nullary_at line_outs V 0 main_cst_22 _ _ rfl (HostRead.not_mem_drop_of_lt outs_nodup (j := 0) (k := 1) (x := main_cst_22) rfl (by omega))

theorem at_main_v90 : after line V (Proc.devRef .tc main_v90) = ((broadcastInDim S131072x128 ![] bcast_S_S131072x128 : (⟨S_, .f32⟩ : BufTy).Contents (Elt F) → (⟨S131072x128, .f32⟩ : BufTy).Contents (Elt F))) (after line V (Proc.devRef .tc main_cst_22)) :=
  HostRead.unary_at line_outs V 1 main_cst_22 main_v90 _ _ _ rfl (HostRead.not_mem_drop_of_lt outs_nodup (j := 1) (k := 2) (x := main_v90) rfl (by omega)) (HostRead.not_mem_drop_of_lt outs_nodup (j := 0) (k := 1) (x := main_cst_22) rfl (by omega))

theorem at_main_v91 : after line V (Proc.devRef .tc main_v91) = ((broadcastInDim S262144x1 ![0] bcast_S262144_S262144x1_0 : (⟨S262144, .i32⟩ : BufTy).Contents (Elt F) → (⟨S262144x1, .i32⟩ : BufTy).Contents (Elt F))) (after line V (Proc.devRef .tc main_v5)) :=
  HostRead.unary_at line_outs V 2 main_v5 main_v91 _ _ _ rfl (HostRead.not_mem_drop_of_lt outs_nodup (j := 2) (k := 3) (x := main_v91) rfl (by omega)) (fun h => absurd (List.mem_of_mem_drop h) (by decide))

theorem at_main_v92 : after line V (Proc.devRef .tc main_v92) = (((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F))) (after line V (Proc.devRef .tc main_v90)) (after line V (Proc.devRef .tc main_v91)) (after line V (Proc.devRef .tc main_v60)) :=
  HostRead.ternary_at line_outs V 3 main_v90 main_v91 main_v60 main_v92 _ _ _ _ _ rfl (HostRead.not_mem_drop_of_lt outs_nodup (j := 3) (k := 4) (x := main_v92) rfl (by omega)) (HostRead.not_mem_drop_of_lt outs_nodup (j := 1) (k := 3) (x := main_v90) rfl (by omega)) (HostRead.not_mem_drop_of_lt outs_nodup (j := 2) (k := 3) (x := main_v91) rfl (by omega)) (fun h => absurd (List.mem_of_mem_drop h) (by decide))

theorem at_main_cst_23 : after line V (Proc.devRef .tc main_cst_23) = (constant S_ .f32 0x00000000#32) :=
  HostRead.nullary_at line_outs V 4 main_cst_23 _ _ rfl (HostRead.not_mem_drop_of_lt outs_nodup (j := 4) (k := 5) (x := main_cst_23) rfl (by omega))

theorem at_main_v93 : after line V (Proc.devRef .tc main_v93) = ((broadcastInDim S131072x128 ![] bcast_S_S131072x128 : (⟨S_, .f32⟩ : BufTy).Contents (Elt F) → (⟨S131072x128, .f32⟩ : BufTy).Contents (Elt F))) (after line V (Proc.devRef .tc main_cst_23)) :=
  HostRead.unary_at line_outs V 5 main_cst_23 main_v93 _ _ _ rfl (HostRead.not_mem_drop_of_lt outs_nodup (j := 5) (k := 6) (x := main_v93) rfl (by omega)) (HostRead.not_mem_drop_of_lt outs_nodup (j := 4) (k := 5) (x := main_cst_23) rfl (by omega))

theorem at_main_v94 : after line V (Proc.devRef .tc main_v94) = ((broadcastInDim S262144x1 ![0] bcast_S262144_S262144x1_0 : (⟨S262144, .i32⟩ : BufTy).Contents (Elt F) → (⟨S262144x1, .i32⟩ : BufTy).Contents (Elt F))) (after line V (Proc.devRef .tc main_v7)) :=
  HostRead.unary_at line_outs V 6 main_v7 main_v94 _ _ _ rfl (HostRead.not_mem_drop_of_lt outs_nodup (j := 6) (k := 7) (x := main_v94) rfl (by omega)) (fun h => absurd (List.mem_of_mem_drop h) (by decide))

theorem at_main_v95 : after line V (Proc.devRef .tc main_v95) = (((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F))) (after line V (Proc.devRef .tc main_v93)) (after line V (Proc.devRef .tc main_v94)) (after line V (Proc.devRef .tc main_v60)) :=
  HostRead.ternary_at line_outs V 7 main_v93 main_v94 main_v60 main_v95 _ _ _ _ _ rfl (HostRead.not_mem_drop_of_lt outs_nodup (j := 7) (k := 8) (x := main_v95) rfl (by omega)) (HostRead.not_mem_drop_of_lt outs_nodup (j := 5) (k := 7) (x := main_v93) rfl (by omega)) (HostRead.not_mem_drop_of_lt outs_nodup (j := 6) (k := 7) (x := main_v94) rfl (by omega)) (fun h => absurd (List.mem_of_mem_drop h) (by decide))

theorem at_main_call8_v0 : after line V (Proc.devRef .tc main_call8_v0) = ((extractStridedSlice S1 ![255] · slices_S256_S1_255)) (after line V (Proc.devRef .tc main_arg20)) :=
  eq_of_heq (HostRead.tunary_at line_outs V 8 (.of main_arg20 : StableHlo.TRef sig ⟨S256, .i32⟩) (.of main_call8_v0 : StableHlo.TRef sig ⟨S1, .i32⟩) ((extractStridedSlice S1 ![255] · slices_S256_S1_255)) rfl (HostRead.not_mem_drop_of_lt outs_nodup (j := 8) (k := 9) (x := main_call8_v0) rfl (by omega)) (fun h => absurd (List.mem_of_mem_drop h) (by decide)) (after line V (Proc.devRef .tc main_arg20)) HEq.rfl)

theorem at_main_call8_v1 : after line V (Proc.devRef .tc main_call8_v1) = ((extractStridedSlice S255 ![0] · slices_S256_S255_0)) (after line V (Proc.devRef .tc main_arg20)) :=
  eq_of_heq (HostRead.tunary_at line_outs V 9 (.of main_arg20 : StableHlo.TRef sig ⟨S256, .i32⟩) (.of main_call8_v1 : StableHlo.TRef sig ⟨S255, .i32⟩) ((extractStridedSlice S255 ![0] · slices_S256_S255_0)) rfl (HostRead.not_mem_drop_of_lt outs_nodup (j := 9) (k := 10) (x := main_call8_v1) rfl (by omega)) (fun h => absurd (List.mem_of_mem_drop h) (by decide)) (after line V (Proc.devRef .tc main_arg20)) HEq.rfl)

theorem at_main_v96 : after line V (Proc.devRef .tc main_v96) = ((fun a b => concatenate S256 0 [⟨S1, a⟩, ⟨S255, b⟩] concatenates_S1_S255_S256_d0)) (after line V (Proc.devRef .tc main_call8_v0)) (after line V (Proc.devRef .tc main_call8_v1)) :=
  eq_of_heq (HostRead.tbinary_at line_outs V 10 (.of main_call8_v0 : StableHlo.TRef sig ⟨S1, .i32⟩) (.of main_call8_v1 : StableHlo.TRef sig ⟨S255, .i32⟩) (.of main_v96 : StableHlo.TRef sig ⟨S256, .i32⟩) ((fun a b => concatenate S256 0 [⟨S1, a⟩, ⟨S255, b⟩] concatenates_S1_S255_S256_d0)) rfl (HostRead.not_mem_drop_of_lt outs_nodup (j := 10) (k := 11) (x := main_v96) rfl (by omega)) (HostRead.not_mem_drop_of_lt outs_nodup (j := 8) (k := 10) (x := main_call8_v0) rfl (by omega)) (HostRead.not_mem_drop_of_lt outs_nodup (j := 9) (k := 10) (x := main_call8_v1) rfl (by omega)) (after line V (Proc.devRef .tc main_call8_v0)) (after line V (Proc.devRef .tc main_call8_v1)) HEq.rfl HEq.rfl)

theorem at_main_c_24 : after line V (Proc.devRef .tc main_c_24) = (constantI S_ 32 0#32) :=
  HostRead.nullary_at line_outs V 11 main_c_24 _ _ rfl (HostRead.not_mem_drop_of_lt outs_nodup (j := 11) (k := 12) (x := main_c_24) rfl (by omega))

theorem at_main_v97 : after line V (Proc.devRef .tc main_v97) = ((broadcastInDim S1 ![] bcast_S_S1 : (⟨S_, .i32⟩ : BufTy).Contents (Elt F) → (⟨S1, .i32⟩ : BufTy).Contents (Elt F))) (after line V (Proc.devRef .tc main_c_24)) :=
  HostRead.unary_at line_outs V 12 main_c_24 main_v97 _ _ _ rfl (HostRead.not_mem_drop_of_lt outs_nodup (j := 12) (k := 13) (x := main_v97) rfl (by omega)) (HostRead.not_mem_drop_of_lt outs_nodup (j := 11) (k := 12) (x := main_c_24) rfl (by omega))

theorem at_main_c_25 : after line V (Proc.devRef .tc main_c_25) = (constantI S_ 32 0#32) :=
  HostRead.nullary_at line_outs V 13 main_c_25 _ _ rfl (HostRead.not_mem_drop_of_lt outs_nodup (j := 13) (k := 14) (x := main_c_25) rfl (by omega))

theorem at_main_v98 : after line V (Proc.devRef .tc main_v98) = (((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F))) (after line V (Proc.devRef .tc main_v96)) (after line V (Proc.devRef .tc main_v97)) (after line V (Proc.devRef .tc main_c_25)) :=
  HostRead.ternary_at line_outs V 14 main_v96 main_v97 main_c_25 main_v98 _ _ _ _ _ rfl (HostRead.not_mem_drop_of_lt outs_nodup (j := 14) (k := 15) (x := main_v98) rfl (by omega)) (HostRead.not_mem_drop_of_lt outs_nodup (j := 10) (k := 14) (x := main_v96) rfl (by omega)) (HostRead.not_mem_drop_of_lt outs_nodup (j := 12) (k := 14) (x := main_v97) rfl (by omega)) (HostRead.not_mem_drop_of_lt outs_nodup (j := 13) (k := 14) (x := main_c_25) rfl (by omega))

theorem at_main_call9_call0_c : after line V (Proc.devRef .tc main_call9_call0_c) = (constantI S_ 32 0#32) :=
  eq_of_heq (HostRead.tnullary_at line_outs V 15 (.of main_call9_call0_c : StableHlo.TRef sig ⟨S_, .i32⟩) ((constantI S_ 32 0#32)) rfl (HostRead.not_mem_drop_of_lt outs_nodup (j := 15) (k := 16) (x := main_call9_call0_c) rfl (by omega)))

theorem at_main_call9_call0_v0 : after line V (Proc.devRef .tc main_call9_call0_v0) = ((broadcastInDim S_ ![] bcast_S_S_)) (after line V (Proc.devRef .tc main_call9_call0_c)) :=
  eq_of_heq (HostRead.tunary_at line_outs V 16 (.of main_call9_call0_c : StableHlo.TRef sig ⟨S_, .i32⟩) (.of main_call9_call0_v0 : StableHlo.TRef sig ⟨S_, .i32⟩) ((broadcastInDim S_ ![] bcast_S_S_)) rfl (HostRead.not_mem_drop_of_lt outs_nodup (j := 16) (k := 17) (x := main_call9_call0_v0) rfl (by omega)) (HostRead.not_mem_drop_of_lt outs_nodup (j := 15) (k := 16) (x := main_call9_call0_c) rfl (by omega)) (after line V (Proc.devRef .tc main_call9_call0_c)) HEq.rfl)

theorem at_main_v99 : after line V (Proc.devRef .tc main_v99) = ((fun x v => Host.reduceWindow IntOp.addi ![256] ![1] ![255] ![0] x v reduceWindows_S256_S256_w256s1p255_0 h_S_)) (after line V (Proc.devRef .tc main_v98)) (after line V (Proc.devRef .tc main_call9_call0_v0)) :=
  eq_of_heq (HostRead.tbinary_at line_outs V 17 (.of main_v98 : StableHlo.TRef sig ⟨S256, .i32⟩) (.of main_call9_call0_v0 : StableHlo.TRef sig ⟨S_, .i32⟩) (.of main_v99 : StableHlo.TRef sig ⟨S256, .i32⟩) ((fun x v => Host.reduceWindow IntOp.addi ![256] ![1] ![255] ![0] x v reduceWindows_S256_S256_w256s1p255_0 h_S_)) rfl (HostRead.not_mem_drop_of_lt outs_nodup (j := 17) (k := 18) (x := main_v99) rfl (by omega)) (HostRead.not_mem_drop_of_lt outs_nodup (j := 14) (k := 17) (x := main_v98) rfl (by omega)) (HostRead.not_mem_drop_of_lt outs_nodup (j := 16) (k := 17) (x := main_call9_call0_v0) rfl (by omega)) (after line V (Proc.devRef .tc main_v98)) (after line V (Proc.devRef .tc main_call9_call0_v0)) HEq.rfl HEq.rfl)

theorem at_main_c_26 : after line V (Proc.devRef .tc main_c_26) = (constantI S_ 32 0#32) :=
  HostRead.nullary_at line_outs V 18 main_c_26 _ _ rfl (HostRead.not_mem_drop_of_lt outs_nodup (j := 18) (k := 19) (x := main_c_26) rfl (by omega))

theorem at_main_v100 : after line V (Proc.devRef .tc main_v100) = ((broadcastInDim S131072 ![] bcast_S_S131072 : (⟨S_, .i32⟩ : BufTy).Contents (Elt F) → (⟨S131072, .i32⟩ : BufTy).Contents (Elt F))) (after line V (Proc.devRef .tc main_c_26)) :=
  HostRead.unary_at line_outs V 19 main_c_26 main_v100 _ _ _ rfl (HostRead.not_mem_drop_of_lt outs_nodup (j := 19) (k := 20) (x := main_v100) rfl (by omega)) (HostRead.not_mem_drop_of_lt outs_nodup (j := 18) (k := 19) (x := main_c_26) rfl (by omega))

theorem at_main_c_27 : after line V (Proc.devRef .tc main_c_27) = (constantI S_ 32 0#32) :=
  HostRead.nullary_at line_outs V 20 main_c_27 _ _ rfl (HostRead.not_mem_drop_of_lt outs_nodup (j := 20) (k := 21) (x := main_c_27) rfl (by omega))

theorem at_main_v101 : after line V (Proc.devRef .tc main_v101) = ((broadcastInDim S256 ![] bcast_S_S256 : (⟨S_, .i32⟩ : BufTy).Contents (Elt F) → (⟨S256, .i32⟩ : BufTy).Contents (Elt F))) (after line V (Proc.devRef .tc main_c_27)) :=
  HostRead.unary_at line_outs V 21 main_c_27 main_v101 _ _ _ rfl (HostRead.not_mem_drop_of_lt outs_nodup (j := 21) (k := 22) (x := main_v101) rfl (by omega)) (HostRead.not_mem_drop_of_lt outs_nodup (j := 20) (k := 21) (x := main_c_27) rfl (by omega))

theorem at_main_v102 : after line V (Proc.devRef .tc main_v102) = ((cmpi .slt : (⟨S256, .i32⟩ : BufTy).Contents (Elt F) → (⟨S256, .i32⟩ : BufTy).Contents (Elt F) → (⟨S256, .i1⟩ : BufTy).Contents (Elt F))) (after line V (Proc.devRef .tc main_v99)) (after line V (Proc.devRef .tc main_v101)) :=
  HostRead.binary_at line_outs V 22 main_v99 main_v101 main_v102 _ _ _ _ rfl (HostRead.not_mem_drop_of_lt outs_nodup (j := 22) (k := 23) (x := main_v102) rfl (by omega)) (HostRead.not_mem_drop_of_lt outs_nodup (j := 17) (k := 22) (x := main_v99) rfl (by omega)) (HostRead.not_mem_drop_of_lt outs_nodup (j := 21) (k := 22) (x := main_v101) rfl (by omega))

theorem at_main_c_28 : after line V (Proc.devRef .tc main_c_28) = (constantI S_ 32 131072#32) :=
  HostRead.nullary_at line_outs V 23 main_c_28 _ _ rfl (HostRead.not_mem_drop_of_lt outs_nodup (j := 23) (k := 24) (x := main_c_28) rfl (by omega))

theorem at_main_v103 : after line V (Proc.devRef .tc main_v103) = ((broadcastInDim S256 ![] bcast_S_S256 : (⟨S_, .i32⟩ : BufTy).Contents (Elt F) → (⟨S256, .i32⟩ : BufTy).Contents (Elt F))) (after line V (Proc.devRef .tc main_c_28)) :=
  HostRead.unary_at line_outs V 24 main_c_28 main_v103 _ _ _ rfl (HostRead.not_mem_drop_of_lt outs_nodup (j := 24) (k := 25) (x := main_v103) rfl (by omega)) (HostRead.not_mem_drop_of_lt outs_nodup (j := 23) (k := 24) (x := main_c_28) rfl (by omega))

theorem at_main_v104 : after line V (Proc.devRef .tc main_v104) = ((addi : (⟨S256, .i32⟩ : BufTy).Contents (Elt F) → (⟨S256, .i32⟩ : BufTy).Contents (Elt F) → (⟨S256, .i32⟩ : BufTy).Contents (Elt F))) (after line V (Proc.devRef .tc main_v99)) (after line V (Proc.devRef .tc main_v103)) :=
  HostRead.binary_at line_outs V 25 main_v99 main_v103 main_v104 _ _ _ _ rfl (HostRead.not_mem_drop_of_lt outs_nodup (j := 25) (k := 26) (x := main_v104) rfl (by omega)) (HostRead.not_mem_drop_of_lt outs_nodup (j := 17) (k := 25) (x := main_v99) rfl (by omega)) (HostRead.not_mem_drop_of_lt outs_nodup (j := 24) (k := 25) (x := main_v103) rfl (by omega))

theorem at_main_v105 : after line V (Proc.devRef .tc main_v105) = ((select : (⟨S256, .i1⟩ : BufTy).Contents (Elt F) → (⟨S256, .i32⟩ : BufTy).Contents (Elt F) → (⟨S256, .i32⟩ : BufTy).Contents (Elt F) → (⟨S256, .i32⟩ : BufTy).Contents (Elt F))) (after line V (Proc.devRef .tc main_v102)) (after line V (Proc.devRef .tc main_v104)) (after line V (Proc.devRef .tc main_v99)) :=
  HostRead.ternary_at line_outs V 26 main_v102 main_v104 main_v99 main_v105 _ _ _ _ _ rfl (HostRead.not_mem_drop_of_lt outs_nodup (j := 26) (k := 27) (x := main_v105) rfl (by omega)) (HostRead.not_mem_drop_of_lt outs_nodup (j := 22) (k := 26) (x := main_v102) rfl (by omega)) (HostRead.not_mem_drop_of_lt outs_nodup (j := 25) (k := 26) (x := main_v104) rfl (by omega)) (HostRead.not_mem_drop_of_lt outs_nodup (j := 17) (k := 26) (x := main_v99) rfl (by omega))

theorem at_main_v106 : after line V (Proc.devRef .tc main_v106) = ((broadcastInDim S256x1 ![0] bcast_S256_S256x1_0 : (⟨S256, .i32⟩ : BufTy).Contents (Elt F) → (⟨S256x1, .i32⟩ : BufTy).Contents (Elt F))) (after line V (Proc.devRef .tc main_v105)) :=
  HostRead.unary_at line_outs V 27 main_v105 main_v106 _ _ _ rfl (HostRead.not_mem_drop_of_lt outs_nodup (j := 27) (k := 28) (x := main_v106) rfl (by omega)) (HostRead.not_mem_drop_of_lt outs_nodup (j := 26) (k := 27) (x := main_v105) rfl (by omega))

theorem at_main_c_29 : after line V (Proc.devRef .tc main_c_29) = (constantI S_ 32 1#32) :=
  HostRead.nullary_at line_outs V 28 main_c_29 _ _ rfl (HostRead.not_mem_drop_of_lt outs_nodup (j := 28) (k := 29) (x := main_c_29) rfl (by omega))

theorem at_main_v107 : after line V (Proc.devRef .tc main_v107) = ((broadcastInDim S256 ![] bcast_S_S256 : (⟨S_, .i32⟩ : BufTy).Contents (Elt F) → (⟨S256, .i32⟩ : BufTy).Contents (Elt F))) (after line V (Proc.devRef .tc main_c_29)) :=
  HostRead.unary_at line_outs V 29 main_c_29 main_v107 _ _ _ rfl (HostRead.not_mem_drop_of_lt outs_nodup (j := 29) (k := 30) (x := main_v107) rfl (by omega)) (HostRead.not_mem_drop_of_lt outs_nodup (j := 28) (k := 29) (x := main_c_29) rfl (by omega))

theorem at_main_v108 : after line V (Proc.devRef .tc main_v108) = (((fun x i u => Host.scatter scatter_S131072_S256x1_S256_n_0_0_1 IntOp.addi x i u) : (⟨S131072, .i32⟩ : BufTy).Contents (Elt F) → (⟨S256x1, .i32⟩ : BufTy).Contents (Elt F) → (⟨S256, .i32⟩ : BufTy).Contents (Elt F) → (⟨S131072, .i32⟩ : BufTy).Contents (Elt F))) (after line V (Proc.devRef .tc main_v100)) (after line V (Proc.devRef .tc main_v106)) (after line V (Proc.devRef .tc main_v107)) :=
  HostRead.ternary_at line_outs V 30 main_v100 main_v106 main_v107 main_v108 _ _ _ _ _ rfl (HostRead.not_mem_drop_of_lt outs_nodup (j := 30) (k := 31) (x := main_v108) rfl (by omega)) (HostRead.not_mem_drop_of_lt outs_nodup (j := 19) (k := 30) (x := main_v100) rfl (by omega)) (HostRead.not_mem_drop_of_lt outs_nodup (j := 27) (k := 30) (x := main_v106) rfl (by omega)) (HostRead.not_mem_drop_of_lt outs_nodup (j := 29) (k := 30) (x := main_v107) rfl (by omega))

theorem at_main_call10_call0_c : after line V (Proc.devRef .tc main_call10_call0_c) = (constantI S_ 32 0#32) :=
  eq_of_heq (HostRead.tnullary_at line_outs V 31 (.of main_call10_call0_c : StableHlo.TRef sig ⟨S_, .i32⟩) ((constantI S_ 32 0#32)) rfl (HostRead.not_mem_drop_of_lt outs_nodup (j := 31) (k := 32) (x := main_call10_call0_c) rfl (by omega)))

theorem at_main_call10_call0_v0 : after line V (Proc.devRef .tc main_call10_call0_v0) = ((broadcastInDim S_ ![] bcast_S_S_)) (after line V (Proc.devRef .tc main_call10_call0_c)) :=
  eq_of_heq (HostRead.tunary_at line_outs V 32 (.of main_call10_call0_c : StableHlo.TRef sig ⟨S_, .i32⟩) (.of main_call10_call0_v0 : StableHlo.TRef sig ⟨S_, .i32⟩) ((broadcastInDim S_ ![] bcast_S_S_)) rfl (HostRead.not_mem_drop_of_lt outs_nodup (j := 32) (k := 33) (x := main_call10_call0_v0) rfl (by omega)) (HostRead.not_mem_drop_of_lt outs_nodup (j := 31) (k := 32) (x := main_call10_call0_c) rfl (by omega)) (after line V (Proc.devRef .tc main_call10_call0_c)) HEq.rfl)

theorem at_main_v109 : after line V (Proc.devRef .tc main_v109) = ((fun x v => Host.reduceWindow IntOp.addi ![131072] ![1] ![131071] ![0] x v reduceWindows_S131072_S131072_w131072s1p131071_0 h_S_)) (after line V (Proc.devRef .tc main_v108)) (after line V (Proc.devRef .tc main_call10_call0_v0)) :=
  eq_of_heq (HostRead.tbinary_at line_outs V 33 (.of main_v108 : StableHlo.TRef sig ⟨S131072, .i32⟩) (.of main_call10_call0_v0 : StableHlo.TRef sig ⟨S_, .i32⟩) (.of main_v109 : StableHlo.TRef sig ⟨S131072, .i32⟩) ((fun x v => Host.reduceWindow IntOp.addi ![131072] ![1] ![131071] ![0] x v reduceWindows_S131072_S131072_w131072s1p131071_0 h_S_)) rfl (HostRead.not_mem_drop_of_lt outs_nodup (j := 33) (k := 34) (x := main_v109) rfl (by omega)) (HostRead.not_mem_drop_of_lt outs_nodup (j := 30) (k := 33) (x := main_v108) rfl (by omega)) (HostRead.not_mem_drop_of_lt outs_nodup (j := 32) (k := 33) (x := main_call10_call0_v0) rfl (by omega)) (after line V (Proc.devRef .tc main_v108)) (after line V (Proc.devRef .tc main_call10_call0_v0)) HEq.rfl HEq.rfl)

theorem at_main_c_30 : after line V (Proc.devRef .tc main_c_30) = (constantI S_ 32 1#32) :=
  HostRead.nullary_at line_outs V 34 main_c_30 _ _ rfl (HostRead.not_mem_drop_of_lt outs_nodup (j := 34) (k := 35) (x := main_c_30) rfl (by omega))

theorem at_main_v110 : after line V (Proc.devRef .tc main_v110) = ((broadcastInDim S131072 ![] bcast_S_S131072 : (⟨S_, .i32⟩ : BufTy).Contents (Elt F) → (⟨S131072, .i32⟩ : BufTy).Contents (Elt F))) (after line V (Proc.devRef .tc main_c_30)) :=
  HostRead.unary_at line_outs V 35 main_c_30 main_v110 _ _ _ rfl (HostRead.not_mem_drop_of_lt outs_nodup (j := 35) (k := 36) (x := main_v110) rfl (by omega)) (HostRead.not_mem_drop_of_lt outs_nodup (j := 34) (k := 35) (x := main_c_30) rfl (by omega))

theorem at_main_v111 : after line V (Proc.devRef .tc main_v111) = ((subi : (⟨S131072, .i32⟩ : BufTy).Contents (Elt F) → (⟨S131072, .i32⟩ : BufTy).Contents (Elt F) → (⟨S131072, .i32⟩ : BufTy).Contents (Elt F))) (after line V (Proc.devRef .tc main_v109)) (after line V (Proc.devRef .tc main_v110)) :=
  HostRead.binary_at line_outs V 36 main_v109 main_v110 main_v111 _ _ _ _ rfl (HostRead.not_mem_drop_of_lt outs_nodup (j := 36) (k := 37) (x := main_v111) rfl (by omega)) (HostRead.not_mem_drop_of_lt outs_nodup (j := 33) (k := 36) (x := main_v109) rfl (by omega)) (HostRead.not_mem_drop_of_lt outs_nodup (j := 35) (k := 36) (x := main_v110) rfl (by omega))

theorem at_main_call11_c : after line V (Proc.devRef .tc main_call11_c) = (constantI S_ 32 0#32) :=
  eq_of_heq (HostRead.tnullary_at line_outs V 37 (.of main_call11_c : StableHlo.TRef sig ⟨S_, .i32⟩) ((constantI S_ 32 0#32)) rfl (HostRead.not_mem_drop_of_lt outs_nodup (j := 37) (k := 38) (x := main_call11_c) rfl (by omega)))

theorem at_main_call11_v0 : after line V (Proc.devRef .tc main_call11_v0) = ((broadcastInDim S131072 ![] bcast_S_S131072)) (after line V (Proc.devRef .tc main_call11_c)) :=
  eq_of_heq (HostRead.tunary_at line_outs V 38 (.of main_call11_c : StableHlo.TRef sig ⟨S_, .i32⟩) (.of main_call11_v0 : StableHlo.TRef sig ⟨S131072, .i32⟩) ((broadcastInDim S131072 ![] bcast_S_S131072)) rfl (HostRead.not_mem_drop_of_lt outs_nodup (j := 38) (k := 39) (x := main_call11_v0) rfl (by omega)) (HostRead.not_mem_drop_of_lt outs_nodup (j := 37) (k := 38) (x := main_call11_c) rfl (by omega)) (after line V (Proc.devRef .tc main_call11_c)) HEq.rfl)

theorem at_main_call11_v1 : after line V (Proc.devRef .tc main_call11_v1) = ((cmpi .slt)) (after line V (Proc.devRef .tc main_v111)) (after line V (Proc.devRef .tc main_call11_v0)) :=
  eq_of_heq (HostRead.tbinary_at line_outs V 39 (.of main_v111 : StableHlo.TRef sig ⟨S131072, .i32⟩) (.of main_call11_v0 : StableHlo.TRef sig ⟨S131072, .i32⟩) (.of main_call11_v1 : StableHlo.TRef sig ⟨S131072, .i1⟩) ((cmpi .slt)) rfl (HostRead.not_mem_drop_of_lt outs_nodup (j := 39) (k := 40) (x := main_call11_v1) rfl (by omega)) (HostRead.not_mem_drop_of_lt outs_nodup (j := 36) (k := 39) (x := main_v111) rfl (by omega)) (HostRead.not_mem_drop_of_lt outs_nodup (j := 38) (k := 39) (x := main_call11_v0) rfl (by omega)) (after line V (Proc.devRef .tc main_v111)) (after line V (Proc.devRef .tc main_call11_v0)) HEq.rfl HEq.rfl)

theorem at_main_call11_c_0 : after line V (Proc.devRef .tc main_call11_c_0) = (constantI S_ 32 256#32) :=
  eq_of_heq (HostRead.tnullary_at line_outs V 40 (.of main_call11_c_0 : StableHlo.TRef sig ⟨S_, .i32⟩) ((constantI S_ 32 256#32)) rfl (HostRead.not_mem_drop_of_lt outs_nodup (j := 40) (k := 41) (x := main_call11_c_0) rfl (by omega)))

theorem at_main_call11_v2 : after line V (Proc.devRef .tc main_call11_v2) = ((broadcastInDim S131072 ![] bcast_S_S131072)) (after line V (Proc.devRef .tc main_call11_c_0)) :=
  eq_of_heq (HostRead.tunary_at line_outs V 41 (.of main_call11_c_0 : StableHlo.TRef sig ⟨S_, .i32⟩) (.of main_call11_v2 : StableHlo.TRef sig ⟨S131072, .i32⟩) ((broadcastInDim S131072 ![] bcast_S_S131072)) rfl (HostRead.not_mem_drop_of_lt outs_nodup (j := 41) (k := 42) (x := main_call11_v2) rfl (by omega)) (HostRead.not_mem_drop_of_lt outs_nodup (j := 40) (k := 41) (x := main_call11_c_0) rfl (by omega)) (after line V (Proc.devRef .tc main_call11_c_0)) HEq.rfl)

theorem at_main_call11_v3 : after line V (Proc.devRef .tc main_call11_v3) = (addi) (after line V (Proc.devRef .tc main_v111)) (after line V (Proc.devRef .tc main_call11_v2)) :=
  eq_of_heq (HostRead.tbinary_at line_outs V 42 (.of main_v111 : StableHlo.TRef sig ⟨S131072, .i32⟩) (.of main_call11_v2 : StableHlo.TRef sig ⟨S131072, .i32⟩) (.of main_call11_v3 : StableHlo.TRef sig ⟨S131072, .i32⟩) (addi) rfl (HostRead.not_mem_drop_of_lt outs_nodup (j := 42) (k := 43) (x := main_call11_v3) rfl (by omega)) (HostRead.not_mem_drop_of_lt outs_nodup (j := 36) (k := 42) (x := main_v111) rfl (by omega)) (HostRead.not_mem_drop_of_lt outs_nodup (j := 41) (k := 42) (x := main_call11_v2) rfl (by omega)) (after line V (Proc.devRef .tc main_v111)) (after line V (Proc.devRef .tc main_call11_v2)) HEq.rfl HEq.rfl)

theorem at_main_call11_v4 : after line V (Proc.devRef .tc main_call11_v4) = (select) (after line V (Proc.devRef .tc main_call11_v1)) (after line V (Proc.devRef .tc main_call11_v3)) (after line V (Proc.devRef .tc main_v111)) :=
  eq_of_heq (HostRead.tternary_at line_outs V 43 (.of main_call11_v1 : StableHlo.TRef sig ⟨S131072, .i1⟩) (.of main_call11_v3 : StableHlo.TRef sig ⟨S131072, .i32⟩) (.of main_v111 : StableHlo.TRef sig ⟨S131072, .i32⟩) (.of main_call11_v4 : StableHlo.TRef sig ⟨S131072, .i32⟩) (select) rfl (HostRead.not_mem_drop_of_lt outs_nodup (j := 43) (k := 44) (x := main_call11_v4) rfl (by omega)) (HostRead.not_mem_drop_of_lt outs_nodup (j := 39) (k := 43) (x := main_call11_v1) rfl (by omega)) (HostRead.not_mem_drop_of_lt outs_nodup (j := 42) (k := 43) (x := main_call11_v3) rfl (by omega)) (HostRead.not_mem_drop_of_lt outs_nodup (j := 36) (k := 43) (x := main_v111) rfl (by omega)) (after line V (Proc.devRef .tc main_call11_v1)) (after line V (Proc.devRef .tc main_call11_v3)) (after line V (Proc.devRef .tc main_v111)) HEq.rfl HEq.rfl HEq.rfl)

theorem at_main_call11_v5 : after line V (Proc.devRef .tc main_call11_v5) = ((broadcastInDim S131072x1 ![0] bcast_S131072_S131072x1_0)) (after line V (Proc.devRef .tc main_call11_v4)) :=
  eq_of_heq (HostRead.tunary_at line_outs V 44 main_call11_call0.v0 (.of main_call11_v5 : StableHlo.TRef sig ⟨S131072x1, .i32⟩) ((broadcastInDim S131072x1 ![0] bcast_S131072_S131072x1_0)) rfl (HostRead.not_mem_drop_of_lt outs_nodup (j := 44) (k := 45) (x := main_call11_v5) rfl (by omega)) (HostRead.not_mem_drop_of_lt outs_nodup (j := 43) (k := 44) (x := main_call11_v4) rfl (by omega)) (after line V (Proc.devRef .tc main_call11_v4)) HEq.rfl)

theorem at_main_call11_c_1 : after line V (Proc.devRef .tc main_call11_c_1) = (constantI S1 32 255#32) :=
  eq_of_heq (HostRead.tnullary_at line_outs V 45 (.of main_call11_c_1 : StableHlo.TRef sig ⟨S1, .i32⟩) ((constantI S1 32 255#32)) rfl (HostRead.not_mem_drop_of_lt outs_nodup (j := 45) (k := 46) (x := main_call11_c_1) rfl (by omega)))

theorem at_main_call11_c_2 : after line V (Proc.devRef .tc main_call11_c_2) = (constantI S_ 32 0#32) :=
  eq_of_heq (HostRead.tnullary_at line_outs V 46 (.of main_call11_c_2 : StableHlo.TRef sig ⟨S_, .i32⟩) ((constantI S_ 32 0#32)) rfl (HostRead.not_mem_drop_of_lt outs_nodup (j := 46) (k := 47) (x := main_call11_c_2) rfl (by omega)))

theorem at_main_call11_v6 : after line V (Proc.devRef .tc main_call11_v6) = ((broadcastInDim S131072x1 ![] bcast_S_S131072x1)) (after line V (Proc.devRef .tc main_call11_c_2)) :=
  eq_of_heq (HostRead.tunary_at line_outs V 47 (.of main_call11_c_2 : StableHlo.TRef sig ⟨S_, .i32⟩) (.of main_call11_v6 : StableHlo.TRef sig ⟨S131072x1, .i32⟩) ((broadcastInDim S131072x1 ![] bcast_S_S131072x1)) rfl (HostRead.not_mem_drop_of_lt outs_nodup (j := 47) (k := 48) (x := main_call11_v6) rfl (by omega)) (HostRead.not_mem_drop_of_lt outs_nodup (j := 46) (k := 47) (x := main_call11_c_2) rfl (by omega)) (after line V (Proc.devRef .tc main_call11_c_2)) HEq.rfl)

theorem at_main_call11_v7 : after line V (Proc.devRef .tc main_call11_v7) = ((cmpi .sge)) (after line V (Proc.devRef .tc main_call11_v5)) (after line V (Proc.devRef .tc main_call11_v6)) :=
  eq_of_heq (HostRead.tbinary_at line_outs V 48 (.of main_call11_v5 : StableHlo.TRef sig ⟨S131072x1, .i32⟩) (.of main_call11_v6 : StableHlo.TRef sig ⟨S131072x1, .i32⟩) (.of main_call11_v7 : StableHlo.TRef sig ⟨S131072x1, .i1⟩) ((cmpi .sge)) rfl (HostRead.not_mem_drop_of_lt outs_nodup (j := 48) (k := 49) (x := main_call11_v7) rfl (by omega)) (HostRead.not_mem_drop_of_lt outs_nodup (j := 44) (k := 48) (x := main_call11_v5) rfl (by omega)) (HostRead.not_mem_drop_of_lt outs_nodup (j := 47) (k := 48) (x := main_call11_v6) rfl (by omega)) (after line V (Proc.devRef .tc main_call11_v5)) (after line V (Proc.devRef .tc main_call11_v6)) HEq.rfl HEq.rfl)

theorem at_main_call11_v8 : after line V (Proc.devRef .tc main_call11_v8) = ((broadcastInDim S1x1 ![1] bcast_S1_S1x1_1)) (after line V (Proc.devRef .tc main_call11_c_1)) :=
  eq_of_heq (HostRead.tunary_at line_outs V 49 (.of main_call11_c_1 : StableHlo.TRef sig ⟨S1, .i32⟩) (.of main_call11_v8 : StableHlo.TRef sig ⟨S1x1, .i32⟩) ((broadcastInDim S1x1 ![1] bcast_S1_S1x1_1)) rfl (HostRead.not_mem_drop_of_lt outs_nodup (j := 49) (k := 50) (x := main_call11_v8) rfl (by omega)) (HostRead.not_mem_drop_of_lt outs_nodup (j := 45) (k := 49) (x := main_call11_c_1) rfl (by omega)) (after line V (Proc.devRef .tc main_call11_c_1)) HEq.rfl)

theorem at_main_call11_v9 : after line V (Proc.devRef .tc main_call11_v9) = ((broadcastInDim S131072x1 ![0, 1] bcast_S1x1_S131072x1_0_1)) (after line V (Proc.devRef .tc main_call11_v8)) :=
  eq_of_heq (HostRead.tunary_at line_outs V 50 (.of main_call11_v8 : StableHlo.TRef sig ⟨S1x1, .i32⟩) (.of main_call11_v9 : StableHlo.TRef sig ⟨S131072x1, .i32⟩) ((broadcastInDim S131072x1 ![0, 1] bcast_S1x1_S131072x1_0_1)) rfl (HostRead.not_mem_drop_of_lt outs_nodup (j := 50) (k := 51) (x := main_call11_v9) rfl (by omega)) (HostRead.not_mem_drop_of_lt outs_nodup (j := 49) (k := 50) (x := main_call11_v8) rfl (by omega)) (after line V (Proc.devRef .tc main_call11_v8)) HEq.rfl)

theorem at_main_call11_v10 : after line V (Proc.devRef .tc main_call11_v10) = ((cmpi .sle)) (after line V (Proc.devRef .tc main_call11_v5)) (after line V (Proc.devRef .tc main_call11_v9)) :=
  eq_of_heq (HostRead.tbinary_at line_outs V 51 (.of main_call11_v5 : StableHlo.TRef sig ⟨S131072x1, .i32⟩) (.of main_call11_v9 : StableHlo.TRef sig ⟨S131072x1, .i32⟩) (.of main_call11_v10 : StableHlo.TRef sig ⟨S131072x1, .i1⟩) ((cmpi .sle)) rfl (HostRead.not_mem_drop_of_lt outs_nodup (j := 51) (k := 52) (x := main_call11_v10) rfl (by omega)) (HostRead.not_mem_drop_of_lt outs_nodup (j := 44) (k := 51) (x := main_call11_v5) rfl (by omega)) (HostRead.not_mem_drop_of_lt outs_nodup (j := 50) (k := 51) (x := main_call11_v9) rfl (by omega)) (after line V (Proc.devRef .tc main_call11_v5)) (after line V (Proc.devRef .tc main_call11_v9)) HEq.rfl HEq.rfl)

theorem at_main_call11_v11 : after line V (Proc.devRef .tc main_call11_v11) = (andi) (after line V (Proc.devRef .tc main_call11_v7)) (after line V (Proc.devRef .tc main_call11_v10)) :=
  eq_of_heq (HostRead.tbinary_at line_outs V 52 (.of main_call11_v7 : StableHlo.TRef sig ⟨S131072x1, .i1⟩) (.of main_call11_v10 : StableHlo.TRef sig ⟨S131072x1, .i1⟩) (.of main_call11_v11 : StableHlo.TRef sig ⟨S131072x1, .i1⟩) (andi) rfl (HostRead.not_mem_drop_of_lt outs_nodup (j := 52) (k := 53) (x := main_call11_v11) rfl (by omega)) (HostRead.not_mem_drop_of_lt outs_nodup (j := 48) (k := 52) (x := main_call11_v7) rfl (by omega)) (HostRead.not_mem_drop_of_lt outs_nodup (j := 51) (k := 52) (x := main_call11_v10) rfl (by omega)) (after line V (Proc.devRef .tc main_call11_v7)) (after line V (Proc.devRef .tc main_call11_v10)) HEq.rfl HEq.rfl)

theorem at_main_call11_c_3 : after line V (Proc.devRef .tc main_call11_c_3) = (constantI S_ 1 1#1) :=
  eq_of_heq (HostRead.tnullary_at line_outs V 53 (.of main_call11_c_3 : StableHlo.TRef sig ⟨S_, .i1⟩) ((constantI S_ 1 1#1)) rfl (HostRead.not_mem_drop_of_lt outs_nodup (j := 53) (k := 54) (x := main_call11_c_3) rfl (by omega)))

theorem at_main_call11_v12 : after line V (Proc.devRef .tc main_call11_v12) = ((fun x v => Host.reduce IntOp.andi x v reducesTo_S131072x1_S131072_d1 h_S_)) (after line V (Proc.devRef .tc main_call11_v11)) (after line V (Proc.devRef .tc main_call11_c_3)) :=
  eq_of_heq (HostRead.tbinary_at line_outs V 54 (.of main_call11_v11 : StableHlo.TRef sig ⟨S131072x1, .i1⟩) (.of main_call11_c_3 : StableHlo.TRef sig ⟨S_, .i1⟩) (.of main_call11_v12 : StableHlo.TRef sig ⟨S131072, .i1⟩) ((fun x v => Host.reduce IntOp.andi x v reducesTo_S131072x1_S131072_d1 h_S_)) rfl (HostRead.not_mem_drop_of_lt outs_nodup (j := 54) (k := 55) (x := main_call11_v12) rfl (by omega)) (HostRead.not_mem_drop_of_lt outs_nodup (j := 52) (k := 54) (x := main_call11_v11) rfl (by omega)) (HostRead.not_mem_drop_of_lt outs_nodup (j := 53) (k := 54) (x := main_call11_c_3) rfl (by omega)) (after line V (Proc.devRef .tc main_call11_v11)) (after line V (Proc.devRef .tc main_call11_c_3)) HEq.rfl HEq.rfl)

theorem at_main_call11_v13 : after line V (Proc.devRef .tc main_call11_v13) = ((fun x i => Host.gather gather_S256x128_S131072x1_S131072x128_1_0_n_n_0_1_1128 x i)) (after line V (Proc.devRef .tc main_arg2)) (after line V (Proc.devRef .tc main_call11_v5)) :=
  eq_of_heq (HostRead.tbinary_at line_outs V 55 (.of main_arg2 : StableHlo.TRef sig ⟨S256x128, .f32⟩) (.of main_call11_v5 : StableHlo.TRef sig ⟨S131072x1, .i32⟩) (.of main_call11_v13 : StableHlo.TRef sig ⟨S131072x128, .f32⟩) ((fun x i => Host.gather gather_S256x128_S131072x1_S131072x128_1_0_n_n_0_1_1128 x i)) rfl (HostRead.not_mem_drop_of_lt outs_nodup (j := 55) (k := 56) (x := main_call11_v13) rfl (by omega)) (fun h => absurd (List.mem_of_mem_drop h) (by decide)) (HostRead.not_mem_drop_of_lt outs_nodup (j := 44) (k := 55) (x := main_call11_v5) rfl (by omega)) (after line V (Proc.devRef .tc main_arg2)) (after line V (Proc.devRef .tc main_call11_v5)) HEq.rfl HEq.rfl)

theorem at_main_call11_v14 : after line V (Proc.devRef .tc main_call11_v14) = ((broadcastInDim S131072x128 ![0] bcast_S131072_S131072x128_0)) (after line V (Proc.devRef .tc main_call11_v12)) :=
  eq_of_heq (HostRead.tunary_at line_outs V 56 (.of main_call11_v12 : StableHlo.TRef sig ⟨S131072, .i1⟩) (.of main_call11_v14 : StableHlo.TRef sig ⟨S131072x128, .i1⟩) ((broadcastInDim S131072x128 ![0] bcast_S131072_S131072x128_0)) rfl (HostRead.not_mem_drop_of_lt outs_nodup (j := 56) (k := 57) (x := main_call11_v14) rfl (by omega)) (HostRead.not_mem_drop_of_lt outs_nodup (j := 54) (k := 56) (x := main_call11_v12) rfl (by omega)) (after line V (Proc.devRef .tc main_call11_v12)) HEq.rfl)

theorem at_main_call11_cst : after line V (Proc.devRef .tc main_call11_cst) = (constant S_ .f32 0x7FC00000#32) :=
  eq_of_heq (HostRead.tnullary_at line_outs V 57 (.of main_call11_cst : StableHlo.TRef sig ⟨S_, .f32⟩) ((constant S_ .f32 0x7FC00000#32)) rfl (HostRead.not_mem_drop_of_lt outs_nodup (j := 57) (k := 58) (x := main_call11_cst) rfl (by omega)))

theorem at_main_call11_v15 : after line V (Proc.devRef .tc main_call11_v15) = ((broadcastInDim S131072x128 ![] bcast_S_S131072x128)) (after line V (Proc.devRef .tc main_call11_cst)) :=
  eq_of_heq (HostRead.tunary_at line_outs V 58 (.of main_call11_cst : StableHlo.TRef sig ⟨S_, .f32⟩) (.of main_call11_v15 : StableHlo.TRef sig ⟨S131072x128, .f32⟩) ((broadcastInDim S131072x128 ![] bcast_S_S131072x128)) rfl (HostRead.not_mem_drop_of_lt outs_nodup (j := 58) (k := 59) (x := main_call11_v15) rfl (by omega)) (HostRead.not_mem_drop_of_lt outs_nodup (j := 57) (k := 58) (x := main_call11_cst) rfl (by omega)) (after line V (Proc.devRef .tc main_call11_cst)) HEq.rfl)

theorem at_main_v112 : after line V (Proc.devRef .tc main_v112) = (select) (after line V (Proc.devRef .tc main_call11_v14)) (after line V (Proc.devRef .tc main_call11_v13)) (after line V (Proc.devRef .tc main_call11_v15)) :=
  eq_of_heq (HostRead.tternary_at line_outs V 59 (.of main_call11_v14 : StableHlo.TRef sig ⟨S131072x128, .i1⟩) (.of main_call11_v13 : StableHlo.TRef sig ⟨S131072x128, .f32⟩) (.of main_call11_v15 : StableHlo.TRef sig ⟨S131072x128, .f32⟩) (.of main_v112 : StableHlo.TRef sig ⟨S131072x128, .f32⟩) (select) rfl (HostRead.not_mem_drop_of_lt outs_nodup (j := 59) (k := 60) (x := main_v112) rfl (by omega)) (HostRead.not_mem_drop_of_lt outs_nodup (j := 56) (k := 59) (x := main_call11_v14) rfl (by omega)) (HostRead.not_mem_drop_of_lt outs_nodup (j := 55) (k := 59) (x := main_call11_v13) rfl (by omega)) (HostRead.not_mem_drop_of_lt outs_nodup (j := 58) (k := 59) (x := main_call11_v15) rfl (by omega)) (after line V (Proc.devRef .tc main_call11_v14)) (after line V (Proc.devRef .tc main_call11_v13)) (after line V (Proc.devRef .tc main_call11_v15)) HEq.rfl HEq.rfl HEq.rfl)

theorem at_main_v113 : after line V (Proc.devRef .tc main_v113) = (((extractStridedSlice S128x128 ![0, 0] · slices_S512x128_S128x128_0_0) : (⟨S512x128, .f32⟩ : BufTy).Contents (Elt F) → (⟨S128x128, .f32⟩ : BufTy).Contents (Elt F))) (after line V (Proc.devRef .tc main_arg8)) :=
  HostRead.unary_at line_outs V 60 main_arg8 main_v113 _ _ _ rfl (HostRead.not_mem_drop_of_lt outs_nodup (j := 60) (k := 61) (x := main_v113) rfl (by omega)) (fun h => absurd (List.mem_of_mem_drop h) (by decide))

theorem at_main_v114 : after line V (Proc.devRef .tc main_v114) = (((extractStridedSlice S128x128 ![128, 0] · slices_S512x128_S128x128_128_0) : (⟨S512x128, .f32⟩ : BufTy).Contents (Elt F) → (⟨S128x128, .f32⟩ : BufTy).Contents (Elt F))) (after line V (Proc.devRef .tc main_arg8)) :=
  HostRead.unary_at line_outs V 61 main_arg8 main_v114 _ _ _ rfl (HostRead.not_mem_drop_of_lt outs_nodup (j := 61) (k := 62) (x := main_v114) rfl (by omega)) (fun h => absurd (List.mem_of_mem_drop h) (by decide))

theorem at_main_v115 : after line V (Proc.devRef .tc main_v115) = (((extractStridedSlice S128x128 ![256, 0] · slices_S512x128_S128x128_256_0) : (⟨S512x128, .f32⟩ : BufTy).Contents (Elt F) → (⟨S128x128, .f32⟩ : BufTy).Contents (Elt F))) (after line V (Proc.devRef .tc main_arg8)) :=
  HostRead.unary_at line_outs V 62 main_arg8 main_v115 _ _ _ rfl (HostRead.not_mem_drop_of_lt outs_nodup (j := 62) (k := 63) (x := main_v115) rfl (by omega)) (fun h => absurd (List.mem_of_mem_drop h) (by decide))

theorem at_main_v116 : after line V (Proc.devRef .tc main_v116) = (((extractStridedSlice S128x128 ![384, 0] · slices_S512x128_S128x128_384_0) : (⟨S512x128, .f32⟩ : BufTy).Contents (Elt F) → (⟨S128x128, .f32⟩ : BufTy).Contents (Elt F))) (after line V (Proc.devRef .tc main_arg8)) :=
  HostRead.unary_at line_outs V 63 main_arg8 main_v116 _ _ _ rfl (HostRead.not_mem_drop_of_lt outs_nodup (j := 63) (k := 64) (x := main_v116) rfl (by omega)) (fun h => absurd (List.mem_of_mem_drop h) (by decide))

theorem at_main_v117 : after line V (Proc.devRef .tc main_v117) = fun i => shapeCast main_v117.ty.shape (after line V (Proc.devRef .tc main_arg9)) shapeCasts_S128_S1x128 i :=
  HostRead.reshape_at line_outs V 64 main_arg9 main_v117 rfl shapeCasts_S128_S1x128 _ _ rfl (HostRead.not_mem_drop_of_lt outs_nodup (j := 64) (k := 65) (x := main_v117) rfl (by omega)) (fun h => absurd (List.mem_of_mem_drop h) (by decide))

/-- A buffer the stage does not write keeps its contents. -/
theorem kept (r : Ref sig .tc) (hr : r ∉ outs) : after line V (Proc.devRef .tc r) = V (Proc.devRef .tc r) :=
  HostRead.after_take line_outs 0 r hr V

end Cert.KernelIdeal.HostStage2

end
-- ==== Proof.KHost3.lean ====
/-
  Host stage 3 of the idealized kernel read as a system of equations.

  The operations between two pipelined regions (or before the first) form one line in which every buffer is written
  once. After the whole line each written buffer holds its operation's function of what the operand buffers hold after
  the whole line, and a buffer the line does not write holds what it held before.
-/
import proofs.«134187_j30227979829536_1_alg».proof.Proof.Gen.KernelIdeal.Launch
import proofs.«134187_j30227979829536_1_alg».proof.Proof.LibHostTyped

set_option maxRecDepth 16384

noncomputable section

namespace Cert.KernelIdeal.HostStage3

open Idealize.ShloMosaic Idealize.ShloMosaic.StableHlo Idealize.ShloMosaic.TcCoe Cert.KernelIdeal Cert.KernelIdeal.Gen

variable {F : FTy → Type} [FloatOps F]

/-- The stage's operations, in program order. -/
abbrev line : List (HloOp τ sig (Elt F)) := hostOps3 ++ (hostOps3_1 ++ (hostOps3_2))

/-- The buffer each operation writes, in the same order. -/
abbrev outs : List (Ref sig .tc) :=
  [main_v119, main_cst_31, main_call12_v0, main_call12_v1, main_v120, main_cst_32, main_v121, main_v122, main_v123, main_cst_33, main_v124, main_v125, main_v126, main_cst_34, main_v127, main_v128, main_v129, main_v130, main_v131, main_v132, main_v133, main_v134]

theorem outs_nodup : outs.Nodup := by decide

theorem line_outs : HostRead.Outs (τ := τ) (line (F := F)) outs :=
  List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.cons rfl <| List.Forall₂.nil

-- the window sums, reductions, gathers and scatters are folds over an operand's elements; no equation below looks inside one
attribute [local irreducible] Host.reduceWindow Host.reduce Host.gather Host.scatter Host.scatterAdd

variable (V : Valuation τ sig (Elt F))

theorem at_main_v119 : after line V (Proc.devRef .tc main_v119) = ((broadcastInDim S131072x1 ![0] bcast_S131072_S131072x1_0 : (⟨S131072, .i1⟩ : BufTy).Contents (Elt F) → (⟨S131072x1, .i1⟩ : BufTy).Contents (Elt F))) (after line V (Proc.devRef .tc main_arg17)) :=
  HostRead.unary_at line_outs V 0 main_arg17 main_v119 _ _ _ rfl (HostRead.not_mem_drop_of_lt outs_nodup (j := 0) (k := 1) (x := main_v119) rfl (by omega)) (fun h => absurd (List.mem_of_mem_drop h) (by decide))

theorem at_main_cst_31 : after line V (Proc.devRef .tc main_cst_31) = (constant S_ .f32 0x00000000#32) :=
  HostRead.nullary_at line_outs V 1 main_cst_31 _ _ rfl (HostRead.not_mem_drop_of_lt outs_nodup (j := 1) (k := 2) (x := main_cst_31) rfl (by omega))

theorem at_main_call12_v0 : after line V (Proc.devRef .tc main_call12_v0) = ((broadcastInDim S131072x128 ![0, 1] bcast_S131072x1_S131072x128_0_1)) (after line V (Proc.devRef .tc main_v119)) :=
  eq_of_heq (HostRead.tunary_at line_outs V 2 (.of main_v119 : StableHlo.TRef sig ⟨S131072x1, .i1⟩) (.of main_call12_v0 : StableHlo.TRef sig ⟨S131072x128, .i1⟩) ((broadcastInDim S131072x128 ![0, 1] bcast_S131072x1_S131072x128_0_1)) rfl (HostRead.not_mem_drop_of_lt outs_nodup (j := 2) (k := 3) (x := main_call12_v0) rfl (by omega)) (HostRead.not_mem_drop_of_lt outs_nodup (j := 0) (k := 2) (x := main_v119) rfl (by omega)) (after line V (Proc.devRef .tc main_v119)) HEq.rfl)

theorem at_main_call12_v1 : after line V (Proc.devRef .tc main_call12_v1) = ((broadcastInDim S131072x128 ![] bcast_S_S131072x128)) (after line V (Proc.devRef .tc main_cst_31)) :=
  eq_of_heq (HostRead.tunary_at line_outs V 3 (.of main_cst_31 : StableHlo.TRef sig ⟨S_, .f32⟩) (.of main_call12_v1 : StableHlo.TRef sig ⟨S131072x128, .f32⟩) ((broadcastInDim S131072x128 ![] bcast_S_S131072x128)) rfl (HostRead.not_mem_drop_of_lt outs_nodup (j := 3) (k := 4) (x := main_call12_v1) rfl (by omega)) (HostRead.not_mem_drop_of_lt outs_nodup (j := 1) (k := 3) (x := main_cst_31) rfl (by omega)) (after line V (Proc.devRef .tc main_cst_31)) HEq.rfl)

theorem at_main_v120 : after line V (Proc.devRef .tc main_v120) = (select) (after line V (Proc.devRef .tc main_call12_v0)) (after line V (Proc.devRef .tc main_call12_v1)) (after line V (Proc.devRef .tc main_v118)) :=
  eq_of_heq (HostRead.tternary_at line_outs V 4 (.of main_call12_v0 : StableHlo.TRef sig ⟨S131072x128, .i1⟩) (.of main_call12_v1 : StableHlo.TRef sig ⟨S131072x128, .f32⟩) (.of main_v118 : StableHlo.TRef sig ⟨S131072x128, .f32⟩) (.of main_v120 : StableHlo.TRef sig ⟨S131072x128, .f32⟩) (select) rfl (HostRead.not_mem_drop_of_lt outs_nodup (j := 4) (k := 5) (x := main_v120) rfl (by omega)) (HostRead.not_mem_drop_of_lt outs_nodup (j := 2) (k := 4) (x := main_call12_v0) rfl (by omega)) (HostRead.not_mem_drop_of_lt outs_nodup (j := 3) (k := 4) (x := main_call12_v1) rfl (by omega)) (fun h => absurd (List.mem_of_mem_drop h) (by decide)) (after line V (Proc.devRef .tc main_call12_v0)) (after line V (Proc.devRef .tc main_call12_v1)) (after line V (Proc.devRef .tc main_v118)) HEq.rfl HEq.rfl HEq.rfl)

theorem at_main_cst_32 : after line V (Proc.devRef .tc main_cst_32) = (constant S_ .f32 0x00000000#32) :=
  HostRead.nullary_at line_outs V 5 main_cst_32 _ _ rfl (HostRead.not_mem_drop_of_lt outs_nodup (j := 5) (k := 6) (x := main_cst_32) rfl (by omega))

theorem at_main_v121 : after line V (Proc.devRef .tc main_v121) = ((broadcastInDim S256x128 ![] bcast_S_S256x128 : (⟨S_, .f32⟩ : BufTy).Contents (Elt F) → (⟨S256x128, .f32⟩ : BufTy).Contents (Elt F))) (after line V (Proc.devRef .tc main_cst_32)) :=
  HostRead.unary_at line_outs V 6 main_cst_32 main_v121 _ _ _ rfl (HostRead.not_mem_drop_of_lt outs_nodup (j := 6) (k := 7) (x := main_v121) rfl (by omega)) (HostRead.not_mem_drop_of_lt outs_nodup (j := 5) (k := 6) (x := main_cst_32) rfl (by omega))

theorem at_main_v122 : after line V (Proc.devRef .tc main_v122) = ((broadcastInDim S131072x1 ![0] bcast_S131072_S131072x1_0 : (⟨S131072, .i32⟩ : BufTy).Contents (Elt F) → (⟨S131072x1, .i32⟩ : BufTy).Contents (Elt F))) (after line V (Proc.devRef .tc main_arg14)) :=
  HostRead.unary_at line_outs V 7 main_arg14 main_v122 _ _ _ rfl (HostRead.not_mem_drop_of_lt outs_nodup (j := 7) (k := 8) (x := main_v122) rfl (by omega)) (fun h => absurd (List.mem_of_mem_drop h) (by decide))

theorem at_main_v123 : after line V (Proc.devRef .tc main_v123) = (((fun x i u => Host.scatterAdd scatter_S256x128_S131072x1_S131072x128_1_0_0_1 x i u) : (⟨S256x128, .f32⟩ : BufTy).Contents (Elt F) → (⟨S131072x1, .i32⟩ : BufTy).Contents (Elt F) → (⟨S131072x128, .f32⟩ : BufTy).Contents (Elt F) → (⟨S256x128, .f32⟩ : BufTy).Contents (Elt F))) (after line V (Proc.devRef .tc main_v121)) (after line V (Proc.devRef .tc main_v122)) (after line V (Proc.devRef .tc main_v89)) :=
  HostRead.ternary_at line_outs V 8 main_v121 main_v122 main_v89 main_v123 _ _ _ _ _ rfl (HostRead.not_mem_drop_of_lt outs_nodup (j := 8) (k := 9) (x := main_v123) rfl (by omega)) (HostRead.not_mem_drop_of_lt outs_nodup (j := 6) (k := 8) (x := main_v121) rfl (by omega)) (HostRead.not_mem_drop_of_lt outs_nodup (j := 7) (k := 8) (x := main_v122) rfl (by omega)) (fun h => absurd (List.mem_of_mem_drop h) (by decide))

theorem at_main_cst_33 : after line V (Proc.devRef .tc main_cst_33) = (constant S_ .f32 0x00000000#32) :=
  HostRead.nullary_at line_outs V 9 main_cst_33 _ _ rfl (HostRead.not_mem_drop_of_lt outs_nodup (j := 9) (k := 10) (x := main_cst_33) rfl (by omega))

theorem at_main_v124 : after line V (Proc.devRef .tc main_v124) = ((broadcastInDim S256x128 ![] bcast_S_S256x128 : (⟨S_, .f32⟩ : BufTy).Contents (Elt F) → (⟨S256x128, .f32⟩ : BufTy).Contents (Elt F))) (after line V (Proc.devRef .tc main_cst_33)) :=
  HostRead.unary_at line_outs V 10 main_cst_33 main_v124 _ _ _ rfl (HostRead.not_mem_drop_of_lt outs_nodup (j := 10) (k := 11) (x := main_v124) rfl (by omega)) (HostRead.not_mem_drop_of_lt outs_nodup (j := 9) (k := 10) (x := main_cst_33) rfl (by omega))

theorem at_main_v125 : after line V (Proc.devRef .tc main_v125) = ((broadcastInDim S262144x1 ![0] bcast_S262144_S262144x1_0 : (⟨S262144, .i32⟩ : BufTy).Contents (Elt F) → (⟨S262144x1, .i32⟩ : BufTy).Contents (Elt F))) (after line V (Proc.devRef .tc main_arg15)) :=
  HostRead.unary_at line_outs V 11 main_arg15 main_v125 _ _ _ rfl (HostRead.not_mem_drop_of_lt outs_nodup (j := 11) (k := 12) (x := main_v125) rfl (by omega)) (fun h => absurd (List.mem_of_mem_drop h) (by decide))

theorem at_main_v126 : after line V (Proc.devRef .tc main_v126) = (((fun x i u => Host.scatterAdd scatter_S256x128_S262144x1_S262144x128_1_0_0_1 x i u) : (⟨S256x128, .f32⟩ : BufTy).Contents (Elt F) → (⟨S262144x1, .i32⟩ : BufTy).Contents (Elt F) → (⟨S262144x128, .f32⟩ : BufTy).Contents (Elt F) → (⟨S256x128, .f32⟩ : BufTy).Contents (Elt F))) (after line V (Proc.devRef .tc main_v124)) (after line V (Proc.devRef .tc main_v125)) (after line V (Proc.devRef .tc main_v60)) :=
  HostRead.ternary_at line_outs V 12 main_v124 main_v125 main_v60 main_v126 _ _ _ _ _ rfl (HostRead.not_mem_drop_of_lt outs_nodup (j := 12) (k := 13) (x := main_v126) rfl (by omega)) (HostRead.not_mem_drop_of_lt outs_nodup (j := 10) (k := 12) (x := main_v124) rfl (by omega)) (HostRead.not_mem_drop_of_lt outs_nodup (j := 11) (k := 12) (x := main_v125) rfl (by omega)) (fun h => absurd (List.mem_of_mem_drop h) (by decide))

theorem at_main_cst_34 : after line V (Proc.devRef .tc main_cst_34) = (constant S_ .f32 0x00000000#32) :=
  HostRead.nullary_at line_outs V 13 main_cst_34 _ _ rfl (HostRead.not_mem_drop_of_lt outs_nodup (j := 13) (k := 14) (x := main_cst_34) rfl (by omega))

theorem at_main_v127 : after line V (Proc.devRef .tc main_v127) = ((broadcastInDim S256x128 ![] bcast_S_S256x128 : (⟨S_, .f32⟩ : BufTy).Contents (Elt F) → (⟨S256x128, .f32⟩ : BufTy).Contents (Elt F))) (after line V (Proc.devRef .tc main_cst_34)) :=
  HostRead.unary_at line_outs V 14 main_cst_34 main_v127 _ _ _ rfl (HostRead.not_mem_drop_of_lt outs_nodup (j := 14) (k := 15) (x := main_v127) rfl (by omega)) (HostRead.not_mem_drop_of_lt outs_nodup (j := 13) (k := 14) (x := main_cst_34) rfl (by omega))

theorem at_main_v128 : after line V (Proc.devRef .tc main_v128) = ((broadcastInDim S131072x1 ![0] bcast_S131072_S131072x1_0 : (⟨S131072, .i32⟩ : BufTy).Contents (Elt F) → (⟨S131072x1, .i32⟩ : BufTy).Contents (Elt F))) (after line V (Proc.devRef .tc main_arg16)) :=
  HostRead.unary_at line_outs V 15 main_arg16 main_v128 _ _ _ rfl (HostRead.not_mem_drop_of_lt outs_nodup (j := 15) (k := 16) (x := main_v128) rfl (by omega)) (fun h => absurd (List.mem_of_mem_drop h) (by decide))

theorem at_main_v129 : after line V (Proc.devRef .tc main_v129) = (((fun x i u => Host.scatterAdd scatter_S256x128_S131072x1_S131072x128_1_0_0_1 x i u) : (⟨S256x128, .f32⟩ : BufTy).Contents (Elt F) → (⟨S131072x1, .i32⟩ : BufTy).Contents (Elt F) → (⟨S131072x128, .f32⟩ : BufTy).Contents (Elt F) → (⟨S256x128, .f32⟩ : BufTy).Contents (Elt F))) (after line V (Proc.devRef .tc main_v127)) (after line V (Proc.devRef .tc main_v128)) (after line V (Proc.devRef .tc main_v120)) :=
  HostRead.ternary_at line_outs V 16 main_v127 main_v128 main_v120 main_v129 _ _ _ _ _ rfl (HostRead.not_mem_drop_of_lt outs_nodup (j := 16) (k := 17) (x := main_v129) rfl (by omega)) (HostRead.not_mem_drop_of_lt outs_nodup (j := 14) (k := 16) (x := main_v127) rfl (by omega)) (HostRead.not_mem_drop_of_lt outs_nodup (j := 15) (k := 16) (x := main_v128) rfl (by omega)) (HostRead.not_mem_drop_of_lt outs_nodup (j := 4) (k := 16) (x := main_v120) rfl (by omega))

theorem at_main_v130 : after line V (Proc.devRef .tc main_v130) = (((extractStridedSlice S128x128 ![0, 0] · slices_S512x128_S128x128_0_0) : (⟨S512x128, .f32⟩ : BufTy).Contents (Elt F) → (⟨S128x128, .f32⟩ : BufTy).Contents (Elt F))) (after line V (Proc.devRef .tc main_arg10)) :=
  HostRead.unary_at line_outs V 17 main_arg10 main_v130 _ _ _ rfl (HostRead.not_mem_drop_of_lt outs_nodup (j := 17) (k := 18) (x := main_v130) rfl (by omega)) (fun h => absurd (List.mem_of_mem_drop h) (by decide))

theorem at_main_v131 : after line V (Proc.devRef .tc main_v131) = (((extractStridedSlice S128x128 ![128, 0] · slices_S512x128_S128x128_128_0) : (⟨S512x128, .f32⟩ : BufTy).Contents (Elt F) → (⟨S128x128, .f32⟩ : BufTy).Contents (Elt F))) (after line V (Proc.devRef .tc main_arg10)) :=
  HostRead.unary_at line_outs V 18 main_arg10 main_v131 _ _ _ rfl (HostRead.not_mem_drop_of_lt outs_nodup (j := 18) (k := 19) (x := main_v131) rfl (by omega)) (fun h => absurd (List.mem_of_mem_drop h) (by decide))

theorem at_main_v132 : after line V (Proc.devRef .tc main_v132) = (((extractStridedSlice S128x128 ![256, 0] · slices_S512x128_S128x128_256_0) : (⟨S512x128, .f32⟩ : BufTy).Contents (Elt F) → (⟨S128x128, .f32⟩ : BufTy).Contents (Elt F))) (after line V (Proc.devRef .tc main_arg10)) :=
  HostRead.unary_at line_outs V 19 main_arg10 main_v132 _ _ _ rfl (HostRead.not_mem_drop_of_lt outs_nodup (j := 19) (k := 20) (x := main_v132) rfl (by omega)) (fun h => absurd (List.mem_of_mem_drop h) (by decide))

theorem at_main_v133 : after line V (Proc.devRef .tc main_v133) = (((extractStridedSlice S128x128 ![384, 0] · slices_S512x128_S128x128_384_0) : (⟨S512x128, .f32⟩ : BufTy).Contents (Elt F) → (⟨S128x128, .f32⟩ : BufTy).Contents (Elt F))) (after line V (Proc.devRef .tc main_arg10)) :=
  HostRead.unary_at line_outs V 20 main_arg10 main_v133 _ _ _ rfl (HostRead.not_mem_drop_of_lt outs_nodup (j := 20) (k := 21) (x := main_v133) rfl (by omega)) (fun h => absurd (List.mem_of_mem_drop h) (by decide))

theorem at_main_v134 : after line V (Proc.devRef .tc main_v134) = fun i => shapeCast main_v134.ty.shape (after line V (Proc.devRef .tc main_arg11)) shapeCasts_S128_S1x128 i :=
  HostRead.reshape_at line_outs V 21 main_arg11 main_v134 rfl shapeCasts_S128_S1x128 _ _ rfl (HostRead.not_mem_drop_of_lt outs_nodup (j := 21) (k := 22) (x := main_v134) rfl (by omega)) (fun h => absurd (List.mem_of_mem_drop h) (by decide))

/-- A buffer the stage does not write keeps its contents. -/
theorem kept (r : Ref sig .tc) (hr : r ∉ outs) : after line V (Proc.devRef .tc r) = V (Proc.devRef .tc r) :=
  HostRead.after_take line_outs 0 r hr V

end Cert.KernelIdeal.HostStage3

end
-- ==== Proof.KFinal.lean ====
/-
  The idealized kernel's buffers at the end of the run.

  Every buffer is written once: by one host operation of one of the four host stages, or — the four output arrays — by
  one pipelined region. A buffer's contents at the end of the run are therefore what it held at the end of the stage
  that wrote it, or of any later stage: the later stages do not write it and the later regions write only their own
  output arrays. The lemmas below walk a buffer back from the end of the run to the end of a given stage, under the
  (decidable) condition that nothing in between writes it.
-/
import proofs.«134187_j30227979829536_1_alg».proof.Proof.KCross
import proofs.«134187_j30227979829536_1_alg».proof.Proof.KHost0
import proofs.«134187_j30227979829536_1_alg».proof.Proof.KHost1
import proofs.«134187_j30227979829536_1_alg».proof.Proof.KHost2
import proofs.«134187_j30227979829536_1_alg».proof.Proof.KHost3

set_option maxRecDepth 16384

noncomputable section

namespace Cert.KernelIdeal.Final

open Idealize.ShloMosaic Idealize.ShloMosaic.StableHlo Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## Each stage's exit contents are its line applied to its entry contents -/

theorem W9_eq : W9 m ρ c = after HostStage0.line (W0 m ρ c) := by
  simp only [HostStage0.line, HostRead.after_append]
theorem W19_eq : W19 m ρ c = after HostStage1.line (W10 m ρ c) := by
  simp only [HostStage1.line, HostRead.after_append]
theorem W29_eq : W29 m ρ c = after HostStage2.line (W20 m ρ c) := by
  simp only [HostStage2.line, HostRead.after_append]
theorem W33_eq : W33 m ρ c = after HostStage3.line (W30 m ρ c) := by
  simp only [HostStage3.line, HostRead.after_append]

/-! ## What lets a buffer be read at an earlier boundary -/

/-- Not written by the last region. -/
abbrev L33 (b : Ref sig .tc) : Prop := b ≠ main_v135
/-- … nor by the last host stage. -/
abbrev L30 (b : Ref sig .tc) : Prop := L33 b ∧ b ∉ HostStage3.outs
/-- … nor by the third region. -/
abbrev L29 (b : Ref sig .tc) : Prop := L30 b ∧ b ≠ main_v118
/-- … nor by the third host stage. -/
abbrev L20 (b : Ref sig .tc) : Prop := L29 b ∧ b ∉ HostStage2.outs
/-- … nor by the second region. -/
abbrev L19 (b : Ref sig .tc) : Prop := L20 b ∧ b ≠ main_v89
/-- … nor by the second host stage. -/
abbrev L10 (b : Ref sig .tc) : Prop := L19 b ∧ b ∉ HostStage1.outs
/-- … nor by the first region. -/
abbrev L9 (b : Ref sig .tc) : Prop := L10 b ∧ b ≠ main_v60
/-- … nor by the first host stage: an argument. -/
abbrev L0 (b : Ref sig .tc) : Prop := L9 b ∧ b ∉ HostStage0.outs

theorem to33 (b : Ref sig .tc) (h : L33 b) : W34 m ρ c (Proc.devRef .tc b) = W33 m ρ c (Proc.devRef .tc b) :=
  Cross.cross3 m ρ c b h
theorem to30 (b : Ref sig .tc) (h : L30 b) : W34 m ρ c (Proc.devRef .tc b) = W30 m ρ c (Proc.devRef .tc b) := by
  rw [to33 m ρ c b h.1, W33_eq]; exact HostStage3.kept _ b h.2
theorem to29 (b : Ref sig .tc) (h : L29 b) : W34 m ρ c (Proc.devRef .tc b) = W29 m ρ c (Proc.devRef .tc b) :=
  (to30 m ρ c b h.1).trans (Cross.cross2 m ρ c b h.2)
theorem to20 (b : Ref sig .tc) (h : L20 b) : W34 m ρ c (Proc.devRef .tc b) = W20 m ρ c (Proc.devRef .tc b) := by
  rw [to29 m ρ c b h.1, W29_eq]; exact HostStage2.kept _ b h.2
theorem to19 (b : Ref sig .tc) (h : L19 b) : W34 m ρ c (Proc.devRef .tc b) = W19 m ρ c (Proc.devRef .tc b) :=
  (to20 m ρ c b h.1).trans (Cross.cross1 m ρ c b h.2)
theorem to10 (b : Ref sig .tc) (h : L10 b) : W34 m ρ c (Proc.devRef .tc b) = W10 m ρ c (Proc.devRef .tc b) := by
  rw [to19 m ρ c b h.1, W19_eq]; exact HostStage1.kept _ b h.2
theorem to9 (b : Ref sig .tc) (h : L9 b) : W34 m ρ c (Proc.devRef .tc b) = W9 m ρ c (Proc.devRef .tc b) :=
  (to10 m ρ c b h.1).trans (Cross.cross0 m ρ c b h.2)
theorem to0 (b : Ref sig .tc) (h : L0 b) : W34 m ρ c (Proc.devRef .tc b) = W0 m ρ c (Proc.devRef .tc b) := by
  rw [to9 m ρ c b h.1, W9_eq]; exact HostStage0.kept _ b h.2

end Cert.KernelIdeal.Final

end
-- ==== Proof.KFin0.lean ====
/-
  Host stage 0 of the idealized kernel, read at the end of the run.

  Each buffer the stage writes holds, at the end of the run, its operation's function of what the operand buffers hold at
  the end of the run: nothing after the stage writes the buffer or its operands.
-/
import proofs.«134187_j30227979829536_1_alg».proof.Proof.KFinal

set_option maxRecDepth 16384

noncomputable section

namespace Cert.KernelIdeal.Final

open Idealize.ShloMosaic Idealize.ShloMosaic.StableHlo Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg) (c : Dev nD)

theorem fin_main_v0 : W34 m ρ c (Proc.devRef .tc main_v0) = (((extractStridedSlice S1x262144 ![0, 0] · slices_S2x262144_S1x262144_0_0) : (⟨S2x262144, .i32⟩ : BufTy).Contents (Elt F) → (⟨S1x262144, .i32⟩ : BufTy).Contents (Elt F))) (W34 m ρ c (Proc.devRef .tc main_arg12)) := by
  rw [to9 m ρ c main_v0 (by decide), to9 m ρ c main_arg12 (by decide), W9_eq m ρ c, HostStage0.at_main_v0]

theorem fin_main_v1 : W34 m ρ c (Proc.devRef .tc main_v1) = fun i => shapeCast main_v1.ty.shape (W34 m ρ c (Proc.devRef .tc main_v0)) shapeCasts_S1x262144_S262144 i := by
  rw [to9 m ρ c main_v1 (by decide), to9 m ρ c main_v0 (by decide), W9_eq m ρ c, HostStage0.at_main_v1]

theorem fin_main_v2 : W34 m ρ c (Proc.devRef .tc main_v2) = (((extractStridedSlice S1x262144 ![1, 0] · slices_S2x262144_S1x262144_1_0) : (⟨S2x262144, .i32⟩ : BufTy).Contents (Elt F) → (⟨S1x262144, .i32⟩ : BufTy).Contents (Elt F))) (W34 m ρ c (Proc.devRef .tc main_arg12)) := by
  rw [to9 m ρ c main_v2 (by decide), to9 m ρ c main_arg12 (by decide), W9_eq m ρ c, HostStage0.at_main_v2]

theorem fin_main_v3 : W34 m ρ c (Proc.devRef .tc main_v3) = fun i => shapeCast main_v3.ty.shape (W34 m ρ c (Proc.devRef .tc main_v2)) shapeCasts_S1x262144_S262144 i := by
  rw [to9 m ρ c main_v3 (by decide), to9 m ρ c main_v2 (by decide), W9_eq m ρ c, HostStage0.at_main_v3]

theorem fin_main_v4 : W34 m ρ c (Proc.devRef .tc main_v4) = (((extractStridedSlice S1x262144 ![0, 0] · slices_S2x262144_S1x262144_0_0) : (⟨S2x262144, .i32⟩ : BufTy).Contents (Elt F) → (⟨S1x262144, .i32⟩ : BufTy).Contents (Elt F))) (W34 m ρ c (Proc.devRef .tc main_arg13)) := by
  rw [to9 m ρ c main_v4 (by decide), to9 m ρ c main_arg13 (by decide), W9_eq m ρ c, HostStage0.at_main_v4]

theorem fin_main_v5 : W34 m ρ c (Proc.devRef .tc main_v5) = fun i => shapeCast main_v5.ty.shape (W34 m ρ c (Proc.devRef .tc main_v4)) shapeCasts_S1x262144_S262144 i := by
  rw [to9 m ρ c main_v5 (by decide), to9 m ρ c main_v4 (by decide), W9_eq m ρ c, HostStage0.at_main_v5]

theorem fin_main_v6 : W34 m ρ c (Proc.devRef .tc main_v6) = (((extractStridedSlice S1x262144 ![1, 0] · slices_S2x262144_S1x262144_1_0) : (⟨S2x262144, .i32⟩ : BufTy).Contents (Elt F) → (⟨S1x262144, .i32⟩ : BufTy).Contents (Elt F))) (W34 m ρ c (Proc.devRef .tc main_arg13)) := by
  rw [to9 m ρ c main_v6 (by decide), to9 m ρ c main_arg13 (by decide), W9_eq m ρ c, HostStage0.at_main_v6]

theorem fin_main_v7 : W34 m ρ c (Proc.devRef .tc main_v7) = fun i => shapeCast main_v7.ty.shape (W34 m ρ c (Proc.devRef .tc main_v6)) shapeCasts_S1x262144_S262144 i := by
  rw [to9 m ρ c main_v7 (by decide), to9 m ρ c main_v6 (by decide), W9_eq m ρ c, HostStage0.at_main_v7]

theorem fin_main_c : W34 m ρ c (Proc.devRef .tc main_c) = (constantI S_ 32 0#32) := by
  rw [to9 m ρ c main_c (by decide), W9_eq m ρ c, HostStage0.at_main_c]

theorem fin_main_v8 : W34 m ρ c (Proc.devRef .tc main_v8) = ((broadcastInDim S262144 ![] bcast_S_S262144 : (⟨S_, .i32⟩ : BufTy).Contents (Elt F) → (⟨S262144, .i32⟩ : BufTy).Contents (Elt F))) (W34 m ρ c (Proc.devRef .tc main_c)) := by
  rw [to9 m ρ c main_v8 (by decide), to9 m ρ c main_c (by decide), W9_eq m ρ c, HostStage0.at_main_v8]

theorem fin_main_v9 : W34 m ρ c (Proc.devRef .tc main_v9) = ((cmpi .slt : (⟨S262144, .i32⟩ : BufTy).Contents (Elt F) → (⟨S262144, .i32⟩ : BufTy).Contents (Elt F) → (⟨S262144, .i1⟩ : BufTy).Contents (Elt F))) (W34 m ρ c (Proc.devRef .tc main_v1)) (W34 m ρ c (Proc.devRef .tc main_v8)) := by
  rw [to9 m ρ c main_v9 (by decide), to9 m ρ c main_v1 (by decide), to9 m ρ c main_v8 (by decide), W9_eq m ρ c, HostStage0.at_main_v9]

theorem fin_main_c_0 : W34 m ρ c (Proc.devRef .tc main_c_0) = (constantI S_ 32 131072#32) := by
  rw [to9 m ρ c main_c_0 (by decide), W9_eq m ρ c, HostStage0.at_main_c_0]

theorem fin_main_v10 : W34 m ρ c (Proc.devRef .tc main_v10) = ((broadcastInDim S262144 ![] bcast_S_S262144 : (⟨S_, .i32⟩ : BufTy).Contents (Elt F) → (⟨S262144, .i32⟩ : BufTy).Contents (Elt F))) (W34 m ρ c (Proc.devRef .tc main_c_0)) := by
  rw [to9 m ρ c main_v10 (by decide), to9 m ρ c main_c_0 (by decide), W9_eq m ρ c, HostStage0.at_main_v10]

theorem fin_main_v11 : W34 m ρ c (Proc.devRef .tc main_v11) = ((addi : (⟨S262144, .i32⟩ : BufTy).Contents (Elt F) → (⟨S262144, .i32⟩ : BufTy).Contents (Elt F) → (⟨S262144, .i32⟩ : BufTy).Contents (Elt F))) (W34 m ρ c (Proc.devRef .tc main_v1)) (W34 m ρ c (Proc.devRef .tc main_v10)) := by
  rw [to9 m ρ c main_v11 (by decide), to9 m ρ c main_v1 (by decide), to9 m ρ c main_v10 (by decide), W9_eq m ρ c, HostStage0.at_main_v11]

theorem fin_main_v12 : W34 m ρ c (Proc.devRef .tc main_v12) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (W34 m ρ c (Proc.devRef .tc main_v9)) (W34 m ρ c (Proc.devRef .tc main_v11)) (W34 m ρ c (Proc.devRef .tc main_v1)) := by
  rw [to9 m ρ c main_v12 (by decide), to9 m ρ c main_v9 (by decide), to9 m ρ c main_v11 (by decide), to9 m ρ c main_v1 (by decide), W9_eq m ρ c, HostStage0.at_main_v12]

theorem fin_main_v13 : W34 m ρ c (Proc.devRef .tc main_v13) = ((broadcastInDim S262144x1 ![0] bcast_S262144_S262144x1_0 : (⟨S262144, .i32⟩ : BufTy).Contents (Elt F) → (⟨S262144x1, .i32⟩ : BufTy).Contents (Elt F))) (W34 m ρ c (Proc.devRef .tc main_v12)) := by
  rw [to9 m ρ c main_v13 (by decide), to9 m ρ c main_v12 (by decide), W9_eq m ρ c, HostStage0.at_main_v13]

theorem fin_main_v14 : W34 m ρ c (Proc.devRef .tc main_v14) = (((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F))) (W34 m ρ c (Proc.devRef .tc main_arg0)) (W34 m ρ c (Proc.devRef .tc main_v13)) := by
  rw [to9 m ρ c main_v14 (by decide), to9 m ρ c main_arg0 (by decide), to9 m ρ c main_v13 (by decide), W9_eq m ρ c, HostStage0.at_main_v14]

theorem fin_main_c_1 : W34 m ρ c (Proc.devRef .tc main_c_1) = (constantI S_ 32 0#32) := by
  rw [to9 m ρ c main_c_1 (by decide), W9_eq m ρ c, HostStage0.at_main_c_1]

theorem fin_main_v15 : W34 m ρ c (Proc.devRef .tc main_v15) = ((broadcastInDim S262144 ![] bcast_S_S262144 : (⟨S_, .i32⟩ : BufTy).Contents (Elt F) → (⟨S262144, .i32⟩ : BufTy).Contents (Elt F))) (W34 m ρ c (Proc.devRef .tc main_c_1)) := by
  rw [to9 m ρ c main_v15 (by decide), to9 m ρ c main_c_1 (by decide), W9_eq m ρ c, HostStage0.at_main_v15]

theorem fin_main_v16 : W34 m ρ c (Proc.devRef .tc main_v16) = ((cmpi .slt : (⟨S262144, .i32⟩ : BufTy).Contents (Elt F) → (⟨S262144, .i32⟩ : BufTy).Contents (Elt F) → (⟨S262144, .i1⟩ : BufTy).Contents (Elt F))) (W34 m ρ c (Proc.devRef .tc main_v3)) (W34 m ρ c (Proc.devRef .tc main_v15)) := by
  rw [to9 m ρ c main_v16 (by decide), to9 m ρ c main_v3 (by decide), to9 m ρ c main_v15 (by decide), W9_eq m ρ c, HostStage0.at_main_v16]

theorem fin_main_c_2 : W34 m ρ c (Proc.devRef .tc main_c_2) = (constantI S_ 32 131072#32) := by
  rw [to9 m ρ c main_c_2 (by decide), W9_eq m ρ c, HostStage0.at_main_c_2]

theorem fin_main_v17 : W34 m ρ c (Proc.devRef .tc main_v17) = ((broadcastInDim S262144 ![] bcast_S_S262144 : (⟨S_, .i32⟩ : BufTy).Contents (Elt F) → (⟨S262144, .i32⟩ : BufTy).Contents (Elt F))) (W34 m ρ c (Proc.devRef .tc main_c_2)) := by
  rw [to9 m ρ c main_v17 (by decide), to9 m ρ c main_c_2 (by decide), W9_eq m ρ c, HostStage0.at_main_v17]

theorem fin_main_v18 : W34 m ρ c (Proc.devRef .tc main_v18) = ((addi : (⟨S262144, .i32⟩ : BufTy).Contents (Elt F) → (⟨S262144, .i32⟩ : BufTy).Contents (Elt F) → (⟨S262144, .i32⟩ : BufTy).Contents (Elt F))) (W34 m ρ c (Proc.devRef .tc main_v3)) (W34 m ρ c (Proc.devRef .tc main_v17)) := by
  rw [to9 m ρ c main_v18 (by decide), to9 m ρ c main_v3 (by decide), to9 m ρ c main_v17 (by decide), W9_eq m ρ c, HostStage0.at_main_v18]

theorem fin_main_v19 : W34 m ρ c (Proc.devRef .tc main_v19) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (W34 m ρ c (Proc.devRef .tc main_v16)) (W34 m ρ c (Proc.devRef .tc main_v18)) (W34 m ρ c (Proc.devRef .tc main_v3)) := by
  rw [to9 m ρ c main_v19 (by decide), to9 m ρ c main_v16 (by decide), to9 m ρ c main_v18 (by decide), to9 m ρ c main_v3 (by decide), W9_eq m ρ c, HostStage0.at_main_v19]

theorem fin_main_v20 : W34 m ρ c (Proc.devRef .tc main_v20) = ((broadcastInDim S262144x1 ![0] bcast_S262144_S262144x1_0 : (⟨S262144, .i32⟩ : BufTy).Contents (Elt F) → (⟨S262144x1, .i32⟩ : BufTy).Contents (Elt F))) (W34 m ρ c (Proc.devRef .tc main_v19)) := by
  rw [to9 m ρ c main_v20 (by decide), to9 m ρ c main_v19 (by decide), W9_eq m ρ c, HostStage0.at_main_v20]

theorem fin_main_v21 : W34 m ρ c (Proc.devRef .tc main_v21) = (((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F))) (W34 m ρ c (Proc.devRef .tc main_arg0)) (W34 m ρ c (Proc.devRef .tc main_v20)) := by
  rw [to9 m ρ c main_v21 (by decide), to9 m ρ c main_arg0 (by decide), to9 m ρ c main_v20 (by decide), W9_eq m ρ c, HostStage0.at_main_v21]

theorem fin_main_c_3 : W34 m ρ c (Proc.devRef .tc main_c_3) = (constantI S_ 32 0#32) := by
  rw [to9 m ρ c main_c_3 (by decide), W9_eq m ρ c, HostStage0.at_main_c_3]

theorem fin_main_v22 : W34 m ρ c (Proc.devRef .tc main_v22) = ((broadcastInDim S262144 ![] bcast_S_S262144 : (⟨S_, .i32⟩ : BufTy).Contents (Elt F) → (⟨S262144, .i32⟩ : BufTy).Contents (Elt F))) (W34 m ρ c (Proc.devRef .tc main_c_3)) := by
  rw [to9 m ρ c main_v22 (by decide), to9 m ρ c main_c_3 (by decide), W9_eq m ρ c, HostStage0.at_main_v22]

theorem fin_main_v23 : W34 m ρ c (Proc.devRef .tc main_v23) = ((cmpi .slt : (⟨S262144, .i32⟩ : BufTy).Contents (Elt F) → (⟨S262144, .i32⟩ : BufTy).Contents (Elt F) → (⟨S262144, .i1⟩ : BufTy).Contents (Elt F))) (W34 m ρ c (Proc.devRef .tc main_v5)) (W34 m ρ c (Proc.devRef .tc main_v22)) := by
  rw [to9 m ρ c main_v23 (by decide), to9 m ρ c main_v5 (by decide), to9 m ρ c main_v22 (by decide), W9_eq m ρ c, HostStage0.at_main_v23]

theorem fin_main_c_4 : W34 m ρ c (Proc.devRef .tc main_c_4) = (constantI S_ 32 131072#32) := by
  rw [to9 m ρ c main_c_4 (by decide), W9_eq m ρ c, HostStage0.at_main_c_4]

theorem fin_main_v24 : W34 m ρ c (Proc.devRef .tc main_v24) = ((broadcastInDim S262144 ![] bcast_S_S262144 : (⟨S_, .i32⟩ : BufTy).Contents (Elt F) → (⟨S262144, .i32⟩ : BufTy).Contents (Elt F))) (W34 m ρ c (Proc.devRef .tc main_c_4)) := by
  rw [to9 m ρ c main_v24 (by decide), to9 m ρ c main_c_4 (by decide), W9_eq m ρ c, HostStage0.at_main_v24]

theorem fin_main_v25 : W34 m ρ c (Proc.devRef .tc main_v25) = ((addi : (⟨S262144, .i32⟩ : BufTy).Contents (Elt F) → (⟨S262144, .i32⟩ : BufTy).Contents (Elt F) → (⟨S262144, .i32⟩ : BufTy).Contents (Elt F))) (W34 m ρ c (Proc.devRef .tc main_v5)) (W34 m ρ c (Proc.devRef .tc main_v24)) := by
  rw [to9 m ρ c main_v25 (by decide), to9 m ρ c main_v5 (by decide), to9 m ρ c main_v24 (by decide), W9_eq m ρ c, HostStage0.at_main_v25]

theorem fin_main_v26 : W34 m ρ c (Proc.devRef .tc main_v26) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (W34 m ρ c (Proc.devRef .tc main_v23)) (W34 m ρ c (Proc.devRef .tc main_v25)) (W34 m ρ c (Proc.devRef .tc main_v5)) := by
  rw [to9 m ρ c main_v26 (by decide), to9 m ρ c main_v23 (by decide), to9 m ρ c main_v25 (by decide), to9 m ρ c main_v5 (by decide), W9_eq m ρ c, HostStage0.at_main_v26]

theorem fin_main_v27 : W34 m ρ c (Proc.devRef .tc main_v27) = ((broadcastInDim S262144x1 ![0] bcast_S262144_S262144x1_0 : (⟨S262144, .i32⟩ : BufTy).Contents (Elt F) → (⟨S262144x1, .i32⟩ : BufTy).Contents (Elt F))) (W34 m ρ c (Proc.devRef .tc main_v26)) := by
  rw [to9 m ρ c main_v27 (by decide), to9 m ρ c main_v26 (by decide), W9_eq m ρ c, HostStage0.at_main_v27]

theorem fin_main_v28 : W34 m ρ c (Proc.devRef .tc main_v28) = (((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F))) (W34 m ρ c (Proc.devRef .tc main_arg3)) (W34 m ρ c (Proc.devRef .tc main_v27)) := by
  rw [to9 m ρ c main_v28 (by decide), to9 m ρ c main_arg3 (by decide), to9 m ρ c main_v27 (by decide), W9_eq m ρ c, HostStage0.at_main_v28]

theorem fin_main_c_5 : W34 m ρ c (Proc.devRef .tc main_c_5) = (constantI S_ 32 0#32) := by
  rw [to9 m ρ c main_c_5 (by decide), W9_eq m ρ c, HostStage0.at_main_c_5]

theorem fin_main_v29 : W34 m ρ c (Proc.devRef .tc main_v29) = ((broadcastInDim S262144 ![] bcast_S_S262144 : (⟨S_, .i32⟩ : BufTy).Contents (Elt F) → (⟨S262144, .i32⟩ : BufTy).Contents (Elt F))) (W34 m ρ c (Proc.devRef .tc main_c_5)) := by
  rw [to9 m ρ c main_v29 (by decide), to9 m ρ c main_c_5 (by decide), W9_eq m ρ c, HostStage0.at_main_v29]

theorem fin_main_v30 : W34 m ρ c (Proc.devRef .tc main_v30) = ((cmpi .slt : (⟨S262144, .i32⟩ : BufTy).Contents (Elt F) → (⟨S262144, .i32⟩ : BufTy).Contents (Elt F) → (⟨S262144, .i1⟩ : BufTy).Contents (Elt F))) (W34 m ρ c (Proc.devRef .tc main_v7)) (W34 m ρ c (Proc.devRef .tc main_v29)) := by
  rw [to9 m ρ c main_v30 (by decide), to9 m ρ c main_v7 (by decide), to9 m ρ c main_v29 (by decide), W9_eq m ρ c, HostStage0.at_main_v30]

theorem fin_main_c_6 : W34 m ρ c (Proc.devRef .tc main_c_6) = (constantI S_ 32 131072#32) := by
  rw [to9 m ρ c main_c_6 (by decide), W9_eq m ρ c, HostStage0.at_main_c_6]

theorem fin_main_v31 : W34 m ρ c (Proc.devRef .tc main_v31) = ((broadcastInDim S262144 ![] bcast_S_S262144 : (⟨S_, .i32⟩ : BufTy).Contents (Elt F) → (⟨S262144, .i32⟩ : BufTy).Contents (Elt F))) (W34 m ρ c (Proc.devRef .tc main_c_6)) := by
  rw [to9 m ρ c main_v31 (by decide), to9 m ρ c main_c_6 (by decide), W9_eq m ρ c, HostStage0.at_main_v31]

theorem fin_main_v32 : W34 m ρ c (Proc.devRef .tc main_v32) = ((addi : (⟨S262144, .i32⟩ : BufTy).Contents (Elt F) → (⟨S262144, .i32⟩ : BufTy).Contents (Elt F) → (⟨S262144, .i32⟩ : BufTy).Contents (Elt F))) (W34 m ρ c (Proc.devRef .tc main_v7)) (W34 m ρ c (Proc.devRef .tc main_v31)) := by
  rw [to9 m ρ c main_v32 (by decide), to9 m ρ c main_v7 (by decide), to9 m ρ c main_v31 (by decide), W9_eq m ρ c, HostStage0.at_main_v32]

theorem fin_main_v33 : W34 m ρ c (Proc.devRef .tc main_v33) = ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))) (W34 m ρ c (Proc.devRef .tc main_v30)) (W34 m ρ c (Proc.devRef .tc main_v32)) (W34 m ρ c (Proc.devRef .tc main_v7)) := by
  rw [to9 m ρ c main_v33 (by decide), to9 m ρ c main_v30 (by decide), to9 m ρ c main_v32 (by decide), to9 m ρ c main_v7 (by decide), W9_eq m ρ c, HostStage0.at_main_v33]

theorem fin_main_v34 : W34 m ρ c (Proc.devRef .tc main_v34) = ((broadcastInDim S262144x1 ![0] bcast_S262144_S262144x1_0 : (⟨S262144, .i32⟩ : BufTy).Contents (Elt F) → (⟨S262144x1, .i32⟩ : BufTy).Contents (Elt F))) (W34 m ρ c (Proc.devRef .tc main_v33)) := by
  rw [to9 m ρ c main_v34 (by decide), to9 m ρ c main_v33 (by decide), W9_eq m ρ c, HostStage0.at_main_v34]

theorem fin_main_v35 : W34 m ρ c (Proc.devRef .tc main_v35) = (((fun x i => Host.gather gather_S131072x128_S262144x1_S262144x128_1_0_n_n_0_1_1128 x i) : (⟨S131072x128, .f32⟩ : BufTy).Contents (Elt F) → (⟨S262144x1, .i32⟩ : BufTy).Contents (Elt F) → (⟨S262144x128, .f32⟩ : BufTy).Contents (Elt F))) (W34 m ρ c (Proc.devRef .tc main_arg3)) (W34 m ρ c (Proc.devRef .tc main_v34)) := by
  rw [to9 m ρ c main_v35 (by decide), to9 m ρ c main_arg3 (by decide), to9 m ρ c main_v34 (by decide), W9_eq m ρ c, HostStage0.at_main_v35]

theorem fin_main_call0_v0 : W34 m ρ c (Proc.devRef .tc main_call0_v0) = ((extractStridedSlice S1 ![255] · slices_S256_S1_255)) (W34 m ρ c (Proc.devRef .tc main_arg19)) := by
  rw [to9 m ρ c main_call0_v0 (by decide), to9 m ρ c main_arg19 (by decide), W9_eq m ρ c, HostStage0.at_main_call0_v0]

theorem fin_main_call0_v1 : W34 m ρ c (Proc.devRef .tc main_call0_v1) = ((extractStridedSlice S255 ![0] · slices_S256_S255_0)) (W34 m ρ c (Proc.devRef .tc main_arg19)) := by
  rw [to9 m ρ c main_call0_v1 (by decide), to9 m ρ c main_arg19 (by decide), W9_eq m ρ c, HostStage0.at_main_call0_v1]

theorem fin_main_v36 : W34 m ρ c (Proc.devRef .tc main_v36) = ((fun a b => concatenate S256 0 [⟨S1, a⟩, ⟨S255, b⟩] concatenates_S1_S255_S256_d0)) (W34 m ρ c (Proc.devRef .tc main_call0_v0)) (W34 m ρ c (Proc.devRef .tc main_call0_v1)) := by
  rw [to9 m ρ c main_v36 (by decide), to9 m ρ c main_call0_v0 (by decide), to9 m ρ c main_call0_v1 (by decide), W9_eq m ρ c, HostStage0.at_main_v36]

theorem fin_main_c_7 : W34 m ρ c (Proc.devRef .tc main_c_7) = (constantI S_ 32 0#32) := by
  rw [to9 m ρ c main_c_7 (by decide), W9_eq m ρ c, HostStage0.at_main_c_7]

theorem fin_main_v37 : W34 m ρ c (Proc.devRef .tc main_v37) = ((broadcastInDim S1 ![] bcast_S_S1 : (⟨S_, .i32⟩ : BufTy).Contents (Elt F) → (⟨S1, .i32⟩ : BufTy).Contents (Elt F))) (W34 m ρ c (Proc.devRef .tc main_c_7)) := by
  rw [to9 m ρ c main_v37 (by decide), to9 m ρ c main_c_7 (by decide), W9_eq m ρ c, HostStage0.at_main_v37]

theorem fin_main_c_8 : W34 m ρ c (Proc.devRef .tc main_c_8) = (constantI S_ 32 0#32) := by
  rw [to9 m ρ c main_c_8 (by decide), W9_eq m ρ c, HostStage0.at_main_c_8]

theorem fin_main_v38 : W34 m ρ c (Proc.devRef .tc main_v38) = (((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F))) (W34 m ρ c (Proc.devRef .tc main_v36)) (W34 m ρ c (Proc.devRef .tc main_v37)) (W34 m ρ c (Proc.devRef .tc main_c_8)) := by
  rw [to9 m ρ c main_v38 (by decide), to9 m ρ c main_v36 (by decide), to9 m ρ c main_v37 (by decide), to9 m ρ c main_c_8 (by decide), W9_eq m ρ c, HostStage0.at_main_v38]

theorem fin_main_call1_call0_c : W34 m ρ c (Proc.devRef .tc main_call1_call0_c) = (constantI S_ 32 0#32) := by
  rw [to9 m ρ c main_call1_call0_c (by decide), W9_eq m ρ c, HostStage0.at_main_call1_call0_c]

theorem fin_main_call1_call0_v0 : W34 m ρ c (Proc.devRef .tc main_call1_call0_v0) = ((broadcastInDim S_ ![] bcast_S_S_)) (W34 m ρ c (Proc.devRef .tc main_call1_call0_c)) := by
  rw [to9 m ρ c main_call1_call0_v0 (by decide), to9 m ρ c main_call1_call0_c (by decide), W9_eq m ρ c, HostStage0.at_main_call1_call0_v0]

theorem fin_main_v39 : W34 m ρ c (Proc.devRef .tc main_v39) = ((fun x v => Host.reduceWindow IntOp.addi ![256] ![1] ![255] ![0] x v reduceWindows_S256_S256_w256s1p255_0 h_S_)) (W34 m ρ c (Proc.devRef .tc main_v38)) (W34 m ρ c (Proc.devRef .tc main_call1_call0_v0)) := by
  rw [to9 m ρ c main_v39 (by decide), to9 m ρ c main_v38 (by decide), to9 m ρ c main_call1_call0_v0 (by decide), W9_eq m ρ c, HostStage0.at_main_v39]

theorem fin_main_c_9 : W34 m ρ c (Proc.devRef .tc main_c_9) = (constantI S_ 32 0#32) := by
  rw [to9 m ρ c main_c_9 (by decide), W9_eq m ρ c, HostStage0.at_main_c_9]

theorem fin_main_v40 : W34 m ρ c (Proc.devRef .tc main_v40) = ((broadcastInDim S262144 ![] bcast_S_S262144 : (⟨S_, .i32⟩ : BufTy).Contents (Elt F) → (⟨S262144, .i32⟩ : BufTy).Contents (Elt F))) (W34 m ρ c (Proc.devRef .tc main_c_9)) := by
  rw [to9 m ρ c main_v40 (by decide), to9 m ρ c main_c_9 (by decide), W9_eq m ρ c, HostStage0.at_main_v40]

theorem fin_main_c_10 : W34 m ρ c (Proc.devRef .tc main_c_10) = (constantI S_ 32 0#32) := by
  rw [to9 m ρ c main_c_10 (by decide), W9_eq m ρ c, HostStage0.at_main_c_10]

theorem fin_main_v41 : W34 m ρ c (Proc.devRef .tc main_v41) = ((broadcastInDim S256 ![] bcast_S_S256 : (⟨S_, .i32⟩ : BufTy).Contents (Elt F) → (⟨S256, .i32⟩ : BufTy).Contents (Elt F))) (W34 m ρ c (Proc.devRef .tc main_c_10)) := by
  rw [to9 m ρ c main_v41 (by decide), to9 m ρ c main_c_10 (by decide), W9_eq m ρ c, HostStage0.at_main_v41]

theorem fin_main_v42 : W34 m ρ c (Proc.devRef .tc main_v42) = ((cmpi .slt : (⟨S256, .i32⟩ : BufTy).Contents (Elt F) → (⟨S256, .i32⟩ : BufTy).Contents (Elt F) → (⟨S256, .i1⟩ : BufTy).Contents (Elt F))) (W34 m ρ c (Proc.devRef .tc main_v39)) (W34 m ρ c (Proc.devRef .tc main_v41)) := by
  rw [to9 m ρ c main_v42 (by decide), to9 m ρ c main_v39 (by decide), to9 m ρ c main_v41 (by decide), W9_eq m ρ c, HostStage0.at_main_v42]

theorem fin_main_c_11 : W34 m ρ c (Proc.devRef .tc main_c_11) = (constantI S_ 32 262144#32) := by
  rw [to9 m ρ c main_c_11 (by decide), W9_eq m ρ c, HostStage0.at_main_c_11]

theorem fin_main_v43 : W34 m ρ c (Proc.devRef .tc main_v43) = ((broadcastInDim S256 ![] bcast_S_S256 : (⟨S_, .i32⟩ : BufTy).Contents (Elt F) → (⟨S256, .i32⟩ : BufTy).Contents (Elt F))) (W34 m ρ c (Proc.devRef .tc main_c_11)) := by
  rw [to9 m ρ c main_v43 (by decide), to9 m ρ c main_c_11 (by decide), W9_eq m ρ c, HostStage0.at_main_v43]

theorem fin_main_v44 : W34 m ρ c (Proc.devRef .tc main_v44) = ((addi : (⟨S256, .i32⟩ : BufTy).Contents (Elt F) → (⟨S256, .i32⟩ : BufTy).Contents (Elt F) → (⟨S256, .i32⟩ : BufTy).Contents (Elt F))) (W34 m ρ c (Proc.devRef .tc main_v39)) (W34 m ρ c (Proc.devRef .tc main_v43)) := by
  rw [to9 m ρ c main_v44 (by decide), to9 m ρ c main_v39 (by decide), to9 m ρ c main_v43 (by decide), W9_eq m ρ c, HostStage0.at_main_v44]

theorem fin_main_v45 : W34 m ρ c (Proc.devRef .tc main_v45) = ((select : (⟨S256, .i1⟩ : BufTy).Contents (Elt F) → (⟨S256, .i32⟩ : BufTy).Contents (Elt F) → (⟨S256, .i32⟩ : BufTy).Contents (Elt F) → (⟨S256, .i32⟩ : BufTy).Contents (Elt F))) (W34 m ρ c (Proc.devRef .tc main_v42)) (W34 m ρ c (Proc.devRef .tc main_v44)) (W34 m ρ c (Proc.devRef .tc main_v39)) := by
  rw [to9 m ρ c main_v45 (by decide), to9 m ρ c main_v42 (by decide), to9 m ρ c main_v44 (by decide), to9 m ρ c main_v39 (by decide), W9_eq m ρ c, HostStage0.at_main_v45]

theorem fin_main_v46 : W34 m ρ c (Proc.devRef .tc main_v46) = ((broadcastInDim S256x1 ![0] bcast_S256_S256x1_0 : (⟨S256, .i32⟩ : BufTy).Contents (Elt F) → (⟨S256x1, .i32⟩ : BufTy).Contents (Elt F))) (W34 m ρ c (Proc.devRef .tc main_v45)) := by
  rw [to9 m ρ c main_v46 (by decide), to9 m ρ c main_v45 (by decide), W9_eq m ρ c, HostStage0.at_main_v46]

theorem fin_main_c_12 : W34 m ρ c (Proc.devRef .tc main_c_12) = (constantI S_ 32 1#32) := by
  rw [to9 m ρ c main_c_12 (by decide), W9_eq m ρ c, HostStage0.at_main_c_12]

theorem fin_main_v47 : W34 m ρ c (Proc.devRef .tc main_v47) = ((broadcastInDim S256 ![] bcast_S_S256 : (⟨S_, .i32⟩ : BufTy).Contents (Elt F) → (⟨S256, .i32⟩ : BufTy).Contents (Elt F))) (W34 m ρ c (Proc.devRef .tc main_c_12)) := by
  rw [to9 m ρ c main_v47 (by decide), to9 m ρ c main_c_12 (by decide), W9_eq m ρ c, HostStage0.at_main_v47]

theorem fin_main_v48 : W34 m ρ c (Proc.devRef .tc main_v48) = (((fun x i u => Host.scatter scatter_S262144_S256x1_S256_n_0_0_1 IntOp.addi x i u) : (⟨S262144, .i32⟩ : BufTy).Contents (Elt F) → (⟨S256x1, .i32⟩ : BufTy).Contents (Elt F) → (⟨S256, .i32⟩ : BufTy).Contents (Elt F) → (⟨S262144, .i32⟩ : BufTy).Contents (Elt F))) (W34 m ρ c (Proc.devRef .tc main_v40)) (W34 m ρ c (Proc.devRef .tc main_v46)) (W34 m ρ c (Proc.devRef .tc main_v47)) := by
  rw [to9 m ρ c main_v48 (by decide), to9 m ρ c main_v40 (by decide), to9 m ρ c main_v46 (by decide), to9 m ρ c main_v47 (by decide), W9_eq m ρ c, HostStage0.at_main_v48]

theorem fin_main_call2_call0_c : W34 m ρ c (Proc.devRef .tc main_call2_call0_c) = (constantI S_ 32 0#32) := by
  rw [to9 m ρ c main_call2_call0_c (by decide), W9_eq m ρ c, HostStage0.at_main_call2_call0_c]

theorem fin_main_call2_call0_v0 : W34 m ρ c (Proc.devRef .tc main_call2_call0_v0) = ((broadcastInDim S_ ![] bcast_S_S_)) (W34 m ρ c (Proc.devRef .tc main_call2_call0_c)) := by
  rw [to9 m ρ c main_call2_call0_v0 (by decide), to9 m ρ c main_call2_call0_c (by decide), W9_eq m ρ c, HostStage0.at_main_call2_call0_v0]

theorem fin_main_v49 : W34 m ρ c (Proc.devRef .tc main_v49) = ((fun x v => Host.reduceWindow IntOp.addi ![262144] ![1] ![262143] ![0] x v reduceWindows_S262144_S262144_w262144s1p262143_0 h_S_)) (W34 m ρ c (Proc.devRef .tc main_v48)) (W34 m ρ c (Proc.devRef .tc main_call2_call0_v0)) := by
  rw [to9 m ρ c main_v49 (by decide), to9 m ρ c main_v48 (by decide), to9 m ρ c main_call2_call0_v0 (by decide), W9_eq m ρ c, HostStage0.at_main_v49]

theorem fin_main_c_13 : W34 m ρ c (Proc.devRef .tc main_c_13) = (constantI S_ 32 1#32) := by
  rw [to9 m ρ c main_c_13 (by decide), W9_eq m ρ c, HostStage0.at_main_c_13]

theorem fin_main_v50 : W34 m ρ c (Proc.devRef .tc main_v50) = ((broadcastInDim S262144 ![] bcast_S_S262144 : (⟨S_, .i32⟩ : BufTy).Contents (Elt F) → (⟨S262144, .i32⟩ : BufTy).Contents (Elt F))) (W34 m ρ c (Proc.devRef .tc main_c_13)) := by
  rw [to9 m ρ c main_v50 (by decide), to9 m ρ c main_c_13 (by decide), W9_eq m ρ c, HostStage0.at_main_v50]

theorem fin_main_v51 : W34 m ρ c (Proc.devRef .tc main_v51) = ((subi : (⟨S262144, .i32⟩ : BufTy).Contents (Elt F) → (⟨S262144, .i32⟩ : BufTy).Contents (Elt F) → (⟨S262144, .i32⟩ : BufTy).Contents (Elt F))) (W34 m ρ c (Proc.devRef .tc main_v49)) (W34 m ρ c (Proc.devRef .tc main_v50)) := by
  rw [to9 m ρ c main_v51 (by decide), to9 m ρ c main_v49 (by decide), to9 m ρ c main_v50 (by decide), W9_eq m ρ c, HostStage0.at_main_v51]

theorem fin_main_call3_c : W34 m ρ c (Proc.devRef .tc main_call3_c) = (constantI S_ 32 0#32) := by
  rw [to9 m ρ c main_call3_c (by decide), W9_eq m ρ c, HostStage0.at_main_call3_c]

theorem fin_main_call3_v0 : W34 m ρ c (Proc.devRef .tc main_call3_v0) = ((broadcastInDim S262144 ![] bcast_S_S262144)) (W34 m ρ c (Proc.devRef .tc main_call3_c)) := by
  rw [to9 m ρ c main_call3_v0 (by decide), to9 m ρ c main_call3_c (by decide), W9_eq m ρ c, HostStage0.at_main_call3_v0]

theorem fin_main_call3_v1 : W34 m ρ c (Proc.devRef .tc main_call3_v1) = ((cmpi .slt)) (W34 m ρ c (Proc.devRef .tc main_v51)) (W34 m ρ c (Proc.devRef .tc main_call3_v0)) := by
  rw [to9 m ρ c main_call3_v1 (by decide), to9 m ρ c main_v51 (by decide), to9 m ρ c main_call3_v0 (by decide), W9_eq m ρ c, HostStage0.at_main_call3_v1]

theorem fin_main_call3_c_0 : W34 m ρ c (Proc.devRef .tc main_call3_c_0) = (constantI S_ 32 256#32) := by
  rw [to9 m ρ c main_call3_c_0 (by decide), W9_eq m ρ c, HostStage0.at_main_call3_c_0]

theorem fin_main_call3_v2 : W34 m ρ c (Proc.devRef .tc main_call3_v2) = ((broadcastInDim S262144 ![] bcast_S_S262144)) (W34 m ρ c (Proc.devRef .tc main_call3_c_0)) := by
  rw [to9 m ρ c main_call3_v2 (by decide), to9 m ρ c main_call3_c_0 (by decide), W9_eq m ρ c, HostStage0.at_main_call3_v2]

theorem fin_main_call3_v3 : W34 m ρ c (Proc.devRef .tc main_call3_v3) = (addi) (W34 m ρ c (Proc.devRef .tc main_v51)) (W34 m ρ c (Proc.devRef .tc main_call3_v2)) := by
  rw [to9 m ρ c main_call3_v3 (by decide), to9 m ρ c main_v51 (by decide), to9 m ρ c main_call3_v2 (by decide), W9_eq m ρ c, HostStage0.at_main_call3_v3]

theorem fin_main_call3_v4 : W34 m ρ c (Proc.devRef .tc main_call3_v4) = (select) (W34 m ρ c (Proc.devRef .tc main_call3_v1)) (W34 m ρ c (Proc.devRef .tc main_call3_v3)) (W34 m ρ c (Proc.devRef .tc main_v51)) := by
  rw [to9 m ρ c main_call3_v4 (by decide), to9 m ρ c main_call3_v1 (by decide), to9 m ρ c main_call3_v3 (by decide), to9 m ρ c main_v51 (by decide), W9_eq m ρ c, HostStage0.at_main_call3_v4]

theorem fin_main_call3_v5 : W34 m ρ c (Proc.devRef .tc main_call3_v5) = ((broadcastInDim S262144x1 ![0] bcast_S262144_S262144x1_0)) (W34 m ρ c (Proc.devRef .tc main_call3_v4)) := by
  rw [to9 m ρ c main_call3_v5 (by decide), to9 m ρ c main_call3_v4 (by decide), W9_eq m ρ c, HostStage0.at_main_call3_v5]

theorem fin_main_call3_c_1 : W34 m ρ c (Proc.devRef .tc main_call3_c_1) = (constantI S1 32 255#32) := by
  rw [to9 m ρ c main_call3_c_1 (by decide), W9_eq m ρ c, HostStage0.at_main_call3_c_1]

theorem fin_main_call3_c_2 : W34 m ρ c (Proc.devRef .tc main_call3_c_2) = (constantI S_ 32 0#32) := by
  rw [to9 m ρ c main_call3_c_2 (by decide), W9_eq m ρ c, HostStage0.at_main_call3_c_2]

theorem fin_main_call3_v6 : W34 m ρ c (Proc.devRef .tc main_call3_v6) = ((broadcastInDim S262144x1 ![] bcast_S_S262144x1)) (W34 m ρ c (Proc.devRef .tc main_call3_c_2)) := by
  rw [to9 m ρ c main_call3_v6 (by decide), to9 m ρ c main_call3_c_2 (by decide), W9_eq m ρ c, HostStage0.at_main_call3_v6]

theorem fin_main_call3_v7 : W34 m ρ c (Proc.devRef .tc main_call3_v7) = ((cmpi .sge)) (W34 m ρ c (Proc.devRef .tc main_call3_v5)) (W34 m ρ c (Proc.devRef .tc main_call3_v6)) := by
  rw [to9 m ρ c main_call3_v7 (by decide), to9 m ρ c main_call3_v5 (by decide), to9 m ρ c main_call3_v6 (by decide), W9_eq m ρ c, HostStage0.at_main_call3_v7]

theorem fin_main_call3_v8 : W34 m ρ c (Proc.devRef .tc main_call3_v8) = ((broadcastInDim S1x1 ![1] bcast_S1_S1x1_1)) (W34 m ρ c (Proc.devRef .tc main_call3_c_1)) := by
  rw [to9 m ρ c main_call3_v8 (by decide), to9 m ρ c main_call3_c_1 (by decide), W9_eq m ρ c, HostStage0.at_main_call3_v8]

theorem fin_main_call3_v9 : W34 m ρ c (Proc.devRef .tc main_call3_v9) = ((broadcastInDim S262144x1 ![0, 1] bcast_S1x1_S262144x1_0_1)) (W34 m ρ c (Proc.devRef .tc main_call3_v8)) := by
  rw [to9 m ρ c main_call3_v9 (by decide), to9 m ρ c main_call3_v8 (by decide), W9_eq m ρ c, HostStage0.at_main_call3_v9]

theorem fin_main_call3_v10 : W34 m ρ c (Proc.devRef .tc main_call3_v10) = ((cmpi .sle)) (W34 m ρ c (Proc.devRef .tc main_call3_v5)) (W34 m ρ c (Proc.devRef .tc main_call3_v9)) := by
  rw [to9 m ρ c main_call3_v10 (by decide), to9 m ρ c main_call3_v5 (by decide), to9 m ρ c main_call3_v9 (by decide), W9_eq m ρ c, HostStage0.at_main_call3_v10]

theorem fin_main_call3_v11 : W34 m ρ c (Proc.devRef .tc main_call3_v11) = (andi) (W34 m ρ c (Proc.devRef .tc main_call3_v7)) (W34 m ρ c (Proc.devRef .tc main_call3_v10)) := by
  rw [to9 m ρ c main_call3_v11 (by decide), to9 m ρ c main_call3_v7 (by decide), to9 m ρ c main_call3_v10 (by decide), W9_eq m ρ c, HostStage0.at_main_call3_v11]

theorem fin_main_call3_c_3 : W34 m ρ c (Proc.devRef .tc main_call3_c_3) = (constantI S_ 1 1#1) := by
  rw [to9 m ρ c main_call3_c_3 (by decide), W9_eq m ρ c, HostStage0.at_main_call3_c_3]

theorem fin_main_call3_v12 : W34 m ρ c (Proc.devRef .tc main_call3_v12) = ((fun x v => Host.reduce IntOp.andi x v reducesTo_S262144x1_S262144_d1 h_S_)) (W34 m ρ c (Proc.devRef .tc main_call3_v11)) (W34 m ρ c (Proc.devRef .tc main_call3_c_3)) := by
  rw [to9 m ρ c main_call3_v12 (by decide), to9 m ρ c main_call3_v11 (by decide), to9 m ρ c main_call3_c_3 (by decide), W9_eq m ρ c, HostStage0.at_main_call3_v12]

theorem fin_main_call3_v13 : W34 m ρ c (Proc.devRef .tc main_call3_v13) = ((fun x i => Host.gather gather_S256x128_S262144x1_S262144x128_1_0_n_n_0_1_1128 x i)) (W34 m ρ c (Proc.devRef .tc main_arg2)) (W34 m ρ c (Proc.devRef .tc main_call3_v5)) := by
  rw [to9 m ρ c main_call3_v13 (by decide), to9 m ρ c main_arg2 (by decide), to9 m ρ c main_call3_v5 (by decide), W9_eq m ρ c, HostStage0.at_main_call3_v13]

theorem fin_main_call3_v14 : W34 m ρ c (Proc.devRef .tc main_call3_v14) = ((broadcastInDim S262144x128 ![0] bcast_S262144_S262144x128_0)) (W34 m ρ c (Proc.devRef .tc main_call3_v12)) := by
  rw [to9 m ρ c main_call3_v14 (by decide), to9 m ρ c main_call3_v12 (by decide), W9_eq m ρ c, HostStage0.at_main_call3_v14]

theorem fin_main_call3_cst : W34 m ρ c (Proc.devRef .tc main_call3_cst) = (constant S_ .f32 0x7FC00000#32) := by
  rw [to9 m ρ c main_call3_cst (by decide), W9_eq m ρ c, HostStage0.at_main_call3_cst]

theorem fin_main_call3_v15 : W34 m ρ c (Proc.devRef .tc main_call3_v15) = ((broadcastInDim S262144x128 ![] bcast_S_S262144x128)) (W34 m ρ c (Proc.devRef .tc main_call3_cst)) := by
  rw [to9 m ρ c main_call3_v15 (by decide), to9 m ρ c main_call3_cst (by decide), W9_eq m ρ c, HostStage0.at_main_call3_v15]

theorem fin_main_v52 : W34 m ρ c (Proc.devRef .tc main_v52) = (select) (W34 m ρ c (Proc.devRef .tc main_call3_v14)) (W34 m ρ c (Proc.devRef .tc main_call3_v13)) (W34 m ρ c (Proc.devRef .tc main_call3_v15)) := by
  rw [to9 m ρ c main_v52 (by decide), to9 m ρ c main_call3_v14 (by decide), to9 m ρ c main_call3_v13 (by decide), to9 m ρ c main_call3_v15 (by decide), W9_eq m ρ c, HostStage0.at_main_v52]

theorem fin_main_v53 : W34 m ρ c (Proc.devRef .tc main_v53) = (((extractStridedSlice S128x128 ![0, 0] · slices_S768x128_S128x128_0_0) : (⟨S768x128, .f32⟩ : BufTy).Contents (Elt F) → (⟨S128x128, .f32⟩ : BufTy).Contents (Elt F))) (W34 m ρ c (Proc.devRef .tc main_arg4)) := by
  rw [to9 m ρ c main_v53 (by decide), to9 m ρ c main_arg4 (by decide), W9_eq m ρ c, HostStage0.at_main_v53]

theorem fin_main_v54 : W34 m ρ c (Proc.devRef .tc main_v54) = (((extractStridedSlice S128x128 ![128, 0] · slices_S768x128_S128x128_128_0) : (⟨S768x128, .f32⟩ : BufTy).Contents (Elt F) → (⟨S128x128, .f32⟩ : BufTy).Contents (Elt F))) (W34 m ρ c (Proc.devRef .tc main_arg4)) := by
  rw [to9 m ρ c main_v54 (by decide), to9 m ρ c main_arg4 (by decide), W9_eq m ρ c, HostStage0.at_main_v54]

theorem fin_main_v55 : W34 m ρ c (Proc.devRef .tc main_v55) = (((extractStridedSlice S128x128 ![256, 0] · slices_S768x128_S128x128_256_0) : (⟨S768x128, .f32⟩ : BufTy).Contents (Elt F) → (⟨S128x128, .f32⟩ : BufTy).Contents (Elt F))) (W34 m ρ c (Proc.devRef .tc main_arg4)) := by
  rw [to9 m ρ c main_v55 (by decide), to9 m ρ c main_arg4 (by decide), W9_eq m ρ c, HostStage0.at_main_v55]

theorem fin_main_v56 : W34 m ρ c (Proc.devRef .tc main_v56) = (((extractStridedSlice S128x128 ![384, 0] · slices_S768x128_S128x128_384_0) : (⟨S768x128, .f32⟩ : BufTy).Contents (Elt F) → (⟨S128x128, .f32⟩ : BufTy).Contents (Elt F))) (W34 m ρ c (Proc.devRef .tc main_arg4)) := by
  rw [to9 m ρ c main_v56 (by decide), to9 m ρ c main_arg4 (by decide), W9_eq m ρ c, HostStage0.at_main_v56]

theorem fin_main_v57 : W34 m ρ c (Proc.devRef .tc main_v57) = (((extractStridedSlice S128x128 ![512, 0] · slices_S768x128_S128x128_512_0) : (⟨S768x128, .f32⟩ : BufTy).Contents (Elt F) → (⟨S128x128, .f32⟩ : BufTy).Contents (Elt F))) (W34 m ρ c (Proc.devRef .tc main_arg4)) := by
  rw [to9 m ρ c main_v57 (by decide), to9 m ρ c main_arg4 (by decide), W9_eq m ρ c, HostStage0.at_main_v57]

theorem fin_main_v58 : W34 m ρ c (Proc.devRef .tc main_v58) = (((extractStridedSlice S128x128 ![640, 0] · slices_S768x128_S128x128_640_0) : (⟨S768x128, .f32⟩ : BufTy).Contents (Elt F) → (⟨S128x128, .f32⟩ : BufTy).Contents (Elt F))) (W34 m ρ c (Proc.devRef .tc main_arg4)) := by
  rw [to9 m ρ c main_v58 (by decide), to9 m ρ c main_arg4 (by decide), W9_eq m ρ c, HostStage0.at_main_v58]

theorem fin_main_v59 : W34 m ρ c (Proc.devRef .tc main_v59) = fun i => shapeCast main_v59.ty.shape (W34 m ρ c (Proc.devRef .tc main_arg5)) shapeCasts_S128_S1x128 i := by
  rw [to9 m ρ c main_v59 (by decide), to9 m ρ c main_arg5 (by decide), W9_eq m ρ c, HostStage0.at_main_v59]

end Cert.KernelIdeal.Final

end
-- ==== Proof.KFin1.lean ====
/-
  Host stage 1 of the idealized kernel, read at the end of the run.

  Each buffer the stage writes holds, at the end of the run, its operation's function of what the operand buffers hold at
  the end of the run: nothing after the stage writes the buffer or its operands.
-/
import proofs.«134187_j30227979829536_1_alg».proof.Proof.KFinal

set_option maxRecDepth 16384

noncomputable section

namespace Cert.KernelIdeal.Final

open Idealize.ShloMosaic Idealize.ShloMosaic.StableHlo Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg) (c : Dev nD)

theorem fin_main_cst : W34 m ρ c (Proc.devRef .tc main_cst) = (constant S_ .f32 0x00000000#32) := by
  rw [to19 m ρ c main_cst (by decide), W19_eq m ρ c, HostStage1.at_main_cst]

theorem fin_main_v61 : W34 m ρ c (Proc.devRef .tc main_v61) = ((broadcastInDim S131072x128 ![] bcast_S_S131072x128 : (⟨S_, .f32⟩ : BufTy).Contents (Elt F) → (⟨S131072x128, .f32⟩ : BufTy).Contents (Elt F))) (W34 m ρ c (Proc.devRef .tc main_cst)) := by
  rw [to19 m ρ c main_v61 (by decide), to19 m ρ c main_cst (by decide), W19_eq m ρ c, HostStage1.at_main_v61]

theorem fin_main_v62 : W34 m ρ c (Proc.devRef .tc main_v62) = ((broadcastInDim S262144x1 ![0] bcast_S262144_S262144x1_0 : (⟨S262144, .i32⟩ : BufTy).Contents (Elt F) → (⟨S262144x1, .i32⟩ : BufTy).Contents (Elt F))) (W34 m ρ c (Proc.devRef .tc main_v1)) := by
  rw [to19 m ρ c main_v62 (by decide), to19 m ρ c main_v1 (by decide), W19_eq m ρ c, HostStage1.at_main_v62]

theorem fin_main_v63 : W34 m ρ c (Proc.devRef .tc main_v63) = (((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F))) (W34 m ρ c (Proc.devRef .tc main_v61)) (W34 m ρ c (Proc.devRef .tc main_v62)) (W34 m ρ c (Proc.devRef .tc main_v60)) := by
  rw [to19 m ρ c main_v63 (by decide), to19 m ρ c main_v61 (by decide), to19 m ρ c main_v62 (by decide), to19 m ρ c main_v60 (by decide), W19_eq m ρ c, HostStage1.at_main_v63]

theorem fin_main_cst_14 : W34 m ρ c (Proc.devRef .tc main_cst_14) = (constant S_ .f32 0x00000000#32) := by
  rw [to19 m ρ c main_cst_14 (by decide), W19_eq m ρ c, HostStage1.at_main_cst_14]

theorem fin_main_v64 : W34 m ρ c (Proc.devRef .tc main_v64) = ((broadcastInDim S131072x128 ![] bcast_S_S131072x128 : (⟨S_, .f32⟩ : BufTy).Contents (Elt F) → (⟨S131072x128, .f32⟩ : BufTy).Contents (Elt F))) (W34 m ρ c (Proc.devRef .tc main_cst_14)) := by
  rw [to19 m ρ c main_v64 (by decide), to19 m ρ c main_cst_14 (by decide), W19_eq m ρ c, HostStage1.at_main_v64]

theorem fin_main_v65 : W34 m ρ c (Proc.devRef .tc main_v65) = ((broadcastInDim S262144x1 ![0] bcast_S262144_S262144x1_0 : (⟨S262144, .i32⟩ : BufTy).Contents (Elt F) → (⟨S262144x1, .i32⟩ : BufTy).Contents (Elt F))) (W34 m ρ c (Proc.devRef .tc main_v3)) := by
  rw [to19 m ρ c main_v65 (by decide), to19 m ρ c main_v3 (by decide), W19_eq m ρ c, HostStage1.at_main_v65]

theorem fin_main_v66 : W34 m ρ c (Proc.devRef .tc main_v66) = (((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F))) (W34 m ρ c (Proc.devRef .tc main_v64)) (W34 m ρ c (Proc.devRef .tc main_v65)) (W34 m ρ c (Proc.devRef .tc main_v60)) := by
  rw [to19 m ρ c main_v66 (by decide), to19 m ρ c main_v64 (by decide), to19 m ρ c main_v65 (by decide), to19 m ρ c main_v60 (by decide), W19_eq m ρ c, HostStage1.at_main_v66]

theorem fin_main_call4_v0 : W34 m ρ c (Proc.devRef .tc main_call4_v0) = ((extractStridedSlice S1 ![255] · slices_S256_S1_255)) (W34 m ρ c (Proc.devRef .tc main_arg18)) := by
  rw [to19 m ρ c main_call4_v0 (by decide), to19 m ρ c main_arg18 (by decide), W19_eq m ρ c, HostStage1.at_main_call4_v0]

theorem fin_main_call4_v1 : W34 m ρ c (Proc.devRef .tc main_call4_v1) = ((extractStridedSlice S255 ![0] · slices_S256_S255_0)) (W34 m ρ c (Proc.devRef .tc main_arg18)) := by
  rw [to19 m ρ c main_call4_v1 (by decide), to19 m ρ c main_arg18 (by decide), W19_eq m ρ c, HostStage1.at_main_call4_v1]

theorem fin_main_v67 : W34 m ρ c (Proc.devRef .tc main_v67) = ((fun a b => concatenate S256 0 [⟨S1, a⟩, ⟨S255, b⟩] concatenates_S1_S255_S256_d0)) (W34 m ρ c (Proc.devRef .tc main_call4_v0)) (W34 m ρ c (Proc.devRef .tc main_call4_v1)) := by
  rw [to19 m ρ c main_v67 (by decide), to19 m ρ c main_call4_v0 (by decide), to19 m ρ c main_call4_v1 (by decide), W19_eq m ρ c, HostStage1.at_main_v67]

theorem fin_main_c_15 : W34 m ρ c (Proc.devRef .tc main_c_15) = (constantI S_ 32 0#32) := by
  rw [to19 m ρ c main_c_15 (by decide), W19_eq m ρ c, HostStage1.at_main_c_15]

theorem fin_main_v68 : W34 m ρ c (Proc.devRef .tc main_v68) = ((broadcastInDim S1 ![] bcast_S_S1 : (⟨S_, .i32⟩ : BufTy).Contents (Elt F) → (⟨S1, .i32⟩ : BufTy).Contents (Elt F))) (W34 m ρ c (Proc.devRef .tc main_c_15)) := by
  rw [to19 m ρ c main_v68 (by decide), to19 m ρ c main_c_15 (by decide), W19_eq m ρ c, HostStage1.at_main_v68]

theorem fin_main_c_16 : W34 m ρ c (Proc.devRef .tc main_c_16) = (constantI S_ 32 0#32) := by
  rw [to19 m ρ c main_c_16 (by decide), W19_eq m ρ c, HostStage1.at_main_c_16]

theorem fin_main_v69 : W34 m ρ c (Proc.devRef .tc main_v69) = (((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F))) (W34 m ρ c (Proc.devRef .tc main_v67)) (W34 m ρ c (Proc.devRef .tc main_v68)) (W34 m ρ c (Proc.devRef .tc main_c_16)) := by
  rw [to19 m ρ c main_v69 (by decide), to19 m ρ c main_v67 (by decide), to19 m ρ c main_v68 (by decide), to19 m ρ c main_c_16 (by decide), W19_eq m ρ c, HostStage1.at_main_v69]

theorem fin_main_call5_call0_c : W34 m ρ c (Proc.devRef .tc main_call5_call0_c) = (constantI S_ 32 0#32) := by
  rw [to19 m ρ c main_call5_call0_c (by decide), W19_eq m ρ c, HostStage1.at_main_call5_call0_c]

theorem fin_main_call5_call0_v0 : W34 m ρ c (Proc.devRef .tc main_call5_call0_v0) = ((broadcastInDim S_ ![] bcast_S_S_)) (W34 m ρ c (Proc.devRef .tc main_call5_call0_c)) := by
  rw [to19 m ρ c main_call5_call0_v0 (by decide), to19 m ρ c main_call5_call0_c (by decide), W19_eq m ρ c, HostStage1.at_main_call5_call0_v0]

theorem fin_main_v70 : W34 m ρ c (Proc.devRef .tc main_v70) = ((fun x v => Host.reduceWindow IntOp.addi ![256] ![1] ![255] ![0] x v reduceWindows_S256_S256_w256s1p255_0 h_S_)) (W34 m ρ c (Proc.devRef .tc main_v69)) (W34 m ρ c (Proc.devRef .tc main_call5_call0_v0)) := by
  rw [to19 m ρ c main_v70 (by decide), to19 m ρ c main_v69 (by decide), to19 m ρ c main_call5_call0_v0 (by decide), W19_eq m ρ c, HostStage1.at_main_v70]

theorem fin_main_c_17 : W34 m ρ c (Proc.devRef .tc main_c_17) = (constantI S_ 32 0#32) := by
  rw [to19 m ρ c main_c_17 (by decide), W19_eq m ρ c, HostStage1.at_main_c_17]

theorem fin_main_v71 : W34 m ρ c (Proc.devRef .tc main_v71) = ((broadcastInDim S131072 ![] bcast_S_S131072 : (⟨S_, .i32⟩ : BufTy).Contents (Elt F) → (⟨S131072, .i32⟩ : BufTy).Contents (Elt F))) (W34 m ρ c (Proc.devRef .tc main_c_17)) := by
  rw [to19 m ρ c main_v71 (by decide), to19 m ρ c main_c_17 (by decide), W19_eq m ρ c, HostStage1.at_main_v71]

theorem fin_main_c_18 : W34 m ρ c (Proc.devRef .tc main_c_18) = (constantI S_ 32 0#32) := by
  rw [to19 m ρ c main_c_18 (by decide), W19_eq m ρ c, HostStage1.at_main_c_18]

theorem fin_main_v72 : W34 m ρ c (Proc.devRef .tc main_v72) = ((broadcastInDim S256 ![] bcast_S_S256 : (⟨S_, .i32⟩ : BufTy).Contents (Elt F) → (⟨S256, .i32⟩ : BufTy).Contents (Elt F))) (W34 m ρ c (Proc.devRef .tc main_c_18)) := by
  rw [to19 m ρ c main_v72 (by decide), to19 m ρ c main_c_18 (by decide), W19_eq m ρ c, HostStage1.at_main_v72]

theorem fin_main_v73 : W34 m ρ c (Proc.devRef .tc main_v73) = ((cmpi .slt : (⟨S256, .i32⟩ : BufTy).Contents (Elt F) → (⟨S256, .i32⟩ : BufTy).Contents (Elt F) → (⟨S256, .i1⟩ : BufTy).Contents (Elt F))) (W34 m ρ c (Proc.devRef .tc main_v70)) (W34 m ρ c (Proc.devRef .tc main_v72)) := by
  rw [to19 m ρ c main_v73 (by decide), to19 m ρ c main_v70 (by decide), to19 m ρ c main_v72 (by decide), W19_eq m ρ c, HostStage1.at_main_v73]

theorem fin_main_c_19 : W34 m ρ c (Proc.devRef .tc main_c_19) = (constantI S_ 32 131072#32) := by
  rw [to19 m ρ c main_c_19 (by decide), W19_eq m ρ c, HostStage1.at_main_c_19]

theorem fin_main_v74 : W34 m ρ c (Proc.devRef .tc main_v74) = ((broadcastInDim S256 ![] bcast_S_S256 : (⟨S_, .i32⟩ : BufTy).Contents (Elt F) → (⟨S256, .i32⟩ : BufTy).Contents (Elt F))) (W34 m ρ c (Proc.devRef .tc main_c_19)) := by
  rw [to19 m ρ c main_v74 (by decide), to19 m ρ c main_c_19 (by decide), W19_eq m ρ c, HostStage1.at_main_v74]

theorem fin_main_v75 : W34 m ρ c (Proc.devRef .tc main_v75) = ((addi : (⟨S256, .i32⟩ : BufTy).Contents (Elt F) → (⟨S256, .i32⟩ : BufTy).Contents (Elt F) → (⟨S256, .i32⟩ : BufTy).Contents (Elt F))) (W34 m ρ c (Proc.devRef .tc main_v70)) (W34 m ρ c (Proc.devRef .tc main_v74)) := by
  rw [to19 m ρ c main_v75 (by decide), to19 m ρ c main_v70 (by decide), to19 m ρ c main_v74 (by decide), W19_eq m ρ c, HostStage1.at_main_v75]

theorem fin_main_v76 : W34 m ρ c (Proc.devRef .tc main_v76) = ((select : (⟨S256, .i1⟩ : BufTy).Contents (Elt F) → (⟨S256, .i32⟩ : BufTy).Contents (Elt F) → (⟨S256, .i32⟩ : BufTy).Contents (Elt F) → (⟨S256, .i32⟩ : BufTy).Contents (Elt F))) (W34 m ρ c (Proc.devRef .tc main_v73)) (W34 m ρ c (Proc.devRef .tc main_v75)) (W34 m ρ c (Proc.devRef .tc main_v70)) := by
  rw [to19 m ρ c main_v76 (by decide), to19 m ρ c main_v73 (by decide), to19 m ρ c main_v75 (by decide), to19 m ρ c main_v70 (by decide), W19_eq m ρ c, HostStage1.at_main_v76]

theorem fin_main_v77 : W34 m ρ c (Proc.devRef .tc main_v77) = ((broadcastInDim S256x1 ![0] bcast_S256_S256x1_0 : (⟨S256, .i32⟩ : BufTy).Contents (Elt F) → (⟨S256x1, .i32⟩ : BufTy).Contents (Elt F))) (W34 m ρ c (Proc.devRef .tc main_v76)) := by
  rw [to19 m ρ c main_v77 (by decide), to19 m ρ c main_v76 (by decide), W19_eq m ρ c, HostStage1.at_main_v77]

theorem fin_main_c_20 : W34 m ρ c (Proc.devRef .tc main_c_20) = (constantI S_ 32 1#32) := by
  rw [to19 m ρ c main_c_20 (by decide), W19_eq m ρ c, HostStage1.at_main_c_20]

theorem fin_main_v78 : W34 m ρ c (Proc.devRef .tc main_v78) = ((broadcastInDim S256 ![] bcast_S_S256 : (⟨S_, .i32⟩ : BufTy).Contents (Elt F) → (⟨S256, .i32⟩ : BufTy).Contents (Elt F))) (W34 m ρ c (Proc.devRef .tc main_c_20)) := by
  rw [to19 m ρ c main_v78 (by decide), to19 m ρ c main_c_20 (by decide), W19_eq m ρ c, HostStage1.at_main_v78]

theorem fin_main_v79 : W34 m ρ c (Proc.devRef .tc main_v79) = (((fun x i u => Host.scatter scatter_S131072_S256x1_S256_n_0_0_1 IntOp.addi x i u) : (⟨S131072, .i32⟩ : BufTy).Contents (Elt F) → (⟨S256x1, .i32⟩ : BufTy).Contents (Elt F) → (⟨S256, .i32⟩ : BufTy).Contents (Elt F) → (⟨S131072, .i32⟩ : BufTy).Contents (Elt F))) (W34 m ρ c (Proc.devRef .tc main_v71)) (W34 m ρ c (Proc.devRef .tc main_v77)) (W34 m ρ c (Proc.devRef .tc main_v78)) := by
  rw [to19 m ρ c main_v79 (by decide), to19 m ρ c main_v71 (by decide), to19 m ρ c main_v77 (by decide), to19 m ρ c main_v78 (by decide), W19_eq m ρ c, HostStage1.at_main_v79]

theorem fin_main_call6_call0_c : W34 m ρ c (Proc.devRef .tc main_call6_call0_c) = (constantI S_ 32 0#32) := by
  rw [to19 m ρ c main_call6_call0_c (by decide), W19_eq m ρ c, HostStage1.at_main_call6_call0_c]

theorem fin_main_call6_call0_v0 : W34 m ρ c (Proc.devRef .tc main_call6_call0_v0) = ((broadcastInDim S_ ![] bcast_S_S_)) (W34 m ρ c (Proc.devRef .tc main_call6_call0_c)) := by
  rw [to19 m ρ c main_call6_call0_v0 (by decide), to19 m ρ c main_call6_call0_c (by decide), W19_eq m ρ c, HostStage1.at_main_call6_call0_v0]

theorem fin_main_v80 : W34 m ρ c (Proc.devRef .tc main_v80) = ((fun x v => Host.reduceWindow IntOp.addi ![131072] ![1] ![131071] ![0] x v reduceWindows_S131072_S131072_w131072s1p131071_0 h_S_)) (W34 m ρ c (Proc.devRef .tc main_v79)) (W34 m ρ c (Proc.devRef .tc main_call6_call0_v0)) := by
  rw [to19 m ρ c main_v80 (by decide), to19 m ρ c main_v79 (by decide), to19 m ρ c main_call6_call0_v0 (by decide), W19_eq m ρ c, HostStage1.at_main_v80]

theorem fin_main_c_21 : W34 m ρ c (Proc.devRef .tc main_c_21) = (constantI S_ 32 1#32) := by
  rw [to19 m ρ c main_c_21 (by decide), W19_eq m ρ c, HostStage1.at_main_c_21]

theorem fin_main_v81 : W34 m ρ c (Proc.devRef .tc main_v81) = ((broadcastInDim S131072 ![] bcast_S_S131072 : (⟨S_, .i32⟩ : BufTy).Contents (Elt F) → (⟨S131072, .i32⟩ : BufTy).Contents (Elt F))) (W34 m ρ c (Proc.devRef .tc main_c_21)) := by
  rw [to19 m ρ c main_v81 (by decide), to19 m ρ c main_c_21 (by decide), W19_eq m ρ c, HostStage1.at_main_v81]

theorem fin_main_v82 : W34 m ρ c (Proc.devRef .tc main_v82) = ((subi : (⟨S131072, .i32⟩ : BufTy).Contents (Elt F) → (⟨S131072, .i32⟩ : BufTy).Contents (Elt F) → (⟨S131072, .i32⟩ : BufTy).Contents (Elt F))) (W34 m ρ c (Proc.devRef .tc main_v80)) (W34 m ρ c (Proc.devRef .tc main_v81)) := by
  rw [to19 m ρ c main_v82 (by decide), to19 m ρ c main_v80 (by decide), to19 m ρ c main_v81 (by decide), W19_eq m ρ c, HostStage1.at_main_v82]

theorem fin_main_call7_c : W34 m ρ c (Proc.devRef .tc main_call7_c) = (constantI S_ 32 0#32) := by
  rw [to19 m ρ c main_call7_c (by decide), W19_eq m ρ c, HostStage1.at_main_call7_c]

theorem fin_main_call7_v0 : W34 m ρ c (Proc.devRef .tc main_call7_v0) = ((broadcastInDim S131072 ![] bcast_S_S131072)) (W34 m ρ c (Proc.devRef .tc main_call7_c)) := by
  rw [to19 m ρ c main_call7_v0 (by decide), to19 m ρ c main_call7_c (by decide), W19_eq m ρ c, HostStage1.at_main_call7_v0]

theorem fin_main_call7_v1 : W34 m ρ c (Proc.devRef .tc main_call7_v1) = ((cmpi .slt)) (W34 m ρ c (Proc.devRef .tc main_v82)) (W34 m ρ c (Proc.devRef .tc main_call7_v0)) := by
  rw [to19 m ρ c main_call7_v1 (by decide), to19 m ρ c main_v82 (by decide), to19 m ρ c main_call7_v0 (by decide), W19_eq m ρ c, HostStage1.at_main_call7_v1]

theorem fin_main_call7_c_0 : W34 m ρ c (Proc.devRef .tc main_call7_c_0) = (constantI S_ 32 256#32) := by
  rw [to19 m ρ c main_call7_c_0 (by decide), W19_eq m ρ c, HostStage1.at_main_call7_c_0]

theorem fin_main_call7_v2 : W34 m ρ c (Proc.devRef .tc main_call7_v2) = ((broadcastInDim S131072 ![] bcast_S_S131072)) (W34 m ρ c (Proc.devRef .tc main_call7_c_0)) := by
  rw [to19 m ρ c main_call7_v2 (by decide), to19 m ρ c main_call7_c_0 (by decide), W19_eq m ρ c, HostStage1.at_main_call7_v2]

theorem fin_main_call7_v3 : W34 m ρ c (Proc.devRef .tc main_call7_v3) = (addi) (W34 m ρ c (Proc.devRef .tc main_v82)) (W34 m ρ c (Proc.devRef .tc main_call7_v2)) := by
  rw [to19 m ρ c main_call7_v3 (by decide), to19 m ρ c main_v82 (by decide), to19 m ρ c main_call7_v2 (by decide), W19_eq m ρ c, HostStage1.at_main_call7_v3]

theorem fin_main_call7_v4 : W34 m ρ c (Proc.devRef .tc main_call7_v4) = (select) (W34 m ρ c (Proc.devRef .tc main_call7_v1)) (W34 m ρ c (Proc.devRef .tc main_call7_v3)) (W34 m ρ c (Proc.devRef .tc main_v82)) := by
  rw [to19 m ρ c main_call7_v4 (by decide), to19 m ρ c main_call7_v1 (by decide), to19 m ρ c main_call7_v3 (by decide), to19 m ρ c main_v82 (by decide), W19_eq m ρ c, HostStage1.at_main_call7_v4]

theorem fin_main_call7_v5 : W34 m ρ c (Proc.devRef .tc main_call7_v5) = ((broadcastInDim S131072x1 ![0] bcast_S131072_S131072x1_0)) (W34 m ρ c (Proc.devRef .tc main_call7_v4)) := by
  rw [to19 m ρ c main_call7_v5 (by decide), to19 m ρ c main_call7_v4 (by decide), W19_eq m ρ c, HostStage1.at_main_call7_v5]

theorem fin_main_call7_c_1 : W34 m ρ c (Proc.devRef .tc main_call7_c_1) = (constantI S1 32 255#32) := by
  rw [to19 m ρ c main_call7_c_1 (by decide), W19_eq m ρ c, HostStage1.at_main_call7_c_1]

theorem fin_main_call7_c_2 : W34 m ρ c (Proc.devRef .tc main_call7_c_2) = (constantI S_ 32 0#32) := by
  rw [to19 m ρ c main_call7_c_2 (by decide), W19_eq m ρ c, HostStage1.at_main_call7_c_2]

theorem fin_main_call7_v6 : W34 m ρ c (Proc.devRef .tc main_call7_v6) = ((broadcastInDim S131072x1 ![] bcast_S_S131072x1)) (W34 m ρ c (Proc.devRef .tc main_call7_c_2)) := by
  rw [to19 m ρ c main_call7_v6 (by decide), to19 m ρ c main_call7_c_2 (by decide), W19_eq m ρ c, HostStage1.at_main_call7_v6]

theorem fin_main_call7_v7 : W34 m ρ c (Proc.devRef .tc main_call7_v7) = ((cmpi .sge)) (W34 m ρ c (Proc.devRef .tc main_call7_v5)) (W34 m ρ c (Proc.devRef .tc main_call7_v6)) := by
  rw [to19 m ρ c main_call7_v7 (by decide), to19 m ρ c main_call7_v5 (by decide), to19 m ρ c main_call7_v6 (by decide), W19_eq m ρ c, HostStage1.at_main_call7_v7]

theorem fin_main_call7_v8 : W34 m ρ c (Proc.devRef .tc main_call7_v8) = ((broadcastInDim S1x1 ![1] bcast_S1_S1x1_1)) (W34 m ρ c (Proc.devRef .tc main_call7_c_1)) := by
  rw [to19 m ρ c main_call7_v8 (by decide), to19 m ρ c main_call7_c_1 (by decide), W19_eq m ρ c, HostStage1.at_main_call7_v8]

theorem fin_main_call7_v9 : W34 m ρ c (Proc.devRef .tc main_call7_v9) = ((broadcastInDim S131072x1 ![0, 1] bcast_S1x1_S131072x1_0_1)) (W34 m ρ c (Proc.devRef .tc main_call7_v8)) := by
  rw [to19 m ρ c main_call7_v9 (by decide), to19 m ρ c main_call7_v8 (by decide), W19_eq m ρ c, HostStage1.at_main_call7_v9]

theorem fin_main_call7_v10 : W34 m ρ c (Proc.devRef .tc main_call7_v10) = ((cmpi .sle)) (W34 m ρ c (Proc.devRef .tc main_call7_v5)) (W34 m ρ c (Proc.devRef .tc main_call7_v9)) := by
  rw [to19 m ρ c main_call7_v10 (by decide), to19 m ρ c main_call7_v5 (by decide), to19 m ρ c main_call7_v9 (by decide), W19_eq m ρ c, HostStage1.at_main_call7_v10]

theorem fin_main_call7_v11 : W34 m ρ c (Proc.devRef .tc main_call7_v11) = (andi) (W34 m ρ c (Proc.devRef .tc main_call7_v7)) (W34 m ρ c (Proc.devRef .tc main_call7_v10)) := by
  rw [to19 m ρ c main_call7_v11 (by decide), to19 m ρ c main_call7_v7 (by decide), to19 m ρ c main_call7_v10 (by decide), W19_eq m ρ c, HostStage1.at_main_call7_v11]

theorem fin_main_call7_c_3 : W34 m ρ c (Proc.devRef .tc main_call7_c_3) = (constantI S_ 1 1#1) := by
  rw [to19 m ρ c main_call7_c_3 (by decide), W19_eq m ρ c, HostStage1.at_main_call7_c_3]

theorem fin_main_call7_v12 : W34 m ρ c (Proc.devRef .tc main_call7_v12) = ((fun x v => Host.reduce IntOp.andi x v reducesTo_S131072x1_S131072_d1 h_S_)) (W34 m ρ c (Proc.devRef .tc main_call7_v11)) (W34 m ρ c (Proc.devRef .tc main_call7_c_3)) := by
  rw [to19 m ρ c main_call7_v12 (by decide), to19 m ρ c main_call7_v11 (by decide), to19 m ρ c main_call7_c_3 (by decide), W19_eq m ρ c, HostStage1.at_main_call7_v12]

theorem fin_main_call7_v13 : W34 m ρ c (Proc.devRef .tc main_call7_v13) = ((fun x i => Host.gather gather_S256x128_S131072x1_S131072x128_1_0_n_n_0_1_1128 x i)) (W34 m ρ c (Proc.devRef .tc main_arg2)) (W34 m ρ c (Proc.devRef .tc main_call7_v5)) := by
  rw [to19 m ρ c main_call7_v13 (by decide), to19 m ρ c main_arg2 (by decide), to19 m ρ c main_call7_v5 (by decide), W19_eq m ρ c, HostStage1.at_main_call7_v13]

theorem fin_main_call7_v14 : W34 m ρ c (Proc.devRef .tc main_call7_v14) = ((broadcastInDim S131072x128 ![0] bcast_S131072_S131072x128_0)) (W34 m ρ c (Proc.devRef .tc main_call7_v12)) := by
  rw [to19 m ρ c main_call7_v14 (by decide), to19 m ρ c main_call7_v12 (by decide), W19_eq m ρ c, HostStage1.at_main_call7_v14]

theorem fin_main_call7_cst : W34 m ρ c (Proc.devRef .tc main_call7_cst) = (constant S_ .f32 0x7FC00000#32) := by
  rw [to19 m ρ c main_call7_cst (by decide), W19_eq m ρ c, HostStage1.at_main_call7_cst]

theorem fin_main_call7_v15 : W34 m ρ c (Proc.devRef .tc main_call7_v15) = ((broadcastInDim S131072x128 ![] bcast_S_S131072x128)) (W34 m ρ c (Proc.devRef .tc main_call7_cst)) := by
  rw [to19 m ρ c main_call7_v15 (by decide), to19 m ρ c main_call7_cst (by decide), W19_eq m ρ c, HostStage1.at_main_call7_v15]

theorem fin_main_v83 : W34 m ρ c (Proc.devRef .tc main_v83) = (select) (W34 m ρ c (Proc.devRef .tc main_call7_v14)) (W34 m ρ c (Proc.devRef .tc main_call7_v13)) (W34 m ρ c (Proc.devRef .tc main_call7_v15)) := by
  rw [to19 m ρ c main_v83 (by decide), to19 m ρ c main_call7_v14 (by decide), to19 m ρ c main_call7_v13 (by decide), to19 m ρ c main_call7_v15 (by decide), W19_eq m ρ c, HostStage1.at_main_v83]

theorem fin_main_v84 : W34 m ρ c (Proc.devRef .tc main_v84) = (((extractStridedSlice S128x128 ![0, 0] · slices_S512x128_S128x128_0_0) : (⟨S512x128, .f32⟩ : BufTy).Contents (Elt F) → (⟨S128x128, .f32⟩ : BufTy).Contents (Elt F))) (W34 m ρ c (Proc.devRef .tc main_arg6)) := by
  rw [to19 m ρ c main_v84 (by decide), to19 m ρ c main_arg6 (by decide), W19_eq m ρ c, HostStage1.at_main_v84]

theorem fin_main_v85 : W34 m ρ c (Proc.devRef .tc main_v85) = (((extractStridedSlice S128x128 ![128, 0] · slices_S512x128_S128x128_128_0) : (⟨S512x128, .f32⟩ : BufTy).Contents (Elt F) → (⟨S128x128, .f32⟩ : BufTy).Contents (Elt F))) (W34 m ρ c (Proc.devRef .tc main_arg6)) := by
  rw [to19 m ρ c main_v85 (by decide), to19 m ρ c main_arg6 (by decide), W19_eq m ρ c, HostStage1.at_main_v85]

theorem fin_main_v86 : W34 m ρ c (Proc.devRef .tc main_v86) = (((extractStridedSlice S128x128 ![256, 0] · slices_S512x128_S128x128_256_0) : (⟨S512x128, .f32⟩ : BufTy).Contents (Elt F) → (⟨S128x128, .f32⟩ : BufTy).Contents (Elt F))) (W34 m ρ c (Proc.devRef .tc main_arg6)) := by
  rw [to19 m ρ c main_v86 (by decide), to19 m ρ c main_arg6 (by decide), W19_eq m ρ c, HostStage1.at_main_v86]

theorem fin_main_v87 : W34 m ρ c (Proc.devRef .tc main_v87) = (((extractStridedSlice S128x128 ![384, 0] · slices_S512x128_S128x128_384_0) : (⟨S512x128, .f32⟩ : BufTy).Contents (Elt F) → (⟨S128x128, .f32⟩ : BufTy).Contents (Elt F))) (W34 m ρ c (Proc.devRef .tc main_arg6)) := by
  rw [to19 m ρ c main_v87 (by decide), to19 m ρ c main_arg6 (by decide), W19_eq m ρ c, HostStage1.at_main_v87]

theorem fin_main_v88 : W34 m ρ c (Proc.devRef .tc main_v88) = fun i => shapeCast main_v88.ty.shape (W34 m ρ c (Proc.devRef .tc main_arg7)) shapeCasts_S128_S1x128 i := by
  rw [to19 m ρ c main_v88 (by decide), to19 m ρ c main_arg7 (by decide), W19_eq m ρ c, HostStage1.at_main_v88]

end Cert.KernelIdeal.Final

end
-- ==== Proof.KFin2.lean ====
/-
  Host stage 2 of the idealized kernel, read at the end of the run.

  Each buffer the stage writes holds, at the end of the run, its operation's function of what the operand buffers hold at
  the end of the run: nothing after the stage writes the buffer or its operands.
-/
import proofs.«134187_j30227979829536_1_alg».proof.Proof.KFinal

set_option maxRecDepth 16384

noncomputable section

namespace Cert.KernelIdeal.Final

open Idealize.ShloMosaic Idealize.ShloMosaic.StableHlo Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg) (c : Dev nD)

theorem fin_main_cst_22 : W34 m ρ c (Proc.devRef .tc main_cst_22) = (constant S_ .f32 0x00000000#32) := by
  rw [to29 m ρ c main_cst_22 (by decide), W29_eq m ρ c, HostStage2.at_main_cst_22]

theorem fin_main_v90 : W34 m ρ c (Proc.devRef .tc main_v90) = ((broadcastInDim S131072x128 ![] bcast_S_S131072x128 : (⟨S_, .f32⟩ : BufTy).Contents (Elt F) → (⟨S131072x128, .f32⟩ : BufTy).Contents (Elt F))) (W34 m ρ c (Proc.devRef .tc main_cst_22)) := by
  rw [to29 m ρ c main_v90 (by decide), to29 m ρ c main_cst_22 (by decide), W29_eq m ρ c, HostStage2.at_main_v90]

theorem fin_main_v91 : W34 m ρ c (Proc.devRef .tc main_v91) = ((broadcastInDim S262144x1 ![0] bcast_S262144_S262144x1_0 : (⟨S262144, .i32⟩ : BufTy).Contents (Elt F) → (⟨S262144x1, .i32⟩ : BufTy).Contents (Elt F))) (W34 m ρ c (Proc.devRef .tc main_v5)) := by
  rw [to29 m ρ c main_v91 (by decide), to29 m ρ c main_v5 (by decide), W29_eq m ρ c, HostStage2.at_main_v91]

theorem fin_main_v92 : W34 m ρ c (Proc.devRef .tc main_v92) = (((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F))) (W34 m ρ c (Proc.devRef .tc main_v90)) (W34 m ρ c (Proc.devRef .tc main_v91)) (W34 m ρ c (Proc.devRef .tc main_v60)) := by
  rw [to29 m ρ c main_v92 (by decide), to29 m ρ c main_v90 (by decide), to29 m ρ c main_v91 (by decide), to29 m ρ c main_v60 (by decide), W29_eq m ρ c, HostStage2.at_main_v92]

theorem fin_main_cst_23 : W34 m ρ c (Proc.devRef .tc main_cst_23) = (constant S_ .f32 0x00000000#32) := by
  rw [to29 m ρ c main_cst_23 (by decide), W29_eq m ρ c, HostStage2.at_main_cst_23]

theorem fin_main_v93 : W34 m ρ c (Proc.devRef .tc main_v93) = ((broadcastInDim S131072x128 ![] bcast_S_S131072x128 : (⟨S_, .f32⟩ : BufTy).Contents (Elt F) → (⟨S131072x128, .f32⟩ : BufTy).Contents (Elt F))) (W34 m ρ c (Proc.devRef .tc main_cst_23)) := by
  rw [to29 m ρ c main_v93 (by decide), to29 m ρ c main_cst_23 (by decide), W29_eq m ρ c, HostStage2.at_main_v93]

theorem fin_main_v94 : W34 m ρ c (Proc.devRef .tc main_v94) = ((broadcastInDim S262144x1 ![0] bcast_S262144_S262144x1_0 : (⟨S262144, .i32⟩ : BufTy).Contents (Elt F) → (⟨S262144x1, .i32⟩ : BufTy).Contents (Elt F))) (W34 m ρ c (Proc.devRef .tc main_v7)) := by
  rw [to29 m ρ c main_v94 (by decide), to29 m ρ c main_v7 (by decide), W29_eq m ρ c, HostStage2.at_main_v94]

theorem fin_main_v95 : W34 m ρ c (Proc.devRef .tc main_v95) = (((fun x i u => Host.scatterAdd scatter_S131072x128_S262144x1_S262144x128_1_0_0_1 x i u) : (⟨S131072x128, .f32⟩ : BufTy).Contents (Elt F) → (⟨S262144x1, .i32⟩ : BufTy).Contents (Elt F) → (⟨S262144x128, .f32⟩ : BufTy).Contents (Elt F) → (⟨S131072x128, .f32⟩ : BufTy).Contents (Elt F))) (W34 m ρ c (Proc.devRef .tc main_v93)) (W34 m ρ c (Proc.devRef .tc main_v94)) (W34 m ρ c (Proc.devRef .tc main_v60)) := by
  rw [to29 m ρ c main_v95 (by decide), to29 m ρ c main_v93 (by decide), to29 m ρ c main_v94 (by decide), to29 m ρ c main_v60 (by decide), W29_eq m ρ c, HostStage2.at_main_v95]

theorem fin_main_call8_v0 : W34 m ρ c (Proc.devRef .tc main_call8_v0) = ((extractStridedSlice S1 ![255] · slices_S256_S1_255)) (W34 m ρ c (Proc.devRef .tc main_arg20)) := by
  rw [to29 m ρ c main_call8_v0 (by decide), to29 m ρ c main_arg20 (by decide), W29_eq m ρ c, HostStage2.at_main_call8_v0]

theorem fin_main_call8_v1 : W34 m ρ c (Proc.devRef .tc main_call8_v1) = ((extractStridedSlice S255 ![0] · slices_S256_S255_0)) (W34 m ρ c (Proc.devRef .tc main_arg20)) := by
  rw [to29 m ρ c main_call8_v1 (by decide), to29 m ρ c main_arg20 (by decide), W29_eq m ρ c, HostStage2.at_main_call8_v1]

theorem fin_main_v96 : W34 m ρ c (Proc.devRef .tc main_v96) = ((fun a b => concatenate S256 0 [⟨S1, a⟩, ⟨S255, b⟩] concatenates_S1_S255_S256_d0)) (W34 m ρ c (Proc.devRef .tc main_call8_v0)) (W34 m ρ c (Proc.devRef .tc main_call8_v1)) := by
  rw [to29 m ρ c main_v96 (by decide), to29 m ρ c main_call8_v0 (by decide), to29 m ρ c main_call8_v1 (by decide), W29_eq m ρ c, HostStage2.at_main_v96]

theorem fin_main_c_24 : W34 m ρ c (Proc.devRef .tc main_c_24) = (constantI S_ 32 0#32) := by
  rw [to29 m ρ c main_c_24 (by decide), W29_eq m ρ c, HostStage2.at_main_c_24]

theorem fin_main_v97 : W34 m ρ c (Proc.devRef .tc main_v97) = ((broadcastInDim S1 ![] bcast_S_S1 : (⟨S_, .i32⟩ : BufTy).Contents (Elt F) → (⟨S1, .i32⟩ : BufTy).Contents (Elt F))) (W34 m ρ c (Proc.devRef .tc main_c_24)) := by
  rw [to29 m ρ c main_v97 (by decide), to29 m ρ c main_c_24 (by decide), W29_eq m ρ c, HostStage2.at_main_v97]

theorem fin_main_c_25 : W34 m ρ c (Proc.devRef .tc main_c_25) = (constantI S_ 32 0#32) := by
  rw [to29 m ρ c main_c_25 (by decide), W29_eq m ρ c, HostStage2.at_main_c_25]

theorem fin_main_v98 : W34 m ρ c (Proc.devRef .tc main_v98) = (((fun x i u => Host.scatter scatter_S256_S1_S__n_0_0_0 (fun _ b => b) x i u) : (⟨S256, .i32⟩ : BufTy).Contents (Elt F) → (⟨S1, .i32⟩ : BufTy).Contents (Elt F) → (⟨S_, .i32⟩ : BufTy).Contents (Elt F) → (⟨S256, .i32⟩ : BufTy).Contents (Elt F))) (W34 m ρ c (Proc.devRef .tc main_v96)) (W34 m ρ c (Proc.devRef .tc main_v97)) (W34 m ρ c (Proc.devRef .tc main_c_25)) := by
  rw [to29 m ρ c main_v98 (by decide), to29 m ρ c main_v96 (by decide), to29 m ρ c main_v97 (by decide), to29 m ρ c main_c_25 (by decide), W29_eq m ρ c, HostStage2.at_main_v98]

theorem fin_main_call9_call0_c : W34 m ρ c (Proc.devRef .tc main_call9_call0_c) = (constantI S_ 32 0#32) := by
  rw [to29 m ρ c main_call9_call0_c (by decide), W29_eq m ρ c, HostStage2.at_main_call9_call0_c]

theorem fin_main_call9_call0_v0 : W34 m ρ c (Proc.devRef .tc main_call9_call0_v0) = ((broadcastInDim S_ ![] bcast_S_S_)) (W34 m ρ c (Proc.devRef .tc main_call9_call0_c)) := by
  rw [to29 m ρ c main_call9_call0_v0 (by decide), to29 m ρ c main_call9_call0_c (by decide), W29_eq m ρ c, HostStage2.at_main_call9_call0_v0]

theorem fin_main_v99 : W34 m ρ c (Proc.devRef .tc main_v99) = ((fun x v => Host.reduceWindow IntOp.addi ![256] ![1] ![255] ![0] x v reduceWindows_S256_S256_w256s1p255_0 h_S_)) (W34 m ρ c (Proc.devRef .tc main_v98)) (W34 m ρ c (Proc.devRef .tc main_call9_call0_v0)) := by
  rw [to29 m ρ c main_v99 (by decide), to29 m ρ c main_v98 (by decide), to29 m ρ c main_call9_call0_v0 (by decide), W29_eq m ρ c, HostStage2.at_main_v99]

theorem fin_main_c_26 : W34 m ρ c (Proc.devRef .tc main_c_26) = (constantI S_ 32 0#32) := by
  rw [to29 m ρ c main_c_26 (by decide), W29_eq m ρ c, HostStage2.at_main_c_26]

theorem fin_main_v100 : W34 m ρ c (Proc.devRef .tc main_v100) = ((broadcastInDim S131072 ![] bcast_S_S131072 : (⟨S_, .i32⟩ : BufTy).Contents (Elt F) → (⟨S131072, .i32⟩ : BufTy).Contents (Elt F))) (W34 m ρ c (Proc.devRef .tc main_c_26)) := by
  rw [to29 m ρ c main_v100 (by decide), to29 m ρ c main_c_26 (by decide), W29_eq m ρ c, HostStage2.at_main_v100]

theorem fin_main_c_27 : W34 m ρ c (Proc.devRef .tc main_c_27) = (constantI S_ 32 0#32) := by
  rw [to29 m ρ c main_c_27 (by decide), W29_eq m ρ c, HostStage2.at_main_c_27]

theorem fin_main_v101 : W34 m ρ c (Proc.devRef .tc main_v101) = ((broadcastInDim S256 ![] bcast_S_S256 : (⟨S_, .i32⟩ : BufTy).Contents (Elt F) → (⟨S256, .i32⟩ : BufTy).Contents (Elt F))) (W34 m ρ c (Proc.devRef .tc main_c_27)) := by
  rw [to29 m ρ c main_v101 (by decide), to29 m ρ c main_c_27 (by decide), W29_eq m ρ c, HostStage2.at_main_v101]

theorem fin_main_v102 : W34 m ρ c (Proc.devRef .tc main_v102) = ((cmpi .slt : (⟨S256, .i32⟩ : BufTy).Contents (Elt F) → (⟨S256, .i32⟩ : BufTy).Contents (Elt F) → (⟨S256, .i1⟩ : BufTy).Contents (Elt F))) (W34 m ρ c (Proc.devRef .tc main_v99)) (W34 m ρ c (Proc.devRef .tc main_v101)) := by
  rw [to29 m ρ c main_v102 (by decide), to29 m ρ c main_v99 (by decide), to29 m ρ c main_v101 (by decide), W29_eq m ρ c, HostStage2.at_main_v102]

theorem fin_main_c_28 : W34 m ρ c (Proc.devRef .tc main_c_28) = (constantI S_ 32 131072#32) := by
  rw [to29 m ρ c main_c_28 (by decide), W29_eq m ρ c, HostStage2.at_main_c_28]

theorem fin_main_v103 : W34 m ρ c (Proc.devRef .tc main_v103) = ((broadcastInDim S256 ![] bcast_S_S256 : (⟨S_, .i32⟩ : BufTy).Contents (Elt F) → (⟨S256, .i32⟩ : BufTy).Contents (Elt F))) (W34 m ρ c (Proc.devRef .tc main_c_28)) := by
  rw [to29 m ρ c main_v103 (by decide), to29 m ρ c main_c_28 (by decide), W29_eq m ρ c, HostStage2.at_main_v103]

theorem fin_main_v104 : W34 m ρ c (Proc.devRef .tc main_v104) = ((addi : (⟨S256, .i32⟩ : BufTy).Contents (Elt F) → (⟨S256, .i32⟩ : BufTy).Contents (Elt F) → (⟨S256, .i32⟩ : BufTy).Contents (Elt F))) (W34 m ρ c (Proc.devRef .tc main_v99)) (W34 m ρ c (Proc.devRef .tc main_v103)) := by
  rw [to29 m ρ c main_v104 (by decide), to29 m ρ c main_v99 (by decide), to29 m ρ c main_v103 (by decide), W29_eq m ρ c, HostStage2.at_main_v104]

theorem fin_main_v105 : W34 m ρ c (Proc.devRef .tc main_v105) = ((select : (⟨S256, .i1⟩ : BufTy).Contents (Elt F) → (⟨S256, .i32⟩ : BufTy).Contents (Elt F) → (⟨S256, .i32⟩ : BufTy).Contents (Elt F) → (⟨S256, .i32⟩ : BufTy).Contents (Elt F))) (W34 m ρ c (Proc.devRef .tc main_v102)) (W34 m ρ c (Proc.devRef .tc main_v104)) (W34 m ρ c (Proc.devRef .tc main_v99)) := by
  rw [to29 m ρ c main_v105 (by decide), to29 m ρ c main_v102 (by decide), to29 m ρ c main_v104 (by decide), to29 m ρ c main_v99 (by decide), W29_eq m ρ c, HostStage2.at_main_v105]

theorem fin_main_v106 : W34 m ρ c (Proc.devRef .tc main_v106) = ((broadcastInDim S256x1 ![0] bcast_S256_S256x1_0 : (⟨S256, .i32⟩ : BufTy).Contents (Elt F) → (⟨S256x1, .i32⟩ : BufTy).Contents (Elt F))) (W34 m ρ c (Proc.devRef .tc main_v105)) := by
  rw [to29 m ρ c main_v106 (by decide), to29 m ρ c main_v105 (by decide), W29_eq m ρ c, HostStage2.at_main_v106]

theorem fin_main_c_29 : W34 m ρ c (Proc.devRef .tc main_c_29) = (constantI S_ 32 1#32) := by
  rw [to29 m ρ c main_c_29 (by decide), W29_eq m ρ c, HostStage2.at_main_c_29]

theorem fin_main_v107 : W34 m ρ c (Proc.devRef .tc main_v107) = ((broadcastInDim S256 ![] bcast_S_S256 : (⟨S_, .i32⟩ : BufTy).Contents (Elt F) → (⟨S256, .i32⟩ : BufTy).Contents (Elt F))) (W34 m ρ c (Proc.devRef .tc main_c_29)) := by
  rw [to29 m ρ c main_v107 (by decide), to29 m ρ c main_c_29 (by decide), W29_eq m ρ c, HostStage2.at_main_v107]

theorem fin_main_v108 : W34 m ρ c (Proc.devRef .tc main_v108) = (((fun x i u => Host.scatter scatter_S131072_S256x1_S256_n_0_0_1 IntOp.addi x i u) : (⟨S131072, .i32⟩ : BufTy).Contents (Elt F) → (⟨S256x1, .i32⟩ : BufTy).Contents (Elt F) → (⟨S256, .i32⟩ : BufTy).Contents (Elt F) → (⟨S131072, .i32⟩ : BufTy).Contents (Elt F))) (W34 m ρ c (Proc.devRef .tc main_v100)) (W34 m ρ c (Proc.devRef .tc main_v106)) (W34 m ρ c (Proc.devRef .tc main_v107)) := by
  rw [to29 m ρ c main_v108 (by decide), to29 m ρ c main_v100 (by decide), to29 m ρ c main_v106 (by decide), to29 m ρ c main_v107 (by decide), W29_eq m ρ c, HostStage2.at_main_v108]

theorem fin_main_call10_call0_c : W34 m ρ c (Proc.devRef .tc main_call10_call0_c) = (constantI S_ 32 0#32) := by
  rw [to29 m ρ c main_call10_call0_c (by decide), W29_eq m ρ c, HostStage2.at_main_call10_call0_c]

theorem fin_main_call10_call0_v0 : W34 m ρ c (Proc.devRef .tc main_call10_call0_v0) = ((broadcastInDim S_ ![] bcast_S_S_)) (W34 m ρ c (Proc.devRef .tc main_call10_call0_c)) := by
  rw [to29 m ρ c main_call10_call0_v0 (by decide), to29 m ρ c main_call10_call0_c (by decide), W29_eq m ρ c, HostStage2.at_main_call10_call0_v0]

theorem fin_main_v109 : W34 m ρ c (Proc.devRef .tc main_v109) = ((fun x v => Host.reduceWindow IntOp.addi ![131072] ![1] ![131071] ![0] x v reduceWindows_S131072_S131072_w131072s1p131071_0 h_S_)) (W34 m ρ c (Proc.devRef .tc main_v108)) (W34 m ρ c (Proc.devRef .tc main_call10_call0_v0)) := by
  rw [to29 m ρ c main_v109 (by decide), to29 m ρ c main_v108 (by decide), to29 m ρ c main_call10_call0_v0 (by decide), W29_eq m ρ c, HostStage2.at_main_v109]

theorem fin_main_c_30 : W34 m ρ c (Proc.devRef .tc main_c_30) = (constantI S_ 32 1#32) := by
  rw [to29 m ρ c main_c_30 (by decide), W29_eq m ρ c, HostStage2.at_main_c_30]

theorem fin_main_v110 : W34 m ρ c (Proc.devRef .tc main_v110) = ((broadcastInDim S131072 ![] bcast_S_S131072 : (⟨S_, .i32⟩ : BufTy).Contents (Elt F) → (⟨S131072, .i32⟩ : BufTy).Contents (Elt F))) (W34 m ρ c (Proc.devRef .tc main_c_30)) := by
  rw [to29 m ρ c main_v110 (by decide), to29 m ρ c main_c_30 (by decide), W29_eq m ρ c, HostStage2.at_main_v110]

theorem fin_main_v111 : W34 m ρ c (Proc.devRef .tc main_v111) = ((subi : (⟨S131072, .i32⟩ : BufTy).Contents (Elt F) → (⟨S131072, .i32⟩ : BufTy).Contents (Elt F) → (⟨S131072, .i32⟩ : BufTy).Contents (Elt F))) (W34 m ρ c (Proc.devRef .tc main_v109)) (W34 m ρ c (Proc.devRef .tc main_v110)) := by
  rw [to29 m ρ c main_v111 (by decide), to29 m ρ c main_v109 (by decide), to29 m ρ c main_v110 (by decide), W29_eq m ρ c, HostStage2.at_main_v111]

theorem fin_main_call11_c : W34 m ρ c (Proc.devRef .tc main_call11_c) = (constantI S_ 32 0#32) := by
  rw [to29 m ρ c main_call11_c (by decide), W29_eq m ρ c, HostStage2.at_main_call11_c]

theorem fin_main_call11_v0 : W34 m ρ c (Proc.devRef .tc main_call11_v0) = ((broadcastInDim S131072 ![] bcast_S_S131072)) (W34 m ρ c (Proc.devRef .tc main_call11_c)) := by
  rw [to29 m ρ c main_call11_v0 (by decide), to29 m ρ c main_call11_c (by decide), W29_eq m ρ c, HostStage2.at_main_call11_v0]

theorem fin_main_call11_v1 : W34 m ρ c (Proc.devRef .tc main_call11_v1) = ((cmpi .slt)) (W34 m ρ c (Proc.devRef .tc main_v111)) (W34 m ρ c (Proc.devRef .tc main_call11_v0)) := by
  rw [to29 m ρ c main_call11_v1 (by decide), to29 m ρ c main_v111 (by decide), to29 m ρ c main_call11_v0 (by decide), W29_eq m ρ c, HostStage2.at_main_call11_v1]

theorem fin_main_call11_c_0 : W34 m ρ c (Proc.devRef .tc main_call11_c_0) = (constantI S_ 32 256#32) := by
  rw [to29 m ρ c main_call11_c_0 (by decide), W29_eq m ρ c, HostStage2.at_main_call11_c_0]

theorem fin_main_call11_v2 : W34 m ρ c (Proc.devRef .tc main_call11_v2) = ((broadcastInDim S131072 ![] bcast_S_S131072)) (W34 m ρ c (Proc.devRef .tc main_call11_c_0)) := by
  rw [to29 m ρ c main_call11_v2 (by decide), to29 m ρ c main_call11_c_0 (by decide), W29_eq m ρ c, HostStage2.at_main_call11_v2]

theorem fin_main_call11_v3 : W34 m ρ c (Proc.devRef .tc main_call11_v3) = (addi) (W34 m ρ c (Proc.devRef .tc main_v111)) (W34 m ρ c (Proc.devRef .tc main_call11_v2)) := by
  rw [to29 m ρ c main_call11_v3 (by decide), to29 m ρ c main_v111 (by decide), to29 m ρ c main_call11_v2 (by decide), W29_eq m ρ c, HostStage2.at_main_call11_v3]

theorem fin_main_call11_v4 : W34 m ρ c (Proc.devRef .tc main_call11_v4) = (select) (W34 m ρ c (Proc.devRef .tc main_call11_v1)) (W34 m ρ c (Proc.devRef .tc main_call11_v3)) (W34 m ρ c (Proc.devRef .tc main_v111)) := by
  rw [to29 m ρ c main_call11_v4 (by decide), to29 m ρ c main_call11_v1 (by decide), to29 m ρ c main_call11_v3 (by decide), to29 m ρ c main_v111 (by decide), W29_eq m ρ c, HostStage2.at_main_call11_v4]

theorem fin_main_call11_v5 : W34 m ρ c (Proc.devRef .tc main_call11_v5) = ((broadcastInDim S131072x1 ![0] bcast_S131072_S131072x1_0)) (W34 m ρ c (Proc.devRef .tc main_call11_v4)) := by
  rw [to29 m ρ c main_call11_v5 (by decide), to29 m ρ c main_call11_v4 (by decide), W29_eq m ρ c, HostStage2.at_main_call11_v5]

theorem fin_main_call11_c_1 : W34 m ρ c (Proc.devRef .tc main_call11_c_1) = (constantI S1 32 255#32) := by
  rw [to29 m ρ c main_call11_c_1 (by decide), W29_eq m ρ c, HostStage2.at_main_call11_c_1]

theorem fin_main_call11_c_2 : W34 m ρ c (Proc.devRef .tc main_call11_c_2) = (constantI S_ 32 0#32) := by
  rw [to29 m ρ c main_call11_c_2 (by decide), W29_eq m ρ c, HostStage2.at_main_call11_c_2]

theorem fin_main_call11_v6 : W34 m ρ c (Proc.devRef .tc main_call11_v6) = ((broadcastInDim S131072x1 ![] bcast_S_S131072x1)) (W34 m ρ c (Proc.devRef .tc main_call11_c_2)) := by
  rw [to29 m ρ c main_call11_v6 (by decide), to29 m ρ c main_call11_c_2 (by decide), W29_eq m ρ c, HostStage2.at_main_call11_v6]

theorem fin_main_call11_v7 : W34 m ρ c (Proc.devRef .tc main_call11_v7) = ((cmpi .sge)) (W34 m ρ c (Proc.devRef .tc main_call11_v5)) (W34 m ρ c (Proc.devRef .tc main_call11_v6)) := by
  rw [to29 m ρ c main_call11_v7 (by decide), to29 m ρ c main_call11_v5 (by decide), to29 m ρ c main_call11_v6 (by decide), W29_eq m ρ c, HostStage2.at_main_call11_v7]

theorem fin_main_call11_v8 : W34 m ρ c (Proc.devRef .tc main_call11_v8) = ((broadcastInDim S1x1 ![1] bcast_S1_S1x1_1)) (W34 m ρ c (Proc.devRef .tc main_call11_c_1)) := by
  rw [to29 m ρ c main_call11_v8 (by decide), to29 m ρ c main_call11_c_1 (by decide), W29_eq m ρ c, HostStage2.at_main_call11_v8]

theorem fin_main_call11_v9 : W34 m ρ c (Proc.devRef .tc main_call11_v9) = ((broadcastInDim S131072x1 ![0, 1] bcast_S1x1_S131072x1_0_1)) (W34 m ρ c (Proc.devRef .tc main_call11_v8)) := by
  rw [to29 m ρ c main_call11_v9 (by decide), to29 m ρ c main_call11_v8 (by decide), W29_eq m ρ c, HostStage2.at_main_call11_v9]

theorem fin_main_call11_v10 : W34 m ρ c (Proc.devRef .tc main_call11_v10) = ((cmpi .sle)) (W34 m ρ c (Proc.devRef .tc main_call11_v5)) (W34 m ρ c (Proc.devRef .tc main_call11_v9)) := by
  rw [to29 m ρ c main_call11_v10 (by decide), to29 m ρ c main_call11_v5 (by decide), to29 m ρ c main_call11_v9 (by decide), W29_eq m ρ c, HostStage2.at_main_call11_v10]

theorem fin_main_call11_v11 : W34 m ρ c (Proc.devRef .tc main_call11_v11) = (andi) (W34 m ρ c (Proc.devRef .tc main_call11_v7)) (W34 m ρ c (Proc.devRef .tc main_call11_v10)) := by
  rw [to29 m ρ c main_call11_v11 (by decide), to29 m ρ c main_call11_v7 (by decide), to29 m ρ c main_call11_v10 (by decide), W29_eq m ρ c, HostStage2.at_main_call11_v11]

theorem fin_main_call11_c_3 : W34 m ρ c (Proc.devRef .tc main_call11_c_3) = (constantI S_ 1 1#1) := by
  rw [to29 m ρ c main_call11_c_3 (by decide), W29_eq m ρ c, HostStage2.at_main_call11_c_3]

theorem fin_main_call11_v12 : W34 m ρ c (Proc.devRef .tc main_call11_v12) = ((fun x v => Host.reduce IntOp.andi x v reducesTo_S131072x1_S131072_d1 h_S_)) (W34 m ρ c (Proc.devRef .tc main_call11_v11)) (W34 m ρ c (Proc.devRef .tc main_call11_c_3)) := by
  rw [to29 m ρ c main_call11_v12 (by decide), to29 m ρ c main_call11_v11 (by decide), to29 m ρ c main_call11_c_3 (by decide), W29_eq m ρ c, HostStage2.at_main_call11_v12]

theorem fin_main_call11_v13 : W34 m ρ c (Proc.devRef .tc main_call11_v13) = ((fun x i => Host.gather gather_S256x128_S131072x1_S131072x128_1_0_n_n_0_1_1128 x i)) (W34 m ρ c (Proc.devRef .tc main_arg2)) (W34 m ρ c (Proc.devRef .tc main_call11_v5)) := by
  rw [to29 m ρ c main_call11_v13 (by decide), to29 m ρ c main_arg2 (by decide), to29 m ρ c main_call11_v5 (by decide), W29_eq m ρ c, HostStage2.at_main_call11_v13]

theorem fin_main_call11_v14 : W34 m ρ c (Proc.devRef .tc main_call11_v14) = ((broadcastInDim S131072x128 ![0] bcast_S131072_S131072x128_0)) (W34 m ρ c (Proc.devRef .tc main_call11_v12)) := by
  rw [to29 m ρ c main_call11_v14 (by decide), to29 m ρ c main_call11_v12 (by decide), W29_eq m ρ c, HostStage2.at_main_call11_v14]

theorem fin_main_call11_cst : W34 m ρ c (Proc.devRef .tc main_call11_cst) = (constant S_ .f32 0x7FC00000#32) := by
  rw [to29 m ρ c main_call11_cst (by decide), W29_eq m ρ c, HostStage2.at_main_call11_cst]

theorem fin_main_call11_v15 : W34 m ρ c (Proc.devRef .tc main_call11_v15) = ((broadcastInDim S131072x128 ![] bcast_S_S131072x128)) (W34 m ρ c (Proc.devRef .tc main_call11_cst)) := by
  rw [to29 m ρ c main_call11_v15 (by decide), to29 m ρ c main_call11_cst (by decide), W29_eq m ρ c, HostStage2.at_main_call11_v15]

theorem fin_main_v112 : W34 m ρ c (Proc.devRef .tc main_v112) = (select) (W34 m ρ c (Proc.devRef .tc main_call11_v14)) (W34 m ρ c (Proc.devRef .tc main_call11_v13)) (W34 m ρ c (Proc.devRef .tc main_call11_v15)) := by
  rw [to29 m ρ c main_v112 (by decide), to29 m ρ c main_call11_v14 (by decide), to29 m ρ c main_call11_v13 (by decide), to29 m ρ c main_call11_v15 (by decide), W29_eq m ρ c, HostStage2.at_main_v112]

theorem fin_main_v113 : W34 m ρ c (Proc.devRef .tc main_v113) = (((extractStridedSlice S128x128 ![0, 0] · slices_S512x128_S128x128_0_0) : (⟨S512x128, .f32⟩ : BufTy).Contents (Elt F) → (⟨S128x128, .f32⟩ : BufTy).Contents (Elt F))) (W34 m ρ c (Proc.devRef .tc main_arg8)) := by
  rw [to29 m ρ c main_v113 (by decide), to29 m ρ c main_arg8 (by decide), W29_eq m ρ c, HostStage2.at_main_v113]

theorem fin_main_v114 : W34 m ρ c (Proc.devRef .tc main_v114) = (((extractStridedSlice S128x128 ![128, 0] · slices_S512x128_S128x128_128_0) : (⟨S512x128, .f32⟩ : BufTy).Contents (Elt F) → (⟨S128x128, .f32⟩ : BufTy).Contents (Elt F))) (W34 m ρ c (Proc.devRef .tc main_arg8)) := by
  rw [to29 m ρ c main_v114 (by decide), to29 m ρ c main_arg8 (by decide), W29_eq m ρ c, HostStage2.at_main_v114]

theorem fin_main_v115 : W34 m ρ c (Proc.devRef .tc main_v115) = (((extractStridedSlice S128x128 ![256, 0] · slices_S512x128_S128x128_256_0) : (⟨S512x128, .f32⟩ : BufTy).Contents (Elt F) → (⟨S128x128, .f32⟩ : BufTy).Contents (Elt F))) (W34 m ρ c (Proc.devRef .tc main_arg8)) := by
  rw [to29 m ρ c main_v115 (by decide), to29 m ρ c main_arg8 (by decide), W29_eq m ρ c, HostStage2.at_main_v115]

theorem fin_main_v116 : W34 m ρ c (Proc.devRef .tc main_v116) = (((extractStridedSlice S128x128 ![384, 0] · slices_S512x128_S128x128_384_0) : (⟨S512x128, .f32⟩ : BufTy).Contents (Elt F) → (⟨S128x128, .f32⟩ : BufTy).Contents (Elt F))) (W34 m ρ c (Proc.devRef .tc main_arg8)) := by
  rw [to29 m ρ c main_v116 (by decide), to29 m ρ c main_arg8 (by decide), W29_eq m ρ c, HostStage2.at_main_v116]

theorem fin_main_v117 : W34 m ρ c (Proc.devRef .tc main_v117) = fun i => shapeCast main_v117.ty.shape (W34 m ρ c (Proc.devRef .tc main_arg9)) shapeCasts_S128_S1x128 i := by
  rw [to29 m ρ c main_v117 (by decide), to29 m ρ c main_arg9 (by decide), W29_eq m ρ c, HostStage2.at_main_v117]

end Cert.KernelIdeal.Final

end
-- ==== Proof.KFin3.lean ====
/-
  Host stage 3 of the idealized kernel, read at the end of the run.

  Each buffer the stage writes holds, at the end of the run, its operation's function of what the operand buffers hold at
  the end of the run: nothing after the stage writes the buffer or its operands.
-/
import proofs.«134187_j30227979829536_1_alg».proof.Proof.KFinal

set_option maxRecDepth 16384

noncomputable section

namespace Cert.KernelIdeal.Final

open Idealize.ShloMosaic Idealize.ShloMosaic.StableHlo Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg) (c : Dev nD)

theorem fin_main_v119 : W34 m ρ c (Proc.devRef .tc main_v119) = ((broadcastInDim S131072x1 ![0] bcast_S131072_S131072x1_0 : (⟨S131072, .i1⟩ : BufTy).Contents (Elt F) → (⟨S131072x1, .i1⟩ : BufTy).Contents (Elt F))) (W34 m ρ c (Proc.devRef .tc main_arg17)) := by
  rw [to33 m ρ c main_v119 (by decide), to33 m ρ c main_arg17 (by decide), W33_eq m ρ c, HostStage3.at_main_v119]

theorem fin_main_cst_31 : W34 m ρ c (Proc.devRef .tc main_cst_31) = (constant S_ .f32 0x00000000#32) := by
  rw [to33 m ρ c main_cst_31 (by decide), W33_eq m ρ c, HostStage3.at_main_cst_31]

theorem fin_main_call12_v0 : W34 m ρ c (Proc.devRef .tc main_call12_v0) = ((broadcastInDim S131072x128 ![0, 1] bcast_S131072x1_S131072x128_0_1)) (W34 m ρ c (Proc.devRef .tc main_v119)) := by
  rw [to33 m ρ c main_call12_v0 (by decide), to33 m ρ c main_v119 (by decide), W33_eq m ρ c, HostStage3.at_main_call12_v0]

theorem fin_main_call12_v1 : W34 m ρ c (Proc.devRef .tc main_call12_v1) = ((broadcastInDim S131072x128 ![] bcast_S_S131072x128)) (W34 m ρ c (Proc.devRef .tc main_cst_31)) := by
  rw [to33 m ρ c main_call12_v1 (by decide), to33 m ρ c main_cst_31 (by decide), W33_eq m ρ c, HostStage3.at_main_call12_v1]

theorem fin_main_v120 : W34 m ρ c (Proc.devRef .tc main_v120) = (select) (W34 m ρ c (Proc.devRef .tc main_call12_v0)) (W34 m ρ c (Proc.devRef .tc main_call12_v1)) (W34 m ρ c (Proc.devRef .tc main_v118)) := by
  rw [to33 m ρ c main_v120 (by decide), to33 m ρ c main_call12_v0 (by decide), to33 m ρ c main_call12_v1 (by decide), to33 m ρ c main_v118 (by decide), W33_eq m ρ c, HostStage3.at_main_v120]

theorem fin_main_cst_32 : W34 m ρ c (Proc.devRef .tc main_cst_32) = (constant S_ .f32 0x00000000#32) := by
  rw [to33 m ρ c main_cst_32 (by decide), W33_eq m ρ c, HostStage3.at_main_cst_32]

theorem fin_main_v121 : W34 m ρ c (Proc.devRef .tc main_v121) = ((broadcastInDim S256x128 ![] bcast_S_S256x128 : (⟨S_, .f32⟩ : BufTy).Contents (Elt F) → (⟨S256x128, .f32⟩ : BufTy).Contents (Elt F))) (W34 m ρ c (Proc.devRef .tc main_cst_32)) := by
  rw [to33 m ρ c main_v121 (by decide), to33 m ρ c main_cst_32 (by decide), W33_eq m ρ c, HostStage3.at_main_v121]

theorem fin_main_v122 : W34 m ρ c (Proc.devRef .tc main_v122) = ((broadcastInDim S131072x1 ![0] bcast_S131072_S131072x1_0 : (⟨S131072, .i32⟩ : BufTy).Contents (Elt F) → (⟨S131072x1, .i32⟩ : BufTy).Contents (Elt F))) (W34 m ρ c (Proc.devRef .tc main_arg14)) := by
  rw [to33 m ρ c main_v122 (by decide), to33 m ρ c main_arg14 (by decide), W33_eq m ρ c, HostStage3.at_main_v122]

theorem fin_main_v123 : W34 m ρ c (Proc.devRef .tc main_v123) = (((fun x i u => Host.scatterAdd scatter_S256x128_S131072x1_S131072x128_1_0_0_1 x i u) : (⟨S256x128, .f32⟩ : BufTy).Contents (Elt F) → (⟨S131072x1, .i32⟩ : BufTy).Contents (Elt F) → (⟨S131072x128, .f32⟩ : BufTy).Contents (Elt F) → (⟨S256x128, .f32⟩ : BufTy).Contents (Elt F))) (W34 m ρ c (Proc.devRef .tc main_v121)) (W34 m ρ c (Proc.devRef .tc main_v122)) (W34 m ρ c (Proc.devRef .tc main_v89)) := by
  rw [to33 m ρ c main_v123 (by decide), to33 m ρ c main_v121 (by decide), to33 m ρ c main_v122 (by decide), to33 m ρ c main_v89 (by decide), W33_eq m ρ c, HostStage3.at_main_v123]

theorem fin_main_cst_33 : W34 m ρ c (Proc.devRef .tc main_cst_33) = (constant S_ .f32 0x00000000#32) := by
  rw [to33 m ρ c main_cst_33 (by decide), W33_eq m ρ c, HostStage3.at_main_cst_33]

theorem fin_main_v124 : W34 m ρ c (Proc.devRef .tc main_v124) = ((broadcastInDim S256x128 ![] bcast_S_S256x128 : (⟨S_, .f32⟩ : BufTy).Contents (Elt F) → (⟨S256x128, .f32⟩ : BufTy).Contents (Elt F))) (W34 m ρ c (Proc.devRef .tc main_cst_33)) := by
  rw [to33 m ρ c main_v124 (by decide), to33 m ρ c main_cst_33 (by decide), W33_eq m ρ c, HostStage3.at_main_v124]

theorem fin_main_v125 : W34 m ρ c (Proc.devRef .tc main_v125) = ((broadcastInDim S262144x1 ![0] bcast_S262144_S262144x1_0 : (⟨S262144, .i32⟩ : BufTy).Contents (Elt F) → (⟨S262144x1, .i32⟩ : BufTy).Contents (Elt F))) (W34 m ρ c (Proc.devRef .tc main_arg15)) := by
  rw [to33 m ρ c main_v125 (by decide), to33 m ρ c main_arg15 (by decide), W33_eq m ρ c, HostStage3.at_main_v125]

theorem fin_main_v126 : W34 m ρ c (Proc.devRef .tc main_v126) = (((fun x i u => Host.scatterAdd scatter_S256x128_S262144x1_S262144x128_1_0_0_1 x i u) : (⟨S256x128, .f32⟩ : BufTy).Contents (Elt F) → (⟨S262144x1, .i32⟩ : BufTy).Contents (Elt F) → (⟨S262144x128, .f32⟩ : BufTy).Contents (Elt F) → (⟨S256x128, .f32⟩ : BufTy).Contents (Elt F))) (W34 m ρ c (Proc.devRef .tc main_v124)) (W34 m ρ c (Proc.devRef .tc main_v125)) (W34 m ρ c (Proc.devRef .tc main_v60)) := by
  rw [to33 m ρ c main_v126 (by decide), to33 m ρ c main_v124 (by decide), to33 m ρ c main_v125 (by decide), to33 m ρ c main_v60 (by decide), W33_eq m ρ c, HostStage3.at_main_v126]

theorem fin_main_cst_34 : W34 m ρ c (Proc.devRef .tc main_cst_34) = (constant S_ .f32 0x00000000#32) := by
  rw [to33 m ρ c main_cst_34 (by decide), W33_eq m ρ c, HostStage3.at_main_cst_34]

theorem fin_main_v127 : W34 m ρ c (Proc.devRef .tc main_v127) = ((broadcastInDim S256x128 ![] bcast_S_S256x128 : (⟨S_, .f32⟩ : BufTy).Contents (Elt F) → (⟨S256x128, .f32⟩ : BufTy).Contents (Elt F))) (W34 m ρ c (Proc.devRef .tc main_cst_34)) := by
  rw [to33 m ρ c main_v127 (by decide), to33 m ρ c main_cst_34 (by decide), W33_eq m ρ c, HostStage3.at_main_v127]

theorem fin_main_v128 : W34 m ρ c (Proc.devRef .tc main_v128) = ((broadcastInDim S131072x1 ![0] bcast_S131072_S131072x1_0 : (⟨S131072, .i32⟩ : BufTy).Contents (Elt F) → (⟨S131072x1, .i32⟩ : BufTy).Contents (Elt F))) (W34 m ρ c (Proc.devRef .tc main_arg16)) := by
  rw [to33 m ρ c main_v128 (by decide), to33 m ρ c main_arg16 (by decide), W33_eq m ρ c, HostStage3.at_main_v128]

theorem fin_main_v129 : W34 m ρ c (Proc.devRef .tc main_v129) = (((fun x i u => Host.scatterAdd scatter_S256x128_S131072x1_S131072x128_1_0_0_1 x i u) : (⟨S256x128, .f32⟩ : BufTy).Contents (Elt F) → (⟨S131072x1, .i32⟩ : BufTy).Contents (Elt F) → (⟨S131072x128, .f32⟩ : BufTy).Contents (Elt F) → (⟨S256x128, .f32⟩ : BufTy).Contents (Elt F))) (W34 m ρ c (Proc.devRef .tc main_v127)) (W34 m ρ c (Proc.devRef .tc main_v128)) (W34 m ρ c (Proc.devRef .tc main_v120)) := by
  rw [to33 m ρ c main_v129 (by decide), to33 m ρ c main_v127 (by decide), to33 m ρ c main_v128 (by decide), to33 m ρ c main_v120 (by decide), W33_eq m ρ c, HostStage3.at_main_v129]

theorem fin_main_v130 : W34 m ρ c (Proc.devRef .tc main_v130) = (((extractStridedSlice S128x128 ![0, 0] · slices_S512x128_S128x128_0_0) : (⟨S512x128, .f32⟩ : BufTy).Contents (Elt F) → (⟨S128x128, .f32⟩ : BufTy).Contents (Elt F))) (W34 m ρ c (Proc.devRef .tc main_arg10)) := by
  rw [to33 m ρ c main_v130 (by decide), to33 m ρ c main_arg10 (by decide), W33_eq m ρ c, HostStage3.at_main_v130]

theorem fin_main_v131 : W34 m ρ c (Proc.devRef .tc main_v131) = (((extractStridedSlice S128x128 ![128, 0] · slices_S512x128_S128x128_128_0) : (⟨S512x128, .f32⟩ : BufTy).Contents (Elt F) → (⟨S128x128, .f32⟩ : BufTy).Contents (Elt F))) (W34 m ρ c (Proc.devRef .tc main_arg10)) := by
  rw [to33 m ρ c main_v131 (by decide), to33 m ρ c main_arg10 (by decide), W33_eq m ρ c, HostStage3.at_main_v131]

theorem fin_main_v132 : W34 m ρ c (Proc.devRef .tc main_v132) = (((extractStridedSlice S128x128 ![256, 0] · slices_S512x128_S128x128_256_0) : (⟨S512x128, .f32⟩ : BufTy).Contents (Elt F) → (⟨S128x128, .f32⟩ : BufTy).Contents (Elt F))) (W34 m ρ c (Proc.devRef .tc main_arg10)) := by
  rw [to33 m ρ c main_v132 (by decide), to33 m ρ c main_arg10 (by decide), W33_eq m ρ c, HostStage3.at_main_v132]

theorem fin_main_v133 : W34 m ρ c (Proc.devRef .tc main_v133) = (((extractStridedSlice S128x128 ![384, 0] · slices_S512x128_S128x128_384_0) : (⟨S512x128, .f32⟩ : BufTy).Contents (Elt F) → (⟨S128x128, .f32⟩ : BufTy).Contents (Elt F))) (W34 m ρ c (Proc.devRef .tc main_arg10)) := by
  rw [to33 m ρ c main_v133 (by decide), to33 m ρ c main_arg10 (by decide), W33_eq m ρ c, HostStage3.at_main_v133]

theorem fin_main_v134 : W34 m ρ c (Proc.devRef .tc main_v134) = fun i => shapeCast main_v134.ty.shape (W34 m ρ c (Proc.devRef .tc main_arg11)) shapeCasts_S128_S1x128 i := by
  rw [to33 m ρ c main_v134 (by decide), to33 m ρ c main_arg11 (by decide), W33_eq m ρ c, HostStage3.at_main_v134]

end Cert.KernelIdeal.Final

end
-- ==== Proof.CorrBase.lean ====
/-
  The two runs start from memories that agree on the arguments.

  The idealized kernel ends with each argument array as launched, and no operation of the reference writes an argument,
  so at the end of both runs the two programs' argument buffers hold the same contents.
-/
import proofs.«134187_j30227979829536_1_alg».proof.Proof.KFinal
import proofs.«134187_j30227979829536_1_alg».proof.Proof.RefRun
import Idealize.ShloMosaic.PureOps.Ideal

set_option maxRecDepth 16384
-- an equation between a buffer of one program and a buffer of the other has both buffers' types computed from the programs' tables
set_option maxHeartbeats 4000000

noncomputable section

namespace Cert.Corr

open Idealize.ShloMosaic Idealize.ShloMosaic.StableHlo Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal))

/-- The reference's launch contents agree with the kernel's launch memory on every argument. -/
structure Agree : Prop where
  a0 : VR (Proc.devRef .tc Cert.ReferenceIdeal.main_arg0) = m ((c : Thread Cert.KernelIdeal.nD Cert.KernelIdeal.τ).loc Cert.KernelIdeal.main_arg0)
  a1 : VR (Proc.devRef .tc Cert.ReferenceIdeal.main_arg1) = m ((c : Thread Cert.KernelIdeal.nD Cert.KernelIdeal.τ).loc Cert.KernelIdeal.main_arg1)
  a2 : VR (Proc.devRef .tc Cert.ReferenceIdeal.main_arg2) = m ((c : Thread Cert.KernelIdeal.nD Cert.KernelIdeal.τ).loc Cert.KernelIdeal.main_arg2)
  a3 : VR (Proc.devRef .tc Cert.ReferenceIdeal.main_arg3) = m ((c : Thread Cert.KernelIdeal.nD Cert.KernelIdeal.τ).loc Cert.KernelIdeal.main_arg3)
  a4 : VR (Proc.devRef .tc Cert.ReferenceIdeal.main_arg4) = m ((c : Thread Cert.KernelIdeal.nD Cert.KernelIdeal.τ).loc Cert.KernelIdeal.main_arg4)
  a5 : VR (Proc.devRef .tc Cert.ReferenceIdeal.main_arg5) = m ((c : Thread Cert.KernelIdeal.nD Cert.KernelIdeal.τ).loc Cert.KernelIdeal.main_arg5)
  a6 : VR (Proc.devRef .tc Cert.ReferenceIdeal.main_arg6) = m ((c : Thread Cert.KernelIdeal.nD Cert.KernelIdeal.τ).loc Cert.KernelIdeal.main_arg6)
  a7 : VR (Proc.devRef .tc Cert.ReferenceIdeal.main_arg7) = m ((c : Thread Cert.KernelIdeal.nD Cert.KernelIdeal.τ).loc Cert.KernelIdeal.main_arg7)
  a8 : VR (Proc.devRef .tc Cert.ReferenceIdeal.main_arg8) = m ((c : Thread Cert.KernelIdeal.nD Cert.KernelIdeal.τ).loc Cert.KernelIdeal.main_arg8)
  a9 : VR (Proc.devRef .tc Cert.ReferenceIdeal.main_arg9) = m ((c : Thread Cert.KernelIdeal.nD Cert.KernelIdeal.τ).loc Cert.KernelIdeal.main_arg9)
  a10 : VR (Proc.devRef .tc Cert.ReferenceIdeal.main_arg10) = m ((c : Thread Cert.KernelIdeal.nD Cert.KernelIdeal.τ).loc Cert.KernelIdeal.main_arg10)
  a11 : VR (Proc.devRef .tc Cert.ReferenceIdeal.main_arg11) = m ((c : Thread Cert.KernelIdeal.nD Cert.KernelIdeal.τ).loc Cert.KernelIdeal.main_arg11)
  a12 : VR (Proc.devRef .tc Cert.ReferenceIdeal.main_arg12) = m ((c : Thread Cert.KernelIdeal.nD Cert.KernelIdeal.τ).loc Cert.KernelIdeal.main_arg12)
  a13 : VR (Proc.devRef .tc Cert.ReferenceIdeal.main_arg13) = m ((c : Thread Cert.KernelIdeal.nD Cert.KernelIdeal.τ).loc Cert.KernelIdeal.main_arg13)
  a14 : VR (Proc.devRef .tc Cert.ReferenceIdeal.main_arg14) = m ((c : Thread Cert.KernelIdeal.nD Cert.KernelIdeal.τ).loc Cert.KernelIdeal.main_arg14)
  a15 : VR (Proc.devRef .tc Cert.ReferenceIdeal.main_arg15) = m ((c : Thread Cert.KernelIdeal.nD Cert.KernelIdeal.τ).loc Cert.KernelIdeal.main_arg15)
  a16 : VR (Proc.devRef .tc Cert.ReferenceIdeal.main_arg16) = m ((c : Thread Cert.KernelIdeal.nD Cert.KernelIdeal.τ).loc Cert.KernelIdeal.main_arg16)
  a17 : VR (Proc.devRef .tc Cert.ReferenceIdeal.main_arg17) = m ((c : Thread Cert.KernelIdeal.nD Cert.KernelIdeal.τ).loc Cert.KernelIdeal.main_arg17)
  a18 : VR (Proc.devRef .tc Cert.ReferenceIdeal.main_arg18) = m ((c : Thread Cert.KernelIdeal.nD Cert.KernelIdeal.τ).loc Cert.KernelIdeal.main_arg18)
  a19 : VR (Proc.devRef .tc Cert.ReferenceIdeal.main_arg19) = m ((c : Thread Cert.KernelIdeal.nD Cert.KernelIdeal.τ).loc Cert.KernelIdeal.main_arg19)
  a20 : VR (Proc.devRef .tc Cert.ReferenceIdeal.main_arg20) = m ((c : Thread Cert.KernelIdeal.nD Cert.KernelIdeal.τ).loc Cert.KernelIdeal.main_arg20)

variable {m c VR}

theorem arg_main_arg0 (h : Agree m c VR) :
    Cert.KernelIdeal.Gen.W34 (F := Ideal) m ρ c (Proc.devRef .tc Cert.KernelIdeal.main_arg0)
      = after (Cert.ReferenceIdeal.HandRun.ops (F := Ideal)) VR (Proc.devRef .tc Cert.ReferenceIdeal.main_arg0) :=
  (Cert.KernelIdeal.Gen.W34_main_arg0 m ρ c).trans
    (h.a0.symm.trans (HostRead.after_take Cert.ReferenceIdeal.HandRun.ops_outs 0 Cert.ReferenceIdeal.main_arg0 (by decide) VR).symm)

theorem arg_main_arg1 (h : Agree m c VR) :
    Cert.KernelIdeal.Gen.W34 (F := Ideal) m ρ c (Proc.devRef .tc Cert.KernelIdeal.main_arg1)
      = after (Cert.ReferenceIdeal.HandRun.ops (F := Ideal)) VR (Proc.devRef .tc Cert.ReferenceIdeal.main_arg1) :=
  (Cert.KernelIdeal.Gen.W34_main_arg1 m ρ c).trans
    (h.a1.symm.trans (HostRead.after_take Cert.ReferenceIdeal.HandRun.ops_outs 0 Cert.ReferenceIdeal.main_arg1 (by decide) VR).symm)

theorem arg_main_arg2 (h : Agree m c VR) :
    Cert.KernelIdeal.Gen.W34 (F := Ideal) m ρ c (Proc.devRef .tc Cert.KernelIdeal.main_arg2)
      = after (Cert.ReferenceIdeal.HandRun.ops (F := Ideal)) VR (Proc.devRef .tc Cert.ReferenceIdeal.main_arg2) :=
  (Cert.KernelIdeal.Gen.W34_main_arg2 m ρ c).trans
    (h.a2.symm.trans (HostRead.after_take Cert.ReferenceIdeal.HandRun.ops_outs 0 Cert.ReferenceIdeal.main_arg2 (by decide) VR).symm)

theorem arg_main_arg3 (h : Agree m c VR) :
    Cert.KernelIdeal.Gen.W34 (F := Ideal) m ρ c (Proc.devRef .tc Cert.KernelIdeal.main_arg3)
      = after (Cert.ReferenceIdeal.HandRun.ops (F := Ideal)) VR (Proc.devRef .tc Cert.ReferenceIdeal.main_arg3) :=
  (Cert.KernelIdeal.Gen.W34_main_arg3 m ρ c).trans
    (h.a3.symm.trans (HostRead.after_take Cert.ReferenceIdeal.HandRun.ops_outs 0 Cert.ReferenceIdeal.main_arg3 (by decide) VR).symm)

theorem arg_main_arg4 (h : Agree m c VR) :
    Cert.KernelIdeal.Gen.W34 (F := Ideal) m ρ c (Proc.devRef .tc Cert.KernelIdeal.main_arg4)
      = after (Cert.ReferenceIdeal.HandRun.ops (F := Ideal)) VR (Proc.devRef .tc Cert.ReferenceIdeal.main_arg4) :=
  (Cert.KernelIdeal.Gen.W34_main_arg4 m ρ c).trans
    (h.a4.symm.trans (HostRead.after_take Cert.ReferenceIdeal.HandRun.ops_outs 0 Cert.ReferenceIdeal.main_arg4 (by decide) VR).symm)

theorem arg_main_arg5 (h : Agree m c VR) :
    Cert.KernelIdeal.Gen.W34 (F := Ideal) m ρ c (Proc.devRef .tc Cert.KernelIdeal.main_arg5)
      = after (Cert.ReferenceIdeal.HandRun.ops (F := Ideal)) VR (Proc.devRef .tc Cert.ReferenceIdeal.main_arg5) :=
  (Cert.KernelIdeal.Gen.W34_main_arg5 m ρ c).trans
    (h.a5.symm.trans (HostRead.after_take Cert.ReferenceIdeal.HandRun.ops_outs 0 Cert.ReferenceIdeal.main_arg5 (by decide) VR).symm)

theorem arg_main_arg6 (h : Agree m c VR) :
    Cert.KernelIdeal.Gen.W34 (F := Ideal) m ρ c (Proc.devRef .tc Cert.KernelIdeal.main_arg6)
      = after (Cert.ReferenceIdeal.HandRun.ops (F := Ideal)) VR (Proc.devRef .tc Cert.ReferenceIdeal.main_arg6) :=
  (Cert.KernelIdeal.Gen.W34_main_arg6 m ρ c).trans
    (h.a6.symm.trans (HostRead.after_take Cert.ReferenceIdeal.HandRun.ops_outs 0 Cert.ReferenceIdeal.main_arg6 (by decide) VR).symm)

theorem arg_main_arg7 (h : Agree m c VR) :
    Cert.KernelIdeal.Gen.W34 (F := Ideal) m ρ c (Proc.devRef .tc Cert.KernelIdeal.main_arg7)
      = after (Cert.ReferenceIdeal.HandRun.ops (F := Ideal)) VR (Proc.devRef .tc Cert.ReferenceIdeal.main_arg7) :=
  (Cert.KernelIdeal.Gen.W34_main_arg7 m ρ c).trans
    (h.a7.symm.trans (HostRead.after_take Cert.ReferenceIdeal.HandRun.ops_outs 0 Cert.ReferenceIdeal.main_arg7 (by decide) VR).symm)

theorem arg_main_arg8 (h : Agree m c VR) :
    Cert.KernelIdeal.Gen.W34 (F := Ideal) m ρ c (Proc.devRef .tc Cert.KernelIdeal.main_arg8)
      = after (Cert.ReferenceIdeal.HandRun.ops (F := Ideal)) VR (Proc.devRef .tc Cert.ReferenceIdeal.main_arg8) :=
  (Cert.KernelIdeal.Gen.W34_main_arg8 m ρ c).trans
    (h.a8.symm.trans (HostRead.after_take Cert.ReferenceIdeal.HandRun.ops_outs 0 Cert.ReferenceIdeal.main_arg8 (by decide) VR).symm)

theorem arg_main_arg9 (h : Agree m c VR) :
    Cert.KernelIdeal.Gen.W34 (F := Ideal) m ρ c (Proc.devRef .tc Cert.KernelIdeal.main_arg9)
      = after (Cert.ReferenceIdeal.HandRun.ops (F := Ideal)) VR (Proc.devRef .tc Cert.ReferenceIdeal.main_arg9) :=
  (Cert.KernelIdeal.Gen.W34_main_arg9 m ρ c).trans
    (h.a9.symm.trans (HostRead.after_take Cert.ReferenceIdeal.HandRun.ops_outs 0 Cert.ReferenceIdeal.main_arg9 (by decide) VR).symm)

theorem arg_main_arg10 (h : Agree m c VR) :
    Cert.KernelIdeal.Gen.W34 (F := Ideal) m ρ c (Proc.devRef .tc Cert.KernelIdeal.main_arg10)
      = after (Cert.ReferenceIdeal.HandRun.ops (F := Ideal)) VR (Proc.devRef .tc Cert.ReferenceIdeal.main_arg10) :=
  (Cert.KernelIdeal.Gen.W34_main_arg10 m ρ c).trans
    (h.a10.symm.trans (HostRead.after_take Cert.ReferenceIdeal.HandRun.ops_outs 0 Cert.ReferenceIdeal.main_arg10 (by decide) VR).symm)

theorem arg_main_arg11 (h : Agree m c VR) :
    Cert.KernelIdeal.Gen.W34 (F := Ideal) m ρ c (Proc.devRef .tc Cert.KernelIdeal.main_arg11)
      = after (Cert.ReferenceIdeal.HandRun.ops (F := Ideal)) VR (Proc.devRef .tc Cert.ReferenceIdeal.main_arg11) :=
  (Cert.KernelIdeal.Gen.W34_main_arg11 m ρ c).trans
    (h.a11.symm.trans (HostRead.after_take Cert.ReferenceIdeal.HandRun.ops_outs 0 Cert.ReferenceIdeal.main_arg11 (by decide) VR).symm)

theorem arg_main_arg12 (h : Agree m c VR) :
    Cert.KernelIdeal.Gen.W34 (F := Ideal) m ρ c (Proc.devRef .tc Cert.KernelIdeal.main_arg12)
      = after (Cert.ReferenceIdeal.HandRun.ops (F := Ideal)) VR (Proc.devRef .tc Cert.ReferenceIdeal.main_arg12) :=
  (Cert.KernelIdeal.Gen.W34_main_arg12 m ρ c).trans
    (h.a12.symm.trans (HostRead.after_take Cert.ReferenceIdeal.HandRun.ops_outs 0 Cert.ReferenceIdeal.main_arg12 (by decide) VR).symm)

theorem arg_main_arg13 (h : Agree m c VR) :
    Cert.KernelIdeal.Gen.W34 (F := Ideal) m ρ c (Proc.devRef .tc Cert.KernelIdeal.main_arg13)
      = after (Cert.ReferenceIdeal.HandRun.ops (F := Ideal)) VR (Proc.devRef .tc Cert.ReferenceIdeal.main_arg13) :=
  (Cert.KernelIdeal.Gen.W34_main_arg13 m ρ c).trans
    (h.a13.symm.trans (HostRead.after_take Cert.ReferenceIdeal.HandRun.ops_outs 0 Cert.ReferenceIdeal.main_arg13 (by decide) VR).symm)

theorem arg_main_arg14 (h : Agree m c VR) :
    Cert.KernelIdeal.Gen.W34 (F := Ideal) m ρ c (Proc.devRef .tc Cert.KernelIdeal.main_arg14)
      = after (Cert.ReferenceIdeal.HandRun.ops (F := Ideal)) VR (Proc.devRef .tc Cert.ReferenceIdeal.main_arg14) :=
  (Cert.KernelIdeal.Gen.W34_main_arg14 m ρ c).trans
    (h.a14.symm.trans (HostRead.after_take Cert.ReferenceIdeal.HandRun.ops_outs 0 Cert.ReferenceIdeal.main_arg14 (by decide) VR).symm)

theorem arg_main_arg15 (h : Agree m c VR) :
    Cert.KernelIdeal.Gen.W34 (F := Ideal) m ρ c (Proc.devRef .tc Cert.KernelIdeal.main_arg15)
      = after (Cert.ReferenceIdeal.HandRun.ops (F := Ideal)) VR (Proc.devRef .tc Cert.ReferenceIdeal.main_arg15) :=
  (Cert.KernelIdeal.Gen.W34_main_arg15 m ρ c).trans
    (h.a15.symm.trans (HostRead.after_take Cert.ReferenceIdeal.HandRun.ops_outs 0 Cert.ReferenceIdeal.main_arg15 (by decide) VR).symm)

theorem arg_main_arg16 (h : Agree m c VR) :
    Cert.KernelIdeal.Gen.W34 (F := Ideal) m ρ c (Proc.devRef .tc Cert.KernelIdeal.main_arg16)
      = after (Cert.ReferenceIdeal.HandRun.ops (F := Ideal)) VR (Proc.devRef .tc Cert.ReferenceIdeal.main_arg16) :=
  (Cert.KernelIdeal.Gen.W34_main_arg16 m ρ c).trans
    (h.a16.symm.trans (HostRead.after_take Cert.ReferenceIdeal.HandRun.ops_outs 0 Cert.ReferenceIdeal.main_arg16 (by decide) VR).symm)

theorem arg_main_arg17 (h : Agree m c VR) :
    Cert.KernelIdeal.Gen.W34 (F := Ideal) m ρ c (Proc.devRef .tc Cert.KernelIdeal.main_arg17)
      = after (Cert.ReferenceIdeal.HandRun.ops (F := Ideal)) VR (Proc.devRef .tc Cert.ReferenceIdeal.main_arg17) :=
  (Cert.KernelIdeal.Gen.W34_main_arg17 m ρ c).trans
    (h.a17.symm.trans (HostRead.after_take Cert.ReferenceIdeal.HandRun.ops_outs 0 Cert.ReferenceIdeal.main_arg17 (by decide) VR).symm)

theorem arg_main_arg18 (h : Agree m c VR) :
    Cert.KernelIdeal.Gen.W34 (F := Ideal) m ρ c (Proc.devRef .tc Cert.KernelIdeal.main_arg18)
      = after (Cert.ReferenceIdeal.HandRun.ops (F := Ideal)) VR (Proc.devRef .tc Cert.ReferenceIdeal.main_arg18) :=
  (Cert.KernelIdeal.Gen.W34_main_arg18 m ρ c).trans
    (h.a18.symm.trans (HostRead.after_take Cert.ReferenceIdeal.HandRun.ops_outs 0 Cert.ReferenceIdeal.main_arg18 (by decide) VR).symm)

theorem arg_main_arg19 (h : Agree m c VR) :
    Cert.KernelIdeal.Gen.W34 (F := Ideal) m ρ c (Proc.devRef .tc Cert.KernelIdeal.main_arg19)
      = after (Cert.ReferenceIdeal.HandRun.ops (F := Ideal)) VR (Proc.devRef .tc Cert.ReferenceIdeal.main_arg19) :=
  (Cert.KernelIdeal.Gen.W34_main_arg19 m ρ c).trans
    (h.a19.symm.trans (HostRead.after_take Cert.ReferenceIdeal.HandRun.ops_outs 0 Cert.ReferenceIdeal.main_arg19 (by decide) VR).symm)

theorem arg_main_arg20 (h : Agree m c VR) :
    Cert.KernelIdeal.Gen.W34 (F := Ideal) m ρ c (Proc.devRef .tc Cert.KernelIdeal.main_arg20)
      = after (Cert.ReferenceIdeal.HandRun.ops (F := Ideal)) VR (Proc.devRef .tc Cert.ReferenceIdeal.main_arg20) :=
  (Cert.KernelIdeal.Gen.W34_main_arg20 m ρ c).trans
    (h.a20.symm.trans (HostRead.after_take Cert.ReferenceIdeal.HandRun.ops_outs 0 Cert.ReferenceIdeal.main_arg20 (by decide) VR).symm)

end Cert.Corr

end
-- ==== Proof.Corr0.lean ====
/-
  The host glue of the idealized kernel and of the reference compute the same values.

  Both programs gather rows, repeat the per-graph rows, sum over segments and mask with the same operations on the same
  operands; only the dense layers differ. Each lemma pairs one kernel buffer with one reference buffer: the two are written
  by the same operation applied to paired operands, so their contents after the runs agree when the operands' do.
-/
import proofs.«134187_j30227979829536_1_alg».proof.Proof.KFin0
import proofs.«134187_j30227979829536_1_alg».proof.Proof.KFin1
import proofs.«134187_j30227979829536_1_alg».proof.Proof.KFin2
import proofs.«134187_j30227979829536_1_alg».proof.Proof.KFin3
import proofs.«134187_j30227979829536_1_alg».proof.Proof.RefSsa
import proofs.«134187_j30227979829536_1_alg».proof.Proof.CorrBase

set_option maxRecDepth 16384
-- an equation between a buffer of one program and a buffer of the other has both buffers' types computed from the programs' tables
set_option maxHeartbeats 4000000

noncomputable section

namespace Cert.Corr

open Idealize.ShloMosaic Idealize.ShloMosaic.StableHlo Idealize.ShloMosaic.TcCoe Idealize.SL.Sem

-- the reductions, gathers and scatters are folds over an operand's elements; no pairing looks inside one
attribute [local irreducible] Host.reduceWindow Host.reduce Host.gather Host.scatter Host.scatterAdd

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal)) (h : Agree m c VR)
include h

theorem p_main_v0__main_v0 : Cert.KernelIdeal.Gen.W34 (F := Ideal) m ρ c (Proc.devRef .tc Cert.KernelIdeal.main_v0) = after (Cert.ReferenceIdeal.HandRun.ops (F := Ideal)) VR (Proc.devRef .tc Cert.ReferenceIdeal.main_v0) := by
  rw [Cert.KernelIdeal.Final.fin_main_v0 m ρ c, Cert.ReferenceIdeal.HandRun.at_main_v0 VR, arg_main_arg12 ρ h]
  try rfl

theorem p_main_v1__main_v1 : Cert.KernelIdeal.Gen.W34 (F := Ideal) m ρ c (Proc.devRef .tc Cert.KernelIdeal.main_v1) = after (Cert.ReferenceIdeal.HandRun.ops (F := Ideal)) VR (Proc.devRef .tc Cert.ReferenceIdeal.main_v1) := by
  rw [Cert.KernelIdeal.Final.fin_main_v1 m ρ c, Cert.ReferenceIdeal.HandRun.at_main_v1 VR, p_main_v0__main_v0 m ρ c VR h]
  try rfl

theorem p_main_c__main_c_6 : Cert.KernelIdeal.Gen.W34 (F := Ideal) m ρ c (Proc.devRef .tc Cert.KernelIdeal.main_c) = after (Cert.ReferenceIdeal.HandRun.ops (F := Ideal)) VR (Proc.devRef .tc Cert.ReferenceIdeal.main_c_6) := by
  rw [Cert.KernelIdeal.Final.fin_main_c m ρ c, Cert.ReferenceIdeal.HandRun.at_main_c_6 VR]
  try rfl

theorem p_main_v8__main_v21 : Cert.KernelIdeal.Gen.W34 (F := Ideal) m ρ c (Proc.devRef .tc Cert.KernelIdeal.main_v8) = after (Cert.ReferenceIdeal.HandRun.ops (F := Ideal)) VR (Proc.devRef .tc Cert.ReferenceIdeal.main_v21) := by
  rw [Cert.KernelIdeal.Final.fin_main_v8 m ρ c, Cert.ReferenceIdeal.HandRun.at_main_v21 VR, p_main_c__main_c_6 m ρ c VR h]
  try rfl

theorem p_main_v9__main_v22 : Cert.KernelIdeal.Gen.W34 (F := Ideal) m ρ c (Proc.devRef .tc Cert.KernelIdeal.main_v9) = after (Cert.ReferenceIdeal.HandRun.ops (F := Ideal)) VR (Proc.devRef .tc Cert.ReferenceIdeal.main_v22) := by
  rw [Cert.KernelIdeal.Final.fin_main_v9 m ρ c, Cert.ReferenceIdeal.HandRun.at_main_v22 VR, p_main_v1__main_v1 m ρ c VR h, p_main_v8__main_v21 m ρ c VR h]
  try rfl

theorem p_main_c_0__main_c_7 : Cert.KernelIdeal.Gen.W34 (F := Ideal) m ρ c (Proc.devRef .tc Cert.KernelIdeal.main_c_0) = after (Cert.ReferenceIdeal.HandRun.ops (F := Ideal)) VR (Proc.devRef .tc Cert.ReferenceIdeal.main_c_7) := by
  rw [Cert.KernelIdeal.Final.fin_main_c_0 m ρ c, Cert.ReferenceIdeal.HandRun.at_main_c_7 VR]
  try rfl

theorem p_main_v10__main_v23 : Cert.KernelIdeal.Gen.W34 (F := Ideal) m ρ c (Proc.devRef .tc Cert.KernelIdeal.main_v10) = after (Cert.ReferenceIdeal.HandRun.ops (F := Ideal)) VR (Proc.devRef .tc Cert.ReferenceIdeal.main_v23) := by
  rw [Cert.KernelIdeal.Final.fin_main_v10 m ρ c, Cert.ReferenceIdeal.HandRun.at_main_v23 VR, p_main_c_0__main_c_7 m ρ c VR h]
  try rfl

theorem p_main_v11__main_v24 : Cert.KernelIdeal.Gen.W34 (F := Ideal) m ρ c (Proc.devRef .tc Cert.KernelIdeal.main_v11) = after (Cert.ReferenceIdeal.HandRun.ops (F := Ideal)) VR (Proc.devRef .tc Cert.ReferenceIdeal.main_v24) := by
  rw [Cert.KernelIdeal.Final.fin_main_v11 m ρ c, Cert.ReferenceIdeal.HandRun.at_main_v24 VR, p_main_v1__main_v1 m ρ c VR h, p_main_v10__main_v23 m ρ c VR h]
  try rfl

theorem p_main_v12__main_v25 : Cert.KernelIdeal.Gen.W34 (F := Ideal) m ρ c (Proc.devRef .tc Cert.KernelIdeal.main_v12) = after (Cert.ReferenceIdeal.HandRun.ops (F := Ideal)) VR (Proc.devRef .tc Cert.ReferenceIdeal.main_v25) := by
  rw [Cert.KernelIdeal.Final.fin_main_v12 m ρ c, Cert.ReferenceIdeal.HandRun.at_main_v25 VR, p_main_v9__main_v22 m ρ c VR h, p_main_v11__main_v24 m ρ c VR h, p_main_v1__main_v1 m ρ c VR h]
  try rfl

theorem p_main_v13__main_v26 : Cert.KernelIdeal.Gen.W34 (F := Ideal) m ρ c (Proc.devRef .tc Cert.KernelIdeal.main_v13) = after (Cert.ReferenceIdeal.HandRun.ops (F := Ideal)) VR (Proc.devRef .tc Cert.ReferenceIdeal.main_v26) := by
  rw [Cert.KernelIdeal.Final.fin_main_v13 m ρ c, Cert.ReferenceIdeal.HandRun.at_main_v26 VR, p_main_v12__main_v25 m ρ c VR h]
  try rfl

theorem p_main_v14__main_v27 : Cert.KernelIdeal.Gen.W34 (F := Ideal) m ρ c (Proc.devRef .tc Cert.KernelIdeal.main_v14) = after (Cert.ReferenceIdeal.HandRun.ops (F := Ideal)) VR (Proc.devRef .tc Cert.ReferenceIdeal.main_v27) := by
  rw [Cert.KernelIdeal.Final.fin_main_v14 m ρ c, Cert.ReferenceIdeal.HandRun.at_main_v27 VR, arg_main_arg0 ρ h, p_main_v13__main_v26 m ρ c VR h]
  try rfl

theorem p_main_v2__main_v2 : Cert.KernelIdeal.Gen.W34 (F := Ideal) m ρ c (Proc.devRef .tc Cert.KernelIdeal.main_v2) = after (Cert.ReferenceIdeal.HandRun.ops (F := Ideal)) VR (Proc.devRef .tc Cert.ReferenceIdeal.main_v2) := by
  rw [Cert.KernelIdeal.Final.fin_main_v2 m ρ c, Cert.ReferenceIdeal.HandRun.at_main_v2 VR, arg_main_arg12 ρ h]
  try rfl

theorem p_main_v3__main_v3 : Cert.KernelIdeal.Gen.W34 (F := Ideal) m ρ c (Proc.devRef .tc Cert.KernelIdeal.main_v3) = after (Cert.ReferenceIdeal.HandRun.ops (F := Ideal)) VR (Proc.devRef .tc Cert.ReferenceIdeal.main_v3) := by
  rw [Cert.KernelIdeal.Final.fin_main_v3 m ρ c, Cert.ReferenceIdeal.HandRun.at_main_v3 VR, p_main_v2__main_v2 m ρ c VR h]
  try rfl

theorem p_main_c_1__main_c_8 : Cert.KernelIdeal.Gen.W34 (F := Ideal) m ρ c (Proc.devRef .tc Cert.KernelIdeal.main_c_1) = after (Cert.ReferenceIdeal.HandRun.ops (F := Ideal)) VR (Proc.devRef .tc Cert.ReferenceIdeal.main_c_8) := by
  rw [Cert.KernelIdeal.Final.fin_main_c_1 m ρ c, Cert.ReferenceIdeal.HandRun.at_main_c_8 VR]
  try rfl

theorem p_main_v15__main_v28 : Cert.KernelIdeal.Gen.W34 (F := Ideal) m ρ c (Proc.devRef .tc Cert.KernelIdeal.main_v15) = after (Cert.ReferenceIdeal.HandRun.ops (F := Ideal)) VR (Proc.devRef .tc Cert.ReferenceIdeal.main_v28) := by
  rw [Cert.KernelIdeal.Final.fin_main_v15 m ρ c, Cert.ReferenceIdeal.HandRun.at_main_v28 VR, p_main_c_1__main_c_8 m ρ c VR h]
  try rfl

theorem p_main_v16__main_v29 : Cert.KernelIdeal.Gen.W34 (F := Ideal) m ρ c (Proc.devRef .tc Cert.KernelIdeal.main_v16) = after (Cert.ReferenceIdeal.HandRun.ops (F := Ideal)) VR (Proc.devRef .tc Cert.ReferenceIdeal.main_v29) := by
  rw [Cert.KernelIdeal.Final.fin_main_v16 m ρ c, Cert.ReferenceIdeal.HandRun.at_main_v29 VR, p_main_v3__main_v3 m ρ c VR h, p_main_v15__main_v28 m ρ c VR h]
  try rfl

theorem p_main_c_2__main_c_9 : Cert.KernelIdeal.Gen.W34 (F := Ideal) m ρ c (Proc.devRef .tc Cert.KernelIdeal.main_c_2) = after (Cert.ReferenceIdeal.HandRun.ops (F := Ideal)) VR (Proc.devRef .tc Cert.ReferenceIdeal.main_c_9) := by
  rw [Cert.KernelIdeal.Final.fin_main_c_2 m ρ c, Cert.ReferenceIdeal.HandRun.at_main_c_9 VR]
  try rfl

theorem p_main_v17__main_v30 : Cert.KernelIdeal.Gen.W34 (F := Ideal) m ρ c (Proc.devRef .tc Cert.KernelIdeal.main_v17) = after (Cert.ReferenceIdeal.HandRun.ops (F := Ideal)) VR (Proc.devRef .tc Cert.ReferenceIdeal.main_v30) := by
  rw [Cert.KernelIdeal.Final.fin_main_v17 m ρ c, Cert.ReferenceIdeal.HandRun.at_main_v30 VR, p_main_c_2__main_c_9 m ρ c VR h]
  try rfl

theorem p_main_v18__main_v31 : Cert.KernelIdeal.Gen.W34 (F := Ideal) m ρ c (Proc.devRef .tc Cert.KernelIdeal.main_v18) = after (Cert.ReferenceIdeal.HandRun.ops (F := Ideal)) VR (Proc.devRef .tc Cert.ReferenceIdeal.main_v31) := by
  rw [Cert.KernelIdeal.Final.fin_main_v18 m ρ c, Cert.ReferenceIdeal.HandRun.at_main_v31 VR, p_main_v3__main_v3 m ρ c VR h, p_main_v17__main_v30 m ρ c VR h]
  try rfl

theorem p_main_v19__main_v32 : Cert.KernelIdeal.Gen.W34 (F := Ideal) m ρ c (Proc.devRef .tc Cert.KernelIdeal.main_v19) = after (Cert.ReferenceIdeal.HandRun.ops (F := Ideal)) VR (Proc.devRef .tc Cert.ReferenceIdeal.main_v32) := by
  rw [Cert.KernelIdeal.Final.fin_main_v19 m ρ c, Cert.ReferenceIdeal.HandRun.at_main_v32 VR, p_main_v16__main_v29 m ρ c VR h, p_main_v18__main_v31 m ρ c VR h, p_main_v3__main_v3 m ρ c VR h]
  try rfl

theorem p_main_v20__main_v33 : Cert.KernelIdeal.Gen.W34 (F := Ideal) m ρ c (Proc.devRef .tc Cert.KernelIdeal.main_v20) = after (Cert.ReferenceIdeal.HandRun.ops (F := Ideal)) VR (Proc.devRef .tc Cert.ReferenceIdeal.main_v33) := by
  rw [Cert.KernelIdeal.Final.fin_main_v20 m ρ c, Cert.ReferenceIdeal.HandRun.at_main_v33 VR, p_main_v19__main_v32 m ρ c VR h]
  try rfl

theorem p_main_v21__main_v34 : Cert.KernelIdeal.Gen.W34 (F := Ideal) m ρ c (Proc.devRef .tc Cert.KernelIdeal.main_v21) = after (Cert.ReferenceIdeal.HandRun.ops (F := Ideal)) VR (Proc.devRef .tc Cert.ReferenceIdeal.main_v34) := by
  rw [Cert.KernelIdeal.Final.fin_main_v21 m ρ c, Cert.ReferenceIdeal.HandRun.at_main_v34 VR, arg_main_arg0 ρ h, p_main_v20__main_v33 m ρ c VR h]
  try rfl

theorem p_main_c_9__main_c_1 : Cert.KernelIdeal.Gen.W34 (F := Ideal) m ρ c (Proc.devRef .tc Cert.KernelIdeal.main_c_9) = after (Cert.ReferenceIdeal.HandRun.ops (F := Ideal)) VR (Proc.devRef .tc Cert.ReferenceIdeal.main_c_1) := by
  rw [Cert.KernelIdeal.Final.fin_main_c_9 m ρ c, Cert.ReferenceIdeal.HandRun.at_main_c_1 VR]
  try rfl

theorem p_main_v40__main_v8 : Cert.KernelIdeal.Gen.W34 (F := Ideal) m ρ c (Proc.devRef .tc Cert.KernelIdeal.main_v40) = after (Cert.ReferenceIdeal.HandRun.ops (F := Ideal)) VR (Proc.devRef .tc Cert.ReferenceIdeal.main_v8) := by
  rw [Cert.KernelIdeal.Final.fin_main_v40 m ρ c, Cert.ReferenceIdeal.HandRun.at_main_v8 VR, p_main_c_9__main_c_1 m ρ c VR h]
  try rfl

theorem p_main_call0_v0__main_call0_v0 : Cert.KernelIdeal.Gen.W34 (F := Ideal) m ρ c (Proc.devRef .tc Cert.KernelIdeal.main_call0_v0) = after (Cert.ReferenceIdeal.HandRun.ops (F := Ideal)) VR (Proc.devRef .tc Cert.ReferenceIdeal.main_call0_v0) := by
  rw [Cert.KernelIdeal.Final.fin_main_call0_v0 m ρ c, Cert.ReferenceIdeal.HandRun.at_main_call0_v0 VR, arg_main_arg19 ρ h]
  try rfl

theorem p_main_call0_v1__main_call0_v1 : Cert.KernelIdeal.Gen.W34 (F := Ideal) m ρ c (Proc.devRef .tc Cert.KernelIdeal.main_call0_v1) = after (Cert.ReferenceIdeal.HandRun.ops (F := Ideal)) VR (Proc.devRef .tc Cert.ReferenceIdeal.main_call0_v1) := by
  rw [Cert.KernelIdeal.Final.fin_main_call0_v1 m ρ c, Cert.ReferenceIdeal.HandRun.at_main_call0_v1 VR, arg_main_arg19 ρ h]
  try rfl

theorem p_main_v36__main_v4 : Cert.KernelIdeal.Gen.W34 (F := Ideal) m ρ c (Proc.devRef .tc Cert.KernelIdeal.main_v36) = after (Cert.ReferenceIdeal.HandRun.ops (F := Ideal)) VR (Proc.devRef .tc Cert.ReferenceIdeal.main_v4) := by
  rw [Cert.KernelIdeal.Final.fin_main_v36 m ρ c, Cert.ReferenceIdeal.HandRun.at_main_v4 VR, p_main_call0_v0__main_call0_v0 m ρ c VR h, p_main_call0_v1__main_call0_v1 m ρ c VR h]
  try rfl

theorem p_main_c_7__main_c : Cert.KernelIdeal.Gen.W34 (F := Ideal) m ρ c (Proc.devRef .tc Cert.KernelIdeal.main_c_7) = after (Cert.ReferenceIdeal.HandRun.ops (F := Ideal)) VR (Proc.devRef .tc Cert.ReferenceIdeal.main_c) := by
  rw [Cert.KernelIdeal.Final.fin_main_c_7 m ρ c, Cert.ReferenceIdeal.HandRun.at_main_c VR]
  try rfl

theorem p_main_v37__main_v5 : Cert.KernelIdeal.Gen.W34 (F := Ideal) m ρ c (Proc.devRef .tc Cert.KernelIdeal.main_v37) = after (Cert.ReferenceIdeal.HandRun.ops (F := Ideal)) VR (Proc.devRef .tc Cert.ReferenceIdeal.main_v5) := by
  rw [Cert.KernelIdeal.Final.fin_main_v37 m ρ c, Cert.ReferenceIdeal.HandRun.at_main_v5 VR, p_main_c_7__main_c m ρ c VR h]
  try rfl

theorem p_main_c_8__main_c_0 : Cert.KernelIdeal.Gen.W34 (F := Ideal) m ρ c (Proc.devRef .tc Cert.KernelIdeal.main_c_8) = after (Cert.ReferenceIdeal.HandRun.ops (F := Ideal)) VR (Proc.devRef .tc Cert.ReferenceIdeal.main_c_0) := by
  rw [Cert.KernelIdeal.Final.fin_main_c_8 m ρ c, Cert.ReferenceIdeal.HandRun.at_main_c_0 VR]
  try rfl

theorem p_main_v38__main_v6 : Cert.KernelIdeal.Gen.W34 (F := Ideal) m ρ c (Proc.devRef .tc Cert.KernelIdeal.main_v38) = after (Cert.ReferenceIdeal.HandRun.ops (F := Ideal)) VR (Proc.devRef .tc Cert.ReferenceIdeal.main_v6) := by
  rw [Cert.KernelIdeal.Final.fin_main_v38 m ρ c, Cert.ReferenceIdeal.HandRun.at_main_v6 VR, p_main_v36__main_v4 m ρ c VR h, p_main_v37__main_v5 m ρ c VR h, p_main_c_8__main_c_0 m ρ c VR h]
  try rfl

theorem p_main_call1_call0_c__main_call1_call0_c : Cert.KernelIdeal.Gen.W34 (F := Ideal) m ρ c (Proc.devRef .tc Cert.KernelIdeal.main_call1_call0_c) = after (Cert.ReferenceIdeal.HandRun.ops (F := Ideal)) VR (Proc.devRef .tc Cert.ReferenceIdeal.main_call1_call0_c) := by
  rw [Cert.KernelIdeal.Final.fin_main_call1_call0_c m ρ c, Cert.ReferenceIdeal.HandRun.at_main_call1_call0_c VR]
  try rfl

theorem p_main_call1_call0_v0__main_call1_call0_v0 : Cert.KernelIdeal.Gen.W34 (F := Ideal) m ρ c (Proc.devRef .tc Cert.KernelIdeal.main_call1_call0_v0) = after (Cert.ReferenceIdeal.HandRun.ops (F := Ideal)) VR (Proc.devRef .tc Cert.ReferenceIdeal.main_call1_call0_v0) := by
  rw [Cert.KernelIdeal.Final.fin_main_call1_call0_v0 m ρ c, Cert.ReferenceIdeal.HandRun.at_main_call1_call0_v0 VR, p_main_call1_call0_c__main_call1_call0_c m ρ c VR h]
  try rfl

theorem p_main_v39__main_v7 : Cert.KernelIdeal.Gen.W34 (F := Ideal) m ρ c (Proc.devRef .tc Cert.KernelIdeal.main_v39) = after (Cert.ReferenceIdeal.HandRun.ops (F := Ideal)) VR (Proc.devRef .tc Cert.ReferenceIdeal.main_v7) := by
  rw [Cert.KernelIdeal.Final.fin_main_v39 m ρ c, Cert.ReferenceIdeal.HandRun.at_main_v7 VR, p_main_v38__main_v6 m ρ c VR h, p_main_call1_call0_v0__main_call1_call0_v0 m ρ c VR h]
  try rfl

theorem p_main_c_10__main_c_2 : Cert.KernelIdeal.Gen.W34 (F := Ideal) m ρ c (Proc.devRef .tc Cert.KernelIdeal.main_c_10) = after (Cert.ReferenceIdeal.HandRun.ops (F := Ideal)) VR (Proc.devRef .tc Cert.ReferenceIdeal.main_c_2) := by
  rw [Cert.KernelIdeal.Final.fin_main_c_10 m ρ c, Cert.ReferenceIdeal.HandRun.at_main_c_2 VR]
  try rfl

theorem p_main_v41__main_v9 : Cert.KernelIdeal.Gen.W34 (F := Ideal) m ρ c (Proc.devRef .tc Cert.KernelIdeal.main_v41) = after (Cert.ReferenceIdeal.HandRun.ops (F := Ideal)) VR (Proc.devRef .tc Cert.ReferenceIdeal.main_v9) := by
  rw [Cert.KernelIdeal.Final.fin_main_v41 m ρ c, Cert.ReferenceIdeal.HandRun.at_main_v9 VR, p_main_c_10__main_c_2 m ρ c VR h]
  try rfl

theorem p_main_v42__main_v10 : Cert.KernelIdeal.Gen.W34 (F := Ideal) m ρ c (Proc.devRef .tc Cert.KernelIdeal.main_v42) = after (Cert.ReferenceIdeal.HandRun.ops (F := Ideal)) VR (Proc.devRef .tc Cert.ReferenceIdeal.main_v10) := by
  rw [Cert.KernelIdeal.Final.fin_main_v42 m ρ c, Cert.ReferenceIdeal.HandRun.at_main_v10 VR, p_main_v39__main_v7 m ρ c VR h, p_main_v41__main_v9 m ρ c VR h]
  try rfl

theorem p_main_c_11__main_c_3 : Cert.KernelIdeal.Gen.W34 (F := Ideal) m ρ c (Proc.devRef .tc Cert.KernelIdeal.main_c_11) = after (Cert.ReferenceIdeal.HandRun.ops (F := Ideal)) VR (Proc.devRef .tc Cert.ReferenceIdeal.main_c_3) := by
  rw [Cert.KernelIdeal.Final.fin_main_c_11 m ρ c, Cert.ReferenceIdeal.HandRun.at_main_c_3 VR]
  try rfl

theorem p_main_v43__main_v11 : Cert.KernelIdeal.Gen.W34 (F := Ideal) m ρ c (Proc.devRef .tc Cert.KernelIdeal.main_v43) = after (Cert.ReferenceIdeal.HandRun.ops (F := Ideal)) VR (Proc.devRef .tc Cert.ReferenceIdeal.main_v11) := by
  rw [Cert.KernelIdeal.Final.fin_main_v43 m ρ c, Cert.ReferenceIdeal.HandRun.at_main_v11 VR, p_main_c_11__main_c_3 m ρ c VR h]
  try rfl

theorem p_main_v44__main_v12 : Cert.KernelIdeal.Gen.W34 (F := Ideal) m ρ c (Proc.devRef .tc Cert.KernelIdeal.main_v44) = after (Cert.ReferenceIdeal.HandRun.ops (F := Ideal)) VR (Proc.devRef .tc Cert.ReferenceIdeal.main_v12) := by
  rw [Cert.KernelIdeal.Final.fin_main_v44 m ρ c, Cert.ReferenceIdeal.HandRun.at_main_v12 VR, p_main_v39__main_v7 m ρ c VR h, p_main_v43__main_v11 m ρ c VR h]
  try rfl

theorem p_main_v45__main_v13 : Cert.KernelIdeal.Gen.W34 (F := Ideal) m ρ c (Proc.devRef .tc Cert.KernelIdeal.main_v45) = after (Cert.ReferenceIdeal.HandRun.ops (F := Ideal)) VR (Proc.devRef .tc Cert.ReferenceIdeal.main_v13) := by
  rw [Cert.KernelIdeal.Final.fin_main_v45 m ρ c, Cert.ReferenceIdeal.HandRun.at_main_v13 VR, p_main_v42__main_v10 m ρ c VR h, p_main_v44__main_v12 m ρ c VR h, p_main_v39__main_v7 m ρ c VR h]
  try rfl

theorem p_main_v46__main_v14 : Cert.KernelIdeal.Gen.W34 (F := Ideal) m ρ c (Proc.devRef .tc Cert.KernelIdeal.main_v46) = after (Cert.ReferenceIdeal.HandRun.ops (F := Ideal)) VR (Proc.devRef .tc Cert.ReferenceIdeal.main_v14) := by
  rw [Cert.KernelIdeal.Final.fin_main_v46 m ρ c, Cert.ReferenceIdeal.HandRun.at_main_v14 VR, p_main_v45__main_v13 m ρ c VR h]
  try rfl

theorem p_main_c_12__main_c_4 : Cert.KernelIdeal.Gen.W34 (F := Ideal) m ρ c (Proc.devRef .tc Cert.KernelIdeal.main_c_12) = after (Cert.ReferenceIdeal.HandRun.ops (F := Ideal)) VR (Proc.devRef .tc Cert.ReferenceIdeal.main_c_4) := by
  rw [Cert.KernelIdeal.Final.fin_main_c_12 m ρ c, Cert.ReferenceIdeal.HandRun.at_main_c_4 VR]
  try rfl

theorem p_main_v47__main_v15 : Cert.KernelIdeal.Gen.W34 (F := Ideal) m ρ c (Proc.devRef .tc Cert.KernelIdeal.main_v47) = after (Cert.ReferenceIdeal.HandRun.ops (F := Ideal)) VR (Proc.devRef .tc Cert.ReferenceIdeal.main_v15) := by
  rw [Cert.KernelIdeal.Final.fin_main_v47 m ρ c, Cert.ReferenceIdeal.HandRun.at_main_v15 VR, p_main_c_12__main_c_4 m ρ c VR h]
  try rfl

theorem p_main_v48__main_v16 : Cert.KernelIdeal.Gen.W34 (F := Ideal) m ρ c (Proc.devRef .tc Cert.KernelIdeal.main_v48) = after (Cert.ReferenceIdeal.HandRun.ops (F := Ideal)) VR (Proc.devRef .tc Cert.ReferenceIdeal.main_v16) := by
  rw [Cert.KernelIdeal.Final.fin_main_v48 m ρ c, Cert.ReferenceIdeal.HandRun.at_main_v16 VR, p_main_v40__main_v8 m ρ c VR h, p_main_v46__main_v14 m ρ c VR h, p_main_v47__main_v15 m ρ c VR h]
  try rfl

theorem p_main_call2_call0_c__main_call2_call0_c : Cert.KernelIdeal.Gen.W34 (F := Ideal) m ρ c (Proc.devRef .tc Cert.KernelIdeal.main_call2_call0_c) = after (Cert.ReferenceIdeal.HandRun.ops (F := Ideal)) VR (Proc.devRef .tc Cert.ReferenceIdeal.main_call2_call0_c) := by
  rw [Cert.KernelIdeal.Final.fin_main_call2_call0_c m ρ c, Cert.ReferenceIdeal.HandRun.at_main_call2_call0_c VR]
  try rfl

theorem p_main_call2_call0_v0__main_call2_call0_v0 : Cert.KernelIdeal.Gen.W34 (F := Ideal) m ρ c (Proc.devRef .tc Cert.KernelIdeal.main_call2_call0_v0) = after (Cert.ReferenceIdeal.HandRun.ops (F := Ideal)) VR (Proc.devRef .tc Cert.ReferenceIdeal.main_call2_call0_v0) := by
  rw [Cert.KernelIdeal.Final.fin_main_call2_call0_v0 m ρ c, Cert.ReferenceIdeal.HandRun.at_main_call2_call0_v0 VR, p_main_call2_call0_c__main_call2_call0_c m ρ c VR h]
  try rfl

theorem p_main_v49__main_v17 : Cert.KernelIdeal.Gen.W34 (F := Ideal) m ρ c (Proc.devRef .tc Cert.KernelIdeal.main_v49) = after (Cert.ReferenceIdeal.HandRun.ops (F := Ideal)) VR (Proc.devRef .tc Cert.ReferenceIdeal.main_v17) := by
  rw [Cert.KernelIdeal.Final.fin_main_v49 m ρ c, Cert.ReferenceIdeal.HandRun.at_main_v17 VR, p_main_v48__main_v16 m ρ c VR h, p_main_call2_call0_v0__main_call2_call0_v0 m ρ c VR h]
  try rfl

theorem p_main_c_13__main_c_5 : Cert.KernelIdeal.Gen.W34 (F := Ideal) m ρ c (Proc.devRef .tc Cert.KernelIdeal.main_c_13) = after (Cert.ReferenceIdeal.HandRun.ops (F := Ideal)) VR (Proc.devRef .tc Cert.ReferenceIdeal.main_c_5) := by
  rw [Cert.KernelIdeal.Final.fin_main_c_13 m ρ c, Cert.ReferenceIdeal.HandRun.at_main_c_5 VR]
  try rfl

theorem p_main_v50__main_v18 : Cert.KernelIdeal.Gen.W34 (F := Ideal) m ρ c (Proc.devRef .tc Cert.KernelIdeal.main_v50) = after (Cert.ReferenceIdeal.HandRun.ops (F := Ideal)) VR (Proc.devRef .tc Cert.ReferenceIdeal.main_v18) := by
  rw [Cert.KernelIdeal.Final.fin_main_v50 m ρ c, Cert.ReferenceIdeal.HandRun.at_main_v18 VR, p_main_c_13__main_c_5 m ρ c VR h]
  try rfl

theorem p_main_v51__main_v19 : Cert.KernelIdeal.Gen.W34 (F := Ideal) m ρ c (Proc.devRef .tc Cert.KernelIdeal.main_v51) = after (Cert.ReferenceIdeal.HandRun.ops (F := Ideal)) VR (Proc.devRef .tc Cert.ReferenceIdeal.main_v19) := by
  rw [Cert.KernelIdeal.Final.fin_main_v51 m ρ c, Cert.ReferenceIdeal.HandRun.at_main_v19 VR, p_main_v49__main_v17 m ρ c VR h, p_main_v50__main_v18 m ρ c VR h]
  try rfl

theorem p_main_call3_c__main_call3_c : Cert.KernelIdeal.Gen.W34 (F := Ideal) m ρ c (Proc.devRef .tc Cert.KernelIdeal.main_call3_c) = after (Cert.ReferenceIdeal.HandRun.ops (F := Ideal)) VR (Proc.devRef .tc Cert.ReferenceIdeal.main_call3_c) := by
  rw [Cert.KernelIdeal.Final.fin_main_call3_c m ρ c, Cert.ReferenceIdeal.HandRun.at_main_call3_c VR]
  try rfl

theorem p_main_call3_v0__main_call3_v0 : Cert.KernelIdeal.Gen.W34 (F := Ideal) m ρ c (Proc.devRef .tc Cert.KernelIdeal.main_call3_v0) = after (Cert.ReferenceIdeal.HandRun.ops (F := Ideal)) VR (Proc.devRef .tc Cert.ReferenceIdeal.main_call3_v0) := by
  rw [Cert.KernelIdeal.Final.fin_main_call3_v0 m ρ c, Cert.ReferenceIdeal.HandRun.at_main_call3_v0 VR, p_main_call3_c__main_call3_c m ρ c VR h]
  try rfl

theorem p_main_call3_v1__main_call3_v1 : Cert.KernelIdeal.Gen.W34 (F := Ideal) m ρ c (Proc.devRef .tc Cert.KernelIdeal.main_call3_v1) = after (Cert.ReferenceIdeal.HandRun.ops (F := Ideal)) VR (Proc.devRef .tc Cert.ReferenceIdeal.main_call3_v1) := by
  rw [Cert.KernelIdeal.Final.fin_main_call3_v1 m ρ c, Cert.ReferenceIdeal.HandRun.at_main_call3_v1 VR, p_main_v51__main_v19 m ρ c VR h, p_main_call3_v0__main_call3_v0 m ρ c VR h]
  try rfl

theorem p_main_call3_c_0__main_call3_c_0 : Cert.KernelIdeal.Gen.W34 (F := Ideal) m ρ c (Proc.devRef .tc Cert.KernelIdeal.main_call3_c_0) = after (Cert.ReferenceIdeal.HandRun.ops (F := Ideal)) VR (Proc.devRef .tc Cert.ReferenceIdeal.main_call3_c_0) := by
  rw [Cert.KernelIdeal.Final.fin_main_call3_c_0 m ρ c, Cert.ReferenceIdeal.HandRun.at_main_call3_c_0 VR]
  try rfl

theorem p_main_call3_v2__main_call3_v2 : Cert.KernelIdeal.Gen.W34 (F := Ideal) m ρ c (Proc.devRef .tc Cert.KernelIdeal.main_call3_v2) = after (Cert.ReferenceIdeal.HandRun.ops (F := Ideal)) VR (Proc.devRef .tc Cert.ReferenceIdeal.main_call3_v2) := by
  rw [Cert.KernelIdeal.Final.fin_main_call3_v2 m ρ c, Cert.ReferenceIdeal.HandRun.at_main_call3_v2 VR, p_main_call3_c_0__main_call3_c_0 m ρ c VR h]
  try rfl

theorem p_main_call3_v3__main_call3_v3 : Cert.KernelIdeal.Gen.W34 (F := Ideal) m ρ c (Proc.devRef .tc Cert.KernelIdeal.main_call3_v3) = after (Cert.ReferenceIdeal.HandRun.ops (F := Ideal)) VR (Proc.devRef .tc Cert.ReferenceIdeal.main_call3_v3) := by
  rw [Cert.KernelIdeal.Final.fin_main_call3_v3 m ρ c, Cert.ReferenceIdeal.HandRun.at_main_call3_v3 VR, p_main_v51__main_v19 m ρ c VR h, p_main_call3_v2__main_call3_v2 m ρ c VR h]
  try rfl

theorem p_main_call3_v4__main_call3_v4 : Cert.KernelIdeal.Gen.W34 (F := Ideal) m ρ c (Proc.devRef .tc Cert.KernelIdeal.main_call3_v4) = after (Cert.ReferenceIdeal.HandRun.ops (F := Ideal)) VR (Proc.devRef .tc Cert.ReferenceIdeal.main_call3_v4) := by
  rw [Cert.KernelIdeal.Final.fin_main_call3_v4 m ρ c, Cert.ReferenceIdeal.HandRun.at_main_call3_v4 VR, p_main_call3_v1__main_call3_v1 m ρ c VR h, p_main_call3_v3__main_call3_v3 m ρ c VR h, p_main_v51__main_v19 m ρ c VR h]
  try rfl

theorem p_main_call3_v5__main_call3_v5 : Cert.KernelIdeal.Gen.W34 (F := Ideal) m ρ c (Proc.devRef .tc Cert.KernelIdeal.main_call3_v5) = after (Cert.ReferenceIdeal.HandRun.ops (F := Ideal)) VR (Proc.devRef .tc Cert.ReferenceIdeal.main_call3_v5) := by
  rw [Cert.KernelIdeal.Final.fin_main_call3_v5 m ρ c, Cert.ReferenceIdeal.HandRun.at_main_call3_v5 VR, p_main_call3_v4__main_call3_v4 m ρ c VR h]
  try rfl

theorem p_main_call3_c_2__main_call3_c_2 : Cert.KernelIdeal.Gen.W34 (F := Ideal) m ρ c (Proc.devRef .tc Cert.KernelIdeal.main_call3_c_2) = after (Cert.ReferenceIdeal.HandRun.ops (F := Ideal)) VR (Proc.devRef .tc Cert.ReferenceIdeal.main_call3_c_2) := by
  rw [Cert.KernelIdeal.Final.fin_main_call3_c_2 m ρ c, Cert.ReferenceIdeal.HandRun.at_main_call3_c_2 VR]
  try rfl

theorem p_main_call3_v6__main_call3_v6 : Cert.KernelIdeal.Gen.W34 (F := Ideal) m ρ c (Proc.devRef .tc Cert.KernelIdeal.main_call3_v6) = after (Cert.ReferenceIdeal.HandRun.ops (F := Ideal)) VR (Proc.devRef .tc Cert.ReferenceIdeal.main_call3_v6) := by
  rw [Cert.KernelIdeal.Final.fin_main_call3_v6 m ρ c, Cert.ReferenceIdeal.HandRun.at_main_call3_v6 VR, p_main_call3_c_2__main_call3_c_2 m ρ c VR h]
  try rfl

theorem p_main_call3_v7__main_call3_v7 : Cert.KernelIdeal.Gen.W34 (F := Ideal) m ρ c (Proc.devRef .tc Cert.KernelIdeal.main_call3_v7) = after (Cert.ReferenceIdeal.HandRun.ops (F := Ideal)) VR (Proc.devRef .tc Cert.ReferenceIdeal.main_call3_v7) := by
  rw [Cert.KernelIdeal.Final.fin_main_call3_v7 m ρ c, Cert.ReferenceIdeal.HandRun.at_main_call3_v7 VR, p_main_call3_v5__main_call3_v5 m ρ c VR h, p_main_call3_v6__main_call3_v6 m ρ c VR h]
  try rfl

theorem p_main_call3_c_1__main_call3_c_1 : Cert.KernelIdeal.Gen.W34 (F := Ideal) m ρ c (Proc.devRef .tc Cert.KernelIdeal.main_call3_c_1) = after (Cert.ReferenceIdeal.HandRun.ops (F := Ideal)) VR (Proc.devRef .tc Cert.ReferenceIdeal.main_call3_c_1) := by
  rw [Cert.KernelIdeal.Final.fin_main_call3_c_1 m ρ c, Cert.ReferenceIdeal.HandRun.at_main_call3_c_1 VR]
  try rfl

theorem p_main_call3_v8__main_call3_v8 : Cert.KernelIdeal.Gen.W34 (F := Ideal) m ρ c (Proc.devRef .tc Cert.KernelIdeal.main_call3_v8) = after (Cert.ReferenceIdeal.HandRun.ops (F := Ideal)) VR (Proc.devRef .tc Cert.ReferenceIdeal.main_call3_v8) := by
  rw [Cert.KernelIdeal.Final.fin_main_call3_v8 m ρ c, Cert.ReferenceIdeal.HandRun.at_main_call3_v8 VR, p_main_call3_c_1__main_call3_c_1 m ρ c VR h]
  try rfl

theorem p_main_call3_v9__main_call3_v9 : Cert.KernelIdeal.Gen.W34 (F := Ideal) m ρ c (Proc.devRef .tc Cert.KernelIdeal.main_call3_v9) = after (Cert.ReferenceIdeal.HandRun.ops (F := Ideal)) VR (Proc.devRef .tc Cert.ReferenceIdeal.main_call3_v9) := by
  rw [Cert.KernelIdeal.Final.fin_main_call3_v9 m ρ c, Cert.ReferenceIdeal.HandRun.at_main_call3_v9 VR, p_main_call3_v8__main_call3_v8 m ρ c VR h]
  try rfl

theorem p_main_call3_v10__main_call3_v10 : Cert.KernelIdeal.Gen.W34 (F := Ideal) m ρ c (Proc.devRef .tc Cert.KernelIdeal.main_call3_v10) = after (Cert.ReferenceIdeal.HandRun.ops (F := Ideal)) VR (Proc.devRef .tc Cert.ReferenceIdeal.main_call3_v10) := by
  rw [Cert.KernelIdeal.Final.fin_main_call3_v10 m ρ c, Cert.ReferenceIdeal.HandRun.at_main_call3_v10 VR, p_main_call3_v5__main_call3_v5 m ρ c VR h, p_main_call3_v9__main_call3_v9 m ρ c VR h]
  try rfl

theorem p_main_call3_v11__main_call3_v11 : Cert.KernelIdeal.Gen.W34 (F := Ideal) m ρ c (Proc.devRef .tc Cert.KernelIdeal.main_call3_v11) = after (Cert.ReferenceIdeal.HandRun.ops (F := Ideal)) VR (Proc.devRef .tc Cert.ReferenceIdeal.main_call3_v11) := by
  rw [Cert.KernelIdeal.Final.fin_main_call3_v11 m ρ c, Cert.ReferenceIdeal.HandRun.at_main_call3_v11 VR, p_main_call3_v7__main_call3_v7 m ρ c VR h, p_main_call3_v10__main_call3_v10 m ρ c VR h]
  try rfl

theorem p_main_call3_c_3__main_call3_c_3 : Cert.KernelIdeal.Gen.W34 (F := Ideal) m ρ c (Proc.devRef .tc Cert.KernelIdeal.main_call3_c_3) = after (Cert.ReferenceIdeal.HandRun.ops (F := Ideal)) VR (Proc.devRef .tc Cert.ReferenceIdeal.main_call3_c_3) := by
  rw [Cert.KernelIdeal.Final.fin_main_call3_c_3 m ρ c, Cert.ReferenceIdeal.HandRun.at_main_call3_c_3 VR]
  try rfl

theorem p_main_call3_v12__main_call3_v12 : Cert.KernelIdeal.Gen.W34 (F := Ideal) m ρ c (Proc.devRef .tc Cert.KernelIdeal.main_call3_v12) = after (Cert.ReferenceIdeal.HandRun.ops (F := Ideal)) VR (Proc.devRef .tc Cert.ReferenceIdeal.main_call3_v12) := by
  rw [Cert.KernelIdeal.Final.fin_main_call3_v12 m ρ c, Cert.ReferenceIdeal.HandRun.at_main_call3_v12 VR, p_main_call3_v11__main_call3_v11 m ρ c VR h, p_main_call3_c_3__main_call3_c_3 m ρ c VR h]
  try rfl

theorem p_main_call3_v14__main_call3_v14 : Cert.KernelIdeal.Gen.W34 (F := Ideal) m ρ c (Proc.devRef .tc Cert.KernelIdeal.main_call3_v14) = after (Cert.ReferenceIdeal.HandRun.ops (F := Ideal)) VR (Proc.devRef .tc Cert.ReferenceIdeal.main_call3_v14) := by
  rw [Cert.KernelIdeal.Final.fin_main_call3_v14 m ρ c, Cert.ReferenceIdeal.HandRun.at_main_call3_v14 VR, p_main_call3_v12__main_call3_v12 m ρ c VR h]
  try rfl

theorem p_main_call3_v13__main_call3_v13 : Cert.KernelIdeal.Gen.W34 (F := Ideal) m ρ c (Proc.devRef .tc Cert.KernelIdeal.main_call3_v13) = after (Cert.ReferenceIdeal.HandRun.ops (F := Ideal)) VR (Proc.devRef .tc Cert.ReferenceIdeal.main_call3_v13) := by
  rw [Cert.KernelIdeal.Final.fin_main_call3_v13 m ρ c, Cert.ReferenceIdeal.HandRun.at_main_call3_v13 VR, arg_main_arg2 ρ h, p_main_call3_v5__main_call3_v5 m ρ c VR h]
  try rfl

theorem p_main_call3_cst__main_call3_cst : Cert.KernelIdeal.Gen.W34 (F := Ideal) m ρ c (Proc.devRef .tc Cert.KernelIdeal.main_call3_cst) = after (Cert.ReferenceIdeal.HandRun.ops (F := Ideal)) VR (Proc.devRef .tc Cert.ReferenceIdeal.main_call3_cst) := by
  rw [Cert.KernelIdeal.Final.fin_main_call3_cst m ρ c, Cert.ReferenceIdeal.HandRun.at_main_call3_cst VR]
  try rfl

theorem p_main_call3_v15__main_call3_v15 : Cert.KernelIdeal.Gen.W34 (F := Ideal) m ρ c (Proc.devRef .tc Cert.KernelIdeal.main_call3_v15) = after (Cert.ReferenceIdeal.HandRun.ops (F := Ideal)) VR (Proc.devRef .tc Cert.ReferenceIdeal.main_call3_v15) := by
  rw [Cert.KernelIdeal.Final.fin_main_call3_v15 m ρ c, Cert.ReferenceIdeal.HandRun.at_main_call3_v15 VR, p_main_call3_cst__main_call3_cst m ρ c VR h]
  try rfl

theorem p_main_v52__main_v20 : Cert.KernelIdeal.Gen.W34 (F := Ideal) m ρ c (Proc.devRef .tc Cert.KernelIdeal.main_v52) = after (Cert.ReferenceIdeal.HandRun.ops (F := Ideal)) VR (Proc.devRef .tc Cert.ReferenceIdeal.main_v20) := by
  rw [Cert.KernelIdeal.Final.fin_main_v52 m ρ c, Cert.ReferenceIdeal.HandRun.at_main_v20 VR, p_main_call3_v14__main_call3_v14 m ρ c VR h, p_main_call3_v13__main_call3_v13 m ρ c VR h, p_main_call3_v15__main_call3_v15 m ρ c VR h]
  try rfl

theorem p_main_v4__main_v35 : Cert.KernelIdeal.Gen.W34 (F := Ideal) m ρ c (Proc.devRef .tc Cert.KernelIdeal.main_v4) = after (Cert.ReferenceIdeal.HandRun.ops (F := Ideal)) VR (Proc.devRef .tc Cert.ReferenceIdeal.main_v35) := by
  rw [Cert.KernelIdeal.Final.fin_main_v4 m ρ c, Cert.ReferenceIdeal.HandRun.at_main_v35 VR, arg_main_arg13 ρ h]
  try rfl

theorem p_main_v5__main_v36 : Cert.KernelIdeal.Gen.W34 (F := Ideal) m ρ c (Proc.devRef .tc Cert.KernelIdeal.main_v5) = after (Cert.ReferenceIdeal.HandRun.ops (F := Ideal)) VR (Proc.devRef .tc Cert.ReferenceIdeal.main_v36) := by
  rw [Cert.KernelIdeal.Final.fin_main_v5 m ρ c, Cert.ReferenceIdeal.HandRun.at_main_v36 VR, p_main_v4__main_v35 m ρ c VR h]
  try rfl

theorem p_main_c_3__main_c_10 : Cert.KernelIdeal.Gen.W34 (F := Ideal) m ρ c (Proc.devRef .tc Cert.KernelIdeal.main_c_3) = after (Cert.ReferenceIdeal.HandRun.ops (F := Ideal)) VR (Proc.devRef .tc Cert.ReferenceIdeal.main_c_10) := by
  rw [Cert.KernelIdeal.Final.fin_main_c_3 m ρ c, Cert.ReferenceIdeal.HandRun.at_main_c_10 VR]
  try rfl

theorem p_main_v22__main_v37 : Cert.KernelIdeal.Gen.W34 (F := Ideal) m ρ c (Proc.devRef .tc Cert.KernelIdeal.main_v22) = after (Cert.ReferenceIdeal.HandRun.ops (F := Ideal)) VR (Proc.devRef .tc Cert.ReferenceIdeal.main_v37) := by
  rw [Cert.KernelIdeal.Final.fin_main_v22 m ρ c, Cert.ReferenceIdeal.HandRun.at_main_v37 VR, p_main_c_3__main_c_10 m ρ c VR h]
  try rfl

theorem p_main_v23__main_v38 : Cert.KernelIdeal.Gen.W34 (F := Ideal) m ρ c (Proc.devRef .tc Cert.KernelIdeal.main_v23) = after (Cert.ReferenceIdeal.HandRun.ops (F := Ideal)) VR (Proc.devRef .tc Cert.ReferenceIdeal.main_v38) := by
  rw [Cert.KernelIdeal.Final.fin_main_v23 m ρ c, Cert.ReferenceIdeal.HandRun.at_main_v38 VR, p_main_v5__main_v36 m ρ c VR h, p_main_v22__main_v37 m ρ c VR h]
  try rfl

theorem p_main_c_4__main_c_11 : Cert.KernelIdeal.Gen.W34 (F := Ideal) m ρ c (Proc.devRef .tc Cert.KernelIdeal.main_c_4) = after (Cert.ReferenceIdeal.HandRun.ops (F := Ideal)) VR (Proc.devRef .tc Cert.ReferenceIdeal.main_c_11) := by
  rw [Cert.KernelIdeal.Final.fin_main_c_4 m ρ c, Cert.ReferenceIdeal.HandRun.at_main_c_11 VR]
  try rfl

theorem p_main_v24__main_v39 : Cert.KernelIdeal.Gen.W34 (F := Ideal) m ρ c (Proc.devRef .tc Cert.KernelIdeal.main_v24) = after (Cert.ReferenceIdeal.HandRun.ops (F := Ideal)) VR (Proc.devRef .tc Cert.ReferenceIdeal.main_v39) := by
  rw [Cert.KernelIdeal.Final.fin_main_v24 m ρ c, Cert.ReferenceIdeal.HandRun.at_main_v39 VR, p_main_c_4__main_c_11 m ρ c VR h]
  try rfl

theorem p_main_v25__main_v40 : Cert.KernelIdeal.Gen.W34 (F := Ideal) m ρ c (Proc.devRef .tc Cert.KernelIdeal.main_v25) = after (Cert.ReferenceIdeal.HandRun.ops (F := Ideal)) VR (Proc.devRef .tc Cert.ReferenceIdeal.main_v40) := by
  rw [Cert.KernelIdeal.Final.fin_main_v25 m ρ c, Cert.ReferenceIdeal.HandRun.at_main_v40 VR, p_main_v5__main_v36 m ρ c VR h, p_main_v24__main_v39 m ρ c VR h]
  try rfl

theorem p_main_v26__main_v41 : Cert.KernelIdeal.Gen.W34 (F := Ideal) m ρ c (Proc.devRef .tc Cert.KernelIdeal.main_v26) = after (Cert.ReferenceIdeal.HandRun.ops (F := Ideal)) VR (Proc.devRef .tc Cert.ReferenceIdeal.main_v41) := by
  rw [Cert.KernelIdeal.Final.fin_main_v26 m ρ c, Cert.ReferenceIdeal.HandRun.at_main_v41 VR, p_main_v23__main_v38 m ρ c VR h, p_main_v25__main_v40 m ρ c VR h, p_main_v5__main_v36 m ρ c VR h]
  try rfl

theorem p_main_v27__main_v42 : Cert.KernelIdeal.Gen.W34 (F := Ideal) m ρ c (Proc.devRef .tc Cert.KernelIdeal.main_v27) = after (Cert.ReferenceIdeal.HandRun.ops (F := Ideal)) VR (Proc.devRef .tc Cert.ReferenceIdeal.main_v42) := by
  rw [Cert.KernelIdeal.Final.fin_main_v27 m ρ c, Cert.ReferenceIdeal.HandRun.at_main_v42 VR, p_main_v26__main_v41 m ρ c VR h]
  try rfl

theorem p_main_v28__main_v43 : Cert.KernelIdeal.Gen.W34 (F := Ideal) m ρ c (Proc.devRef .tc Cert.KernelIdeal.main_v28) = after (Cert.ReferenceIdeal.HandRun.ops (F := Ideal)) VR (Proc.devRef .tc Cert.ReferenceIdeal.main_v43) := by
  rw [Cert.KernelIdeal.Final.fin_main_v28 m ρ c, Cert.ReferenceIdeal.HandRun.at_main_v43 VR, arg_main_arg3 ρ h, p_main_v27__main_v42 m ρ c VR h]
  try rfl

theorem p_main_v6__main_v44 : Cert.KernelIdeal.Gen.W34 (F := Ideal) m ρ c (Proc.devRef .tc Cert.KernelIdeal.main_v6) = after (Cert.ReferenceIdeal.HandRun.ops (F := Ideal)) VR (Proc.devRef .tc Cert.ReferenceIdeal.main_v44) := by
  rw [Cert.KernelIdeal.Final.fin_main_v6 m ρ c, Cert.ReferenceIdeal.HandRun.at_main_v44 VR, arg_main_arg13 ρ h]
  try rfl

theorem p_main_v7__main_v45 : Cert.KernelIdeal.Gen.W34 (F := Ideal) m ρ c (Proc.devRef .tc Cert.KernelIdeal.main_v7) = after (Cert.ReferenceIdeal.HandRun.ops (F := Ideal)) VR (Proc.devRef .tc Cert.ReferenceIdeal.main_v45) := by
  rw [Cert.KernelIdeal.Final.fin_main_v7 m ρ c, Cert.ReferenceIdeal.HandRun.at_main_v45 VR, p_main_v6__main_v44 m ρ c VR h]
  try rfl

theorem p_main_c_5__main_c_12 : Cert.KernelIdeal.Gen.W34 (F := Ideal) m ρ c (Proc.devRef .tc Cert.KernelIdeal.main_c_5) = after (Cert.ReferenceIdeal.HandRun.ops (F := Ideal)) VR (Proc.devRef .tc Cert.ReferenceIdeal.main_c_12) := by
  rw [Cert.KernelIdeal.Final.fin_main_c_5 m ρ c, Cert.ReferenceIdeal.HandRun.at_main_c_12 VR]
  try rfl

theorem p_main_v29__main_v46 : Cert.KernelIdeal.Gen.W34 (F := Ideal) m ρ c (Proc.devRef .tc Cert.KernelIdeal.main_v29) = after (Cert.ReferenceIdeal.HandRun.ops (F := Ideal)) VR (Proc.devRef .tc Cert.ReferenceIdeal.main_v46) := by
  rw [Cert.KernelIdeal.Final.fin_main_v29 m ρ c, Cert.ReferenceIdeal.HandRun.at_main_v46 VR, p_main_c_5__main_c_12 m ρ c VR h]
  try rfl

theorem p_main_v30__main_v47 : Cert.KernelIdeal.Gen.W34 (F := Ideal) m ρ c (Proc.devRef .tc Cert.KernelIdeal.main_v30) = after (Cert.ReferenceIdeal.HandRun.ops (F := Ideal)) VR (Proc.devRef .tc Cert.ReferenceIdeal.main_v47) := by
  rw [Cert.KernelIdeal.Final.fin_main_v30 m ρ c, Cert.ReferenceIdeal.HandRun.at_main_v47 VR, p_main_v7__main_v45 m ρ c VR h, p_main_v29__main_v46 m ρ c VR h]
  try rfl

theorem p_main_c_6__main_c_13 : Cert.KernelIdeal.Gen.W34 (F := Ideal) m ρ c (Proc.devRef .tc Cert.KernelIdeal.main_c_6) = after (Cert.ReferenceIdeal.HandRun.ops (F := Ideal)) VR (Proc.devRef .tc Cert.ReferenceIdeal.main_c_13) := by
  rw [Cert.KernelIdeal.Final.fin_main_c_6 m ρ c, Cert.ReferenceIdeal.HandRun.at_main_c_13 VR]
  try rfl

theorem p_main_v31__main_v48 : Cert.KernelIdeal.Gen.W34 (F := Ideal) m ρ c (Proc.devRef .tc Cert.KernelIdeal.main_v31) = after (Cert.ReferenceIdeal.HandRun.ops (F := Ideal)) VR (Proc.devRef .tc Cert.ReferenceIdeal.main_v48) := by
  rw [Cert.KernelIdeal.Final.fin_main_v31 m ρ c, Cert.ReferenceIdeal.HandRun.at_main_v48 VR, p_main_c_6__main_c_13 m ρ c VR h]
  try rfl

theorem p_main_v32__main_v49 : Cert.KernelIdeal.Gen.W34 (F := Ideal) m ρ c (Proc.devRef .tc Cert.KernelIdeal.main_v32) = after (Cert.ReferenceIdeal.HandRun.ops (F := Ideal)) VR (Proc.devRef .tc Cert.ReferenceIdeal.main_v49) := by
  rw [Cert.KernelIdeal.Final.fin_main_v32 m ρ c, Cert.ReferenceIdeal.HandRun.at_main_v49 VR, p_main_v7__main_v45 m ρ c VR h, p_main_v31__main_v48 m ρ c VR h]
  try rfl

theorem p_main_v33__main_v50 : Cert.KernelIdeal.Gen.W34 (F := Ideal) m ρ c (Proc.devRef .tc Cert.KernelIdeal.main_v33) = after (Cert.ReferenceIdeal.HandRun.ops (F := Ideal)) VR (Proc.devRef .tc Cert.ReferenceIdeal.main_v50) := by
  rw [Cert.KernelIdeal.Final.fin_main_v33 m ρ c, Cert.ReferenceIdeal.HandRun.at_main_v50 VR, p_main_v30__main_v47 m ρ c VR h, p_main_v32__main_v49 m ρ c VR h, p_main_v7__main_v45 m ρ c VR h]
  try rfl

theorem p_main_v34__main_v51 : Cert.KernelIdeal.Gen.W34 (F := Ideal) m ρ c (Proc.devRef .tc Cert.KernelIdeal.main_v34) = after (Cert.ReferenceIdeal.HandRun.ops (F := Ideal)) VR (Proc.devRef .tc Cert.ReferenceIdeal.main_v51) := by
  rw [Cert.KernelIdeal.Final.fin_main_v34 m ρ c, Cert.ReferenceIdeal.HandRun.at_main_v51 VR, p_main_v33__main_v50 m ρ c VR h]
  try rfl

theorem p_main_v35__main_v52 : Cert.KernelIdeal.Gen.W34 (F := Ideal) m ρ c (Proc.devRef .tc Cert.KernelIdeal.main_v35) = after (Cert.ReferenceIdeal.HandRun.ops (F := Ideal)) VR (Proc.devRef .tc Cert.ReferenceIdeal.main_v52) := by
  rw [Cert.KernelIdeal.Final.fin_main_v35 m ρ c, Cert.ReferenceIdeal.HandRun.at_main_v52 VR, arg_main_arg3 ρ h, p_main_v34__main_v51 m ρ c VR h]
  try rfl

theorem p_main_cst__main_cst : Cert.KernelIdeal.Gen.W34 (F := Ideal) m ρ c (Proc.devRef .tc Cert.KernelIdeal.main_cst) = after (Cert.ReferenceIdeal.HandRun.ops (F := Ideal)) VR (Proc.devRef .tc Cert.ReferenceIdeal.main_cst) := by
  rw [Cert.KernelIdeal.Final.fin_main_cst m ρ c, Cert.ReferenceIdeal.HandRun.at_main_cst VR]
  try rfl

theorem p_main_v61__main_v59 : Cert.KernelIdeal.Gen.W34 (F := Ideal) m ρ c (Proc.devRef .tc Cert.KernelIdeal.main_v61) = after (Cert.ReferenceIdeal.HandRun.ops (F := Ideal)) VR (Proc.devRef .tc Cert.ReferenceIdeal.main_v59) := by
  rw [Cert.KernelIdeal.Final.fin_main_v61 m ρ c, Cert.ReferenceIdeal.HandRun.at_main_v59 VR, p_main_cst__main_cst m ρ c VR h]
  try rfl

theorem p_main_v62__main_v60 : Cert.KernelIdeal.Gen.W34 (F := Ideal) m ρ c (Proc.devRef .tc Cert.KernelIdeal.main_v62) = after (Cert.ReferenceIdeal.HandRun.ops (F := Ideal)) VR (Proc.devRef .tc Cert.ReferenceIdeal.main_v60) := by
  rw [Cert.KernelIdeal.Final.fin_main_v62 m ρ c, Cert.ReferenceIdeal.HandRun.at_main_v60 VR, p_main_v1__main_v1 m ρ c VR h]
  try rfl

theorem p_main_cst_14__main_cst_14 : Cert.KernelIdeal.Gen.W34 (F := Ideal) m ρ c (Proc.devRef .tc Cert.KernelIdeal.main_cst_14) = after (Cert.ReferenceIdeal.HandRun.ops (F := Ideal)) VR (Proc.devRef .tc Cert.ReferenceIdeal.main_cst_14) := by
  rw [Cert.KernelIdeal.Final.fin_main_cst_14 m ρ c, Cert.ReferenceIdeal.HandRun.at_main_cst_14 VR]
  try rfl

theorem p_main_v64__main_v62 : Cert.KernelIdeal.Gen.W34 (F := Ideal) m ρ c (Proc.devRef .tc Cert.KernelIdeal.main_v64) = after (Cert.ReferenceIdeal.HandRun.ops (F := Ideal)) VR (Proc.devRef .tc Cert.ReferenceIdeal.main_v62) := by
  rw [Cert.KernelIdeal.Final.fin_main_v64 m ρ c, Cert.ReferenceIdeal.HandRun.at_main_v62 VR, p_main_cst_14__main_cst_14 m ρ c VR h]
  try rfl

theorem p_main_v65__main_v63 : Cert.KernelIdeal.Gen.W34 (F := Ideal) m ρ c (Proc.devRef .tc Cert.KernelIdeal.main_v65) = after (Cert.ReferenceIdeal.HandRun.ops (F := Ideal)) VR (Proc.devRef .tc Cert.ReferenceIdeal.main_v63) := by
  rw [Cert.KernelIdeal.Final.fin_main_v65 m ρ c, Cert.ReferenceIdeal.HandRun.at_main_v63 VR, p_main_v3__main_v3 m ρ c VR h]
  try rfl

theorem p_main_c_17__main_c_17 : Cert.KernelIdeal.Gen.W34 (F := Ideal) m ρ c (Proc.devRef .tc Cert.KernelIdeal.main_c_17) = after (Cert.ReferenceIdeal.HandRun.ops (F := Ideal)) VR (Proc.devRef .tc Cert.ReferenceIdeal.main_c_17) := by
  rw [Cert.KernelIdeal.Final.fin_main_c_17 m ρ c, Cert.ReferenceIdeal.HandRun.at_main_c_17 VR]
  try rfl

theorem p_main_v71__main_v69 : Cert.KernelIdeal.Gen.W34 (F := Ideal) m ρ c (Proc.devRef .tc Cert.KernelIdeal.main_v71) = after (Cert.ReferenceIdeal.HandRun.ops (F := Ideal)) VR (Proc.devRef .tc Cert.ReferenceIdeal.main_v69) := by
  rw [Cert.KernelIdeal.Final.fin_main_v71 m ρ c, Cert.ReferenceIdeal.HandRun.at_main_v69 VR, p_main_c_17__main_c_17 m ρ c VR h]
  try rfl

theorem p_main_call4_v0__main_call5_v0 : Cert.KernelIdeal.Gen.W34 (F := Ideal) m ρ c (Proc.devRef .tc Cert.KernelIdeal.main_call4_v0) = after (Cert.ReferenceIdeal.HandRun.ops (F := Ideal)) VR (Proc.devRef .tc Cert.ReferenceIdeal.main_call5_v0) := by
  rw [Cert.KernelIdeal.Final.fin_main_call4_v0 m ρ c, Cert.ReferenceIdeal.HandRun.at_main_call5_v0 VR, arg_main_arg18 ρ h]
  try rfl

theorem p_main_call4_v1__main_call5_v1 : Cert.KernelIdeal.Gen.W34 (F := Ideal) m ρ c (Proc.devRef .tc Cert.KernelIdeal.main_call4_v1) = after (Cert.ReferenceIdeal.HandRun.ops (F := Ideal)) VR (Proc.devRef .tc Cert.ReferenceIdeal.main_call5_v1) := by
  rw [Cert.KernelIdeal.Final.fin_main_call4_v1 m ρ c, Cert.ReferenceIdeal.HandRun.at_main_call5_v1 VR, arg_main_arg18 ρ h]
  try rfl

theorem p_main_v67__main_v65 : Cert.KernelIdeal.Gen.W34 (F := Ideal) m ρ c (Proc.devRef .tc Cert.KernelIdeal.main_v67) = after (Cert.ReferenceIdeal.HandRun.ops (F := Ideal)) VR (Proc.devRef .tc Cert.ReferenceIdeal.main_v65) := by
  rw [Cert.KernelIdeal.Final.fin_main_v67 m ρ c, Cert.ReferenceIdeal.HandRun.at_main_v65 VR, p_main_call4_v0__main_call5_v0 m ρ c VR h, p_main_call4_v1__main_call5_v1 m ρ c VR h]
  try rfl

theorem p_main_c_15__main_c_15 : Cert.KernelIdeal.Gen.W34 (F := Ideal) m ρ c (Proc.devRef .tc Cert.KernelIdeal.main_c_15) = after (Cert.ReferenceIdeal.HandRun.ops (F := Ideal)) VR (Proc.devRef .tc Cert.ReferenceIdeal.main_c_15) := by
  rw [Cert.KernelIdeal.Final.fin_main_c_15 m ρ c, Cert.ReferenceIdeal.HandRun.at_main_c_15 VR]
  try rfl

theorem p_main_v68__main_v66 : Cert.KernelIdeal.Gen.W34 (F := Ideal) m ρ c (Proc.devRef .tc Cert.KernelIdeal.main_v68) = after (Cert.ReferenceIdeal.HandRun.ops (F := Ideal)) VR (Proc.devRef .tc Cert.ReferenceIdeal.main_v66) := by
  rw [Cert.KernelIdeal.Final.fin_main_v68 m ρ c, Cert.ReferenceIdeal.HandRun.at_main_v66 VR, p_main_c_15__main_c_15 m ρ c VR h]
  try rfl

theorem p_main_c_16__main_c_16 : Cert.KernelIdeal.Gen.W34 (F := Ideal) m ρ c (Proc.devRef .tc Cert.KernelIdeal.main_c_16) = after (Cert.ReferenceIdeal.HandRun.ops (F := Ideal)) VR (Proc.devRef .tc Cert.ReferenceIdeal.main_c_16) := by
  rw [Cert.KernelIdeal.Final.fin_main_c_16 m ρ c, Cert.ReferenceIdeal.HandRun.at_main_c_16 VR]
  try rfl

theorem p_main_v69__main_v67 : Cert.KernelIdeal.Gen.W34 (F := Ideal) m ρ c (Proc.devRef .tc Cert.KernelIdeal.main_v69) = after (Cert.ReferenceIdeal.HandRun.ops (F := Ideal)) VR (Proc.devRef .tc Cert.ReferenceIdeal.main_v67) := by
  rw [Cert.KernelIdeal.Final.fin_main_v69 m ρ c, Cert.ReferenceIdeal.HandRun.at_main_v67 VR, p_main_v67__main_v65 m ρ c VR h, p_main_v68__main_v66 m ρ c VR h, p_main_c_16__main_c_16 m ρ c VR h]
  try rfl

theorem p_main_call5_call0_c__main_call6_call0_c : Cert.KernelIdeal.Gen.W34 (F := Ideal) m ρ c (Proc.devRef .tc Cert.KernelIdeal.main_call5_call0_c) = after (Cert.ReferenceIdeal.HandRun.ops (F := Ideal)) VR (Proc.devRef .tc Cert.ReferenceIdeal.main_call6_call0_c) := by
  rw [Cert.KernelIdeal.Final.fin_main_call5_call0_c m ρ c, Cert.ReferenceIdeal.HandRun.at_main_call6_call0_c VR]
  try rfl

theorem p_main_call5_call0_v0__main_call6_call0_v0 : Cert.KernelIdeal.Gen.W34 (F := Ideal) m ρ c (Proc.devRef .tc Cert.KernelIdeal.main_call5_call0_v0) = after (Cert.ReferenceIdeal.HandRun.ops (F := Ideal)) VR (Proc.devRef .tc Cert.ReferenceIdeal.main_call6_call0_v0) := by
  rw [Cert.KernelIdeal.Final.fin_main_call5_call0_v0 m ρ c, Cert.ReferenceIdeal.HandRun.at_main_call6_call0_v0 VR, p_main_call5_call0_c__main_call6_call0_c m ρ c VR h]
  try rfl

theorem p_main_v70__main_v68 : Cert.KernelIdeal.Gen.W34 (F := Ideal) m ρ c (Proc.devRef .tc Cert.KernelIdeal.main_v70) = after (Cert.ReferenceIdeal.HandRun.ops (F := Ideal)) VR (Proc.devRef .tc Cert.ReferenceIdeal.main_v68) := by
  rw [Cert.KernelIdeal.Final.fin_main_v70 m ρ c, Cert.ReferenceIdeal.HandRun.at_main_v68 VR, p_main_v69__main_v67 m ρ c VR h, p_main_call5_call0_v0__main_call6_call0_v0 m ρ c VR h]
  try rfl

theorem p_main_c_18__main_c_18 : Cert.KernelIdeal.Gen.W34 (F := Ideal) m ρ c (Proc.devRef .tc Cert.KernelIdeal.main_c_18) = after (Cert.ReferenceIdeal.HandRun.ops (F := Ideal)) VR (Proc.devRef .tc Cert.ReferenceIdeal.main_c_18) := by
  rw [Cert.KernelIdeal.Final.fin_main_c_18 m ρ c, Cert.ReferenceIdeal.HandRun.at_main_c_18 VR]
  try rfl

theorem p_main_v72__main_v70 : Cert.KernelIdeal.Gen.W34 (F := Ideal) m ρ c (Proc.devRef .tc Cert.KernelIdeal.main_v72) = after (Cert.ReferenceIdeal.HandRun.ops (F := Ideal)) VR (Proc.devRef .tc Cert.ReferenceIdeal.main_v70) := by
  rw [Cert.KernelIdeal.Final.fin_main_v72 m ρ c, Cert.ReferenceIdeal.HandRun.at_main_v70 VR, p_main_c_18__main_c_18 m ρ c VR h]
  try rfl

theorem p_main_v73__main_v71 : Cert.KernelIdeal.Gen.W34 (F := Ideal) m ρ c (Proc.devRef .tc Cert.KernelIdeal.main_v73) = after (Cert.ReferenceIdeal.HandRun.ops (F := Ideal)) VR (Proc.devRef .tc Cert.ReferenceIdeal.main_v71) := by
  rw [Cert.KernelIdeal.Final.fin_main_v73 m ρ c, Cert.ReferenceIdeal.HandRun.at_main_v71 VR, p_main_v70__main_v68 m ρ c VR h, p_main_v72__main_v70 m ρ c VR h]
  try rfl

theorem p_main_c_19__main_c_19 : Cert.KernelIdeal.Gen.W34 (F := Ideal) m ρ c (Proc.devRef .tc Cert.KernelIdeal.main_c_19) = after (Cert.ReferenceIdeal.HandRun.ops (F := Ideal)) VR (Proc.devRef .tc Cert.ReferenceIdeal.main_c_19) := by
  rw [Cert.KernelIdeal.Final.fin_main_c_19 m ρ c, Cert.ReferenceIdeal.HandRun.at_main_c_19 VR]
  try rfl

theorem p_main_v74__main_v72 : Cert.KernelIdeal.Gen.W34 (F := Ideal) m ρ c (Proc.devRef .tc Cert.KernelIdeal.main_v74) = after (Cert.ReferenceIdeal.HandRun.ops (F := Ideal)) VR (Proc.devRef .tc Cert.ReferenceIdeal.main_v72) := by
  rw [Cert.KernelIdeal.Final.fin_main_v74 m ρ c, Cert.ReferenceIdeal.HandRun.at_main_v72 VR, p_main_c_19__main_c_19 m ρ c VR h]
  try rfl

theorem p_main_v75__main_v73 : Cert.KernelIdeal.Gen.W34 (F := Ideal) m ρ c (Proc.devRef .tc Cert.KernelIdeal.main_v75) = after (Cert.ReferenceIdeal.HandRun.ops (F := Ideal)) VR (Proc.devRef .tc Cert.ReferenceIdeal.main_v73) := by
  rw [Cert.KernelIdeal.Final.fin_main_v75 m ρ c, Cert.ReferenceIdeal.HandRun.at_main_v73 VR, p_main_v70__main_v68 m ρ c VR h, p_main_v74__main_v72 m ρ c VR h]
  try rfl

theorem p_main_v76__main_v74 : Cert.KernelIdeal.Gen.W34 (F := Ideal) m ρ c (Proc.devRef .tc Cert.KernelIdeal.main_v76) = after (Cert.ReferenceIdeal.HandRun.ops (F := Ideal)) VR (Proc.devRef .tc Cert.ReferenceIdeal.main_v74) := by
  rw [Cert.KernelIdeal.Final.fin_main_v76 m ρ c, Cert.ReferenceIdeal.HandRun.at_main_v74 VR, p_main_v73__main_v71 m ρ c VR h, p_main_v75__main_v73 m ρ c VR h, p_main_v70__main_v68 m ρ c VR h]
  try rfl

theorem p_main_v77__main_v75 : Cert.KernelIdeal.Gen.W34 (F := Ideal) m ρ c (Proc.devRef .tc Cert.KernelIdeal.main_v77) = after (Cert.ReferenceIdeal.HandRun.ops (F := Ideal)) VR (Proc.devRef .tc Cert.ReferenceIdeal.main_v75) := by
  rw [Cert.KernelIdeal.Final.fin_main_v77 m ρ c, Cert.ReferenceIdeal.HandRun.at_main_v75 VR, p_main_v76__main_v74 m ρ c VR h]
  try rfl

theorem p_main_c_20__main_c_20 : Cert.KernelIdeal.Gen.W34 (F := Ideal) m ρ c (Proc.devRef .tc Cert.KernelIdeal.main_c_20) = after (Cert.ReferenceIdeal.HandRun.ops (F := Ideal)) VR (Proc.devRef .tc Cert.ReferenceIdeal.main_c_20) := by
  rw [Cert.KernelIdeal.Final.fin_main_c_20 m ρ c, Cert.ReferenceIdeal.HandRun.at_main_c_20 VR]
  try rfl

theorem p_main_v78__main_v76 : Cert.KernelIdeal.Gen.W34 (F := Ideal) m ρ c (Proc.devRef .tc Cert.KernelIdeal.main_v78) = after (Cert.ReferenceIdeal.HandRun.ops (F := Ideal)) VR (Proc.devRef .tc Cert.ReferenceIdeal.main_v76) := by
  rw [Cert.KernelIdeal.Final.fin_main_v78 m ρ c, Cert.ReferenceIdeal.HandRun.at_main_v76 VR, p_main_c_20__main_c_20 m ρ c VR h]
  try rfl

theorem p_main_v79__main_v77 : Cert.KernelIdeal.Gen.W34 (F := Ideal) m ρ c (Proc.devRef .tc Cert.KernelIdeal.main_v79) = after (Cert.ReferenceIdeal.HandRun.ops (F := Ideal)) VR (Proc.devRef .tc Cert.ReferenceIdeal.main_v77) := by
  rw [Cert.KernelIdeal.Final.fin_main_v79 m ρ c, Cert.ReferenceIdeal.HandRun.at_main_v77 VR, p_main_v71__main_v69 m ρ c VR h, p_main_v77__main_v75 m ρ c VR h, p_main_v78__main_v76 m ρ c VR h]
  try rfl

theorem p_main_call6_call0_c__main_call7_call0_c : Cert.KernelIdeal.Gen.W34 (F := Ideal) m ρ c (Proc.devRef .tc Cert.KernelIdeal.main_call6_call0_c) = after (Cert.ReferenceIdeal.HandRun.ops (F := Ideal)) VR (Proc.devRef .tc Cert.ReferenceIdeal.main_call7_call0_c) := by
  rw [Cert.KernelIdeal.Final.fin_main_call6_call0_c m ρ c, Cert.ReferenceIdeal.HandRun.at_main_call7_call0_c VR]
  try rfl

theorem p_main_call6_call0_v0__main_call7_call0_v0 : Cert.KernelIdeal.Gen.W34 (F := Ideal) m ρ c (Proc.devRef .tc Cert.KernelIdeal.main_call6_call0_v0) = after (Cert.ReferenceIdeal.HandRun.ops (F := Ideal)) VR (Proc.devRef .tc Cert.ReferenceIdeal.main_call7_call0_v0) := by
  rw [Cert.KernelIdeal.Final.fin_main_call6_call0_v0 m ρ c, Cert.ReferenceIdeal.HandRun.at_main_call7_call0_v0 VR, p_main_call6_call0_c__main_call7_call0_c m ρ c VR h]
  try rfl

theorem p_main_v80__main_v78 : Cert.KernelIdeal.Gen.W34 (F := Ideal) m ρ c (Proc.devRef .tc Cert.KernelIdeal.main_v80) = after (Cert.ReferenceIdeal.HandRun.ops (F := Ideal)) VR (Proc.devRef .tc Cert.ReferenceIdeal.main_v78) := by
  rw [Cert.KernelIdeal.Final.fin_main_v80 m ρ c, Cert.ReferenceIdeal.HandRun.at_main_v78 VR, p_main_v79__main_v77 m ρ c VR h, p_main_call6_call0_v0__main_call7_call0_v0 m ρ c VR h]
  try rfl

theorem p_main_c_21__main_c_21 : Cert.KernelIdeal.Gen.W34 (F := Ideal) m ρ c (Proc.devRef .tc Cert.KernelIdeal.main_c_21) = after (Cert.ReferenceIdeal.HandRun.ops (F := Ideal)) VR (Proc.devRef .tc Cert.ReferenceIdeal.main_c_21) := by
  rw [Cert.KernelIdeal.Final.fin_main_c_21 m ρ c, Cert.ReferenceIdeal.HandRun.at_main_c_21 VR]
  try rfl

theorem p_main_v81__main_v79 : Cert.KernelIdeal.Gen.W34 (F := Ideal) m ρ c (Proc.devRef .tc Cert.KernelIdeal.main_v81) = after (Cert.ReferenceIdeal.HandRun.ops (F := Ideal)) VR (Proc.devRef .tc Cert.ReferenceIdeal.main_v79) := by
  rw [Cert.KernelIdeal.Final.fin_main_v81 m ρ c, Cert.ReferenceIdeal.HandRun.at_main_v79 VR, p_main_c_21__main_c_21 m ρ c VR h]
  try rfl

theorem p_main_v82__main_v80 : Cert.KernelIdeal.Gen.W34 (F := Ideal) m ρ c (Proc.devRef .tc Cert.KernelIdeal.main_v82) = after (Cert.ReferenceIdeal.HandRun.ops (F := Ideal)) VR (Proc.devRef .tc Cert.ReferenceIdeal.main_v80) := by
  rw [Cert.KernelIdeal.Final.fin_main_v82 m ρ c, Cert.ReferenceIdeal.HandRun.at_main_v80 VR, p_main_v80__main_v78 m ρ c VR h, p_main_v81__main_v79 m ρ c VR h]
  try rfl

theorem p_main_call7_c__main_call8_c : Cert.KernelIdeal.Gen.W34 (F := Ideal) m ρ c (Proc.devRef .tc Cert.KernelIdeal.main_call7_c) = after (Cert.ReferenceIdeal.HandRun.ops (F := Ideal)) VR (Proc.devRef .tc Cert.ReferenceIdeal.main_call8_c) := by
  rw [Cert.KernelIdeal.Final.fin_main_call7_c m ρ c, Cert.ReferenceIdeal.HandRun.at_main_call8_c VR]
  try rfl

theorem p_main_call7_v0__main_call8_v0 : Cert.KernelIdeal.Gen.W34 (F := Ideal) m ρ c (Proc.devRef .tc Cert.KernelIdeal.main_call7_v0) = after (Cert.ReferenceIdeal.HandRun.ops (F := Ideal)) VR (Proc.devRef .tc Cert.ReferenceIdeal.main_call8_v0) := by
  rw [Cert.KernelIdeal.Final.fin_main_call7_v0 m ρ c, Cert.ReferenceIdeal.HandRun.at_main_call8_v0 VR, p_main_call7_c__main_call8_c m ρ c VR h]
  try rfl

theorem p_main_call7_v1__main_call8_v1 : Cert.KernelIdeal.Gen.W34 (F := Ideal) m ρ c (Proc.devRef .tc Cert.KernelIdeal.main_call7_v1) = after (Cert.ReferenceIdeal.HandRun.ops (F := Ideal)) VR (Proc.devRef .tc Cert.ReferenceIdeal.main_call8_v1) := by
  rw [Cert.KernelIdeal.Final.fin_main_call7_v1 m ρ c, Cert.ReferenceIdeal.HandRun.at_main_call8_v1 VR, p_main_v82__main_v80 m ρ c VR h, p_main_call7_v0__main_call8_v0 m ρ c VR h]
  try rfl

theorem p_main_call7_c_0__main_call8_c_0 : Cert.KernelIdeal.Gen.W34 (F := Ideal) m ρ c (Proc.devRef .tc Cert.KernelIdeal.main_call7_c_0) = after (Cert.ReferenceIdeal.HandRun.ops (F := Ideal)) VR (Proc.devRef .tc Cert.ReferenceIdeal.main_call8_c_0) := by
  rw [Cert.KernelIdeal.Final.fin_main_call7_c_0 m ρ c, Cert.ReferenceIdeal.HandRun.at_main_call8_c_0 VR]
  try rfl

theorem p_main_call7_v2__main_call8_v2 : Cert.KernelIdeal.Gen.W34 (F := Ideal) m ρ c (Proc.devRef .tc Cert.KernelIdeal.main_call7_v2) = after (Cert.ReferenceIdeal.HandRun.ops (F := Ideal)) VR (Proc.devRef .tc Cert.ReferenceIdeal.main_call8_v2) := by
  rw [Cert.KernelIdeal.Final.fin_main_call7_v2 m ρ c, Cert.ReferenceIdeal.HandRun.at_main_call8_v2 VR, p_main_call7_c_0__main_call8_c_0 m ρ c VR h]
  try rfl

theorem p_main_call7_v3__main_call8_v3 : Cert.KernelIdeal.Gen.W34 (F := Ideal) m ρ c (Proc.devRef .tc Cert.KernelIdeal.main_call7_v3) = after (Cert.ReferenceIdeal.HandRun.ops (F := Ideal)) VR (Proc.devRef .tc Cert.ReferenceIdeal.main_call8_v3) := by
  rw [Cert.KernelIdeal.Final.fin_main_call7_v3 m ρ c, Cert.ReferenceIdeal.HandRun.at_main_call8_v3 VR, p_main_v82__main_v80 m ρ c VR h, p_main_call7_v2__main_call8_v2 m ρ c VR h]
  try rfl

theorem p_main_call7_v4__main_call8_v4 : Cert.KernelIdeal.Gen.W34 (F := Ideal) m ρ c (Proc.devRef .tc Cert.KernelIdeal.main_call7_v4) = after (Cert.ReferenceIdeal.HandRun.ops (F := Ideal)) VR (Proc.devRef .tc Cert.ReferenceIdeal.main_call8_v4) := by
  rw [Cert.KernelIdeal.Final.fin_main_call7_v4 m ρ c, Cert.ReferenceIdeal.HandRun.at_main_call8_v4 VR, p_main_call7_v1__main_call8_v1 m ρ c VR h, p_main_call7_v3__main_call8_v3 m ρ c VR h, p_main_v82__main_v80 m ρ c VR h]
  try rfl

theorem p_main_call7_v5__main_call8_v5 : Cert.KernelIdeal.Gen.W34 (F := Ideal) m ρ c (Proc.devRef .tc Cert.KernelIdeal.main_call7_v5) = after (Cert.ReferenceIdeal.HandRun.ops (F := Ideal)) VR (Proc.devRef .tc Cert.ReferenceIdeal.main_call8_v5) := by
  rw [Cert.KernelIdeal.Final.fin_main_call7_v5 m ρ c, Cert.ReferenceIdeal.HandRun.at_main_call8_v5 VR, p_main_call7_v4__main_call8_v4 m ρ c VR h]
  try rfl

theorem p_main_call7_c_2__main_call8_c_2 : Cert.KernelIdeal.Gen.W34 (F := Ideal) m ρ c (Proc.devRef .tc Cert.KernelIdeal.main_call7_c_2) = after (Cert.ReferenceIdeal.HandRun.ops (F := Ideal)) VR (Proc.devRef .tc Cert.ReferenceIdeal.main_call8_c_2) := by
  rw [Cert.KernelIdeal.Final.fin_main_call7_c_2 m ρ c, Cert.ReferenceIdeal.HandRun.at_main_call8_c_2 VR]
  try rfl

theorem p_main_call7_v6__main_call8_v6 : Cert.KernelIdeal.Gen.W34 (F := Ideal) m ρ c (Proc.devRef .tc Cert.KernelIdeal.main_call7_v6) = after (Cert.ReferenceIdeal.HandRun.ops (F := Ideal)) VR (Proc.devRef .tc Cert.ReferenceIdeal.main_call8_v6) := by
  rw [Cert.KernelIdeal.Final.fin_main_call7_v6 m ρ c, Cert.ReferenceIdeal.HandRun.at_main_call8_v6 VR, p_main_call7_c_2__main_call8_c_2 m ρ c VR h]
  try rfl

theorem p_main_call7_v7__main_call8_v7 : Cert.KernelIdeal.Gen.W34 (F := Ideal) m ρ c (Proc.devRef .tc Cert.KernelIdeal.main_call7_v7) = after (Cert.ReferenceIdeal.HandRun.ops (F := Ideal)) VR (Proc.devRef .tc Cert.ReferenceIdeal.main_call8_v7) := by
  rw [Cert.KernelIdeal.Final.fin_main_call7_v7 m ρ c, Cert.ReferenceIdeal.HandRun.at_main_call8_v7 VR, p_main_call7_v5__main_call8_v5 m ρ c VR h, p_main_call7_v6__main_call8_v6 m ρ c VR h]
  try rfl

theorem p_main_call7_c_1__main_call8_c_1 : Cert.KernelIdeal.Gen.W34 (F := Ideal) m ρ c (Proc.devRef .tc Cert.KernelIdeal.main_call7_c_1) = after (Cert.ReferenceIdeal.HandRun.ops (F := Ideal)) VR (Proc.devRef .tc Cert.ReferenceIdeal.main_call8_c_1) := by
  rw [Cert.KernelIdeal.Final.fin_main_call7_c_1 m ρ c, Cert.ReferenceIdeal.HandRun.at_main_call8_c_1 VR]
  try rfl

theorem p_main_call7_v8__main_call8_v8 : Cert.KernelIdeal.Gen.W34 (F := Ideal) m ρ c (Proc.devRef .tc Cert.KernelIdeal.main_call7_v8) = after (Cert.ReferenceIdeal.HandRun.ops (F := Ideal)) VR (Proc.devRef .tc Cert.ReferenceIdeal.main_call8_v8) := by
  rw [Cert.KernelIdeal.Final.fin_main_call7_v8 m ρ c, Cert.ReferenceIdeal.HandRun.at_main_call8_v8 VR, p_main_call7_c_1__main_call8_c_1 m ρ c VR h]
  try rfl

theorem p_main_call7_v9__main_call8_v9 : Cert.KernelIdeal.Gen.W34 (F := Ideal) m ρ c (Proc.devRef .tc Cert.KernelIdeal.main_call7_v9) = after (Cert.ReferenceIdeal.HandRun.ops (F := Ideal)) VR (Proc.devRef .tc Cert.ReferenceIdeal.main_call8_v9) := by
  rw [Cert.KernelIdeal.Final.fin_main_call7_v9 m ρ c, Cert.ReferenceIdeal.HandRun.at_main_call8_v9 VR, p_main_call7_v8__main_call8_v8 m ρ c VR h]
  try rfl

theorem p_main_call7_v10__main_call8_v10 : Cert.KernelIdeal.Gen.W34 (F := Ideal) m ρ c (Proc.devRef .tc Cert.KernelIdeal.main_call7_v10) = after (Cert.ReferenceIdeal.HandRun.ops (F := Ideal)) VR (Proc.devRef .tc Cert.ReferenceIdeal.main_call8_v10) := by
  rw [Cert.KernelIdeal.Final.fin_main_call7_v10 m ρ c, Cert.ReferenceIdeal.HandRun.at_main_call8_v10 VR, p_main_call7_v5__main_call8_v5 m ρ c VR h, p_main_call7_v9__main_call8_v9 m ρ c VR h]
  try rfl

theorem p_main_call7_v11__main_call8_v11 : Cert.KernelIdeal.Gen.W34 (F := Ideal) m ρ c (Proc.devRef .tc Cert.KernelIdeal.main_call7_v11) = after (Cert.ReferenceIdeal.HandRun.ops (F := Ideal)) VR (Proc.devRef .tc Cert.ReferenceIdeal.main_call8_v11) := by
  rw [Cert.KernelIdeal.Final.fin_main_call7_v11 m ρ c, Cert.ReferenceIdeal.HandRun.at_main_call8_v11 VR, p_main_call7_v7__main_call8_v7 m ρ c VR h, p_main_call7_v10__main_call8_v10 m ρ c VR h]
  try rfl

theorem p_main_call7_c_3__main_call8_c_3 : Cert.KernelIdeal.Gen.W34 (F := Ideal) m ρ c (Proc.devRef .tc Cert.KernelIdeal.main_call7_c_3) = after (Cert.ReferenceIdeal.HandRun.ops (F := Ideal)) VR (Proc.devRef .tc Cert.ReferenceIdeal.main_call8_c_3) := by
  rw [Cert.KernelIdeal.Final.fin_main_call7_c_3 m ρ c, Cert.ReferenceIdeal.HandRun.at_main_call8_c_3 VR]
  try rfl

theorem p_main_call7_v12__main_call8_v12 : Cert.KernelIdeal.Gen.W34 (F := Ideal) m ρ c (Proc.devRef .tc Cert.KernelIdeal.main_call7_v12) = after (Cert.ReferenceIdeal.HandRun.ops (F := Ideal)) VR (Proc.devRef .tc Cert.ReferenceIdeal.main_call8_v12) := by
  rw [Cert.KernelIdeal.Final.fin_main_call7_v12 m ρ c, Cert.ReferenceIdeal.HandRun.at_main_call8_v12 VR, p_main_call7_v11__main_call8_v11 m ρ c VR h, p_main_call7_c_3__main_call8_c_3 m ρ c VR h]
  try rfl

theorem p_main_call7_v14__main_call8_v14 : Cert.KernelIdeal.Gen.W34 (F := Ideal) m ρ c (Proc.devRef .tc Cert.KernelIdeal.main_call7_v14) = after (Cert.ReferenceIdeal.HandRun.ops (F := Ideal)) VR (Proc.devRef .tc Cert.ReferenceIdeal.main_call8_v14) := by
  rw [Cert.KernelIdeal.Final.fin_main_call7_v14 m ρ c, Cert.ReferenceIdeal.HandRun.at_main_call8_v14 VR, p_main_call7_v12__main_call8_v12 m ρ c VR h]
  try rfl

theorem p_main_call7_v13__main_call8_v13 : Cert.KernelIdeal.Gen.W34 (F := Ideal) m ρ c (Proc.devRef .tc Cert.KernelIdeal.main_call7_v13) = after (Cert.ReferenceIdeal.HandRun.ops (F := Ideal)) VR (Proc.devRef .tc Cert.ReferenceIdeal.main_call8_v13) := by
  rw [Cert.KernelIdeal.Final.fin_main_call7_v13 m ρ c, Cert.ReferenceIdeal.HandRun.at_main_call8_v13 VR, arg_main_arg2 ρ h, p_main_call7_v5__main_call8_v5 m ρ c VR h]
  try rfl

theorem p_main_call7_cst__main_call8_cst : Cert.KernelIdeal.Gen.W34 (F := Ideal) m ρ c (Proc.devRef .tc Cert.KernelIdeal.main_call7_cst) = after (Cert.ReferenceIdeal.HandRun.ops (F := Ideal)) VR (Proc.devRef .tc Cert.ReferenceIdeal.main_call8_cst) := by
  rw [Cert.KernelIdeal.Final.fin_main_call7_cst m ρ c, Cert.ReferenceIdeal.HandRun.at_main_call8_cst VR]
  try rfl

theorem p_main_call7_v15__main_call8_v15 : Cert.KernelIdeal.Gen.W34 (F := Ideal) m ρ c (Proc.devRef .tc Cert.KernelIdeal.main_call7_v15) = after (Cert.ReferenceIdeal.HandRun.ops (F := Ideal)) VR (Proc.devRef .tc Cert.ReferenceIdeal.main_call8_v15) := by
  rw [Cert.KernelIdeal.Final.fin_main_call7_v15 m ρ c, Cert.ReferenceIdeal.HandRun.at_main_call8_v15 VR, p_main_call7_cst__main_call8_cst m ρ c VR h]
  try rfl

theorem p_main_v83__main_v81 : Cert.KernelIdeal.Gen.W34 (F := Ideal) m ρ c (Proc.devRef .tc Cert.KernelIdeal.main_v83) = after (Cert.ReferenceIdeal.HandRun.ops (F := Ideal)) VR (Proc.devRef .tc Cert.ReferenceIdeal.main_v81) := by
  rw [Cert.KernelIdeal.Final.fin_main_v83 m ρ c, Cert.ReferenceIdeal.HandRun.at_main_v81 VR, p_main_call7_v14__main_call8_v14 m ρ c VR h, p_main_call7_v13__main_call8_v13 m ρ c VR h, p_main_call7_v15__main_call8_v15 m ρ c VR h]
  try rfl

theorem p_main_cst_22__main_cst_22 : Cert.KernelIdeal.Gen.W34 (F := Ideal) m ρ c (Proc.devRef .tc Cert.KernelIdeal.main_cst_22) = after (Cert.ReferenceIdeal.HandRun.ops (F := Ideal)) VR (Proc.devRef .tc Cert.ReferenceIdeal.main_cst_22) := by
  rw [Cert.KernelIdeal.Final.fin_main_cst_22 m ρ c, Cert.ReferenceIdeal.HandRun.at_main_cst_22 VR]
  try rfl

theorem p_main_v90__main_v90 : Cert.KernelIdeal.Gen.W34 (F := Ideal) m ρ c (Proc.devRef .tc Cert.KernelIdeal.main_v90) = after (Cert.ReferenceIdeal.HandRun.ops (F := Ideal)) VR (Proc.devRef .tc Cert.ReferenceIdeal.main_v90) := by
  rw [Cert.KernelIdeal.Final.fin_main_v90 m ρ c, Cert.ReferenceIdeal.HandRun.at_main_v90 VR, p_main_cst_22__main_cst_22 m ρ c VR h]
  try rfl

theorem p_main_v4__main_v88 : Cert.KernelIdeal.Gen.W34 (F := Ideal) m ρ c (Proc.devRef .tc Cert.KernelIdeal.main_v4) = after (Cert.ReferenceIdeal.HandRun.ops (F := Ideal)) VR (Proc.devRef .tc Cert.ReferenceIdeal.main_v88) := by
  rw [Cert.KernelIdeal.Final.fin_main_v4 m ρ c, Cert.ReferenceIdeal.HandRun.at_main_v88 VR, arg_main_arg13 ρ h]
  try rfl

theorem p_main_v5__main_v89 : Cert.KernelIdeal.Gen.W34 (F := Ideal) m ρ c (Proc.devRef .tc Cert.KernelIdeal.main_v5) = after (Cert.ReferenceIdeal.HandRun.ops (F := Ideal)) VR (Proc.devRef .tc Cert.ReferenceIdeal.main_v89) := by
  rw [Cert.KernelIdeal.Final.fin_main_v5 m ρ c, Cert.ReferenceIdeal.HandRun.at_main_v89 VR, p_main_v4__main_v88 m ρ c VR h]
  try rfl

theorem p_main_v91__main_v91 : Cert.KernelIdeal.Gen.W34 (F := Ideal) m ρ c (Proc.devRef .tc Cert.KernelIdeal.main_v91) = after (Cert.ReferenceIdeal.HandRun.ops (F := Ideal)) VR (Proc.devRef .tc Cert.ReferenceIdeal.main_v91) := by
  rw [Cert.KernelIdeal.Final.fin_main_v91 m ρ c, Cert.ReferenceIdeal.HandRun.at_main_v91 VR, p_main_v5__main_v89 m ρ c VR h]
  try rfl

theorem p_main_cst_23__main_cst_23 : Cert.KernelIdeal.Gen.W34 (F := Ideal) m ρ c (Proc.devRef .tc Cert.KernelIdeal.main_cst_23) = after (Cert.ReferenceIdeal.HandRun.ops (F := Ideal)) VR (Proc.devRef .tc Cert.ReferenceIdeal.main_cst_23) := by
  rw [Cert.KernelIdeal.Final.fin_main_cst_23 m ρ c, Cert.ReferenceIdeal.HandRun.at_main_cst_23 VR]
  try rfl

theorem p_main_v93__main_v95 : Cert.KernelIdeal.Gen.W34 (F := Ideal) m ρ c (Proc.devRef .tc Cert.KernelIdeal.main_v93) = after (Cert.ReferenceIdeal.HandRun.ops (F := Ideal)) VR (Proc.devRef .tc Cert.ReferenceIdeal.main_v95) := by
  rw [Cert.KernelIdeal.Final.fin_main_v93 m ρ c, Cert.ReferenceIdeal.HandRun.at_main_v95 VR, p_main_cst_23__main_cst_23 m ρ c VR h]
  try rfl

theorem p_main_v6__main_v93 : Cert.KernelIdeal.Gen.W34 (F := Ideal) m ρ c (Proc.devRef .tc Cert.KernelIdeal.main_v6) = after (Cert.ReferenceIdeal.HandRun.ops (F := Ideal)) VR (Proc.devRef .tc Cert.ReferenceIdeal.main_v93) := by
  rw [Cert.KernelIdeal.Final.fin_main_v6 m ρ c, Cert.ReferenceIdeal.HandRun.at_main_v93 VR, arg_main_arg13 ρ h]
  try rfl

theorem p_main_v7__main_v94 : Cert.KernelIdeal.Gen.W34 (F := Ideal) m ρ c (Proc.devRef .tc Cert.KernelIdeal.main_v7) = after (Cert.ReferenceIdeal.HandRun.ops (F := Ideal)) VR (Proc.devRef .tc Cert.ReferenceIdeal.main_v94) := by
  rw [Cert.KernelIdeal.Final.fin_main_v7 m ρ c, Cert.ReferenceIdeal.HandRun.at_main_v94 VR, p_main_v6__main_v93 m ρ c VR h]
  try rfl

theorem p_main_v94__main_v96 : Cert.KernelIdeal.Gen.W34 (F := Ideal) m ρ c (Proc.devRef .tc Cert.KernelIdeal.main_v94) = after (Cert.ReferenceIdeal.HandRun.ops (F := Ideal)) VR (Proc.devRef .tc Cert.ReferenceIdeal.main_v96) := by
  rw [Cert.KernelIdeal.Final.fin_main_v94 m ρ c, Cert.ReferenceIdeal.HandRun.at_main_v96 VR, p_main_v7__main_v94 m ρ c VR h]
  try rfl

theorem p_main_c_26__main_c_26 : Cert.KernelIdeal.Gen.W34 (F := Ideal) m ρ c (Proc.devRef .tc Cert.KernelIdeal.main_c_26) = after (Cert.ReferenceIdeal.HandRun.ops (F := Ideal)) VR (Proc.devRef .tc Cert.ReferenceIdeal.main_c_26) := by
  rw [Cert.KernelIdeal.Final.fin_main_c_26 m ρ c, Cert.ReferenceIdeal.HandRun.at_main_c_26 VR]
  try rfl

theorem p_main_v100__main_v102 : Cert.KernelIdeal.Gen.W34 (F := Ideal) m ρ c (Proc.devRef .tc Cert.KernelIdeal.main_v100) = after (Cert.ReferenceIdeal.HandRun.ops (F := Ideal)) VR (Proc.devRef .tc Cert.ReferenceIdeal.main_v102) := by
  rw [Cert.KernelIdeal.Final.fin_main_v100 m ρ c, Cert.ReferenceIdeal.HandRun.at_main_v102 VR, p_main_c_26__main_c_26 m ρ c VR h]
  try rfl

theorem p_main_call8_v0__main_call10_v0 : Cert.KernelIdeal.Gen.W34 (F := Ideal) m ρ c (Proc.devRef .tc Cert.KernelIdeal.main_call8_v0) = after (Cert.ReferenceIdeal.HandRun.ops (F := Ideal)) VR (Proc.devRef .tc Cert.ReferenceIdeal.main_call10_v0) := by
  rw [Cert.KernelIdeal.Final.fin_main_call8_v0 m ρ c, Cert.ReferenceIdeal.HandRun.at_main_call10_v0 VR, arg_main_arg20 ρ h]
  try rfl

theorem p_main_call8_v1__main_call10_v1 : Cert.KernelIdeal.Gen.W34 (F := Ideal) m ρ c (Proc.devRef .tc Cert.KernelIdeal.main_call8_v1) = after (Cert.ReferenceIdeal.HandRun.ops (F := Ideal)) VR (Proc.devRef .tc Cert.ReferenceIdeal.main_call10_v1) := by
  rw [Cert.KernelIdeal.Final.fin_main_call8_v1 m ρ c, Cert.ReferenceIdeal.HandRun.at_main_call10_v1 VR, arg_main_arg20 ρ h]
  try rfl

theorem p_main_v96__main_v98 : Cert.KernelIdeal.Gen.W34 (F := Ideal) m ρ c (Proc.devRef .tc Cert.KernelIdeal.main_v96) = after (Cert.ReferenceIdeal.HandRun.ops (F := Ideal)) VR (Proc.devRef .tc Cert.ReferenceIdeal.main_v98) := by
  rw [Cert.KernelIdeal.Final.fin_main_v96 m ρ c, Cert.ReferenceIdeal.HandRun.at_main_v98 VR, p_main_call8_v0__main_call10_v0 m ρ c VR h, p_main_call8_v1__main_call10_v1 m ρ c VR h]
  try rfl

theorem p_main_c_24__main_c_24 : Cert.KernelIdeal.Gen.W34 (F := Ideal) m ρ c (Proc.devRef .tc Cert.KernelIdeal.main_c_24) = after (Cert.ReferenceIdeal.HandRun.ops (F := Ideal)) VR (Proc.devRef .tc Cert.ReferenceIdeal.main_c_24) := by
  rw [Cert.KernelIdeal.Final.fin_main_c_24 m ρ c, Cert.ReferenceIdeal.HandRun.at_main_c_24 VR]
  try rfl

theorem p_main_v97__main_v99 : Cert.KernelIdeal.Gen.W34 (F := Ideal) m ρ c (Proc.devRef .tc Cert.KernelIdeal.main_v97) = after (Cert.ReferenceIdeal.HandRun.ops (F := Ideal)) VR (Proc.devRef .tc Cert.ReferenceIdeal.main_v99) := by
  rw [Cert.KernelIdeal.Final.fin_main_v97 m ρ c, Cert.ReferenceIdeal.HandRun.at_main_v99 VR, p_main_c_24__main_c_24 m ρ c VR h]
  try rfl

theorem p_main_c_25__main_c_25 : Cert.KernelIdeal.Gen.W34 (F := Ideal) m ρ c (Proc.devRef .tc Cert.KernelIdeal.main_c_25) = after (Cert.ReferenceIdeal.HandRun.ops (F := Ideal)) VR (Proc.devRef .tc Cert.ReferenceIdeal.main_c_25) := by
  rw [Cert.KernelIdeal.Final.fin_main_c_25 m ρ c, Cert.ReferenceIdeal.HandRun.at_main_c_25 VR]
  try rfl

theorem p_main_v98__main_v100 : Cert.KernelIdeal.Gen.W34 (F := Ideal) m ρ c (Proc.devRef .tc Cert.KernelIdeal.main_v98) = after (Cert.ReferenceIdeal.HandRun.ops (F := Ideal)) VR (Proc.devRef .tc Cert.ReferenceIdeal.main_v100) := by
  rw [Cert.KernelIdeal.Final.fin_main_v98 m ρ c, Cert.ReferenceIdeal.HandRun.at_main_v100 VR, p_main_v96__main_v98 m ρ c VR h, p_main_v97__main_v99 m ρ c VR h, p_main_c_25__main_c_25 m ρ c VR h]
  try rfl

theorem p_main_call9_call0_c__main_call11_call0_c : Cert.KernelIdeal.Gen.W34 (F := Ideal) m ρ c (Proc.devRef .tc Cert.KernelIdeal.main_call9_call0_c) = after (Cert.ReferenceIdeal.HandRun.ops (F := Ideal)) VR (Proc.devRef .tc Cert.ReferenceIdeal.main_call11_call0_c) := by
  rw [Cert.KernelIdeal.Final.fin_main_call9_call0_c m ρ c, Cert.ReferenceIdeal.HandRun.at_main_call11_call0_c VR]
  try rfl

theorem p_main_call9_call0_v0__main_call11_call0_v0 : Cert.KernelIdeal.Gen.W34 (F := Ideal) m ρ c (Proc.devRef .tc Cert.KernelIdeal.main_call9_call0_v0) = after (Cert.ReferenceIdeal.HandRun.ops (F := Ideal)) VR (Proc.devRef .tc Cert.ReferenceIdeal.main_call11_call0_v0) := by
  rw [Cert.KernelIdeal.Final.fin_main_call9_call0_v0 m ρ c, Cert.ReferenceIdeal.HandRun.at_main_call11_call0_v0 VR, p_main_call9_call0_c__main_call11_call0_c m ρ c VR h]
  try rfl

theorem p_main_v99__main_v101 : Cert.KernelIdeal.Gen.W34 (F := Ideal) m ρ c (Proc.devRef .tc Cert.KernelIdeal.main_v99) = after (Cert.ReferenceIdeal.HandRun.ops (F := Ideal)) VR (Proc.devRef .tc Cert.ReferenceIdeal.main_v101) := by
  rw [Cert.KernelIdeal.Final.fin_main_v99 m ρ c, Cert.ReferenceIdeal.HandRun.at_main_v101 VR, p_main_v98__main_v100 m ρ c VR h, p_main_call9_call0_v0__main_call11_call0_v0 m ρ c VR h]
  try rfl

theorem p_main_c_27__main_c_27 : Cert.KernelIdeal.Gen.W34 (F := Ideal) m ρ c (Proc.devRef .tc Cert.KernelIdeal.main_c_27) = after (Cert.ReferenceIdeal.HandRun.ops (F := Ideal)) VR (Proc.devRef .tc Cert.ReferenceIdeal.main_c_27) := by
  rw [Cert.KernelIdeal.Final.fin_main_c_27 m ρ c, Cert.ReferenceIdeal.HandRun.at_main_c_27 VR]
  try rfl

theorem p_main_v101__main_v103 : Cert.KernelIdeal.Gen.W34 (F := Ideal) m ρ c (Proc.devRef .tc Cert.KernelIdeal.main_v101) = after (Cert.ReferenceIdeal.HandRun.ops (F := Ideal)) VR (Proc.devRef .tc Cert.ReferenceIdeal.main_v103) := by
  rw [Cert.KernelIdeal.Final.fin_main_v101 m ρ c, Cert.ReferenceIdeal.HandRun.at_main_v103 VR, p_main_c_27__main_c_27 m ρ c VR h]
  try rfl

theorem p_main_v102__main_v104 : Cert.KernelIdeal.Gen.W34 (F := Ideal) m ρ c (Proc.devRef .tc Cert.KernelIdeal.main_v102) = after (Cert.ReferenceIdeal.HandRun.ops (F := Ideal)) VR (Proc.devRef .tc Cert.ReferenceIdeal.main_v104) := by
  rw [Cert.KernelIdeal.Final.fin_main_v102 m ρ c, Cert.ReferenceIdeal.HandRun.at_main_v104 VR, p_main_v99__main_v101 m ρ c VR h, p_main_v101__main_v103 m ρ c VR h]
  try rfl

theorem p_main_c_28__main_c_28 : Cert.KernelIdeal.Gen.W34 (F := Ideal) m ρ c (Proc.devRef .tc Cert.KernelIdeal.main_c_28) = after (Cert.ReferenceIdeal.HandRun.ops (F := Ideal)) VR (Proc.devRef .tc Cert.ReferenceIdeal.main_c_28) := by
  rw [Cert.KernelIdeal.Final.fin_main_c_28 m ρ c, Cert.ReferenceIdeal.HandRun.at_main_c_28 VR]
  try rfl

theorem p_main_v103__main_v105 : Cert.KernelIdeal.Gen.W34 (F := Ideal) m ρ c (Proc.devRef .tc Cert.KernelIdeal.main_v103) = after (Cert.ReferenceIdeal.HandRun.ops (F := Ideal)) VR (Proc.devRef .tc Cert.ReferenceIdeal.main_v105) := by
  rw [Cert.KernelIdeal.Final.fin_main_v103 m ρ c, Cert.ReferenceIdeal.HandRun.at_main_v105 VR, p_main_c_28__main_c_28 m ρ c VR h]
  try rfl

theorem p_main_v104__main_v106 : Cert.KernelIdeal.Gen.W34 (F := Ideal) m ρ c (Proc.devRef .tc Cert.KernelIdeal.main_v104) = after (Cert.ReferenceIdeal.HandRun.ops (F := Ideal)) VR (Proc.devRef .tc Cert.ReferenceIdeal.main_v106) := by
  rw [Cert.KernelIdeal.Final.fin_main_v104 m ρ c, Cert.ReferenceIdeal.HandRun.at_main_v106 VR, p_main_v99__main_v101 m ρ c VR h, p_main_v103__main_v105 m ρ c VR h]
  try rfl

theorem p_main_v105__main_v107 : Cert.KernelIdeal.Gen.W34 (F := Ideal) m ρ c (Proc.devRef .tc Cert.KernelIdeal.main_v105) = after (Cert.ReferenceIdeal.HandRun.ops (F := Ideal)) VR (Proc.devRef .tc Cert.ReferenceIdeal.main_v107) := by
  rw [Cert.KernelIdeal.Final.fin_main_v105 m ρ c, Cert.ReferenceIdeal.HandRun.at_main_v107 VR, p_main_v102__main_v104 m ρ c VR h, p_main_v104__main_v106 m ρ c VR h, p_main_v99__main_v101 m ρ c VR h]
  try rfl

theorem p_main_v106__main_v108 : Cert.KernelIdeal.Gen.W34 (F := Ideal) m ρ c (Proc.devRef .tc Cert.KernelIdeal.main_v106) = after (Cert.ReferenceIdeal.HandRun.ops (F := Ideal)) VR (Proc.devRef .tc Cert.ReferenceIdeal.main_v108) := by
  rw [Cert.KernelIdeal.Final.fin_main_v106 m ρ c, Cert.ReferenceIdeal.HandRun.at_main_v108 VR, p_main_v105__main_v107 m ρ c VR h]
  try rfl

theorem p_main_c_29__main_c_29 : Cert.KernelIdeal.Gen.W34 (F := Ideal) m ρ c (Proc.devRef .tc Cert.KernelIdeal.main_c_29) = after (Cert.ReferenceIdeal.HandRun.ops (F := Ideal)) VR (Proc.devRef .tc Cert.ReferenceIdeal.main_c_29) := by
  rw [Cert.KernelIdeal.Final.fin_main_c_29 m ρ c, Cert.ReferenceIdeal.HandRun.at_main_c_29 VR]
  try rfl

theorem p_main_v107__main_v109 : Cert.KernelIdeal.Gen.W34 (F := Ideal) m ρ c (Proc.devRef .tc Cert.KernelIdeal.main_v107) = after (Cert.ReferenceIdeal.HandRun.ops (F := Ideal)) VR (Proc.devRef .tc Cert.ReferenceIdeal.main_v109) := by
  rw [Cert.KernelIdeal.Final.fin_main_v107 m ρ c, Cert.ReferenceIdeal.HandRun.at_main_v109 VR, p_main_c_29__main_c_29 m ρ c VR h]
  try rfl

theorem p_main_v108__main_v110 : Cert.KernelIdeal.Gen.W34 (F := Ideal) m ρ c (Proc.devRef .tc Cert.KernelIdeal.main_v108) = after (Cert.ReferenceIdeal.HandRun.ops (F := Ideal)) VR (Proc.devRef .tc Cert.ReferenceIdeal.main_v110) := by
  rw [Cert.KernelIdeal.Final.fin_main_v108 m ρ c, Cert.ReferenceIdeal.HandRun.at_main_v110 VR, p_main_v100__main_v102 m ρ c VR h, p_main_v106__main_v108 m ρ c VR h, p_main_v107__main_v109 m ρ c VR h]
  try rfl

theorem p_main_call10_call0_c__main_call12_call0_c : Cert.KernelIdeal.Gen.W34 (F := Ideal) m ρ c (Proc.devRef .tc Cert.KernelIdeal.main_call10_call0_c) = after (Cert.ReferenceIdeal.HandRun.ops (F := Ideal)) VR (Proc.devRef .tc Cert.ReferenceIdeal.main_call12_call0_c) := by
  rw [Cert.KernelIdeal.Final.fin_main_call10_call0_c m ρ c, Cert.ReferenceIdeal.HandRun.at_main_call12_call0_c VR]
  try rfl

theorem p_main_call10_call0_v0__main_call12_call0_v0 : Cert.KernelIdeal.Gen.W34 (F := Ideal) m ρ c (Proc.devRef .tc Cert.KernelIdeal.main_call10_call0_v0) = after (Cert.ReferenceIdeal.HandRun.ops (F := Ideal)) VR (Proc.devRef .tc Cert.ReferenceIdeal.main_call12_call0_v0) := by
  rw [Cert.KernelIdeal.Final.fin_main_call10_call0_v0 m ρ c, Cert.ReferenceIdeal.HandRun.at_main_call12_call0_v0 VR, p_main_call10_call0_c__main_call12_call0_c m ρ c VR h]
  try rfl

theorem p_main_v109__main_v111 : Cert.KernelIdeal.Gen.W34 (F := Ideal) m ρ c (Proc.devRef .tc Cert.KernelIdeal.main_v109) = after (Cert.ReferenceIdeal.HandRun.ops (F := Ideal)) VR (Proc.devRef .tc Cert.ReferenceIdeal.main_v111) := by
  rw [Cert.KernelIdeal.Final.fin_main_v109 m ρ c, Cert.ReferenceIdeal.HandRun.at_main_v111 VR, p_main_v108__main_v110 m ρ c VR h, p_main_call10_call0_v0__main_call12_call0_v0 m ρ c VR h]
  try rfl

theorem p_main_c_30__main_c_30 : Cert.KernelIdeal.Gen.W34 (F := Ideal) m ρ c (Proc.devRef .tc Cert.KernelIdeal.main_c_30) = after (Cert.ReferenceIdeal.HandRun.ops (F := Ideal)) VR (Proc.devRef .tc Cert.ReferenceIdeal.main_c_30) := by
  rw [Cert.KernelIdeal.Final.fin_main_c_30 m ρ c, Cert.ReferenceIdeal.HandRun.at_main_c_30 VR]
  try rfl

theorem p_main_v110__main_v112 : Cert.KernelIdeal.Gen.W34 (F := Ideal) m ρ c (Proc.devRef .tc Cert.KernelIdeal.main_v110) = after (Cert.ReferenceIdeal.HandRun.ops (F := Ideal)) VR (Proc.devRef .tc Cert.ReferenceIdeal.main_v112) := by
  rw [Cert.KernelIdeal.Final.fin_main_v110 m ρ c, Cert.ReferenceIdeal.HandRun.at_main_v112 VR, p_main_c_30__main_c_30 m ρ c VR h]
  try rfl

theorem p_main_v111__main_v113 : Cert.KernelIdeal.Gen.W34 (F := Ideal) m ρ c (Proc.devRef .tc Cert.KernelIdeal.main_v111) = after (Cert.ReferenceIdeal.HandRun.ops (F := Ideal)) VR (Proc.devRef .tc Cert.ReferenceIdeal.main_v113) := by
  rw [Cert.KernelIdeal.Final.fin_main_v111 m ρ c, Cert.ReferenceIdeal.HandRun.at_main_v113 VR, p_main_v109__main_v111 m ρ c VR h, p_main_v110__main_v112 m ρ c VR h]
  try rfl

theorem p_main_call11_c__main_call13_c : Cert.KernelIdeal.Gen.W34 (F := Ideal) m ρ c (Proc.devRef .tc Cert.KernelIdeal.main_call11_c) = after (Cert.ReferenceIdeal.HandRun.ops (F := Ideal)) VR (Proc.devRef .tc Cert.ReferenceIdeal.main_call13_c) := by
  rw [Cert.KernelIdeal.Final.fin_main_call11_c m ρ c, Cert.ReferenceIdeal.HandRun.at_main_call13_c VR]
  try rfl

theorem p_main_call11_v0__main_call13_v0 : Cert.KernelIdeal.Gen.W34 (F := Ideal) m ρ c (Proc.devRef .tc Cert.KernelIdeal.main_call11_v0) = after (Cert.ReferenceIdeal.HandRun.ops (F := Ideal)) VR (Proc.devRef .tc Cert.ReferenceIdeal.main_call13_v0) := by
  rw [Cert.KernelIdeal.Final.fin_main_call11_v0 m ρ c, Cert.ReferenceIdeal.HandRun.at_main_call13_v0 VR, p_main_call11_c__main_call13_c m ρ c VR h]
  try rfl

theorem p_main_call11_v1__main_call13_v1 : Cert.KernelIdeal.Gen.W34 (F := Ideal) m ρ c (Proc.devRef .tc Cert.KernelIdeal.main_call11_v1) = after (Cert.ReferenceIdeal.HandRun.ops (F := Ideal)) VR (Proc.devRef .tc Cert.ReferenceIdeal.main_call13_v1) := by
  rw [Cert.KernelIdeal.Final.fin_main_call11_v1 m ρ c, Cert.ReferenceIdeal.HandRun.at_main_call13_v1 VR, p_main_v111__main_v113 m ρ c VR h, p_main_call11_v0__main_call13_v0 m ρ c VR h]
  try rfl

theorem p_main_call11_c_0__main_call13_c_0 : Cert.KernelIdeal.Gen.W34 (F := Ideal) m ρ c (Proc.devRef .tc Cert.KernelIdeal.main_call11_c_0) = after (Cert.ReferenceIdeal.HandRun.ops (F := Ideal)) VR (Proc.devRef .tc Cert.ReferenceIdeal.main_call13_c_0) := by
  rw [Cert.KernelIdeal.Final.fin_main_call11_c_0 m ρ c, Cert.ReferenceIdeal.HandRun.at_main_call13_c_0 VR]
  try rfl

theorem p_main_call11_v2__main_call13_v2 : Cert.KernelIdeal.Gen.W34 (F := Ideal) m ρ c (Proc.devRef .tc Cert.KernelIdeal.main_call11_v2) = after (Cert.ReferenceIdeal.HandRun.ops (F := Ideal)) VR (Proc.devRef .tc Cert.ReferenceIdeal.main_call13_v2) := by
  rw [Cert.KernelIdeal.Final.fin_main_call11_v2 m ρ c, Cert.ReferenceIdeal.HandRun.at_main_call13_v2 VR, p_main_call11_c_0__main_call13_c_0 m ρ c VR h]
  try rfl

theorem p_main_call11_v3__main_call13_v3 : Cert.KernelIdeal.Gen.W34 (F := Ideal) m ρ c (Proc.devRef .tc Cert.KernelIdeal.main_call11_v3) = after (Cert.ReferenceIdeal.HandRun.ops (F := Ideal)) VR (Proc.devRef .tc Cert.ReferenceIdeal.main_call13_v3) := by
  rw [Cert.KernelIdeal.Final.fin_main_call11_v3 m ρ c, Cert.ReferenceIdeal.HandRun.at_main_call13_v3 VR, p_main_v111__main_v113 m ρ c VR h, p_main_call11_v2__main_call13_v2 m ρ c VR h]
  try rfl

theorem p_main_call11_v4__main_call13_v4 : Cert.KernelIdeal.Gen.W34 (F := Ideal) m ρ c (Proc.devRef .tc Cert.KernelIdeal.main_call11_v4) = after (Cert.ReferenceIdeal.HandRun.ops (F := Ideal)) VR (Proc.devRef .tc Cert.ReferenceIdeal.main_call13_v4) := by
  rw [Cert.KernelIdeal.Final.fin_main_call11_v4 m ρ c, Cert.ReferenceIdeal.HandRun.at_main_call13_v4 VR, p_main_call11_v1__main_call13_v1 m ρ c VR h, p_main_call11_v3__main_call13_v3 m ρ c VR h, p_main_v111__main_v113 m ρ c VR h]
  try rfl

theorem p_main_call11_v5__main_call13_v5 : Cert.KernelIdeal.Gen.W34 (F := Ideal) m ρ c (Proc.devRef .tc Cert.KernelIdeal.main_call11_v5) = after (Cert.ReferenceIdeal.HandRun.ops (F := Ideal)) VR (Proc.devRef .tc Cert.ReferenceIdeal.main_call13_v5) := by
  rw [Cert.KernelIdeal.Final.fin_main_call11_v5 m ρ c, Cert.ReferenceIdeal.HandRun.at_main_call13_v5 VR, p_main_call11_v4__main_call13_v4 m ρ c VR h]
  try rfl

theorem p_main_call11_c_2__main_call13_c_2 : Cert.KernelIdeal.Gen.W34 (F := Ideal) m ρ c (Proc.devRef .tc Cert.KernelIdeal.main_call11_c_2) = after (Cert.ReferenceIdeal.HandRun.ops (F := Ideal)) VR (Proc.devRef .tc Cert.ReferenceIdeal.main_call13_c_2) := by
  rw [Cert.KernelIdeal.Final.fin_main_call11_c_2 m ρ c, Cert.ReferenceIdeal.HandRun.at_main_call13_c_2 VR]
  try rfl

theorem p_main_call11_v6__main_call13_v6 : Cert.KernelIdeal.Gen.W34 (F := Ideal) m ρ c (Proc.devRef .tc Cert.KernelIdeal.main_call11_v6) = after (Cert.ReferenceIdeal.HandRun.ops (F := Ideal)) VR (Proc.devRef .tc Cert.ReferenceIdeal.main_call13_v6) := by
  rw [Cert.KernelIdeal.Final.fin_main_call11_v6 m ρ c, Cert.ReferenceIdeal.HandRun.at_main_call13_v6 VR, p_main_call11_c_2__main_call13_c_2 m ρ c VR h]
  try rfl

theorem p_main_call11_v7__main_call13_v7 : Cert.KernelIdeal.Gen.W34 (F := Ideal) m ρ c (Proc.devRef .tc Cert.KernelIdeal.main_call11_v7) = after (Cert.ReferenceIdeal.HandRun.ops (F := Ideal)) VR (Proc.devRef .tc Cert.ReferenceIdeal.main_call13_v7) := by
  rw [Cert.KernelIdeal.Final.fin_main_call11_v7 m ρ c, Cert.ReferenceIdeal.HandRun.at_main_call13_v7 VR, p_main_call11_v5__main_call13_v5 m ρ c VR h, p_main_call11_v6__main_call13_v6 m ρ c VR h]
  try rfl

theorem p_main_call11_c_1__main_call13_c_1 : Cert.KernelIdeal.Gen.W34 (F := Ideal) m ρ c (Proc.devRef .tc Cert.KernelIdeal.main_call11_c_1) = after (Cert.ReferenceIdeal.HandRun.ops (F := Ideal)) VR (Proc.devRef .tc Cert.ReferenceIdeal.main_call13_c_1) := by
  rw [Cert.KernelIdeal.Final.fin_main_call11_c_1 m ρ c, Cert.ReferenceIdeal.HandRun.at_main_call13_c_1 VR]
  try rfl

theorem p_main_call11_v8__main_call13_v8 : Cert.KernelIdeal.Gen.W34 (F := Ideal) m ρ c (Proc.devRef .tc Cert.KernelIdeal.main_call11_v8) = after (Cert.ReferenceIdeal.HandRun.ops (F := Ideal)) VR (Proc.devRef .tc Cert.ReferenceIdeal.main_call13_v8) := by
  rw [Cert.KernelIdeal.Final.fin_main_call11_v8 m ρ c, Cert.ReferenceIdeal.HandRun.at_main_call13_v8 VR, p_main_call11_c_1__main_call13_c_1 m ρ c VR h]
  try rfl

theorem p_main_call11_v9__main_call13_v9 : Cert.KernelIdeal.Gen.W34 (F := Ideal) m ρ c (Proc.devRef .tc Cert.KernelIdeal.main_call11_v9) = after (Cert.ReferenceIdeal.HandRun.ops (F := Ideal)) VR (Proc.devRef .tc Cert.ReferenceIdeal.main_call13_v9) := by
  rw [Cert.KernelIdeal.Final.fin_main_call11_v9 m ρ c, Cert.ReferenceIdeal.HandRun.at_main_call13_v9 VR, p_main_call11_v8__main_call13_v8 m ρ c VR h]
  try rfl

theorem p_main_call11_v10__main_call13_v10 : Cert.KernelIdeal.Gen.W34 (F := Ideal) m ρ c (Proc.devRef .tc Cert.KernelIdeal.main_call11_v10) = after (Cert.ReferenceIdeal.HandRun.ops (F := Ideal)) VR (Proc.devRef .tc Cert.ReferenceIdeal.main_call13_v10) := by
  rw [Cert.KernelIdeal.Final.fin_main_call11_v10 m ρ c, Cert.ReferenceIdeal.HandRun.at_main_call13_v10 VR, p_main_call11_v5__main_call13_v5 m ρ c VR h, p_main_call11_v9__main_call13_v9 m ρ c VR h]
  try rfl

theorem p_main_call11_v11__main_call13_v11 : Cert.KernelIdeal.Gen.W34 (F := Ideal) m ρ c (Proc.devRef .tc Cert.KernelIdeal.main_call11_v11) = after (Cert.ReferenceIdeal.HandRun.ops (F := Ideal)) VR (Proc.devRef .tc Cert.ReferenceIdeal.main_call13_v11) := by
  rw [Cert.KernelIdeal.Final.fin_main_call11_v11 m ρ c, Cert.ReferenceIdeal.HandRun.at_main_call13_v11 VR, p_main_call11_v7__main_call13_v7 m ρ c VR h, p_main_call11_v10__main_call13_v10 m ρ c VR h]
  try rfl

theorem p_main_call11_c_3__main_call13_c_3 : Cert.KernelIdeal.Gen.W34 (F := Ideal) m ρ c (Proc.devRef .tc Cert.KernelIdeal.main_call11_c_3) = after (Cert.ReferenceIdeal.HandRun.ops (F := Ideal)) VR (Proc.devRef .tc Cert.ReferenceIdeal.main_call13_c_3) := by
  rw [Cert.KernelIdeal.Final.fin_main_call11_c_3 m ρ c, Cert.ReferenceIdeal.HandRun.at_main_call13_c_3 VR]
  try rfl

theorem p_main_call11_v12__main_call13_v12 : Cert.KernelIdeal.Gen.W34 (F := Ideal) m ρ c (Proc.devRef .tc Cert.KernelIdeal.main_call11_v12) = after (Cert.ReferenceIdeal.HandRun.ops (F := Ideal)) VR (Proc.devRef .tc Cert.ReferenceIdeal.main_call13_v12) := by
  rw [Cert.KernelIdeal.Final.fin_main_call11_v12 m ρ c, Cert.ReferenceIdeal.HandRun.at_main_call13_v12 VR, p_main_call11_v11__main_call13_v11 m ρ c VR h, p_main_call11_c_3__main_call13_c_3 m ρ c VR h]
  try rfl

theorem p_main_call11_v14__main_call13_v14 : Cert.KernelIdeal.Gen.W34 (F := Ideal) m ρ c (Proc.devRef .tc Cert.KernelIdeal.main_call11_v14) = after (Cert.ReferenceIdeal.HandRun.ops (F := Ideal)) VR (Proc.devRef .tc Cert.ReferenceIdeal.main_call13_v14) := by
  rw [Cert.KernelIdeal.Final.fin_main_call11_v14 m ρ c, Cert.ReferenceIdeal.HandRun.at_main_call13_v14 VR, p_main_call11_v12__main_call13_v12 m ρ c VR h]
  try rfl

theorem p_main_call11_v13__main_call13_v13 : Cert.KernelIdeal.Gen.W34 (F := Ideal) m ρ c (Proc.devRef .tc Cert.KernelIdeal.main_call11_v13) = after (Cert.ReferenceIdeal.HandRun.ops (F := Ideal)) VR (Proc.devRef .tc Cert.ReferenceIdeal.main_call13_v13) := by
  rw [Cert.KernelIdeal.Final.fin_main_call11_v13 m ρ c, Cert.ReferenceIdeal.HandRun.at_main_call13_v13 VR, arg_main_arg2 ρ h, p_main_call11_v5__main_call13_v5 m ρ c VR h]
  try rfl

theorem p_main_call11_cst__main_call13_cst : Cert.KernelIdeal.Gen.W34 (F := Ideal) m ρ c (Proc.devRef .tc Cert.KernelIdeal.main_call11_cst) = after (Cert.ReferenceIdeal.HandRun.ops (F := Ideal)) VR (Proc.devRef .tc Cert.ReferenceIdeal.main_call13_cst) := by
  rw [Cert.KernelIdeal.Final.fin_main_call11_cst m ρ c, Cert.ReferenceIdeal.HandRun.at_main_call13_cst VR]
  try rfl

theorem p_main_call11_v15__main_call13_v15 : Cert.KernelIdeal.Gen.W34 (F := Ideal) m ρ c (Proc.devRef .tc Cert.KernelIdeal.main_call11_v15) = after (Cert.ReferenceIdeal.HandRun.ops (F := Ideal)) VR (Proc.devRef .tc Cert.ReferenceIdeal.main_call13_v15) := by
  rw [Cert.KernelIdeal.Final.fin_main_call11_v15 m ρ c, Cert.ReferenceIdeal.HandRun.at_main_call13_v15 VR, p_main_call11_cst__main_call13_cst m ρ c VR h]
  try rfl

theorem p_main_v112__main_v114 : Cert.KernelIdeal.Gen.W34 (F := Ideal) m ρ c (Proc.devRef .tc Cert.KernelIdeal.main_v112) = after (Cert.ReferenceIdeal.HandRun.ops (F := Ideal)) VR (Proc.devRef .tc Cert.ReferenceIdeal.main_v114) := by
  rw [Cert.KernelIdeal.Final.fin_main_v112 m ρ c, Cert.ReferenceIdeal.HandRun.at_main_v114 VR, p_main_call11_v14__main_call13_v14 m ρ c VR h, p_main_call11_v13__main_call13_v13 m ρ c VR h, p_main_call11_v15__main_call13_v15 m ρ c VR h]
  try rfl

theorem p_main_cst_32__main_cst_32 : Cert.KernelIdeal.Gen.W34 (F := Ideal) m ρ c (Proc.devRef .tc Cert.KernelIdeal.main_cst_32) = after (Cert.ReferenceIdeal.HandRun.ops (F := Ideal)) VR (Proc.devRef .tc Cert.ReferenceIdeal.main_cst_32) := by
  rw [Cert.KernelIdeal.Final.fin_main_cst_32 m ρ c, Cert.ReferenceIdeal.HandRun.at_main_cst_32 VR]
  try rfl

theorem p_main_v121__main_v123 : Cert.KernelIdeal.Gen.W34 (F := Ideal) m ρ c (Proc.devRef .tc Cert.KernelIdeal.main_v121) = after (Cert.ReferenceIdeal.HandRun.ops (F := Ideal)) VR (Proc.devRef .tc Cert.ReferenceIdeal.main_v123) := by
  rw [Cert.KernelIdeal.Final.fin_main_v121 m ρ c, Cert.ReferenceIdeal.HandRun.at_main_v123 VR, p_main_cst_32__main_cst_32 m ρ c VR h]
  try rfl

theorem p_main_v122__main_v124 : Cert.KernelIdeal.Gen.W34 (F := Ideal) m ρ c (Proc.devRef .tc Cert.KernelIdeal.main_v122) = after (Cert.ReferenceIdeal.HandRun.ops (F := Ideal)) VR (Proc.devRef .tc Cert.ReferenceIdeal.main_v124) := by
  rw [Cert.KernelIdeal.Final.fin_main_v122 m ρ c, Cert.ReferenceIdeal.HandRun.at_main_v124 VR, arg_main_arg14 ρ h]
  try rfl

theorem p_main_cst_33__main_cst_33 : Cert.KernelIdeal.Gen.W34 (F := Ideal) m ρ c (Proc.devRef .tc Cert.KernelIdeal.main_cst_33) = after (Cert.ReferenceIdeal.HandRun.ops (F := Ideal)) VR (Proc.devRef .tc Cert.ReferenceIdeal.main_cst_33) := by
  rw [Cert.KernelIdeal.Final.fin_main_cst_33 m ρ c, Cert.ReferenceIdeal.HandRun.at_main_cst_33 VR]
  try rfl

theorem p_main_v124__main_v126 : Cert.KernelIdeal.Gen.W34 (F := Ideal) m ρ c (Proc.devRef .tc Cert.KernelIdeal.main_v124) = after (Cert.ReferenceIdeal.HandRun.ops (F := Ideal)) VR (Proc.devRef .tc Cert.ReferenceIdeal.main_v126) := by
  rw [Cert.KernelIdeal.Final.fin_main_v124 m ρ c, Cert.ReferenceIdeal.HandRun.at_main_v126 VR, p_main_cst_33__main_cst_33 m ρ c VR h]
  try rfl

theorem p_main_v125__main_v127 : Cert.KernelIdeal.Gen.W34 (F := Ideal) m ρ c (Proc.devRef .tc Cert.KernelIdeal.main_v125) = after (Cert.ReferenceIdeal.HandRun.ops (F := Ideal)) VR (Proc.devRef .tc Cert.ReferenceIdeal.main_v127) := by
  rw [Cert.KernelIdeal.Final.fin_main_v125 m ρ c, Cert.ReferenceIdeal.HandRun.at_main_v127 VR, arg_main_arg15 ρ h]
  try rfl

theorem p_main_cst_34__main_cst_34 : Cert.KernelIdeal.Gen.W34 (F := Ideal) m ρ c (Proc.devRef .tc Cert.KernelIdeal.main_cst_34) = after (Cert.ReferenceIdeal.HandRun.ops (F := Ideal)) VR (Proc.devRef .tc Cert.ReferenceIdeal.main_cst_34) := by
  rw [Cert.KernelIdeal.Final.fin_main_cst_34 m ρ c, Cert.ReferenceIdeal.HandRun.at_main_cst_34 VR]
  try rfl

theorem p_main_v127__main_v129 : Cert.KernelIdeal.Gen.W34 (F := Ideal) m ρ c (Proc.devRef .tc Cert.KernelIdeal.main_v127) = after (Cert.ReferenceIdeal.HandRun.ops (F := Ideal)) VR (Proc.devRef .tc Cert.ReferenceIdeal.main_v129) := by
  rw [Cert.KernelIdeal.Final.fin_main_v127 m ρ c, Cert.ReferenceIdeal.HandRun.at_main_v129 VR, p_main_cst_34__main_cst_34 m ρ c VR h]
  try rfl

theorem p_main_v128__main_v130 : Cert.KernelIdeal.Gen.W34 (F := Ideal) m ρ c (Proc.devRef .tc Cert.KernelIdeal.main_v128) = after (Cert.ReferenceIdeal.HandRun.ops (F := Ideal)) VR (Proc.devRef .tc Cert.ReferenceIdeal.main_v130) := by
  rw [Cert.KernelIdeal.Final.fin_main_v128 m ρ c, Cert.ReferenceIdeal.HandRun.at_main_v130 VR, arg_main_arg16 ρ h]
  try rfl

theorem p_main_v119__main_v121 : Cert.KernelIdeal.Gen.W34 (F := Ideal) m ρ c (Proc.devRef .tc Cert.KernelIdeal.main_v119) = after (Cert.ReferenceIdeal.HandRun.ops (F := Ideal)) VR (Proc.devRef .tc Cert.ReferenceIdeal.main_v121) := by
  rw [Cert.KernelIdeal.Final.fin_main_v119 m ρ c, Cert.ReferenceIdeal.HandRun.at_main_v121 VR, arg_main_arg17 ρ h]
  try rfl

theorem p_main_call12_v0__main_call15_v0 : Cert.KernelIdeal.Gen.W34 (F := Ideal) m ρ c (Proc.devRef .tc Cert.KernelIdeal.main_call12_v0) = after (Cert.ReferenceIdeal.HandRun.ops (F := Ideal)) VR (Proc.devRef .tc Cert.ReferenceIdeal.main_call15_v0) := by
  rw [Cert.KernelIdeal.Final.fin_main_call12_v0 m ρ c, Cert.ReferenceIdeal.HandRun.at_main_call15_v0 VR, p_main_v119__main_v121 m ρ c VR h]
  try rfl

theorem p_main_cst_31__main_cst_31 : Cert.KernelIdeal.Gen.W34 (F := Ideal) m ρ c (Proc.devRef .tc Cert.KernelIdeal.main_cst_31) = after (Cert.ReferenceIdeal.HandRun.ops (F := Ideal)) VR (Proc.devRef .tc Cert.ReferenceIdeal.main_cst_31) := by
  rw [Cert.KernelIdeal.Final.fin_main_cst_31 m ρ c, Cert.ReferenceIdeal.HandRun.at_main_cst_31 VR]
  try rfl

theorem p_main_call12_v1__main_call15_v1 : Cert.KernelIdeal.Gen.W34 (F := Ideal) m ρ c (Proc.devRef .tc Cert.KernelIdeal.main_call12_v1) = after (Cert.ReferenceIdeal.HandRun.ops (F := Ideal)) VR (Proc.devRef .tc Cert.ReferenceIdeal.main_call15_v1) := by
  rw [Cert.KernelIdeal.Final.fin_main_call12_v1 m ρ c, Cert.ReferenceIdeal.HandRun.at_main_call15_v1 VR, p_main_cst_31__main_cst_31 m ρ c VR h]
  try rfl

end Cert.Corr

end
-- ==== Proof.MlpSpec.lean ====
/-
  One dense layer over a row-wise concatenation, stated index by index on the extended reals.

  An array of M rows and 128 columns is a function of its two coordinates. For row blocks p₀ … p₍ₙ₋₁₎ (each M × 128),
  weight blocks w₀ … w₍ₙ₋₁₎ (each 128 × 128) and a bias row b (1 × 128), the layer's value at row r and column d is

      max (Σⱼ Σₖ pⱼ[r, k] · wⱼ[k, d]  +  b[0, d]) 0,

  the inner sums over the 128 columns of one block, the outer over the blocks, added left to right. This is what a
  kernel that accumulates one 128-wide product per block computes, and — the blocks being the column blocks of the
  concatenation [p₀ | … | p₍ₙ₋₁₎] and the row blocks of the stacked weight matrix — what one product over all n·128
  columns followed by the bias and the rectifier computes: a sum over n·128 indices is the sum over its n consecutive
  runs of 128, which needs only that addition is commutative and associative, so it holds at infinite entries too.
-/
import Idealize.ShloMosaic.PureOps.Ideal
import Idealize.ShloMosaic.Lib.ValueIdx

noncomputable section

namespace MlpSpec

open Idealize.ShloMosaic Idealize.ShloMosaic.ValueIdx

/-- An array of `m` rows and `n` columns of extended reals, as a function of its index. -/
abbrev Arr (m n : Nat) : Type := (⟨2, ![m, n]⟩ : Shape).Idx → EReal

/-- Row `r` of `p` against column `d` of `w`: the sum over the 128 shared coordinates. -/
def dot128 (M : Nat) (p : Arr M 128) (w : Arr 128 128) : Arr M 128 :=
  fun i => ∑ k : Fin 128, p (ix2 (i 0) k) * w (ix2 k (i 1))

/-- The layer over six blocks. -/
def mlp6 (M : Nat) (p0 p1 p2 p3 p4 p5 : Arr M 128) (w0 w1 w2 w3 w4 w5 : Arr 128 128) (b : Arr 1 128) : Arr M 128 :=
  fun i => max (dot128 M p0 w0 i + dot128 M p1 w1 i + dot128 M p2 w2 i + dot128 M p3 w3 i + dot128 M p4 w4 i
    + dot128 M p5 w5 i + b (ix2 0 (i 1))) 0

/-- The layer over four blocks. -/
def mlp4 (M : Nat) (p0 p1 p2 p3 : Arr M 128) (w0 w1 w2 w3 : Arr 128 128) (b : Arr 1 128) : Arr M 128 :=
  fun i => max (dot128 M p0 w0 i + dot128 M p1 w1 i + dot128 M p2 w2 i + dot128 M p3 w3 i + b (ix2 0 (i 1))) 0

end MlpSpec

end
-- ==== Proof.RegionValueTile.lean ====
/-
  One 128-wide product read at an entry, and a dense layer cut into row blocks.

  A product of an M × 128 block by a 128 × 128 block, accumulated into zero, has at row r and column d the sum over
  the 128 shared coordinates k of the entries (r, k) · (k, d): the contraction runs over one axis, so its index set
  is identified with the 128 coordinates of that axis. And since a layer's value at row r depends on row r of each
  part only, the layer computed on a block of rows is the block of the layer: reading the parts through any map of
  rows and then applying the layer gives the layer read through that map.
-/
import Idealize.ShloMosaic.PureOps.Ideal.Laws
import Idealize.ShloMosaic.Lib.ValueIdx
import proofs.«134187_j30227979829536_1_alg».proof.Proof.MlpSpec

noncomputable section

namespace MlpSpec.Tile

open Idealize.ShloMosaic Idealize.ShloMosaic.ValueIdx

/-- The dimension numbers of the plain product [M, 128] · [128, 128]: contract the left operand's columns against
    the right operand's rows, no batch axis. -/
abbrev dims (M : Nat) (w : DotDims.WF ⟨2, ![M, 128]⟩ ⟨2, ![128, 128]⟩ ⟨2, ![M, 128]⟩ [1] [0] [0] [1] [] []) :
    DotDims ⟨2, ![M, 128]⟩ ⟨2, ![128, 128]⟩ ⟨2, ![M, 128]⟩ := ⟨[1], [0], [0], [1], [], [], w⟩

/-- That product into the zero accumulator, at (r, d): Σₖ A[r, k] · B[k, d]. -/
theorem matmul_zero_apply {M : Nat} {φ₁ φ₂ : FTy}
    (w : DotDims.WF ⟨2, ![M, 128]⟩ ⟨2, ![128, 128]⟩ ⟨2, ![M, 128]⟩ [1] [0] [0] [1] [] [])
    (prec : Option ContractPrecision)
    (A : FVec Ideal ⟨2, ![M, 128]⟩ φ₁) (B : FVec Ideal ⟨2, ![128, 128]⟩ φ₂) (r : Fin M) (d : Fin 128) :
    matmul (dims M w) prec A B (constant ⟨2, ![M, 128]⟩ .f32 0x00000000#32) (ix2 r d)
      = ∑ k : Fin 128, A (ix2 r k) * B (ix2 k d) := by
  show FloatOps.matmul _ prec A B _ (ix2 r d) = _
  rw [Ideal.matmul_constant_zero_apply, ← Equiv.sum_comp (contrEquiv1 (dims M w) 128 rfl rfl).symm]
  refine Finset.sum_congr rfl fun k _ => ?_
  have hk := contrEquiv1_symm_val (dims M w) 128 rfl rfl k
  -- the left operand is read at (r, k) …
  have el : (dims M w).lhsIdx (ix2 r d) ((contrEquiv1 (dims M w) 128 rfl rfl).symm k) = ix2 r k := by
    funext ax; apply Fin.ext
    match ax with
    | ⟨0, _⟩ => simp [DotDims.lhsIdx]; rfl
    | ⟨1, _⟩ => exact ((dims M w).lhsIdx_val_of_single rfl _ _).trans hk
  -- … and the right one at (k, d)
  have er : (dims M w).rhsIdx (ix2 r d) ((contrEquiv1 (dims M w) 128 rfl rfl).symm k) = ix2 k d := by
    funext ax; apply Fin.ext
    match ax with
    | ⟨0, _⟩ => exact ((dims M w).rhsIdx_val_of_single rfl _ _).trans hk
    | ⟨1, _⟩ => simp [DotDims.rhsIdx]; rfl
  rw [el, er]

/-! ## The layer on a block of rows is the block of the layer

The layer's value at row r reads row r of each part, every weight block and the bias row. So if the blocks x₀ … of the
parts hold, at block row r, the parts' rows ρ r (and the weight and bias blocks hold the weight and bias arrays), the
layer of the blocks at (r, d) is the layer of the arrays at (ρ r, d). -/

theorem mlp4_block {M T : Nat} (ρ : Fin T → Fin M)
    (x0 x1 x2 x3 : Arr T 128) (w0 w1 w2 w3 : Arr 128 128) (b : Arr 1 128)
    (A0 A1 A2 A3 : Arr M 128) (W0 W1 W2 W3 : Arr 128 128) (B : Arr 1 128)
    (hx0 : ∀ r k, x0 (ix2 r k) = A0 (ix2 (ρ r) k)) (hx1 : ∀ r k, x1 (ix2 r k) = A1 (ix2 (ρ r) k))
    (hx2 : ∀ r k, x2 (ix2 r k) = A2 (ix2 (ρ r) k)) (hx3 : ∀ r k, x3 (ix2 r k) = A3 (ix2 (ρ r) k))
    (hw0 : ∀ k d, w0 (ix2 k d) = W0 (ix2 k d)) (hw1 : ∀ k d, w1 (ix2 k d) = W1 (ix2 k d))
    (hw2 : ∀ k d, w2 (ix2 k d) = W2 (ix2 k d)) (hw3 : ∀ k d, w3 (ix2 k d) = W3 (ix2 k d))
    (hb : ∀ d, b (ix2 0 d) = B (ix2 0 d)) (r : Fin T) (d : Fin 128) :
    mlp4 T x0 x1 x2 x3 w0 w1 w2 w3 b (ix2 r d) = mlp4 M A0 A1 A2 A3 W0 W1 W2 W3 B (ix2 (ρ r) d) := by
  show max (∑ k : Fin 128, x0 (ix2 r k) * w0 (ix2 k d) + ∑ k : Fin 128, x1 (ix2 r k) * w1 (ix2 k d)
      + ∑ k : Fin 128, x2 (ix2 r k) * w2 (ix2 k d) + ∑ k : Fin 128, x3 (ix2 r k) * w3 (ix2 k d) + b (ix2 0 d)) 0
    = max (∑ k : Fin 128, A0 (ix2 (ρ r) k) * W0 (ix2 k d) + ∑ k : Fin 128, A1 (ix2 (ρ r) k) * W1 (ix2 k d)
      + ∑ k : Fin 128, A2 (ix2 (ρ r) k) * W2 (ix2 k d) + ∑ k : Fin 128, A3 (ix2 (ρ r) k) * W3 (ix2 k d) + B (ix2 0 d)) 0
  simp only [hx0, hx1, hx2, hx3, hw0, hw1, hw2, hw3, hb]

theorem mlp6_block {M T : Nat} (ρ : Fin T → Fin M)
    (x0 x1 x2 x3 x4 x5 : Arr T 128) (w0 w1 w2 w3 w4 w5 : Arr 128 128) (b : Arr 1 128)
    (A0 A1 A2 A3 A4 A5 : Arr M 128) (W0 W1 W2 W3 W4 W5 : Arr 128 128) (B : Arr 1 128)
    (hx0 : ∀ r k, x0 (ix2 r k) = A0 (ix2 (ρ r) k)) (hx1 : ∀ r k, x1 (ix2 r k) = A1 (ix2 (ρ r) k))
    (hx2 : ∀ r k, x2 (ix2 r k) = A2 (ix2 (ρ r) k)) (hx3 : ∀ r k, x3 (ix2 r k) = A3 (ix2 (ρ r) k))
    (hx4 : ∀ r k, x4 (ix2 r k) = A4 (ix2 (ρ r) k)) (hx5 : ∀ r k, x5 (ix2 r k) = A5 (ix2 (ρ r) k))
    (hw0 : ∀ k d, w0 (ix2 k d) = W0 (ix2 k d)) (hw1 : ∀ k d, w1 (ix2 k d) = W1 (ix2 k d))
    (hw2 : ∀ k d, w2 (ix2 k d) = W2 (ix2 k d)) (hw3 : ∀ k d, w3 (ix2 k d) = W3 (ix2 k d))
    (hw4 : ∀ k d, w4 (ix2 k d) = W4 (ix2 k d)) (hw5 : ∀ k d, w5 (ix2 k d) = W5 (ix2 k d))
    (hb : ∀ d, b (ix2 0 d) = B (ix2 0 d)) (r : Fin T) (d : Fin 128) :
    mlp6 T x0 x1 x2 x3 x4 x5 w0 w1 w2 w3 w4 w5 b (ix2 r d)
      = mlp6 M A0 A1 A2 A3 A4 A5 W0 W1 W2 W3 W4 W5 B (ix2 (ρ r) d) := by
  show max (∑ k : Fin 128, x0 (ix2 r k) * w0 (ix2 k d) + ∑ k : Fin 128, x1 (ix2 r k) * w1 (ix2 k d)
      + ∑ k : Fin 128, x2 (ix2 r k) * w2 (ix2 k d) + ∑ k : Fin 128, x3 (ix2 r k) * w3 (ix2 k d)
      + ∑ k : Fin 128, x4 (ix2 r k) * w4 (ix2 k d) + ∑ k : Fin 128, x5 (ix2 r k) * w5 (ix2 k d) + b (ix2 0 d)) 0
    = max (∑ k : Fin 128, A0 (ix2 (ρ r) k) * W0 (ix2 k d) + ∑ k : Fin 128, A1 (ix2 (ρ r) k) * W1 (ix2 k d)
      + ∑ k : Fin 128, A2 (ix2 (ρ r) k) * W2 (ix2 k d) + ∑ k : Fin 128, A3 (ix2 (ρ r) k) * W3 (ix2 k d)
      + ∑ k : Fin 128, A4 (ix2 (ρ r) k) * W4 (ix2 k d) + ∑ k : Fin 128, A5 (ix2 (ρ r) k) * W5 (ix2 k d) + B (ix2 0 d)) 0
  simp only [hx0, hx1, hx2, hx3, hx4, hx5, hw0, hw1, hw2, hw3, hw4, hw5, hb]

end MlpSpec.Tile

end
-- ==== Proof.RegionValue0.lean ====
/-
  Region 0 of the kernel: a dense layer over six row-block parts, tiled over rows in blocks of 2048.

  At a grid point the body reads block t of each of the six parts (rows 2048·t … 2048·t + 2047), the six whole 128 × 128
  weight blocks and the whole bias row, accumulates the six 128-wide products into zero (the first four in one stretch
  of the body, the last two after it), adds the bias row to every row and takes the maximum with zero: at row r and
  column d of the block that is the layer's value at (r, d) of the blocks. Because the layer's row depends on the same
  row of each part only, what point t writes back is block t of the layer of the whole arrays; the 128 blocks tile the
  262144 rows, so the output array ends holding the layer.
-/
import proofs.«134187_j30227979829536_1_alg».proof.Proof.Gen.KernelIdeal.Frame
import Idealize.ShloMosaic.Lib.ValueLayout
import Idealize.ShloMosaic.Lib.Pipeline.Value
import proofs.«134187_j30227979829536_1_alg».proof.Proof.RegionValueTile

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

/-- The body's stored value, from the blocks it loads: the layer of the blocks. The sum of the first four products,
    carried out of the first stretch, is continued by the fifth and sixth; each product into the zero splat is the
    sum over the 128 shared coordinates; the format changes and the same-shape casts are the identity on extended
    reals; the zero the sum starts from is the real 0; the bias row is broadcast down the rows. -/
theorem pay0_eq (x0 x1 x2 x3 x4 x5 : Vec Ideal S2048x128 .f32) (w0 w1 w2 w3 w4 w5 : Vec Ideal S128x128 .f32)
    (b : Vec Ideal S1x128 .f32) :
    k0_pay1 (k0_pay2 x0 w0 x1 w1 x2 w2 x3 w3) (k0_pay3 x4) w4 x5 w5 b
      = MlpSpec.mlp6 2048 x0 x1 x2 x3 x4 x5 w0 w1 w2 w3 w4 w5 b := by
  funext i
  obtain ⟨r, d, rfl⟩ : ∃ (r : Fin 2048) (d : Fin 128), i = ix2 r d := ⟨i 0, i 1, eq_ix2 i⟩
  have hm : ∀ (A : FVec Ideal S2048x128 .bf16) (B : FVec Ideal S128x128 .bf16),
      matmul dot_S2048x128_S128x128_S2048x128_1_0_0_1_n_n none A B (constant S2048x128 .f32 0x00000000#32) (ix2 r d)
        = ∑ k : Fin 128, A (ix2 r k) * B (ix2 k d) := fun A B =>
    MlpSpec.Tile.matmul_zero_apply dot_S2048x128_S128x128_S2048x128_1_0_0_1_n_n_wf none A B r d
  unfold k0_pay1 k0_pay2 k0_pay3 MlpSpec.mlp6 MlpSpec.dot128
  simp only [maximumf_apply, addf_apply, broadcast_apply, hm, truncf_apply, shapeCast_self, broadcastTo_1b_ab_apply]
  rw [Ideal.ofBits_def, Ideal.ofBits_zero_f32, zero_add]

variable (V : (c : Dev nD) → (b : Ref sig .tc) → Buf (Elt Ideal) ((c : Thread nD τ).loc b))

theorem zero_offsets0 : (![0, 0] : Fin 2 → Nat) = fun _ => 0 := funext fun a => by fin_cases a <;> rfl

/-- The index maps, decided over the grid: each part's block moves with the output's down the rows and sits at column
    block 0; the weight and bias windows stay at block (0, 0); the output's row block at point t is t. -/
theorem index_maps0 : ∀ t : Fin cfg0.N,
      win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_3.index t (0 : Fin 2) = win0_13.index t (0 : Fin 2) ∧ win0_3.index t (1 : Fin 2) = 0
    ∧ win0_4.index t (0 : Fin 2) = win0_13.index t (0 : Fin 2) ∧ win0_4.index t (1 : Fin 2) = 0
    ∧ win0_5.index t (0 : Fin 2) = win0_13.index t (0 : Fin 2) ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = t.val ∧ win0_13.index t (1 : Fin 2) = 0 :=
  (by decide +kernel : ∀ t : Fin grid0.N, _)

set_option maxHeartbeats 1000000 in
/-- What point t writes back is block t of the layer of the arrays the region finds. -/
theorem flushed0_eq (c : Dev nD) (t : Fin cfg0.N) :
    (dat0 (F := Ideal) V c).flushed 13 t = ((cfg0.win 13).blk t).view.read (Elt Ideal)
      (MlpSpec.mlp6 262144 (V c main_arg1) (V c main_v14) (V c main_v21) (V c main_v52) (V c main_v28) (V c main_v35)
        (V c main_v53) (V c main_v54) (V c main_v55) (V c main_v56) (V c main_v57) (V c main_v58) (V c main_v59)) := by
  show (cfg0.win 13).cut (grid0.coords t) ((dat0 V c).after 13 t) = _
  rw [after0_13]
  unfold out0_13
  rw [View.canon_unit_zero zero_offsets0]
  simp only [View.ld_unit_zero (S := S2048x128) zero_offsets0, View.ld_unit_zero (S := S128x128) zero_offsets0,
    View.ld_unit_zero (S := S1x128) zero_offsets0]
  rw [pay0_eq]
  obtain ⟨a0, b0, a1, b1, a2, b2, a3, b3, a4, b4, a5, b5, a6, b6, a7, b7, a8, b8, a9, b9, a10, b10, a11, b11, a12, b12,
    a13, b13⟩ := index_maps0 t
  have ht : t.val < 128 := lt_of_lt_of_eq t.isLt N_0
  funext j
  obtain ⟨r, d, rfl⟩ : ∃ (r : Fin 2048) (d : Fin 128), j = ix2 r d := ⟨j 0, j 1, eq_ix2 j⟩
  have hr := r.isLt; have hd := d.isLt
  -- block row r' of point t is row 2048·t + r' of the arrays
  let ρ : Fin 2048 → Fin 262144 := fun r' => ⟨win0_13.index t (0 : Fin 2) * 2048 + r'.val, by have := r'.isLt; omega⟩
  have he : ((cfg0.win 13).blk t).view.emb (ix2 r d) = ix2 (ρ r) d := by
    refine funext fun a => Fin.ext ?_
    match a with
    | ⟨0, _⟩ => show win0_13.index t (0 : Fin 2) * 2048 + 1 * r.val = win0_13.index t (0 : Fin 2) * 2048 + r.val; omega
    | ⟨1, _⟩ => show win0_13.index t (1 : Fin 2) * 128 + 1 * d.val = d.val; omega
  show MlpSpec.mlp6 2048 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t) (iblk0 V c 12 t) (ix2 r d)
    = MlpSpec.mlp6 262144 (V c main_arg1) (V c main_v14) (V c main_v21) (V c main_v52) (V c main_v28) (V c main_v35)
        (V c main_v53) (V c main_v54) (V c main_v55) (V c main_v56) (V c main_v57) (V c main_v58) (V c main_v59)
      (((cfg0.win 13).blk t).view.emb (ix2 r d))
  rw [he]
  exact MlpSpec.Tile.mlp6_block ρ _ _ _ _ _ _ _ _ _ _ _ _ _ _ _ _ _ _ _ _ _ _ _ _ _ _
    (by
      intro r' k
      show V c main_arg1 (((cfg0.win 0).blk t).view.emb (ix2 r' k)) = _
      refine congrArg _ (funext fun a => Fin.ext ?_)
      have hr' := r'.isLt; have hk := k.isLt
      match a with
      | ⟨0, _⟩ => show win0_0.index t (0 : Fin 2) * 2048 + 1 * r'.val = win0_13.index t (0 : Fin 2) * 2048 + r'.val; omega
      | ⟨1, _⟩ => show win0_0.index t (1 : Fin 2) * 128 + 1 * k.val = k.val; omega)
    (by
      intro r' k
      show V c main_v14 (((cfg0.win 1).blk t).view.emb (ix2 r' k)) = _
      refine congrArg _ (funext fun a => Fin.ext ?_)
      have hr' := r'.isLt; have hk := k.isLt
      match a with
      | ⟨0, _⟩ => show win0_1.index t (0 : Fin 2) * 2048 + 1 * r'.val = win0_13.index t (0 : Fin 2) * 2048 + r'.val; omega
      | ⟨1, _⟩ => show win0_1.index t (1 : Fin 2) * 128 + 1 * k.val = k.val; omega)
    (by
      intro r' k
      show V c main_v21 (((cfg0.win 2).blk t).view.emb (ix2 r' k)) = _
      refine congrArg _ (funext fun a => Fin.ext ?_)
      have hr' := r'.isLt; have hk := k.isLt
      match a with
      | ⟨0, _⟩ => show win0_2.index t (0 : Fin 2) * 2048 + 1 * r'.val = win0_13.index t (0 : Fin 2) * 2048 + r'.val; omega
      | ⟨1, _⟩ => show win0_2.index t (1 : Fin 2) * 128 + 1 * k.val = k.val; omega)
    (by
      intro r' k
      show V c main_v52 (((cfg0.win 3).blk t).view.emb (ix2 r' k)) = _
      refine congrArg _ (funext fun a => Fin.ext ?_)
      have hr' := r'.isLt; have hk := k.isLt
      match a with
      | ⟨0, _⟩ => show win0_3.index t (0 : Fin 2) * 2048 + 1 * r'.val = win0_13.index t (0 : Fin 2) * 2048 + r'.val; omega
      | ⟨1, _⟩ => show win0_3.index t (1 : Fin 2) * 128 + 1 * k.val = k.val; omega)
    (by
      intro r' k
      show V c main_v28 (((cfg0.win 4).blk t).view.emb (ix2 r' k)) = _
      refine congrArg _ (funext fun a => Fin.ext ?_)
      have hr' := r'.isLt; have hk := k.isLt
      match a with
      | ⟨0, _⟩ => show win0_4.index t (0 : Fin 2) * 2048 + 1 * r'.val = win0_13.index t (0 : Fin 2) * 2048 + r'.val; omega
      | ⟨1, _⟩ => show win0_4.index t (1 : Fin 2) * 128 + 1 * k.val = k.val; omega)
    (by
      intro r' k
      show V c main_v35 (((cfg0.win 5).blk t).view.emb (ix2 r' k)) = _
      refine congrArg _ (funext fun a => Fin.ext ?_)
      have hr' := r'.isLt; have hk := k.isLt
      match a with
      | ⟨0, _⟩ => show win0_5.index t (0 : Fin 2) * 2048 + 1 * r'.val = win0_13.index t (0 : Fin 2) * 2048 + r'.val; omega
      | ⟨1, _⟩ => show win0_5.index t (1 : Fin 2) * 128 + 1 * k.val = k.val; omega)
    (by
      intro k d'
      show V c main_v53 (((cfg0.win 6).blk t).view.emb (ix2 k d')) = _
      refine congrArg _ (funext fun a => Fin.ext ?_)
      have hk := k.isLt; have hd' := d'.isLt
      match a with
      | ⟨0, _⟩ => show win0_6.index t (0 : Fin 2) * 128 + 1 * k.val = k.val; omega
      | ⟨1, _⟩ => show win0_6.index t (1 : Fin 2) * 128 + 1 * d'.val = d'.val; omega)
    (by
      intro k d'
      show V c main_v54 (((cfg0.win 7).blk t).view.emb (ix2 k d')) = _
      refine congrArg _ (funext fun a => Fin.ext ?_)
      have hk := k.isLt; have hd' := d'.isLt
      match a with
      | ⟨0, _⟩ => show win0_7.index t (0 : Fin 2) * 128 + 1 * k.val = k.val; omega
      | ⟨1, _⟩ => show win0_7.index t (1 : Fin 2) * 128 + 1 * d'.val = d'.val; omega)
    (by
      intro k d'
      show V c main_v55 (((cfg0.win 8).blk t).view.emb (ix2 k d')) = _
      refine congrArg _ (funext fun a => Fin.ext ?_)
      have hk := k.isLt; have hd' := d'.isLt
      match a with
      | ⟨0, _⟩ => show win0_8.index t (0 : Fin 2) * 128 + 1 * k.val = k.val; omega
      | ⟨1, _⟩ => show win0_8.index t (1 : Fin 2) * 128 + 1 * d'.val = d'.val; omega)
    (by
      intro k d'
      show V c main_v56 (((cfg0.win 9).blk t).view.emb (ix2 k d')) = _
      refine congrArg _ (funext fun a => Fin.ext ?_)
      have hk := k.isLt; have hd' := d'.isLt
      match a with
      | ⟨0, _⟩ => show win0_9.index t (0 : Fin 2) * 128 + 1 * k.val = k.val; omega
      | ⟨1, _⟩ => show win0_9.index t (1 : Fin 2) * 128 + 1 * d'.val = d'.val; omega)
    (by
      intro k d'
      show V c main_v57 (((cfg0.win 10).blk t).view.emb (ix2 k d')) = _
      refine congrArg _ (funext fun a => Fin.ext ?_)
      have hk := k.isLt; have hd' := d'.isLt
      match a with
      | ⟨0, _⟩ => show win0_10.index t (0 : Fin 2) * 128 + 1 * k.val = k.val; omega
      | ⟨1, _⟩ => show win0_10.index t (1 : Fin 2) * 128 + 1 * d'.val = d'.val; omega)
    (by
      intro k d'
      show V c main_v58 (((cfg0.win 11).blk t).view.emb (ix2 k d')) = _
      refine congrArg _ (funext fun a => Fin.ext ?_)
      have hk := k.isLt; have hd' := d'.isLt
      match a with
      | ⟨0, _⟩ => show win0_11.index t (0 : Fin 2) * 128 + 1 * k.val = k.val; omega
      | ⟨1, _⟩ => show win0_11.index t (1 : Fin 2) * 128 + 1 * d'.val = d'.val; omega)
    (by
      intro d'
      show V c main_v59 (((cfg0.win 12).blk t).view.emb (ix2 (0 : Fin 1) d')) = _
      refine congrArg _ (funext fun a => Fin.ext ?_)
      have hd' := d'.isLt
      match a with
      | ⟨0, _⟩ => show win0_12.index t (0 : Fin 2) * 1 + 1 * 0 = 0; omega
      | ⟨1, _⟩ => show win0_12.index t (1 : Fin 2) * 128 + 1 * d'.val = d'.val; omega)
    r d

/-- Every row lies in the block of its quotient by 2048: the blocks cover the output array, which therefore ends
    holding the layer of the arrays the region finds. -/
theorem region0 (c : Dev nD) : (dat0 (F := Ideal) V c).arrAt 13 cfg0.N
      = MlpSpec.mlp6 262144 (V c main_arg1) (V c main_v14) (V c main_v21) (V c main_v52) (V c main_v28) (V c main_v35)
          (V c main_v53) (V c main_v54) (V c main_v55) (V c main_v56) (V c main_v57) (V c main_v58) (V c main_v59) :=
  (dat0 V c).arrAt_eq_of_cover 13 _ (fun t _ => flushed0_eq V c t) fun i => by
    have hi0 : (i 0).val < 262144 := (i 0).isLt
    have hi1 : (i 1).val < 128 := (i 1).isLt
    have hN : cfg0.N = 128 := N_0
    let t : Fin cfg0.N := ⟨(i 0).val / 2048, by rw [hN]; omega⟩
    obtain ⟨-, -, -, -, -, -, -, -, -, -, -, -, -, -, -, -, -, -, -, -, -, -, -, -, -, -, a13, b13⟩ := index_maps0 t
    have a13' : win0_13.index t (0 : Fin 2) = (i 0).val / 2048 := a13
    refine ⟨t, flush0_13 t, ?_⟩
    show i ∈ ((View.whole (Pipeline.arrRef spec0 13)).slice (win0_13.rect t)).set
    rw [View.set_slice_whole, Rect.mem_set_unit]
    intro a
    match a with
    | ⟨0, _⟩ => show win0_13.index t (0 : Fin 2) * 2048 ≤ (i 0).val ∧ (i 0).val < win0_13.index t (0 : Fin 2) * 2048 + 2048; omega
    | ⟨1, _⟩ => show win0_13.index t (1 : Fin 2) * 128 ≤ (i 1).val ∧ (i 1).val < win0_13.index t (1 : Fin 2) * 128 + 128; omega

end Cert.KernelIdeal.RegionValue

end
-- ==== Proof.KRegionB.lean ====
/-
  The edge layer's output array at the end of the run.

  A region's output array, once the region has run, holds the dense layer of the arrays the region found; neither that
  array nor those input arrays are written again before the end of the run. So at the end of the run the output array is
  the layer of the input arrays' final contents.
-/
import proofs.«134187_j30227979829536_1_alg».proof.Proof.KFinal
import proofs.«134187_j30227979829536_1_alg».proof.Proof.RegionValue0

set_option maxRecDepth 16384

noncomputable section

namespace Cert.KernelIdeal.Final

open Idealize.ShloMosaic Idealize.ShloMosaic.StableHlo Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Region 0's output array at the end of the run is the layer of its input arrays at the end of the run. -/
theorem region_out0 : W34 m ρ c (Proc.devRef .tc main_v60)
    = MlpSpec.mlp6 262144 (W34 m ρ c (Proc.devRef .tc main_arg1)) (W34 m ρ c (Proc.devRef .tc main_v14)) (W34 m ρ c (Proc.devRef .tc main_v21)) (W34 m ρ c (Proc.devRef .tc main_v52)) (W34 m ρ c (Proc.devRef .tc main_v28)) (W34 m ρ c (Proc.devRef .tc main_v35)) (W34 m ρ c (Proc.devRef .tc main_v53)) (W34 m ρ c (Proc.devRef .tc main_v54)) (W34 m ρ c (Proc.devRef .tc main_v55)) (W34 m ρ c (Proc.devRef .tc main_v56)) (W34 m ρ c (Proc.devRef .tc main_v57)) (W34 m ρ c (Proc.devRef .tc main_v58)) (W34 m ρ c (Proc.devRef .tc main_v59)) := by
  rw [to10 m ρ c main_v60 (by decide)]
  rw [to9 m ρ c main_arg1 (by decide), to9 m ρ c main_v14 (by decide), to9 m ρ c main_v21 (by decide), to9 m ρ c main_v52 (by decide), to9 m ρ c main_v28 (by decide), to9 m ρ c main_v35 (by decide), to9 m ρ c main_v53 (by decide), to9 m ρ c main_v54 (by decide), to9 m ρ c main_v55 (by decide), to9 m ρ c main_v56 (by decide), to9 m ρ c main_v57 (by decide), to9 m ρ c main_v58 (by decide), to9 m ρ c main_v59 (by decide)]
  exact (W10_arr m ρ c 13).trans (RegionValue.region0 (V9 m ρ) c)

end Cert.KernelIdeal.Final

end
-- ==== Proof.LayerLaw.lean ====
/-
  The dense layer as one matrix product over the concatenation, against the layer block by block.

  Row r of the concatenation [p₀ | … | p₍ₙ₋₁₎] has at column 128·j + k the entry pⱼ[r, k]; row 128·j + k of the stacked
  weight matrix W is row k of its j-th 128-row slice. So the product's entry at (r, d), the sum over all n·128 columns c
  of cat[r, c] · W[c, d], is the sum over j of the sums over k of pⱼ[r, k] · Wⱼ[k, d]: a finite sum regrouped into
  consecutive runs, which uses only that addition of extended reals is commutative and associative. The bias, broadcast
  from a vector to a one-row matrix to every row, is at (r, d) the vector's d-th entry — as is the vector recast as a
  one-row matrix, read at (0, d). The rectifier's zero is the real 0.
-/
import Idealize.ShloMosaic.PureOps.Ideal.Laws
import Idealize.ShloMosaic.Lib.ValueIdx
import Idealize.ShloMosaic.Lib.Pipeline.Value
import Idealize.ShloMosaic.Lib.StackMember
import Idealize.ShloMosaic.Lib.IdealHost
import proofs.«134187_j30227979829536_1_alg».proof.Proof.MlpSpec

noncomputable section

namespace LayerLaw

open Idealize.ShloMosaic Idealize.ShloMosaic.ValueIdx MlpSpec

/-- A vector of 128 extended reals. -/
abbrev Row : Type := (⟨1, ![128]⟩ : Shape).Idx → EReal

/-- The bias broadcast to a one-row matrix and then to every row, read at `(r, d)`: the vector's entry `d`. -/
theorem bias_bcast (M : Nat) (b : Row) (hb1 : (⟨1, ![128]⟩ : Shape).BroadcastsInDim ⟨2, ![1, 128]⟩ ![1])
    (hb2 : (⟨2, ![1, 128]⟩ : Shape).BroadcastsInDim ⟨2, ![M, 128]⟩ ![0, 1]) (r : Fin M) (d : Fin 128) :
    broadcastInDim ⟨2, ![M, 128]⟩ ![0, 1] hb2 (broadcastInDim ⟨2, ![1, 128]⟩ ![1] hb1 b) (ix2 r d) = b (ix1 d) := by
  rw [broadcastInDim_apply ![0, 1] hb2 _ (ix2 r d) (ix2 (0 : Fin 1) d) (fun a => by
    match a with
    | ⟨0, _⟩ => simp
    | ⟨1, _⟩ => simp; rfl)]
  rw [broadcastInDim_apply ![1] hb1 b (ix2 (0 : Fin 1) d) (ix1 d) (fun a => by
    match a with
    | ⟨0, _⟩ => simp)]

/-- The bias recast as a one-row matrix, read at `(0, d)`: the vector's entry `d`. -/
theorem bias_cast (b : Row) (hr : (⟨1, ![128]⟩ : Shape).ShapeCasts ⟨2, ![1, 128]⟩) (d : Fin 128) :
    shapeCast ⟨2, ![1, 128]⟩ b hr (ix2 (0 : Fin 1) d) = b (ix1 d) := by
  refine shapeCast_apply b hr (ix2 (0 : Fin 1) d) (ix1 d) ?_
  rw [Shape.rowMajor_val_one, Shape.rowMajor_val_two]
  simp

/-- The rectifier's zero splat, read anywhere: the real `0`. -/
theorem zero_bcast (M : Nat) (hb0 : (⟨0, ![]⟩ : Shape).BroadcastsInDim ⟨2, ![M, 128]⟩ ![]) (i : (⟨2, ![M, 128]⟩ : Shape).Idx) :
    broadcastInDim ⟨2, ![M, 128]⟩ ![] hb0 (constant (F := Ideal) ⟨0, ![]⟩ .f32 0x00000000#32) i = 0 := by
  rw [broadcastInDim_apply ![] hb0 _ i ix0 (fun a => a.elim0)]
  exact Ideal.ofBits_zero_f32

/-- Row `k` of the 128-row slice of a `K`-row matrix starting at row `off` is row `off + k` of the matrix. -/
theorem slice_rows (K off : Nat) (W : Arr K 128) (hs : (⟨2, ![K, 128]⟩ : Shape).Slices ![off, 0] ⟨2, ![128, 128]⟩)
    (k d : Fin 128) {row : Fin K} (h : row.val = off + k.val) :
    W (ix2 row d) = extractStridedSlice ⟨2, ![128, 128]⟩ ![off, 0] W hs (ix2 k d) := by
  refine (extractStridedSlice_apply ![off, 0] W hs (ix2 k d) (ix2 row d) (fun a => ?_)).symm
  match a with
  | ⟨0, _⟩ => exact h
  | ⟨1, _⟩ => simp

/-- A sum over 768 consecutive indices is the sum of its six runs of 128. -/
theorem sum_runs6 (f : Fin 768 → EReal) :
    ∑ c, f c = ∑ j : Fin 6, ∑ k : Fin 128, f ⟨128 * j.val + k.val, by omega⟩ := by
  rw [← (finProdFinEquiv (m := 6) (n := 128)).sum_comp f, Fintype.sum_prod_type]
  refine Finset.sum_congr rfl fun j _ => Finset.sum_congr rfl fun k _ => congrArg f (Fin.ext ?_)
  simp [finProdFinEquiv]; omega

/-- A sum over 512 consecutive indices is the sum of its four runs of 128. -/
theorem sum_runs4 (f : Fin 512 → EReal) :
    ∑ c, f c = ∑ j : Fin 4, ∑ k : Fin 128, f ⟨128 * j.val + k.val, by omega⟩ := by
  rw [← (finProdFinEquiv (m := 4) (n := 128)).sum_comp f, Fintype.sum_prod_type]
  refine Finset.sum_congr rfl fun j _ => Finset.sum_congr rfl fun k _ => congrArg f (Fin.ext ?_)
  simp [finProdFinEquiv]; omega

/-- Column `128·0 + k` of the concatenation of 6 blocks is column `k` of block 0. -/
theorem cat6_0 (M : Nat) (p0 p1 p2 p3 p4 p5 : Arr M 128)
    (hcat : Shape.Concatenates [(⟨2, ![M, 128]⟩ : Shape), (⟨2, ![M, 128]⟩ : Shape), (⟨2, ![M, 128]⟩ : Shape), (⟨2, ![M, 128]⟩ : Shape), (⟨2, ![M, 128]⟩ : Shape), (⟨2, ![M, 128]⟩ : Shape)] ⟨2, ![M, 768]⟩ 1)
    (r : Fin M) (k : Fin 128) (col : Fin 768) (hcol : col.val = 0 + k.val) :
    concatenate ⟨2, ![M, 768]⟩ 1 [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) = p0 (ix2 r k) := by
  refine concatenate_apply_piece (t := ⟨2, ![M, 768]⟩) (1 : Fin 2) [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) 0 (by simp) ⟨2, ![M, 128]⟩ p0 rfl rfl 0 (by simp) (ix2 r k)
    (fun b hb => ?_) ?_
  · match b with
    | ⟨0, _⟩ => rfl
    | ⟨1, _⟩ => exact absurd rfl hb
  · exact hcol.symm

/-- Column `128·1 + k` of the concatenation of 6 blocks is column `k` of block 1. -/
theorem cat6_1 (M : Nat) (p0 p1 p2 p3 p4 p5 : Arr M 128)
    (hcat : Shape.Concatenates [(⟨2, ![M, 128]⟩ : Shape), (⟨2, ![M, 128]⟩ : Shape), (⟨2, ![M, 128]⟩ : Shape), (⟨2, ![M, 128]⟩ : Shape), (⟨2, ![M, 128]⟩ : Shape), (⟨2, ![M, 128]⟩ : Shape)] ⟨2, ![M, 768]⟩ 1)
    (r : Fin M) (k : Fin 128) (col : Fin 768) (hcol : col.val = 128 + k.val) :
    concatenate ⟨2, ![M, 768]⟩ 1 [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) = p1 (ix2 r k) := by
  refine concatenate_apply_piece (t := ⟨2, ![M, 768]⟩) (1 : Fin 2) [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) 1 (by simp) ⟨2, ![M, 128]⟩ p1 rfl rfl 128 (by simp) (ix2 r k)
    (fun b hb => ?_) ?_
  · match b with
    | ⟨0, _⟩ => rfl
    | ⟨1, _⟩ => exact absurd rfl hb
  · exact hcol.symm

/-- Column `128·2 + k` of the concatenation of 6 blocks is column `k` of block 2. -/
theorem cat6_2 (M : Nat) (p0 p1 p2 p3 p4 p5 : Arr M 128)
    (hcat : Shape.Concatenates [(⟨2, ![M, 128]⟩ : Shape), (⟨2, ![M, 128]⟩ : Shape), (⟨2, ![M, 128]⟩ : Shape), (⟨2, ![M, 128]⟩ : Shape), (⟨2, ![M, 128]⟩ : Shape), (⟨2, ![M, 128]⟩ : Shape)] ⟨2, ![M, 768]⟩ 1)
    (r : Fin M) (k : Fin 128) (col : Fin 768) (hcol : col.val = 256 + k.val) :
    concatenate ⟨2, ![M, 768]⟩ 1 [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) = p2 (ix2 r k) := by
  refine concatenate_apply_piece (t := ⟨2, ![M, 768]⟩) (1 : Fin 2) [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) 2 (by simp) ⟨2, ![M, 128]⟩ p2 rfl rfl 256 (by simp) (ix2 r k)
    (fun b hb => ?_) ?_
  · match b with
    | ⟨0, _⟩ => rfl
    | ⟨1, _⟩ => exact absurd rfl hb
  · exact hcol.symm

/-- Column `128·3 + k` of the concatenation of 6 blocks is column `k` of block 3. -/
theorem cat6_3 (M : Nat) (p0 p1 p2 p3 p4 p5 : Arr M 128)
    (hcat : Shape.Concatenates [(⟨2, ![M, 128]⟩ : Shape), (⟨2, ![M, 128]⟩ : Shape), (⟨2, ![M, 128]⟩ : Shape), (⟨2, ![M, 128]⟩ : Shape), (⟨2, ![M, 128]⟩ : Shape), (⟨2, ![M, 128]⟩ : Shape)] ⟨2, ![M, 768]⟩ 1)
    (r : Fin M) (k : Fin 128) (col : Fin 768) (hcol : col.val = 384 + k.val) :
    concatenate ⟨2, ![M, 768]⟩ 1 [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) = p3 (ix2 r k) := by
  refine concatenate_apply_piece (t := ⟨2, ![M, 768]⟩) (1 : Fin 2) [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) 3 (by simp) ⟨2, ![M, 128]⟩ p3 rfl rfl 384 (by simp) (ix2 r k)
    (fun b hb => ?_) ?_
  · match b with
    | ⟨0, _⟩ => rfl
    | ⟨1, _⟩ => exact absurd rfl hb
  · exact hcol.symm

/-- Column `128·4 + k` of the concatenation of 6 blocks is column `k` of block 4. -/
theorem cat6_4 (M : Nat) (p0 p1 p2 p3 p4 p5 : Arr M 128)
    (hcat : Shape.Concatenates [(⟨2, ![M, 128]⟩ : Shape), (⟨2, ![M, 128]⟩ : Shape), (⟨2, ![M, 128]⟩ : Shape), (⟨2, ![M, 128]⟩ : Shape), (⟨2, ![M, 128]⟩ : Shape), (⟨2, ![M, 128]⟩ : Shape)] ⟨2, ![M, 768]⟩ 1)
    (r : Fin M) (k : Fin 128) (col : Fin 768) (hcol : col.val = 512 + k.val) :
    concatenate ⟨2, ![M, 768]⟩ 1 [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) = p4 (ix2 r k) := by
  refine concatenate_apply_piece (t := ⟨2, ![M, 768]⟩) (1 : Fin 2) [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) 4 (by simp) ⟨2, ![M, 128]⟩ p4 rfl rfl 512 (by simp) (ix2 r k)
    (fun b hb => ?_) ?_
  · match b with
    | ⟨0, _⟩ => rfl
    | ⟨1, _⟩ => exact absurd rfl hb
  · exact hcol.symm

/-- Column `128·5 + k` of the concatenation of 6 blocks is column `k` of block 5. -/
theorem cat6_5 (M : Nat) (p0 p1 p2 p3 p4 p5 : Arr M 128)
    (hcat : Shape.Concatenates [(⟨2, ![M, 128]⟩ : Shape), (⟨2, ![M, 128]⟩ : Shape), (⟨2, ![M, 128]⟩ : Shape), (⟨2, ![M, 128]⟩ : Shape), (⟨2, ![M, 128]⟩ : Shape), (⟨2, ![M, 128]⟩ : Shape)] ⟨2, ![M, 768]⟩ 1)
    (r : Fin M) (k : Fin 128) (col : Fin 768) (hcol : col.val = 640 + k.val) :
    concatenate ⟨2, ![M, 768]⟩ 1 [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) = p5 (ix2 r k) := by
  refine concatenate_apply_piece (t := ⟨2, ![M, 768]⟩) (1 : Fin 2) [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat (ix2 r col) 5 (by simp) ⟨2, ![M, 128]⟩ p5 rfl rfl 640 (by simp) (ix2 r k)
    (fun b hb => ?_) ?_
  · match b with
    | ⟨0, _⟩ => rfl
    | ⟨1, _⟩ => exact absurd rfl hb
  · exact hcol.symm

/-- Column `128·0 + k` of the concatenation of 4 blocks is column `k` of block 0. -/
theorem cat4_0 (M : Nat) (p0 p1 p2 p3 : Arr M 128)
    (hcat : Shape.Concatenates [(⟨2, ![M, 128]⟩ : Shape), (⟨2, ![M, 128]⟩ : Shape), (⟨2, ![M, 128]⟩ : Shape), (⟨2, ![M, 128]⟩ : Shape)] ⟨2, ![M, 512]⟩ 1)
    (r : Fin M) (k : Fin 128) (col : Fin 512) (hcol : col.val = 0 + k.val) :
    concatenate ⟨2, ![M, 512]⟩ 1 [⟨⟨2, ![M, 128]⟩, p0⟩, ⟨⟨2, ![M, 128]⟩, p1⟩, ⟨⟨2, ![M, 128]⟩, p2⟩, ⟨⟨2, ![M, 128]⟩, p3⟩] hcat (ix2 r col) = p0 (ix2 r k) := by
  refine concatenate_apply_piece (t := ⟨2, ![M, 512]⟩) (1 : Fin 2) [⟨⟨2, ![M, 128]⟩, p0⟩, ⟨⟨2, ![M, 128]⟩, p1⟩, ⟨⟨2, ![M, 128]⟩, p2⟩, ⟨⟨2, ![M, 128]⟩, p3⟩] hcat (ix2 r col) 0 (by simp) ⟨2, ![M, 128]⟩ p0 rfl rfl 0 (by simp) (ix2 r k)
    (fun b hb => ?_) ?_
  · match b with
    | ⟨0, _⟩ => rfl
    | ⟨1, _⟩ => exact absurd rfl hb
  · exact hcol.symm

/-- Column `128·1 + k` of the concatenation of 4 blocks is column `k` of block 1. -/
theorem cat4_1 (M : Nat) (p0 p1 p2 p3 : Arr M 128)
    (hcat : Shape.Concatenates [(⟨2, ![M, 128]⟩ : Shape), (⟨2, ![M, 128]⟩ : Shape), (⟨2, ![M, 128]⟩ : Shape), (⟨2, ![M, 128]⟩ : Shape)] ⟨2, ![M, 512]⟩ 1)
    (r : Fin M) (k : Fin 128) (col : Fin 512) (hcol : col.val = 128 + k.val) :
    concatenate ⟨2, ![M, 512]⟩ 1 [⟨⟨2, ![M, 128]⟩, p0⟩, ⟨⟨2, ![M, 128]⟩, p1⟩, ⟨⟨2, ![M, 128]⟩, p2⟩, ⟨⟨2, ![M, 128]⟩, p3⟩] hcat (ix2 r col) = p1 (ix2 r k) := by
  refine concatenate_apply_piece (t := ⟨2, ![M, 512]⟩) (1 : Fin 2) [⟨⟨2, ![M, 128]⟩, p0⟩, ⟨⟨2, ![M, 128]⟩, p1⟩, ⟨⟨2, ![M, 128]⟩, p2⟩, ⟨⟨2, ![M, 128]⟩, p3⟩] hcat (ix2 r col) 1 (by simp) ⟨2, ![M, 128]⟩ p1 rfl rfl 128 (by simp) (ix2 r k)
    (fun b hb => ?_) ?_
  · match b with
    | ⟨0, _⟩ => rfl
    | ⟨1, _⟩ => exact absurd rfl hb
  · exact hcol.symm

/-- Column `128·2 + k` of the concatenation of 4 blocks is column `k` of block 2. -/
theorem cat4_2 (M : Nat) (p0 p1 p2 p3 : Arr M 128)
    (hcat : Shape.Concatenates [(⟨2, ![M, 128]⟩ : Shape), (⟨2, ![M, 128]⟩ : Shape), (⟨2, ![M, 128]⟩ : Shape), (⟨2, ![M, 128]⟩ : Shape)] ⟨2, ![M, 512]⟩ 1)
    (r : Fin M) (k : Fin 128) (col : Fin 512) (hcol : col.val = 256 + k.val) :
    concatenate ⟨2, ![M, 512]⟩ 1 [⟨⟨2, ![M, 128]⟩, p0⟩, ⟨⟨2, ![M, 128]⟩, p1⟩, ⟨⟨2, ![M, 128]⟩, p2⟩, ⟨⟨2, ![M, 128]⟩, p3⟩] hcat (ix2 r col) = p2 (ix2 r k) := by
  refine concatenate_apply_piece (t := ⟨2, ![M, 512]⟩) (1 : Fin 2) [⟨⟨2, ![M, 128]⟩, p0⟩, ⟨⟨2, ![M, 128]⟩, p1⟩, ⟨⟨2, ![M, 128]⟩, p2⟩, ⟨⟨2, ![M, 128]⟩, p3⟩] hcat (ix2 r col) 2 (by simp) ⟨2, ![M, 128]⟩ p2 rfl rfl 256 (by simp) (ix2 r k)
    (fun b hb => ?_) ?_
  · match b with
    | ⟨0, _⟩ => rfl
    | ⟨1, _⟩ => exact absurd rfl hb
  · exact hcol.symm

/-- Column `128·3 + k` of the concatenation of 4 blocks is column `k` of block 3. -/
theorem cat4_3 (M : Nat) (p0 p1 p2 p3 : Arr M 128)
    (hcat : Shape.Concatenates [(⟨2, ![M, 128]⟩ : Shape), (⟨2, ![M, 128]⟩ : Shape), (⟨2, ![M, 128]⟩ : Shape), (⟨2, ![M, 128]⟩ : Shape)] ⟨2, ![M, 512]⟩ 1)
    (r : Fin M) (k : Fin 128) (col : Fin 512) (hcol : col.val = 384 + k.val) :
    concatenate ⟨2, ![M, 512]⟩ 1 [⟨⟨2, ![M, 128]⟩, p0⟩, ⟨⟨2, ![M, 128]⟩, p1⟩, ⟨⟨2, ![M, 128]⟩, p2⟩, ⟨⟨2, ![M, 128]⟩, p3⟩] hcat (ix2 r col) = p3 (ix2 r k) := by
  refine concatenate_apply_piece (t := ⟨2, ![M, 512]⟩) (1 : Fin 2) [⟨⟨2, ![M, 128]⟩, p0⟩, ⟨⟨2, ![M, 128]⟩, p1⟩, ⟨⟨2, ![M, 128]⟩, p2⟩, ⟨⟨2, ![M, 128]⟩, p3⟩] hcat (ix2 r col) 3 (by simp) ⟨2, ![M, 128]⟩ p3 rfl rfl 384 (by simp) (ix2 r k)
    (fun b hb => ?_) ?_
  · match b with
    | ⟨0, _⟩ => rfl
    | ⟨1, _⟩ => exact absurd rfl hb
  · exact hcol.symm

/-- One product over the 6·128 columns of the concatenation, plus the bias broadcast to every row, rectified, is the layer
    taken block by block against the 6 row slices of the weight matrix and the bias recast as a one-row matrix. -/
theorem layer6 (M : Nat) (p0 p1 p2 p3 p4 p5 : Arr M 128) (W : Arr 768 128) (b : Row)
    (hcat : Shape.Concatenates [(⟨2, ![M, 128]⟩ : Shape), (⟨2, ![M, 128]⟩ : Shape), (⟨2, ![M, 128]⟩ : Shape), (⟨2, ![M, 128]⟩ : Shape), (⟨2, ![M, 128]⟩ : Shape), (⟨2, ![M, 128]⟩ : Shape)] ⟨2, ![M, 768]⟩ 1)
    (D : DotDims ⟨2, ![M, 768]⟩ ⟨2, ![768, 128]⟩ ⟨2, ![M, 128]⟩) (hD : D = DotDims.plain M 768 128)
    (hb1 : (⟨1, ![128]⟩ : Shape).BroadcastsInDim ⟨2, ![1, 128]⟩ ![1])
    (hb2 : (⟨2, ![1, 128]⟩ : Shape).BroadcastsInDim ⟨2, ![M, 128]⟩ ![0, 1])
    (hb0 : (⟨0, ![]⟩ : Shape).BroadcastsInDim ⟨2, ![M, 128]⟩ ![])
    (hs0 : (⟨2, ![768, 128]⟩ : Shape).Slices ![0, 0] ⟨2, ![128, 128]⟩)
    (hs1 : (⟨2, ![768, 128]⟩ : Shape).Slices ![128, 0] ⟨2, ![128, 128]⟩)
    (hs2 : (⟨2, ![768, 128]⟩ : Shape).Slices ![256, 0] ⟨2, ![128, 128]⟩)
    (hs3 : (⟨2, ![768, 128]⟩ : Shape).Slices ![384, 0] ⟨2, ![128, 128]⟩)
    (hs4 : (⟨2, ![768, 128]⟩ : Shape).Slices ![512, 0] ⟨2, ![128, 128]⟩)
    (hs5 : (⟨2, ![768, 128]⟩ : Shape).Slices ![640, 0] ⟨2, ![128, 128]⟩)
    (hr : (⟨1, ![128]⟩ : Shape).ShapeCasts ⟨2, ![1, 128]⟩) :
    maximumf (F := Ideal) (φ := .f32)
        (addf (Host.dotGeneral (φ₁ := .f32) (φ₂ := .f32) D none (concatenate ⟨2, ![M, 768]⟩ 1 [⟨⟨2, ![M, 128]⟩, p0⟩, ⟨⟨2, ![M, 128]⟩, p1⟩, ⟨⟨2, ![M, 128]⟩, p2⟩, ⟨⟨2, ![M, 128]⟩, p3⟩, ⟨⟨2, ![M, 128]⟩, p4⟩, ⟨⟨2, ![M, 128]⟩, p5⟩] hcat) W)
          (broadcastInDim ⟨2, ![M, 128]⟩ ![0, 1] hb2 (broadcastInDim ⟨2, ![1, 128]⟩ ![1] hb1 b)))
        (broadcastInDim ⟨2, ![M, 128]⟩ ![] hb0 (constant (F := Ideal) ⟨0, ![]⟩ .f32 0x00000000#32))
      = mlp6 M p0 p1 p2 p3 p4 p5
          (extractStridedSlice ⟨2, ![128, 128]⟩ ![0, 0] W hs0)
          (extractStridedSlice ⟨2, ![128, 128]⟩ ![128, 0] W hs1)
          (extractStridedSlice ⟨2, ![128, 128]⟩ ![256, 0] W hs2)
          (extractStridedSlice ⟨2, ![128, 128]⟩ ![384, 0] W hs3)
          (extractStridedSlice ⟨2, ![128, 128]⟩ ![512, 0] W hs4)
          (extractStridedSlice ⟨2, ![128, 128]⟩ ![640, 0] W hs5)
          (fun i => shapeCast ⟨2, ![1, 128]⟩ b hr i) := by
  subst hD
  funext i
  obtain ⟨r, d, rfl⟩ : ∃ (r : Fin M) (d : Fin 128), i = ix2 r d := ⟨i 0, i 1, eq_ix2 i⟩
  rw [maximumf_apply, addf_apply, zero_bcast, bias_bcast, StackMember.dotGeneral_plain_apply, sum_runs6, Fin.sum_univ_six]
  simp only [mlp6, dot128]
  refine congrArg₂ (fun x y => max (x + y) 0) ?_ (bias_cast b hr d).symm
  exact (congrArg₂ (· + ·) (congrArg₂ (· + ·) (congrArg₂ (· + ·) (congrArg₂ (· + ·) (congrArg₂ (· + ·) (Finset.sum_congr rfl fun k _ => congrArg₂ (· * ·) (cat6_0 M p0 p1 p2 p3 p4 p5 hcat r k _ (by simp)) (slice_rows 768 0 W hs0 k d (by simp)))
      (Finset.sum_congr rfl fun k _ => congrArg₂ (· * ·) (cat6_1 M p0 p1 p2 p3 p4 p5 hcat r k _ (by simp)) (slice_rows 768 128 W hs1 k d (by simp))))
      (Finset.sum_congr rfl fun k _ => congrArg₂ (· * ·) (cat6_2 M p0 p1 p2 p3 p4 p5 hcat r k _ (by simp)) (slice_rows 768 256 W hs2 k d (by simp))))
      (Finset.sum_congr rfl fun k _ => congrArg₂ (· * ·) (cat6_3 M p0 p1 p2 p3 p4 p5 hcat r k _ (by simp)) (slice_rows 768 384 W hs3 k d (by simp))))
      (Finset.sum_congr rfl fun k _ => congrArg₂ (· * ·) (cat6_4 M p0 p1 p2 p3 p4 p5 hcat r k _ (by simp)) (slice_rows 768 512 W hs4 k d (by simp))))
      (Finset.sum_congr rfl fun k _ => congrArg₂ (· * ·) (cat6_5 M p0 p1 p2 p3 p4 p5 hcat r k _ (by simp)) (slice_rows 768 640 W hs5 k d (by simp))))

/-- One product over the 4·128 columns of the concatenation, plus the bias broadcast to every row, rectified, is the layer
    taken block by block against the 4 row slices of the weight matrix and the bias recast as a one-row matrix. -/
theorem layer4 (M : Nat) (p0 p1 p2 p3 : Arr M 128) (W : Arr 512 128) (b : Row)
    (hcat : Shape.Concatenates [(⟨2, ![M, 128]⟩ : Shape), (⟨2, ![M, 128]⟩ : Shape), (⟨2, ![M, 128]⟩ : Shape), (⟨2, ![M, 128]⟩ : Shape)] ⟨2, ![M, 512]⟩ 1)
    (D : DotDims ⟨2, ![M, 512]⟩ ⟨2, ![512, 128]⟩ ⟨2, ![M, 128]⟩) (hD : D = DotDims.plain M 512 128)
    (hb1 : (⟨1, ![128]⟩ : Shape).BroadcastsInDim ⟨2, ![1, 128]⟩ ![1])
    (hb2 : (⟨2, ![1, 128]⟩ : Shape).BroadcastsInDim ⟨2, ![M, 128]⟩ ![0, 1])
    (hb0 : (⟨0, ![]⟩ : Shape).BroadcastsInDim ⟨2, ![M, 128]⟩ ![])
    (hs0 : (⟨2, ![512, 128]⟩ : Shape).Slices ![0, 0] ⟨2, ![128, 128]⟩)
    (hs1 : (⟨2, ![512, 128]⟩ : Shape).Slices ![128, 0] ⟨2, ![128, 128]⟩)
    (hs2 : (⟨2, ![512, 128]⟩ : Shape).Slices ![256, 0] ⟨2, ![128, 128]⟩)
    (hs3 : (⟨2, ![512, 128]⟩ : Shape).Slices ![384, 0] ⟨2, ![128, 128]⟩)
    (hr : (⟨1, ![128]⟩ : Shape).ShapeCasts ⟨2, ![1, 128]⟩) :
    maximumf (F := Ideal) (φ := .f32)
        (addf (Host.dotGeneral (φ₁ := .f32) (φ₂ := .f32) D none (concatenate ⟨2, ![M, 512]⟩ 1 [⟨⟨2, ![M, 128]⟩, p0⟩, ⟨⟨2, ![M, 128]⟩, p1⟩, ⟨⟨2, ![M, 128]⟩, p2⟩, ⟨⟨2, ![M, 128]⟩, p3⟩] hcat) W)
          (broadcastInDim ⟨2, ![M, 128]⟩ ![0, 1] hb2 (broadcastInDim ⟨2, ![1, 128]⟩ ![1] hb1 b)))
        (broadcastInDim ⟨2, ![M, 128]⟩ ![] hb0 (constant (F := Ideal) ⟨0, ![]⟩ .f32 0x00000000#32))
      = mlp4 M p0 p1 p2 p3
          (extractStridedSlice ⟨2, ![128, 128]⟩ ![0, 0] W hs0)
          (extractStridedSlice ⟨2, ![128, 128]⟩ ![128, 0] W hs1)
          (extractStridedSlice ⟨2, ![128, 128]⟩ ![256, 0] W hs2)
          (extractStridedSlice ⟨2, ![128, 128]⟩ ![384, 0] W hs3)
          (fun i => shapeCast ⟨2, ![1, 128]⟩ b hr i) := by
  subst hD
  funext i
  obtain ⟨r, d, rfl⟩ : ∃ (r : Fin M) (d : Fin 128), i = ix2 r d := ⟨i 0, i 1, eq_ix2 i⟩
  rw [maximumf_apply, addf_apply, zero_bcast, bias_bcast, StackMember.dotGeneral_plain_apply, sum_runs4, Fin.sum_univ_four]
  simp only [mlp4, dot128]
  refine congrArg₂ (fun x y => max (x + y) 0) ?_ (bias_cast b hr d).symm
  exact (congrArg₂ (· + ·) (congrArg₂ (· + ·) (congrArg₂ (· + ·) (Finset.sum_congr rfl fun k _ => congrArg₂ (· * ·) (cat4_0 M p0 p1 p2 p3 hcat r k _ (by simp)) (slice_rows 512 0 W hs0 k d (by simp)))
      (Finset.sum_congr rfl fun k _ => congrArg₂ (· * ·) (cat4_1 M p0 p1 p2 p3 hcat r k _ (by simp)) (slice_rows 512 128 W hs1 k d (by simp))))
      (Finset.sum_congr rfl fun k _ => congrArg₂ (· * ·) (cat4_2 M p0 p1 p2 p3 hcat r k _ (by simp)) (slice_rows 512 256 W hs2 k d (by simp))))
      (Finset.sum_congr rfl fun k _ => congrArg₂ (· * ·) (cat4_3 M p0 p1 p2 p3 hcat r k _ (by simp)) (slice_rows 512 384 W hs3 k d (by simp))))

end LayerLaw

end
-- ==== Proof.Mlp0.lean ====
/-
  The edge layer: the idealized kernel's region output and the reference's result agree.

  The kernel's region leaves the layer of its input arrays taken block by block — the row-block parts against the 128-row
  slices of the weight matrix, plus the bias recast as a one-row matrix, rectified. The reference concatenates the same
  parts, multiplies once by the whole weight matrix, adds the bias broadcast to every row, and rectifies. The parts are
  paired already; the two forms of the layer are one function.
-/
import proofs.«134187_j30227979829536_1_alg».proof.Proof.Corr0
import proofs.«134187_j30227979829536_1_alg».proof.Proof.KRegionB
import proofs.«134187_j30227979829536_1_alg».proof.Proof.LayerLaw

set_option maxRecDepth 16384
-- an equation between a buffer of one program and a buffer of the other has both buffers' types computed from the programs' tables
set_option maxHeartbeats 4000000

noncomputable section

namespace Cert.Corr

open Idealize.ShloMosaic Idealize.ShloMosaic.StableHlo Idealize.ShloMosaic.TcCoe Idealize.SL.Sem

-- the gathers, scatters and reductions feeding the layer are folds over an operand's elements; nothing here looks inside one
attribute [local irreducible] Host.reduceWindow Host.reduce Host.gather Host.scatter Host.scatterAdd

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal)) (h : Agree m c VR)
include h

theorem out0 : Cert.KernelIdeal.Gen.W34 (F := Ideal) m ρ c (Proc.devRef .tc Cert.KernelIdeal.main_v60)
    = after (Cert.ReferenceIdeal.HandRun.ops (F := Ideal)) VR (Proc.devRef .tc Cert.ReferenceIdeal.main_v58) := by
  rw [Cert.KernelIdeal.Final.region_out0 m ρ c,
    Cert.KernelIdeal.Final.fin_main_v53 m ρ c, Cert.KernelIdeal.Final.fin_main_v54 m ρ c, Cert.KernelIdeal.Final.fin_main_v55 m ρ c, Cert.KernelIdeal.Final.fin_main_v56 m ρ c, Cert.KernelIdeal.Final.fin_main_v57 m ρ c, Cert.KernelIdeal.Final.fin_main_v58 m ρ c, Cert.KernelIdeal.Final.fin_main_v59 m ρ c,
    arg_main_arg1 ρ h, p_main_v14__main_v27 m ρ c VR h, p_main_v21__main_v34 m ρ c VR h, p_main_v52__main_v20 m ρ c VR h, p_main_v28__main_v43 m ρ c VR h, p_main_v35__main_v52 m ρ c VR h, arg_main_arg4 ρ h, arg_main_arg5 ρ h,
    Cert.ReferenceIdeal.HandRun.at_main_v58 VR, Cert.ReferenceIdeal.HandRun.at_main_call4_v0 VR, Cert.ReferenceIdeal.HandRun.at_main_call4_cst VR, Cert.ReferenceIdeal.HandRun.at_main_v57 VR, Cert.ReferenceIdeal.HandRun.at_main_v54 VR, Cert.ReferenceIdeal.HandRun.at_main_v53 VR, Cert.ReferenceIdeal.HandRun.at_main_v56 VR, Cert.ReferenceIdeal.HandRun.at_main_v55 VR]
  exact (LayerLaw.layer6 262144 _ _ _ _ _ _ _ _
    Cert.ReferenceIdeal.Gen.concatenates_S262144x128_S262144x128_S262144x128_S262144x128_S262144x128_S262144x128_S262144x768_d1 Cert.ReferenceIdeal.dot_S262144x768_S768x128_S262144x128_1_0_0_1_n_n rfl
    Cert.ReferenceIdeal.Gen.bcast_S128_S1x128_1 Cert.ReferenceIdeal.Gen.bcast_S1x128_S262144x128_0_1 Cert.ReferenceIdeal.Gen.bcast_S_S262144x128
    Cert.KernelIdeal.Gen.slices_S768x128_S128x128_0_0 Cert.KernelIdeal.Gen.slices_S768x128_S128x128_128_0 Cert.KernelIdeal.Gen.slices_S768x128_S128x128_256_0 Cert.KernelIdeal.Gen.slices_S768x128_S128x128_384_0 Cert.KernelIdeal.Gen.slices_S768x128_S128x128_512_0 Cert.KernelIdeal.Gen.slices_S768x128_S128x128_640_0
    Cert.KernelIdeal.Gen.shapeCasts_S128_S1x128).symm

end Cert.Corr

end
-- ==== Proof.Corr1.lean ====
/-
  The host glue of the idealized kernel and of the reference compute the same values, given the dense layers before them do.

  Both programs gather rows, repeat the per-graph rows, sum over segments and mask with the same operations on the same
  operands; only the dense layers differ. Each lemma pairs one kernel buffer with one reference buffer: the two are written
  by the same operation applied to paired operands, so their contents after the runs agree when the operands' do.
-/
import proofs.«134187_j30227979829536_1_alg».proof.Proof.Corr0
import proofs.«134187_j30227979829536_1_alg».proof.Proof.Mlp0

set_option maxRecDepth 16384
-- an equation between a buffer of one program and a buffer of the other has both buffers' types computed from the programs' tables
set_option maxHeartbeats 4000000

noncomputable section

namespace Cert.Corr

open Idealize.ShloMosaic Idealize.ShloMosaic.StableHlo Idealize.ShloMosaic.TcCoe Idealize.SL.Sem

-- the reductions, gathers and scatters are folds over an operand's elements; no pairing looks inside one
attribute [local irreducible] Host.reduceWindow Host.reduce Host.gather Host.scatter Host.scatterAdd

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal)) (h : Agree m c VR)
include h

theorem p_main_v63__main_v61 : Cert.KernelIdeal.Gen.W34 (F := Ideal) m ρ c (Proc.devRef .tc Cert.KernelIdeal.main_v63) = after (Cert.ReferenceIdeal.HandRun.ops (F := Ideal)) VR (Proc.devRef .tc Cert.ReferenceIdeal.main_v61) := by
  rw [Cert.KernelIdeal.Final.fin_main_v63 m ρ c, Cert.ReferenceIdeal.HandRun.at_main_v61 VR, p_main_v61__main_v59 m ρ c VR h, p_main_v62__main_v60 m ρ c VR h, out0 m ρ c VR h]
  try rfl

theorem p_main_v66__main_v64 : Cert.KernelIdeal.Gen.W34 (F := Ideal) m ρ c (Proc.devRef .tc Cert.KernelIdeal.main_v66) = after (Cert.ReferenceIdeal.HandRun.ops (F := Ideal)) VR (Proc.devRef .tc Cert.ReferenceIdeal.main_v64) := by
  rw [Cert.KernelIdeal.Final.fin_main_v66 m ρ c, Cert.ReferenceIdeal.HandRun.at_main_v64 VR, p_main_v64__main_v62 m ρ c VR h, p_main_v65__main_v63 m ρ c VR h, out0 m ρ c VR h]
  try rfl

theorem p_main_v92__main_v92 : Cert.KernelIdeal.Gen.W34 (F := Ideal) m ρ c (Proc.devRef .tc Cert.KernelIdeal.main_v92) = after (Cert.ReferenceIdeal.HandRun.ops (F := Ideal)) VR (Proc.devRef .tc Cert.ReferenceIdeal.main_v92) := by
  rw [Cert.KernelIdeal.Final.fin_main_v92 m ρ c, Cert.ReferenceIdeal.HandRun.at_main_v92 VR, p_main_v90__main_v90 m ρ c VR h, p_main_v91__main_v91 m ρ c VR h, out0 m ρ c VR h]
  try rfl

theorem p_main_v95__main_v97 : Cert.KernelIdeal.Gen.W34 (F := Ideal) m ρ c (Proc.devRef .tc Cert.KernelIdeal.main_v95) = after (Cert.ReferenceIdeal.HandRun.ops (F := Ideal)) VR (Proc.devRef .tc Cert.ReferenceIdeal.main_v97) := by
  rw [Cert.KernelIdeal.Final.fin_main_v95 m ρ c, Cert.ReferenceIdeal.HandRun.at_main_v97 VR, p_main_v93__main_v95 m ρ c VR h, p_main_v94__main_v96 m ρ c VR h, out0 m ρ c VR h]
  try rfl

theorem p_main_v126__main_v128 : Cert.KernelIdeal.Gen.W34 (F := Ideal) m ρ c (Proc.devRef .tc Cert.KernelIdeal.main_v126) = after (Cert.ReferenceIdeal.HandRun.ops (F := Ideal)) VR (Proc.devRef .tc Cert.ReferenceIdeal.main_v128) := by
  rw [Cert.KernelIdeal.Final.fin_main_v126 m ρ c, Cert.ReferenceIdeal.HandRun.at_main_v128 VR, p_main_v124__main_v126 m ρ c VR h, p_main_v125__main_v127 m ρ c VR h, out0 m ρ c VR h]
  try rfl

end Cert.Corr

end
-- ==== Proof.RegionValue1.lean ====
/-
  Region 1 of the kernel: a dense layer over four row-block parts, tiled over rows in blocks of 2048.

  At a grid point the body reads block t of each of the four parts (rows 2048·t … 2048·t + 2047), the four whole 128 × 128
  weight blocks and the whole bias row, accumulates the four 128-wide products into zero, adds the bias row to every
  row and takes the maximum with zero: at row r and column d of the block that is the layer's value at (r, d) of the
  blocks. Because the layer's row depends on the same row of each part only, what point t writes back is block t of
  the layer of the whole arrays; the 64 blocks tile the 131072 rows, so the output array ends holding the layer.
-/
import proofs.«134187_j30227979829536_1_alg».proof.Proof.Gen.KernelIdeal.Frame
import Idealize.ShloMosaic.Lib.ValueLayout
import Idealize.ShloMosaic.Lib.Pipeline.Value
import proofs.«134187_j30227979829536_1_alg».proof.Proof.RegionValueTile

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

/-- The body's stored value, from the blocks it loads: the layer of the blocks. Each product into the zero splat is
    the sum over the 128 shared coordinates; the format changes and the same-shape casts are the identity on extended
    reals; the zero the sum starts from is the real 0; the bias row is broadcast down the rows. -/
theorem pay1_eq (x0 x1 x2 x3 : Vec Ideal S2048x128 .f32) (w0 w1 w2 w3 : Vec Ideal S128x128 .f32) (b : Vec Ideal S1x128 .f32) :
    k1_pay1 (k1_pay2 x0 w0 x1 w1 x2 w2 x3 w3 b) = MlpSpec.mlp4 2048 x0 x1 x2 x3 w0 w1 w2 w3 b := by
  funext i
  obtain ⟨r, d, rfl⟩ : ∃ (r : Fin 2048) (d : Fin 128), i = ix2 r d := ⟨i 0, i 1, eq_ix2 i⟩
  have hm : ∀ (A : FVec Ideal S2048x128 .bf16) (B : FVec Ideal S128x128 .bf16),
      matmul dot_S2048x128_S128x128_S2048x128_1_0_0_1_n_n none A B (constant S2048x128 .f32 0x00000000#32) (ix2 r d)
        = ∑ k : Fin 128, A (ix2 r k) * B (ix2 k d) := fun A B =>
    MlpSpec.Tile.matmul_zero_apply dot_S2048x128_S128x128_S2048x128_1_0_0_1_n_n_wf none A B r d
  unfold k1_pay1 k1_pay2 MlpSpec.mlp4 MlpSpec.dot128
  simp only [maximumf_apply, addf_apply, broadcast_apply, hm, truncf_apply, shapeCast_self, broadcastTo_1b_ab_apply]
  rw [Ideal.ofBits_def, Ideal.ofBits_zero_f32, zero_add]

variable (V : (c : Dev nD) → (b : Ref sig .tc) → Buf (Elt Ideal) ((c : Thread nD τ).loc b))

theorem zero_offsets1 : (![0, 0] : Fin 2 → Nat) = fun _ => 0 := funext fun a => by fin_cases a <;> rfl

/-- The index maps, decided over the grid: each part's block moves with the output's down the rows and sits at column
    block 0; the weight and bias windows stay at block (0, 0); the output's row block at point t is t. -/
theorem index_maps1 : ∀ t : Fin cfg1.N,
      win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = win1_9.index t (0 : Fin 2) ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- What point t writes back is block t of the layer of the arrays the region finds. -/
theorem flushed1_eq (c : Dev nD) (t : Fin cfg1.N) :
    (dat1 (F := Ideal) V c).flushed 9 t = ((cfg1.win 9).blk t).view.read (Elt Ideal)
      (MlpSpec.mlp4 131072 (V c main_arg0) (V c main_v63) (V c main_v66) (V c main_v83) (V c main_v84) (V c main_v85) (V c main_v86) (V c main_v87) (V c main_v88)) := by
  show (cfg1.win 9).cut (grid1.coords t) ((dat1 V c).after 9 t) = _
  rw [after1_9]
  unfold out1_9
  rw [View.canon_unit_zero zero_offsets1]
  simp only [View.ld_unit_zero (S := S2048x128) zero_offsets1, View.ld_unit_zero (S := S128x128) zero_offsets1,
    View.ld_unit_zero (S := S1x128) zero_offsets1]
  rw [pay1_eq]
  obtain ⟨a0, b0, a1, b1, a2, b2, a3, b3, a4, b4, a5, b5, a6, b6, a7, b7, a8, b8, a9, b9⟩ := index_maps1 t
  have ht : t.val < 64 := lt_of_lt_of_eq t.isLt N_1
  funext j
  obtain ⟨r, d, rfl⟩ : ∃ (r : Fin 2048) (d : Fin 128), j = ix2 r d := ⟨j 0, j 1, eq_ix2 j⟩
  have hr := r.isLt; have hd := d.isLt
  -- block row r' of point t is row 2048·t + r' of the arrays
  let ρ : Fin 2048 → Fin 131072 := fun r' => ⟨win1_9.index t (0 : Fin 2) * 2048 + r'.val, by have := r'.isLt; omega⟩
  have he : ((cfg1.win 9).blk t).view.emb (ix2 r d) = ix2 (ρ r) d := by
    refine funext fun a => Fin.ext ?_
    match a with
    | ⟨0, _⟩ => show win1_9.index t (0 : Fin 2) * 2048 + 1 * r.val = win1_9.index t (0 : Fin 2) * 2048 + r.val; omega
    | ⟨1, _⟩ => show win1_9.index t (1 : Fin 2) * 128 + 1 * d.val = d.val; omega
  show MlpSpec.mlp4 2048 (iblk1 V c 0 t) (iblk1 V c 1 t) (iblk1 V c 2 t) (iblk1 V c 3 t) (iblk1 V c 4 t) (iblk1 V c 5 t)
      (iblk1 V c 6 t) (iblk1 V c 7 t) (iblk1 V c 8 t) (ix2 r d)
    = MlpSpec.mlp4 131072 (V c main_arg0) (V c main_v63) (V c main_v66) (V c main_v83) (V c main_v84) (V c main_v85) (V c main_v86) (V c main_v87) (V c main_v88)
      (((cfg1.win 9).blk t).view.emb (ix2 r d))
  rw [he]
  exact MlpSpec.Tile.mlp4_block ρ _ _ _ _ _ _ _ _ _ _ _ _ _ _ _ _ _ _
    (by
      intro r' k
      show V c main_arg0 (((cfg1.win 0).blk t).view.emb (ix2 r' k)) = _
      refine congrArg _ (funext fun a => Fin.ext ?_)
      have hr' := r'.isLt; have hk := k.isLt
      match a with
      | ⟨0, _⟩ => show win1_0.index t (0 : Fin 2) * 2048 + 1 * r'.val = win1_9.index t (0 : Fin 2) * 2048 + r'.val; omega
      | ⟨1, _⟩ => show win1_0.index t (1 : Fin 2) * 128 + 1 * k.val = k.val; omega)
    (by
      intro r' k
      show V c main_v63 (((cfg1.win 1).blk t).view.emb (ix2 r' k)) = _
      refine congrArg _ (funext fun a => Fin.ext ?_)
      have hr' := r'.isLt; have hk := k.isLt
      match a with
      | ⟨0, _⟩ => show win1_1.index t (0 : Fin 2) * 2048 + 1 * r'.val = win1_9.index t (0 : Fin 2) * 2048 + r'.val; omega
      | ⟨1, _⟩ => show win1_1.index t (1 : Fin 2) * 128 + 1 * k.val = k.val; omega)
    (by
      intro r' k
      show V c main_v66 (((cfg1.win 2).blk t).view.emb (ix2 r' k)) = _
      refine congrArg _ (funext fun a => Fin.ext ?_)
      have hr' := r'.isLt; have hk := k.isLt
      match a with
      | ⟨0, _⟩ => show win1_2.index t (0 : Fin 2) * 2048 + 1 * r'.val = win1_9.index t (0 : Fin 2) * 2048 + r'.val; omega
      | ⟨1, _⟩ => show win1_2.index t (1 : Fin 2) * 128 + 1 * k.val = k.val; omega)
    (by
      intro r' k
      show V c main_v83 (((cfg1.win 3).blk t).view.emb (ix2 r' k)) = _
      refine congrArg _ (funext fun a => Fin.ext ?_)
      have hr' := r'.isLt; have hk := k.isLt
      match a with
      | ⟨0, _⟩ => show win1_3.index t (0 : Fin 2) * 2048 + 1 * r'.val = win1_9.index t (0 : Fin 2) * 2048 + r'.val; omega
      | ⟨1, _⟩ => show win1_3.index t (1 : Fin 2) * 128 + 1 * k.val = k.val; omega)
    (by
      intro k d'
      show V c main_v84 (((cfg1.win 4).blk t).view.emb (ix2 k d')) = _
      refine congrArg _ (funext fun a => Fin.ext ?_)
      have hk := k.isLt; have hd' := d'.isLt
      match a with
      | ⟨0, _⟩ => show win1_4.index t (0 : Fin 2) * 128 + 1 * k.val = k.val; omega
      | ⟨1, _⟩ => show win1_4.index t (1 : Fin 2) * 128 + 1 * d'.val = d'.val; omega)
    (by
      intro k d'
      show V c main_v85 (((cfg1.win 5).blk t).view.emb (ix2 k d')) = _
      refine congrArg _ (funext fun a => Fin.ext ?_)
      have hk := k.isLt; have hd' := d'.isLt
      match a with
      | ⟨0, _⟩ => show win1_5.index t (0 : Fin 2) * 128 + 1 * k.val = k.val; omega
      | ⟨1, _⟩ => show win1_5.index t (1 : Fin 2) * 128 + 1 * d'.val = d'.val; omega)
    (by
      intro k d'
      show V c main_v86 (((cfg1.win 6).blk t).view.emb (ix2 k d')) = _
      refine congrArg _ (funext fun a => Fin.ext ?_)
      have hk := k.isLt; have hd' := d'.isLt
      match a with
      | ⟨0, _⟩ => show win1_6.index t (0 : Fin 2) * 128 + 1 * k.val = k.val; omega
      | ⟨1, _⟩ => show win1_6.index t (1 : Fin 2) * 128 + 1 * d'.val = d'.val; omega)
    (by
      intro k d'
      show V c main_v87 (((cfg1.win 7).blk t).view.emb (ix2 k d')) = _
      refine congrArg _ (funext fun a => Fin.ext ?_)
      have hk := k.isLt; have hd' := d'.isLt
      match a with
      | ⟨0, _⟩ => show win1_7.index t (0 : Fin 2) * 128 + 1 * k.val = k.val; omega
      | ⟨1, _⟩ => show win1_7.index t (1 : Fin 2) * 128 + 1 * d'.val = d'.val; omega)
    (by
      intro d'
      show V c main_v88 (((cfg1.win 8).blk t).view.emb (ix2 (0 : Fin 1) d')) = _
      refine congrArg _ (funext fun a => Fin.ext ?_)
      have hd' := d'.isLt
      match a with
      | ⟨0, _⟩ => show win1_8.index t (0 : Fin 2) * 1 + 1 * 0 = 0; omega
      | ⟨1, _⟩ => show win1_8.index t (1 : Fin 2) * 128 + 1 * d'.val = d'.val; omega)
    r d

/-- Every row lies in the block of its quotient by 2048: the blocks cover the output array, which therefore ends
    holding the layer of the arrays the region finds. -/
theorem region1 (c : Dev nD) : (dat1 (F := Ideal) V c).arrAt 9 cfg1.N
      = MlpSpec.mlp4 131072 (V c main_arg0) (V c main_v63) (V c main_v66) (V c main_v83) (V c main_v84) (V c main_v85) (V c main_v86) (V c main_v87) (V c main_v88) :=
  (dat1 V c).arrAt_eq_of_cover 9 _ (fun t _ => flushed1_eq V c t) fun i => by
    have hi0 : (i 0).val < 131072 := (i 0).isLt
    have hi1 : (i 1).val < 128 := (i 1).isLt
    have hN : cfg1.N = 64 := N_1
    let t : Fin cfg1.N := ⟨(i 0).val / 2048, by rw [hN]; omega⟩
    obtain ⟨-, -, -, -, -, -, -, -, -, -, -, -, -, -, -, -, -, -, a9, b9⟩ := index_maps1 t
    have a9' : win1_9.index t (0 : Fin 2) = (i 0).val / 2048 := a9
    refine ⟨t, flush1_9 t, ?_⟩
    show i ∈ ((View.whole (Pipeline.arrRef spec1 9)).slice (win1_9.rect t)).set
    rw [View.set_slice_whole, Rect.mem_set_unit]
    intro a
    match a with
    | ⟨0, _⟩ => show win1_9.index t (0 : Fin 2) * 2048 ≤ (i 0).val ∧ (i 0).val < win1_9.index t (0 : Fin 2) * 2048 + 2048; omega
    | ⟨1, _⟩ => show win1_9.index t (1 : Fin 2) * 128 ≤ (i 1).val ∧ (i 1).val < win1_9.index t (1 : Fin 2) * 128 + 128; omega

end Cert.KernelIdeal.RegionValue

end
-- ==== Proof.RegionValue2.lean ====
/-
  Region 2 of the kernel: a dense layer over four row-block parts, tiled over rows in blocks of 2048.

  At a grid point the body reads block t of each of the four parts (rows 2048·t … 2048·t + 2047), the four whole 128 × 128
  weight blocks and the whole bias row, accumulates the four 128-wide products into zero, adds the bias row to every
  row and takes the maximum with zero: at row r and column d of the block that is the layer's value at (r, d) of the
  blocks. Because the layer's row depends on the same row of each part only, what point t writes back is block t of
  the layer of the whole arrays; the 64 blocks tile the 131072 rows, so the output array ends holding the layer.
-/
import proofs.«134187_j30227979829536_1_alg».proof.Proof.Gen.KernelIdeal.Frame
import Idealize.ShloMosaic.Lib.ValueLayout
import Idealize.ShloMosaic.Lib.Pipeline.Value
import proofs.«134187_j30227979829536_1_alg».proof.Proof.RegionValueTile

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

/-- The body's stored value, from the blocks it loads: the layer of the blocks. Each product into the zero splat is
    the sum over the 128 shared coordinates; the format changes and the same-shape casts are the identity on extended
    reals; the zero the sum starts from is the real 0; the bias row is broadcast down the rows. -/
theorem pay2_eq (x0 x1 x2 x3 : Vec Ideal S2048x128 .f32) (w0 w1 w2 w3 : Vec Ideal S128x128 .f32) (b : Vec Ideal S1x128 .f32) :
    k2_pay1 (k2_pay2 x0 w0 x1 w1 x2 w2 x3 w3 b) = MlpSpec.mlp4 2048 x0 x1 x2 x3 w0 w1 w2 w3 b := by
  funext i
  obtain ⟨r, d, rfl⟩ : ∃ (r : Fin 2048) (d : Fin 128), i = ix2 r d := ⟨i 0, i 1, eq_ix2 i⟩
  have hm : ∀ (A : FVec Ideal S2048x128 .bf16) (B : FVec Ideal S128x128 .bf16),
      matmul dot_S2048x128_S128x128_S2048x128_1_0_0_1_n_n none A B (constant S2048x128 .f32 0x00000000#32) (ix2 r d)
        = ∑ k : Fin 128, A (ix2 r k) * B (ix2 k d) := fun A B =>
    MlpSpec.Tile.matmul_zero_apply dot_S2048x128_S128x128_S2048x128_1_0_0_1_n_n_wf none A B r d
  unfold k2_pay1 k2_pay2 MlpSpec.mlp4 MlpSpec.dot128
  simp only [maximumf_apply, addf_apply, broadcast_apply, hm, truncf_apply, shapeCast_self, broadcastTo_1b_ab_apply]
  rw [Ideal.ofBits_def, Ideal.ofBits_zero_f32, zero_add]

variable (V : (c : Dev nD) → (b : Ref sig .tc) → Buf (Elt Ideal) ((c : Thread nD τ).loc b))

theorem zero_offsets2 : (![0, 0] : Fin 2 → Nat) = fun _ => 0 := funext fun a => by fin_cases a <;> rfl

/-- The index maps, decided over the grid: each part's block moves with the output's down the rows and sits at column
    block 0; the weight and bias windows stay at block (0, 0); the output's row block at point t is t. -/
theorem index_maps2 : ∀ t : Fin cfg2.N,
      win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = win2_9.index t (0 : Fin 2) ∧ win2_2.index t (1 : Fin 2) = 0
    ∧ win2_3.index t (0 : Fin 2) = win2_9.index t (0 : Fin 2) ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- What point t writes back is block t of the layer of the arrays the region finds. -/
theorem flushed2_eq (c : Dev nD) (t : Fin cfg2.N) :
    (dat2 (F := Ideal) V c).flushed 9 t = ((cfg2.win 9).blk t).view.read (Elt Ideal)
      (MlpSpec.mlp4 131072 (V c main_arg3) (V c main_v92) (V c main_v95) (V c main_v112) (V c main_v113) (V c main_v114) (V c main_v115) (V c main_v116) (V c main_v117)) := by
  show (cfg2.win 9).cut (grid2.coords t) ((dat2 V c).after 9 t) = _
  rw [after2_9]
  unfold out2_9
  rw [View.canon_unit_zero zero_offsets2]
  simp only [View.ld_unit_zero (S := S2048x128) zero_offsets2, View.ld_unit_zero (S := S128x128) zero_offsets2,
    View.ld_unit_zero (S := S1x128) zero_offsets2]
  rw [pay2_eq]
  obtain ⟨a0, b0, a1, b1, a2, b2, a3, b3, a4, b4, a5, b5, a6, b6, a7, b7, a8, b8, a9, b9⟩ := index_maps2 t
  have ht : t.val < 64 := lt_of_lt_of_eq t.isLt N_2
  funext j
  obtain ⟨r, d, rfl⟩ : ∃ (r : Fin 2048) (d : Fin 128), j = ix2 r d := ⟨j 0, j 1, eq_ix2 j⟩
  have hr := r.isLt; have hd := d.isLt
  -- block row r' of point t is row 2048·t + r' of the arrays
  let ρ : Fin 2048 → Fin 131072 := fun r' => ⟨win2_9.index t (0 : Fin 2) * 2048 + r'.val, by have := r'.isLt; omega⟩
  have he : ((cfg2.win 9).blk t).view.emb (ix2 r d) = ix2 (ρ r) d := by
    refine funext fun a => Fin.ext ?_
    match a with
    | ⟨0, _⟩ => show win2_9.index t (0 : Fin 2) * 2048 + 1 * r.val = win2_9.index t (0 : Fin 2) * 2048 + r.val; omega
    | ⟨1, _⟩ => show win2_9.index t (1 : Fin 2) * 128 + 1 * d.val = d.val; omega
  show MlpSpec.mlp4 2048 (iblk2 V c 0 t) (iblk2 V c 1 t) (iblk2 V c 2 t) (iblk2 V c 3 t) (iblk2 V c 4 t) (iblk2 V c 5 t)
      (iblk2 V c 6 t) (iblk2 V c 7 t) (iblk2 V c 8 t) (ix2 r d)
    = MlpSpec.mlp4 131072 (V c main_arg3) (V c main_v92) (V c main_v95) (V c main_v112) (V c main_v113) (V c main_v114) (V c main_v115) (V c main_v116) (V c main_v117)
      (((cfg2.win 9).blk t).view.emb (ix2 r d))
  rw [he]
  exact MlpSpec.Tile.mlp4_block ρ _ _ _ _ _ _ _ _ _ _ _ _ _ _ _ _ _ _
    (by
      intro r' k
      show V c main_arg3 (((cfg2.win 0).blk t).view.emb (ix2 r' k)) = _
      refine congrArg _ (funext fun a => Fin.ext ?_)
      have hr' := r'.isLt; have hk := k.isLt
      match a with
      | ⟨0, _⟩ => show win2_0.index t (0 : Fin 2) * 2048 + 1 * r'.val = win2_9.index t (0 : Fin 2) * 2048 + r'.val; omega
      | ⟨1, _⟩ => show win2_0.index t (1 : Fin 2) * 128 + 1 * k.val = k.val; omega)
    (by
      intro r' k
      show V c main_v92 (((cfg2.win 1).blk t).view.emb (ix2 r' k)) = _
      refine congrArg _ (funext fun a => Fin.ext ?_)
      have hr' := r'.isLt; have hk := k.isLt
      match a with
      | ⟨0, _⟩ => show win2_1.index t (0 : Fin 2) * 2048 + 1 * r'.val = win2_9.index t (0 : Fin 2) * 2048 + r'.val; omega
      | ⟨1, _⟩ => show win2_1.index t (1 : Fin 2) * 128 + 1 * k.val = k.val; omega)
    (by
      intro r' k
      show V c main_v95 (((cfg2.win 2).blk t).view.emb (ix2 r' k)) = _
      refine congrArg _ (funext fun a => Fin.ext ?_)
      have hr' := r'.isLt; have hk := k.isLt
      match a with
      | ⟨0, _⟩ => show win2_2.index t (0 : Fin 2) * 2048 + 1 * r'.val = win2_9.index t (0 : Fin 2) * 2048 + r'.val; omega
      | ⟨1, _⟩ => show win2_2.index t (1 : Fin 2) * 128 + 1 * k.val = k.val; omega)
    (by
      intro r' k
      show V c main_v112 (((cfg2.win 3).blk t).view.emb (ix2 r' k)) = _
      refine congrArg _ (funext fun a => Fin.ext ?_)
      have hr' := r'.isLt; have hk := k.isLt
      match a with
      | ⟨0, _⟩ => show win2_3.index t (0 : Fin 2) * 2048 + 1 * r'.val = win2_9.index t (0 : Fin 2) * 2048 + r'.val; omega
      | ⟨1, _⟩ => show win2_3.index t (1 : Fin 2) * 128 + 1 * k.val = k.val; omega)
    (by
      intro k d'
      show V c main_v113 (((cfg2.win 4).blk t).view.emb (ix2 k d')) = _
      refine congrArg _ (funext fun a => Fin.ext ?_)
      have hk := k.isLt; have hd' := d'.isLt
      match a with
      | ⟨0, _⟩ => show win2_4.index t (0 : Fin 2) * 128 + 1 * k.val = k.val; omega
      | ⟨1, _⟩ => show win2_4.index t (1 : Fin 2) * 128 + 1 * d'.val = d'.val; omega)
    (by
      intro k d'
      show V c main_v114 (((cfg2.win 5).blk t).view.emb (ix2 k d')) = _
      refine congrArg _ (funext fun a => Fin.ext ?_)
      have hk := k.isLt; have hd' := d'.isLt
      match a with
      | ⟨0, _⟩ => show win2_5.index t (0 : Fin 2) * 128 + 1 * k.val = k.val; omega
      | ⟨1, _⟩ => show win2_5.index t (1 : Fin 2) * 128 + 1 * d'.val = d'.val; omega)
    (by
      intro k d'
      show V c main_v115 (((cfg2.win 6).blk t).view.emb (ix2 k d')) = _
      refine congrArg _ (funext fun a => Fin.ext ?_)
      have hk := k.isLt; have hd' := d'.isLt
      match a with
      | ⟨0, _⟩ => show win2_6.index t (0 : Fin 2) * 128 + 1 * k.val = k.val; omega
      | ⟨1, _⟩ => show win2_6.index t (1 : Fin 2) * 128 + 1 * d'.val = d'.val; omega)
    (by
      intro k d'
      show V c main_v116 (((cfg2.win 7).blk t).view.emb (ix2 k d')) = _
      refine congrArg _ (funext fun a => Fin.ext ?_)
      have hk := k.isLt; have hd' := d'.isLt
      match a with
      | ⟨0, _⟩ => show win2_7.index t (0 : Fin 2) * 128 + 1 * k.val = k.val; omega
      | ⟨1, _⟩ => show win2_7.index t (1 : Fin 2) * 128 + 1 * d'.val = d'.val; omega)
    (by
      intro d'
      show V c main_v117 (((cfg2.win 8).blk t).view.emb (ix2 (0 : Fin 1) d')) = _
      refine congrArg _ (funext fun a => Fin.ext ?_)
      have hd' := d'.isLt
      match a with
      | ⟨0, _⟩ => show win2_8.index t (0 : Fin 2) * 1 + 1 * 0 = 0; omega
      | ⟨1, _⟩ => show win2_8.index t (1 : Fin 2) * 128 + 1 * d'.val = d'.val; omega)
    r d

/-- Every row lies in the block of its quotient by 2048: the blocks cover the output array, which therefore ends
    holding the layer of the arrays the region finds. -/
theorem region2 (c : Dev nD) : (dat2 (F := Ideal) V c).arrAt 9 cfg2.N
      = MlpSpec.mlp4 131072 (V c main_arg3) (V c main_v92) (V c main_v95) (V c main_v112) (V c main_v113) (V c main_v114) (V c main_v115) (V c main_v116) (V c main_v117) :=
  (dat2 V c).arrAt_eq_of_cover 9 _ (fun t _ => flushed2_eq V c t) fun i => by
    have hi0 : (i 0).val < 131072 := (i 0).isLt
    have hi1 : (i 1).val < 128 := (i 1).isLt
    have hN : cfg2.N = 64 := N_2
    let t : Fin cfg2.N := ⟨(i 0).val / 2048, by rw [hN]; omega⟩
    obtain ⟨-, -, -, -, -, -, -, -, -, -, -, -, -, -, -, -, -, -, a9, b9⟩ := index_maps2 t
    have a9' : win2_9.index t (0 : Fin 2) = (i 0).val / 2048 := a9
    refine ⟨t, flush2_9 t, ?_⟩
    show i ∈ ((View.whole (Pipeline.arrRef spec2 9)).slice (win2_9.rect t)).set
    rw [View.set_slice_whole, Rect.mem_set_unit]
    intro a
    match a with
    | ⟨0, _⟩ => show win2_9.index t (0 : Fin 2) * 2048 ≤ (i 0).val ∧ (i 0).val < win2_9.index t (0 : Fin 2) * 2048 + 2048; omega
    | ⟨1, _⟩ => show win2_9.index t (1 : Fin 2) * 128 ≤ (i 1).val ∧ (i 1).val < win2_9.index t (1 : Fin 2) * 128 + 128; omega

end Cert.KernelIdeal.RegionValue

end
-- ==== Proof.RegionValue3.lean ====
/-
  Region 3 of the kernel: a dense layer over four row-block parts, tiled over rows in blocks of 256.

  At a grid point the body reads block t of each of the four parts (rows 256·t … 256·t + 255), the four whole 128 × 128
  weight blocks and the whole bias row, accumulates the four 128-wide products into zero, adds the bias row to every
  row and takes the maximum with zero: at row r and column d of the block that is the layer's value at (r, d) of the
  blocks. Because the layer's row depends on the same row of each part only, what point t writes back is block t of
  the layer of the whole arrays; the 1 blocks tile the 256 rows, so the output array ends holding the layer.
-/
import proofs.«134187_j30227979829536_1_alg».proof.Proof.Gen.KernelIdeal.Frame
import Idealize.ShloMosaic.Lib.ValueLayout
import Idealize.ShloMosaic.Lib.Pipeline.Value
import proofs.«134187_j30227979829536_1_alg».proof.Proof.RegionValueTile

set_option maxRecDepth 16384

noncomputable section

namespace Cert.KernelIdeal.RegionValue

open Idealize.ShloMosaic Idealize.ShloMosaic.TcCoe Idealize.SL.Sem Cert.KernelIdeal Cert.KernelIdeal.Gen
open Idealize.ShloMosaic.ValueIdx
open Idealize.ShloMosaic.Pipeline (Dat)

/-- The body's stored value, from the blocks it loads: the layer of the blocks. Each product into the zero splat is
    the sum over the 128 shared coordinates; the format changes and the same-shape casts are the identity on extended
    reals; the zero the sum starts from is the real 0; the bias row is broadcast down the rows. -/
theorem pay3_eq (x0 x1 x2 x3 : Vec Ideal S256x128 .f32) (w0 w1 w2 w3 : Vec Ideal S128x128 .f32) (b : Vec Ideal S1x128 .f32) :
    k3_pay1 (k3_pay2 x0 w0 x1 w1 x2 w2 x3 w3 b) = MlpSpec.mlp4 256 x0 x1 x2 x3 w0 w1 w2 w3 b := by
  funext i
  obtain ⟨r, d, rfl⟩ : ∃ (r : Fin 256) (d : Fin 128), i = ix2 r d := ⟨i 0, i 1, eq_ix2 i⟩
  have hm : ∀ (A : FVec Ideal S256x128 .bf16) (B : FVec Ideal S128x128 .bf16),
      matmul dot_S256x128_S128x128_S256x128_1_0_0_1_n_n none A B (constant S256x128 .f32 0x00000000#32) (ix2 r d)
        = ∑ k : Fin 128, A (ix2 r k) * B (ix2 k d) := fun A B =>
    MlpSpec.Tile.matmul_zero_apply dot_S256x128_S128x128_S256x128_1_0_0_1_n_n_wf none A B r d
  unfold k3_pay1 k3_pay2 MlpSpec.mlp4 MlpSpec.dot128
  simp only [maximumf_apply, addf_apply, broadcast_apply, hm, truncf_apply, shapeCast_self, broadcastTo_1b_ab_apply]
  rw [Ideal.ofBits_def, Ideal.ofBits_zero_f32, zero_add]

variable (V : (c : Dev nD) → (b : Ref sig .tc) → Buf (Elt Ideal) ((c : Thread nD τ).loc b))

theorem zero_offsets3 : (![0, 0] : Fin 2 → Nat) = fun _ => 0 := funext fun a => by fin_cases a <;> rfl

/-- The index maps, decided over the grid: each part's block moves with the output's down the rows and sits at column
    block 0; the weight and bias windows stay at block (0, 0); the output's row block at point t is t. -/
theorem index_maps3 : ∀ t : Fin cfg3.N,
      win3_0.index t (0 : Fin 2) = win3_9.index t (0 : Fin 2) ∧ win3_0.index t (1 : Fin 2) = 0
    ∧ win3_1.index t (0 : Fin 2) = win3_9.index t (0 : Fin 2) ∧ win3_1.index t (1 : Fin 2) = 0
    ∧ win3_2.index t (0 : Fin 2) = win3_9.index t (0 : Fin 2) ∧ win3_2.index t (1 : Fin 2) = 0
    ∧ win3_3.index t (0 : Fin 2) = win3_9.index t (0 : Fin 2) ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- What point t writes back is block t of the layer of the arrays the region finds. -/
theorem flushed3_eq (c : Dev nD) (t : Fin cfg3.N) :
    (dat3 (F := Ideal) V c).flushed 9 t = ((cfg3.win 9).blk t).view.read (Elt Ideal)
      (MlpSpec.mlp4 256 (V c main_arg2) (V c main_v123) (V c main_v126) (V c main_v129) (V c main_v130) (V c main_v131) (V c main_v132) (V c main_v133) (V c main_v134)) := by
  show (cfg3.win 9).cut (grid3.coords t) ((dat3 V c).after 9 t) = _
  rw [after3_9]
  unfold out3_9
  rw [View.canon_unit_zero zero_offsets3]
  simp only [View.ld_unit_zero (S := S256x128) zero_offsets3, View.ld_unit_zero (S := S128x128) zero_offsets3,
    View.ld_unit_zero (S := S1x128) zero_offsets3]
  rw [pay3_eq]
  obtain ⟨a0, b0, a1, b1, a2, b2, a3, b3, a4, b4, a5, b5, a6, b6, a7, b7, a8, b8, a9, b9⟩ := index_maps3 t
  have ht : t.val < 1 := lt_of_lt_of_eq t.isLt N_3
  funext j
  obtain ⟨r, d, rfl⟩ : ∃ (r : Fin 256) (d : Fin 128), j = ix2 r d := ⟨j 0, j 1, eq_ix2 j⟩
  have hr := r.isLt; have hd := d.isLt
  -- block row r' of point t is row 256·t + r' of the arrays
  let ρ : Fin 256 → Fin 256 := fun r' => ⟨win3_9.index t (0 : Fin 2) * 256 + r'.val, by have := r'.isLt; omega⟩
  have he : ((cfg3.win 9).blk t).view.emb (ix2 r d) = ix2 (ρ r) d := by
    refine funext fun a => Fin.ext ?_
    match a with
    | ⟨0, _⟩ => show win3_9.index t (0 : Fin 2) * 256 + 1 * r.val = win3_9.index t (0 : Fin 2) * 256 + r.val; omega
    | ⟨1, _⟩ => show win3_9.index t (1 : Fin 2) * 128 + 1 * d.val = d.val; omega
  show MlpSpec.mlp4 256 (iblk3 V c 0 t) (iblk3 V c 1 t) (iblk3 V c 2 t) (iblk3 V c 3 t) (iblk3 V c 4 t) (iblk3 V c 5 t)
      (iblk3 V c 6 t) (iblk3 V c 7 t) (iblk3 V c 8 t) (ix2 r d)
    = MlpSpec.mlp4 256 (V c main_arg2) (V c main_v123) (V c main_v126) (V c main_v129) (V c main_v130) (V c main_v131) (V c main_v132) (V c main_v133) (V c main_v134)
      (((cfg3.win 9).blk t).view.emb (ix2 r d))
  rw [he]
  exact MlpSpec.Tile.mlp4_block ρ _ _ _ _ _ _ _ _ _ _ _ _ _ _ _ _ _ _
    (by
      intro r' k
      show V c main_arg2 (((cfg3.win 0).blk t).view.emb (ix2 r' k)) = _
      refine congrArg _ (funext fun a => Fin.ext ?_)
      have hr' := r'.isLt; have hk := k.isLt
      match a with
      | ⟨0, _⟩ => show win3_0.index t (0 : Fin 2) * 256 + 1 * r'.val = win3_9.index t (0 : Fin 2) * 256 + r'.val; omega
      | ⟨1, _⟩ => show win3_0.index t (1 : Fin 2) * 128 + 1 * k.val = k.val; omega)
    (by
      intro r' k
      show V c main_v123 (((cfg3.win 1).blk t).view.emb (ix2 r' k)) = _
      refine congrArg _ (funext fun a => Fin.ext ?_)
      have hr' := r'.isLt; have hk := k.isLt
      match a with
      | ⟨0, _⟩ => show win3_1.index t (0 : Fin 2) * 256 + 1 * r'.val = win3_9.index t (0 : Fin 2) * 256 + r'.val; omega
      | ⟨1, _⟩ => show win3_1.index t (1 : Fin 2) * 128 + 1 * k.val = k.val; omega)
    (by
      intro r' k
      show V c main_v126 (((cfg3.win 2).blk t).view.emb (ix2 r' k)) = _
      refine congrArg _ (funext fun a => Fin.ext ?_)
      have hr' := r'.isLt; have hk := k.isLt
      match a with
      | ⟨0, _⟩ => show win3_2.index t (0 : Fin 2) * 256 + 1 * r'.val = win3_9.index t (0 : Fin 2) * 256 + r'.val; omega
      | ⟨1, _⟩ => show win3_2.index t (1 : Fin 2) * 128 + 1 * k.val = k.val; omega)
    (by
      intro r' k
      show V c main_v129 (((cfg3.win 3).blk t).view.emb (ix2 r' k)) = _
      refine congrArg _ (funext fun a => Fin.ext ?_)
      have hr' := r'.isLt; have hk := k.isLt
      match a with
      | ⟨0, _⟩ => show win3_3.index t (0 : Fin 2) * 256 + 1 * r'.val = win3_9.index t (0 : Fin 2) * 256 + r'.val; omega
      | ⟨1, _⟩ => show win3_3.index t (1 : Fin 2) * 128 + 1 * k.val = k.val; omega)
    (by
      intro k d'
      show V c main_v130 (((cfg3.win 4).blk t).view.emb (ix2 k d')) = _
      refine congrArg _ (funext fun a => Fin.ext ?_)
      have hk := k.isLt; have hd' := d'.isLt
      match a with
      | ⟨0, _⟩ => show win3_4.index t (0 : Fin 2) * 128 + 1 * k.val = k.val; omega
      | ⟨1, _⟩ => show win3_4.index t (1 : Fin 2) * 128 + 1 * d'.val = d'.val; omega)
    (by
      intro k d'
      show V c main_v131 (((cfg3.win 5).blk t).view.emb (ix2 k d')) = _
      refine congrArg _ (funext fun a => Fin.ext ?_)
      have hk := k.isLt; have hd' := d'.isLt
      match a with
      | ⟨0, _⟩ => show win3_5.index t (0 : Fin 2) * 128 + 1 * k.val = k.val; omega
      | ⟨1, _⟩ => show win3_5.index t (1 : Fin 2) * 128 + 1 * d'.val = d'.val; omega)
    (by
      intro k d'
      show V c main_v132 (((cfg3.win 6).blk t).view.emb (ix2 k d')) = _
      refine congrArg _ (funext fun a => Fin.ext ?_)
      have hk := k.isLt; have hd' := d'.isLt
      match a with
      | ⟨0, _⟩ => show win3_6.index t (0 : Fin 2) * 128 + 1 * k.val = k.val; omega
      | ⟨1, _⟩ => show win3_6.index t (1 : Fin 2) * 128 + 1 * d'.val = d'.val; omega)
    (by
      intro k d'
      show V c main_v133 (((cfg3.win 7).blk t).view.emb (ix2 k d')) = _
      refine congrArg _ (funext fun a => Fin.ext ?_)
      have hk := k.isLt; have hd' := d'.isLt
      match a with
      | ⟨0, _⟩ => show win3_7.index t (0 : Fin 2) * 128 + 1 * k.val = k.val; omega
      | ⟨1, _⟩ => show win3_7.index t (1 : Fin 2) * 128 + 1 * d'.val = d'.val; omega)
    (by
      intro d'
      show V c main_v134 (((cfg3.win 8).blk t).view.emb (ix2 (0 : Fin 1) d')) = _
      refine congrArg _ (funext fun a => Fin.ext ?_)
      have hd' := d'.isLt
      match a with
      | ⟨0, _⟩ => show win3_8.index t (0 : Fin 2) * 1 + 1 * 0 = 0; omega
      | ⟨1, _⟩ => show win3_8.index t (1 : Fin 2) * 128 + 1 * d'.val = d'.val; omega)
    r d

/-- Every row lies in the block of its quotient by 256: the blocks cover the output array, which therefore ends
    holding the layer of the arrays the region finds. -/
theorem region3 (c : Dev nD) : (dat3 (F := Ideal) V c).arrAt 9 cfg3.N
      = MlpSpec.mlp4 256 (V c main_arg2) (V c main_v123) (V c main_v126) (V c main_v129) (V c main_v130) (V c main_v131) (V c main_v132) (V c main_v133) (V c main_v134) :=
  (dat3 V c).arrAt_eq_of_cover 9 _ (fun t _ => flushed3_eq V c t) fun i => by
    have hi0 : (i 0).val < 256 := (i 0).isLt
    have hi1 : (i 1).val < 128 := (i 1).isLt
    have hN : cfg3.N = 1 := N_3
    let t : Fin cfg3.N := ⟨(i 0).val / 256, by rw [hN]; omega⟩
    obtain ⟨-, -, -, -, -, -, -, -, -, -, -, -, -, -, -, -, -, -, a9, b9⟩ := index_maps3 t
    have a9' : win3_9.index t (0 : Fin 2) = (i 0).val / 256 := a9
    refine ⟨t, flush3_9 t, ?_⟩
    show i ∈ ((View.whole (Pipeline.arrRef spec3 9)).slice (win3_9.rect t)).set
    rw [View.set_slice_whole, Rect.mem_set_unit]
    intro a
    match a with
    | ⟨0, _⟩ => show win3_9.index t (0 : Fin 2) * 256 ≤ (i 0).val ∧ (i 0).val < win3_9.index t (0 : Fin 2) * 256 + 256; omega
    | ⟨1, _⟩ => show win3_9.index t (1 : Fin 2) * 128 ≤ (i 1).val ∧ (i 1).val < win3_9.index t (1 : Fin 2) * 128 + 128; omega

end Cert.KernelIdeal.RegionValue

end
-- ==== Proof.KRegionA.lean ====
/-
  The node, face and global layers' output arrays at the end of the run.

  A region's output array, once the region has run, holds the dense layer of the arrays the region found; neither that
  array nor those input arrays are written again before the end of the run. So at the end of the run the output array is
  the layer of the input arrays' final contents.
-/
import proofs.«134187_j30227979829536_1_alg».proof.Proof.KFinal
import proofs.«134187_j30227979829536_1_alg».proof.Proof.RegionValue1
import proofs.«134187_j30227979829536_1_alg».proof.Proof.RegionValue2
import proofs.«134187_j30227979829536_1_alg».proof.Proof.RegionValue3

set_option maxRecDepth 16384

noncomputable section

namespace Cert.KernelIdeal.Final

open Idealize.ShloMosaic Idealize.ShloMosaic.StableHlo Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Region 1's output array at the end of the run is the layer of its input arrays at the end of the run. -/
theorem region_out1 : W34 m ρ c (Proc.devRef .tc main_v89)
    = MlpSpec.mlp4 131072 (W34 m ρ c (Proc.devRef .tc main_arg0)) (W34 m ρ c (Proc.devRef .tc main_v63)) (W34 m ρ c (Proc.devRef .tc main_v66)) (W34 m ρ c (Proc.devRef .tc main_v83)) (W34 m ρ c (Proc.devRef .tc main_v84)) (W34 m ρ c (Proc.devRef .tc main_v85)) (W34 m ρ c (Proc.devRef .tc main_v86)) (W34 m ρ c (Proc.devRef .tc main_v87)) (W34 m ρ c (Proc.devRef .tc main_v88)) := by
  rw [to20 m ρ c main_v89 (by decide)]
  rw [to19 m ρ c main_arg0 (by decide), to19 m ρ c main_v63 (by decide), to19 m ρ c main_v66 (by decide), to19 m ρ c main_v83 (by decide), to19 m ρ c main_v84 (by decide), to19 m ρ c main_v85 (by decide), to19 m ρ c main_v86 (by decide), to19 m ρ c main_v87 (by decide), to19 m ρ c main_v88 (by decide)]
  exact (W20_arr m ρ c 9).trans (RegionValue.region1 (V19 m ρ) c)

/-- Region 2's output array at the end of the run is the layer of its input arrays at the end of the run. -/
theorem region_out2 : W34 m ρ c (Proc.devRef .tc main_v118)
    = MlpSpec.mlp4 131072 (W34 m ρ c (Proc.devRef .tc main_arg3)) (W34 m ρ c (Proc.devRef .tc main_v92)) (W34 m ρ c (Proc.devRef .tc main_v95)) (W34 m ρ c (Proc.devRef .tc main_v112)) (W34 m ρ c (Proc.devRef .tc main_v113)) (W34 m ρ c (Proc.devRef .tc main_v114)) (W34 m ρ c (Proc.devRef .tc main_v115)) (W34 m ρ c (Proc.devRef .tc main_v116)) (W34 m ρ c (Proc.devRef .tc main_v117)) := by
  rw [to30 m ρ c main_v118 (by decide)]
  rw [to29 m ρ c main_arg3 (by decide), to29 m ρ c main_v92 (by decide), to29 m ρ c main_v95 (by decide), to29 m ρ c main_v112 (by decide), to29 m ρ c main_v113 (by decide), to29 m ρ c main_v114 (by decide), to29 m ρ c main_v115 (by decide), to29 m ρ c main_v116 (by decide), to29 m ρ c main_v117 (by decide)]
  exact (W30_arr m ρ c 9).trans (RegionValue.region2 (V29 m ρ) c)

/-- Region 3's output array at the end of the run is the layer of its input arrays at the end of the run. -/
theorem region_out3 : W34 m ρ c (Proc.devRef .tc main_v135)
    = MlpSpec.mlp4 256 (W34 m ρ c (Proc.devRef .tc main_arg2)) (W34 m ρ c (Proc.devRef .tc main_v123)) (W34 m ρ c (Proc.devRef .tc main_v126)) (W34 m ρ c (Proc.devRef .tc main_v129)) (W34 m ρ c (Proc.devRef .tc main_v130)) (W34 m ρ c (Proc.devRef .tc main_v131)) (W34 m ρ c (Proc.devRef .tc main_v132)) (W34 m ρ c (Proc.devRef .tc main_v133)) (W34 m ρ c (Proc.devRef .tc main_v134)) := by
  rw [to33 m ρ c main_arg2 (by decide), to33 m ρ c main_v123 (by decide), to33 m ρ c main_v126 (by decide), to33 m ρ c main_v129 (by decide), to33 m ρ c main_v130 (by decide), to33 m ρ c main_v131 (by decide), to33 m ρ c main_v132 (by decide), to33 m ρ c main_v133 (by decide), to33 m ρ c main_v134 (by decide)]
  exact (W34_arr m ρ c 9).trans (RegionValue.region3 (V33 m ρ) c)

end Cert.KernelIdeal.Final

end
-- ==== Proof.Mlp1.lean ====
/-
  The node layer: the idealized kernel's region output and the reference's result agree.

  The kernel's region leaves the layer of its input arrays taken block by block — the row-block parts against the 128-row
  slices of the weight matrix, plus the bias recast as a one-row matrix, rectified. The reference concatenates the same
  parts, multiplies once by the whole weight matrix, adds the bias broadcast to every row, and rectifies. The parts are
  paired already; the two forms of the layer are one function.
-/
import proofs.«134187_j30227979829536_1_alg».proof.Proof.Corr1
import proofs.«134187_j30227979829536_1_alg».proof.Proof.KRegionA
import proofs.«134187_j30227979829536_1_alg».proof.Proof.LayerLaw

set_option maxRecDepth 16384
-- an equation between a buffer of one program and a buffer of the other has both buffers' types computed from the programs' tables
set_option maxHeartbeats 4000000

noncomputable section

namespace Cert.Corr

open Idealize.ShloMosaic Idealize.ShloMosaic.StableHlo Idealize.ShloMosaic.TcCoe Idealize.SL.Sem

-- the gathers, scatters and reductions feeding the layer are folds over an operand's elements; nothing here looks inside one
attribute [local irreducible] Host.reduceWindow Host.reduce Host.gather Host.scatter Host.scatterAdd

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal)) (h : Agree m c VR)
include h

theorem out1 : Cert.KernelIdeal.Gen.W34 (F := Ideal) m ρ c (Proc.devRef .tc Cert.KernelIdeal.main_v89)
    = after (Cert.ReferenceIdeal.HandRun.ops (F := Ideal)) VR (Proc.devRef .tc Cert.ReferenceIdeal.main_v87) := by
  rw [Cert.KernelIdeal.Final.region_out1 m ρ c,
    Cert.KernelIdeal.Final.fin_main_v84 m ρ c, Cert.KernelIdeal.Final.fin_main_v85 m ρ c, Cert.KernelIdeal.Final.fin_main_v86 m ρ c, Cert.KernelIdeal.Final.fin_main_v87 m ρ c, Cert.KernelIdeal.Final.fin_main_v88 m ρ c,
    arg_main_arg0 ρ h, p_main_v63__main_v61 m ρ c VR h, p_main_v66__main_v64 m ρ c VR h, p_main_v83__main_v81 m ρ c VR h, arg_main_arg6 ρ h, arg_main_arg7 ρ h,
    Cert.ReferenceIdeal.HandRun.at_main_v87 VR, Cert.ReferenceIdeal.HandRun.at_main_call9_v0 VR, Cert.ReferenceIdeal.HandRun.at_main_call9_cst VR, Cert.ReferenceIdeal.HandRun.at_main_v86 VR, Cert.ReferenceIdeal.HandRun.at_main_v83 VR, Cert.ReferenceIdeal.HandRun.at_main_v82 VR, Cert.ReferenceIdeal.HandRun.at_main_v85 VR, Cert.ReferenceIdeal.HandRun.at_main_v84 VR]
  exact (LayerLaw.layer4 131072 _ _ _ _ _ _
    Cert.ReferenceIdeal.Gen.concatenates_S131072x128_S131072x128_S131072x128_S131072x128_S131072x512_d1 Cert.ReferenceIdeal.dot_S131072x512_S512x128_S131072x128_1_0_0_1_n_n rfl
    Cert.ReferenceIdeal.Gen.bcast_S128_S1x128_1 Cert.ReferenceIdeal.Gen.bcast_S1x128_S131072x128_0_1 Cert.ReferenceIdeal.Gen.bcast_S_S131072x128
    Cert.KernelIdeal.Gen.slices_S512x128_S128x128_0_0 Cert.KernelIdeal.Gen.slices_S512x128_S128x128_128_0 Cert.KernelIdeal.Gen.slices_S512x128_S128x128_256_0 Cert.KernelIdeal.Gen.slices_S512x128_S128x128_384_0
    Cert.KernelIdeal.Gen.shapeCasts_S128_S1x128).symm

end Cert.Corr

end
-- ==== Proof.Mlp2.lean ====
/-
  The face layer: the idealized kernel's region output and the reference's result agree.

  The kernel's region leaves the layer of its input arrays taken block by block — the row-block parts against the 128-row
  slices of the weight matrix, plus the bias recast as a one-row matrix, rectified. The reference concatenates the same
  parts, multiplies once by the whole weight matrix, adds the bias broadcast to every row, and rectifies. The parts are
  paired already; the two forms of the layer are one function.
-/
import proofs.«134187_j30227979829536_1_alg».proof.Proof.Corr1
import proofs.«134187_j30227979829536_1_alg».proof.Proof.KRegionA
import proofs.«134187_j30227979829536_1_alg».proof.Proof.LayerLaw

set_option maxRecDepth 16384
-- an equation between a buffer of one program and a buffer of the other has both buffers' types computed from the programs' tables
set_option maxHeartbeats 4000000

noncomputable section

namespace Cert.Corr

open Idealize.ShloMosaic Idealize.ShloMosaic.StableHlo Idealize.ShloMosaic.TcCoe Idealize.SL.Sem

-- the gathers, scatters and reductions feeding the layer are folds over an operand's elements; nothing here looks inside one
attribute [local irreducible] Host.reduceWindow Host.reduce Host.gather Host.scatter Host.scatterAdd

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal)) (h : Agree m c VR)
include h

theorem out2 : Cert.KernelIdeal.Gen.W34 (F := Ideal) m ρ c (Proc.devRef .tc Cert.KernelIdeal.main_v118)
    = after (Cert.ReferenceIdeal.HandRun.ops (F := Ideal)) VR (Proc.devRef .tc Cert.ReferenceIdeal.main_v120) := by
  rw [Cert.KernelIdeal.Final.region_out2 m ρ c,
    Cert.KernelIdeal.Final.fin_main_v113 m ρ c, Cert.KernelIdeal.Final.fin_main_v114 m ρ c, Cert.KernelIdeal.Final.fin_main_v115 m ρ c, Cert.KernelIdeal.Final.fin_main_v116 m ρ c, Cert.KernelIdeal.Final.fin_main_v117 m ρ c,
    arg_main_arg3 ρ h, p_main_v92__main_v92 m ρ c VR h, p_main_v95__main_v97 m ρ c VR h, p_main_v112__main_v114 m ρ c VR h, arg_main_arg8 ρ h, arg_main_arg9 ρ h,
    Cert.ReferenceIdeal.HandRun.at_main_v120 VR, Cert.ReferenceIdeal.HandRun.at_main_call14_v0 VR, Cert.ReferenceIdeal.HandRun.at_main_call14_cst VR, Cert.ReferenceIdeal.HandRun.at_main_v119 VR, Cert.ReferenceIdeal.HandRun.at_main_v116 VR, Cert.ReferenceIdeal.HandRun.at_main_v115 VR, Cert.ReferenceIdeal.HandRun.at_main_v118 VR, Cert.ReferenceIdeal.HandRun.at_main_v117 VR]
  exact (LayerLaw.layer4 131072 _ _ _ _ _ _
    Cert.ReferenceIdeal.Gen.concatenates_S131072x128_S131072x128_S131072x128_S131072x128_S131072x512_d1 Cert.ReferenceIdeal.dot_S131072x512_S512x128_S131072x128_1_0_0_1_n_n rfl
    Cert.ReferenceIdeal.Gen.bcast_S128_S1x128_1 Cert.ReferenceIdeal.Gen.bcast_S1x128_S131072x128_0_1 Cert.ReferenceIdeal.Gen.bcast_S_S131072x128
    Cert.KernelIdeal.Gen.slices_S512x128_S128x128_0_0 Cert.KernelIdeal.Gen.slices_S512x128_S128x128_128_0 Cert.KernelIdeal.Gen.slices_S512x128_S128x128_256_0 Cert.KernelIdeal.Gen.slices_S512x128_S128x128_384_0
    Cert.KernelIdeal.Gen.shapeCasts_S128_S1x128).symm

end Cert.Corr

end
-- ==== Proof.Corr2.lean ====
/-
  The host glue of the idealized kernel and of the reference compute the same values, given the dense layers before them do.

  Both programs gather rows, repeat the per-graph rows, sum over segments and mask with the same operations on the same
  operands; only the dense layers differ. Each lemma pairs one kernel buffer with one reference buffer: the two are written
  by the same operation applied to paired operands, so their contents after the runs agree when the operands' do.
-/
import proofs.«134187_j30227979829536_1_alg».proof.Proof.Corr1
import proofs.«134187_j30227979829536_1_alg».proof.Proof.Mlp1
import proofs.«134187_j30227979829536_1_alg».proof.Proof.Mlp2

set_option maxRecDepth 16384
-- an equation between a buffer of one program and a buffer of the other has both buffers' types computed from the programs' tables
set_option maxHeartbeats 4000000

noncomputable section

namespace Cert.Corr

open Idealize.ShloMosaic Idealize.ShloMosaic.StableHlo Idealize.ShloMosaic.TcCoe Idealize.SL.Sem

-- the reductions, gathers and scatters are folds over an operand's elements; no pairing looks inside one
attribute [local irreducible] Host.reduceWindow Host.reduce Host.gather Host.scatter Host.scatterAdd

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal)) (h : Agree m c VR)
include h

theorem p_main_v123__main_v125 : Cert.KernelIdeal.Gen.W34 (F := Ideal) m ρ c (Proc.devRef .tc Cert.KernelIdeal.main_v123) = after (Cert.ReferenceIdeal.HandRun.ops (F := Ideal)) VR (Proc.devRef .tc Cert.ReferenceIdeal.main_v125) := by
  rw [Cert.KernelIdeal.Final.fin_main_v123 m ρ c, Cert.ReferenceIdeal.HandRun.at_main_v125 VR, p_main_v121__main_v123 m ρ c VR h, p_main_v122__main_v124 m ρ c VR h, out1 m ρ c VR h]
  try rfl

theorem p_main_v120__main_v122 : Cert.KernelIdeal.Gen.W34 (F := Ideal) m ρ c (Proc.devRef .tc Cert.KernelIdeal.main_v120) = after (Cert.ReferenceIdeal.HandRun.ops (F := Ideal)) VR (Proc.devRef .tc Cert.ReferenceIdeal.main_v122) := by
  rw [Cert.KernelIdeal.Final.fin_main_v120 m ρ c, Cert.ReferenceIdeal.HandRun.at_main_v122 VR, p_main_call12_v0__main_call15_v0 m ρ c VR h, p_main_call12_v1__main_call15_v1 m ρ c VR h, out2 m ρ c VR h]
  try rfl

theorem p_main_v129__main_v131 : Cert.KernelIdeal.Gen.W34 (F := Ideal) m ρ c (Proc.devRef .tc Cert.KernelIdeal.main_v129) = after (Cert.ReferenceIdeal.HandRun.ops (F := Ideal)) VR (Proc.devRef .tc Cert.ReferenceIdeal.main_v131) := by
  rw [Cert.KernelIdeal.Final.fin_main_v129 m ρ c, Cert.ReferenceIdeal.HandRun.at_main_v131 VR, p_main_v127__main_v129 m ρ c VR h, p_main_v128__main_v130 m ρ c VR h, p_main_v120__main_v122 m ρ c VR h]
  try rfl

end Cert.Corr

end
-- ==== Proof.Mlp3.lean ====
/-
  The global layer: the idealized kernel's region output and the reference's result agree.

  The kernel's region leaves the layer of its input arrays taken block by block — the row-block parts against the 128-row
  slices of the weight matrix, plus the bias recast as a one-row matrix, rectified. The reference concatenates the same
  parts, multiplies once by the whole weight matrix, adds the bias broadcast to every row, and rectifies. The parts are
  paired already; the two forms of the layer are one function.
-/
import proofs.«134187_j30227979829536_1_alg».proof.Proof.Corr2
import proofs.«134187_j30227979829536_1_alg».proof.Proof.KRegionA
import proofs.«134187_j30227979829536_1_alg».proof.Proof.LayerLaw

set_option maxRecDepth 16384
-- an equation between a buffer of one program and a buffer of the other has both buffers' types computed from the programs' tables
set_option maxHeartbeats 4000000

noncomputable section

namespace Cert.Corr

open Idealize.ShloMosaic Idealize.ShloMosaic.StableHlo Idealize.ShloMosaic.TcCoe Idealize.SL.Sem

-- the gathers, scatters and reductions feeding the layer are folds over an operand's elements; nothing here looks inside one
attribute [local irreducible] Host.reduceWindow Host.reduce Host.gather Host.scatter Host.scatterAdd

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (VR : Valuation Cert.ReferenceIdeal.τ Cert.ReferenceIdeal.sig (Elt Ideal)) (h : Agree m c VR)
include h

theorem out3 : Cert.KernelIdeal.Gen.W34 (F := Ideal) m ρ c (Proc.devRef .tc Cert.KernelIdeal.main_v135)
    = after (Cert.ReferenceIdeal.HandRun.ops (F := Ideal)) VR (Proc.devRef .tc Cert.ReferenceIdeal.main_v137) := by
  rw [Cert.KernelIdeal.Final.region_out3 m ρ c,
    Cert.KernelIdeal.Final.fin_main_v130 m ρ c, Cert.KernelIdeal.Final.fin_main_v131 m ρ c, Cert.KernelIdeal.Final.fin_main_v132 m ρ c, Cert.KernelIdeal.Final.fin_main_v133 m ρ c, Cert.KernelIdeal.Final.fin_main_v134 m ρ c,
    arg_main_arg2 ρ h, p_main_v123__main_v125 m ρ c VR h, p_main_v126__main_v128 m ρ c VR h, p_main_v129__main_v131 m ρ c VR h, arg_main_arg10 ρ h, arg_main_arg11 ρ h,
    Cert.ReferenceIdeal.HandRun.at_main_v137 VR, Cert.ReferenceIdeal.HandRun.at_main_call16_v0 VR, Cert.ReferenceIdeal.HandRun.at_main_call16_cst VR, Cert.ReferenceIdeal.HandRun.at_main_v136 VR, Cert.ReferenceIdeal.HandRun.at_main_v133 VR, Cert.ReferenceIdeal.HandRun.at_main_v132 VR, Cert.ReferenceIdeal.HandRun.at_main_v135 VR, Cert.ReferenceIdeal.HandRun.at_main_v134 VR]
  exact (LayerLaw.layer4 256 _ _ _ _ _ _
    Cert.ReferenceIdeal.Gen.concatenates_S256x128_S256x128_S256x128_S256x128_S256x512_d1 Cert.ReferenceIdeal.dot_S256x512_S512x128_S256x128_1_0_0_1_n_n rfl
    Cert.ReferenceIdeal.Gen.bcast_S128_S1x128_1 Cert.ReferenceIdeal.Gen.bcast_S1x128_S256x128_0_1 Cert.ReferenceIdeal.Gen.bcast_S_S256x128
    Cert.KernelIdeal.Gen.slices_S512x128_S128x128_0_0 Cert.KernelIdeal.Gen.slices_S512x128_S128x128_128_0 Cert.KernelIdeal.Gen.slices_S512x128_S128x128_256_0 Cert.KernelIdeal.Gen.slices_S512x128_S128x128_384_0
    Cert.KernelIdeal.Gen.shapeCasts_S128_S1x128).symm

end Cert.Corr

end
-- ==== Proof.lean ====
/-
  The certificate of one message-passing step over a batch of graphs with edge, node, face and global features.

  Both programs gather the endpoint rows of every edge, repeat each graph's global row over its edges, nodes and faces,
  sum edge rows into nodes and faces and pool rows per graph; between these they apply four dense layers
  relu(concat(parts) · W + b). The reference forms each concatenation and multiplies once by the whole weight matrix. The
  kernel runs each layer as a pipelined region over row tiles that adds, part by part, the product of a part's tile with
  the matching 128-row slice of the weight matrix into a zero accumulator, then the bias row, then the rectifier. On the
  extended reals the two are one function: a sum over n·128 columns regrouped into n runs of 128 — commutativity and
  associativity of addition only, so the inputs' finiteness is never used.

  The kernel's run and its frame are the generated frame certificate's; its four result arrays at the end of the run are
  read back, stage by stage, to the arguments. The reference's run is written out operation by operation and read as a
  system of equations. Every value of the host glue on one side is paired with the value computed by the same operation
  on paired operands on the other; the four layers are paired by the law above.
-/
import proofs.«134187_j30227979829536_1_alg».proof.Defs
import proofs.«134187_j30227979829536_1_alg».proof.Proof.Gen.Kernel
import proofs.«134187_j30227979829536_1_alg».proof.Proof.Gen.Kernel.Frame
import proofs.«134187_j30227979829536_1_alg».proof.Proof.Gen.KernelIdeal
import proofs.«134187_j30227979829536_1_alg».proof.Proof.Gen.KernelIdeal.Frame
import proofs.«134187_j30227979829536_1_alg».proof.Proof.Gen.ReferenceIdeal
import proofs.«134187_j30227979829536_1_alg».proof.Proof.Gen.Pre_finite_inputs
import proofs.«134187_j30227979829536_1_alg».proof.Proof.KRun
import proofs.«134187_j30227979829536_1_alg».proof.Proof.RefRun
import proofs.«134187_j30227979829536_1_alg».proof.Proof.RefSsa
import proofs.«134187_j30227979829536_1_alg».proof.Proof.Mlp0
import proofs.«134187_j30227979829536_1_alg».proof.Proof.Mlp1
import proofs.«134187_j30227979829536_1_alg».proof.Proof.Mlp2
import proofs.«134187_j30227979829536_1_alg».proof.Proof.Mlp3
import Idealize.ShloMosaic.Adequacy
import Idealize.ShloMosaic.Init

set_option maxRecDepth 16384

noncomputable section

namespace Cert.Proof

open Idealize.ShloMosaic Idealize.ShloMosaic.StableHlo Idealize.ShloMosaic.TcCoe Idealize.SL.Sem

/-- The kernel as printed runs, nothing faulting, its arguments unchanged. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The idealized reference runs and no operation of it writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.HandRun.at_main_arg0 _),
     (h c Cert.ReferenceIdeal.main_arg1).trans (Cert.ReferenceIdeal.HandRun.at_main_arg1 _),
     (h c Cert.ReferenceIdeal.main_arg2).trans (Cert.ReferenceIdeal.HandRun.at_main_arg2 _),
     (h c Cert.ReferenceIdeal.main_arg3).trans (Cert.ReferenceIdeal.HandRun.at_main_arg3 _),
     (h c Cert.ReferenceIdeal.main_arg4).trans (Cert.ReferenceIdeal.HandRun.at_main_arg4 _),
     (h c Cert.ReferenceIdeal.main_arg5).trans (Cert.ReferenceIdeal.HandRun.at_main_arg5 _),
     (h c Cert.ReferenceIdeal.main_arg6).trans (Cert.ReferenceIdeal.HandRun.at_main_arg6 _),
     (h c Cert.ReferenceIdeal.main_arg7).trans (Cert.ReferenceIdeal.HandRun.at_main_arg7 _),
     (h c Cert.ReferenceIdeal.main_arg8).trans (Cert.ReferenceIdeal.HandRun.at_main_arg8 _),
     (h c Cert.ReferenceIdeal.main_arg9).trans (Cert.ReferenceIdeal.HandRun.at_main_arg9 _),
     (h c Cert.ReferenceIdeal.main_arg10).trans (Cert.ReferenceIdeal.HandRun.at_main_arg10 _),
     (h c Cert.ReferenceIdeal.main_arg11).trans (Cert.ReferenceIdeal.HandRun.at_main_arg11 _),
     (h c Cert.ReferenceIdeal.main_arg12).trans (Cert.ReferenceIdeal.HandRun.at_main_arg12 _),
     (h c Cert.ReferenceIdeal.main_arg13).trans (Cert.ReferenceIdeal.HandRun.at_main_arg13 _),
     (h c Cert.ReferenceIdeal.main_arg14).trans (Cert.ReferenceIdeal.HandRun.at_main_arg14 _),
     (h c Cert.ReferenceIdeal.main_arg15).trans (Cert.ReferenceIdeal.HandRun.at_main_arg15 _),
     (h c Cert.ReferenceIdeal.main_arg16).trans (Cert.ReferenceIdeal.HandRun.at_main_arg16 _),
     (h c Cert.ReferenceIdeal.main_arg17).trans (Cert.ReferenceIdeal.HandRun.at_main_arg17 _),
     (h c Cert.ReferenceIdeal.main_arg18).trans (Cert.ReferenceIdeal.HandRun.at_main_arg18 _),
     (h c Cert.ReferenceIdeal.main_arg19).trans (Cert.ReferenceIdeal.HandRun.at_main_arg19 _),
     (h c Cert.ReferenceIdeal.main_arg20).trans (Cert.ReferenceIdeal.HandRun.at_main_arg20 _)⟩)
    (Cert.ReferenceIdeal.HandRun.run_main (F := Ideal) m ρ)

/-- The ideal pass rewrote nothing. -/
theorem preserves : Cert.preserves_Kernel_KernelIdeal := trivial

/-- From memories agreeing on the arguments both idealized programs run and end with the same node, edge, global and
    face features: the kernel's result arrays at the end of its run are the reference's, layer by layer. -/
theorem algebraic : Cert.algebraic_KernelIdeal_ReferenceIdeal := by
  intro m ρ m' ρ' _ hagree
  refine ⟨fun c => Cert.KernelIdeal.Gen.W34 (F := Ideal) m ρ c (Proc.devRef .tc Cert.KernelIdeal.main_v89),
    fun c => Cert.KernelIdeal.Gen.W34 (F := Ideal) m ρ c (Proc.devRef .tc Cert.KernelIdeal.main_v60),
    fun c => Cert.KernelIdeal.Gen.W34 (F := Ideal) m ρ c (Proc.devRef .tc Cert.KernelIdeal.main_v135),
    fun c => Cert.KernelIdeal.Gen.W34 (F := Ideal) m ρ c (Proc.devRef .tc Cert.KernelIdeal.main_v120),
    Cert.KernelIdeal.HandRun.run_results (F := Ideal) m ρ, ?_⟩
  refine (θ_run Cert.ReferenceIdeal.defs _ _).mono (fun r h c => ?_) (Cert.ReferenceIdeal.HandRun.run_main (F := Ideal) m' ρ')
  obtain ⟨h0, h1, h2, h3, h4, h5, h6, h7, h8, h9, h10, h11, h12, h13, h14, h15, h16, h17, h18, h19, h20⟩ := hagree c
  have ha : Cert.Corr.Agree m c (launchContents m' c) := ⟨h0, h1, h2, h3, h4, h5, h6, h7, h8, h9, h10, h11, h12, h13, h14, h15, h16, h17, h18, h19, h20⟩
  exact ⟨(h c Cert.ReferenceIdeal.main_v87).trans (Cert.Corr.out1 m ρ c _ ha).symm,
    (h c Cert.ReferenceIdeal.main_v58).trans (Cert.Corr.out0 m ρ c _ ha).symm,
    (h c Cert.ReferenceIdeal.main_v137).trans (Cert.Corr.out3 m ρ c _ ha).symm,
    (h c Cert.ReferenceIdeal.main_v122).trans (Cert.Corr.p_main_v120__main_v122 m ρ c _ ha).symm,
    (h c Cert.ReferenceIdeal.main_arg0).trans (Cert.ReferenceIdeal.HandRun.at_main_arg0 _),
    (h c Cert.ReferenceIdeal.main_arg1).trans (Cert.ReferenceIdeal.HandRun.at_main_arg1 _),
    (h c Cert.ReferenceIdeal.main_arg2).trans (Cert.ReferenceIdeal.HandRun.at_main_arg2 _),
    (h c Cert.ReferenceIdeal.main_arg3).trans (Cert.ReferenceIdeal.HandRun.at_main_arg3 _),
    (h c Cert.ReferenceIdeal.main_arg4).trans (Cert.ReferenceIdeal.HandRun.at_main_arg4 _),
    (h c Cert.ReferenceIdeal.main_arg5).trans (Cert.ReferenceIdeal.HandRun.at_main_arg5 _),
    (h c Cert.ReferenceIdeal.main_arg6).trans (Cert.ReferenceIdeal.HandRun.at_main_arg6 _),
    (h c Cert.ReferenceIdeal.main_arg7).trans (Cert.ReferenceIdeal.HandRun.at_main_arg7 _),
    (h c Cert.ReferenceIdeal.main_arg8).trans (Cert.ReferenceIdeal.HandRun.at_main_arg8 _),
    (h c Cert.ReferenceIdeal.main_arg9).trans (Cert.ReferenceIdeal.HandRun.at_main_arg9 _),
    (h c Cert.ReferenceIdeal.main_arg10).trans (Cert.ReferenceIdeal.HandRun.at_main_arg10 _),
    (h c Cert.ReferenceIdeal.main_arg11).trans (Cert.ReferenceIdeal.HandRun.at_main_arg11 _),
    (h c Cert.ReferenceIdeal.main_arg12).trans (Cert.ReferenceIdeal.HandRun.at_main_arg12 _),
    (h c Cert.ReferenceIdeal.main_arg13).trans (Cert.ReferenceIdeal.HandRun.at_main_arg13 _),
    (h c Cert.ReferenceIdeal.main_arg14).trans (Cert.ReferenceIdeal.HandRun.at_main_arg14 _),
    (h c Cert.ReferenceIdeal.main_arg15).trans (Cert.ReferenceIdeal.HandRun.at_main_arg15 _),
    (h c Cert.ReferenceIdeal.main_arg16).trans (Cert.ReferenceIdeal.HandRun.at_main_arg16 _),
    (h c Cert.ReferenceIdeal.main_arg17).trans (Cert.ReferenceIdeal.HandRun.at_main_arg17 _),
    (h c Cert.ReferenceIdeal.main_arg18).trans (Cert.ReferenceIdeal.HandRun.at_main_arg18 _),
    (h c Cert.ReferenceIdeal.main_arg19).trans (Cert.ReferenceIdeal.HandRun.at_main_arg19 _),
    (h c Cert.ReferenceIdeal.main_arg20).trans (Cert.ReferenceIdeal.HandRun.at_main_arg20 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
